-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000x1 : Shape := ⟨2, ![1600000, 1]⟩
abbrev S512 : Shape := ⟨1, ![512]⟩
abbrev S1x32 : Shape := ⟨2, ![1, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S_ : Shape := ⟨0, ![]⟩

class Facts : Prop where
  bcast_S_S1600000x1 : S_.BroadcastsInDim S1600000x1 (![] : Fin 0 → Fin S1600000x1.rank)
  reducesTo_S1600000x1_S_d0_1 : S1600000x1.ReducesTo [0, 1] S_
  h_S_ : 0 < S_.numel
  bcast_S_S512 : S_.BroadcastsInDim S512 (![] : Fin 0 → Fin S512.rank)
  reducesTo_S512_S_d0 : S512.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S129x64 : S_.BroadcastsInDim S129x64 (![] : Fin 0 → Fin S129x64.rank)
  reducesTo_S129x64_S_d0_1 : S129x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_v168 : IVec S_ 1) (main_v169 : FVec F S1 .f32) (main_v170 : FVec F S1 .f32) : IVec S_ 1 :=
  let main_v171 : IVec S1 1 := cmpf .olt main_v169 main_v170
  let main_c_67 : IVec S_ 1 := constantI S_ 1 1#1
  let main_v172 : IVec S_ 1 := (fun x v => Host.reduce IntOp.andi x v reducesTo_S1_S_d0 h_S_) main_v171 main_c_67
  let main_v173 : IVec S_ 1 := andi main_v168 main_v172
  main_v173

def fn_part9 {F : FTy → Type} [FloatOps F] (main_arg37 : FVec F S129x64 .f32) (main_arg38 : FVec F S64 .f32) (main_arg39 : FVec F S64x1 .f32) (main_arg40 : FVec F S1 .f32) (main_v153 : IVec S_ 1) : IVec S_ 1 :=
  let main_v154 : FVec F S129x64 .f32 := Host.absf main_arg37
  let main_cst_60 : FVec F S_ .f32 := constant S_ .f32 0x7F800000#32
  let main_v155 : FVec F S129x64 .f32 := broadcastInDim S129x64 ![] bcast_S_S129x64 main_cst_60
  let main_v156 : IVec S129x64 1 := cmpf .olt main_v154 main_v155
  let main_c_61 : IVec S_ 1 := constantI S_ 1 1#1
  let main_v157 : IVec S_ 1 := (fun x v => Host.reduce IntOp.andi x v reducesTo_S129x64_S_d0_1 h_S_) main_v156 main_c_61
  let main_v158 : IVec S_ 1 := andi main_v153 main_v157
  let main_v159 : FVec F S64 .f32 := Host.absf main_arg38
  let main_cst_62 : FVec F S_ .f32 := constant S_ .f32 0x7F800000#32
  let main_v160 : FVec F S64 .f32 := broadcastInDim S64 ![] bcast_S_S64 main_cst_62
  let main_v161 : IVec S64 1 := cmpf .olt main_v159 main_v160
  let main_c_63 : IVec S_ 1 := constantI S_ 1 1#1
  let main_v162 : IVec S_ 1 := (fun x v => Host.reduce IntOp.andi x v reducesTo_S64_S_d0 h_S_) main_v161 main_c_63
  let main_v163 : IVec S_ 1 := andi main_v158 main_v162
  let main_v164 : FVec F S64x1 .f32 := Host.absf main_arg39
  let main_cst_64 : FVec F S_ .f32 := constant S_ .f32 0x7F800000#32
  let main_v165 : FVec F S64x1 .f32 := broadcastInDim S64x1 ![] bcast_S_S64x1 main_cst_64
  let main_v166 : IVec S64x1 1 := cmpf .olt main_v164 main_v165
  let main_c_65 : IVec S_ 1 := constantI S_ 1 1#1
  let main_v167 : IVec S_ 1 := (fun x v => Host.reduce IntOp.andi x v reducesTo_S64x1_S_d0_1 h_S_) main_v166 main_c_65
  let main_v168 : IVec S_ 1 := andi main_v163 main_v167
  let main_v169 : FVec F S1 .f32 := Host.absf main_arg40
  let main_cst_66 : FVec F S_ .f32 := constant S_ .f32 0x7F800000#32
  let main_v170 : FVec F S1 .f32 := broadcastInDim S1 ![] bcast_S_S1 main_cst_66
  fn_part10 (F := F) main_v168 main_v169 main_v170

def fn_part8 {F : FTy → Type} [FloatOps F] (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v133 : IVec S_ 1) (main_v136 : IVec S64x64 1) : IVec S_ 1 :=
  let main_c_53 : IVec S_ 1 := constantI S_ 1 1#1
  let main_v137 : IVec S_ 1 := (fun x v => Host.reduce IntOp.andi x v reducesTo_S64x64_S_d0_1 h_S_) main_v136 main_c_53
  let main_v138 : IVec S_ 1 := andi main_v133 main_v137
  let main_v139 : FVec F S64 .f32 := Host.absf main_arg34
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S32x64 .f32 := Host.absf main_arg35
  let main_cst_56 : FVec F S_ .f32 := constant S_ .f32 0x7F800000#32
  let main_v145 : FVec F S32x64 .f32 := broadcastInDim S32x64 ![] bcast_S_S32x64 main_cst_56
  let main_v146 : IVec S32x64 1 := cmpf .olt main_v144 main_v145
  let main_c_57 : IVec S_ 1 := constantI S_ 1 1#1
  let main_v147 : IVec S_ 1 := (fun x v => Host.reduce IntOp.andi x v reducesTo_S32x64_S_d0_1 h_S_) main_v146 main_c_57
  let main_v148 : IVec S_ 1 := andi main_v143 main_v147
  let main_v149 : FVec F S64 .f32 := Host.absf main_arg36
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  fn_part9 (F := F) main_arg37 main_arg38 main_arg39 main_arg40 main_v153

def fn_part7 {F : FTy → Type} [FloatOps F] (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg31
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg32
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64x64 .f32 := Host.absf main_arg33
  let main_cst_52 : FVec F S_ .f32 := constant S_ .f32 0x7F800000#32
  let main_v135 : FVec F S64x64 .f32 := broadcastInDim S64x64 ![] bcast_S_S64x64 main_cst_52
  let main_v136 : IVec S64x64 1 := cmpf .olt main_v134 main_v135
  fn_part8 (F := F) main_arg34 main_arg35 main_arg36 main_arg37 main_arg38 main_arg39 main_arg40 main_v133 main_v136

def fn_part6 {F : FTy → Type} [FloatOps F] (main_arg27 : FVec F S32x64 .f32) (main_arg28 : FVec F S64 .f32) (main_arg29 : FVec F S64x64 .f32) (main_arg30 : FVec F S64 .f32) (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S32x64 .f32 := Host.absf main_arg27
  let main_cst_40 : FVec F S_ .f32 := constant S_ .f32 0x7F800000#32
  let main_v105 : FVec F S32x64 .f32 := broadcastInDim S32x64 ![] bcast_S_S32x64 main_cst_40
  let main_v106 : IVec S32x64 1 := cmpf .olt main_v104 main_v105
  let main_c_41 : IVec S_ 1 := constantI S_ 1 1#1
  let main_v107 : IVec S_ 1 := (fun x v => Host.reduce IntOp.andi x v reducesTo_S32x64_S_d0_1 h_S_) main_v106 main_c_41
  let main_v108 : IVec S_ 1 := andi main_v103 main_v107
  let main_v109 : FVec F S64 .f32 := Host.absf main_arg28
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x64 .f32 := Host.absf main_arg29
  let main_cst_44 : FVec F S_ .f32 := constant S_ .f32 0x7F800000#32
  let main_v115 : FVec F S64x64 .f32 := broadcastInDim S64x64 ![] bcast_S_S64x64 main_cst_44
  let main_v116 : IVec S64x64 1 := cmpf .olt main_v114 main_v115
  let main_c_45 : IVec S_ 1 := constantI S_ 1 1#1
  let main_v117 : IVec S_ 1 := (fun x v => Host.reduce IntOp.andi x v reducesTo_S64x64_S_d0_1 h_S_) main_v116 main_c_45
  let main_v118 : IVec S_ 1 := andi main_v113 main_v117
  let main_v119 : FVec F S64 .f32 := Host.absf main_arg30
  fn_part7 (F := F) main_arg31 main_arg32 main_arg33 main_arg34 main_arg35 main_arg36 main_arg37 main_arg38 main_arg39 main_arg40 main_v118 main_v119

def fn_part5 {F : FTy → Type} [FloatOps F] (main_arg24 : FVec F S64 .f32) (main_arg25 : FVec F S32x64 .f32) (main_arg26 : FVec F S64 .f32) (main_arg27 : FVec F S32x64 .f32) (main_arg28 : FVec F S64 .f32) (main_arg29 : FVec F S64x64 .f32) (main_arg30 : FVec F S64 .f32) (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg24
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S32x64 .f32 := Host.absf main_arg25
  let main_cst_36 : FVec F S_ .f32 := constant S_ .f32 0x7F800000#32
  let main_v95 : FVec F S32x64 .f32 := broadcastInDim S32x64 ![] bcast_S_S32x64 main_cst_36
  let main_v96 : IVec S32x64 1 := cmpf .olt main_v94 main_v95
  let main_c_37 : IVec S_ 1 := constantI S_ 1 1#1
  let main_v97 : IVec S_ 1 := (fun x v => Host.reduce IntOp.andi x v reducesTo_S32x64_S_d0_1 h_S_) main_v96 main_c_37
  let main_v98 : IVec S_ 1 := andi main_v93 main_v97
  let main_v99 : FVec F S64 .f32 := Host.absf main_arg26
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg27 main_arg28 main_arg29 main_arg30 main_arg31 main_arg32 main_arg33 main_arg34 main_arg35 main_arg36 main_arg37 main_arg38 main_arg39 main_arg40 main_v98 main_v101 main_c_39

def fn_part4 {F : FTy → Type} [FloatOps F] (main_arg20 : FVec F S64 .f32) (main_arg21 : FVec F S64x64 .f32) (main_arg22 : FVec F S64 .f32) (main_arg23 : FVec F S64x64 .f32) (main_arg24 : FVec F S64 .f32) (main_arg25 : FVec F S32x64 .f32) (main_arg26 : FVec F S64 .f32) (main_arg27 : FVec F S32x64 .f32) (main_arg28 : FVec F S64 .f32) (main_arg29 : FVec F S64x64 .f32) (main_arg30 : FVec F S64 .f32) (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v63 : IVec S_ 1) (main_v67 : IVec S_ 1) : IVec S_ 1 :=
  let main_v68 : IVec S_ 1 := andi main_v63 main_v67
  let main_v69 : FVec F S64 .f32 := Host.absf main_arg20
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg21
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg22
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg23
  let main_cst_32 : FVec F S_ .f32 := constant S_ .f32 0x7F800000#32
  fn_part5 (F := F) main_arg24 main_arg25 main_arg26 main_arg27 main_arg28 main_arg29 main_arg30 main_arg31 main_arg32 main_arg33 main_arg34 main_arg35 main_arg36 main_arg37 main_arg38 main_arg39 main_arg40 main_v83 main_v84 main_cst_32

def fn_part3 {F : FTy → Type} [FloatOps F] (main_arg17 : FVec F S32x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S32x64 .f32) (main_arg26 : FVec F S64 .f32) (main_arg27 : FVec F S32x64 .f32) (main_arg28 : FVec F S64 .f32) (main_arg29 : FVec F S64x64 .f32) (main_arg30 : FVec F S64 .f32) (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x64 .f32 := Host.absf main_arg17
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg19
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v63 main_v67

def fn_part2 {F : FTy → Type} [FloatOps F] (main_arg13 : FVec F S1x32 .f32) (main_arg14 : FVec F S32 .f32) (main_arg15 : FVec F S32x32 .f32) (main_arg16 : FVec F S32 .f32) (main_arg17 : FVec F S32x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S32x64 .f32) (main_arg26 : FVec F S64 .f32) (main_arg27 : FVec F S32x64 .f32) (main_arg28 : FVec F S64 .f32) (main_arg29 : FVec F S64x64 .f32) (main_arg30 : FVec F S64 .f32) (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v33 : IVec S_ 1) : IVec S_ 1 :=
  let main_v34 : FVec F S1x32 .f32 := Host.absf main_arg13
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S32 .f32 := Host.absf main_arg14
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg15
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg16
  let main_cst_18 : FVec F S_ .f32 := constant S_ .f32 0x7F800000#32
  let main_v50 : FVec F S32 .f32 := broadcastInDim S32 ![] bcast_S_S32 main_cst_18
  fn_part3 (F := F) main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v48 main_v49 main_v50

def fn_part1 {F : FTy → Type} [FloatOps F] (main_arg10 : FVec F S32 .f32) (main_arg11 : FVec F S32x32 .f32) (main_arg12 : FVec F S32 .f32) (main_arg13 : FVec F S1x32 .f32) (main_arg14 : FVec F S32 .f32) (main_arg15 : FVec F S32x32 .f32) (main_arg16 : FVec F S32 .f32) (main_arg17 : FVec F S32x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S32x64 .f32) (main_arg26 : FVec F S64 .f32) (main_arg27 : FVec F S32x64 .f32) (main_arg28 : FVec F S64 .f32) (main_arg29 : FVec F S64x64 .f32) (main_arg30 : FVec F S64 .f32) (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg10
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg11
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg12
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v33

def fn {F : FTy → Type} [FloatOps F] (main_arg0 : IVec S100000 32) (main_arg1 : IVec S2x1600000 32) (main_arg2 : FVec F S1600000x1 .f32) (main_arg3 : IVec S100000 32) (main_arg4 : IVec S100000 32) (main_arg5 : IVec S2x1600000 32) (main_arg6 : FVec F S1600000x1 .f32) (main_arg7 : IVec S100000 32) (main_arg8 : FVec F S512 .f32) (main_arg9 : FVec F S1x32 .f32) (main_arg10 : FVec F S32 .f32) (main_arg11 : FVec F S32x32 .f32) (main_arg12 : FVec F S32 .f32) (main_arg13 : FVec F S1x32 .f32) (main_arg14 : FVec F S32 .f32) (main_arg15 : FVec F S32x32 .f32) (main_arg16 : FVec F S32 .f32) (main_arg17 : FVec F S32x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_arg25 : FVec F S32x64 .f32) (main_arg26 : FVec F S64 .f32) (main_arg27 : FVec F S32x64 .f32) (main_arg28 : FVec F S64 .f32) (main_arg29 : FVec F S64x64 .f32) (main_arg30 : FVec F S64 .f32) (main_arg31 : FVec F S64x64 .f32) (main_arg32 : FVec F S64 .f32) (main_arg33 : FVec F S64x64 .f32) (main_arg34 : FVec F S64 .f32) (main_arg35 : FVec F S32x64 .f32) (main_arg36 : FVec F S64 .f32) (main_arg37 : FVec F S129x64 .f32) (main_arg38 : FVec F S64 .f32) (main_arg39 : FVec F S64x1 .f32) (main_arg40 : FVec F S1 .f32) : IVec S_ 1 :=
  let main_v0 : FVec F S1600000x1 .f32 := Host.absf main_arg2
  let main_cst : FVec F S_ .f32 := constant S_ .f32 0x7F800000#32
  let main_v1 : FVec F S1600000x1 .f32 := broadcastInDim S1600000x1 ![] bcast_S_S1600000x1 main_cst
  let main_v2 : IVec S1600000x1 1 := cmpf .olt main_v0 main_v1
  let main_c : IVec S_ 1 := constantI S_ 1 1#1
  let main_v3 : IVec S_ 1 := (fun x v => Host.reduce IntOp.andi x v reducesTo_S1600000x1_S_d0_1 h_S_) main_v2 main_c
  let main_v4 : FVec F S1600000x1 .f32 := Host.absf main_arg6
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S512 .f32 := Host.absf main_arg8
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x32 .f32 := Host.absf main_arg9
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v13 main_v16
-- ==== Kernel.lean ====
abbrev S100000 : Shape := ⟨1, ![100000]⟩
abbrev S2x1600000 : Shape := ⟨2, ![2, 1600000]⟩
abbrev S1600000x1 : Shape := ⟨2, ![1600000, 1]⟩
abbrev S512 : Shape := ⟨1, ![512]⟩
abbrev S1x32 : Shape := ⟨2, ![1, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S_ : Shape := ⟨0, ![]⟩
abbrev S100000x1 : Shape := ⟨2, ![100000, 1]⟩
abbrev S100000x32 : Shape := ⟨2, ![100000, 32]⟩
abbrev S10000x1 : Shape := ⟨2, ![10000, 1]⟩
abbrev S10000x32 : Shape := ⟨2, ![10000, 32]⟩
abbrev S1600000x32 : Shape := ⟨2, ![1600000, 32]⟩
abbrev S8000x1 : Shape := ⟨2, ![8000, 1]⟩
abbrev S8000x32 : Shape := ⟨2, ![8000, 32]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x64 : Shape := ⟨2, ![10000, 64]⟩
abbrev S1600000x64 : Shape := ⟨2, ![1600000, 64]⟩
abbrev S8000x64 : Shape := ⟨2, ![8000, 64]⟩
abbrev S512x64 : Shape := ⟨2, ![512, 64]⟩
abbrev S512x1 : Shape := ⟨2, ![512, 1]⟩
abbrev S512x129 : Shape := ⟨2, ![512, 129]⟩
abbrev S1x1 : Shape := ⟨2, ![1, 1]⟩

abbrev nBuf : Space → Nat
  | .hbm => 203
  | .vmem => 114
  | .smem => 0
  | _ => 0

abbrev hbmTy0_0 (i : Nat) : BufTy := match i % 128 with
  | 0 => ⟨S100000, .i32⟩
  | 1 => ⟨S2x1600000, .i32⟩
  | 2 => ⟨S1600000x1, .f32⟩
  | 3 => ⟨S100000, .i32⟩
  | 4 => ⟨S100000, .i32⟩
  | 5 => ⟨S2x1600000, .i32⟩
  | 6 => ⟨S1600000x1, .f32⟩
  | 7 => ⟨S100000, .i32⟩
  | 8 => ⟨S512, .f32⟩
  | 9 => ⟨S1x32, .f32⟩
  | 10 => ⟨S32, .f32⟩
  | 11 => ⟨S32x32, .f32⟩
  | 12 => ⟨S32, .f32⟩
  | 13 => ⟨S1x32, .f32⟩
  | 14 => ⟨S32, .f32⟩
  | 15 => ⟨S32x32, .f32⟩
  | 16 => ⟨S32, .f32⟩
  | 17 => ⟨S32x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S32x64, .f32⟩
  | 26 => ⟨S64, .f32⟩
  | 27 => ⟨S32x64, .f32⟩
  | 28 => ⟨S64, .f32⟩
  | 29 => ⟨S64x64, .f32⟩
  | 30 => ⟨S64, .f32⟩
  | 31 => ⟨S64x64, .f32⟩
  | 32 => ⟨S64, .f32⟩
  | 33 => ⟨S64x64, .f32⟩
  | 34 => ⟨S64, .f32⟩
  | 35 => ⟨S32x64, .f32⟩
  | 36 => ⟨S64, .f32⟩
  | 37 => ⟨S129x64, .f32⟩
  | 38 => ⟨S64, .f32⟩
  | 39 => ⟨S64x1, .f32⟩
  | 40 => ⟨S1, .f32⟩
  | 41 => ⟨S100000, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .f32⟩
  | 48 => ⟨S_, .f32⟩
  | 49 => ⟨S_, .f32⟩
  | 50 => ⟨S_, .f32⟩
  | 51 => ⟨S100000, .f32⟩
  | 52 => ⟨S100000, .f32⟩
  | 53 => ⟨S_, .f32⟩
  | 54 => ⟨S100000, .f32⟩
  | 55 => ⟨S100000, .f32⟩
  | 56 => ⟨S100000x1, .f32⟩
  | 57 => ⟨S1x32, .f32⟩
  | 58 => ⟨S1x32, .f32⟩
  | 59 => ⟨S100000x32, .f32⟩
  | 60 => ⟨S1x32, .f32⟩
  | 61 => ⟨S1x32, .f32⟩
  | 62 => ⟨S1600000x32, .f32⟩
  | 63 => ⟨S1x1600000, .i32⟩
  | 64 => ⟨S1600000, .i32⟩
  | 65 => ⟨S1x1600000, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x32, .f32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S1x64, .f32⟩
  | 82 => ⟨S1x64, .f32⟩
  | 83 => ⟨S100000x64, .f32⟩
  | 84 => ⟨S1x64, .f32⟩
  | 85 => ⟨S1600000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .f32⟩
  | 95 => ⟨S1600000x64, .f32⟩
  | 96 => ⟨S_, .f32⟩
  | 97 => ⟨S100000x64, .f32⟩
  | 98 => ⟨S1600000x1, .i32⟩
  | 99 => ⟨S100000x64, .f32⟩
  | 100 => ⟨S1x64, .f32⟩
  | 101 => ⟨S1x64, .f32⟩
  | 102 => ⟨S100000x64, .f32⟩
  | 103 => ⟨S_, .f32⟩
  | 104 => ⟨S512x64, .f32⟩
  | 105 => ⟨S100000x1, .i32⟩
  | 106 => ⟨S512x64, .f32⟩
  | 107 => ⟨S_, .f32⟩
  | 108 => ⟨S100000, .f32⟩
  | 109 => ⟨S_, .f32⟩
  | 110 => ⟨S512, .f32⟩
  | 111 => ⟨S100000x1, .i32⟩
  | 112 => ⟨S512, .f32⟩
  | 113 => ⟨S_, .f32⟩
  | 114 => ⟨S512, .f32⟩
  | 115 => ⟨S512, .f32⟩
  | 116 => ⟨S512x1, .f32⟩
  | 117 => ⟨S512x64, .f32⟩
  | 118 => ⟨S512x64, .f32⟩
  | 119 => ⟨S100000, .f32⟩
  | 120 => ⟨S_, .f32⟩
  | 121 => ⟨S100000, .f32⟩
  | 122 => ⟨S100000, .f32⟩
  | 123 => ⟨S_, .f32⟩
  | 124 => ⟨S100000, .f32⟩
  | 125 => ⟨S100000, .f32⟩
  | 126 => ⟨S_, .f32⟩
  | 127 => ⟨S_, .f32⟩
  | _ => ⟨S100000, .i32⟩

abbrev hbmTy0_1 (i : Nat) : BufTy := match i % 128 with
  | 0 => ⟨S_, .f32⟩
  | 1 => ⟨S100000, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S1x32, .f32⟩
  | 8 => ⟨S1x32, .f32⟩
  | 9 => ⟨S100000x32, .f32⟩
  | 10 => ⟨S1x32, .f32⟩
  | 11 => ⟨S1x32, .f32⟩
  | 12 => ⟨S1600000x32, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x32, .f32⟩
  | 26 => ⟨S1600000x32, .f32⟩
  | 27 => ⟨S_, .f32⟩
  | 28 => ⟨S100000x32, .f32⟩
  | 29 => ⟨S1600000x1, .i32⟩
  | 30 => ⟨S100000x32, .f32⟩
  | 31 => ⟨S1x64, .f32⟩
  | 32 => ⟨S1x64, .f32⟩
  | 33 => ⟨S100000x64, .f32⟩
  | 34 => ⟨S1x64, .f32⟩
  | 35 => ⟨S1600000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S1x64, .f32⟩
  | 51 => ⟨S1x64, .f32⟩
  | 52 => ⟨S100000x64, .f32⟩
  | 53 => ⟨S_, .f32⟩
  | 54 => ⟨S512x64, .f32⟩
  | 55 => ⟨S100000x1, .i32⟩
  | 56 => ⟨S512x64, .f32⟩
  | 57 => ⟨S_, .f32⟩
  | 58 => ⟨S100000, .f32⟩
  | 59 => ⟨S_, .f32⟩
  | 60 => ⟨S512, .f32⟩
  | 61 => ⟨S100000x1, .i32⟩
  | 62 => ⟨S512, .f32⟩
  | 63 => ⟨S_, .f32⟩
  | 64 => ⟨S512, .f32⟩
  | 65 => ⟨S512, .f32⟩
  | 66 => ⟨S512x1, .f32⟩
  | 67 => ⟨S512x64, .f32⟩
  | 68 => ⟨S512x64, .f32⟩
  | 69 => ⟨S512x1, .f32⟩
  | 70 => ⟨S512x129, .f32⟩
  | 71 => ⟨S1x64, .f32⟩
  | 72 => ⟨S1x1, .f32⟩
  | 73 => ⟨S512x1, .f32⟩
  | 74 => ⟨S512, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S8000x1, .f32⟩
  | .local _ .vmem, ⟨9, _⟩ => ⟨S8000x1, .f32⟩
  | .local _ .vmem, ⟨10, _⟩ => ⟨S1x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S8000x32, .f32⟩
  | .local _ .vmem, ⟨18, _⟩ => ⟨S8000x32, .f32⟩
  | .local _ .vmem, ⟨19, _⟩ => ⟨S8000x32, .f32⟩
  | .local _ .vmem, ⟨20, _⟩ => ⟨S8000x32, .f32⟩
  | .local _ .vmem, ⟨21, _⟩ => ⟨S8000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S32x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S8000x32, .f32⟩
  | .local _ .vmem, ⟨33, _⟩ => ⟨S8000x32, .f32⟩
  | .local _ .vmem, ⟨34, _⟩ => ⟨S32x64, .f32⟩
  | .local _ .vmem, ⟨35, _⟩ => ⟨S1x64, .f32⟩
  | .local _ .vmem, ⟨36, _⟩ => ⟨S8000x64, .f32⟩
  | .local _ .vmem, ⟨37, _⟩ => ⟨S8000x64, .f32⟩
  | .local _ .vmem, ⟨38, _⟩ => ⟨S8000x64, .f32⟩
  | .local _ .vmem, ⟨39, _⟩ => ⟨S8000x64, .f32⟩
  | .local _ .vmem, ⟨40, _⟩ => ⟨S8000x64, .f32⟩
  | .local _ .vmem, ⟨41, _⟩ => ⟨S8000x64, .f32⟩
  | .local _ .vmem, ⟨42, _⟩ => ⟨S8000x64, .f32⟩
  | .local _ .vmem, ⟨43, _⟩ => ⟨S8000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x1, .f32⟩
  | .local _ .vmem, ⟨55, _⟩ => ⟨S10000x1, .f32⟩
  | .local _ .vmem, ⟨56, _⟩ => ⟨S1x32, .f32⟩
  | .local _ .vmem, ⟨57, _⟩ => ⟨S1x32, .f32⟩
  | .local _ .vmem, ⟨58, _⟩ => ⟨S32x32, .f32⟩
  | .local _ .vmem, ⟨59, _⟩ => ⟨S1x32, .f32⟩
  | .local _ .vmem, ⟨60, _⟩ => ⟨S10000x32, .f32⟩
  | .local _ .vmem, ⟨61, _⟩ => ⟨S10000x32, .f32⟩
  | .local _ .vmem, ⟨62, _⟩ => ⟨S8000x1, .f32⟩
  | .local _ .vmem, ⟨63, _⟩ => ⟨S8000x1, .f32⟩
  | .local _ .vmem, ⟨64, _⟩ => ⟨S1x32, .f32⟩
  | .local _ .vmem, ⟨65, _⟩ => ⟨S1x32, .f32⟩
  | .local _ .vmem, ⟨66, _⟩ => ⟨S32x32, .f32⟩
  | .local _ .vmem, ⟨67, _⟩ => ⟨S1x32, .f32⟩
  | .local _ .vmem, ⟨68, _⟩ => ⟨S8000x32, .f32⟩
  | .local _ .vmem, ⟨69, _⟩ => ⟨S8000x32, .f32⟩
  | .local _ .vmem, ⟨70, _⟩ => ⟨S8000x32, .f32⟩
  | .local _ .vmem, ⟨71, _⟩ => ⟨S8000x32, .f32⟩
  | .local _ .vmem, ⟨72, _⟩ => ⟨S8000x32, .f32⟩
  | .local _ .vmem, ⟨73, _⟩ => ⟨S8000x32, .f32⟩
  | .local _ .vmem, ⟨74, _⟩ => ⟨S8000x32, .f32⟩
  | .local _ .vmem, ⟨75, _⟩ => ⟨S8000x32, .f32⟩
  | .local _ .vmem, ⟨76, _⟩ => ⟨S10000x32, .f32⟩
  | .local _ .vmem, ⟨77, _⟩ => ⟨S10000x32, .f32⟩
  | .local _ .vmem, ⟨78, _⟩ => ⟨S10000x32, .f32⟩
  | .local _ .vmem, ⟨79, _⟩ => ⟨S10000x32, .f32⟩
  | .local _ .vmem, ⟨80, _⟩ => ⟨S32x64, .f32⟩
  | .local _ .vmem, ⟨81, _⟩ => ⟨S1x64, .f32⟩
  | .local _ .vmem, ⟨82, _⟩ => ⟨S64x64, .f32⟩
  | .local _ .vmem, ⟨83, _⟩ => ⟨S1x64, .f32⟩
  | .local _ .vmem, ⟨84, _⟩ => ⟨S10000x64, .f32⟩
  | .local _ .vmem, ⟨85, _⟩ => ⟨S10000x64, .f32⟩
  | .local _ .vmem, ⟨86, _⟩ => ⟨S8000x32, .f32⟩
  | .local _ .vmem, ⟨87, _⟩ => ⟨S8000x32, .f32⟩
  | .local _ .vmem, ⟨88, _⟩ => ⟨S32x64, .f32⟩
  | .local _ .vmem, ⟨89, _⟩ => ⟨S1x64, .f32⟩
  | .local _ .vmem, ⟨90, _⟩ => ⟨S8000x64, .f32⟩
  | .local _ .vmem, ⟨91, _⟩ => ⟨S8000x64, .f32⟩
  | .local _ .vmem, ⟨92, _⟩ => ⟨S8000x64, .f32⟩
  | .local _ .vmem, ⟨93, _⟩ => ⟨S8000x64, .f32⟩
  | .local _ .vmem, ⟨94, _⟩ => ⟨S8000x64, .f32⟩
  | .local _ .vmem, ⟨95, _⟩ => ⟨S8000x64, .f32⟩
  | .local _ .vmem, ⟨96, _⟩ => ⟨S8000x64, .f32⟩
  | .local _ .vmem, ⟨97, _⟩ => ⟨S8000x64, .f32⟩
  | .local _ .vmem, ⟨98, _⟩ => ⟨S10000x64, .f32⟩
  | .local _ .vmem, ⟨99, _⟩ => ⟨S10000x64, .f32⟩
  | .local _ .vmem, ⟨100, _⟩ => ⟨S10000x64, .f32⟩
  | .local _ .vmem, ⟨101, _⟩ => ⟨S10000x64, .f32⟩
  | .local _ .vmem, ⟨102, _⟩ => ⟨S64x64, .f32⟩
  | .local _ .vmem, ⟨103, _⟩ => ⟨S1x64, .f32⟩
  | .local _ .vmem, ⟨104, _⟩ => ⟨S64x64, .f32⟩
  | .local _ .vmem, ⟨105, _⟩ => ⟨S1x64, .f32⟩
  | .local _ .vmem, ⟨106, _⟩ => ⟨S10000x64, .f32⟩
  | .local _ .vmem, ⟨107, _⟩ => ⟨S10000x64, .f32⟩
  | .local _ .vmem, ⟨108, _⟩ => ⟨S512x129, .f32⟩
  | .local _ .vmem, ⟨109, _⟩ => ⟨S129x64, .f32⟩
  | .local _ .vmem, ⟨110, _⟩ => ⟨S1x64, .f32⟩
  | .local _ .vmem, ⟨111, _⟩ => ⟨S64x1, .f32⟩
  | .local _ .vmem, ⟨112, _⟩ => ⟨S1x1, .f32⟩
  | .local _ .vmem, ⟨113, _⟩ => ⟨S512x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | _, _ => false

abbrev semScoped : Fin 0 → Bool
  | ⟨_, h⟩ => absurd h (Nat.not_lt_zero _)

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  ofTc nBuf bufTy 0 114 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_cst : Ref sig .tc := ⟨.hbm, 42, rfl⟩
abbrev main_v1 : Ref sig .tc := ⟨.hbm, 43, rfl⟩
abbrev main_v2 : Ref sig .tc := ⟨.hbm, 44, rfl⟩
abbrev main_cst_0 : Ref sig .tc := ⟨.hbm, 45, rfl⟩
abbrev main_v3 : Ref sig .tc := ⟨.hbm, 46, rfl⟩
abbrev main_v4 : Ref sig .tc := ⟨.hbm, 47, rfl⟩
abbrev main_cst_1 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_c : Ref sig .tc := ⟨.hbm, 67, rfl⟩
abbrev main_v17 : Ref sig .tc := ⟨.hbm, 68, rfl⟩
abbrev main_v18 : Ref sig .tc := ⟨.hbm, 69, rfl⟩
abbrev main_c_3 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_4 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_5 : Ref sig .tc := ⟨.hbm, 86, rfl⟩
abbrev main_v33 : Ref sig .tc := ⟨.hbm, 87, rfl⟩
abbrev main_v34 : Ref sig .tc := ⟨.hbm, 88, rfl⟩
abbrev main_c_6 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_7 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_cst_8 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_9 : Ref sig .tc := ⟨.hbm, 107, rfl⟩
abbrev main_v50 : Ref sig .tc := ⟨.hbm, 108, rfl⟩
abbrev main_cst_10 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_cst_11 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_cst_12 : Ref sig .tc := ⟨.hbm, 120, rfl⟩
abbrev main_v60 : Ref sig .tc := ⟨.hbm, 121, rfl⟩
abbrev main_v61 : Ref sig .tc := ⟨.hbm, 122, rfl⟩
abbrev main_cst_13 : Ref sig .tc := ⟨.hbm, 123, rfl⟩
abbrev main_v62 : Ref sig .tc := ⟨.hbm, 124, rfl⟩
abbrev main_v63 : Ref sig .tc := ⟨.hbm, 125, rfl⟩
abbrev main_cst_14 : Ref sig .tc := ⟨.hbm, 126, rfl⟩
abbrev main_cst_15 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_c_16 : Ref sig .tc := ⟨.hbm, 145, rfl⟩
abbrev main_v76 : Ref sig .tc := ⟨.hbm, 146, rfl⟩
abbrev main_v77 : Ref sig .tc := ⟨.hbm, 147, rfl⟩
abbrev main_c_17 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_18 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_c_19 : Ref sig .tc := ⟨.hbm, 164, rfl⟩
abbrev main_v92 : Ref sig .tc := ⟨.hbm, 165, rfl⟩
abbrev main_v93 : Ref sig .tc := ⟨.hbm, 166, rfl⟩
abbrev main_c_20 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_cst_21 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_cst_22 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_cst_23 : Ref sig .tc := ⟨.hbm, 185, rfl⟩
abbrev main_v109 : Ref sig .tc := ⟨.hbm, 186, rfl⟩
abbrev main_cst_24 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_cst_25 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg5_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg2_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg1_1 : Ref sig .tc := ⟨.vmem, 79, rfl⟩
abbrev cc10_stg2_0 : Ref sig .tc := ⟨.vmem, 80, rfl⟩
abbrev cc10_stg3_0 : Ref sig .tc := ⟨.vmem, 81, rfl⟩
abbrev cc10_stg4_0 : Ref sig .tc := ⟨.vmem, 82, rfl⟩
abbrev cc10_stg5_0 : Ref sig .tc := ⟨.vmem, 83, rfl⟩
abbrev cc10_stg6_0 : Ref sig .tc := ⟨.vmem, 84, rfl⟩
abbrev cc10_stg6_1 : Ref sig .tc := ⟨.vmem, 85, rfl⟩
abbrev cc11_stg0_0 : Ref sig .tc := ⟨.vmem, 86, rfl⟩
abbrev cc11_stg0_1 : Ref sig .tc := ⟨.vmem, 87, rfl⟩
abbrev cc11_stg1_0 : Ref sig .tc := ⟨.vmem, 88, rfl⟩
abbrev cc11_stg2_0 : Ref sig .tc := ⟨.vmem, 89, rfl⟩
abbrev cc11_stg3_0 : Ref sig .tc := ⟨.vmem, 90, rfl⟩
abbrev cc11_stg3_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg2_1 : Ref sig .tc := ⟨.vmem, 97, rfl⟩
abbrev cc13_stg0_0 : Ref sig .tc := ⟨.vmem, 98, rfl⟩
abbrev cc13_stg0_1 : Ref sig .tc := ⟨.vmem, 99, rfl⟩
abbrev cc13_stg1_0 : Ref sig .tc := ⟨.vmem, 100, rfl⟩
abbrev cc13_stg1_1 : Ref sig .tc := ⟨.vmem, 101, rfl⟩
abbrev cc13_stg2_0 : Ref sig .tc := ⟨.vmem, 102, rfl⟩
abbrev cc13_stg3_0 : Ref sig .tc := ⟨.vmem, 103, rfl⟩
abbrev cc13_stg4_0 : Ref sig .tc := ⟨.vmem, 104, rfl⟩
abbrev cc13_stg5_0 : Ref sig .tc := ⟨.vmem, 105, rfl⟩
abbrev cc13_stg6_0 : Ref sig .tc := ⟨.vmem, 106, rfl⟩
abbrev cc13_stg6_1 : Ref sig .tc := ⟨.vmem, 107, rfl⟩
abbrev cc14_stg0_0 : Ref sig .tc := ⟨.vmem, 108, rfl⟩
abbrev cc14_stg1_0 : Ref sig .tc := ⟨.vmem, 109, rfl⟩
abbrev cc14_stg2_0 : Ref sig .tc := ⟨.vmem, 110, rfl⟩
abbrev cc14_stg3_0 : Ref sig .tc := ⟨.vmem, 111, rfl⟩
abbrev cc14_stg4_0 : Ref sig .tc := ⟨.vmem, 112, rfl⟩
abbrev cc14_stg5_0 : Ref sig .tc := ⟨.vmem, 113, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem5_1 : DmaSem sig := 61
abbrev cc8_sem0_0 : DmaSem sig := 62
abbrev cc8_sem0_1 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem5_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem2_1 : DmaSem sig := 75
abbrev cc10_sem0_0 : DmaSem sig := 76
abbrev cc10_sem0_1 : DmaSem sig := 77
abbrev cc10_sem1_0 : DmaSem sig := 78
abbrev cc10_sem1_1 : DmaSem sig := 79
abbrev cc10_sem2_0 : DmaSem sig := 80
abbrev cc10_sem3_0 : DmaSem sig := 81
abbrev cc10_sem4_0 : DmaSem sig := 82
abbrev cc10_sem5_0 : DmaSem sig := 83
abbrev cc10_sem6_0 : DmaSem sig := 84
abbrev cc10_sem6_1 : DmaSem sig := 85
abbrev cc11_sem0_0 : DmaSem sig := 86
abbrev cc11_sem0_1 : DmaSem sig := 87
abbrev cc11_sem1_0 : DmaSem sig := 88
abbrev cc11_sem2_0 : DmaSem sig := 89
abbrev cc11_sem3_0 : DmaSem sig := 90
abbrev cc11_sem3_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem2_1 : DmaSem sig := 97
abbrev cc13_sem0_0 : DmaSem sig := 98
abbrev cc13_sem0_1 : DmaSem sig := 99
abbrev cc13_sem1_0 : DmaSem sig := 100
abbrev cc13_sem1_1 : DmaSem sig := 101
abbrev cc13_sem2_0 : DmaSem sig := 102
abbrev cc13_sem3_0 : DmaSem sig := 103
abbrev cc13_sem4_0 : DmaSem sig := 104
abbrev cc13_sem5_0 : DmaSem sig := 105
abbrev cc13_sem6_0 : DmaSem sig := 106
abbrev cc13_sem6_1 : DmaSem sig := 107
abbrev cc14_sem0_0 : DmaSem sig := 108
abbrev cc14_sem1_0 : DmaSem sig := 109
abbrev cc14_sem2_0 : DmaSem sig := 110
abbrev cc14_sem3_0 : DmaSem sig := 111
abbrev cc14_sem4_0 : DmaSem sig := 112
abbrev cc14_sem5_0 : DmaSem sig := 113

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![200], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S8000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![200], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S32x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S10000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev grid11 : Pipeline.Grid := ⟨1, ![200], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S32x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S8000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![200], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S8000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S64x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S10000x64 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S512x129 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S129x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S64x1 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x1 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S512x1 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  shapeCasts_S32_S1x32 : S32.ShapeCasts S1x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  inb_S8000x1_S8000x1_0_0 : ∀ a, (![0, 0] : Fin 2 → Nat) a + S8000x1.size a ≤ S8000x1.size a
  h_S8000x1 : 0 < S8000x1.numel
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S8000x32_S8000x32 : S8000x32.ShapeCasts S8000x32
  bcast_S_S100000x32 : S_.BroadcastsInDim S100000x32 (![] : Fin 0 → Fin S100000x32.rank)
  shapeCasts_S64_S1x64 : S64.ShapeCasts S1x64
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  shapeCasts_S10000x64_S10000x64 : S10000x64.ShapeCasts S10000x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  concatenates_S512x64_S512x64_S512x1_S512x129_d1 : Shape.Concatenates [S512x64, S512x64, S512x1] S512x129 1
  shapeCasts_S1_S1x1 : S1.ShapeCasts S1x1
  inb_S512x129_S512x129_0_0 : ∀ a, (![0, 0] : Fin 2 → Nat) a + S512x129.size a ≤ S512x129.size a
  h_S512x129 : 0 < S512x129.numel
  shapeCasts_S512x129_S512x129 : S512x129.ShapeCasts S512x129
  inb_S129x64_S129x64_0_0 : ∀ a, (![0, 0] : Fin 2 → Nat) a + S129x64.size a ≤ S129x64.size a
  h_S129x64 : 0 < S129x64.numel
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  dot_S10000x1_S1x32_S10000x32_1_0_0_1_n_n_wf : DotDims.WF S10000x1 S1x32 S10000x32 [1] [0] [0] [1] [] []
  dot_S10000x32_S32x32_S10000x32_1_0_0_1_n_n_wf : DotDims.WF S10000x32 S32x32 S10000x32 [1] [0] [0] [1] [] []
  dot_S8000x1_S1x32_S8000x32_1_0_0_1_n_n_wf : DotDims.WF S8000x1 S1x32 S8000x32 [1] [0] [0] [1] [] []
  dot_S8000x32_S32x32_S8000x32_1_0_0_1_n_n_wf : DotDims.WF S8000x32 S32x32 S8000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  dot_S8000x32_S32x64_S8000x64_1_0_0_1_n_n_wf : DotDims.WF S8000x32 S32x64 S8000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x129_S129x64_S512x64_1_0_0_1_n_n_wf : DotDims.WF S512x129 S129x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S1600000x1.size a
  hwx1_0 : ∀ i : grid1.Coords, EltTy.bits .f32 = 32 ∨ (Rect.block (s := S1600000x1) S8000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x32.size a ≤ S1600000x32.size a
  hwx1_5 : ∀ i : grid1.Coords, EltTy.bits .f32 = 32 ∨ (Rect.block (s := S1600000x32) S8000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S1600000x32.size a
  hwx2_0 : ∀ i : grid2.Coords, EltTy.bits .f32 = 32 ∨ (Rect.block (s := S1600000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x32.size a ≤ S1600000x32.size a
  hwx2_1 : ∀ i : grid2.Coords, EltTy.bits .f32 = 32 ∨ (Rect.block (s := S1600000x32) S8000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x32.size a ≤ S1600000x32.size a
  hwx2_2 : ∀ i : grid2.Coords, EltTy.bits .f32 = 32 ∨ (Rect.block (s := S1600000x32) S8000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S1600000x32.size a
  hwx4_0 : ∀ i : grid4.Coords, EltTy.bits .f32 = 32 ∨ (Rect.block (s := S1600000x32) S8000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x64.size a ≤ S1600000x64.size a
  hwx4_3 : ∀ i : grid4.Coords, EltTy.bits .f32 = 32 ∨ (Rect.block (s := S1600000x64) S8000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1600000x64.size a
  hwx5_0 : ∀ i : grid5.Coords, EltTy.bits .f32 = 32 ∨ (Rect.block (s := S1600000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S1600000x64.size a
  hwx5_1 : ∀ i : grid5.Coords, EltTy.bits .f32 = 32 ∨ (Rect.block (s := S1600000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S1600000x64.size a
  hwx5_2 : ∀ i : grid5.Coords, EltTy.bits .f32 = 32 ∨ (Rect.block (s := S1600000x64) S8000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x1.size a ≤ S100000x1.size a
  hwx7_0 : ∀ i : grid7.Coords, EltTy.bits .f32 = 32 ∨ (Rect.block (s := S100000x1) S10000x1.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x32.size a ≤ S32x32.size a
  hwx7_3 : ∀ i : grid7.Coords, EltTy.bits .f32 = 32 ∨ (Rect.block (s := S32x32) S32x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x32.size a ≤ S100000x32.size a
  hwx7_5 : ∀ i : grid7.Coords, EltTy.bits .f32 = 32 ∨ (Rect.block (s := S100000x32) S10000x32.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x1.size a ≤ S1600000x1.size a
  hwx8_0 : ∀ i : grid8.Coords, EltTy.bits .f32 = 32 ∨ (Rect.block (s := S1600000x1) S8000x1.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x32.size a ≤ S32x32.size a
  hwx8_3 : ∀ i : grid8.Coords, EltTy.bits .f32 = 32 ∨ (Rect.block (s := S32x32) S32x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S8000x32.size a ≤ S1600000x32.size a
  hwx8_5 : ∀ i : grid8.Coords, EltTy.bits .f32 = 32 ∨ (Rect.block (s := S1600000x32) S8000x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x32.size a ≤ S1600000x32.size a
  hwx9_0 : ∀ i : grid9.Coords, EltTy.bits .f32 = 32 ∨ (Rect.block (s := S1600000x32) S8000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x32.size a ≤ S1600000x32.size a
  hwx9_1 : ∀ i : grid9.Coords, EltTy.bits .f32 = 32 ∨ (Rect.block (s := S1600000x32) S8000x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S8000x32.size a ≤ S1600000x32.size a
  hwx9_2 : ∀ i : grid9.Coords, EltTy.bits .f32 = 32 ∨ (Rect.block (s := S1600000x32) S8000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x32.size a ≤ S100000x32.size a
  hwx10_0 : ∀ i : grid10.Coords, EltTy.bits .f32 = 32 ∨ (Rect.block (s := S100000x32) S10000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x32.size a ≤ S100000x32.size a
  hwx10_1 : ∀ i : grid10.Coords, EltTy.bits .f32 = 32 ∨ (Rect.block (s := S100000x32) S10000x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S32x64.size a ≤ S32x64.size a
  hwx10_2 : ∀ i : grid10.Coords, EltTy.bits .f32 = 32 ∨ (Rect.block (s := S32x64) S32x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x64.size a ≤ S64x64.size a
  hwx10_4 : ∀ i : grid10.Coords, EltTy.bits .f32 = 32 ∨ (Rect.block (s := S64x64) S64x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S10000x64.size a ≤ S100000x64.size a
  hwx10_6 : ∀ i : grid10.Coords, EltTy.bits .f32 = 32 ∨ (Rect.block (s := S100000x64) S10000x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x32.size a ≤ S1600000x32.size a
  hwx11_0 : ∀ i : grid11.Coords, EltTy.bits .f32 = 32 ∨ (Rect.block (s := S1600000x32) S8000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S32x64.size a ≤ S32x64.size a
  hwx11_1 : ∀ i : grid11.Coords, EltTy.bits .f32 = 32 ∨ (Rect.block (s := S32x64) S32x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S8000x64.size a ≤ S1600000x64.size a
  hwx11_3 : ∀ i : grid11.Coords, EltTy.bits .f32 = 32 ∨ (Rect.block (s := S1600000x64) S8000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8000x64.size a ≤ S1600000x64.size a
  hwx12_0 : ∀ i : grid12.Coords, EltTy.bits .f32 = 32 ∨ (Rect.block (s := S1600000x64) S8000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8000x64.size a ≤ S1600000x64.size a
  hwx12_1 : ∀ i : grid12.Coords, EltTy.bits .f32 = 32 ∨ (Rect.block (s := S1600000x64) S8000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8000x64.size a ≤ S1600000x64.size a
  hwx12_2 : ∀ i : grid12.Coords, EltTy.bits .f32 = 32 ∨ (Rect.block (s := S1600000x64) S8000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x64.size a ≤ S100000x64.size a
  hwx13_1 : ∀ i : grid13.Coords, EltTy.bits .f32 = 32 ∨ (Rect.block (s := S100000x64) S10000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x64.size a ≤ S64x64.size a
  hwx13_2 : ∀ i : grid13.Coords, EltTy.bits .f32 = 32 ∨ (Rect.block (s := S64x64) S64x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S64x64.size a ≤ S64x64.size a
  hwx13_4 : ∀ i : grid13.Coords, EltTy.bits .f32 = 32 ∨ (Rect.block (s := S64x64) S64x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x64.size a ≤ S1x64.size a
  hwx13_5 : ∀ i : grid13.Coords, EltTy.bits .f32 = 32 ∨ (Rect.block (s := S1x64) S1x64.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S10000x64.size a ≤ S100000x64.size a
  hwx13_6 : ∀ i : grid13.Coords, EltTy.bits .f32 = 32 ∨ (Rect.block (s := S100000x64) S10000x64.size (cc13_transform_6 i) (hinb13_6 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S512x129.size a ≤ S512x129.size a
  hwx14_0 : ∀ i : grid14.Coords, EltTy.bits .f32 = 32 ∨ (Rect.block (s := S512x129) S512x129.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S129x64.size a ≤ S129x64.size a
  hwx14_1 : ∀ i : grid14.Coords, EltTy.bits .f32 = 32 ∨ (Rect.block (s := S129x64) S129x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S64x1.size a ≤ S64x1.size a
  hwx14_3 : ∀ i : grid14.Coords, EltTy.bits .f32 = 32 ∨ (Rect.block (s := S64x1) S64x1.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x1.size a ≤ S1x1.size a
  hwx14_4 : ∀ i : grid14.Coords, EltTy.bits .f32 = 32 ∨ (Rect.block (s := S1x1) S1x1.size (cc14_transform_4 i) (hinb14_4 i)).WholeWords (EltTy.packing .f32)
  hstage14_5 : ∀ j, (stage14_5 j).IsWhole
  nbuf14_5 : grid14.bufCount reads14_5 false = 1
  hreads14_5 : ∀ i i' : grid14.Coords, (∀ a, reads14_5 a = true → i a = i' a) → cc14_transform_5 i = cc14_transform_5 i'
  hinb14_5 : ∀ (i : grid14.Coords) a, (cc14_transform_5 i a + 1) * S512x1.size a ≤ S512x1.size a
  hwx14_5 : ∀ i : grid14.Coords, EltTy.bits .f32 = 32 ∨ (Rect.block (s := S512x1) S512x1.size (cc14_transform_5 i) (hinb14_5 i)).WholeWords (EltTy.packing .f32)

variable [Facts₀]

def dot_S10000x1_S1x32_S10000x32_1_0_0_1_n_n : DotDims S10000x1 S1x32 S10000x32 where
  lhsContracting := [1]
  rhsContracting := [0]
  lhsNonContracting := [0]
  rhsNonContracting := [1]
  lhsBatch := []
  rhsBatch := []
  wf := dot_S10000x1_S1x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S8000x1_S1x32_S8000x32_1_0_0_1_n_n : DotDims S8000x1 S1x32 S8000x32 where
  lhsContracting := [1]
  rhsContracting := [0]
  lhsNonContracting := [0]
  rhsNonContracting := [1]
  lhsBatch := []
  rhsBatch := []
  wf := dot_S8000x1_S1x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x129_S129x64_S512x64_1_0_0_1_n_n : DotDims S512x129 S129x64 S512x64 where
  lhsContracting := [1]
  rhsContracting := [0]
  lhsNonContracting := [0]
  rhsNonContracting := [1]
  lhsBatch := []
  rhsBatch := []
  wf := dot_S512x129_S129x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v6) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S8000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S8000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S8000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v30) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v12) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg25) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S8000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v39) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v40) S8000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v30) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v43) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg21) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v44) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg23) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v45) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v46) S10000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v65) S10000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v66) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S32x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v67) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v68) S10000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_arg6) S8000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v69) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg15) S32x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v70) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v71) S8000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v82) S8000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v71) S8000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v83) S8000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v68) S10000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v86) S10000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg27) S32x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v87) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg29) S64x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v88) S1x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v89) S10000x64.size cc10_transform_6 reads10_6 true false 2 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v71) S8000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg35) S32x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v90) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v91) S8000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v98) S8000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v91) S8000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v99) S8000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v89) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v102) S10000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_arg31) S64x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v103) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_arg33) S64x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v104) S1x64.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v105) S10000x64.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v119) S512x129.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_arg37) S129x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v120) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_arg39) S64x1.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v121) S1x1.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v122) S512x1.size cc14_transform_5 reads14_5 true false 1 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000x1 : Shape := ⟨2, ![1600000, 1]⟩
abbrev S512 : Shape := ⟨1, ![512]⟩
abbrev S1x32 : Shape := ⟨2, ![1, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S_ : Shape := ⟨0, ![]⟩
abbrev S100000x1 : Shape := ⟨2, ![100000, 1]⟩
abbrev S100000x32 : Shape := ⟨2, ![100000, 32]⟩
abbrev S1600000x32 : Shape := ⟨2, ![1600000, 32]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S1600000x64 : Shape := ⟨2, ![1600000, 64]⟩
abbrev S512x64 : Shape := ⟨2, ![512, 64]⟩
abbrev S512x1 : Shape := ⟨2, ![512, 1]⟩
abbrev S512x129 : Shape := ⟨2, ![512, 129]⟩
abbrev S1x1 : Shape := ⟨2, ![1, 1]⟩

abbrev nBuf : Space → Nat
  | .hbm => 307
  | .vmem => 0
  | .smem => 0
  | _ => 0

abbrev hbmTy0_0 (i : Nat) : BufTy := match i % 128 with
  | 0 => ⟨S100000, .i32⟩
  | 1 => ⟨S2x1600000, .i32⟩
  | 2 => ⟨S1600000x1, .f32⟩
  | 3 => ⟨S100000, .i32⟩
  | 4 => ⟨S100000, .i32⟩
  | 5 => ⟨S2x1600000, .i32⟩
  | 6 => ⟨S1600000x1, .f32⟩
  | 7 => ⟨S100000, .i32⟩
  | 8 => ⟨S512, .f32⟩
  | 9 => ⟨S1x32, .f32⟩
  | 10 => ⟨S32, .f32⟩
  | 11 => ⟨S32x32, .f32⟩
  | 12 => ⟨S32, .f32⟩
  | 13 => ⟨S1x32, .f32⟩
  | 14 => ⟨S32, .f32⟩
  | 15 => ⟨S32x32, .f32⟩
  | 16 => ⟨S32, .f32⟩
  | 17 => ⟨S32x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S32x64, .f32⟩
  | 26 => ⟨S64, .f32⟩
  | 27 => ⟨S32x64, .f32⟩
  | 28 => ⟨S64, .f32⟩
  | 29 => ⟨S64x64, .f32⟩
  | 30 => ⟨S64, .f32⟩
  | 31 => ⟨S64x64, .f32⟩
  | 32 => ⟨S64, .f32⟩
  | 33 => ⟨S64x64, .f32⟩
  | 34 => ⟨S64, .f32⟩
  | 35 => ⟨S32x64, .f32⟩
  | 36 => ⟨S64, .f32⟩
  | 37 => ⟨S129x64, .f32⟩
  | 38 => ⟨S64, .f32⟩
  | 39 => ⟨S64x1, .f32⟩
  | 40 => ⟨S1, .f32⟩
  | 41 => ⟨S100000, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .f32⟩
  | 48 => ⟨S_, .f32⟩
  | 49 => ⟨S_, .f32⟩
  | 50 => ⟨S_, .f32⟩
  | 51 => ⟨S100000, .f32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x32, .f32⟩
  | 58 => ⟨S1x32, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S100000x32, .f32⟩
  | 65 => ⟨S1x32, .f32⟩
  | 66 => ⟨S100000x32, .f32⟩
  | 67 => ⟨S100000x32, .f32⟩
  | 68 => ⟨S1600000x32, .f32⟩
  | 69 => ⟨S1x32, .f32⟩
  | 70 => ⟨S1600000x32, .f32⟩
  | 71 => ⟨S1600000x32, .f32⟩
  | 72 => ⟨S_, .f32⟩
  | 73 => ⟨S1600000x32, .f32⟩
  | 74 => ⟨S1600000x32, .f32⟩
  | 75 => ⟨S1600000x32, .f32⟩
  | 76 => ⟨S1x32, .f32⟩
  | 77 => ⟨S1600000x32, .f32⟩
  | 78 => ⟨S1600000x32, .f32⟩
  | 79 => ⟨S1x1600000, .i32⟩
  | 80 => ⟨S1600000, .i32⟩
  | 81 => ⟨S1x1600000, .i32⟩
  | 82 => ⟨S1600000, .i32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x32, .f32⟩
  | 92 => ⟨S1600000x32, .f32⟩
  | 93 => ⟨S_, .f32⟩
  | 94 => ⟨S1600000x32, .f32⟩
  | 95 => ⟨S1600000x32, .f32⟩
  | 96 => ⟨S_, .f32⟩
  | 97 => ⟨S100000x32, .f32⟩
  | 98 => ⟨S1600000x1, .i32⟩
  | 99 => ⟨S100000x32, .f32⟩
  | 100 => ⟨S100000x32, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S1600000x64, .f32⟩
  | 116 => ⟨S1x64, .f32⟩
  | 117 => ⟨S1600000x64, .f32⟩
  | 118 => ⟨S1600000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000, .i32⟩

abbrev hbmTy0_1 (i : Nat) : BufTy := match i % 128 with
  | 0 => ⟨S1600000x64, .f32⟩
  | 1 => ⟨S_, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S_, .f32⟩
  | 24 => ⟨S512x64, .f32⟩
  | 25 => ⟨S100000x1, .i32⟩
  | 26 => ⟨S512x64, .f32⟩
  | 27 => ⟨S_, .f32⟩
  | 28 => ⟨S100000, .f32⟩
  | 29 => ⟨S_, .f32⟩
  | 30 => ⟨S512, .f32⟩
  | 31 => ⟨S100000x1, .i32⟩
  | 32 => ⟨S512, .f32⟩
  | 33 => ⟨S_, .f32⟩
  | 34 => ⟨S512, .f32⟩
  | 35 => ⟨S512, .f32⟩
  | 36 => ⟨S512x1, .f32⟩
  | 37 => ⟨S512x64, .f32⟩
  | 38 => ⟨S512x64, .f32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S_, .f32⟩
  | 47 => ⟨S_, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x32, .f32⟩
  | 56 => ⟨S1x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S100000x32, .f32⟩
  | 63 => ⟨S1x32, .f32⟩
  | 64 => ⟨S100000x32, .f32⟩
  | 65 => ⟨S100000x32, .f32⟩
  | 66 => ⟨S1600000x32, .f32⟩
  | 67 => ⟨S1x32, .f32⟩
  | 68 => ⟨S1600000x32, .f32⟩
  | 69 => ⟨S1600000x32, .f32⟩
  | 70 => ⟨S_, .f32⟩
  | 71 => ⟨S1600000x32, .f32⟩
  | 72 => ⟨S1600000x32, .f32⟩
  | 73 => ⟨S1600000x32, .f32⟩
  | 74 => ⟨S1x32, .f32⟩
  | 75 => ⟨S1600000x32, .f32⟩
  | 76 => ⟨S1600000x32, .f32⟩
  | 77 => ⟨S1x1600000, .i32⟩
  | 78 => ⟨S1600000, .i32⟩
  | 79 => ⟨S1x1600000, .i32⟩
  | 80 => ⟨S1600000, .i32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x32, .f32⟩
  | 90 => ⟨S1600000x32, .f32⟩
  | 91 => ⟨S_, .f32⟩
  | 92 => ⟨S1600000x32, .f32⟩
  | 93 => ⟨S1600000x32, .f32⟩
  | 94 => ⟨S_, .f32⟩
  | 95 => ⟨S100000x32, .f32⟩
  | 96 => ⟨S1600000x1, .i32⟩
  | 97 => ⟨S100000x32, .f32⟩
  | 98 => ⟨S100000x32, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1600000x64, .f32⟩
  | 114 => ⟨S1x64, .f32⟩
  | 115 => ⟨S1600000x64, .f32⟩
  | 116 => ⟨S1600000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x64, .f32⟩
  | 127 => ⟨S_, .f32⟩
  | _ => ⟨S100000, .i32⟩

abbrev hbmTy0_2 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S_, .f32⟩
  | 22 => ⟨S512x64, .f32⟩
  | 23 => ⟨S100000x1, .i32⟩
  | 24 => ⟨S512x64, .f32⟩
  | 25 => ⟨S_, .f32⟩
  | 26 => ⟨S100000, .f32⟩
  | 27 => ⟨S_, .f32⟩
  | 28 => ⟨S512, .f32⟩
  | 29 => ⟨S100000x1, .i32⟩
  | 30 => ⟨S512, .f32⟩
  | 31 => ⟨S_, .f32⟩
  | 32 => ⟨S512, .f32⟩
  | 33 => ⟨S512, .f32⟩
  | 34 => ⟨S512x1, .f32⟩
  | 35 => ⟨S512x64, .f32⟩
  | 36 => ⟨S512x64, .f32⟩
  | 37 => ⟨S512x1, .f32⟩
  | 38 => ⟨S512x129, .f32⟩
  | 39 => ⟨S512x64, .f32⟩
  | 40 => ⟨S1x64, .f32⟩
  | 41 => ⟨S512x64, .f32⟩
  | 42 => ⟨S512x64, .f32⟩
  | 43 => ⟨S_, .f32⟩
  | 44 => ⟨S512x64, .f32⟩
  | 45 => ⟨S512x64, .f32⟩
  | 46 => ⟨S512x1, .f32⟩
  | 47 => ⟨S1x1, .f32⟩
  | 48 => ⟨S512x1, .f32⟩
  | 49 => ⟨S512x1, .f32⟩
  | 50 => ⟨S512, .f32⟩
  | _ => ⟨S100000, .i32⟩

abbrev hbmTy (i : Nat) : BufTy := match i / 128 with
  | 0 => hbmTy0_0 i
  | 1 => hbmTy0_1 i
  | 2 => hbmTy0_2 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_cst : Ref sig .tc := ⟨.hbm, 42, rfl⟩
abbrev main_v1 : Ref sig .tc := ⟨.hbm, 43, rfl⟩
abbrev main_v2 : Ref sig .tc := ⟨.hbm, 44, rfl⟩
abbrev main_cst_0 : Ref sig .tc := ⟨.hbm, 45, rfl⟩
abbrev main_v3 : Ref sig .tc := ⟨.hbm, 46, rfl⟩
abbrev main_v4 : Ref sig .tc := ⟨.hbm, 47, rfl⟩
abbrev main_cst_1 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_call1_cst : Ref sig .tc := ⟨.hbm, 61, rfl⟩
abbrev main_call1_v0 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_call2_cst : Ref sig .tc := ⟨.hbm, 72, rfl⟩
abbrev main_call2_v0 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_c : Ref sig .tc := ⟨.hbm, 83, rfl⟩
abbrev main_v29 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_call3_cst : Ref sig .tc := ⟨.hbm, 93, rfl⟩
abbrev main_call3_v0 : Ref sig .tc := ⟨.hbm, 94, rfl⟩
abbrev main_v37 : Ref sig .tc := ⟨.hbm, 95, rfl⟩
abbrev main_cst_4 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_call4_cst : Ref sig .tc := ⟨.hbm, 105, rfl⟩
abbrev main_call4_v0 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_call5_cst : Ref sig .tc := ⟨.hbm, 112, rfl⟩
abbrev main_call5_v0 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_c_5 : Ref sig .tc := ⟨.hbm, 119, rfl⟩
abbrev main_v56 : Ref sig .tc := ⟨.hbm, 120, rfl⟩
abbrev main_v57 : Ref sig .tc := ⟨.hbm, 121, rfl⟩
abbrev main_c_6 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_call6_cst : Ref sig .tc := ⟨.hbm, 129, rfl⟩
abbrev main_call6_v0 : Ref sig .tc := ⟨.hbm, 130, rfl⟩
abbrev main_v64 : Ref sig .tc := ⟨.hbm, 131, rfl⟩
abbrev main_cst_7 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_call7_cst : Ref sig .tc := ⟨.hbm, 141, rfl⟩
abbrev main_call7_v0 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_call8_cst : Ref sig .tc := ⟨.hbm, 148, rfl⟩
abbrev main_call8_v0 : Ref sig .tc := ⟨.hbm, 149, rfl⟩
abbrev main_v78 : Ref sig .tc := ⟨.hbm, 150, rfl⟩
abbrev main_cst_8 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_9 : Ref sig .tc := ⟨.hbm, 155, rfl⟩
abbrev main_v82 : Ref sig .tc := ⟨.hbm, 156, rfl⟩
abbrev main_cst_10 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_11 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_cst_12 : Ref sig .tc := ⟨.hbm, 168, rfl⟩
abbrev main_v92 : Ref sig .tc := ⟨.hbm, 169, rfl⟩
abbrev main_v93 : Ref sig .tc := ⟨.hbm, 170, rfl⟩
abbrev main_cst_13 : Ref sig .tc := ⟨.hbm, 171, rfl⟩
abbrev main_v94 : Ref sig .tc := ⟨.hbm, 172, rfl⟩
abbrev main_v95 : Ref sig .tc := ⟨.hbm, 173, rfl⟩
abbrev main_cst_14 : Ref sig .tc := ⟨.hbm, 174, rfl⟩
abbrev main_cst_15 : Ref sig .tc := ⟨.hbm, 175, rfl⟩
abbrev main_call9_v0 : Ref sig .tc := ⟨.hbm, 176, rfl⟩
abbrev main_call9_v1 : Ref sig .tc := ⟨.hbm, 177, rfl⟩
abbrev main_call9_v2 : Ref sig .tc := ⟨.hbm, 178, rfl⟩
abbrev main_call9_v3 : Ref sig .tc := ⟨.hbm, 179, rfl⟩
abbrev main_call9_v4 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_call10_cst : Ref sig .tc := ⟨.hbm, 187, rfl⟩
abbrev main_call10_v0 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_call11_cst : Ref sig .tc := ⟨.hbm, 198, rfl⟩
abbrev main_call11_v0 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_c_16 : Ref sig .tc := ⟨.hbm, 209, rfl⟩
abbrev main_v120 : Ref sig .tc := ⟨.hbm, 210, rfl⟩
abbrev main_v121 : Ref sig .tc := ⟨.hbm, 211, rfl⟩
abbrev main_c_17 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_call12_cst : Ref sig .tc := ⟨.hbm, 219, rfl⟩
abbrev main_call12_v0 : Ref sig .tc := ⟨.hbm, 220, rfl⟩
abbrev main_v128 : Ref sig .tc := ⟨.hbm, 221, rfl⟩
abbrev main_cst_18 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_call13_cst : Ref sig .tc := ⟨.hbm, 231, rfl⟩
abbrev main_call13_v0 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_call14_cst : Ref sig .tc := ⟨.hbm, 238, rfl⟩
abbrev main_call14_v0 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_c_19 : Ref sig .tc := ⟨.hbm, 245, rfl⟩
abbrev main_v147 : Ref sig .tc := ⟨.hbm, 246, rfl⟩
abbrev main_v148 : Ref sig .tc := ⟨.hbm, 247, rfl⟩
abbrev main_c_20 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_call15_cst : Ref sig .tc := ⟨.hbm, 255, rfl⟩
abbrev main_call15_v0 : Ref sig .tc := ⟨.hbm, 256, rfl⟩
abbrev main_v155 : Ref sig .tc := ⟨.hbm, 257, rfl⟩
abbrev main_cst_21 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_call16_cst : Ref sig .tc := ⟨.hbm, 267, rfl⟩
abbrev main_call16_v0 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_call17_cst : Ref sig .tc := ⟨.hbm, 274, rfl⟩
abbrev main_call17_v0 : Ref sig .tc := ⟨.hbm, 275, rfl⟩
abbrev main_v169 : Ref sig .tc := ⟨.hbm, 276, rfl⟩
abbrev main_cst_22 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_cst_23 : Ref sig .tc := ⟨.hbm, 281, rfl⟩
abbrev main_v173 : Ref sig .tc := ⟨.hbm, 282, rfl⟩
abbrev main_cst_24 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_cst_25 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_call18_cst : Ref sig .tc := ⟨.hbm, 299, rfl⟩
abbrev main_call18_v0 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  concatenates_S512x64_S512x64_S512x1_S512x129_d1 : Shape.Concatenates [S512x64, S512x64, S512x1] S512x129 1
  bcast_S1x64_S512x64_0_1 : S1x64.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S100000x1_S1x32_S100000x32_1_0_0_1_n_n_wf : DotDims.WF S100000x1 S1x32 S100000x32 [1] [0] [0] [1] [] []
  dot_S100000x32_S32x32_S100000x32_1_0_0_1_n_n_wf : DotDims.WF S100000x32 S32x32 S100000x32 [1] [0] [0] [1] [] []
  dot_S1600000x1_S1x32_S1600000x32_1_0_0_1_n_n_wf : DotDims.WF S1600000x1 S1x32 S1600000x32 [1] [0] [0] [1] [] []
  dot_S1600000x32_S32x32_S1600000x32_1_0_0_1_n_n_wf : DotDims.WF S1600000x32 S32x32 S1600000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x129_S129x64_S512x64_1_0_0_1_n_n_wf : DotDims.WF S512x129 S129x64 S512x64 [1] [0] [0] [1] [] []
  dot_S512x64_S64x1_S512x1_1_0_0_1_n_n_wf : DotDims.WF S512x64 S64x1 S512x1 [1] [0] [0] [1] [] []

variable [Facts₀]

def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S1600000x1_S1x32_S1600000x32_1_0_0_1_n_n : DotDims S1600000x1 S1x32 S1600000x32 where
  lhsContracting := [1]
  rhsContracting := [0]
  lhsNonContracting := [0]
  rhsNonContracting := [1]
  lhsBatch := []
  rhsBatch := []
  wf := dot_S1600000x1_S1x32_S1600000x32_1_0_0_1_n_n_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x129_S129x64_S512x64_1_0_0_1_n_n : DotDims S512x129 S129x64 S512x64 where
  lhsContracting := [1]
  rhsContracting := [0]
  lhsNonContracting := [0]
  rhsNonContracting := [1]
  lhsBatch := []
  rhsBatch := []
  wf := dot_S512x129_S129x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.Bits.Region00.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the body `cc0__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched window's
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched window's
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched window's
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched window's
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: an unfetched window's
    block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the input blocks: its one store, of the whole block. -/
def out0 (x0 : Vec F S10000x1 .f32) (x1 : Vec F S1x32 .f32) (x2 : Vec F S1x32 .f32) (x3 : Vec F S32x32 .f32) (x4 : Vec F S1x32 .f32) : Vec F S10000x32 .f32 :=
  View.canon [⟨(Rect.unit (s := S10000x32) ![0, 0] S10000x32.size inb_S10000x32_S10000x32_0_0), k0_pay1 (View.ld x0 (Rect.unit (s := S10000x1) ![0, 0] S10000x1.size inb_S10000x1_S10000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover0 (p0 : Vec F S10000x32 .f32) (y : S10000x32.Idx) :
    ∃ pc ∈ ([⟨(Rect.unit (s := S10000x32) ![0, 0] S10000x32.size inb_S10000x32_S10000x32_0_0), p0⟩] : List (View.Piece (Elt F) S10000x32 .f32)), y ∈ pc.1.set :=
  View.cover_of_tiled [⟨(Rect.unit (s := S10000x32) ![0, 0] S10000x32.size inb_S10000x32_S10000x32_0_0), p0⟩] S10000x32.size (by rfl) y

set_option maxHeartbeats 1000000 in
/-- The body on whole staging memrefs, the inputs' at contents `x` and the output's at anything, runs to the
    continuation holding the inputs' as they were and the output's at `out0` of the inputs'. -/
theorem sound_kernel0 (c : Dev nD) (E : Set ℕ) (i : grid0.Coords) (arg0 : Memref sig .tc .vmem S10000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S10000x32 .f32) (harg5 : arg5.IsWhole)
    (x0 : Vec F S10000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0 x0 x1 x2 x3 x4)) -∗ K ⟨⟩))
      ⊢ wp frame (wpE (defs₀ (F := F)) Variants.none c none) E (cc0__mlp2_kernel i arg0 harg0 arg1 harg1 arg2 harg2 arg3 harg3 arg4 harg4 arg5 harg5) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of pipeline 0 on core `c`: the arrays as the region finds them; after the body at point `t`
    each input's buffer at its block and the output's at `out0` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region01.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body `cc1__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched window's
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched window's
    block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched window's
    block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: an unfetched window's
    block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: an unfetched window's
    block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the input blocks: its one store, of the whole block. -/
def out1 (x0 : Vec F S8000x1 .f32) (x1 : Vec F S1x32 .f32) (x2 : Vec F S1x32 .f32) (x3 : Vec F S32x32 .f32) (x4 : Vec F S1x32 .f32) : Vec F S8000x32 .f32 :=
  View.canon [⟨(Rect.unit (s := S8000x32) ![0, 0] S8000x32.size inb_S8000x32_S8000x32_0_0), k1_pay1 (View.ld x0 (Rect.unit (s := S8000x1) ![0, 0] S8000x1.size inb_S8000x1_S8000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover1 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out1` of the inputs'. -/
theorem sound_kernel1 (c : Dev nD) (E : Set ℕ) (i : grid1.Coords) (arg0 : Memref sig .tc .vmem S8000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S8000x32 .f32) (harg5 : arg5.IsWhole)
    (x0 : Vec F S8000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1 x0 x1 x2 x3 x4)) -∗ K ⟨⟩))
      ⊢ wp frame (wpE (defs₀ (F := F)) Variants.none c none) E (cc1__mlp2_kernel i arg0 harg0 arg1 harg1 arg2 harg2 arg3 harg3 arg4 harg4 arg5 harg5) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The proof data of pipeline 1 on core `c`: the arrays as the region finds them; after the body at point `t`
    each input's buffer at its block and the output's at `out1` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Region02.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the body `cc2__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: an unfetched window's
    block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: an unfetched window's
    block index has not moved since the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the input blocks: its one store, of the whole block. -/
def out2 (x0 : Vec F S8000x32 .f32) (x1 : Vec F S8000x32 .f32) : Vec F S8000x32 .f32 :=
  View.canon [⟨(Rect.unit (s := S8000x32) ![0, 0] S8000x32.size inb_S8000x32_S8000x32_0_0), k2_pay1 (View.ld x0 (Rect.unit (s := S8000x32) ![0, 0] S8000x32.size inb_S8000x32_S8000x32_0_0)) (View.ld x1 (Rect.unit (s := S8000x32) ![0, 0] S8000x32.size inb_S8000x32_S8000x32_0_0))⟩]

/-- The one store covers the buffer. -/
theorem cover2 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out2` of the inputs'. -/
theorem sound_kernel2 (c : Dev nD) (E : Set ℕ) (i : grid2.Coords) (arg0 : Memref sig .tc .vmem S8000x32 .f32) (harg0 : arg0.IsWhole) (arg1 : Memref sig .tc .vmem S8000x32 .f32) (harg1 : arg1.IsWhole) (arg2 : Memref sig .tc .vmem S8000x32 .f32) (harg2 : arg2.IsWhole)
    (x0 : Vec F S8000x32 .f32) (x1 : Vec F S8000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc2__relu_add_kernel i arg0 harg0 arg1 harg1 arg2 harg2) K := by
  simp only [cc2__relu_add_kernel_eq_skeleton]; unfold cc2__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of pipeline 2 on core `c`: the arrays as the region finds them; after the body at point `t`
    each input's buffer at its block and the output's at `out2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Region03.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the body `cc3__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: an unfetched window's
    block index has not moved since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: an unfetched window's
    block index has not moved since the fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: an unfetched window's
    block index has not moved since the fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not: an unfetched window's
    block index has not moved since the fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not: an unfetched window's
    block index has not moved since the fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not: an unfetched window's
    block index has not moved since the fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body, from the input blocks: its one store, of the whole block. -/
def out3 (x0 : Vec F S10000x32 .f32) (x1 : Vec F S10000x32 .f32) (x2 : Vec F S32x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k3_pay1 (View.ld x0 (Rect.unit (s := S10000x32) ![0, 0] S10000x32.size inb_S10000x32_S10000x32_0_0)) (View.ld x1 (Rect.unit (s := S10000x32) ![0, 0] S10000x32.size inb_S10000x32_S10000x32_0_0)) (View.ld x2 (Rect.unit (s := S32x64) ![0, 0] S32x64.size inb_S32x64_S32x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out3` of the inputs'. -/
theorem sound_kernel3 (c : Dev nD) (E : Set ℕ) (i : grid3.Coords) (arg0 : Memref sig .tc .vmem S10000x32 .f32) (harg0 : arg0.IsWhole) (arg1 : Memref sig .tc .vmem S10000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x32 .f32) (x1 : Vec F S10000x32 .f32) (x2 : Vec F S32x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3 x0 x1 x2 x3 x4 x5)) -∗ K ⟨⟩))
      ⊢ wp frame (wpE (defs₀ (F := F)) Variants.none c none) E (cc3__add_mlp2_kernel i arg0 harg0 arg1 harg1 arg2 harg2 arg3 harg3 arg4 harg4 arg5 harg5 arg6 harg6) K := by
  simp only [cc3__add_mlp2_kernel_eq_skeleton]; unfold cc3__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of pipeline 3 on core `c`: the arrays as the region finds them; after the body at point `t`
    each input's buffer at its block and the output's at `out3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Bits.Region04.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the body `cc4__linear_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: an unfetched window's
    block index has not moved since the fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not: an unfetched window's
    block index has not moved since the fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not: an unfetched window's
    block index has not moved since the fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output window's staging buffer after the body, from the input blocks: its one store, of the whole block. -/
def out4 (x0 : Vec F S8000x32 .f32) (x1 : Vec F S32x64 .f32) (x2 : Vec F S1x64 .f32) : Vec F S8000x64 .f32 :=
  View.canon [⟨(Rect.unit (s := S8000x64) ![0, 0] S8000x64.size inb_S8000x64_S8000x64_0_0), k4_pay1 (View.ld x0 (Rect.unit (s := S8000x32) ![0, 0] S8000x32.size inb_S8000x32_S8000x32_0_0)) (View.ld x1 (Rect.unit (s := S32x64) ![0, 0] S32x64.size inb_S32x64_S32x64_0_0)) (View.ld x2 (Rect.unit (s := S1x64) ![0, 0] S1x64.size inb_S1x64_S1x64_0_0))⟩]

/-- The one store covers the buffer. -/
theorem cover4 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out4` of the inputs'. -/
theorem sound_kernel4 (c : Dev nD) (E : Set ℕ) (i : grid4.Coords) (arg0 : Memref sig .tc .vmem S8000x32 .f32) (harg0 : arg0.IsWhole) (arg1 : Memref sig .tc .vmem S32x64 .f32) (harg1 : arg1.IsWhole) (arg2 : Memref sig .tc .vmem S1x64 .f32) (harg2 : arg2.IsWhole) (arg3 : Memref sig .tc .vmem S8000x64 .f32) (harg3 : arg3.IsWhole)
    (x0 : Vec F S8000x32 .f32) (x1 : Vec F S32x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4 x0 x1 x2)) -∗ K ⟨⟩))
      ⊢ wp frame (wpE (defs₀ (F := F)) Variants.none c none) E (cc4__linear_kernel i arg0 harg0 arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The proof data of pipeline 4 on core `c`: the arrays as the region finds them; after the body at point `t`
    each input's buffer at its block and the output's at `out4` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Bits.Region05.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the body `cc5__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: an unfetched window's
    block index has not moved since the fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: an unfetched window's
    block index has not moved since the fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body, from the input blocks: its one store, of the whole block. -/
def out5 (x0 : Vec F S8000x64 .f32) (x1 : Vec F S8000x64 .f32) : Vec F S8000x64 .f32 :=
  View.canon [⟨(Rect.unit (s := S8000x64) ![0, 0] S8000x64.size inb_S8000x64_S8000x64_0_0), k5_pay1 (View.ld x0 (Rect.unit (s := S8000x64) ![0, 0] S8000x64.size inb_S8000x64_S8000x64_0_0)) (View.ld x1 (Rect.unit (s := S8000x64) ![0, 0] S8000x64.size inb_S8000x64_S8000x64_0_0))⟩]

/-- The one store covers the buffer. -/
theorem cover5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out5` of the inputs'. -/
theorem sound_kernel5 (c : Dev nD) (E : Set ℕ) (i : grid5.Coords) (arg0 : Memref sig .tc .vmem S8000x64 .f32) (harg0 : arg0.IsWhole) (arg1 : Memref sig .tc .vmem S8000x64 .f32) (harg1 : arg1.IsWhole) (arg2 : Memref sig .tc .vmem S8000x64 .f32) (harg2 : arg2.IsWhole)
    (x0 : Vec F S8000x64 .f32) (x1 : Vec F S8000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5 x0 x1)) -∗ K ⟨⟩))
      ⊢ wp frame (wpE (defs₀ (F := F)) Variants.none c none) E (cc5__relu_add_kernel i arg0 harg0 arg1 harg1 arg2 harg2) K := by
  simp only [cc5__relu_add_kernel_eq_skeleton]; unfold cc5__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of pipeline 5 on core `c`: the arrays as the region finds them; after the body at point `t`
    each input's buffer at its block and the output's at `out5` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Bits.Region06.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: the body `cc6__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: an unfetched window's
    block index has not moved since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: an unfetched window's
    block index has not moved since the fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not: an unfetched window's
    block index has not moved since the fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not: an unfetched window's
    block index has not moved since the fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not: an unfetched window's
    block index has not moved since the fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds its block at every point, fetched there or not: an unfetched window's
    block index has not moved since the fetch. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- The output window's staging buffer after the body, from the input blocks: its one store, of the whole block. -/
def out6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k6_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover6 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out6` of the inputs'. -/
theorem sound_kernel6 (c : Dev nD) (E : Set ℕ) (i : grid6.Coords) (arg0 : Memref sig .tc .vmem S10000x64 .f32) (harg0 : arg0.IsWhole) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6 x0 x1 x2 x3 x4 x5)) -∗ K ⟨⟩))
      ⊢ wp frame (wpE (defs₀ (F := F)) Variants.none c none) E (cc6__add_mlp2_kernel i arg0 harg0 arg1 harg1 arg2 harg2 arg3 harg3 arg4 harg4 arg5 harg5 arg6 harg6) K := by
  simp only [cc6__add_mlp2_kernel_eq_skeleton]; unfold cc6__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-- The proof data of pipeline 6 on core `c`: the arrays as the region finds them; after the body at point `t`
    each input's buffer at its block and the output's at `out6` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.Bits.Region07.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the body `cc7__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not: an unfetched window's
    block index has not moved since the fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not: an unfetched window's
    block index has not moved since the fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not: an unfetched window's
    block index has not moved since the fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not: an unfetched window's
    block index has not moved since the fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not: an unfetched window's
    block index has not moved since the fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output window's staging buffer after the body, from the input blocks: its one store, of the whole block. -/
def out7 (x0 : Vec F S10000x1 .f32) (x1 : Vec F S1x32 .f32) (x2 : Vec F S1x32 .f32) (x3 : Vec F S32x32 .f32) (x4 : Vec F S1x32 .f32) : Vec F S10000x32 .f32 :=
  View.canon [⟨(Rect.unit (s := S10000x32) ![0, 0] S10000x32.size inb_S10000x32_S10000x32_0_0), k7_pay1 (View.ld x0 (Rect.unit (s := S10000x1) ![0, 0] S10000x1.size inb_S10000x1_S10000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover7 (p0 : Vec F S10000x32 .f32) (y : S10000x32.Idx) :
    ∃ pc ∈ ([⟨(Rect.unit (s := S10000x32) ![0, 0] S10000x32.size inb_S10000x32_S10000x32_0_0), p0⟩] : List (View.Piece (Elt F) S10000x32 .f32)), y ∈ pc.1.set :=
  View.cover_of_tiled [⟨(Rect.unit (s := S10000x32) ![0, 0] S10000x32.size inb_S10000x32_S10000x32_0_0), p0⟩] S10000x32.size (by rfl) y

set_option maxHeartbeats 1000000 in
/-- The body on whole staging memrefs, the inputs' at contents `x` and the output's at anything, runs to the
    continuation holding the inputs' as they were and the output's at `out7` of the inputs'. -/
theorem sound_kernel7 (c : Dev nD) (E : Set ℕ) (i : grid7.Coords) (arg0 : Memref sig .tc .vmem S10000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S10000x32 .f32) (harg5 : arg5.IsWhole)
    (x0 : Vec F S10000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out7 x0 x1 x2 x3 x4)) -∗ K ⟨⟩))
      ⊢ wp frame (wpE (defs₀ (F := F)) Variants.none c none) E (cc7__mlp2_kernel i arg0 harg0 arg1 harg1 arg2 harg2 arg3 harg3 arg4 harg4 arg5 harg5) K := by
  simp only [cc7__mlp2_kernel_eq_skeleton]; unfold cc7__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7 _)

/-- The proof data of pipeline 7 on core `c`: the arrays as the region finds them; after the body at point `t`
    each input's buffer at its block and the output's at `out7` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.Bits.Region08.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8: the body `cc8__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: an unfetched window's
    block index has not moved since the fetch. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: an unfetched window's
    block index has not moved since the fetch. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: an unfetched window's
    block index has not moved since the fetch. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not: an unfetched window's
    block index has not moved since the fetch. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not: an unfetched window's
    block index has not moved since the fetch. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The output window's staging buffer after the body, from the input blocks: its one store, of the whole block. -/
def out8 (x0 : Vec F S8000x1 .f32) (x1 : Vec F S1x32 .f32) (x2 : Vec F S1x32 .f32) (x3 : Vec F S32x32 .f32) (x4 : Vec F S1x32 .f32) : Vec F S8000x32 .f32 :=
  View.canon [⟨(Rect.unit (s := S8000x32) ![0, 0] S8000x32.size inb_S8000x32_S8000x32_0_0), k8_pay1 (View.ld x0 (Rect.unit (s := S8000x1) ![0, 0] S8000x1.size inb_S8000x1_S8000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover8 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out8` of the inputs'. -/
theorem sound_kernel8 (c : Dev nD) (E : Set ℕ) (i : grid8.Coords) (arg0 : Memref sig .tc .vmem S8000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S8000x32 .f32) (harg5 : arg5.IsWhole)
    (x0 : Vec F S8000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out8 x0 x1 x2 x3 x4)) -∗ K ⟨⟩))
      ⊢ wp frame (wpE (defs₀ (F := F)) Variants.none c none) E (cc8__mlp2_kernel i arg0 harg0 arg1 harg1 arg2 harg2 arg3 harg3 arg4 harg4 arg5 harg5) K := by
  simp only [cc8__mlp2_kernel_eq_skeleton]; unfold cc8__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-- The proof data of pipeline 8 on core `c`: the arrays as the region finds them; after the body at point `t`
    each input's buffer at its block and the output's at `out8` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.Bits.Region09.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 9: the body `cc9__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not: an unfetched window's
    block index has not moved since the fetch. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not: an unfetched window's
    block index has not moved since the fetch. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The output window's staging buffer after the body, from the input blocks: its one store, of the whole block. -/
def out9 (x0 : Vec F S8000x32 .f32) (x1 : Vec F S8000x32 .f32) : Vec F S8000x32 .f32 :=
  View.canon [⟨(Rect.unit (s := S8000x32) ![0, 0] S8000x32.size inb_S8000x32_S8000x32_0_0), k9_pay1 (View.ld x0 (Rect.unit (s := S8000x32) ![0, 0] S8000x32.size inb_S8000x32_S8000x32_0_0)) (View.ld x1 (Rect.unit (s := S8000x32) ![0, 0] S8000x32.size inb_S8000x32_S8000x32_0_0))⟩]

/-- The one store covers the buffer. -/
theorem cover9 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out9` of the inputs'. -/
theorem sound_kernel9 (c : Dev nD) (E : Set ℕ) (i : grid9.Coords) (arg0 : Memref sig .tc .vmem S8000x32 .f32) (harg0 : arg0.IsWhole) (arg1 : Memref sig .tc .vmem S8000x32 .f32) (harg1 : arg1.IsWhole) (arg2 : Memref sig .tc .vmem S8000x32 .f32) (harg2 : arg2.IsWhole)
    (x0 : Vec F S8000x32 .f32) (x1 : Vec F S8000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9 x0 x1)) -∗ K ⟨⟩))
      ⊢ wp frame (wpE (defs₀ (F := F)) Variants.none c none) E (cc9__relu_add_kernel i arg0 harg0 arg1 harg1 arg2 harg2) K := by
  simp only [cc9__relu_add_kernel_eq_skeleton]; unfold cc9__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9 _)

/-- The proof data of pipeline 9 on core `c`: the arrays as the region finds them; after the body at point `t`
    each input's buffer at its block and the output's at `out9` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.Bits.Region10.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 10: the body `cc10__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not: an unfetched window's
    block index has not moved since the fetch. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, fetched there or not: an unfetched window's
    block index has not moved since the fetch. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, fetched there or not: an unfetched window's
    block index has not moved since the fetch. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, fetched there or not: an unfetched window's
    block index has not moved since the fetch. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, fetched there or not: an unfetched window's
    block index has not moved since the fetch. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's staging buffer holds its block at every point, fetched there or not: an unfetched window's
    block index has not moved since the fetch. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- The output window's staging buffer after the body, from the input blocks: its one store, of the whole block. -/
def out10 (x0 : Vec F S10000x32 .f32) (x1 : Vec F S10000x32 .f32) (x2 : Vec F S32x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k10_pay1 (View.ld x0 (Rect.unit (s := S10000x32) ![0, 0] S10000x32.size inb_S10000x32_S10000x32_0_0)) (View.ld x1 (Rect.unit (s := S10000x32) ![0, 0] S10000x32.size inb_S10000x32_S10000x32_0_0)) (View.ld x2 (Rect.unit (s := S32x64) ![0, 0] S32x64.size inb_S32x64_S32x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover10 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out10` of the inputs'. -/
theorem sound_kernel10 (c : Dev nD) (E : Set ℕ) (i : grid10.Coords) (arg0 : Memref sig .tc .vmem S10000x32 .f32) (harg0 : arg0.IsWhole) (arg1 : Memref sig .tc .vmem S10000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x32 .f32) (x1 : Vec F S10000x32 .f32) (x2 : Vec F S32x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out10 x0 x1 x2 x3 x4 x5)) -∗ K ⟨⟩))
      ⊢ wp frame (wpE (defs₀ (F := F)) Variants.none c none) E (cc10__add_mlp2_kernel i arg0 harg0 arg1 harg1 arg2 harg2 arg3 harg3 arg4 harg4 arg5 harg5 arg6 harg6) K := by
  simp only [cc10__add_mlp2_kernel_eq_skeleton]; unfold cc10__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10 _)

/-- The proof data of pipeline 10 on core `c`: the arrays as the region finds them; after the body at point `t`
    each input's buffer at its block and the output's at `out10` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10 (iblk10 V c 0 t) (iblk10 V c 1 t) (iblk10 V c 2 t) (iblk10 V c 3 t) (iblk10 V c 4 t) (iblk10 V c 5 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10 (iblk10 V c 0 t) (iblk10 V c 1 t) (iblk10 V c 2 t) (iblk10 V c 3 t) (iblk10 V c 4 t) (iblk10 V c 5 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks, so the triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.Bits.Region11.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 11: the body `cc11__linear_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not: an unfetched window's
    block index has not moved since the fetch. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not: an unfetched window's
    block index has not moved since the fetch. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not: an unfetched window's
    block index has not moved since the fetch. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The output window's staging buffer after the body, from the input blocks: its one store, of the whole block. -/
def out11 (x0 : Vec F S8000x32 .f32) (x1 : Vec F S32x64 .f32) (x2 : Vec F S1x64 .f32) : Vec F S8000x64 .f32 :=
  View.canon [⟨(Rect.unit (s := S8000x64) ![0, 0] S8000x64.size inb_S8000x64_S8000x64_0_0), k11_pay1 (View.ld x0 (Rect.unit (s := S8000x32) ![0, 0] S8000x32.size inb_S8000x32_S8000x32_0_0)) (View.ld x1 (Rect.unit (s := S32x64) ![0, 0] S32x64.size inb_S32x64_S32x64_0_0)) (View.ld x2 (Rect.unit (s := S1x64) ![0, 0] S1x64.size inb_S1x64_S1x64_0_0))⟩]

/-- The one store covers the buffer. -/
theorem cover11 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out11` of the inputs'. -/
theorem sound_kernel11 (c : Dev nD) (E : Set ℕ) (i : grid11.Coords) (arg0 : Memref sig .tc .vmem S8000x32 .f32) (harg0 : arg0.IsWhole) (arg1 : Memref sig .tc .vmem S32x64 .f32) (harg1 : arg1.IsWhole) (arg2 : Memref sig .tc .vmem S1x64 .f32) (harg2 : arg2.IsWhole) (arg3 : Memref sig .tc .vmem S8000x64 .f32) (harg3 : arg3.IsWhole)
    (x0 : Vec F S8000x32 .f32) (x1 : Vec F S32x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11 x0 x1 x2)) -∗ K ⟨⟩))
      ⊢ wp frame (wpE (defs₀ (F := F)) Variants.none c none) E (cc11__linear_kernel i arg0 harg0 arg1 harg1 arg2 harg2 arg3 harg3) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11 _)

/-- The proof data of pipeline 11 on core `c`: the arrays as the region finds them; after the body at point `t`
    each input's buffer at its block and the output's at `out11` of the input blocks; the invariant the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so the triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.Bits.Region12.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 12: the body `cc12__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not: an unfetched window's
    block index has not moved since the fetch. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, fetched there or not: an unfetched window's
    block index has not moved since the fetch. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The output window's staging buffer after the body, from the input blocks: its one store, of the whole block. -/
def out12 (x0 : Vec F S8000x64 .f32) (x1 : Vec F S8000x64 .f32) : Vec F S8000x64 .f32 :=
  View.canon [⟨(Rect.unit (s := S8000x64) ![0, 0] S8000x64.size inb_S8000x64_S8000x64_0_0), k12_pay1 (View.ld x0 (Rect.unit (s := S8000x64) ![0, 0] S8000x64.size inb_S8000x64_S8000x64_0_0)) (View.ld x1 (Rect.unit (s := S8000x64) ![0, 0] S8000x64.size inb_S8000x64_S8000x64_0_0))⟩]

/-- The one store covers the buffer. -/
theorem cover12 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out12` of the inputs'. -/
theorem sound_kernel12 (c : Dev nD) (E : Set ℕ) (i : grid12.Coords) (arg0 : Memref sig .tc .vmem S8000x64 .f32) (harg0 : arg0.IsWhole) (arg1 : Memref sig .tc .vmem S8000x64 .f32) (harg1 : arg1.IsWhole) (arg2 : Memref sig .tc .vmem S8000x64 .f32) (harg2 : arg2.IsWhole)
    (x0 : Vec F S8000x64 .f32) (x1 : Vec F S8000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out12 x0 x1)) -∗ K ⟨⟩))
      ⊢ wp frame (wpE (defs₀ (F := F)) Variants.none c none) E (cc12__relu_add_kernel i arg0 harg0 arg1 harg1 arg2 harg2) K := by
  simp only [cc12__relu_add_kernel_eq_skeleton]; unfold cc12__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12 _)

/-- The proof data of pipeline 12 on core `c`: the arrays as the region finds them; after the body at point `t`
    each input's buffer at its block and the output's at `out12` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so the triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.Bits.Region13.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 13: the body `cc13__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or not: an unfetched window's
    block index has not moved since the fetch. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's staging buffer holds its block at every point, fetched there or not: an unfetched window's
    block index has not moved since the fetch. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's staging buffer holds its block at every point, fetched there or not: an unfetched window's
    block index has not moved since the fetch. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's staging buffer holds its block at every point, fetched there or not: an unfetched window's
    block index has not moved since the fetch. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's staging buffer holds its block at every point, fetched there or not: an unfetched window's
    block index has not moved since the fetch. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's staging buffer holds its block at every point, fetched there or not: an unfetched window's
    block index has not moved since the fetch. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- The output window's staging buffer after the body, from the input blocks: its one store, of the whole block. -/
def out13 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k13_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover13 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out13` of the inputs'. -/
theorem sound_kernel13 (c : Dev nD) (E : Set ℕ) (i : grid13.Coords) (arg0 : Memref sig .tc .vmem S10000x64 .f32) (harg0 : arg0.IsWhole) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out13 x0 x1 x2 x3 x4 x5)) -∗ K ⟨⟩))
      ⊢ wp frame (wpE (defs₀ (F := F)) Variants.none c none) E (cc13__add_mlp2_kernel i arg0 harg0 arg1 harg1 arg2 harg2 arg3 harg3 arg4 harg4 arg5 harg5 arg6 harg6) K := by
  simp only [cc13__add_mlp2_kernel_eq_skeleton]; unfold cc13__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13 _)

/-- The proof data of pipeline 13 on core `c`: the arrays as the region finds them; after the body at point `t`
    each input's buffer at its block and the output's at `out13` of the input blocks; the invariant the scoped rest
    and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13 (iblk13 V c 0 t) (iblk13 V c 1 t) (iblk13 V c 2 t) (iblk13 V c 3 t) (iblk13 V c 4 t) (iblk13 V c 5 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13 (iblk13 V c 0 t) (iblk13 V c 1 t) (iblk13 V c 2 t) (iblk13 V c 3 t) (iblk13 V c 4 t) (iblk13 V c 5 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.Bits.Region14.lean ====
import proofs.«106349_j21990232555677_1_alg».proof.Proof.Gen.Kernel.Launch
import proofs.«106349_j21990232555677_1_alg».proof.Proof.Gen.Kernel.Skeleton
import proofs.«106349_j21990232555677_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 14: the body `cc14__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or not: an unfetched window's
    block index has not moved since the fetch. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's staging buffer holds its block at every point, fetched there or not: an unfetched window's
    block index has not moved since the fetch. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's staging buffer holds its block at every point, fetched there or not: an unfetched window's
    block index has not moved since the fetch. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's staging buffer holds its block at every point, fetched there or not: an unfetched window's
    block index has not moved since the fetch. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's staging buffer holds its block at every point, fetched there or not: an unfetched window's
    block index has not moved since the fetch. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- The output window's staging buffer after the body, from the input blocks: its one store, of the whole block. -/
def out14 (x0 : Vec F S512x129 .f32) (x1 : Vec F S129x64 .f32) (x2 : Vec F S1x64 .f32) (x3 : Vec F S64x1 .f32) (x4 : Vec F S1x1 .f32) : Vec F S512x1 .f32 :=
  View.canon [⟨(Rect.unit (s := S512x1) ![0, 0] S512x1.size inb_S512x1_S512x1_0_0), k14_pay1 (View.ld x0 (Rect.unit (s := S512x129) ![0, 0] S512x129.size inb_S512x129_S512x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x1) ![0, 0] S64x1.size inb_S64x1_S64x1_0_0)) (View.ld x4 (Rect.unit (s := S1x1) ![0, 0] S1x1.size inb_S1x1_S1x1_0_0))⟩]

/-- The one store covers the buffer. -/
theorem cover14 (p0 : Vec F S512x1 .f32) (y : S512x1.Idx) :
    ∃ pc ∈ ([⟨(Rect.unit (s := S512x1) ![0, 0] S512x1.size inb_S512x1_S512x1_0_0), p0⟩] : List (View.Piece (Elt F) S512x1 .f32)), y ∈ pc.1.set :=
  View.cover_of_tiled [⟨(Rect.unit (s := S512x1) ![0, 0] S512x1.size inb_S512x1_S512x1_0_0), p0⟩] S512x1.size (by rfl) y

set_option maxHeartbeats 1000000 in
/-- The body on whole staging memrefs, the inputs' at contents `x` and the output's at anything, runs to the
    continuation holding the inputs' as they were and the output's at `out14` of the inputs'. -/
theorem sound_kernel14 (c : Dev nD) (E : Set ℕ) (i : grid14.Coords) (arg0 : Memref sig .tc .vmem S512x129 .f32) (harg0 : arg0.IsWhole) (arg1 : Memref sig .tc .vmem S129x64 .f32) (harg1 : arg1.IsWhole) (arg2 : Memref sig .tc .vmem S1x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S512x1 .f32) (harg5 : arg5.IsWhole)
    (x0 : Vec F S512x129 .f32) (x1 : Vec F S129x64 .f32) (x2 : Vec F S1x64 .f32) (x3 : Vec F S64x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out14 x0 x1 x2 x3 x4)) -∗ K ⟨⟩))
      ⊢ wp frame (wpE (defs₀ (F := F)) Variants.none c none) E (cc14__mlp2_kernel i arg0 harg0 arg1 harg1 arg2 harg2 arg3 harg3 arg4 harg4 arg5 harg5) K := by
  simp only [cc14__mlp2_kernel_eq_skeleton]; unfold cc14__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14 _)

/-- The proof data of pipeline 14 on core `c`: the arrays as the region finds them; after the body at point `t`
    each input's buffer at its block and the output's at `out14` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14 (iblk14 V c 0 t) (iblk14 V c 1 t) (iblk14 V c 2 t) (iblk14 V c 3 t) (iblk14 V c 4 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14 (iblk14 V c 0 t) (iblk14 V c 1 t) (iblk14 V c 2 t) (iblk14 V c 3 t) (iblk14 V c 4 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks, so the triple applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.Bits.Run.lean ====
import proofs.«106349_j21990232555677_1_alg».proof.Proof.Bits.RegionsP
import proofs.«106349_j21990232555677_1_alg».proof.Proof.Bits.Region00
import proofs.«106349_j21990232555677_1_alg».proof.Proof.Bits.Region01
import proofs.«106349_j21990232555677_1_alg».proof.Proof.Bits.Region02
import proofs.«106349_j21990232555677_1_alg».proof.Proof.Bits.Region03
import proofs.«106349_j21990232555677_1_alg».proof.Proof.Bits.Region04
import proofs.«106349_j21990232555677_1_alg».proof.Proof.Bits.Region05
import proofs.«106349_j21990232555677_1_alg».proof.Proof.Bits.Region06
import proofs.«106349_j21990232555677_1_alg».proof.Proof.Bits.Region07
import proofs.«106349_j21990232555677_1_alg».proof.Proof.Bits.Region08
import proofs.«106349_j21990232555677_1_alg».proof.Proof.Bits.Region09
import proofs.«106349_j21990232555677_1_alg».proof.Proof.Bits.Region10
import proofs.«106349_j21990232555677_1_alg».proof.Proof.Bits.Region11
import proofs.«106349_j21990232555677_1_alg».proof.Proof.Bits.Region12
import proofs.«106349_j21990232555677_1_alg».proof.Proof.Bits.Region13
import proofs.«106349_j21990232555677_1_alg».proof.Proof.Bits.Region14
import Idealize.ShloMosaic.Lib.Pipeline.Frame
import Idealize.ShloMosaic.Lib.Pipeline.Regions

/-!
# The run of @main: fifteen regions among stretches of host operations

Between two items of @main a core holds every unscoped buffer whole. A region changes one buffer only, its output
window's array, and leaves there what its write-backs fold to after the last grid point; a stretch of host operations
leaves the fold of its operations. So the buffers' contents at every boundary are a chain from the launch memory:
XeK when region K is entered, XxK when it is left. Each region is a segment entered from the first and left at
the second; its arrays are split out of the unscoped buffers and put back, the generator register passes through the
class invariant, and nothing is owed. One launch over the segments then says that every weakly fair execution
terminates with every unscoped buffer at the last boundary's contents.
-/

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Core c's unscoped buffers when region 0 is entered. -/
def Xe0 (c : Dev nD) : Valuation τ sig (Elt F) := V3 m c
/-- The same read at the TensorCore's references. -/
abbrev Vr0 : (c : Dev nD) → (b : Ref sig .tc) → Buf (Elt F) ((c : Thread nD τ).loc b) := fun c b => Xe0 m c b
/-- When it is left: its output array at what the write-backs fold to, every other buffer as entered. -/
def Xx0 (c : Dev nD) : Valuation τ sig (Elt F) := Function.update (Xe0 m c) main_v9 ((dat0 (Vr0 m) c).arrAt 5 cfg0.N)
/-- The same read at the TensorCore's references. -/
abbrev Vxr0 : (c : Dev nD) → (b : Ref sig .tc) → Buf (Elt F) ((c : Thread nD τ).loc b) := fun c b => Xx0 m c b

/-- Core c's unscoped buffers when region 1 is entered. -/
def Xe1 (c : Dev nD) : Valuation τ sig (Elt F) := StableHlo.after hostOps1 (Xx0 m c)
/-- The same read at the TensorCore's references. -/
abbrev Vr1 : (c : Dev nD) → (b : Ref sig .tc) → Buf (Elt F) ((c : Thread nD τ).loc b) := fun c b => Xe1 m c b
/-- When it is left: its output array at what the write-backs fold to, every other buffer as entered. -/
def Xx1 (c : Dev nD) : Valuation τ sig (Elt F) := Function.update (Xe1 m c) main_v12 ((dat1 (Vr1 m) c).arrAt 5 cfg1.N)
/-- The same read at the TensorCore's references. -/
abbrev Vxr1 : (c : Dev nD) → (b : Ref sig .tc) → Buf (Elt F) ((c : Thread nD τ).loc b) := fun c b => Xx1 m c b

/-- Core c's unscoped buffers when region 2 is entered. -/
def Xe2 (c : Dev nD) : Valuation τ sig (Elt F) := StableHlo.after hostOps2 (Xx1 m c)
/-- The same read at the TensorCore's references. -/
abbrev Vr2 : (c : Dev nD) → (b : Ref sig .tc) → Buf (Elt F) ((c : Thread nD τ).loc b) := fun c b => Xe2 m c b
/-- When it is left: its output array at what the write-backs fold to, every other buffer as entered. -/
def Xx2 (c : Dev nD) : Valuation τ sig (Elt F) := Function.update (Xe2 m c) main_v24 ((dat2 (Vr2 m) c).arrAt 2 cfg2.N)
/-- The same read at the TensorCore's references. -/
abbrev Vxr2 : (c : Dev nD) → (b : Ref sig .tc) → Buf (Elt F) ((c : Thread nD τ).loc b) := fun c b => Xx2 m c b

/-- Core c's unscoped buffers when region 3 is entered. -/
def Xe3 (c : Dev nD) : Valuation τ sig (Elt F) := StableHlo.after hostOps3 (Xx2 m c)
/-- The same read at the TensorCore's references. -/
abbrev Vr3 : (c : Dev nD) → (b : Ref sig .tc) → Buf (Elt F) ((c : Thread nD τ).loc b) := fun c b => Xe3 m c b
/-- When it is left: its output array at what the write-backs fold to, every other buffer as entered. -/
def Xx3 (c : Dev nD) : Valuation τ sig (Elt F) := Function.update (Xe3 m c) main_v30 ((dat3 (Vr3 m) c).arrAt 6 cfg3.N)
/-- The same read at the TensorCore's references. -/
abbrev Vxr3 : (c : Dev nD) → (b : Ref sig .tc) → Buf (Elt F) ((c : Thread nD τ).loc b) := fun c b => Xx3 m c b

/-- Core c's unscoped buffers when region 4 is entered. -/
def Xe4 (c : Dev nD) : Valuation τ sig (Elt F) := StableHlo.after hostOps4 (Xx3 m c)
/-- The same read at the TensorCore's references. -/
abbrev Vr4 : (c : Dev nD) → (b : Ref sig .tc) → Buf (Elt F) ((c : Thread nD τ).loc b) := fun c b => Xe4 m c b
/-- When it is left: its output array at what the write-backs fold to, every other buffer as entered. -/
def Xx4 (c : Dev nD) : Valuation τ sig (Elt F) := Function.update (Xe4 m c) main_v32 ((dat4 (Vr4 m) c).arrAt 3 cfg4.N)
/-- The same read at the TensorCore's references. -/
abbrev Vxr4 : (c : Dev nD) → (b : Ref sig .tc) → Buf (Elt F) ((c : Thread nD τ).loc b) := fun c b => Xx4 m c b

/-- Core c's unscoped buffers when region 5 is entered. -/
def Xe5 (c : Dev nD) : Valuation τ sig (Elt F) := StableHlo.after hostOps5 (Xx4 m c)
/-- The same read at the TensorCore's references. -/
abbrev Vr5 : (c : Dev nD) → (b : Ref sig .tc) → Buf (Elt F) ((c : Thread nD τ).loc b) := fun c b => Xe5 m c b
/-- When it is left: its output array at what the write-backs fold to, every other buffer as entered. -/
def Xx5 (c : Dev nD) : Valuation τ sig (Elt F) := Function.update (Xe5 m c) main_v40 ((dat5 (Vr5 m) c).arrAt 2 cfg5.N)
/-- The same read at the TensorCore's references. -/
abbrev Vxr5 : (c : Dev nD) → (b : Ref sig .tc) → Buf (Elt F) ((c : Thread nD τ).loc b) := fun c b => Xx5 m c b

/-- Core c's unscoped buffers when region 6 is entered. -/
def Xe6 (c : Dev nD) : Valuation τ sig (Elt F) := StableHlo.after hostOps6 (Xx5 m c)
/-- The same read at the TensorCore's references. -/
abbrev Vr6 : (c : Dev nD) → (b : Ref sig .tc) → Buf (Elt F) ((c : Thread nD τ).loc b) := fun c b => Xe6 m c b
/-- When it is left: its output array at what the write-backs fold to, every other buffer as entered. -/
def Xx6 (c : Dev nD) : Valuation τ sig (Elt F) := Function.update (Xe6 m c) main_v46 ((dat6 (Vr6 m) c).arrAt 6 cfg6.N)
/-- The same read at the TensorCore's references. -/
abbrev Vxr6 : (c : Dev nD) → (b : Ref sig .tc) → Buf (Elt F) ((c : Thread nD τ).loc b) := fun c b => Xx6 m c b

/-- Core c's unscoped buffers when region 7 is entered. -/
def Xe7 (c : Dev nD) : Valuation τ sig (Elt F) := StableHlo.after hostOps7_2 (StableHlo.after hostOps7_1 (StableHlo.after hostOps7 (Xx6 m c)))
/-- The same read at the TensorCore's references. -/
abbrev Vr7 : (c : Dev nD) → (b : Ref sig .tc) → Buf (Elt F) ((c : Thread nD τ).loc b) := fun c b => Xe7 m c b
/-- When it is left: its output array at what the write-backs fold to, every other buffer as entered. -/
def Xx7 (c : Dev nD) : Valuation τ sig (Elt F) := Function.update (Xe7 m c) main_v68 ((dat7 (Vr7 m) c).arrAt 5 cfg7.N)
/-- The same read at the TensorCore's references. -/
abbrev Vxr7 : (c : Dev nD) → (b : Ref sig .tc) → Buf (Elt F) ((c : Thread nD τ).loc b) := fun c b => Xx7 m c b

/-- Core c's unscoped buffers when region 8 is entered. -/
def Xe8 (c : Dev nD) : Valuation τ sig (Elt F) := StableHlo.after hostOps8 (Xx7 m c)
/-- The same read at the TensorCore's references. -/
abbrev Vr8 : (c : Dev nD) → (b : Ref sig .tc) → Buf (Elt F) ((c : Thread nD τ).loc b) := fun c b => Xe8 m c b
/-- When it is left: its output array at what the write-backs fold to, every other buffer as entered. -/
def Xx8 (c : Dev nD) : Valuation τ sig (Elt F) := Function.update (Xe8 m c) main_v71 ((dat8 (Vr8 m) c).arrAt 5 cfg8.N)
/-- The same read at the TensorCore's references. -/
abbrev Vxr8 : (c : Dev nD) → (b : Ref sig .tc) → Buf (Elt F) ((c : Thread nD τ).loc b) := fun c b => Xx8 m c b

/-- Core c's unscoped buffers when region 9 is entered. -/
def Xe9 (c : Dev nD) : Valuation τ sig (Elt F) := StableHlo.after hostOps9 (Xx8 m c)
/-- The same read at the TensorCore's references. -/
abbrev Vr9 : (c : Dev nD) → (b : Ref sig .tc) → Buf (Elt F) ((c : Thread nD τ).loc b) := fun c b => Xe9 m c b
/-- When it is left: its output array at what the write-backs fold to, every other buffer as entered. -/
def Xx9 (c : Dev nD) : Valuation τ sig (Elt F) := Function.update (Xe9 m c) main_v83 ((dat9 (Vr9 m) c).arrAt 2 cfg9.N)
/-- The same read at the TensorCore's references. -/
abbrev Vxr9 : (c : Dev nD) → (b : Ref sig .tc) → Buf (Elt F) ((c : Thread nD τ).loc b) := fun c b => Xx9 m c b

/-- Core c's unscoped buffers when region 10 is entered. -/
def Xe10 (c : Dev nD) : Valuation τ sig (Elt F) := StableHlo.after hostOps10 (Xx9 m c)
/-- The same read at the TensorCore's references. -/
abbrev Vr10 : (c : Dev nD) → (b : Ref sig .tc) → Buf (Elt F) ((c : Thread nD τ).loc b) := fun c b => Xe10 m c b
/-- When it is left: its output array at what the write-backs fold to, every other buffer as entered. -/
def Xx10 (c : Dev nD) : Valuation τ sig (Elt F) := Function.update (Xe10 m c) main_v89 ((dat10 (Vr10 m) c).arrAt 6 cfg10.N)
/-- The same read at the TensorCore's references. -/
abbrev Vxr10 : (c : Dev nD) → (b : Ref sig .tc) → Buf (Elt F) ((c : Thread nD τ).loc b) := fun c b => Xx10 m c b

/-- Core c's unscoped buffers when region 11 is entered. -/
def Xe11 (c : Dev nD) : Valuation τ sig (Elt F) := StableHlo.after hostOps11 (Xx10 m c)
/-- The same read at the TensorCore's references. -/
abbrev Vr11 : (c : Dev nD) → (b : Ref sig .tc) → Buf (Elt F) ((c : Thread nD τ).loc b) := fun c b => Xe11 m c b
/-- When it is left: its output array at what the write-backs fold to, every other buffer as entered. -/
def Xx11 (c : Dev nD) : Valuation τ sig (Elt F) := Function.update (Xe11 m c) main_v91 ((dat11 (Vr11 m) c).arrAt 3 cfg11.N)
/-- The same read at the TensorCore's references. -/
abbrev Vxr11 : (c : Dev nD) → (b : Ref sig .tc) → Buf (Elt F) ((c : Thread nD τ).loc b) := fun c b => Xx11 m c b

/-- Core c's unscoped buffers when region 12 is entered. -/
def Xe12 (c : Dev nD) : Valuation τ sig (Elt F) := StableHlo.after hostOps12 (Xx11 m c)
/-- The same read at the TensorCore's references. -/
abbrev Vr12 : (c : Dev nD) → (b : Ref sig .tc) → Buf (Elt F) ((c : Thread nD τ).loc b) := fun c b => Xe12 m c b
/-- When it is left: its output array at what the write-backs fold to, every other buffer as entered. -/
def Xx12 (c : Dev nD) : Valuation τ sig (Elt F) := Function.update (Xe12 m c) main_v99 ((dat12 (Vr12 m) c).arrAt 2 cfg12.N)
/-- The same read at the TensorCore's references. -/
abbrev Vxr12 : (c : Dev nD) → (b : Ref sig .tc) → Buf (Elt F) ((c : Thread nD τ).loc b) := fun c b => Xx12 m c b

/-- Core c's unscoped buffers when region 13 is entered. -/
def Xe13 (c : Dev nD) : Valuation τ sig (Elt F) := StableHlo.after hostOps13 (Xx12 m c)
/-- The same read at the TensorCore's references. -/
abbrev Vr13 : (c : Dev nD) → (b : Ref sig .tc) → Buf (Elt F) ((c : Thread nD τ).loc b) := fun c b => Xe13 m c b
/-- When it is left: its output array at what the write-backs fold to, every other buffer as entered. -/
def Xx13 (c : Dev nD) : Valuation τ sig (Elt F) := Function.update (Xe13 m c) main_v105 ((dat13 (Vr13 m) c).arrAt 6 cfg13.N)
/-- The same read at the TensorCore's references. -/
abbrev Vxr13 : (c : Dev nD) → (b : Ref sig .tc) → Buf (Elt F) ((c : Thread nD τ).loc b) := fun c b => Xx13 m c b

/-- Core c's unscoped buffers when region 14 is entered. -/
def Xe14 (c : Dev nD) : Valuation τ sig (Elt F) := StableHlo.after hostOps14 (Xx13 m c)
/-- The same read at the TensorCore's references. -/
abbrev Vr14 : (c : Dev nD) → (b : Ref sig .tc) → Buf (Elt F) ((c : Thread nD τ).loc b) := fun c b => Xe14 m c b
/-- When it is left: its output array at what the write-backs fold to, every other buffer as entered. -/
def Xx14 (c : Dev nD) : Valuation τ sig (Elt F) := Function.update (Xe14 m c) main_v122 ((dat14 (Vr14 m) c).arrAt 5 cfg14.N)
/-- The same read at the TensorCore's references. -/
abbrev Vxr14 : (c : Dev nD) → (b : Ref sig .tc) → Buf (Elt F) ((c : Thread nD τ).loc b) := fun c b => Xx14 m c b

/-- What each region leaves in the buffer it may change, as the unknowns of the generated boundary valuations. -/
def outs : Outs (F := F) := fun J r c => match J with
  | 4 => Xx0 m c r
  | 6 => Xx1 m c r
  | 8 => Xx2 m c r
  | 10 => Xx3 m c r
  | 12 => Xx4 m c r
  | 14 => Xx5 m c r
  | 16 => Xx6 m c r
  | 20 => Xx7 m c r
  | 22 => Xx8 m c r
  | 24 => Xx9 m c r
  | 26 => Xx10 m c r
  | 28 => Xx11 m c r
  | 30 => Xx12 m c r
  | 32 => Xx13 m c r
  | 34 => Xx14 m c r
  | _ => m ((c : Thread nD τ).loc r)

/-! ## The generated boundary valuations at these contents are the chain above -/

theorem Ve0_eq (c : Dev nD) : V3 m c = Xe0 m c := rfl
theorem Vx0_eq (c : Dev nD) : V4 m (outs m) c = Xx0 m c := by
  show Function.update (V3 m c) main_v9 (Xx0 m c main_v9) = Xx0 m c
  rw [Ve0_eq]; unfold Xx0
  rw [Function.update_self]

theorem Ve1_eq (c : Dev nD) : V5 m (outs m) c = Xe1 m c := by
  show StableHlo.after hostOps1 (V4 m (outs m) c) = StableHlo.after hostOps1 (Xx0 m c)
  rw [Vx0_eq]
theorem Vx1_eq (c : Dev nD) : V6 m (outs m) c = Xx1 m c := by
  show Function.update (V5 m (outs m) c) main_v12 (Xx1 m c main_v12) = Xx1 m c
  rw [Ve1_eq]; unfold Xx1
  rw [Function.update_self]

theorem Ve2_eq (c : Dev nD) : V7 m (outs m) c = Xe2 m c := by
  show StableHlo.after hostOps2 (V6 m (outs m) c) = StableHlo.after hostOps2 (Xx1 m c)
  rw [Vx1_eq]
theorem Vx2_eq (c : Dev nD) : V8 m (outs m) c = Xx2 m c := by
  show Function.update (V7 m (outs m) c) main_v24 (Xx2 m c main_v24) = Xx2 m c
  rw [Ve2_eq]; unfold Xx2
  rw [Function.update_self]

theorem Ve3_eq (c : Dev nD) : V9 m (outs m) c = Xe3 m c := by
  show StableHlo.after hostOps3 (V8 m (outs m) c) = StableHlo.after hostOps3 (Xx2 m c)
  rw [Vx2_eq]
theorem Vx3_eq (c : Dev nD) : V10 m (outs m) c = Xx3 m c := by
  show Function.update (V9 m (outs m) c) main_v30 (Xx3 m c main_v30) = Xx3 m c
  rw [Ve3_eq]; unfold Xx3
  rw [Function.update_self]

theorem Ve4_eq (c : Dev nD) : V11 m (outs m) c = Xe4 m c := by
  show StableHlo.after hostOps4 (V10 m (outs m) c) = StableHlo.after hostOps4 (Xx3 m c)
  rw [Vx3_eq]
theorem Vx4_eq (c : Dev nD) : V12 m (outs m) c = Xx4 m c := by
  show Function.update (V11 m (outs m) c) main_v32 (Xx4 m c main_v32) = Xx4 m c
  rw [Ve4_eq]; unfold Xx4
  rw [Function.update_self]

theorem Ve5_eq (c : Dev nD) : V13 m (outs m) c = Xe5 m c := by
  show StableHlo.after hostOps5 (V12 m (outs m) c) = StableHlo.after hostOps5 (Xx4 m c)
  rw [Vx4_eq]
theorem Vx5_eq (c : Dev nD) : V14 m (outs m) c = Xx5 m c := by
  show Function.update (V13 m (outs m) c) main_v40 (Xx5 m c main_v40) = Xx5 m c
  rw [Ve5_eq]; unfold Xx5
  rw [Function.update_self]

theorem Ve6_eq (c : Dev nD) : V15 m (outs m) c = Xe6 m c := by
  show StableHlo.after hostOps6 (V14 m (outs m) c) = StableHlo.after hostOps6 (Xx5 m c)
  rw [Vx5_eq]
theorem Vx6_eq (c : Dev nD) : V16 m (outs m) c = Xx6 m c := by
  show Function.update (V15 m (outs m) c) main_v46 (Xx6 m c main_v46) = Xx6 m c
  rw [Ve6_eq]; unfold Xx6
  rw [Function.update_self]

theorem Ve7_eq (c : Dev nD) : V19 m (outs m) c = Xe7 m c := by
  show StableHlo.after hostOps7_2 (StableHlo.after hostOps7_1 (StableHlo.after hostOps7 (V16 m (outs m) c))) = StableHlo.after hostOps7_2 (StableHlo.after hostOps7_1 (StableHlo.after hostOps7 (Xx6 m c)))
  rw [Vx6_eq]
theorem Vx7_eq (c : Dev nD) : V20 m (outs m) c = Xx7 m c := by
  show Function.update (V19 m (outs m) c) main_v68 (Xx7 m c main_v68) = Xx7 m c
  rw [Ve7_eq]; unfold Xx7
  rw [Function.update_self]

theorem Ve8_eq (c : Dev nD) : V21 m (outs m) c = Xe8 m c := by
  show StableHlo.after hostOps8 (V20 m (outs m) c) = StableHlo.after hostOps8 (Xx7 m c)
  rw [Vx7_eq]
theorem Vx8_eq (c : Dev nD) : V22 m (outs m) c = Xx8 m c := by
  show Function.update (V21 m (outs m) c) main_v71 (Xx8 m c main_v71) = Xx8 m c
  rw [Ve8_eq]; unfold Xx8
  rw [Function.update_self]

theorem Ve9_eq (c : Dev nD) : V23 m (outs m) c = Xe9 m c := by
  show StableHlo.after hostOps9 (V22 m (outs m) c) = StableHlo.after hostOps9 (Xx8 m c)
  rw [Vx8_eq]
theorem Vx9_eq (c : Dev nD) : V24 m (outs m) c = Xx9 m c := by
  show Function.update (V23 m (outs m) c) main_v83 (Xx9 m c main_v83) = Xx9 m c
  rw [Ve9_eq]; unfold Xx9
  rw [Function.update_self]

theorem Ve10_eq (c : Dev nD) : V25 m (outs m) c = Xe10 m c := by
  show StableHlo.after hostOps10 (V24 m (outs m) c) = StableHlo.after hostOps10 (Xx9 m c)
  rw [Vx9_eq]
theorem Vx10_eq (c : Dev nD) : V26 m (outs m) c = Xx10 m c := by
  show Function.update (V25 m (outs m) c) main_v89 (Xx10 m c main_v89) = Xx10 m c
  rw [Ve10_eq]; unfold Xx10
  rw [Function.update_self]

theorem Ve11_eq (c : Dev nD) : V27 m (outs m) c = Xe11 m c := by
  show StableHlo.after hostOps11 (V26 m (outs m) c) = StableHlo.after hostOps11 (Xx10 m c)
  rw [Vx10_eq]
theorem Vx11_eq (c : Dev nD) : V28 m (outs m) c = Xx11 m c := by
  show Function.update (V27 m (outs m) c) main_v91 (Xx11 m c main_v91) = Xx11 m c
  rw [Ve11_eq]; unfold Xx11
  rw [Function.update_self]

theorem Ve12_eq (c : Dev nD) : V29 m (outs m) c = Xe12 m c := by
  show StableHlo.after hostOps12 (V28 m (outs m) c) = StableHlo.after hostOps12 (Xx11 m c)
  rw [Vx11_eq]
theorem Vx12_eq (c : Dev nD) : V30 m (outs m) c = Xx12 m c := by
  show Function.update (V29 m (outs m) c) main_v99 (Xx12 m c main_v99) = Xx12 m c
  rw [Ve12_eq]; unfold Xx12
  rw [Function.update_self]

theorem Ve13_eq (c : Dev nD) : V31 m (outs m) c = Xe13 m c := by
  show StableHlo.after hostOps13 (V30 m (outs m) c) = StableHlo.after hostOps13 (Xx12 m c)
  rw [Vx12_eq]
theorem Vx13_eq (c : Dev nD) : V32 m (outs m) c = Xx13 m c := by
  show Function.update (V31 m (outs m) c) main_v105 (Xx13 m c main_v105) = Xx13 m c
  rw [Ve13_eq]; unfold Xx13
  rw [Function.update_self]

theorem Ve14_eq (c : Dev nD) : V33 m (outs m) c = Xe14 m c := by
  show StableHlo.after hostOps14 (V32 m (outs m) c) = StableHlo.after hostOps14 (Xx13 m c)
  rw [Vx13_eq]
theorem Vx14_eq (c : Dev nD) : V34 m (outs m) c = Xx14 m c := by
  show Function.update (V33 m (outs m) c) main_v122 (Xx14 m c main_v122) = Xx14 m c
  rw [Ve14_eq]; unfold Xx14
  rw [Function.update_self]

/-! ## What a region leaves: its arrays, and the rest -/

set_option maxHeartbeats 4000000 in
theorem hF0 (c : Dev nD) : ∀ w : Fin 6, (dat0 (Vr0 m) c).arrAt w cfg0.N = Vxr0 m c (Pipeline.arrRef spec0 w) := by
  intro w
  show _ = Xx0 m c (Proc.devRef .tc (Pipeline.arrRef spec0 w))
  unfold Xx0
  match w with
  | 0 => rw [Function.update_of_ne (StableHlo.devRef_ne_of_ne (by decide))]; exact ((dat0 (Vr0 m) c).arrAt_in 0 rfl _).trans (A_eq0 (Vr0 m) c 0)
  | 1 => rw [Function.update_of_ne (StableHlo.devRef_ne_of_ne (by decide))]; exact ((dat0 (Vr0 m) c).arrAt_in 1 rfl _).trans (A_eq0 (Vr0 m) c 1)
  | 2 => rw [Function.update_of_ne (StableHlo.devRef_ne_of_ne (by decide))]; exact ((dat0 (Vr0 m) c).arrAt_in 2 rfl _).trans (A_eq0 (Vr0 m) c 2)
  | 3 => rw [Function.update_of_ne (StableHlo.devRef_ne_of_ne (by decide))]; exact ((dat0 (Vr0 m) c).arrAt_in 3 rfl _).trans (A_eq0 (Vr0 m) c 3)
  | 4 => rw [Function.update_of_ne (StableHlo.devRef_ne_of_ne (by decide))]; exact ((dat0 (Vr0 m) c).arrAt_in 4 rfl _).trans (A_eq0 (Vr0 m) c 4)
  | 5 => rw [Function.update_self]
theorem hrest0 (c : Dev nD) : ∀ b, b ∉ Finset.univ.image (Pipeline.arrRef spec0) → Vxr0 m c b = Vr0 m c b := by
  intro b hb
  show Xx0 m c (Proc.devRef .tc b) = Xe0 m c (Proc.devRef .tc b)
  unfold Xx0
  exact Function.update_of_ne (StableHlo.devRef_ne_of_ne fun e => hb (Finset.mem_image.mpr ⟨5, Finset.mem_univ _, e.symm⟩)) _ _

set_option maxHeartbeats 4000000 in
theorem hF1 (c : Dev nD) : ∀ w : Fin 6, (dat1 (Vr1 m) c).arrAt w cfg1.N = Vxr1 m c (Pipeline.arrRef spec1 w) := by
  intro w
  show _ = Xx1 m c (Proc.devRef .tc (Pipeline.arrRef spec1 w))
  unfold Xx1
  match w with
  | 0 => rw [Function.update_of_ne (StableHlo.devRef_ne_of_ne (by decide))]; exact ((dat1 (Vr1 m) c).arrAt_in 0 rfl _).trans (A_eq1 (Vr1 m) c 0)
  | 1 => rw [Function.update_of_ne (StableHlo.devRef_ne_of_ne (by decide))]; exact ((dat1 (Vr1 m) c).arrAt_in 1 rfl _).trans (A_eq1 (Vr1 m) c 1)
  | 2 => rw [Function.update_of_ne (StableHlo.devRef_ne_of_ne (by decide))]; exact ((dat1 (Vr1 m) c).arrAt_in 2 rfl _).trans (A_eq1 (Vr1 m) c 2)
  | 3 => rw [Function.update_of_ne (StableHlo.devRef_ne_of_ne (by decide))]; exact ((dat1 (Vr1 m) c).arrAt_in 3 rfl _).trans (A_eq1 (Vr1 m) c 3)
  | 4 => rw [Function.update_of_ne (StableHlo.devRef_ne_of_ne (by decide))]; exact ((dat1 (Vr1 m) c).arrAt_in 4 rfl _).trans (A_eq1 (Vr1 m) c 4)
  | 5 => rw [Function.update_self]
theorem hrest1 (c : Dev nD) : ∀ b, b ∉ Finset.univ.image (Pipeline.arrRef spec1) → Vxr1 m c b = Vr1 m c b := by
  intro b hb
  show Xx1 m c (Proc.devRef .tc b) = Xe1 m c (Proc.devRef .tc b)
  unfold Xx1
  exact Function.update_of_ne (StableHlo.devRef_ne_of_ne fun e => hb (Finset.mem_image.mpr ⟨5, Finset.mem_univ _, e.symm⟩)) _ _

set_option maxHeartbeats 4000000 in
theorem hF2 (c : Dev nD) : ∀ w : Fin 3, (dat2 (Vr2 m) c).arrAt w cfg2.N = Vxr2 m c (Pipeline.arrRef spec2 w) := by
  intro w
  show _ = Xx2 m c (Proc.devRef .tc (Pipeline.arrRef spec2 w))
  unfold Xx2
  match w with
  | 0 => rw [Function.update_of_ne (StableHlo.devRef_ne_of_ne (by decide))]; exact ((dat2 (Vr2 m) c).arrAt_in 0 rfl _).trans (A_eq2 (Vr2 m) c 0)
  | 1 => rw [Function.update_of_ne (StableHlo.devRef_ne_of_ne (by decide))]; exact ((dat2 (Vr2 m) c).arrAt_in 1 rfl _).trans (A_eq2 (Vr2 m) c 1)
  | 2 => rw [Function.update_self]
theorem hrest2 (c : Dev nD) : ∀ b, b ∉ Finset.univ.image (Pipeline.arrRef spec2) → Vxr2 m c b = Vr2 m c b := by
  intro b hb
  show Xx2 m c (Proc.devRef .tc b) = Xe2 m c (Proc.devRef .tc b)
  unfold Xx2
  exact Function.update_of_ne (StableHlo.devRef_ne_of_ne fun e => hb (Finset.mem_image.mpr ⟨2, Finset.mem_univ _, e.symm⟩)) _ _

set_option maxHeartbeats 4000000 in
theorem hF3 (c : Dev nD) : ∀ w : Fin 7, (dat3 (Vr3 m) c).arrAt w cfg3.N = Vxr3 m c (Pipeline.arrRef spec3 w) := by
  intro w
  show _ = Xx3 m c (Proc.devRef .tc (Pipeline.arrRef spec3 w))
  unfold Xx3
  match w with
  | 0 => rw [Function.update_of_ne (StableHlo.devRef_ne_of_ne (by decide))]; exact ((dat3 (Vr3 m) c).arrAt_in 0 rfl _).trans (A_eq3 (Vr3 m) c 0)
  | 1 => rw [Function.update_of_ne (StableHlo.devRef_ne_of_ne (by decide))]; exact ((dat3 (Vr3 m) c).arrAt_in 1 rfl _).trans (A_eq3 (Vr3 m) c 1)
  | 2 => rw [Function.update_of_ne (StableHlo.devRef_ne_of_ne (by decide))]; exact ((dat3 (Vr3 m) c).arrAt_in 2 rfl _).trans (A_eq3 (Vr3 m) c 2)
  | 3 => rw [Function.update_of_ne (StableHlo.devRef_ne_of_ne (by decide))]; exact ((dat3 (Vr3 m) c).arrAt_in 3 rfl _).trans (A_eq3 (Vr3 m) c 3)
  | 4 => rw [Function.update_of_ne (StableHlo.devRef_ne_of_ne (by decide))]; exact ((dat3 (Vr3 m) c).arrAt_in 4 rfl _).trans (A_eq3 (Vr3 m) c 4)
  | 5 => rw [Function.update_of_ne (StableHlo.devRef_ne_of_ne (by decide))]; exact ((dat3 (Vr3 m) c).arrAt_in 5 rfl _).trans (A_eq3 (Vr3 m) c 5)
  | 6 => rw [Function.update_self]
theorem hrest3 (c : Dev nD) : ∀ b, b ∉ Finset.univ.image (Pipeline.arrRef spec3) → Vxr3 m c b = Vr3 m c b := by
  intro b hb
  show Xx3 m c (Proc.devRef .tc b) = Xe3 m c (Proc.devRef .tc b)
  unfold Xx3
  exact Function.update_of_ne (StableHlo.devRef_ne_of_ne fun e => hb (Finset.mem_image.mpr ⟨6, Finset.mem_univ _, e.symm⟩)) _ _

set_option maxHeartbeats 4000000 in
theorem hF4 (c : Dev nD) : ∀ w : Fin 4, (dat4 (Vr4 m) c).arrAt w cfg4.N = Vxr4 m c (Pipeline.arrRef spec4 w) := by
  intro w
  show _ = Xx4 m c (Proc.devRef .tc (Pipeline.arrRef spec4 w))
  unfold Xx4
  match w with
  | 0 => rw [Function.update_of_ne (StableHlo.devRef_ne_of_ne (by decide))]; exact ((dat4 (Vr4 m) c).arrAt_in 0 rfl _).trans (A_eq4 (Vr4 m) c 0)
  | 1 => rw [Function.update_of_ne (StableHlo.devRef_ne_of_ne (by decide))]; exact ((dat4 (Vr4 m) c).arrAt_in 1 rfl _).trans (A_eq4 (Vr4 m) c 1)
  | 2 => rw [Function.update_of_ne (StableHlo.devRef_ne_of_ne (by decide))]; exact ((dat4 (Vr4 m) c).arrAt_in 2 rfl _).trans (A_eq4 (Vr4 m) c 2)
  | 3 => rw [Function.update_self]
theorem hrest4 (c : Dev nD) : ∀ b, b ∉ Finset.univ.image (Pipeline.arrRef spec4) → Vxr4 m c b = Vr4 m c b := by
  intro b hb
  show Xx4 m c (Proc.devRef .tc b) = Xe4 m c (Proc.devRef .tc b)
  unfold Xx4
  exact Function.update_of_ne (StableHlo.devRef_ne_of_ne fun e => hb (Finset.mem_image.mpr ⟨3, Finset.mem_univ _, e.symm⟩)) _ _

set_option maxHeartbeats 4000000 in
theorem hF5 (c : Dev nD) : ∀ w : Fin 3, (dat5 (Vr5 m) c).arrAt w cfg5.N = Vxr5 m c (Pipeline.arrRef spec5 w) := by
  intro w
  show _ = Xx5 m c (Proc.devRef .tc (Pipeline.arrRef spec5 w))
  unfold Xx5
  match w with
  | 0 => rw [Function.update_of_ne (StableHlo.devRef_ne_of_ne (by decide))]; exact ((dat5 (Vr5 m) c).arrAt_in 0 rfl _).trans (A_eq5 (Vr5 m) c 0)
  | 1 => rw [Function.update_of_ne (StableHlo.devRef_ne_of_ne (by decide))]; exact ((dat5 (Vr5 m) c).arrAt_in 1 rfl _).trans (A_eq5 (Vr5 m) c 1)
  | 2 => rw [Function.update_self]
theorem hrest5 (c : Dev nD) : ∀ b, b ∉ Finset.univ.image (Pipeline.arrRef spec5) → Vxr5 m c b = Vr5 m c b := by
  intro b hb
  show Xx5 m c (Proc.devRef .tc b) = Xe5 m c (Proc.devRef .tc b)
  unfold Xx5
  exact Function.update_of_ne (StableHlo.devRef_ne_of_ne fun e => hb (Finset.mem_image.mpr ⟨2, Finset.mem_univ _, e.symm⟩)) _ _

set_option maxHeartbeats 4000000 in
theorem hF6 (c : Dev nD) : ∀ w : Fin 7, (dat6 (Vr6 m) c).arrAt w cfg6.N = Vxr6 m c (Pipeline.arrRef spec6 w) := by
  intro w
  show _ = Xx6 m c (Proc.devRef .tc (Pipeline.arrRef spec6 w))
  unfold Xx6
  match w with
  | 0 => rw [Function.update_of_ne (StableHlo.devRef_ne_of_ne (by decide))]; exact ((dat6 (Vr6 m) c).arrAt_in 0 rfl _).trans (A_eq6 (Vr6 m) c 0)
  | 1 => rw [Function.update_of_ne (StableHlo.devRef_ne_of_ne (by decide))]; exact ((dat6 (Vr6 m) c).arrAt_in 1 rfl _).trans (A_eq6 (Vr6 m) c 1)
  | 2 => rw [Function.update_of_ne (StableHlo.devRef_ne_of_ne (by decide))]; exact ((dat6 (Vr6 m) c).arrAt_in 2 rfl _).trans (A_eq6 (Vr6 m) c 2)
  | 3 => rw [Function.update_of_ne (StableHlo.devRef_ne_of_ne (by decide))]; exact ((dat6 (Vr6 m) c).arrAt_in 3 rfl _).trans (A_eq6 (Vr6 m) c 3)
  | 4 => rw [Function.update_of_ne (StableHlo.devRef_ne_of_ne (by decide))]; exact ((dat6 (Vr6 m) c).arrAt_in 4 rfl _).trans (A_eq6 (Vr6 m) c 4)
  | 5 => rw [Function.update_of_ne (StableHlo.devRef_ne_of_ne (by decide))]; exact ((dat6 (Vr6 m) c).arrAt_in 5 rfl _).trans (A_eq6 (Vr6 m) c 5)
  | 6 => rw [Function.update_self]
theorem hrest6 (c : Dev nD) : ∀ b, b ∉ Finset.univ.image (Pipeline.arrRef spec6) → Vxr6 m c b = Vr6 m c b := by
  intro b hb
  show Xx6 m c (Proc.devRef .tc b) = Xe6 m c (Proc.devRef .tc b)
  unfold Xx6
  exact Function.update_of_ne (StableHlo.devRef_ne_of_ne fun e => hb (Finset.mem_image.mpr ⟨6, Finset.mem_univ _, e.symm⟩)) _ _

set_option maxHeartbeats 4000000 in
theorem hF7 (c : Dev nD) : ∀ w : Fin 6, (dat7 (Vr7 m) c).arrAt w cfg7.N = Vxr7 m c (Pipeline.arrRef spec7 w) := by
  intro w
  show _ = Xx7 m c (Proc.devRef .tc (Pipeline.arrRef spec7 w))
  unfold Xx7
  match w with
  | 0 => rw [Function.update_of_ne (StableHlo.devRef_ne_of_ne (by decide))]; exact ((dat7 (Vr7 m) c).arrAt_in 0 rfl _).trans (A_eq7 (Vr7 m) c 0)
  | 1 => rw [Function.update_of_ne (StableHlo.devRef_ne_of_ne (by decide))]; exact ((dat7 (Vr7 m) c).arrAt_in 1 rfl _).trans (A_eq7 (Vr7 m) c 1)
  | 2 => rw [Function.update_of_ne (StableHlo.devRef_ne_of_ne (by decide))]; exact ((dat7 (Vr7 m) c).arrAt_in 2 rfl _).trans (A_eq7 (Vr7 m) c 2)
  | 3 => rw [Function.update_of_ne (StableHlo.devRef_ne_of_ne (by decide))]; exact ((dat7 (Vr7 m) c).arrAt_in 3 rfl _).trans (A_eq7 (Vr7 m) c 3)
  | 4 => rw [Function.update_of_ne (StableHlo.devRef_ne_of_ne (by decide))]; exact ((dat7 (Vr7 m) c).arrAt_in 4 rfl _).trans (A_eq7 (Vr7 m) c 4)
  | 5 => rw [Function.update_self]
theorem hrest7 (c : Dev nD) : ∀ b, b ∉ Finset.univ.image (Pipeline.arrRef spec7) → Vxr7 m c b = Vr7 m c b := by
  intro b hb
  show Xx7 m c (Proc.devRef .tc b) = Xe7 m c (Proc.devRef .tc b)
  unfold Xx7
  exact Function.update_of_ne (StableHlo.devRef_ne_of_ne fun e => hb (Finset.mem_image.mpr ⟨5, Finset.mem_univ _, e.symm⟩)) _ _

set_option maxHeartbeats 4000000 in
theorem hF8 (c : Dev nD) : ∀ w : Fin 6, (dat8 (Vr8 m) c).arrAt w cfg8.N = Vxr8 m c (Pipeline.arrRef spec8 w) := by
  intro w
  show _ = Xx8 m c (Proc.devRef .tc (Pipeline.arrRef spec8 w))
  unfold Xx8
  match w with
  | 0 => rw [Function.update_of_ne (StableHlo.devRef_ne_of_ne (by decide))]; exact ((dat8 (Vr8 m) c).arrAt_in 0 rfl _).trans (A_eq8 (Vr8 m) c 0)
  | 1 => rw [Function.update_of_ne (StableHlo.devRef_ne_of_ne (by decide))]; exact ((dat8 (Vr8 m) c).arrAt_in 1 rfl _).trans (A_eq8 (Vr8 m) c 1)
  | 2 => rw [Function.update_of_ne (StableHlo.devRef_ne_of_ne (by decide))]; exact ((dat8 (Vr8 m) c).arrAt_in 2 rfl _).trans (A_eq8 (Vr8 m) c 2)
  | 3 => rw [Function.update_of_ne (StableHlo.devRef_ne_of_ne (by decide))]; exact ((dat8 (Vr8 m) c).arrAt_in 3 rfl _).trans (A_eq8 (Vr8 m) c 3)
  | 4 => rw [Function.update_of_ne (StableHlo.devRef_ne_of_ne (by decide))]; exact ((dat8 (Vr8 m) c).arrAt_in 4 rfl _).trans (A_eq8 (Vr8 m) c 4)
  | 5 => rw [Function.update_self]
theorem hrest8 (c : Dev nD) : ∀ b, b ∉ Finset.univ.image (Pipeline.arrRef spec8) → Vxr8 m c b = Vr8 m c b := by
  intro b hb
  show Xx8 m c (Proc.devRef .tc b) = Xe8 m c (Proc.devRef .tc b)
  unfold Xx8
  exact Function.update_of_ne (StableHlo.devRef_ne_of_ne fun e => hb (Finset.mem_image.mpr ⟨5, Finset.mem_univ _, e.symm⟩)) _ _

set_option maxHeartbeats 4000000 in
theorem hF9 (c : Dev nD) : ∀ w : Fin 3, (dat9 (Vr9 m) c).arrAt w cfg9.N = Vxr9 m c (Pipeline.arrRef spec9 w) := by
  intro w
  show _ = Xx9 m c (Proc.devRef .tc (Pipeline.arrRef spec9 w))
  unfold Xx9
  match w with
  | 0 => rw [Function.update_of_ne (StableHlo.devRef_ne_of_ne (by decide))]; exact ((dat9 (Vr9 m) c).arrAt_in 0 rfl _).trans (A_eq9 (Vr9 m) c 0)
  | 1 => rw [Function.update_of_ne (StableHlo.devRef_ne_of_ne (by decide))]; exact ((dat9 (Vr9 m) c).arrAt_in 1 rfl _).trans (A_eq9 (Vr9 m) c 1)
  | 2 => rw [Function.update_self]
theorem hrest9 (c : Dev nD) : ∀ b, b ∉ Finset.univ.image (Pipeline.arrRef spec9) → Vxr9 m c b = Vr9 m c b := by
  intro b hb
  show Xx9 m c (Proc.devRef .tc b) = Xe9 m c (Proc.devRef .tc b)
  unfold Xx9
  exact Function.update_of_ne (StableHlo.devRef_ne_of_ne fun e => hb (Finset.mem_image.mpr ⟨2, Finset.mem_univ _, e.symm⟩)) _ _

set_option maxHeartbeats 4000000 in
theorem hF10 (c : Dev nD) : ∀ w : Fin 7, (dat10 (Vr10 m) c).arrAt w cfg10.N = Vxr10 m c (Pipeline.arrRef spec10 w) := by
  intro w
  show _ = Xx10 m c (Proc.devRef .tc (Pipeline.arrRef spec10 w))
  unfold Xx10
  match w with
  | 0 => rw [Function.update_of_ne (StableHlo.devRef_ne_of_ne (by decide))]; exact ((dat10 (Vr10 m) c).arrAt_in 0 rfl _).trans (A_eq10 (Vr10 m) c 0)
  | 1 => rw [Function.update_of_ne (StableHlo.devRef_ne_of_ne (by decide))]; exact ((dat10 (Vr10 m) c).arrAt_in 1 rfl _).trans (A_eq10 (Vr10 m) c 1)
  | 2 => rw [Function.update_of_ne (StableHlo.devRef_ne_of_ne (by decide))]; exact ((dat10 (Vr10 m) c).arrAt_in 2 rfl _).trans (A_eq10 (Vr10 m) c 2)
  | 3 => rw [Function.update_of_ne (StableHlo.devRef_ne_of_ne (by decide))]; exact ((dat10 (Vr10 m) c).arrAt_in 3 rfl _).trans (A_eq10 (Vr10 m) c 3)
  | 4 => rw [Function.update_of_ne (StableHlo.devRef_ne_of_ne (by decide))]; exact ((dat10 (Vr10 m) c).arrAt_in 4 rfl _).trans (A_eq10 (Vr10 m) c 4)
  | 5 => rw [Function.update_of_ne (StableHlo.devRef_ne_of_ne (by decide))]; exact ((dat10 (Vr10 m) c).arrAt_in 5 rfl _).trans (A_eq10 (Vr10 m) c 5)
  | 6 => rw [Function.update_self]
theorem hrest10 (c : Dev nD) : ∀ b, b ∉ Finset.univ.image (Pipeline.arrRef spec10) → Vxr10 m c b = Vr10 m c b := by
  intro b hb
  show Xx10 m c (Proc.devRef .tc b) = Xe10 m c (Proc.devRef .tc b)
  unfold Xx10
  exact Function.update_of_ne (StableHlo.devRef_ne_of_ne fun e => hb (Finset.mem_image.mpr ⟨6, Finset.mem_univ _, e.symm⟩)) _ _

set_option maxHeartbeats 4000000 in
theorem hF11 (c : Dev nD) : ∀ w : Fin 4, (dat11 (Vr11 m) c).arrAt w cfg11.N = Vxr11 m c (Pipeline.arrRef spec11 w) := by
  intro w
  show _ = Xx11 m c (Proc.devRef .tc (Pipeline.arrRef spec11 w))
  unfold Xx11
  match w with
  | 0 => rw [Function.update_of_ne (StableHlo.devRef_ne_of_ne (by decide))]; exact ((dat11 (Vr11 m) c).arrAt_in 0 rfl _).trans (A_eq11 (Vr11 m) c 0)
  | 1 => rw [Function.update_of_ne (StableHlo.devRef_ne_of_ne (by decide))]; exact ((dat11 (Vr11 m) c).arrAt_in 1 rfl _).trans (A_eq11 (Vr11 m) c 1)
  | 2 => rw [Function.update_of_ne (StableHlo.devRef_ne_of_ne (by decide))]; exact ((dat11 (Vr11 m) c).arrAt_in 2 rfl _).trans (A_eq11 (Vr11 m) c 2)
  | 3 => rw [Function.update_self]
theorem hrest11 (c : Dev nD) : ∀ b, b ∉ Finset.univ.image (Pipeline.arrRef spec11) → Vxr11 m c b = Vr11 m c b := by
  intro b hb
  show Xx11 m c (Proc.devRef .tc b) = Xe11 m c (Proc.devRef .tc b)
  unfold Xx11
  exact Function.update_of_ne (StableHlo.devRef_ne_of_ne fun e => hb (Finset.mem_image.mpr ⟨3, Finset.mem_univ _, e.symm⟩)) _ _

set_option maxHeartbeats 4000000 in
theorem hF12 (c : Dev nD) : ∀ w : Fin 3, (dat12 (Vr12 m) c).arrAt w cfg12.N = Vxr12 m c (Pipeline.arrRef spec12 w) := by
  intro w
  show _ = Xx12 m c (Proc.devRef .tc (Pipeline.arrRef spec12 w))
  unfold Xx12
  match w with
  | 0 => rw [Function.update_of_ne (StableHlo.devRef_ne_of_ne (by decide))]; exact ((dat12 (Vr12 m) c).arrAt_in 0 rfl _).trans (A_eq12 (Vr12 m) c 0)
  | 1 => rw [Function.update_of_ne (StableHlo.devRef_ne_of_ne (by decide))]; exact ((dat12 (Vr12 m) c).arrAt_in 1 rfl _).trans (A_eq12 (Vr12 m) c 1)
  | 2 => rw [Function.update_self]
theorem hrest12 (c : Dev nD) : ∀ b, b ∉ Finset.univ.image (Pipeline.arrRef spec12) → Vxr12 m c b = Vr12 m c b := by
  intro b hb
  show Xx12 m c (Proc.devRef .tc b) = Xe12 m c (Proc.devRef .tc b)
  unfold Xx12
  exact Function.update_of_ne (StableHlo.devRef_ne_of_ne fun e => hb (Finset.mem_image.mpr ⟨2, Finset.mem_univ _, e.symm⟩)) _ _

set_option maxHeartbeats 4000000 in
theorem hF13 (c : Dev nD) : ∀ w : Fin 7, (dat13 (Vr13 m) c).arrAt w cfg13.N = Vxr13 m c (Pipeline.arrRef spec13 w) := by
  intro w
  show _ = Xx13 m c (Proc.devRef .tc (Pipeline.arrRef spec13 w))
  unfold Xx13
  match w with
  | 0 => rw [Function.update_of_ne (StableHlo.devRef_ne_of_ne (by decide))]; exact ((dat13 (Vr13 m) c).arrAt_in 0 rfl _).trans (A_eq13 (Vr13 m) c 0)
  | 1 => rw [Function.update_of_ne (StableHlo.devRef_ne_of_ne (by decide))]; exact ((dat13 (Vr13 m) c).arrAt_in 1 rfl _).trans (A_eq13 (Vr13 m) c 1)
  | 2 => rw [Function.update_of_ne (StableHlo.devRef_ne_of_ne (by decide))]; exact ((dat13 (Vr13 m) c).arrAt_in 2 rfl _).trans (A_eq13 (Vr13 m) c 2)
  | 3 => rw [Function.update_of_ne (StableHlo.devRef_ne_of_ne (by decide))]; exact ((dat13 (Vr13 m) c).arrAt_in 3 rfl _).trans (A_eq13 (Vr13 m) c 3)
  | 4 => rw [Function.update_of_ne (StableHlo.devRef_ne_of_ne (by decide))]; exact ((dat13 (Vr13 m) c).arrAt_in 4 rfl _).trans (A_eq13 (Vr13 m) c 4)
  | 5 => rw [Function.update_of_ne (StableHlo.devRef_ne_of_ne (by decide))]; exact ((dat13 (Vr13 m) c).arrAt_in 5 rfl _).trans (A_eq13 (Vr13 m) c 5)
  | 6 => rw [Function.update_self]
theorem hrest13 (c : Dev nD) : ∀ b, b ∉ Finset.univ.image (Pipeline.arrRef spec13) → Vxr13 m c b = Vr13 m c b := by
  intro b hb
  show Xx13 m c (Proc.devRef .tc b) = Xe13 m c (Proc.devRef .tc b)
  unfold Xx13
  exact Function.update_of_ne (StableHlo.devRef_ne_of_ne fun e => hb (Finset.mem_image.mpr ⟨6, Finset.mem_univ _, e.symm⟩)) _ _

set_option maxHeartbeats 4000000 in
theorem hF14 (c : Dev nD) : ∀ w : Fin 6, (dat14 (Vr14 m) c).arrAt w cfg14.N = Vxr14 m c (Pipeline.arrRef spec14 w) := by
  intro w
  show _ = Xx14 m c (Proc.devRef .tc (Pipeline.arrRef spec14 w))
  unfold Xx14
  match w with
  | 0 => rw [Function.update_of_ne (StableHlo.devRef_ne_of_ne (by decide))]; exact ((dat14 (Vr14 m) c).arrAt_in 0 rfl _).trans (A_eq14 (Vr14 m) c 0)
  | 1 => rw [Function.update_of_ne (StableHlo.devRef_ne_of_ne (by decide))]; exact ((dat14 (Vr14 m) c).arrAt_in 1 rfl _).trans (A_eq14 (Vr14 m) c 1)
  | 2 => rw [Function.update_of_ne (StableHlo.devRef_ne_of_ne (by decide))]; exact ((dat14 (Vr14 m) c).arrAt_in 2 rfl _).trans (A_eq14 (Vr14 m) c 2)
  | 3 => rw [Function.update_of_ne (StableHlo.devRef_ne_of_ne (by decide))]; exact ((dat14 (Vr14 m) c).arrAt_in 3 rfl _).trans (A_eq14 (Vr14 m) c 3)
  | 4 => rw [Function.update_of_ne (StableHlo.devRef_ne_of_ne (by decide))]; exact ((dat14 (Vr14 m) c).arrAt_in 4 rfl _).trans (A_eq14 (Vr14 m) c 4)
  | 5 => rw [Function.update_self]
theorem hrest14 (c : Dev nD) : ∀ b, b ∉ Finset.univ.image (Pipeline.arrRef spec14) → Vxr14 m c b = Vr14 m c b := by
  intro b hb
  show Xx14 m c (Proc.devRef .tc b) = Xe14 m c (Proc.devRef .tc b)
  unfold Xx14
  exact Function.update_of_ne (StableHlo.devRef_ne_of_ne fun e => hb (Finset.mem_image.mpr ⟨5, Finset.mem_univ _, e.symm⟩)) _ _

/-! ## The proof data family and what rides beside the buffers -/

/-- Every pipeline's proof data, each at its region's entry contents. -/
def pdats : (p : Fin 15) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c
  | ⟨3, _⟩ => fun c => dat3 (Vr3 m) c
  | ⟨4, _⟩ => fun c => dat4 (Vr4 m) c
  | ⟨5, _⟩ => fun c => dat5 (Vr5 m) c
  | ⟨6, _⟩ => fun c => dat6 (Vr6 m) c
  | ⟨7, _⟩ => fun c => dat7 (Vr7 m) c
  | ⟨8, _⟩ => fun c => dat8 (Vr8 m) c
  | ⟨9, _⟩ => fun c => dat9 (Vr9 m) c
  | ⟨10, _⟩ => fun c => dat10 (Vr10 m) c
  | ⟨11, _⟩ => fun c => dat11 (Vr11 m) c
  | ⟨12, _⟩ => fun c => dat12 (Vr12 m) c
  | ⟨13, _⟩ => fun c => dat13 (Vr13 m) c
  | ⟨14, _⟩ => fun c => dat14 (Vr14 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev E : Fin 16 → Dev nD → sProp 𝕄 := fun _ c => R c

/-! ## The regions as segments -/

set_option backward.isDefEq.respectTransparency.types false in
/-- Region 0 over the thread state: entered from every unscoped buffer at Xe0, left at Xx0. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (Xe0 m c) ∗ R c)
  post c := iprop(StableHlo.held (c : Thread nD τ) (Pipeline.ucRefs τ sig) (Xx0 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vxr0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at Xe1, left at Xx1. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (Xe1 m c) ∗ R c)
  post c := iprop(StableHlo.held (c : Thread nD τ) (Pipeline.ucRefs τ sig) (Xx1 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vxr1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at Xe2, left at Xx2. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (Xe2 m c) ∗ R c)
  post c := iprop(StableHlo.held (c : Thread nD τ) (Pipeline.ucRefs τ sig) (Xx2 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vxr2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at Xe3, left at Xx3. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr3 m) c).loose
  hwaits := Pipeline.hwaits_of_owed_zero _ _ _ _ L lv 3 fun _ _ => rfl
  pre c := iprop(StableHlo.held (c : Thread nD τ) (Pipeline.ucRefs τ sig) (Xe3 m c) ∗ R c)
  post c := iprop(StableHlo.held (c : Thread nD τ) (Pipeline.ucRefs τ sig) (Xx3 m c) ∗ R c)
  X c := iprop(∃ r, prngReg c r)
  Y c := iprop(∃ r, prngReg c r)
  Z c := Pipeline.unscopedRest (Ix := Unit) (Name := ℕ) (U := UR sig nD τ) (Lvl := ℕ) spec3 c (Vr3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr3 m c) (Vxr3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at Xe4, left at Xx4. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr4 m) c).loose
  hwaits := Pipeline.hwaits_of_owed_zero _ _ _ _ L lv 4 fun _ _ => rfl
  pre c := iprop(StableHlo.held (c : Thread nD τ) (Pipeline.ucRefs τ sig) (Xe4 m c) ∗ R c)
  post c := iprop(StableHlo.held (c : Thread nD τ) (Pipeline.ucRefs τ sig) (Xx4 m c) ∗ R c)
  X c := iprop(∃ r, prngReg c r)
  Y c := iprop(∃ r, prngReg c r)
  Z c := Pipeline.unscopedRest (Ix := Unit) (Name := ℕ) (U := UR sig nD τ) (Lvl := ℕ) spec4 c (Vr4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vr4 m c) (Vxr4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at Xe5, left at Xx5. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr5 m) c).loose
  hwaits := Pipeline.hwaits_of_owed_zero _ _ _ _ L lv 5 fun _ _ => rfl
  pre c := iprop(StableHlo.held (c : Thread nD τ) (Pipeline.ucRefs τ sig) (Xe5 m c) ∗ R c)
  post c := iprop(StableHlo.held (c : Thread nD τ) (Pipeline.ucRefs τ sig) (Xx5 m c) ∗ R c)
  X c := iprop(∃ r, prngReg c r)
  Y c := iprop(∃ r, prngReg c r)
  Z c := Pipeline.unscopedRest (Ix := Unit) (Name := ℕ) (U := UR sig nD τ) (Lvl := ℕ) spec5 c (Vr5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vr5 m c) (Vxr5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at Xe6, left at Xx6. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr6 m) c).loose
  hwaits := Pipeline.hwaits_of_owed_zero _ _ _ _ L lv 6 fun _ _ => rfl
  pre c := iprop(StableHlo.held (c : Thread nD τ) (Pipeline.ucRefs τ sig) (Xe6 m c) ∗ R c)
  post c := iprop(StableHlo.held (c : Thread nD τ) (Pipeline.ucRefs τ sig) (Xx6 m c) ∗ R c)
  X c := iprop(∃ r, prngReg c r)
  Y c := iprop(∃ r, prngReg c r)
  Z c := Pipeline.unscopedRest (Ix := Unit) (Name := ℕ) (U := UR sig nD τ) (Lvl := ℕ) spec6 c (Vr6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vr6 m c) (Vxr6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at Xe7, left at Xx7. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr7 m) c).loose
  hwaits := Pipeline.hwaits_of_owed_zero _ _ _ _ L lv 7 fun _ _ => rfl
  pre c := iprop(StableHlo.held (c : Thread nD τ) (Pipeline.ucRefs τ sig) (Xe7 m c) ∗ R c)
  post c := iprop(StableHlo.held (c : Thread nD τ) (Pipeline.ucRefs τ sig) (Xx7 m c) ∗ R c)
  X c := iprop(∃ r, prngReg c r)
  Y c := iprop(∃ r, prngReg c r)
  Z c := Pipeline.unscopedRest (Ix := Unit) (Name := ℕ) (U := UR sig nD τ) (Lvl := ℕ) spec7 c (Vr7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vr7 m c) (Vxr7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at Xe8, left at Xx8. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vr8 m) c).loose
  hwaits := Pipeline.hwaits_of_owed_zero _ _ _ _ L lv 8 fun _ _ => rfl
  pre c := iprop(StableHlo.held (c : Thread nD τ) (Pipeline.ucRefs τ sig) (Xe8 m c) ∗ R c)
  post c := iprop(StableHlo.held (c : Thread nD τ) (Pipeline.ucRefs τ sig) (Xx8 m c) ∗ R c)
  X c := iprop(∃ r, prngReg c r)
  Y c := iprop(∃ r, prngReg c r)
  Z c := Pipeline.unscopedRest (Ix := Unit) (Name := ℕ) (U := UR sig nD τ) (Lvl := ℕ) spec8 c (Vr8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vr8 m c) (Vxr8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at Xe9, left at Xx9. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr9 m) c).loose
  hwaits := Pipeline.hwaits_of_owed_zero _ _ _ _ L lv 9 fun _ _ => rfl
  pre c := iprop(StableHlo.held (c : Thread nD τ) (Pipeline.ucRefs τ sig) (Xe9 m c) ∗ R c)
  post c := iprop(StableHlo.held (c : Thread nD τ) (Pipeline.ucRefs τ sig) (Xx9 m c) ∗ R c)
  X c := iprop(∃ r, prngReg c r)
  Y c := iprop(∃ r, prngReg c r)
  Z c := Pipeline.unscopedRest (Ix := Unit) (Name := ℕ) (U := UR sig nD τ) (Lvl := ℕ) spec9 c (Vr9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vr9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vr9 m c) (Vxr9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at Xe10, left at Xx10. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vr10 m) c).loose
  hwaits := Pipeline.hwaits_of_owed_zero _ _ _ _ L lv 10 fun _ _ => rfl
  pre c := iprop(StableHlo.held (c : Thread nD τ) (Pipeline.ucRefs τ sig) (Xe10 m c) ∗ R c)
  post c := iprop(StableHlo.held (c : Thread nD τ) (Pipeline.ucRefs τ sig) (Xx10 m c) ∗ R c)
  X c := iprop(∃ r, prngReg c r)
  Y c := iprop(∃ r, prngReg c r)
  Z c := Pipeline.unscopedRest (Ix := Unit) (Name := ℕ) (U := UR sig nD τ) (Lvl := ℕ) spec10 c (Vr10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vr10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vr10 m c) (Vxr10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at Xe11, left at Xx11. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vr11 m) c).loose
  hwaits := Pipeline.hwaits_of_owed_zero _ _ _ _ L lv 11 fun _ _ => rfl
  pre c := iprop(StableHlo.held (c : Thread nD τ) (Pipeline.ucRefs τ sig) (Xe11 m c) ∗ R c)
  post c := iprop(StableHlo.held (c : Thread nD τ) (Pipeline.ucRefs τ sig) (Xx11 m c) ∗ R c)
  X c := iprop(∃ r, prngReg c r)
  Y c := iprop(∃ r, prngReg c r)
  Z c := Pipeline.unscopedRest (Ix := Unit) (Name := ℕ) (U := UR sig nD τ) (Lvl := ℕ) spec11 c (Vr11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vr11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vr11 m c) (Vxr11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at Xe12, left at Xx12. -/
def reg12 : RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vr12 m) c).loose
  hwaits := Pipeline.hwaits_of_owed_zero _ _ _ _ L lv 12 fun _ _ => rfl
  pre c := iprop(StableHlo.held (c : Thread nD τ) (Pipeline.ucRefs τ sig) (Xe12 m c) ∗ R c)
  post c := iprop(StableHlo.held (c : Thread nD τ) (Pipeline.ucRefs τ sig) (Xx12 m c) ∗ R c)
  X c := iprop(∃ r, prngReg c r)
  Y c := iprop(∃ r, prngReg c r)
  Z c := Pipeline.unscopedRest (Ix := Unit) (Name := ℕ) (U := UR sig nD τ) (Lvl := ℕ) spec12 c (Vr12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vr12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vr12 m c) (Vxr12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at Xe13, left at Xx13. -/
def reg13 : RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vr13 m) c).loose
  hwaits := Pipeline.hwaits_of_owed_zero _ _ _ _ L lv 13 fun _ _ => rfl
  pre c := iprop(StableHlo.held (c : Thread nD τ) (Pipeline.ucRefs τ sig) (Xe13 m c) ∗ R c)
  post c := iprop(StableHlo.held (c : Thread nD τ) (Pipeline.ucRefs τ sig) (Xx13 m c) ∗ R c)
  X c := iprop(∃ r, prngReg c r)
  Y c := iprop(∃ r, prngReg c r)
  Z c := Pipeline.unscopedRest (Ix := Unit) (Name := ℕ) (U := UR sig nD τ) (Lvl := ℕ) spec13 c (Vr13 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vr13 m c) (Vxr13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at Xe14, left at Xx14. -/
def reg14 : RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vr14 m) c).loose
  hwaits := Pipeline.hwaits_of_owed_zero _ _ _ _ L lv 14 fun _ _ => rfl
  pre c := iprop(StableHlo.held (c : Thread nD τ) (Pipeline.ucRefs τ sig) (Xe14 m c) ∗ R c)
  post c := iprop(StableHlo.held (c : Thread nD τ) (Pipeline.ucRefs τ sig) (Xx14 m c) ∗ R c)
  X c := iprop(∃ r, prngReg c r)
  Y c := iprop(∃ r, prngReg c r)
  Z c := Pipeline.unscopedRest (Ix := Unit) (Name := ℕ) (U := UR sig nD τ) (Lvl := ℕ) spec14 c (Vr14 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (Vr14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (Vr14 m c) (Vxr14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Each region is entered from the generated boundary state before it and left at the one after it -/

theorem hpre0 (c : Dev nD) : (iprop(StableHlo.held (c : Thread nD τ) (Pipeline.ucRefs τ sig) (V3 m c) ∗ E 0 c) : sProp 𝕄) ⊢ (reg0 m).pre c := by
  rw [Ve0_eq]; exact BI.Entails.refl _
theorem hpost0 (c : Dev nD) : (reg0 m).post c ⊢ (iprop(StableHlo.held (c : Thread nD τ) (Pipeline.ucRefs τ sig) (V4 m (outs m) c) ∗ E 1 c) : sProp 𝕄) := by
  rw [Vx0_eq]; exact BI.Entails.refl _

theorem hpre1 (c : Dev nD) : (iprop(StableHlo.held (c : Thread nD τ) (Pipeline.ucRefs τ sig) (V5 m (outs m) c) ∗ E 1 c) : sProp 𝕄) ⊢ (reg1 m).pre c := by
  rw [Ve1_eq]; exact BI.Entails.refl _
theorem hpost1 (c : Dev nD) : (reg1 m).post c ⊢ (iprop(StableHlo.held (c : Thread nD τ) (Pipeline.ucRefs τ sig) (V6 m (outs m) c) ∗ E 2 c) : sProp 𝕄) := by
  rw [Vx1_eq]; exact BI.Entails.refl _

theorem hpre2 (c : Dev nD) : (iprop(StableHlo.held (c : Thread nD τ) (Pipeline.ucRefs τ sig) (V7 m (outs m) c) ∗ E 2 c) : sProp 𝕄) ⊢ (reg2 m).pre c := by
  rw [Ve2_eq]; exact BI.Entails.refl _
theorem hpost2 (c : Dev nD) : (reg2 m).post c ⊢ (iprop(StableHlo.held (c : Thread nD τ) (Pipeline.ucRefs τ sig) (V8 m (outs m) c) ∗ E 3 c) : sProp 𝕄) := by
  rw [Vx2_eq]; exact BI.Entails.refl _

theorem hpre3 (c : Dev nD) : (iprop(StableHlo.held (c : Thread nD τ) (Pipeline.ucRefs τ sig) (V9 m (outs m) c) ∗ E 3 c) : sProp 𝕄) ⊢ (reg3 m).pre c := by
  rw [Ve3_eq]; exact BI.Entails.refl _
theorem hpost3 (c : Dev nD) : (reg3 m).post c ⊢ (iprop(StableHlo.held (c : Thread nD τ) (Pipeline.ucRefs τ sig) (V10 m (outs m) c) ∗ E 4 c) : sProp 𝕄) := by
  rw [Vx3_eq]; exact BI.Entails.refl _

theorem hpre4 (c : Dev nD) : (iprop(StableHlo.held (c : Thread nD τ) (Pipeline.ucRefs τ sig) (V11 m (outs m) c) ∗ E 4 c) : sProp 𝕄) ⊢ (reg4 m).pre c := by
  rw [Ve4_eq]; exact BI.Entails.refl _
theorem hpost4 (c : Dev nD) : (reg4 m).post c ⊢ (iprop(StableHlo.held (c : Thread nD τ) (Pipeline.ucRefs τ sig) (V12 m (outs m) c) ∗ E 5 c) : sProp 𝕄) := by
  rw [Vx4_eq]; exact BI.Entails.refl _

theorem hpre5 (c : Dev nD) : (iprop(StableHlo.held (c : Thread nD τ) (Pipeline.ucRefs τ sig) (V13 m (outs m) c) ∗ E 5 c) : sProp 𝕄) ⊢ (reg5 m).pre c := by
  rw [Ve5_eq]; exact BI.Entails.refl _
theorem hpost5 (c : Dev nD) : (reg5 m).post c ⊢ (iprop(StableHlo.held (c : Thread nD τ) (Pipeline.ucRefs τ sig) (V14 m (outs m) c) ∗ E 6 c) : sProp 𝕄) := by
  rw [Vx5_eq]; exact BI.Entails.refl _

theorem hpre6 (c : Dev nD) : (iprop(StableHlo.held (c : Thread nD τ) (Pipeline.ucRefs τ sig) (V15 m (outs m) c) ∗ E 6 c) : sProp 𝕄) ⊢ (reg6 m).pre c := by
  rw [Ve6_eq]; exact BI.Entails.refl _
theorem hpost6 (c : Dev nD) : (reg6 m).post c ⊢ (iprop(StableHlo.held (c : Thread nD τ) (Pipeline.ucRefs τ sig) (V16 m (outs m) c) ∗ E 7 c) : sProp 𝕄) := by
  rw [Vx6_eq]; exact BI.Entails.refl _

theorem hpre7 (c : Dev nD) : (iprop(StableHlo.held (c : Thread nD τ) (Pipeline.ucRefs τ sig) (V19 m (outs m) c) ∗ E 7 c) : sProp 𝕄) ⊢ (reg7 m).pre c := by
  rw [Ve7_eq]; exact BI.Entails.refl _
theorem hpost7 (c : Dev nD) : (reg7 m).post c ⊢ (iprop(StableHlo.held (c : Thread nD τ) (Pipeline.ucRefs τ sig) (V20 m (outs m) c) ∗ E 8 c) : sProp 𝕄) := by
  rw [Vx7_eq]; exact BI.Entails.refl _

theorem hpre8 (c : Dev nD) : (iprop(StableHlo.held (c : Thread nD τ) (Pipeline.ucRefs τ sig) (V21 m (outs m) c) ∗ E 8 c) : sProp 𝕄) ⊢ (reg8 m).pre c := by
  rw [Ve8_eq]; exact BI.Entails.refl _
theorem hpost8 (c : Dev nD) : (reg8 m).post c ⊢ (iprop(StableHlo.held (c : Thread nD τ) (Pipeline.ucRefs τ sig) (V22 m (outs m) c) ∗ E 9 c) : sProp 𝕄) := by
  rw [Vx8_eq]; exact BI.Entails.refl _

theorem hpre9 (c : Dev nD) : (iprop(StableHlo.held (c : Thread nD τ) (Pipeline.ucRefs τ sig) (V23 m (outs m) c) ∗ E 9 c) : sProp 𝕄) ⊢ (reg9 m).pre c := by
  rw [Ve9_eq]; exact BI.Entails.refl _
theorem hpost9 (c : Dev nD) : (reg9 m).post c ⊢ (iprop(StableHlo.held (c : Thread nD τ) (Pipeline.ucRefs τ sig) (V24 m (outs m) c) ∗ E 10 c) : sProp 𝕄) := by
  rw [Vx9_eq]; exact BI.Entails.refl _

theorem hpre10 (c : Dev nD) : (iprop(StableHlo.held (c : Thread nD τ) (Pipeline.ucRefs τ sig) (V25 m (outs m) c) ∗ E 10 c) : sProp 𝕄) ⊢ (reg10 m).pre c := by
  rw [Ve10_eq]; exact BI.Entails.refl _
theorem hpost10 (c : Dev nD) : (reg10 m).post c ⊢ (iprop(StableHlo.held (c : Thread nD τ) (Pipeline.ucRefs τ sig) (V26 m (outs m) c) ∗ E 11 c) : sProp 𝕄) := by
  rw [Vx10_eq]; exact BI.Entails.refl _

theorem hpre11 (c : Dev nD) : (iprop(StableHlo.held (c : Thread nD τ) (Pipeline.ucRefs τ sig) (V27 m (outs m) c) ∗ E 11 c) : sProp 𝕄) ⊢ (reg11 m).pre c := by
  rw [Ve11_eq]; exact BI.Entails.refl _
theorem hpost11 (c : Dev nD) : (reg11 m).post c ⊢ (iprop(StableHlo.held (c : Thread nD τ) (Pipeline.ucRefs τ sig) (V28 m (outs m) c) ∗ E 12 c) : sProp 𝕄) := by
  rw [Vx11_eq]; exact BI.Entails.refl _

theorem hpre12 (c : Dev nD) : (iprop(StableHlo.held (c : Thread nD τ) (Pipeline.ucRefs τ sig) (V29 m (outs m) c) ∗ E 12 c) : sProp 𝕄) ⊢ (reg12 m).pre c := by
  rw [Ve12_eq]; exact BI.Entails.refl _
theorem hpost12 (c : Dev nD) : (reg12 m).post c ⊢ (iprop(StableHlo.held (c : Thread nD τ) (Pipeline.ucRefs τ sig) (V30 m (outs m) c) ∗ E 13 c) : sProp 𝕄) := by
  rw [Vx12_eq]; exact BI.Entails.refl _

theorem hpre13 (c : Dev nD) : (iprop(StableHlo.held (c : Thread nD τ) (Pipeline.ucRefs τ sig) (V31 m (outs m) c) ∗ E 13 c) : sProp 𝕄) ⊢ (reg13 m).pre c := by
  rw [Ve13_eq]; exact BI.Entails.refl _
theorem hpost13 (c : Dev nD) : (reg13 m).post c ⊢ (iprop(StableHlo.held (c : Thread nD τ) (Pipeline.ucRefs τ sig) (V32 m (outs m) c) ∗ E 14 c) : sProp 𝕄) := by
  rw [Vx13_eq]; exact BI.Entails.refl _

theorem hpre14 (c : Dev nD) : (iprop(StableHlo.held (c : Thread nD τ) (Pipeline.ucRefs τ sig) (V33 m (outs m) c) ∗ E 14 c) : sProp 𝕄) ⊢ (reg14 m).pre c := by
  rw [Ve14_eq]; exact BI.Entails.refl _
theorem hpost14 (c : Dev nD) : (reg14 m).post c ⊢ (iprop(StableHlo.held (c : Thread nD τ) (Pipeline.ucRefs τ sig) (V34 m (outs m) c) ∗ E 15 c) : sProp 𝕄) := by
  rw [Vx14_eq]; exact BI.Entails.refl _

/-! ## @main as segments, and the launch -/

set_option maxHeartbeats 40000000 in
set_option backward.isDefEq.respectTransparency.types false in
/-- From any memory with zero counters every weakly fair execution of @main terminates, nothing faulting, and in every
    final memory each unscoped buffer holds the last boundary's contents: the launch over the segments, the last
    thread state read against the final state. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V35 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m) (reg14 m))
    (fun c Q => by
      rewrite [main_chain c, Seg.run_eq_chain,
        show (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m) (reg14 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V35 m (outs m) c))
    (hch := fun c => ⟨.rfl, .rfl, .rfl, hpre0 m c, hpost0 m c, hpre1 m c, hpost1 m c, hpre2 m c, hpost2 m c, hpre3 m c, hpost3 m c, hpre4 m c, hpost4 m c, hpre5 m c, hpost5 m c, hpre6 m c, hpost6 m c, .rfl, .rfl, hpre7 m c, hpost7 m c, hpre8 m c, hpost8 m c, hpre9 m c, hpost9 m c, hpre10 m c, hpost10 m c, hpre11 m c, hpost11 m c, hpre12 m c, hpost12 m c, hpre13 m c, hpost13 m c, hpre14 m c, hpost14 m c, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V35 m (outs m) c b)
    (hfin := fun c s' => by
      iintro ⟨Hh, HSI⟩
      unfold StableHlo.held
      imodintro
      iapply (pointsTo_read_all (Pipeline.ucRefs τ sig) (fun b => (((c : Thread nD τ)).1, b)) (V35 m (outs m) c) s')
      isplitl [Hh] <;> iassumption)
    (hQ := fun _ h => h)

end Cert.Kernel.Hand

end
-- ==== Proof.Bits.Frame.lean ====
import proofs.«106349_j21990232555677_1_alg».proof.Proof.Bits.Run

/-!
# The frame

Every argument array ends as launched: after the last item each argument's buffer holds the last boundary's contents,
and no host stretch writes an argument and no region may change one, so those contents are the launch memory's.
-/

set_option maxRecDepth 16384

noncomputable section

namespace Cert.Kernel.Hand

open Cert.Kernel Cert.Kernel.Gen Cert.Kernel.GenP
open Idealize.ShloMosaic Idealize.ShloMosaic.TcCoe Idealize.SL.Sem

variable {F : FTy → Type} [FloatOps F] (m : (ℓ : Loc nD τ sig) → Buf (Elt F) ℓ)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 4000000 in
/-- From any memory with zero counters every weakly fair execution of @main terminates, nothing faulting, and every
    final memory has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)) :=
  (θ_run defs _ _).mono (fun r h c => ⟨(h c (Proc.devRef .tc main_arg0) (mem_uc main_arg0 (by decide))).trans (V35_main_arg0 m (outs m) c),
    (h c (Proc.devRef .tc main_arg1) (mem_uc main_arg1 (by decide))).trans (V35_main_arg1 m (outs m) c),
    (h c (Proc.devRef .tc main_arg2) (mem_uc main_arg2 (by decide))).trans (V35_main_arg2 m (outs m) c),
    (h c (Proc.devRef .tc main_arg3) (mem_uc main_arg3 (by decide))).trans (V35_main_arg3 m (outs m) c),
    (h c (Proc.devRef .tc main_arg4) (mem_uc main_arg4 (by decide))).trans (V35_main_arg4 m (outs m) c),
    (h c (Proc.devRef .tc main_arg5) (mem_uc main_arg5 (by decide))).trans (V35_main_arg5 m (outs m) c),
    (h c (Proc.devRef .tc main_arg6) (mem_uc main_arg6 (by decide))).trans (V35_main_arg6 m (outs m) c),
    (h c (Proc.devRef .tc main_arg7) (mem_uc main_arg7 (by decide))).trans (V35_main_arg7 m (outs m) c),
    (h c (Proc.devRef .tc main_arg8) (mem_uc main_arg8 (by decide))).trans (V35_main_arg8 m (outs m) c),
    (h c (Proc.devRef .tc main_arg9) (mem_uc main_arg9 (by decide))).trans (V35_main_arg9 m (outs m) c),
    (h c (Proc.devRef .tc main_arg10) (mem_uc main_arg10 (by decide))).trans (V35_main_arg10 m (outs m) c),
    (h c (Proc.devRef .tc main_arg11) (mem_uc main_arg11 (by decide))).trans (V35_main_arg11 m (outs m) c),
    (h c (Proc.devRef .tc main_arg12) (mem_uc main_arg12 (by decide))).trans (V35_main_arg12 m (outs m) c),
    (h c (Proc.devRef .tc main_arg13) (mem_uc main_arg13 (by decide))).trans (V35_main_arg13 m (outs m) c),
    (h c (Proc.devRef .tc main_arg14) (mem_uc main_arg14 (by decide))).trans (V35_main_arg14 m (outs m) c),
    (h c (Proc.devRef .tc main_arg15) (mem_uc main_arg15 (by decide))).trans (V35_main_arg15 m (outs m) c),
    (h c (Proc.devRef .tc main_arg16) (mem_uc main_arg16 (by decide))).trans (V35_main_arg16 m (outs m) c),
    (h c (Proc.devRef .tc main_arg17) (mem_uc main_arg17 (by decide))).trans (V35_main_arg17 m (outs m) c),
    (h c (Proc.devRef .tc main_arg18) (mem_uc main_arg18 (by decide))).trans (V35_main_arg18 m (outs m) c),
    (h c (Proc.devRef .tc main_arg19) (mem_uc main_arg19 (by decide))).trans (V35_main_arg19 m (outs m) c),
    (h c (Proc.devRef .tc main_arg20) (mem_uc main_arg20 (by decide))).trans (V35_main_arg20 m (outs m) c),
    (h c (Proc.devRef .tc main_arg21) (mem_uc main_arg21 (by decide))).trans (V35_main_arg21 m (outs m) c),
    (h c (Proc.devRef .tc main_arg22) (mem_uc main_arg22 (by decide))).trans (V35_main_arg22 m (outs m) c),
    (h c (Proc.devRef .tc main_arg23) (mem_uc main_arg23 (by decide))).trans (V35_main_arg23 m (outs m) c),
    (h c (Proc.devRef .tc main_arg24) (mem_uc main_arg24 (by decide))).trans (V35_main_arg24 m (outs m) c),
    (h c (Proc.devRef .tc main_arg25) (mem_uc main_arg25 (by decide))).trans (V35_main_arg25 m (outs m) c),
    (h c (Proc.devRef .tc main_arg26) (mem_uc main_arg26 (by decide))).trans (V35_main_arg26 m (outs m) c),
    (h c (Proc.devRef .tc main_arg27) (mem_uc main_arg27 (by decide))).trans (V35_main_arg27 m (outs m) c),
    (h c (Proc.devRef .tc main_arg28) (mem_uc main_arg28 (by decide))).trans (V35_main_arg28 m (outs m) c),
    (h c (Proc.devRef .tc main_arg29) (mem_uc main_arg29 (by decide))).trans (V35_main_arg29 m (outs m) c),
    (h c (Proc.devRef .tc main_arg30) (mem_uc main_arg30 (by decide))).trans (V35_main_arg30 m (outs m) c),
    (h c (Proc.devRef .tc main_arg31) (mem_uc main_arg31 (by decide))).trans (V35_main_arg31 m (outs m) c),
    (h c (Proc.devRef .tc main_arg32) (mem_uc main_arg32 (by decide))).trans (V35_main_arg32 m (outs m) c),
    (h c (Proc.devRef .tc main_arg33) (mem_uc main_arg33 (by decide))).trans (V35_main_arg33 m (outs m) c),
    (h c (Proc.devRef .tc main_arg34) (mem_uc main_arg34 (by decide))).trans (V35_main_arg34 m (outs m) c),
    (h c (Proc.devRef .tc main_arg35) (mem_uc main_arg35 (by decide))).trans (V35_main_arg35 m (outs m) c),
    (h c (Proc.devRef .tc main_arg36) (mem_uc main_arg36 (by decide))).trans (V35_main_arg36 m (outs m) c),
    (h c (Proc.devRef .tc main_arg37) (mem_uc main_arg37 (by decide))).trans (V35_main_arg37 m (outs m) c),
    (h c (Proc.devRef .tc main_arg38) (mem_uc main_arg38 (by decide))).trans (V35_main_arg38 m (outs m) c),
    (h c (Proc.devRef .tc main_arg39) (mem_uc main_arg39 (by decide))).trans (V35_main_arg39 m (outs m) c),
    (h c (Proc.devRef .tc main_arg40) (mem_uc main_arg40 (by decide))).trans (V35_main_arg40 m (outs m) c)⟩) (run_all m ρ)

end Cert.Kernel.Hand

end
-- ==== Proof.Ideal.Region00.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the body `cc0__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched window's
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched window's
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched window's
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not: an unfetched window's
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not: an unfetched window's
    block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the input blocks: its one store, of the whole block. -/
def out0 (x0 : Vec F S10000x1 .f32) (x1 : Vec F S1x32 .f32) (x2 : Vec F S1x32 .f32) (x3 : Vec F S32x32 .f32) (x4 : Vec F S1x32 .f32) : Vec F S10000x32 .f32 :=
  View.canon [⟨(Rect.unit (s := S10000x32) ![0, 0] S10000x32.size inb_S10000x32_S10000x32_0_0), k0_pay1 (View.ld x0 (Rect.unit (s := S10000x1) ![0, 0] S10000x1.size inb_S10000x1_S10000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover0 (p0 : Vec F S10000x32 .f32) (y : S10000x32.Idx) :
    ∃ pc ∈ ([⟨(Rect.unit (s := S10000x32) ![0, 0] S10000x32.size inb_S10000x32_S10000x32_0_0), p0⟩] : List (View.Piece (Elt F) S10000x32 .f32)), y ∈ pc.1.set :=
  View.cover_of_tiled [⟨(Rect.unit (s := S10000x32) ![0, 0] S10000x32.size inb_S10000x32_S10000x32_0_0), p0⟩] S10000x32.size (by rfl) y

set_option maxHeartbeats 1000000 in
/-- The body on whole staging memrefs, the inputs' at contents `x` and the output's at anything, runs to the
    continuation holding the inputs' as they were and the output's at `out0` of the inputs'. -/
theorem sound_kernel0 (c : Dev nD) (E : Set ℕ) (i : grid0.Coords) (arg0 : Memref sig .tc .vmem S10000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S10000x32 .f32) (harg5 : arg5.IsWhole)
    (x0 : Vec F S10000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0 x0 x1 x2 x3 x4)) -∗ K ⟨⟩))
      ⊢ wp frame (wpE (defs₀ (F := F)) Variants.none c none) E (cc0__mlp2_kernel i arg0 harg0 arg1 harg1 arg2 harg2 arg3 harg3 arg4 harg4 arg5 harg5) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of pipeline 0 on core `c`: the arrays as the region finds them; after the body at point `t`
    each input's buffer at its block and the output's at `out0` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Region01.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: the body `cc1__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched window's
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched window's
    block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched window's
    block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not: an unfetched window's
    block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not: an unfetched window's
    block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the input blocks: its one store, of the whole block. -/
def out1 (x0 : Vec F S8000x1 .f32) (x1 : Vec F S1x32 .f32) (x2 : Vec F S1x32 .f32) (x3 : Vec F S32x32 .f32) (x4 : Vec F S1x32 .f32) : Vec F S8000x32 .f32 :=
  View.canon [⟨(Rect.unit (s := S8000x32) ![0, 0] S8000x32.size inb_S8000x32_S8000x32_0_0), k1_pay1 (View.ld x0 (Rect.unit (s := S8000x1) ![0, 0] S8000x1.size inb_S8000x1_S8000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover1 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out1` of the inputs'. -/
theorem sound_kernel1 (c : Dev nD) (E : Set ℕ) (i : grid1.Coords) (arg0 : Memref sig .tc .vmem S8000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S8000x32 .f32) (harg5 : arg5.IsWhole)
    (x0 : Vec F S8000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1 x0 x1 x2 x3 x4)) -∗ K ⟨⟩))
      ⊢ wp frame (wpE (defs₀ (F := F)) Variants.none c none) E (cc1__mlp2_kernel i arg0 harg0 arg1 harg1 arg2 harg2 arg3 harg3 arg4 harg4 arg5 harg5) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- The proof data of pipeline 1 on core `c`: the arrays as the region finds them; after the body at point `t`
    each input's buffer at its block and the output's at `out1` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Region02.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: the body `cc2__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: an unfetched window's
    block index has not moved since the fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: an unfetched window's
    block index has not moved since the fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the input blocks: its one store, of the whole block. -/
def out2 (x0 : Vec F S8000x32 .f32) (x1 : Vec F S8000x32 .f32) : Vec F S8000x32 .f32 :=
  View.canon [⟨(Rect.unit (s := S8000x32) ![0, 0] S8000x32.size inb_S8000x32_S8000x32_0_0), k2_pay1 (View.ld x0 (Rect.unit (s := S8000x32) ![0, 0] S8000x32.size inb_S8000x32_S8000x32_0_0)) (View.ld x1 (Rect.unit (s := S8000x32) ![0, 0] S8000x32.size inb_S8000x32_S8000x32_0_0))⟩]

/-- The one store covers the buffer. -/
theorem cover2 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out2` of the inputs'. -/
theorem sound_kernel2 (c : Dev nD) (E : Set ℕ) (i : grid2.Coords) (arg0 : Memref sig .tc .vmem S8000x32 .f32) (harg0 : arg0.IsWhole) (arg1 : Memref sig .tc .vmem S8000x32 .f32) (harg1 : arg1.IsWhole) (arg2 : Memref sig .tc .vmem S8000x32 .f32) (harg2 : arg2.IsWhole)
    (x0 : Vec F S8000x32 .f32) (x1 : Vec F S8000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2 x0 x1)) -∗ K ⟨⟩))
      ⊢ wp frame (wpE (defs₀ (F := F)) Variants.none c none) E (cc2__relu_add_kernel i arg0 harg0 arg1 harg1 arg2 harg2) K := by
  simp only [cc2__relu_add_kernel_eq_skeleton]; unfold cc2__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The proof data of pipeline 2 on core `c`: the arrays as the region finds them; after the body at point `t`
    each input's buffer at its block and the output's at `out2` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.Region03.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: the body `cc3__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: an unfetched window's
    block index has not moved since the fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: an unfetched window's
    block index has not moved since the fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: an unfetched window's
    block index has not moved since the fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not: an unfetched window's
    block index has not moved since the fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not: an unfetched window's
    block index has not moved since the fetch. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not: an unfetched window's
    block index has not moved since the fetch. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body, from the input blocks: its one store, of the whole block. -/
def out3 (x0 : Vec F S10000x32 .f32) (x1 : Vec F S10000x32 .f32) (x2 : Vec F S32x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k3_pay1 (View.ld x0 (Rect.unit (s := S10000x32) ![0, 0] S10000x32.size inb_S10000x32_S10000x32_0_0)) (View.ld x1 (Rect.unit (s := S10000x32) ![0, 0] S10000x32.size inb_S10000x32_S10000x32_0_0)) (View.ld x2 (Rect.unit (s := S32x64) ![0, 0] S32x64.size inb_S32x64_S32x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover3 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out3` of the inputs'. -/
theorem sound_kernel3 (c : Dev nD) (E : Set ℕ) (i : grid3.Coords) (arg0 : Memref sig .tc .vmem S10000x32 .f32) (harg0 : arg0.IsWhole) (arg1 : Memref sig .tc .vmem S10000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x32 .f32) (x1 : Vec F S10000x32 .f32) (x2 : Vec F S32x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out3 x0 x1 x2 x3 x4 x5)) -∗ K ⟨⟩))
      ⊢ wp frame (wpE (defs₀ (F := F)) Variants.none c none) E (cc3__add_mlp2_kernel i arg0 harg0 arg1 harg1 arg2 harg2 arg3 harg3 arg4 harg4 arg5 harg5 arg6 harg6) K := by
  simp only [cc3__add_mlp2_kernel_eq_skeleton]; unfold cc3__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of pipeline 3 on core `c`: the arrays as the region finds them; after the body at point `t`
    each input's buffer at its block and the output's at `out3` of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Ideal.Region04.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: the body `cc4__linear_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: an unfetched window's
    block index has not moved since the fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not: an unfetched window's
    block index has not moved since the fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not: an unfetched window's
    block index has not moved since the fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output window's staging buffer after the body, from the input blocks: its one store, of the whole block. -/
def out4 (x0 : Vec F S8000x32 .f32) (x1 : Vec F S32x64 .f32) (x2 : Vec F S1x64 .f32) : Vec F S8000x64 .f32 :=
  View.canon [⟨(Rect.unit (s := S8000x64) ![0, 0] S8000x64.size inb_S8000x64_S8000x64_0_0), k4_pay1 (View.ld x0 (Rect.unit (s := S8000x32) ![0, 0] S8000x32.size inb_S8000x32_S8000x32_0_0)) (View.ld x1 (Rect.unit (s := S32x64) ![0, 0] S32x64.size inb_S32x64_S32x64_0_0)) (View.ld x2 (Rect.unit (s := S1x64) ![0, 0] S1x64.size inb_S1x64_S1x64_0_0))⟩]

/-- The one store covers the buffer. -/
theorem cover4 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out4` of the inputs'. -/
theorem sound_kernel4 (c : Dev nD) (E : Set ℕ) (i : grid4.Coords) (arg0 : Memref sig .tc .vmem S8000x32 .f32) (harg0 : arg0.IsWhole) (arg1 : Memref sig .tc .vmem S32x64 .f32) (harg1 : arg1.IsWhole) (arg2 : Memref sig .tc .vmem S1x64 .f32) (harg2 : arg2.IsWhole) (arg3 : Memref sig .tc .vmem S8000x64 .f32) (harg3 : arg3.IsWhole)
    (x0 : Vec F S8000x32 .f32) (x1 : Vec F S32x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4 x0 x1 x2)) -∗ K ⟨⟩))
      ⊢ wp frame (wpE (defs₀ (F := F)) Variants.none c none) E (cc4__linear_kernel i arg0 harg0 arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The proof data of pipeline 4 on core `c`: the arrays as the region finds them; after the body at point `t`
    each input's buffer at its block and the output's at `out4` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Ideal.Region05.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: the body `cc5__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: an unfetched window's
    block index has not moved since the fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: an unfetched window's
    block index has not moved since the fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The output window's staging buffer after the body, from the input blocks: its one store, of the whole block. -/
def out5 (x0 : Vec F S8000x64 .f32) (x1 : Vec F S8000x64 .f32) : Vec F S8000x64 .f32 :=
  View.canon [⟨(Rect.unit (s := S8000x64) ![0, 0] S8000x64.size inb_S8000x64_S8000x64_0_0), k5_pay1 (View.ld x0 (Rect.unit (s := S8000x64) ![0, 0] S8000x64.size inb_S8000x64_S8000x64_0_0)) (View.ld x1 (Rect.unit (s := S8000x64) ![0, 0] S8000x64.size inb_S8000x64_S8000x64_0_0))⟩]

/-- The one store covers the buffer. -/
theorem cover5 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out5` of the inputs'. -/
theorem sound_kernel5 (c : Dev nD) (E : Set ℕ) (i : grid5.Coords) (arg0 : Memref sig .tc .vmem S8000x64 .f32) (harg0 : arg0.IsWhole) (arg1 : Memref sig .tc .vmem S8000x64 .f32) (harg1 : arg1.IsWhole) (arg2 : Memref sig .tc .vmem S8000x64 .f32) (harg2 : arg2.IsWhole)
    (x0 : Vec F S8000x64 .f32) (x1 : Vec F S8000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5 x0 x1)) -∗ K ⟨⟩))
      ⊢ wp frame (wpE (defs₀ (F := F)) Variants.none c none) E (cc5__relu_add_kernel i arg0 harg0 arg1 harg1 arg2 harg2) K := by
  simp only [cc5__relu_add_kernel_eq_skeleton]; unfold cc5__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-- The proof data of pipeline 5 on core `c`: the arrays as the region finds them; after the body at point `t`
    each input's buffer at its block and the output's at `out5` of the input blocks; the invariant the scoped rest
    and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Ideal.Region06.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: the body `cc6__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: an unfetched window's
    block index has not moved since the fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: an unfetched window's
    block index has not moved since the fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not: an unfetched window's
    block index has not moved since the fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not: an unfetched window's
    block index has not moved since the fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not: an unfetched window's
    block index has not moved since the fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds its block at every point, fetched there or not: an unfetched window's
    block index has not moved since the fetch. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- The output window's staging buffer after the body, from the input blocks: its one store, of the whole block. -/
def out6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k6_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover6 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out6` of the inputs'. -/
theorem sound_kernel6 (c : Dev nD) (E : Set ℕ) (i : grid6.Coords) (arg0 : Memref sig .tc .vmem S10000x64 .f32) (harg0 : arg0.IsWhole) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out6 x0 x1 x2 x3 x4 x5)) -∗ K ⟨⟩))
      ⊢ wp frame (wpE (defs₀ (F := F)) Variants.none c none) E (cc6__add_mlp2_kernel i arg0 harg0 arg1 harg1 arg2 harg2 arg3 harg3 arg4 harg4 arg5 harg5 arg6 harg6) K := by
  simp only [cc6__add_mlp2_kernel_eq_skeleton]; unfold cc6__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-- The proof data of pipeline 6 on core `c`: the arrays as the region finds them; after the body at point `t`
    each input's buffer at its block and the output's at `out6` of the input blocks; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

/-- The body at any point: the inputs' memrefs hold their blocks, so the triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Ideal.Region07.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the body `cc7__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not: an unfetched window's
    block index has not moved since the fetch. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not: an unfetched window's
    block index has not moved since the fetch. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not: an unfetched window's
    block index has not moved since the fetch. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not: an unfetched window's
    block index has not moved since the fetch. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not: an unfetched window's
    block index has not moved since the fetch. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The output window's staging buffer after the body, from the input blocks: its one store, of the whole block. -/
def out7 (x0 : Vec F S10000x1 .f32) (x1 : Vec F S1x32 .f32) (x2 : Vec F S1x32 .f32) (x3 : Vec F S32x32 .f32) (x4 : Vec F S1x32 .f32) : Vec F S10000x32 .f32 :=
  View.canon [⟨(Rect.unit (s := S10000x32) ![0, 0] S10000x32.size inb_S10000x32_S10000x32_0_0), k7_pay1 (View.ld x0 (Rect.unit (s := S10000x1) ![0, 0] S10000x1.size inb_S10000x1_S10000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover7 (p0 : Vec F S10000x32 .f32) (y : S10000x32.Idx) :
    ∃ pc ∈ ([⟨(Rect.unit (s := S10000x32) ![0, 0] S10000x32.size inb_S10000x32_S10000x32_0_0), p0⟩] : List (View.Piece (Elt F) S10000x32 .f32)), y ∈ pc.1.set :=
  View.cover_of_tiled [⟨(Rect.unit (s := S10000x32) ![0, 0] S10000x32.size inb_S10000x32_S10000x32_0_0), p0⟩] S10000x32.size (by rfl) y

set_option maxHeartbeats 1000000 in
/-- The body on whole staging memrefs, the inputs' at contents `x` and the output's at anything, runs to the
    continuation holding the inputs' as they were and the output's at `out7` of the inputs'. -/
theorem sound_kernel7 (c : Dev nD) (E : Set ℕ) (i : grid7.Coords) (arg0 : Memref sig .tc .vmem S10000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S10000x32 .f32) (harg5 : arg5.IsWhole)
    (x0 : Vec F S10000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out7 x0 x1 x2 x3 x4)) -∗ K ⟨⟩))
      ⊢ wp frame (wpE (defs₀ (F := F)) Variants.none c none) E (cc7__mlp2_kernel i arg0 harg0 arg1 harg1 arg2 harg2 arg3 harg3 arg4 harg4 arg5 harg5) K := by
  simp only [cc7__mlp2_kernel_eq_skeleton]; unfold cc7__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7 _)

/-- The proof data of pipeline 7 on core `c`: the arrays as the region finds them; after the body at point `t`
    each input's buffer at its block and the output's at `out7` of the input blocks; the invariant the scoped rest
    and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.Ideal.Region08.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 8: the body `cc8__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: an unfetched window's
    block index has not moved since the fetch. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: an unfetched window's
    block index has not moved since the fetch. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: an unfetched window's
    block index has not moved since the fetch. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not: an unfetched window's
    block index has not moved since the fetch. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not: an unfetched window's
    block index has not moved since the fetch. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The output window's staging buffer after the body, from the input blocks: its one store, of the whole block. -/
def out8 (x0 : Vec F S8000x1 .f32) (x1 : Vec F S1x32 .f32) (x2 : Vec F S1x32 .f32) (x3 : Vec F S32x32 .f32) (x4 : Vec F S1x32 .f32) : Vec F S8000x32 .f32 :=
  View.canon [⟨(Rect.unit (s := S8000x32) ![0, 0] S8000x32.size inb_S8000x32_S8000x32_0_0), k8_pay1 (View.ld x0 (Rect.unit (s := S8000x1) ![0, 0] S8000x1.size inb_S8000x1_S8000x1_0_0)) (View.ld x1 (Rect.unit (s := S1x32) ![0, 0] S1x32.size inb_S1x32_S1x32_0_0)) (View.ld x2 (Rect.unit (s := S1x32) ![0, 0] S1x32.size inb_S1x32_S1x32_0_0)) (View.ld x3 (Rect.unit (s := S32x32) ![0, 0] S32x32.size inb_S32x32_S32x32_0_0)) (View.ld x4 (Rect.unit (s := S1x32) ![0, 0] S1x32.size inb_S1x32_S1x32_0_0))⟩]

/-- The one store covers the buffer. -/
theorem cover8 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out8` of the inputs'. -/
theorem sound_kernel8 (c : Dev nD) (E : Set ℕ) (i : grid8.Coords) (arg0 : Memref sig .tc .vmem S8000x1 .f32) (harg0 : arg0.IsWhole) (arg1 : Memref sig .tc .vmem S1x32 .f32) (harg1 : arg1.IsWhole) (arg2 : Memref sig .tc .vmem S1x32 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S8000x32 .f32) (harg5 : arg5.IsWhole)
    (x0 : Vec F S8000x1 .f32) (x1 : Vec F S1x32 .f32) (x2 : Vec F S1x32 .f32) (x3 : Vec F S32x32 .f32) (x4 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out8 x0 x1 x2 x3 x4)) -∗ K ⟨⟩))
      ⊢ wp frame (wpE (defs₀ (F := F)) Variants.none c none) E (cc8__mlp2_kernel i arg0 harg0 arg1 harg1 arg2 harg2 arg3 harg3 arg4 harg4 arg5 harg5) K := by
  simp only [cc8__mlp2_kernel_eq_skeleton]; unfold cc8__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-- The proof data of pipeline 8 on core `c`: the arrays as the region finds them; after the body at point `t`
    each input's buffer at its block and the output's at `out8` of the input blocks; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.Ideal.Region09.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 9: the body `cc9__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not: an unfetched window's
    block index has not moved since the fetch. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not: an unfetched window's
    block index has not moved since the fetch. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The output window's staging buffer after the body, from the input blocks: its one store, of the whole block. -/
def out9 (x0 : Vec F S8000x32 .f32) (x1 : Vec F S8000x32 .f32) : Vec F S8000x32 .f32 :=
  View.canon [⟨(Rect.unit (s := S8000x32) ![0, 0] S8000x32.size inb_S8000x32_S8000x32_0_0), k9_pay1 (View.ld x0 (Rect.unit (s := S8000x32) ![0, 0] S8000x32.size inb_S8000x32_S8000x32_0_0)) (View.ld x1 (Rect.unit (s := S8000x32) ![0, 0] S8000x32.size inb_S8000x32_S8000x32_0_0))⟩]

/-- The one store covers the buffer. -/
theorem cover9 (p0 : Vec F S8000x32 .f32) (y : S8000x32.Idx) :
    ∃ pc ∈ ([⟨(Rect.unit (s := S8000x32) ![0, 0] S8000x32.size inb_S8000x32_S8000x32_0_0), p0⟩] : List (View.Piece (Elt F) S8000x32 .f32)), y ∈ pc.1.set :=
  View.cover_of_tiled [⟨(Rect.unit (s := S8000x32) ![0, 0] S8000x32.size inb_S8000x32_S8000x32_0_0), p0⟩] S8000x32.size (by rfl) y

set_option maxHeartbeats 1000000 in
/-- The body on whole staging memrefs, the inputs' at contents `x` and the output's at anything, runs to the
    continuation holding the inputs' as they were and the output's at `out9` of the inputs'. -/
theorem sound_kernel9 (c : Dev nD) (E : Set ℕ) (i : grid9.Coords) (arg0 : Memref sig .tc .vmem S8000x32 .f32) (harg0 : arg0.IsWhole) (arg1 : Memref sig .tc .vmem S8000x32 .f32) (harg1 : arg1.IsWhole) (arg2 : Memref sig .tc .vmem S8000x32 .f32) (harg2 : arg2.IsWhole)
    (x0 : Vec F S8000x32 .f32) (x1 : Vec F S8000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out9 x0 x1)) -∗ K ⟨⟩))
      ⊢ wp frame (wpE (defs₀ (F := F)) Variants.none c none) E (cc9__relu_add_kernel i arg0 harg0 arg1 harg1 arg2 harg2) K := by
  simp only [cc9__relu_add_kernel_eq_skeleton]; unfold cc9__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9 _)

/-- The proof data of pipeline 9 on core `c`: the arrays as the region finds them; after the body at point `t`
    each input's buffer at its block and the output's at `out9` of the input blocks; the invariant the scoped rest
    and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so the triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.Ideal.Region10.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 10: the body `cc10__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's staging buffer holds its block at every point, fetched there or not: an unfetched window's
    block index has not moved since the fetch. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's staging buffer holds its block at every point, fetched there or not: an unfetched window's
    block index has not moved since the fetch. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's staging buffer holds its block at every point, fetched there or not: an unfetched window's
    block index has not moved since the fetch. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's staging buffer holds its block at every point, fetched there or not: an unfetched window's
    block index has not moved since the fetch. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's staging buffer holds its block at every point, fetched there or not: an unfetched window's
    block index has not moved since the fetch. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's staging buffer holds its block at every point, fetched there or not: an unfetched window's
    block index has not moved since the fetch. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- The output window's staging buffer after the body, from the input blocks: its one store, of the whole block. -/
def out10 (x0 : Vec F S10000x32 .f32) (x1 : Vec F S10000x32 .f32) (x2 : Vec F S32x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k10_pay1 (View.ld x0 (Rect.unit (s := S10000x32) ![0, 0] S10000x32.size inb_S10000x32_S10000x32_0_0)) (View.ld x1 (Rect.unit (s := S10000x32) ![0, 0] S10000x32.size inb_S10000x32_S10000x32_0_0)) (View.ld x2 (Rect.unit (s := S32x64) ![0, 0] S32x64.size inb_S32x64_S32x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover10 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out10` of the inputs'. -/
theorem sound_kernel10 (c : Dev nD) (E : Set ℕ) (i : grid10.Coords) (arg0 : Memref sig .tc .vmem S10000x32 .f32) (harg0 : arg0.IsWhole) (arg1 : Memref sig .tc .vmem S10000x32 .f32) (harg1 : arg1.IsWhole) (arg2 : Memref sig .tc .vmem S32x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x32 .f32) (x1 : Vec F S10000x32 .f32) (x2 : Vec F S32x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out10 x0 x1 x2 x3 x4 x5)) -∗ K ⟨⟩))
      ⊢ wp frame (wpE (defs₀ (F := F)) Variants.none c none) E (cc10__add_mlp2_kernel i arg0 harg0 arg1 harg1 arg2 harg2 arg3 harg3 arg4 harg4 arg5 harg5 arg6 harg6) K := by
  simp only [cc10__add_mlp2_kernel_eq_skeleton]; unfold cc10__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover10 _)

/-- The proof data of pipeline 10 on core `c`: the arrays as the region finds them; after the body at point `t`
    each input's buffer at its block and the output's at `out10` of the input blocks; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => out10 (iblk10 V c 0 t) (iblk10 V c 1 t) (iblk10 V c 2 t) (iblk10 V c 3 t) (iblk10 V c 4 t) (iblk10 V c 5 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = out10 (iblk10 V c 0 t) (iblk10 V c 1 t) (iblk10 V c 2 t) (iblk10 V c 3 t) (iblk10 V c 4 t) (iblk10 V c 5 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t))

/-- The body at any point: the inputs' memrefs hold their blocks, so the triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel10 c Set.univ _ _ _ _ _ _ _ _ _ _ _ _ _ _ _ (iblk10 V c 0 t) (iblk10 V c 1 t) (iblk10 V c 2 t) (iblk10 V c 3 t) (iblk10 V c 4 t) (iblk10 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.Ideal.Region11.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 11: the body `cc11__linear_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's staging buffer holds its block at every point, fetched there or not: an unfetched window's
    block index has not moved since the fetch. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's staging buffer holds its block at every point, fetched there or not: an unfetched window's
    block index has not moved since the fetch. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's staging buffer holds its block at every point, fetched there or not: an unfetched window's
    block index has not moved since the fetch. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The output window's staging buffer after the body, from the input blocks: its one store, of the whole block. -/
def out11 (x0 : Vec F S8000x32 .f32) (x1 : Vec F S32x64 .f32) (x2 : Vec F S1x64 .f32) : Vec F S8000x64 .f32 :=
  View.canon [⟨(Rect.unit (s := S8000x64) ![0, 0] S8000x64.size inb_S8000x64_S8000x64_0_0), k11_pay1 (View.ld x0 (Rect.unit (s := S8000x32) ![0, 0] S8000x32.size inb_S8000x32_S8000x32_0_0)) (View.ld x1 (Rect.unit (s := S32x64) ![0, 0] S32x64.size inb_S32x64_S32x64_0_0)) (View.ld x2 (Rect.unit (s := S1x64) ![0, 0] S1x64.size inb_S1x64_S1x64_0_0))⟩]

/-- The one store covers the buffer. -/
theorem cover11 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out11` of the inputs'. -/
theorem sound_kernel11 (c : Dev nD) (E : Set ℕ) (i : grid11.Coords) (arg0 : Memref sig .tc .vmem S8000x32 .f32) (harg0 : arg0.IsWhole) (arg1 : Memref sig .tc .vmem S32x64 .f32) (harg1 : arg1.IsWhole) (arg2 : Memref sig .tc .vmem S1x64 .f32) (harg2 : arg2.IsWhole) (arg3 : Memref sig .tc .vmem S8000x64 .f32) (harg3 : arg3.IsWhole)
    (x0 : Vec F S8000x32 .f32) (x1 : Vec F S32x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out11 x0 x1 x2)) -∗ K ⟨⟩))
      ⊢ wp frame (wpE (defs₀ (F := F)) Variants.none c none) E (cc11__linear_kernel i arg0 harg0 arg1 harg1 arg2 harg2 arg3 harg3) K := by
  simp only [cc11__linear_kernel_eq_skeleton]; unfold cc11__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11 _)

/-- The proof data of pipeline 11 on core `c`: the arrays as the region finds them; after the body at point `t`
    each input's buffer at its block and the output's at `out11` of the input blocks; the invariant the scoped rest
    and the generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11 (iblk11 V c 0 t) (iblk11 V c 1 t) (iblk11 V c 2 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks, so the triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.Ideal.Region12.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 12: the body `cc12__relu_add_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's staging buffer holds its block at every point, fetched there or not: an unfetched window's
    block index has not moved since the fetch. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's staging buffer holds its block at every point, fetched there or not: an unfetched window's
    block index has not moved since the fetch. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The output window's staging buffer after the body, from the input blocks: its one store, of the whole block. -/
def out12 (x0 : Vec F S8000x64 .f32) (x1 : Vec F S8000x64 .f32) : Vec F S8000x64 .f32 :=
  View.canon [⟨(Rect.unit (s := S8000x64) ![0, 0] S8000x64.size inb_S8000x64_S8000x64_0_0), k12_pay1 (View.ld x0 (Rect.unit (s := S8000x64) ![0, 0] S8000x64.size inb_S8000x64_S8000x64_0_0)) (View.ld x1 (Rect.unit (s := S8000x64) ![0, 0] S8000x64.size inb_S8000x64_S8000x64_0_0))⟩]

/-- The one store covers the buffer. -/
theorem cover12 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 1000000 in
/-- The body on whole staging memrefs, the inputs' at contents `x` and the output's at anything, runs to the
    continuation holding the inputs' as they were and the output's at `out12` of the inputs'. -/
theorem sound_kernel12 (c : Dev nD) (E : Set ℕ) (i : grid12.Coords) (arg0 : Memref sig .tc .vmem S8000x64 .f32) (harg0 : arg0.IsWhole) (arg1 : Memref sig .tc .vmem S8000x64 .f32) (harg1 : arg1.IsWhole) (arg2 : Memref sig .tc .vmem S8000x64 .f32) (harg2 : arg2.IsWhole)
    (x0 : Vec F S8000x64 .f32) (x1 : Vec F S8000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out12 x0 x1)) -∗ K ⟨⟩))
      ⊢ wp frame (wpE (defs₀ (F := F)) Variants.none c none) E (cc12__relu_add_kernel i arg0 harg0 arg1 harg1 arg2 harg2) K := by
  simp only [cc12__relu_add_kernel_eq_skeleton]; unfold cc12__relu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12 _)

/-- The proof data of pipeline 12 on core `c`: the arrays as the region finds them; after the body at point `t`
    each input's buffer at its block and the output's at `out12` of the input blocks; the invariant the scoped rest
    and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so the triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.Ideal.Region13.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 13: the body `cc13__add_mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's staging buffer holds its block at every point, fetched there or not: an unfetched window's
    block index has not moved since the fetch. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's staging buffer holds its block at every point, fetched there or not: an unfetched window's
    block index has not moved since the fetch. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's staging buffer holds its block at every point, fetched there or not: an unfetched window's
    block index has not moved since the fetch. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's staging buffer holds its block at every point, fetched there or not: an unfetched window's
    block index has not moved since the fetch. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's staging buffer holds its block at every point, fetched there or not: an unfetched window's
    block index has not moved since the fetch. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's staging buffer holds its block at every point, fetched there or not: an unfetched window's
    block index has not moved since the fetch. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- The output window's staging buffer after the body, from the input blocks: its one store, of the whole block. -/
def out13 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨(Rect.unit (s := S10000x64) ![0, 0] S10000x64.size inb_S10000x64_S10000x64_0_0), k13_pay1 (View.ld x0 (Rect.unit (s := S10000x64) ![0, 0] S10000x64.size inb_S10000x64_S10000x64_0_0)) (View.ld x1 (Rect.unit (s := S10000x64) ![0, 0] S10000x64.size inb_S10000x64_S10000x64_0_0)) (View.ld x2 (Rect.unit (s := S64x64) ![0, 0] S64x64.size inb_S64x64_S64x64_0_0)) (View.ld x3 (Rect.unit (s := S1x64) ![0, 0] S1x64.size inb_S1x64_S1x64_0_0)) (View.ld x4 (Rect.unit (s := S64x64) ![0, 0] S64x64.size inb_S64x64_S64x64_0_0)) (View.ld x5 (Rect.unit (s := S1x64) ![0, 0] S1x64.size inb_S1x64_S1x64_0_0))⟩]

/-- The one store covers the buffer. -/
theorem cover13 (p0 : Vec F S10000x64 .f32) (y : S10000x64.Idx) :
    ∃ pc ∈ ([⟨(Rect.unit (s := S10000x64) ![0, 0] S10000x64.size inb_S10000x64_S10000x64_0_0), p0⟩] : List (View.Piece (Elt F) S10000x64 .f32)), y ∈ pc.1.set :=
  View.cover_of_tiled [⟨(Rect.unit (s := S10000x64) ![0, 0] S10000x64.size inb_S10000x64_S10000x64_0_0), p0⟩] S10000x64.size (by rfl) y

set_option maxHeartbeats 1000000 in
/-- The body on whole staging memrefs, the inputs' at contents `x` and the output's at anything, runs to the
    continuation holding the inputs' as they were and the output's at `out13` of the inputs'. -/
theorem sound_kernel13 (c : Dev nD) (E : Set ℕ) (i : grid13.Coords) (arg0 : Memref sig .tc .vmem S10000x64 .f32) (harg0 : arg0.IsWhole) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out13 x0 x1 x2 x3 x4 x5)) -∗ K ⟨⟩))
      ⊢ wp frame (wpE (defs₀ (F := F)) Variants.none c none) E (cc13__add_mlp2_kernel i arg0 harg0 arg1 harg1 arg2 harg2 arg3 harg3 arg4 harg4 arg5 harg5 arg6 harg6) K := by
  simp only [cc13__add_mlp2_kernel_eq_skeleton]; unfold cc13__add_mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13 _)

/-- The proof data of pipeline 13 on core `c`: the arrays as the region finds them; after the body at point `t`
    each input's buffer at its block and the output's at `out13` of the input blocks; the invariant the scoped rest
    and the generator register, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13 (iblk13 V c 0 t) (iblk13 V c 1 t) (iblk13 V c 2 t) (iblk13 V c 3 t) (iblk13 V c 4 t) (iblk13 V c 5 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13 (iblk13 V c 0 t) (iblk13 V c 1 t) (iblk13 V c 2 t) (iblk13 V c 3 t) (iblk13 V c 4 t) (iblk13 V c 5 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the triple applies; the invariant and the
    core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ _ _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.Ideal.Region14.lean ====
import proofs.«106349_j21990232555677_1_alg».proof.Proof.Gen.KernelIdeal.Launch
import proofs.«106349_j21990232555677_1_alg».proof.Proof.Gen.KernelIdeal.Skeleton
import proofs.«106349_j21990232555677_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 14: the body `cc14__mlp2_kernel` at every grid point

At a parameter `V` (the TensorCore's buffer contents when the region is entered): the block of each window's array
at a grid point; what the body's one whole-block store leaves in the output window's staging buffer, as a function of
the input blocks; the body's triple; the pipeline's proof data; and the body obligation at every point. The body
loads every input block whole, loads the output buffer (whose contents it never uses) and stores one whole block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's staging buffer holds its block at every point, fetched there or not: an unfetched window's
    block index has not moved since the fetch. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's staging buffer holds its block at every point, fetched there or not: an unfetched window's
    block index has not moved since the fetch. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's staging buffer holds its block at every point, fetched there or not: an unfetched window's
    block index has not moved since the fetch. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's staging buffer holds its block at every point, fetched there or not: an unfetched window's
    block index has not moved since the fetch. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-- Input window 4's staging buffer holds its block at every point, fetched there or not: an unfetched window's
    block index has not moved since the fetch. -/
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- The output window's staging buffer after the body, from the input blocks: its one store, of the whole block. -/
def out14 (x0 : Vec F S512x129 .f32) (x1 : Vec F S129x64 .f32) (x2 : Vec F S1x64 .f32) (x3 : Vec F S64x1 .f32) (x4 : Vec F S1x1 .f32) : Vec F S512x1 .f32 :=
  View.canon [⟨(Rect.unit (s := S512x1) ![0, 0] S512x1.size inb_S512x1_S512x1_0_0), k14_pay1 (View.ld x0 (Rect.unit (s := S512x129) ![0, 0] S512x129.size inb_S512x129_S512x129_0_0)) (View.ld x1 (Rect.unit (s := S129x64) ![0, 0] S129x64.size inb_S129x64_S129x64_0_0)) (View.ld x2 (Rect.unit (s := S1x64) ![0, 0] S1x64.size inb_S1x64_S1x64_0_0)) (View.ld x3 (Rect.unit (s := S64x1) ![0, 0] S64x1.size inb_S64x1_S64x1_0_0)) (View.ld x4 (Rect.unit (s := S1x1) ![0, 0] S1x1.size inb_S1x1_S1x1_0_0))⟩]

/-- The one store covers the buffer. -/
theorem cover14 (p0 : Vec F S512x1 .f32) (y : S512x1.Idx) :
    ∃ pc ∈ ([⟨(Rect.unit (s := S512x1) ![0, 0] S512x1.size inb_S512x1_S512x1_0_0), p0⟩] : List (View.Piece (Elt F) S512x1 .f32)), y ∈ pc.1.set :=
  View.cover_of_tiled [⟨(Rect.unit (s := S512x1) ![0, 0] S512x1.size inb_S512x1_S512x1_0_0), p0⟩] S512x1.size (by rfl) y

set_option maxHeartbeats 1000000 in
/-- The body on whole staging memrefs, the inputs' at contents `x` and the output's at anything, runs to the
    continuation holding the inputs' as they were and the output's at `out14` of the inputs'. -/
theorem sound_kernel14 (c : Dev nD) (E : Set ℕ) (i : grid14.Coords) (arg0 : Memref sig .tc .vmem S512x129 .f32) (harg0 : arg0.IsWhole) (arg1 : Memref sig .tc .vmem S129x64 .f32) (harg1 : arg1.IsWhole) (arg2 : Memref sig .tc .vmem S1x64 .f32) (harg2 : arg2.IsWhole) (arg3 : Memref sig .tc .vmem S64x1 .f32) (harg3 : arg3.IsWhole) (arg4 : Memref sig .tc .vmem S1x1 .f32) (harg4 : arg4.IsWhole) (arg5 : Memref sig .tc .vmem S512x1 .f32) (harg5 : arg5.IsWhole)
    (x0 : Vec F S512x129 .f32) (x1 : Vec F S129x64 .f32) (x2 : Vec F S1x64 .f32) (x3 : Vec F S64x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out14 x0 x1 x2 x3 x4)) -∗ K ⟨⟩))
      ⊢ wp frame (wpE (defs₀ (F := F)) Variants.none c none) E (cc14__mlp2_kernel i arg0 harg0 arg1 harg1 arg2 harg2 arg3 harg3 arg4 harg4 arg5 harg5) K := by
  simp only [cc14__mlp2_kernel_eq_skeleton]; unfold cc14__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14 _)

/-- The proof data of pipeline 14 on core `c`: the arrays as the region finds them; after the body at point `t`
    each input's buffer at its block and the output's at `out14` of the input blocks; the invariant the scoped rest
    and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14 (iblk14 V c 0 t) (iblk14 V c 1 t) (iblk14 V c 2 t) (iblk14 V c 3 t) (iblk14 V c 4 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = out14 (iblk14 V c 0 t) (iblk14 V c 1 t) (iblk14 V c 2 t) (iblk14 V c 3 t) (iblk14 V c 4 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' memrefs hold their blocks, so the triple applies; the invariant and the
    core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.Ideal.Run.lean ====
import proofs.«106349_j21990232555677_1_alg».proof.Proof.Ideal.RegionsP
import proofs.«106349_j21990232555677_1_alg».proof.Proof.Ideal.Region00
import proofs.«106349_j21990232555677_1_alg».proof.Proof.Ideal.Region01
import proofs.«106349_j21990232555677_1_alg».proof.Proof.Ideal.Region02
import proofs.«106349_j21990232555677_1_alg».proof.Proof.Ideal.Region03
import proofs.«106349_j21990232555677_1_alg».proof.Proof.Ideal.Region04
import proofs.«106349_j21990232555677_1_alg».proof.Proof.Ideal.Region05
import proofs.«106349_j21990232555677_1_alg».proof.Proof.Ideal.Region06
import proofs.«106349_j21990232555677_1_alg».proof.Proof.Ideal.Region07
import proofs.«106349_j21990232555677_1_alg».proof.Proof.Ideal.Region08
import proofs.«106349_j21990232555677_1_alg».proof.Proof.Ideal.Region09
import proofs.«106349_j21990232555677_1_alg».proof.Proof.Ideal.Region10
import proofs.«106349_j21990232555677_1_alg».proof.Proof.Ideal.Region11
import proofs.«106349_j21990232555677_1_alg».proof.Proof.Ideal.Region12
import proofs.«106349_j21990232555677_1_alg».proof.Proof.Ideal.Region13
import proofs.«106349_j21990232555677_1_alg».proof.Proof.Ideal.Region14
import Idealize.ShloMosaic.Lib.Pipeline.Frame
import Idealize.ShloMosaic.Lib.Pipeline.Regions

/-!
# The run of @main: fifteen regions among stretches of host operations

Between two items of @main a core holds every unscoped buffer whole. A region changes one buffer only, its output
window's array, and leaves there what its write-backs fold to after the last grid point; a stretch of host operations
leaves the fold of its operations. So the buffers' contents at every boundary are a chain from the launch memory:
XeK when region K is entered, XxK when it is left. Each region is a segment entered from the first and left at
the second; its arrays are split out of the unscoped buffers and put back, the generator register passes through the
class invariant, and nothing is owed. One launch over the segments then says that every weakly fair execution
terminates with every unscoped buffer at the last boundary's contents.
-/

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Core c's unscoped buffers when region 0 is entered. -/
def Xe0 (c : Dev nD) : Valuation τ sig (Elt F) := V3 m c
/-- The same read at the TensorCore's references. -/
abbrev Vr0 : (c : Dev nD) → (b : Ref sig .tc) → Buf (Elt F) ((c : Thread nD τ).loc b) := fun c b => Xe0 m c b
/-- When it is left: its output array at what the write-backs fold to, every other buffer as entered. -/
def Xx0 (c : Dev nD) : Valuation τ sig (Elt F) := Function.update (Xe0 m c) main_v9 ((dat0 (Vr0 m) c).arrAt 5 cfg0.N)
/-- The same read at the TensorCore's references. -/
abbrev Vxr0 : (c : Dev nD) → (b : Ref sig .tc) → Buf (Elt F) ((c : Thread nD τ).loc b) := fun c b => Xx0 m c b

/-- Core c's unscoped buffers when region 1 is entered. -/
def Xe1 (c : Dev nD) : Valuation τ sig (Elt F) := StableHlo.after hostOps1 (Xx0 m c)
/-- The same read at the TensorCore's references. -/
abbrev Vr1 : (c : Dev nD) → (b : Ref sig .tc) → Buf (Elt F) ((c : Thread nD τ).loc b) := fun c b => Xe1 m c b
/-- When it is left: its output array at what the write-backs fold to, every other buffer as entered. -/
def Xx1 (c : Dev nD) : Valuation τ sig (Elt F) := Function.update (Xe1 m c) main_v12 ((dat1 (Vr1 m) c).arrAt 5 cfg1.N)
/-- The same read at the TensorCore's references. -/
abbrev Vxr1 : (c : Dev nD) → (b : Ref sig .tc) → Buf (Elt F) ((c : Thread nD τ).loc b) := fun c b => Xx1 m c b

/-- Core c's unscoped buffers when region 2 is entered. -/
def Xe2 (c : Dev nD) : Valuation τ sig (Elt F) := StableHlo.after hostOps2 (Xx1 m c)
/-- The same read at the TensorCore's references. -/
abbrev Vr2 : (c : Dev nD) → (b : Ref sig .tc) → Buf (Elt F) ((c : Thread nD τ).loc b) := fun c b => Xe2 m c b
/-- When it is left: its output array at what the write-backs fold to, every other buffer as entered. -/
def Xx2 (c : Dev nD) : Valuation τ sig (Elt F) := Function.update (Xe2 m c) main_v24 ((dat2 (Vr2 m) c).arrAt 2 cfg2.N)
/-- The same read at the TensorCore's references. -/
abbrev Vxr2 : (c : Dev nD) → (b : Ref sig .tc) → Buf (Elt F) ((c : Thread nD τ).loc b) := fun c b => Xx2 m c b

/-- Core c's unscoped buffers when region 3 is entered. -/
def Xe3 (c : Dev nD) : Valuation τ sig (Elt F) := StableHlo.after hostOps3 (Xx2 m c)
/-- The same read at the TensorCore's references. -/
abbrev Vr3 : (c : Dev nD) → (b : Ref sig .tc) → Buf (Elt F) ((c : Thread nD τ).loc b) := fun c b => Xe3 m c b
/-- When it is left: its output array at what the write-backs fold to, every other buffer as entered. -/
def Xx3 (c : Dev nD) : Valuation τ sig (Elt F) := Function.update (Xe3 m c) main_v30 ((dat3 (Vr3 m) c).arrAt 6 cfg3.N)
/-- The same read at the TensorCore's references. -/
abbrev Vxr3 : (c : Dev nD) → (b : Ref sig .tc) → Buf (Elt F) ((c : Thread nD τ).loc b) := fun c b => Xx3 m c b

/-- Core c's unscoped buffers when region 4 is entered. -/
def Xe4 (c : Dev nD) : Valuation τ sig (Elt F) := StableHlo.after hostOps4 (Xx3 m c)
/-- The same read at the TensorCore's references. -/
abbrev Vr4 : (c : Dev nD) → (b : Ref sig .tc) → Buf (Elt F) ((c : Thread nD τ).loc b) := fun c b => Xe4 m c b
/-- When it is left: its output array at what the write-backs fold to, every other buffer as entered. -/
def Xx4 (c : Dev nD) : Valuation τ sig (Elt F) := Function.update (Xe4 m c) main_v32 ((dat4 (Vr4 m) c).arrAt 3 cfg4.N)
/-- The same read at the TensorCore's references. -/
abbrev Vxr4 : (c : Dev nD) → (b : Ref sig .tc) → Buf (Elt F) ((c : Thread nD τ).loc b) := fun c b => Xx4 m c b

/-- Core c's unscoped buffers when region 5 is entered. -/
def Xe5 (c : Dev nD) : Valuation τ sig (Elt F) := StableHlo.after hostOps5 (Xx4 m c)
/-- The same read at the TensorCore's references. -/
abbrev Vr5 : (c : Dev nD) → (b : Ref sig .tc) → Buf (Elt F) ((c : Thread nD τ).loc b) := fun c b => Xe5 m c b
/-- When it is left: its output array at what the write-backs fold to, every other buffer as entered. -/
def Xx5 (c : Dev nD) : Valuation τ sig (Elt F) := Function.update (Xe5 m c) main_v40 ((dat5 (Vr5 m) c).arrAt 2 cfg5.N)
/-- The same read at the TensorCore's references. -/
abbrev Vxr5 : (c : Dev nD) → (b : Ref sig .tc) → Buf (Elt F) ((c : Thread nD τ).loc b) := fun c b => Xx5 m c b

/-- Core c's unscoped buffers when region 6 is entered. -/
def Xe6 (c : Dev nD) : Valuation τ sig (Elt F) := StableHlo.after hostOps6 (Xx5 m c)
/-- The same read at the TensorCore's references. -/
abbrev Vr6 : (c : Dev nD) → (b : Ref sig .tc) → Buf (Elt F) ((c : Thread nD τ).loc b) := fun c b => Xe6 m c b
/-- When it is left: its output array at what the write-backs fold to, every other buffer as entered. -/
def Xx6 (c : Dev nD) : Valuation τ sig (Elt F) := Function.update (Xe6 m c) main_v46 ((dat6 (Vr6 m) c).arrAt 6 cfg6.N)
/-- The same read at the TensorCore's references. -/
abbrev Vxr6 : (c : Dev nD) → (b : Ref sig .tc) → Buf (Elt F) ((c : Thread nD τ).loc b) := fun c b => Xx6 m c b

/-- Core c's unscoped buffers when region 7 is entered. -/
def Xe7 (c : Dev nD) : Valuation τ sig (Elt F) := StableHlo.after hostOps7_2 (StableHlo.after hostOps7_1 (StableHlo.after hostOps7 (Xx6 m c)))
/-- The same read at the TensorCore's references. -/
abbrev Vr7 : (c : Dev nD) → (b : Ref sig .tc) → Buf (Elt F) ((c : Thread nD τ).loc b) := fun c b => Xe7 m c b
/-- When it is left: its output array at what the write-backs fold to, every other buffer as entered. -/
def Xx7 (c : Dev nD) : Valuation τ sig (Elt F) := Function.update (Xe7 m c) main_v68 ((dat7 (Vr7 m) c).arrAt 5 cfg7.N)
/-- The same read at the TensorCore's references. -/
abbrev Vxr7 : (c : Dev nD) → (b : Ref sig .tc) → Buf (Elt F) ((c : Thread nD τ).loc b) := fun c b => Xx7 m c b

/-- Core c's unscoped buffers when region 8 is entered. -/
def Xe8 (c : Dev nD) : Valuation τ sig (Elt F) := StableHlo.after hostOps8 (Xx7 m c)
/-- The same read at the TensorCore's references. -/
abbrev Vr8 : (c : Dev nD) → (b : Ref sig .tc) → Buf (Elt F) ((c : Thread nD τ).loc b) := fun c b => Xe8 m c b
/-- When it is left: its output array at what the write-backs fold to, every other buffer as entered. -/
def Xx8 (c : Dev nD) : Valuation τ sig (Elt F) := Function.update (Xe8 m c) main_v71 ((dat8 (Vr8 m) c).arrAt 5 cfg8.N)
/-- The same read at the TensorCore's references. -/
abbrev Vxr8 : (c : Dev nD) → (b : Ref sig .tc) → Buf (Elt F) ((c : Thread nD τ).loc b) := fun c b => Xx8 m c b

/-- Core c's unscoped buffers when region 9 is entered. -/
def Xe9 (c : Dev nD) : Valuation τ sig (Elt F) := StableHlo.after hostOps9 (Xx8 m c)
/-- The same read at the TensorCore's references. -/
abbrev Vr9 : (c : Dev nD) → (b : Ref sig .tc) → Buf (Elt F) ((c : Thread nD τ).loc b) := fun c b => Xe9 m c b
/-- When it is left: its output array at what the write-backs fold to, every other buffer as entered. -/
def Xx9 (c : Dev nD) : Valuation τ sig (Elt F) := Function.update (Xe9 m c) main_v83 ((dat9 (Vr9 m) c).arrAt 2 cfg9.N)
/-- The same read at the TensorCore's references. -/
abbrev Vxr9 : (c : Dev nD) → (b : Ref sig .tc) → Buf (Elt F) ((c : Thread nD τ).loc b) := fun c b => Xx9 m c b

/-- Core c's unscoped buffers when region 10 is entered. -/
def Xe10 (c : Dev nD) : Valuation τ sig (Elt F) := StableHlo.after hostOps10 (Xx9 m c)
/-- The same read at the TensorCore's references. -/
abbrev Vr10 : (c : Dev nD) → (b : Ref sig .tc) → Buf (Elt F) ((c : Thread nD τ).loc b) := fun c b => Xe10 m c b
/-- When it is left: its output array at what the write-backs fold to, every other buffer as entered. -/
def Xx10 (c : Dev nD) : Valuation τ sig (Elt F) := Function.update (Xe10 m c) main_v89 ((dat10 (Vr10 m) c).arrAt 6 cfg10.N)
/-- The same read at the TensorCore's references. -/
abbrev Vxr10 : (c : Dev nD) → (b : Ref sig .tc) → Buf (Elt F) ((c : Thread nD τ).loc b) := fun c b => Xx10 m c b

/-- Core c's unscoped buffers when region 11 is entered. -/
def Xe11 (c : Dev nD) : Valuation τ sig (Elt F) := StableHlo.after hostOps11 (Xx10 m c)
/-- The same read at the TensorCore's references. -/
abbrev Vr11 : (c : Dev nD) → (b : Ref sig .tc) → Buf (Elt F) ((c : Thread nD τ).loc b) := fun c b => Xe11 m c b
/-- When it is left: its output array at what the write-backs fold to, every other buffer as entered. -/
def Xx11 (c : Dev nD) : Valuation τ sig (Elt F) := Function.update (Xe11 m c) main_v91 ((dat11 (Vr11 m) c).arrAt 3 cfg11.N)
/-- The same read at the TensorCore's references. -/
abbrev Vxr11 : (c : Dev nD) → (b : Ref sig .tc) → Buf (Elt F) ((c : Thread nD τ).loc b) := fun c b => Xx11 m c b

/-- Core c's unscoped buffers when region 12 is entered. -/
def Xe12 (c : Dev nD) : Valuation τ sig (Elt F) := StableHlo.after hostOps12 (Xx11 m c)
/-- The same read at the TensorCore's references. -/
abbrev Vr12 : (c : Dev nD) → (b : Ref sig .tc) → Buf (Elt F) ((c : Thread nD τ).loc b) := fun c b => Xe12 m c b
/-- When it is left: its output array at what the write-backs fold to, every other buffer as entered. -/
def Xx12 (c : Dev nD) : Valuation τ sig (Elt F) := Function.update (Xe12 m c) main_v99 ((dat12 (Vr12 m) c).arrAt 2 cfg12.N)
/-- The same read at the TensorCore's references. -/
abbrev Vxr12 : (c : Dev nD) → (b : Ref sig .tc) → Buf (Elt F) ((c : Thread nD τ).loc b) := fun c b => Xx12 m c b

/-- Core c's unscoped buffers when region 13 is entered. -/
def Xe13 (c : Dev nD) : Valuation τ sig (Elt F) := StableHlo.after hostOps13 (Xx12 m c)
/-- The same read at the TensorCore's references. -/
abbrev Vr13 : (c : Dev nD) → (b : Ref sig .tc) → Buf (Elt F) ((c : Thread nD τ).loc b) := fun c b => Xe13 m c b
/-- When it is left: its output array at what the write-backs fold to, every other buffer as entered. -/
def Xx13 (c : Dev nD) : Valuation τ sig (Elt F) := Function.update (Xe13 m c) main_v105 ((dat13 (Vr13 m) c).arrAt 6 cfg13.N)
/-- The same read at the TensorCore's references. -/
abbrev Vxr13 : (c : Dev nD) → (b : Ref sig .tc) → Buf (Elt F) ((c : Thread nD τ).loc b) := fun c b => Xx13 m c b

/-- Core c's unscoped buffers when region 14 is entered. -/
def Xe14 (c : Dev nD) : Valuation τ sig (Elt F) := StableHlo.after hostOps14 (Xx13 m c)
/-- The same read at the TensorCore's references. -/
abbrev Vr14 : (c : Dev nD) → (b : Ref sig .tc) → Buf (Elt F) ((c : Thread nD τ).loc b) := fun c b => Xe14 m c b
/-- When it is left: its output array at what the write-backs fold to, every other buffer as entered. -/
def Xx14 (c : Dev nD) : Valuation τ sig (Elt F) := Function.update (Xe14 m c) main_v122 ((dat14 (Vr14 m) c).arrAt 5 cfg14.N)
/-- The same read at the TensorCore's references. -/
abbrev Vxr14 : (c : Dev nD) → (b : Ref sig .tc) → Buf (Elt F) ((c : Thread nD τ).loc b) := fun c b => Xx14 m c b

/-- What each region leaves in the buffer it may change, as the unknowns of the generated boundary valuations. -/
def outs : Outs (F := F) := fun J r c => match J with
  | 4 => Xx0 m c r
  | 6 => Xx1 m c r
  | 8 => Xx2 m c r
  | 10 => Xx3 m c r
  | 12 => Xx4 m c r
  | 14 => Xx5 m c r
  | 16 => Xx6 m c r
  | 20 => Xx7 m c r
  | 22 => Xx8 m c r
  | 24 => Xx9 m c r
  | 26 => Xx10 m c r
  | 28 => Xx11 m c r
  | 30 => Xx12 m c r
  | 32 => Xx13 m c r
  | 34 => Xx14 m c r
  | _ => m ((c : Thread nD τ).loc r)

/-! ## The generated boundary valuations at these contents are the chain above -/

theorem Ve0_eq (c : Dev nD) : V3 m c = Xe0 m c := rfl
theorem Vx0_eq (c : Dev nD) : V4 m (outs m) c = Xx0 m c := by
  show Function.update (V3 m c) main_v9 (Xx0 m c main_v9) = Xx0 m c
  rw [Ve0_eq]; unfold Xx0
  rw [Function.update_self]

theorem Ve1_eq (c : Dev nD) : V5 m (outs m) c = Xe1 m c := by
  show StableHlo.after hostOps1 (V4 m (outs m) c) = StableHlo.after hostOps1 (Xx0 m c)
  rw [Vx0_eq]
theorem Vx1_eq (c : Dev nD) : V6 m (outs m) c = Xx1 m c := by
  show Function.update (V5 m (outs m) c) main_v12 (Xx1 m c main_v12) = Xx1 m c
  rw [Ve1_eq]; unfold Xx1
  rw [Function.update_self]

theorem Ve2_eq (c : Dev nD) : V7 m (outs m) c = Xe2 m c := by
  show StableHlo.after hostOps2 (V6 m (outs m) c) = StableHlo.after hostOps2 (Xx1 m c)
  rw [Vx1_eq]
theorem Vx2_eq (c : Dev nD) : V8 m (outs m) c = Xx2 m c := by
  show Function.update (V7 m (outs m) c) main_v24 (Xx2 m c main_v24) = Xx2 m c
  rw [Ve2_eq]; unfold Xx2
  rw [Function.update_self]

theorem Ve3_eq (c : Dev nD) : V9 m (outs m) c = Xe3 m c := by
  show StableHlo.after hostOps3 (V8 m (outs m) c) = StableHlo.after hostOps3 (Xx2 m c)
  rw [Vx2_eq]
theorem Vx3_eq (c : Dev nD) : V10 m (outs m) c = Xx3 m c := by
  show Function.update (V9 m (outs m) c) main_v30 (Xx3 m c main_v30) = Xx3 m c
  rw [Ve3_eq]; unfold Xx3
  rw [Function.update_self]

theorem Ve4_eq (c : Dev nD) : V11 m (outs m) c = Xe4 m c := by
  show StableHlo.after hostOps4 (V10 m (outs m) c) = StableHlo.after hostOps4 (Xx3 m c)
  rw [Vx3_eq]
theorem Vx4_eq (c : Dev nD) : V12 m (outs m) c = Xx4 m c := by
  show Function.update (V11 m (outs m) c) main_v32 (Xx4 m c main_v32) = Xx4 m c
  rw [Ve4_eq]; unfold Xx4
  rw [Function.update_self]

theorem Ve5_eq (c : Dev nD) : V13 m (outs m) c = Xe5 m c := by
  show StableHlo.after hostOps5 (V12 m (outs m) c) = StableHlo.after hostOps5 (Xx4 m c)
  rw [Vx4_eq]
theorem Vx5_eq (c : Dev nD) : V14 m (outs m) c = Xx5 m c := by
  show Function.update (V13 m (outs m) c) main_v40 (Xx5 m c main_v40) = Xx5 m c
  rw [Ve5_eq]; unfold Xx5
  rw [Function.update_self]

theorem Ve6_eq (c : Dev nD) : V15 m (outs m) c = Xe6 m c := by
  show StableHlo.after hostOps6 (V14 m (outs m) c) = StableHlo.after hostOps6 (Xx5 m c)
  rw [Vx5_eq]
theorem Vx6_eq (c : Dev nD) : V16 m (outs m) c = Xx6 m c := by
  show Function.update (V15 m (outs m) c) main_v46 (Xx6 m c main_v46) = Xx6 m c
  rw [Ve6_eq]; unfold Xx6
  rw [Function.update_self]

theorem Ve7_eq (c : Dev nD) : V19 m (outs m) c = Xe7 m c := by
  show StableHlo.after hostOps7_2 (StableHlo.after hostOps7_1 (StableHlo.after hostOps7 (V16 m (outs m) c))) = StableHlo.after hostOps7_2 (StableHlo.after hostOps7_1 (StableHlo.after hostOps7 (Xx6 m c)))
  rw [Vx6_eq]
theorem Vx7_eq (c : Dev nD) : V20 m (outs m) c = Xx7 m c := by
  show Function.update (V19 m (outs m) c) main_v68 (Xx7 m c main_v68) = Xx7 m c
  rw [Ve7_eq]; unfold Xx7
  rw [Function.update_self]

theorem Ve8_eq (c : Dev nD) : V21 m (outs m) c = Xe8 m c := by
  show StableHlo.after hostOps8 (V20 m (outs m) c) = StableHlo.after hostOps8 (Xx7 m c)
  rw [Vx7_eq]
theorem Vx8_eq (c : Dev nD) : V22 m (outs m) c = Xx8 m c := by
  show Function.update (V21 m (outs m) c) main_v71 (Xx8 m c main_v71) = Xx8 m c
  rw [Ve8_eq]; unfold Xx8
  rw [Function.update_self]

theorem Ve9_eq (c : Dev nD) : V23 m (outs m) c = Xe9 m c := by
  show StableHlo.after hostOps9 (V22 m (outs m) c) = StableHlo.after hostOps9 (Xx8 m c)
  rw [Vx8_eq]
theorem Vx9_eq (c : Dev nD) : V24 m (outs m) c = Xx9 m c := by
  show Function.update (V23 m (outs m) c) main_v83 (Xx9 m c main_v83) = Xx9 m c
  rw [Ve9_eq]; unfold Xx9
  rw [Function.update_self]

theorem Ve10_eq (c : Dev nD) : V25 m (outs m) c = Xe10 m c := by
  show StableHlo.after hostOps10 (V24 m (outs m) c) = StableHlo.after hostOps10 (Xx9 m c)
  rw [Vx9_eq]
theorem Vx10_eq (c : Dev nD) : V26 m (outs m) c = Xx10 m c := by
  show Function.update (V25 m (outs m) c) main_v89 (Xx10 m c main_v89) = Xx10 m c
  rw [Ve10_eq]; unfold Xx10
  rw [Function.update_self]

theorem Ve11_eq (c : Dev nD) : V27 m (outs m) c = Xe11 m c := by
  show StableHlo.after hostOps11 (V26 m (outs m) c) = StableHlo.after hostOps11 (Xx10 m c)
  rw [Vx10_eq]
theorem Vx11_eq (c : Dev nD) : V28 m (outs m) c = Xx11 m c := by
  show Function.update (V27 m (outs m) c) main_v91 (Xx11 m c main_v91) = Xx11 m c
  rw [Ve11_eq]; unfold Xx11
  rw [Function.update_self]

theorem Ve12_eq (c : Dev nD) : V29 m (outs m) c = Xe12 m c := by
  show StableHlo.after hostOps12 (V28 m (outs m) c) = StableHlo.after hostOps12 (Xx11 m c)
  rw [Vx11_eq]
theorem Vx12_eq (c : Dev nD) : V30 m (outs m) c = Xx12 m c := by
  show Function.update (V29 m (outs m) c) main_v99 (Xx12 m c main_v99) = Xx12 m c
  rw [Ve12_eq]; unfold Xx12
  rw [Function.update_self]

theorem Ve13_eq (c : Dev nD) : V31 m (outs m) c = Xe13 m c := by
  show StableHlo.after hostOps13 (V30 m (outs m) c) = StableHlo.after hostOps13 (Xx12 m c)
  rw [Vx12_eq]
theorem Vx13_eq (c : Dev nD) : V32 m (outs m) c = Xx13 m c := by
  show Function.update (V31 m (outs m) c) main_v105 (Xx13 m c main_v105) = Xx13 m c
  rw [Ve13_eq]; unfold Xx13
  rw [Function.update_self]

theorem Ve14_eq (c : Dev nD) : V33 m (outs m) c = Xe14 m c := by
  show StableHlo.after hostOps14 (V32 m (outs m) c) = StableHlo.after hostOps14 (Xx13 m c)
  rw [Vx13_eq]
theorem Vx14_eq (c : Dev nD) : V34 m (outs m) c = Xx14 m c := by
  show Function.update (V33 m (outs m) c) main_v122 (Xx14 m c main_v122) = Xx14 m c
  rw [Ve14_eq]; unfold Xx14
  rw [Function.update_self]

/-! ## What a region leaves: its arrays, and the rest -/

set_option maxHeartbeats 4000000 in
theorem hF0 (c : Dev nD) : ∀ w : Fin 6, (dat0 (Vr0 m) c).arrAt w cfg0.N = Vxr0 m c (Pipeline.arrRef spec0 w) := by
  intro w
  show _ = Xx0 m c (Proc.devRef .tc (Pipeline.arrRef spec0 w))
  unfold Xx0
  match w with
  | 0 => rw [Function.update_of_ne (StableHlo.devRef_ne_of_ne (by decide))]; exact ((dat0 (Vr0 m) c).arrAt_in 0 rfl _).trans (A_eq0 (Vr0 m) c 0)
  | 1 => rw [Function.update_of_ne (StableHlo.devRef_ne_of_ne (by decide))]; exact ((dat0 (Vr0 m) c).arrAt_in 1 rfl _).trans (A_eq0 (Vr0 m) c 1)
  | 2 => rw [Function.update_of_ne (StableHlo.devRef_ne_of_ne (by decide))]; exact ((dat0 (Vr0 m) c).arrAt_in 2 rfl _).trans (A_eq0 (Vr0 m) c 2)
  | 3 => rw [Function.update_of_ne (StableHlo.devRef_ne_of_ne (by decide))]; exact ((dat0 (Vr0 m) c).arrAt_in 3 rfl _).trans (A_eq0 (Vr0 m) c 3)
  | 4 => rw [Function.update_of_ne (StableHlo.devRef_ne_of_ne (by decide))]; exact ((dat0 (Vr0 m) c).arrAt_in 4 rfl _).trans (A_eq0 (Vr0 m) c 4)
  | 5 => rw [Function.update_self]
theorem hrest0 (c : Dev nD) : ∀ b, b ∉ Finset.univ.image (Pipeline.arrRef spec0) → Vxr0 m c b = Vr0 m c b := by
  intro b hb
  show Xx0 m c (Proc.devRef .tc b) = Xe0 m c (Proc.devRef .tc b)
  unfold Xx0
  exact Function.update_of_ne (StableHlo.devRef_ne_of_ne fun e => hb (Finset.mem_image.mpr ⟨5, Finset.mem_univ _, e.symm⟩)) _ _

set_option maxHeartbeats 4000000 in
theorem hF1 (c : Dev nD) : ∀ w : Fin 6, (dat1 (Vr1 m) c).arrAt w cfg1.N = Vxr1 m c (Pipeline.arrRef spec1 w) := by
  intro w
  show _ = Xx1 m c (Proc.devRef .tc (Pipeline.arrRef spec1 w))
  unfold Xx1
  match w with
  | 0 => rw [Function.update_of_ne (StableHlo.devRef_ne_of_ne (by decide))]; exact ((dat1 (Vr1 m) c).arrAt_in 0 rfl _).trans (A_eq1 (Vr1 m) c 0)
  | 1 => rw [Function.update_of_ne (StableHlo.devRef_ne_of_ne (by decide))]; exact ((dat1 (Vr1 m) c).arrAt_in 1 rfl _).trans (A_eq1 (Vr1 m) c 1)
  | 2 => rw [Function.update_of_ne (StableHlo.devRef_ne_of_ne (by decide))]; exact ((dat1 (Vr1 m) c).arrAt_in 2 rfl _).trans (A_eq1 (Vr1 m) c 2)
  | 3 => rw [Function.update_of_ne (StableHlo.devRef_ne_of_ne (by decide))]; exact ((dat1 (Vr1 m) c).arrAt_in 3 rfl _).trans (A_eq1 (Vr1 m) c 3)
  | 4 => rw [Function.update_of_ne (StableHlo.devRef_ne_of_ne (by decide))]; exact ((dat1 (Vr1 m) c).arrAt_in 4 rfl _).trans (A_eq1 (Vr1 m) c 4)
  | 5 => rw [Function.update_self]
theorem hrest1 (c : Dev nD) : ∀ b, b ∉ Finset.univ.image (Pipeline.arrRef spec1) → Vxr1 m c b = Vr1 m c b := by
  intro b hb
  show Xx1 m c (Proc.devRef .tc b) = Xe1 m c (Proc.devRef .tc b)
  unfold Xx1
  exact Function.update_of_ne (StableHlo.devRef_ne_of_ne fun e => hb (Finset.mem_image.mpr ⟨5, Finset.mem_univ _, e.symm⟩)) _ _

set_option maxHeartbeats 4000000 in
theorem hF2 (c : Dev nD) : ∀ w : Fin 3, (dat2 (Vr2 m) c).arrAt w cfg2.N = Vxr2 m c (Pipeline.arrRef spec2 w) := by
  intro w
  show _ = Xx2 m c (Proc.devRef .tc (Pipeline.arrRef spec2 w))
  unfold Xx2
  match w with
  | 0 => rw [Function.update_of_ne (StableHlo.devRef_ne_of_ne (by decide))]; exact ((dat2 (Vr2 m) c).arrAt_in 0 rfl _).trans (A_eq2 (Vr2 m) c 0)
  | 1 => rw [Function.update_of_ne (StableHlo.devRef_ne_of_ne (by decide))]; exact ((dat2 (Vr2 m) c).arrAt_in 1 rfl _).trans (A_eq2 (Vr2 m) c 1)
  | 2 => rw [Function.update_self]
theorem hrest2 (c : Dev nD) : ∀ b, b ∉ Finset.univ.image (Pipeline.arrRef spec2) → Vxr2 m c b = Vr2 m c b := by
  intro b hb
  show Xx2 m c (Proc.devRef .tc b) = Xe2 m c (Proc.devRef .tc b)
  unfold Xx2
  exact Function.update_of_ne (StableHlo.devRef_ne_of_ne fun e => hb (Finset.mem_image.mpr ⟨2, Finset.mem_univ _, e.symm⟩)) _ _

set_option maxHeartbeats 4000000 in
theorem hF3 (c : Dev nD) : ∀ w : Fin 7, (dat3 (Vr3 m) c).arrAt w cfg3.N = Vxr3 m c (Pipeline.arrRef spec3 w) := by
  intro w
  show _ = Xx3 m c (Proc.devRef .tc (Pipeline.arrRef spec3 w))
  unfold Xx3
  match w with
  | 0 => rw [Function.update_of_ne (StableHlo.devRef_ne_of_ne (by decide))]; exact ((dat3 (Vr3 m) c).arrAt_in 0 rfl _).trans (A_eq3 (Vr3 m) c 0)
  | 1 => rw [Function.update_of_ne (StableHlo.devRef_ne_of_ne (by decide))]; exact ((dat3 (Vr3 m) c).arrAt_in 1 rfl _).trans (A_eq3 (Vr3 m) c 1)
  | 2 => rw [Function.update_of_ne (StableHlo.devRef_ne_of_ne (by decide))]; exact ((dat3 (Vr3 m) c).arrAt_in 2 rfl _).trans (A_eq3 (Vr3 m) c 2)
  | 3 => rw [Function.update_of_ne (StableHlo.devRef_ne_of_ne (by decide))]; exact ((dat3 (Vr3 m) c).arrAt_in 3 rfl _).trans (A_eq3 (Vr3 m) c 3)
  | 4 => rw [Function.update_of_ne (StableHlo.devRef_ne_of_ne (by decide))]; exact ((dat3 (Vr3 m) c).arrAt_in 4 rfl _).trans (A_eq3 (Vr3 m) c 4)
  | 5 => rw [Function.update_of_ne (StableHlo.devRef_ne_of_ne (by decide))]; exact ((dat3 (Vr3 m) c).arrAt_in 5 rfl _).trans (A_eq3 (Vr3 m) c 5)
  | 6 => rw [Function.update_self]
theorem hrest3 (c : Dev nD) : ∀ b, b ∉ Finset.univ.image (Pipeline.arrRef spec3) → Vxr3 m c b = Vr3 m c b := by
  intro b hb
  show Xx3 m c (Proc.devRef .tc b) = Xe3 m c (Proc.devRef .tc b)
  unfold Xx3
  exact Function.update_of_ne (StableHlo.devRef_ne_of_ne fun e => hb (Finset.mem_image.mpr ⟨6, Finset.mem_univ _, e.symm⟩)) _ _

set_option maxHeartbeats 4000000 in
theorem hF4 (c : Dev nD) : ∀ w : Fin 4, (dat4 (Vr4 m) c).arrAt w cfg4.N = Vxr4 m c (Pipeline.arrRef spec4 w) := by
  intro w
  show _ = Xx4 m c (Proc.devRef .tc (Pipeline.arrRef spec4 w))
  unfold Xx4
  match w with
  | 0 => rw [Function.update_of_ne (StableHlo.devRef_ne_of_ne (by decide))]; exact ((dat4 (Vr4 m) c).arrAt_in 0 rfl _).trans (A_eq4 (Vr4 m) c 0)
  | 1 => rw [Function.update_of_ne (StableHlo.devRef_ne_of_ne (by decide))]; exact ((dat4 (Vr4 m) c).arrAt_in 1 rfl _).trans (A_eq4 (Vr4 m) c 1)
  | 2 => rw [Function.update_of_ne (StableHlo.devRef_ne_of_ne (by decide))]; exact ((dat4 (Vr4 m) c).arrAt_in 2 rfl _).trans (A_eq4 (Vr4 m) c 2)
  | 3 => rw [Function.update_self]
theorem hrest4 (c : Dev nD) : ∀ b, b ∉ Finset.univ.image (Pipeline.arrRef spec4) → Vxr4 m c b = Vr4 m c b := by
  intro b hb
  show Xx4 m c (Proc.devRef .tc b) = Xe4 m c (Proc.devRef .tc b)
  unfold Xx4
  exact Function.update_of_ne (StableHlo.devRef_ne_of_ne fun e => hb (Finset.mem_image.mpr ⟨3, Finset.mem_univ _, e.symm⟩)) _ _

set_option maxHeartbeats 4000000 in
theorem hF5 (c : Dev nD) : ∀ w : Fin 3, (dat5 (Vr5 m) c).arrAt w cfg5.N = Vxr5 m c (Pipeline.arrRef spec5 w) := by
  intro w
  show _ = Xx5 m c (Proc.devRef .tc (Pipeline.arrRef spec5 w))
  unfold Xx5
  match w with
  | 0 => rw [Function.update_of_ne (StableHlo.devRef_ne_of_ne (by decide))]; exact ((dat5 (Vr5 m) c).arrAt_in 0 rfl _).trans (A_eq5 (Vr5 m) c 0)
  | 1 => rw [Function.update_of_ne (StableHlo.devRef_ne_of_ne (by decide))]; exact ((dat5 (Vr5 m) c).arrAt_in 1 rfl _).trans (A_eq5 (Vr5 m) c 1)
  | 2 => rw [Function.update_self]
theorem hrest5 (c : Dev nD) : ∀ b, b ∉ Finset.univ.image (Pipeline.arrRef spec5) → Vxr5 m c b = Vr5 m c b := by
  intro b hb
  show Xx5 m c (Proc.devRef .tc b) = Xe5 m c (Proc.devRef .tc b)
  unfold Xx5
  exact Function.update_of_ne (StableHlo.devRef_ne_of_ne fun e => hb (Finset.mem_image.mpr ⟨2, Finset.mem_univ _, e.symm⟩)) _ _

set_option maxHeartbeats 4000000 in
theorem hF6 (c : Dev nD) : ∀ w : Fin 7, (dat6 (Vr6 m) c).arrAt w cfg6.N = Vxr6 m c (Pipeline.arrRef spec6 w) := by
  intro w
  show _ = Xx6 m c (Proc.devRef .tc (Pipeline.arrRef spec6 w))
  unfold Xx6
  match w with
  | 0 => rw [Function.update_of_ne (StableHlo.devRef_ne_of_ne (by decide))]; exact ((dat6 (Vr6 m) c).arrAt_in 0 rfl _).trans (A_eq6 (Vr6 m) c 0)
  | 1 => rw [Function.update_of_ne (StableHlo.devRef_ne_of_ne (by decide))]; exact ((dat6 (Vr6 m) c).arrAt_in 1 rfl _).trans (A_eq6 (Vr6 m) c 1)
  | 2 => rw [Function.update_of_ne (StableHlo.devRef_ne_of_ne (by decide))]; exact ((dat6 (Vr6 m) c).arrAt_in 2 rfl _).trans (A_eq6 (Vr6 m) c 2)
  | 3 => rw [Function.update_of_ne (StableHlo.devRef_ne_of_ne (by decide))]; exact ((dat6 (Vr6 m) c).arrAt_in 3 rfl _).trans (A_eq6 (Vr6 m) c 3)
  | 4 => rw [Function.update_of_ne (StableHlo.devRef_ne_of_ne (by decide))]; exact ((dat6 (Vr6 m) c).arrAt_in 4 rfl _).trans (A_eq6 (Vr6 m) c 4)
  | 5 => rw [Function.update_of_ne (StableHlo.devRef_ne_of_ne (by decide))]; exact ((dat6 (Vr6 m) c).arrAt_in 5 rfl _).trans (A_eq6 (Vr6 m) c 5)
  | 6 => rw [Function.update_self]
theorem hrest6 (c : Dev nD) : ∀ b, b ∉ Finset.univ.image (Pipeline.arrRef spec6) → Vxr6 m c b = Vr6 m c b := by
  intro b hb
  show Xx6 m c (Proc.devRef .tc b) = Xe6 m c (Proc.devRef .tc b)
  unfold Xx6
  exact Function.update_of_ne (StableHlo.devRef_ne_of_ne fun e => hb (Finset.mem_image.mpr ⟨6, Finset.mem_univ _, e.symm⟩)) _ _

set_option maxHeartbeats 4000000 in
theorem hF7 (c : Dev nD) : ∀ w : Fin 6, (dat7 (Vr7 m) c).arrAt w cfg7.N = Vxr7 m c (Pipeline.arrRef spec7 w) := by
  intro w
  show _ = Xx7 m c (Proc.devRef .tc (Pipeline.arrRef spec7 w))
  unfold Xx7
  match w with
  | 0 => rw [Function.update_of_ne (StableHlo.devRef_ne_of_ne (by decide))]; exact ((dat7 (Vr7 m) c).arrAt_in 0 rfl _).trans (A_eq7 (Vr7 m) c 0)
  | 1 => rw [Function.update_of_ne (StableHlo.devRef_ne_of_ne (by decide))]; exact ((dat7 (Vr7 m) c).arrAt_in 1 rfl _).trans (A_eq7 (Vr7 m) c 1)
  | 2 => rw [Function.update_of_ne (StableHlo.devRef_ne_of_ne (by decide))]; exact ((dat7 (Vr7 m) c).arrAt_in 2 rfl _).trans (A_eq7 (Vr7 m) c 2)
  | 3 => rw [Function.update_of_ne (StableHlo.devRef_ne_of_ne (by decide))]; exact ((dat7 (Vr7 m) c).arrAt_in 3 rfl _).trans (A_eq7 (Vr7 m) c 3)
  | 4 => rw [Function.update_of_ne (StableHlo.devRef_ne_of_ne (by decide))]; exact ((dat7 (Vr7 m) c).arrAt_in 4 rfl _).trans (A_eq7 (Vr7 m) c 4)
  | 5 => rw [Function.update_self]
theorem hrest7 (c : Dev nD) : ∀ b, b ∉ Finset.univ.image (Pipeline.arrRef spec7) → Vxr7 m c b = Vr7 m c b := by
  intro b hb
  show Xx7 m c (Proc.devRef .tc b) = Xe7 m c (Proc.devRef .tc b)
  unfold Xx7
  exact Function.update_of_ne (StableHlo.devRef_ne_of_ne fun e => hb (Finset.mem_image.mpr ⟨5, Finset.mem_univ _, e.symm⟩)) _ _

set_option maxHeartbeats 4000000 in
theorem hF8 (c : Dev nD) : ∀ w : Fin 6, (dat8 (Vr8 m) c).arrAt w cfg8.N = Vxr8 m c (Pipeline.arrRef spec8 w) := by
  intro w
  show _ = Xx8 m c (Proc.devRef .tc (Pipeline.arrRef spec8 w))
  unfold Xx8
  match w with
  | 0 => rw [Function.update_of_ne (StableHlo.devRef_ne_of_ne (by decide))]; exact ((dat8 (Vr8 m) c).arrAt_in 0 rfl _).trans (A_eq8 (Vr8 m) c 0)
  | 1 => rw [Function.update_of_ne (StableHlo.devRef_ne_of_ne (by decide))]; exact ((dat8 (Vr8 m) c).arrAt_in 1 rfl _).trans (A_eq8 (Vr8 m) c 1)
  | 2 => rw [Function.update_of_ne (StableHlo.devRef_ne_of_ne (by decide))]; exact ((dat8 (Vr8 m) c).arrAt_in 2 rfl _).trans (A_eq8 (Vr8 m) c 2)
  | 3 => rw [Function.update_of_ne (StableHlo.devRef_ne_of_ne (by decide))]; exact ((dat8 (Vr8 m) c).arrAt_in 3 rfl _).trans (A_eq8 (Vr8 m) c 3)
  | 4 => rw [Function.update_of_ne (StableHlo.devRef_ne_of_ne (by decide))]; exact ((dat8 (Vr8 m) c).arrAt_in 4 rfl _).trans (A_eq8 (Vr8 m) c 4)
  | 5 => rw [Function.update_self]
theorem hrest8 (c : Dev nD) : ∀ b, b ∉ Finset.univ.image (Pipeline.arrRef spec8) → Vxr8 m c b = Vr8 m c b := by
  intro b hb
  show Xx8 m c (Proc.devRef .tc b) = Xe8 m c (Proc.devRef .tc b)
  unfold Xx8
  exact Function.update_of_ne (StableHlo.devRef_ne_of_ne fun e => hb (Finset.mem_image.mpr ⟨5, Finset.mem_univ _, e.symm⟩)) _ _

set_option maxHeartbeats 4000000 in
theorem hF9 (c : Dev nD) : ∀ w : Fin 3, (dat9 (Vr9 m) c).arrAt w cfg9.N = Vxr9 m c (Pipeline.arrRef spec9 w) := by
  intro w
  show _ = Xx9 m c (Proc.devRef .tc (Pipeline.arrRef spec9 w))
  unfold Xx9
  match w with
  | 0 => rw [Function.update_of_ne (StableHlo.devRef_ne_of_ne (by decide))]; exact ((dat9 (Vr9 m) c).arrAt_in 0 rfl _).trans (A_eq9 (Vr9 m) c 0)
  | 1 => rw [Function.update_of_ne (StableHlo.devRef_ne_of_ne (by decide))]; exact ((dat9 (Vr9 m) c).arrAt_in 1 rfl _).trans (A_eq9 (Vr9 m) c 1)
  | 2 => rw [Function.update_self]
theorem hrest9 (c : Dev nD) : ∀ b, b ∉ Finset.univ.image (Pipeline.arrRef spec9) → Vxr9 m c b = Vr9 m c b := by
  intro b hb
  show Xx9 m c (Proc.devRef .tc b) = Xe9 m c (Proc.devRef .tc b)
  unfold Xx9
  exact Function.update_of_ne (StableHlo.devRef_ne_of_ne fun e => hb (Finset.mem_image.mpr ⟨2, Finset.mem_univ _, e.symm⟩)) _ _

set_option maxHeartbeats 4000000 in
theorem hF10 (c : Dev nD) : ∀ w : Fin 7, (dat10 (Vr10 m) c).arrAt w cfg10.N = Vxr10 m c (Pipeline.arrRef spec10 w) := by
  intro w
  show _ = Xx10 m c (Proc.devRef .tc (Pipeline.arrRef spec10 w))
  unfold Xx10
  match w with
  | 0 => rw [Function.update_of_ne (StableHlo.devRef_ne_of_ne (by decide))]; exact ((dat10 (Vr10 m) c).arrAt_in 0 rfl _).trans (A_eq10 (Vr10 m) c 0)
  | 1 => rw [Function.update_of_ne (StableHlo.devRef_ne_of_ne (by decide))]; exact ((dat10 (Vr10 m) c).arrAt_in 1 rfl _).trans (A_eq10 (Vr10 m) c 1)
  | 2 => rw [Function.update_of_ne (StableHlo.devRef_ne_of_ne (by decide))]; exact ((dat10 (Vr10 m) c).arrAt_in 2 rfl _).trans (A_eq10 (Vr10 m) c 2)
  | 3 => rw [Function.update_of_ne (StableHlo.devRef_ne_of_ne (by decide))]; exact ((dat10 (Vr10 m) c).arrAt_in 3 rfl _).trans (A_eq10 (Vr10 m) c 3)
  | 4 => rw [Function.update_of_ne (StableHlo.devRef_ne_of_ne (by decide))]; exact ((dat10 (Vr10 m) c).arrAt_in 4 rfl _).trans (A_eq10 (Vr10 m) c 4)
  | 5 => rw [Function.update_of_ne (StableHlo.devRef_ne_of_ne (by decide))]; exact ((dat10 (Vr10 m) c).arrAt_in 5 rfl _).trans (A_eq10 (Vr10 m) c 5)
  | 6 => rw [Function.update_self]
theorem hrest10 (c : Dev nD) : ∀ b, b ∉ Finset.univ.image (Pipeline.arrRef spec10) → Vxr10 m c b = Vr10 m c b := by
  intro b hb
  show Xx10 m c (Proc.devRef .tc b) = Xe10 m c (Proc.devRef .tc b)
  unfold Xx10
  exact Function.update_of_ne (StableHlo.devRef_ne_of_ne fun e => hb (Finset.mem_image.mpr ⟨6, Finset.mem_univ _, e.symm⟩)) _ _

set_option maxHeartbeats 4000000 in
theorem hF11 (c : Dev nD) : ∀ w : Fin 4, (dat11 (Vr11 m) c).arrAt w cfg11.N = Vxr11 m c (Pipeline.arrRef spec11 w) := by
  intro w
  show _ = Xx11 m c (Proc.devRef .tc (Pipeline.arrRef spec11 w))
  unfold Xx11
  match w with
  | 0 => rw [Function.update_of_ne (StableHlo.devRef_ne_of_ne (by decide))]; exact ((dat11 (Vr11 m) c).arrAt_in 0 rfl _).trans (A_eq11 (Vr11 m) c 0)
  | 1 => rw [Function.update_of_ne (StableHlo.devRef_ne_of_ne (by decide))]; exact ((dat11 (Vr11 m) c).arrAt_in 1 rfl _).trans (A_eq11 (Vr11 m) c 1)
  | 2 => rw [Function.update_of_ne (StableHlo.devRef_ne_of_ne (by decide))]; exact ((dat11 (Vr11 m) c).arrAt_in 2 rfl _).trans (A_eq11 (Vr11 m) c 2)
  | 3 => rw [Function.update_self]
theorem hrest11 (c : Dev nD) : ∀ b, b ∉ Finset.univ.image (Pipeline.arrRef spec11) → Vxr11 m c b = Vr11 m c b := by
  intro b hb
  show Xx11 m c (Proc.devRef .tc b) = Xe11 m c (Proc.devRef .tc b)
  unfold Xx11
  exact Function.update_of_ne (StableHlo.devRef_ne_of_ne fun e => hb (Finset.mem_image.mpr ⟨3, Finset.mem_univ _, e.symm⟩)) _ _

set_option maxHeartbeats 4000000 in
theorem hF12 (c : Dev nD) : ∀ w : Fin 3, (dat12 (Vr12 m) c).arrAt w cfg12.N = Vxr12 m c (Pipeline.arrRef spec12 w) := by
  intro w
  show _ = Xx12 m c (Proc.devRef .tc (Pipeline.arrRef spec12 w))
  unfold Xx12
  match w with
  | 0 => rw [Function.update_of_ne (StableHlo.devRef_ne_of_ne (by decide))]; exact ((dat12 (Vr12 m) c).arrAt_in 0 rfl _).trans (A_eq12 (Vr12 m) c 0)
  | 1 => rw [Function.update_of_ne (StableHlo.devRef_ne_of_ne (by decide))]; exact ((dat12 (Vr12 m) c).arrAt_in 1 rfl _).trans (A_eq12 (Vr12 m) c 1)
  | 2 => rw [Function.update_self]
theorem hrest12 (c : Dev nD) : ∀ b, b ∉ Finset.univ.image (Pipeline.arrRef spec12) → Vxr12 m c b = Vr12 m c b := by
  intro b hb
  show Xx12 m c (Proc.devRef .tc b) = Xe12 m c (Proc.devRef .tc b)
  unfold Xx12
  exact Function.update_of_ne (StableHlo.devRef_ne_of_ne fun e => hb (Finset.mem_image.mpr ⟨2, Finset.mem_univ _, e.symm⟩)) _ _

set_option maxHeartbeats 4000000 in
theorem hF13 (c : Dev nD) : ∀ w : Fin 7, (dat13 (Vr13 m) c).arrAt w cfg13.N = Vxr13 m c (Pipeline.arrRef spec13 w) := by
  intro w
  show _ = Xx13 m c (Proc.devRef .tc (Pipeline.arrRef spec13 w))
  unfold Xx13
  match w with
  | 0 => rw [Function.update_of_ne (StableHlo.devRef_ne_of_ne (by decide))]; exact ((dat13 (Vr13 m) c).arrAt_in 0 rfl _).trans (A_eq13 (Vr13 m) c 0)
  | 1 => rw [Function.update_of_ne (StableHlo.devRef_ne_of_ne (by decide))]; exact ((dat13 (Vr13 m) c).arrAt_in 1 rfl _).trans (A_eq13 (Vr13 m) c 1)
  | 2 => rw [Function.update_of_ne (StableHlo.devRef_ne_of_ne (by decide))]; exact ((dat13 (Vr13 m) c).arrAt_in 2 rfl _).trans (A_eq13 (Vr13 m) c 2)
  | 3 => rw [Function.update_of_ne (StableHlo.devRef_ne_of_ne (by decide))]; exact ((dat13 (Vr13 m) c).arrAt_in 3 rfl _).trans (A_eq13 (Vr13 m) c 3)
  | 4 => rw [Function.update_of_ne (StableHlo.devRef_ne_of_ne (by decide))]; exact ((dat13 (Vr13 m) c).arrAt_in 4 rfl _).trans (A_eq13 (Vr13 m) c 4)
  | 5 => rw [Function.update_of_ne (StableHlo.devRef_ne_of_ne (by decide))]; exact ((dat13 (Vr13 m) c).arrAt_in 5 rfl _).trans (A_eq13 (Vr13 m) c 5)
  | 6 => rw [Function.update_self]
theorem hrest13 (c : Dev nD) : ∀ b, b ∉ Finset.univ.image (Pipeline.arrRef spec13) → Vxr13 m c b = Vr13 m c b := by
  intro b hb
  show Xx13 m c (Proc.devRef .tc b) = Xe13 m c (Proc.devRef .tc b)
  unfold Xx13
  exact Function.update_of_ne (StableHlo.devRef_ne_of_ne fun e => hb (Finset.mem_image.mpr ⟨6, Finset.mem_univ _, e.symm⟩)) _ _

set_option maxHeartbeats 4000000 in
theorem hF14 (c : Dev nD) : ∀ w : Fin 6, (dat14 (Vr14 m) c).arrAt w cfg14.N = Vxr14 m c (Pipeline.arrRef spec14 w) := by
  intro w
  show _ = Xx14 m c (Proc.devRef .tc (Pipeline.arrRef spec14 w))
  unfold Xx14
  match w with
  | 0 => rw [Function.update_of_ne (StableHlo.devRef_ne_of_ne (by decide))]; exact ((dat14 (Vr14 m) c).arrAt_in 0 rfl _).trans (A_eq14 (Vr14 m) c 0)
  | 1 => rw [Function.update_of_ne (StableHlo.devRef_ne_of_ne (by decide))]; exact ((dat14 (Vr14 m) c).arrAt_in 1 rfl _).trans (A_eq14 (Vr14 m) c 1)
  | 2 => rw [Function.update_of_ne (StableHlo.devRef_ne_of_ne (by decide))]; exact ((dat14 (Vr14 m) c).arrAt_in 2 rfl _).trans (A_eq14 (Vr14 m) c 2)
  | 3 => rw [Function.update_of_ne (StableHlo.devRef_ne_of_ne (by decide))]; exact ((dat14 (Vr14 m) c).arrAt_in 3 rfl _).trans (A_eq14 (Vr14 m) c 3)
  | 4 => rw [Function.update_of_ne (StableHlo.devRef_ne_of_ne (by decide))]; exact ((dat14 (Vr14 m) c).arrAt_in 4 rfl _).trans (A_eq14 (Vr14 m) c 4)
  | 5 => rw [Function.update_self]
theorem hrest14 (c : Dev nD) : ∀ b, b ∉ Finset.univ.image (Pipeline.arrRef spec14) → Vxr14 m c b = Vr14 m c b := by
  intro b hb
  show Xx14 m c (Proc.devRef .tc b) = Xe14 m c (Proc.devRef .tc b)
  unfold Xx14
  exact Function.update_of_ne (StableHlo.devRef_ne_of_ne fun e => hb (Finset.mem_image.mpr ⟨5, Finset.mem_univ _, e.symm⟩)) _ _

/-! ## The proof data family and what rides beside the buffers -/

/-- Every pipeline's proof data, each at its region's entry contents. -/
def pdats : (p : Fin 15) → (c : Dev nD) → Dat τ (Elt F) Unit ℕ (UR sig nD τ) ℕ (cfgs p) c
  | ⟨0, _⟩ => fun c => dat0 (Vr0 m) c
  | ⟨1, _⟩ => fun c => dat1 (Vr1 m) c
  | ⟨2, _⟩ => fun c => dat2 (Vr2 m) c
  | ⟨3, _⟩ => fun c => dat3 (Vr3 m) c
  | ⟨4, _⟩ => fun c => dat4 (Vr4 m) c
  | ⟨5, _⟩ => fun c => dat5 (Vr5 m) c
  | ⟨6, _⟩ => fun c => dat6 (Vr6 m) c
  | ⟨7, _⟩ => fun c => dat7 (Vr7 m) c
  | ⟨8, _⟩ => fun c => dat8 (Vr8 m) c
  | ⟨9, _⟩ => fun c => dat9 (Vr9 m) c
  | ⟨10, _⟩ => fun c => dat10 (Vr10 m) c
  | ⟨11, _⟩ => fun c => dat11 (Vr11 m) c
  | ⟨12, _⟩ => fun c => dat12 (Vr12 m) c
  | ⟨13, _⟩ => fun c => dat13 (Vr13 m) c
  | ⟨14, _⟩ => fun c => dat14 (Vr14 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
abbrev E : Fin 16 → Dev nD → sProp 𝕄 := fun _ c => R c

/-! ## The regions as segments -/

set_option backward.isDefEq.respectTransparency.types false in
/-- Region 0 over the thread state: entered from every unscoped buffer at Xe0, left at Xx0. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (Xe0 m c) ∗ R c)
  post c := iprop(StableHlo.held (c : Thread nD τ) (Pipeline.ucRefs τ sig) (Xx0 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vxr0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at Xe1, left at Xx1. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (Xe1 m c) ∗ R c)
  post c := iprop(StableHlo.held (c : Thread nD τ) (Pipeline.ucRefs τ sig) (Xx1 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vxr1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at Xe2, left at Xx2. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (Xe2 m c) ∗ R c)
  post c := iprop(StableHlo.held (c : Thread nD τ) (Pipeline.ucRefs τ sig) (Xx2 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vxr2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at Xe3, left at Xx3. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr3 m) c).loose
  hwaits := Pipeline.hwaits_of_owed_zero _ _ _ _ L lv 3 fun _ _ => rfl
  pre c := iprop(StableHlo.held (c : Thread nD τ) (Pipeline.ucRefs τ sig) (Xe3 m c) ∗ R c)
  post c := iprop(StableHlo.held (c : Thread nD τ) (Pipeline.ucRefs τ sig) (Xx3 m c) ∗ R c)
  X c := iprop(∃ r, prngReg c r)
  Y c := iprop(∃ r, prngReg c r)
  Z c := Pipeline.unscopedRest (Ix := Unit) (Name := ℕ) (U := UR sig nD τ) (Lvl := ℕ) spec3 c (Vr3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr3 m c) (Vxr3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at Xe4, left at Xx4. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr4 m) c).loose
  hwaits := Pipeline.hwaits_of_owed_zero _ _ _ _ L lv 4 fun _ _ => rfl
  pre c := iprop(StableHlo.held (c : Thread nD τ) (Pipeline.ucRefs τ sig) (Xe4 m c) ∗ R c)
  post c := iprop(StableHlo.held (c : Thread nD τ) (Pipeline.ucRefs τ sig) (Xx4 m c) ∗ R c)
  X c := iprop(∃ r, prngReg c r)
  Y c := iprop(∃ r, prngReg c r)
  Z c := Pipeline.unscopedRest (Ix := Unit) (Name := ℕ) (U := UR sig nD τ) (Lvl := ℕ) spec4 c (Vr4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vr4 m c) (Vxr4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at Xe5, left at Xx5. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr5 m) c).loose
  hwaits := Pipeline.hwaits_of_owed_zero _ _ _ _ L lv 5 fun _ _ => rfl
  pre c := iprop(StableHlo.held (c : Thread nD τ) (Pipeline.ucRefs τ sig) (Xe5 m c) ∗ R c)
  post c := iprop(StableHlo.held (c : Thread nD τ) (Pipeline.ucRefs τ sig) (Xx5 m c) ∗ R c)
  X c := iprop(∃ r, prngReg c r)
  Y c := iprop(∃ r, prngReg c r)
  Z c := Pipeline.unscopedRest (Ix := Unit) (Name := ℕ) (U := UR sig nD τ) (Lvl := ℕ) spec5 c (Vr5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vr5 m c) (Vxr5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at Xe6, left at Xx6. -/
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vr6 m) c).loose
  hwaits := Pipeline.hwaits_of_owed_zero _ _ _ _ L lv 6 fun _ _ => rfl
  pre c := iprop(StableHlo.held (c : Thread nD τ) (Pipeline.ucRefs τ sig) (Xe6 m c) ∗ R c)
  post c := iprop(StableHlo.held (c : Thread nD τ) (Pipeline.ucRefs τ sig) (Xx6 m c) ∗ R c)
  X c := iprop(∃ r, prngReg c r)
  Y c := iprop(∃ r, prngReg c r)
  Z c := Pipeline.unscopedRest (Ix := Unit) (Name := ℕ) (U := UR sig nD τ) (Lvl := ℕ) spec6 c (Vr6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vr6 m c) (Vxr6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at Xe7, left at Xx7. -/
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vr7 m) c).loose
  hwaits := Pipeline.hwaits_of_owed_zero _ _ _ _ L lv 7 fun _ _ => rfl
  pre c := iprop(StableHlo.held (c : Thread nD τ) (Pipeline.ucRefs τ sig) (Xe7 m c) ∗ R c)
  post c := iprop(StableHlo.held (c : Thread nD τ) (Pipeline.ucRefs τ sig) (Xx7 m c) ∗ R c)
  X c := iprop(∃ r, prngReg c r)
  Y c := iprop(∃ r, prngReg c r)
  Z c := Pipeline.unscopedRest (Ix := Unit) (Name := ℕ) (U := UR sig nD τ) (Lvl := ℕ) spec7 c (Vr7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vr7 m c) (Vxr7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at Xe8, left at Xx8. -/
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vr8 m) c).loose
  hwaits := Pipeline.hwaits_of_owed_zero _ _ _ _ L lv 8 fun _ _ => rfl
  pre c := iprop(StableHlo.held (c : Thread nD τ) (Pipeline.ucRefs τ sig) (Xe8 m c) ∗ R c)
  post c := iprop(StableHlo.held (c : Thread nD τ) (Pipeline.ucRefs τ sig) (Xx8 m c) ∗ R c)
  X c := iprop(∃ r, prngReg c r)
  Y c := iprop(∃ r, prngReg c r)
  Z c := Pipeline.unscopedRest (Ix := Unit) (Name := ℕ) (U := UR sig nD τ) (Lvl := ℕ) spec8 c (Vr8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vr8 m c) (Vxr8 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at Xe9, left at Xx9. -/
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vr9 m) c).loose
  hwaits := Pipeline.hwaits_of_owed_zero _ _ _ _ L lv 9 fun _ _ => rfl
  pre c := iprop(StableHlo.held (c : Thread nD τ) (Pipeline.ucRefs τ sig) (Xe9 m c) ∗ R c)
  post c := iprop(StableHlo.held (c : Thread nD τ) (Pipeline.ucRefs τ sig) (Xx9 m c) ∗ R c)
  X c := iprop(∃ r, prngReg c r)
  Y c := iprop(∃ r, prngReg c r)
  Z c := Pipeline.unscopedRest (Ix := Unit) (Name := ℕ) (U := UR sig nD τ) (Lvl := ℕ) spec9 c (Vr9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vr9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vr9 m c) (Vxr9 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at Xe10, left at Xx10. -/
def reg10 : RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vr10 m) c).loose
  hwaits := Pipeline.hwaits_of_owed_zero _ _ _ _ L lv 10 fun _ _ => rfl
  pre c := iprop(StableHlo.held (c : Thread nD τ) (Pipeline.ucRefs τ sig) (Xe10 m c) ∗ R c)
  post c := iprop(StableHlo.held (c : Thread nD τ) (Pipeline.ucRefs τ sig) (Xx10 m c) ∗ R c)
  X c := iprop(∃ r, prngReg c r)
  Y c := iprop(∃ r, prngReg c r)
  Z c := Pipeline.unscopedRest (Ix := Unit) (Name := ℕ) (U := UR sig nD τ) (Lvl := ℕ) spec10 c (Vr10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vr10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vr10 m c) (Vxr10 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at Xe11, left at Xx11. -/
def reg11 : RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vr11 m) c).loose
  hwaits := Pipeline.hwaits_of_owed_zero _ _ _ _ L lv 11 fun _ _ => rfl
  pre c := iprop(StableHlo.held (c : Thread nD τ) (Pipeline.ucRefs τ sig) (Xe11 m c) ∗ R c)
  post c := iprop(StableHlo.held (c : Thread nD τ) (Pipeline.ucRefs τ sig) (Xx11 m c) ∗ R c)
  X c := iprop(∃ r, prngReg c r)
  Y c := iprop(∃ r, prngReg c r)
  Z c := Pipeline.unscopedRest (Ix := Unit) (Name := ℕ) (U := UR sig nD τ) (Lvl := ℕ) spec11 c (Vr11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vr11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vr11 m c) (Vxr11 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: entered from every unscoped buffer at Xe12, left at Xx12. -/
def reg12 : RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vr12 m) c).loose
  hwaits := Pipeline.hwaits_of_owed_zero _ _ _ _ L lv 12 fun _ _ => rfl
  pre c := iprop(StableHlo.held (c : Thread nD τ) (Pipeline.ucRefs τ sig) (Xe12 m c) ∗ R c)
  post c := iprop(StableHlo.held (c : Thread nD τ) (Pipeline.ucRefs τ sig) (Xx12 m c) ∗ R c)
  X c := iprop(∃ r, prngReg c r)
  Y c := iprop(∃ r, prngReg c r)
  Z c := Pipeline.unscopedRest (Ix := Unit) (Name := ℕ) (U := UR sig nD τ) (Lvl := ℕ) spec12 c (Vr12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vr12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vr12 m c) (Vxr12 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13 over the thread state: entered from every unscoped buffer at Xe13, left at Xx13. -/
def reg13 : RegionSeg (pcfgs (F := F)) adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vr13 m) c).loose
  hwaits := Pipeline.hwaits_of_owed_zero _ _ _ _ L lv 13 fun _ _ => rfl
  pre c := iprop(StableHlo.held (c : Thread nD τ) (Pipeline.ucRefs τ sig) (Xe13 m c) ∗ R c)
  post c := iprop(StableHlo.held (c : Thread nD τ) (Pipeline.ucRefs τ sig) (Xx13 m c) ∗ R c)
  X c := iprop(∃ r, prngReg c r)
  Y c := iprop(∃ r, prngReg c r)
  Z c := Pipeline.unscopedRest (Ix := Unit) (Name := ℕ) (U := UR sig nD τ) (Lvl := ℕ) spec13 c (Vr13 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vr13 m c) (Vxr13 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14 over the thread state: entered from every unscoped buffer at Xe14, left at Xx14. -/
def reg14 : RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vr14 m) c).loose
  hwaits := Pipeline.hwaits_of_owed_zero _ _ _ _ L lv 14 fun _ _ => rfl
  pre c := iprop(StableHlo.held (c : Thread nD τ) (Pipeline.ucRefs τ sig) (Xe14 m c) ∗ R c)
  post c := iprop(StableHlo.held (c : Thread nD τ) (Pipeline.ucRefs τ sig) (Xx14 m c) ∗ R c)
  X c := iprop(∃ r, prngReg c r)
  Y c := iprop(∃ r, prngReg c r)
  Z c := Pipeline.unscopedRest (Ix := Unit) (Name := ℕ) (U := UR sig nD τ) (Lvl := ℕ) spec14 c (Vr14 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (Vr14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (Vr14 m c) (Vxr14 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Each region is entered from the generated boundary state before it and left at the one after it -/

theorem hpre0 (c : Dev nD) : (iprop(StableHlo.held (c : Thread nD τ) (Pipeline.ucRefs τ sig) (V3 m c) ∗ E 0 c) : sProp 𝕄) ⊢ (reg0 m).pre c := by
  rw [Ve0_eq]; exact BI.Entails.refl _
theorem hpost0 (c : Dev nD) : (reg0 m).post c ⊢ (iprop(StableHlo.held (c : Thread nD τ) (Pipeline.ucRefs τ sig) (V4 m (outs m) c) ∗ E 1 c) : sProp 𝕄) := by
  rw [Vx0_eq]; exact BI.Entails.refl _

theorem hpre1 (c : Dev nD) : (iprop(StableHlo.held (c : Thread nD τ) (Pipeline.ucRefs τ sig) (V5 m (outs m) c) ∗ E 1 c) : sProp 𝕄) ⊢ (reg1 m).pre c := by
  rw [Ve1_eq]; exact BI.Entails.refl _
theorem hpost1 (c : Dev nD) : (reg1 m).post c ⊢ (iprop(StableHlo.held (c : Thread nD τ) (Pipeline.ucRefs τ sig) (V6 m (outs m) c) ∗ E 2 c) : sProp 𝕄) := by
  rw [Vx1_eq]; exact BI.Entails.refl _

theorem hpre2 (c : Dev nD) : (iprop(StableHlo.held (c : Thread nD τ) (Pipeline.ucRefs τ sig) (V7 m (outs m) c) ∗ E 2 c) : sProp 𝕄) ⊢ (reg2 m).pre c := by
  rw [Ve2_eq]; exact BI.Entails.refl _
theorem hpost2 (c : Dev nD) : (reg2 m).post c ⊢ (iprop(StableHlo.held (c : Thread nD τ) (Pipeline.ucRefs τ sig) (V8 m (outs m) c) ∗ E 3 c) : sProp 𝕄) := by
  rw [Vx2_eq]; exact BI.Entails.refl _

theorem hpre3 (c : Dev nD) : (iprop(StableHlo.held (c : Thread nD τ) (Pipeline.ucRefs τ sig) (V9 m (outs m) c) ∗ E 3 c) : sProp 𝕄) ⊢ (reg3 m).pre c := by
  rw [Ve3_eq]; exact BI.Entails.refl _
theorem hpost3 (c : Dev nD) : (reg3 m).post c ⊢ (iprop(StableHlo.held (c : Thread nD τ) (Pipeline.ucRefs τ sig) (V10 m (outs m) c) ∗ E 4 c) : sProp 𝕄) := by
  rw [Vx3_eq]; exact BI.Entails.refl _

theorem hpre4 (c : Dev nD) : (iprop(StableHlo.held (c : Thread nD τ) (Pipeline.ucRefs τ sig) (V11 m (outs m) c) ∗ E 4 c) : sProp 𝕄) ⊢ (reg4 m).pre c := by
  rw [Ve4_eq]; exact BI.Entails.refl _
theorem hpost4 (c : Dev nD) : (reg4 m).post c ⊢ (iprop(StableHlo.held (c : Thread nD τ) (Pipeline.ucRefs τ sig) (V12 m (outs m) c) ∗ E 5 c) : sProp 𝕄) := by
  rw [Vx4_eq]; exact BI.Entails.refl _

theorem hpre5 (c : Dev nD) : (iprop(StableHlo.held (c : Thread nD τ) (Pipeline.ucRefs τ sig) (V13 m (outs m) c) ∗ E 5 c) : sProp 𝕄) ⊢ (reg5 m).pre c := by
  rw [Ve5_eq]; exact BI.Entails.refl _
theorem hpost5 (c : Dev nD) : (reg5 m).post c ⊢ (iprop(StableHlo.held (c : Thread nD τ) (Pipeline.ucRefs τ sig) (V14 m (outs m) c) ∗ E 6 c) : sProp 𝕄) := by
  rw [Vx5_eq]; exact BI.Entails.refl _

theorem hpre6 (c : Dev nD) : (iprop(StableHlo.held (c : Thread nD τ) (Pipeline.ucRefs τ sig) (V15 m (outs m) c) ∗ E 6 c) : sProp 𝕄) ⊢ (reg6 m).pre c := by
  rw [Ve6_eq]; exact BI.Entails.refl _
theorem hpost6 (c : Dev nD) : (reg6 m).post c ⊢ (iprop(StableHlo.held (c : Thread nD τ) (Pipeline.ucRefs τ sig) (V16 m (outs m) c) ∗ E 7 c) : sProp 𝕄) := by
  rw [Vx6_eq]; exact BI.Entails.refl _

theorem hpre7 (c : Dev nD) : (iprop(StableHlo.held (c : Thread nD τ) (Pipeline.ucRefs τ sig) (V19 m (outs m) c) ∗ E 7 c) : sProp 𝕄) ⊢ (reg7 m).pre c := by
  rw [Ve7_eq]; exact BI.Entails.refl _
theorem hpost7 (c : Dev nD) : (reg7 m).post c ⊢ (iprop(StableHlo.held (c : Thread nD τ) (Pipeline.ucRefs τ sig) (V20 m (outs m) c) ∗ E 8 c) : sProp 𝕄) := by
  rw [Vx7_eq]; exact BI.Entails.refl _

theorem hpre8 (c : Dev nD) : (iprop(StableHlo.held (c : Thread nD τ) (Pipeline.ucRefs τ sig) (V21 m (outs m) c) ∗ E 8 c) : sProp 𝕄) ⊢ (reg8 m).pre c := by
  rw [Ve8_eq]; exact BI.Entails.refl _
theorem hpost8 (c : Dev nD) : (reg8 m).post c ⊢ (iprop(StableHlo.held (c : Thread nD τ) (Pipeline.ucRefs τ sig) (V22 m (outs m) c) ∗ E 9 c) : sProp 𝕄) := by
  rw [Vx8_eq]; exact BI.Entails.refl _

theorem hpre9 (c : Dev nD) : (iprop(StableHlo.held (c : Thread nD τ) (Pipeline.ucRefs τ sig) (V23 m (outs m) c) ∗ E 9 c) : sProp 𝕄) ⊢ (reg9 m).pre c := by
  rw [Ve9_eq]; exact BI.Entails.refl _
theorem hpost9 (c : Dev nD) : (reg9 m).post c ⊢ (iprop(StableHlo.held (c : Thread nD τ) (Pipeline.ucRefs τ sig) (V24 m (outs m) c) ∗ E 10 c) : sProp 𝕄) := by
  rw [Vx9_eq]; exact BI.Entails.refl _

theorem hpre10 (c : Dev nD) : (iprop(StableHlo.held (c : Thread nD τ) (Pipeline.ucRefs τ sig) (V25 m (outs m) c) ∗ E 10 c) : sProp 𝕄) ⊢ (reg10 m).pre c := by
  rw [Ve10_eq]; exact BI.Entails.refl _
theorem hpost10 (c : Dev nD) : (reg10 m).post c ⊢ (iprop(StableHlo.held (c : Thread nD τ) (Pipeline.ucRefs τ sig) (V26 m (outs m) c) ∗ E 11 c) : sProp 𝕄) := by
  rw [Vx10_eq]; exact BI.Entails.refl _

theorem hpre11 (c : Dev nD) : (iprop(StableHlo.held (c : Thread nD τ) (Pipeline.ucRefs τ sig) (V27 m (outs m) c) ∗ E 11 c) : sProp 𝕄) ⊢ (reg11 m).pre c := by
  rw [Ve11_eq]; exact BI.Entails.refl _
theorem hpost11 (c : Dev nD) : (reg11 m).post c ⊢ (iprop(StableHlo.held (c : Thread nD τ) (Pipeline.ucRefs τ sig) (V28 m (outs m) c) ∗ E 12 c) : sProp 𝕄) := by
  rw [Vx11_eq]; exact BI.Entails.refl _

theorem hpre12 (c : Dev nD) : (iprop(StableHlo.held (c : Thread nD τ) (Pipeline.ucRefs τ sig) (V29 m (outs m) c) ∗ E 12 c) : sProp 𝕄) ⊢ (reg12 m).pre c := by
  rw [Ve12_eq]; exact BI.Entails.refl _
theorem hpost12 (c : Dev nD) : (reg12 m).post c ⊢ (iprop(StableHlo.held (c : Thread nD τ) (Pipeline.ucRefs τ sig) (V30 m (outs m) c) ∗ E 13 c) : sProp 𝕄) := by
  rw [Vx12_eq]; exact BI.Entails.refl _

theorem hpre13 (c : Dev nD) : (iprop(StableHlo.held (c : Thread nD τ) (Pipeline.ucRefs τ sig) (V31 m (outs m) c) ∗ E 13 c) : sProp 𝕄) ⊢ (reg13 m).pre c := by
  rw [Ve13_eq]; exact BI.Entails.refl _
theorem hpost13 (c : Dev nD) : (reg13 m).post c ⊢ (iprop(StableHlo.held (c : Thread nD τ) (Pipeline.ucRefs τ sig) (V32 m (outs m) c) ∗ E 14 c) : sProp 𝕄) := by
  rw [Vx13_eq]; exact BI.Entails.refl _

theorem hpre14 (c : Dev nD) : (iprop(StableHlo.held (c : Thread nD τ) (Pipeline.ucRefs τ sig) (V33 m (outs m) c) ∗ E 14 c) : sProp 𝕄) ⊢ (reg14 m).pre c := by
  rw [Ve14_eq]; exact BI.Entails.refl _
theorem hpost14 (c : Dev nD) : (reg14 m).post c ⊢ (iprop(StableHlo.held (c : Thread nD τ) (Pipeline.ucRefs τ sig) (V34 m (outs m) c) ∗ E 15 c) : sProp 𝕄) := by
  rw [Vx14_eq]; exact BI.Entails.refl _

/-! ## @main as segments, and the launch -/

set_option maxHeartbeats 40000000 in
set_option backward.isDefEq.respectTransparency.types false in
/-- From any memory with zero counters every weakly fair execution of @main terminates, nothing faulting, and in every
    final memory each unscoped buffer holds the last boundary's contents: the launch over the segments, the last
    thread state read against the final state. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V35 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m) (reg14 m))
    (fun c Q => by
      rewrite [main_chain c, Seg.run_eq_chain,
        show (segs m (outs m) 𝒱₀ L lv E () (pdats m) (reg0 m) (reg1 m) (reg2 m) (reg3 m) (reg4 m) (reg5 m) (reg6 m) (reg7 m) (reg8 m) (reg9 m) (reg10 m) (reg11 m) (reg12 m) (reg13 m) (reg14 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V35 m (outs m) c))
    (hch := fun c => ⟨.rfl, .rfl, .rfl, hpre0 m c, hpost0 m c, hpre1 m c, hpost1 m c, hpre2 m c, hpost2 m c, hpre3 m c, hpost3 m c, hpre4 m c, hpost4 m c, hpre5 m c, hpost5 m c, hpre6 m c, hpost6 m c, .rfl, .rfl, hpre7 m c, hpost7 m c, hpre8 m c, hpost8 m c, hpre9 m c, hpost9 m c, hpre10 m c, hpost10 m c, hpre11 m c, hpost11 m c, hpre12 m c, hpost12 m c, hpre13 m c, hpost13 m c, hpre14 m c, hpost14 m c, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V35 m (outs m) c b)
    (hfin := fun c s' => by
      iintro ⟨Hh, HSI⟩
      unfold StableHlo.held
      imodintro
      iapply (pointsTo_read_all (Pipeline.ucRefs τ sig) (fun b => (((c : Thread nD τ)).1, b)) (V35 m (outs m) c) s')
      isplitl [Hh] <;> iassumption)
    (hQ := fun _ h => h)

end Cert.KernelIdeal.Hand

end
-- ==== Proof.Ideal.Frame.lean ====
import proofs.«106349_j21990232555677_1_alg».proof.Proof.Ideal.Run

/-!
# The frame

Every argument array ends as launched: after the last item each argument's buffer holds the last boundary's contents,
and no host stretch writes an argument and no region may change one, so those contents are the launch memory's.
-/

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem

variable {F : FTy → Type} [FloatOps F] (m : (ℓ : Loc nD τ sig) → Buf (Elt F) ℓ)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxHeartbeats 4000000 in
/-- From any memory with zero counters every weakly fair execution of @main terminates, nothing faulting, and every
    final memory has the argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)) :=
  (θ_run defs _ _).mono (fun r h c => ⟨(h c (Proc.devRef .tc main_arg0) (mem_uc main_arg0 (by decide))).trans (V35_main_arg0 m (outs m) c),
    (h c (Proc.devRef .tc main_arg1) (mem_uc main_arg1 (by decide))).trans (V35_main_arg1 m (outs m) c),
    (h c (Proc.devRef .tc main_arg2) (mem_uc main_arg2 (by decide))).trans (V35_main_arg2 m (outs m) c),
    (h c (Proc.devRef .tc main_arg3) (mem_uc main_arg3 (by decide))).trans (V35_main_arg3 m (outs m) c),
    (h c (Proc.devRef .tc main_arg4) (mem_uc main_arg4 (by decide))).trans (V35_main_arg4 m (outs m) c),
    (h c (Proc.devRef .tc main_arg5) (mem_uc main_arg5 (by decide))).trans (V35_main_arg5 m (outs m) c),
    (h c (Proc.devRef .tc main_arg6) (mem_uc main_arg6 (by decide))).trans (V35_main_arg6 m (outs m) c),
    (h c (Proc.devRef .tc main_arg7) (mem_uc main_arg7 (by decide))).trans (V35_main_arg7 m (outs m) c),
    (h c (Proc.devRef .tc main_arg8) (mem_uc main_arg8 (by decide))).trans (V35_main_arg8 m (outs m) c),
    (h c (Proc.devRef .tc main_arg9) (mem_uc main_arg9 (by decide))).trans (V35_main_arg9 m (outs m) c),
    (h c (Proc.devRef .tc main_arg10) (mem_uc main_arg10 (by decide))).trans (V35_main_arg10 m (outs m) c),
    (h c (Proc.devRef .tc main_arg11) (mem_uc main_arg11 (by decide))).trans (V35_main_arg11 m (outs m) c),
    (h c (Proc.devRef .tc main_arg12) (mem_uc main_arg12 (by decide))).trans (V35_main_arg12 m (outs m) c),
    (h c (Proc.devRef .tc main_arg13) (mem_uc main_arg13 (by decide))).trans (V35_main_arg13 m (outs m) c),
    (h c (Proc.devRef .tc main_arg14) (mem_uc main_arg14 (by decide))).trans (V35_main_arg14 m (outs m) c),
    (h c (Proc.devRef .tc main_arg15) (mem_uc main_arg15 (by decide))).trans (V35_main_arg15 m (outs m) c),
    (h c (Proc.devRef .tc main_arg16) (mem_uc main_arg16 (by decide))).trans (V35_main_arg16 m (outs m) c),
    (h c (Proc.devRef .tc main_arg17) (mem_uc main_arg17 (by decide))).trans (V35_main_arg17 m (outs m) c),
    (h c (Proc.devRef .tc main_arg18) (mem_uc main_arg18 (by decide))).trans (V35_main_arg18 m (outs m) c),
    (h c (Proc.devRef .tc main_arg19) (mem_uc main_arg19 (by decide))).trans (V35_main_arg19 m (outs m) c),
    (h c (Proc.devRef .tc main_arg20) (mem_uc main_arg20 (by decide))).trans (V35_main_arg20 m (outs m) c),
    (h c (Proc.devRef .tc main_arg21) (mem_uc main_arg21 (by decide))).trans (V35_main_arg21 m (outs m) c),
    (h c (Proc.devRef .tc main_arg22) (mem_uc main_arg22 (by decide))).trans (V35_main_arg22 m (outs m) c),
    (h c (Proc.devRef .tc main_arg23) (mem_uc main_arg23 (by decide))).trans (V35_main_arg23 m (outs m) c),
    (h c (Proc.devRef .tc main_arg24) (mem_uc main_arg24 (by decide))).trans (V35_main_arg24 m (outs m) c),
    (h c (Proc.devRef .tc main_arg25) (mem_uc main_arg25 (by decide))).trans (V35_main_arg25 m (outs m) c),
    (h c (Proc.devRef .tc main_arg26) (mem_uc main_arg26 (by decide))).trans (V35_main_arg26 m (outs m) c),
    (h c (Proc.devRef .tc main_arg27) (mem_uc main_arg27 (by decide))).trans (V35_main_arg27 m (outs m) c),
    (h c (Proc.devRef .tc main_arg28) (mem_uc main_arg28 (by decide))).trans (V35_main_arg28 m (outs m) c),
    (h c (Proc.devRef .tc main_arg29) (mem_uc main_arg29 (by decide))).trans (V35_main_arg29 m (outs m) c),
    (h c (Proc.devRef .tc main_arg30) (mem_uc main_arg30 (by decide))).trans (V35_main_arg30 m (outs m) c),
    (h c (Proc.devRef .tc main_arg31) (mem_uc main_arg31 (by decide))).trans (V35_main_arg31 m (outs m) c),
    (h c (Proc.devRef .tc main_arg32) (mem_uc main_arg32 (by decide))).trans (V35_main_arg32 m (outs m) c),
    (h c (Proc.devRef .tc main_arg33) (mem_uc main_arg33 (by decide))).trans (V35_main_arg33 m (outs m) c),
    (h c (Proc.devRef .tc main_arg34) (mem_uc main_arg34 (by decide))).trans (V35_main_arg34 m (outs m) c),
    (h c (Proc.devRef .tc main_arg35) (mem_uc main_arg35 (by decide))).trans (V35_main_arg35 m (outs m) c),
    (h c (Proc.devRef .tc main_arg36) (mem_uc main_arg36 (by decide))).trans (V35_main_arg36 m (outs m) c),
    (h c (Proc.devRef .tc main_arg37) (mem_uc main_arg37 (by decide))).trans (V35_main_arg37 m (outs m) c),
    (h c (Proc.devRef .tc main_arg38) (mem_uc main_arg38 (by decide))).trans (V35_main_arg38 m (outs m) c),
    (h c (Proc.devRef .tc main_arg39) (mem_uc main_arg39 (by decide))).trans (V35_main_arg39 m (outs m) c),
    (h c (Proc.devRef .tc main_arg40) (mem_uc main_arg40 (by decide))).trans (V35_main_arg40 m (outs m) c)⟩) (run_all m ρ)

end Cert.KernelIdeal.Hand

end
-- ==== Proof.Ideal.HostForms.lean ====
import proofs.«106349_j21990232555677_1_alg».proof.Proof.Gen.ReferenceIdeal
import Idealize.ShloMosaic.PureOps.Ideal

/-!
# The layers of the network in the host program's spelling

Each function below is one layer of the graph network written with the host program's own operations and dimension
records, over the extended reals: a two-layer perceptron `relu (x · W1 + b1) · W2 + b2`, the message
`relu (a + e)`, the node update `relu (mlp (x + agg))` and the edge projection `e · W + b`. A bias enters as a
`[1, h]` row and is repeated down the rows. The host program's result is a composition of these functions with its
gathers, scatters and the mean pool; a kernel region's result is shown equal to the matching function of the arrays
the region is entered with.
-/

noncomputable section

namespace Cert.HostForms

open Idealize.ShloMosaic Idealize.ShloMosaic.TcCoe Cert.ReferenceIdeal Cert.ReferenceIdeal.Gen

/-- The node-name encoder: `relu (x · W1 + b1) · W2 + b2` on the `[100000, 1]` column of normalised names. -/
def mlp2Node (x : FVec Ideal S100000x1 .f32) (W1 : FVec Ideal S1x32 .f32) (b1 : FVec Ideal S1x32 .f32)
    (W2 : FVec Ideal S32x32 .f32) (b2 : FVec Ideal S1x32 .f32) : FVec Ideal S100000x32 .f32 :=
  addf (Host.dotGeneral (F := Ideal) dot_S100000x32_S32x32_S100000x32_1_0_0_1_n_n none (maximumf (addf (Host.dotGeneral (F := Ideal) dot_S100000x1_S1x32_S100000x32_1_0_0_1_n_n none x W1) (broadcastInDim S100000x32 ![0, 1] bcast_S1x32_S100000x32_0_1 b1)) (broadcastInDim S100000x32 ![] bcast_S_S100000x32 (constant (F := Ideal) S_ .f32 0x00000000#32))) W2) (broadcastInDim S100000x32 ![0, 1] bcast_S1x32_S100000x32_0_1 b2)

/-- The edge-attribute encoder: `relu (x · W1 + b1) · W2 + b2` on the `[1600000, 1]` edge attributes. -/
def mlp2Edge (x : FVec Ideal S1600000x1 .f32) (W1 : FVec Ideal S1x32 .f32) (b1 : FVec Ideal S1x32 .f32)
    (W2 : FVec Ideal S32x32 .f32) (b2 : FVec Ideal S1x32 .f32) : FVec Ideal S1600000x32 .f32 :=
  addf (Host.dotGeneral (F := Ideal) dot_S1600000x32_S32x32_S1600000x32_1_0_0_1_n_n none (maximumf (addf (Host.dotGeneral (F := Ideal) dot_S1600000x1_S1x32_S1600000x32_1_0_0_1_n_n none x W1) (broadcastInDim S1600000x32 ![0, 1] bcast_S1x32_S1600000x32_0_1 b1)) (broadcastInDim S1600000x32 ![] bcast_S_S1600000x32 (constant (F := Ideal) S_ .f32 0x00000000#32))) W2) (broadcastInDim S1600000x32 ![0, 1] bcast_S1x32_S1600000x32_0_1 b2)

/-- The regressor: `relu (z · W1 + b1) · W2 + b2` on the `[512, 129]` pooled features. -/
def mlp2Head (x : FVec Ideal S512x129 .f32) (W1 : FVec Ideal S129x64 .f32) (b1 : FVec Ideal S1x64 .f32)
    (W2 : FVec Ideal S64x1 .f32) (b2 : FVec Ideal S1x1 .f32) : FVec Ideal S512x1 .f32 :=
  addf (Host.dotGeneral (F := Ideal) dot_S512x64_S64x1_S512x1_1_0_0_1_n_n none (maximumf (addf (Host.dotGeneral (F := Ideal) dot_S512x129_S129x64_S512x64_1_0_0_1_n_n none x W1) (broadcastInDim S512x64 ![0, 1] bcast_S1x64_S512x64_0_1 b1)) (broadcastInDim S512x64 ![] bcast_S_S512x64 (constant (F := Ideal) S_ .f32 0x00000000#32))) W2) (broadcastInDim S512x1 ![0, 1] bcast_S1x1_S512x1_0_1 b2)

/-- The message of the first convolution: `relu (a + e)` on `[1600000, 32]`. -/
def reluAdd32 (a e : FVec Ideal S1600000x32 .f32) : FVec Ideal S1600000x32 .f32 :=
  maximumf (addf a e) (broadcastInDim S1600000x32 ![] bcast_S_S1600000x32 (constant (F := Ideal) S_ .f32 0x00000000#32))

/-- The message of the second convolution: `relu (a + e)` on `[1600000, 64]`. -/
def reluAdd64 (a e : FVec Ideal S1600000x64 .f32) : FVec Ideal S1600000x64 .f32 :=
  maximumf (addf a e) (broadcastInDim S1600000x64 ![] bcast_S_S1600000x64 (constant (F := Ideal) S_ .f32 0x00000000#32))

/-- The first convolution's node update: `relu (relu ((x + agg) · W1 + b1) · W2 + b2)`, 32 features in, 64 out. -/
def nodeUpdate32 (x agg : FVec Ideal S100000x32 .f32) (W1 : FVec Ideal S32x64 .f32) (b1 : FVec Ideal S1x64 .f32)
    (W2 : FVec Ideal S64x64 .f32) (b2 : FVec Ideal S1x64 .f32) : FVec Ideal S100000x64 .f32 :=
  maximumf (addf (Host.dotGeneral (F := Ideal) dot_S100000x64_S64x64_S100000x64_1_0_0_1_n_n none (maximumf (addf (Host.dotGeneral (F := Ideal) dot_S100000x32_S32x64_S100000x64_1_0_0_1_n_n none (addf x agg) W1) (broadcastInDim S100000x64 ![0, 1] bcast_S1x64_S100000x64_0_1 b1)) (broadcastInDim S100000x64 ![] bcast_S_S100000x64 (constant (F := Ideal) S_ .f32 0x00000000#32))) W2) (broadcastInDim S100000x64 ![0, 1] bcast_S1x64_S100000x64_0_1 b2)) (broadcastInDim S100000x64 ![] bcast_S_S100000x64 (constant (F := Ideal) S_ .f32 0x00000000#32))

/-- The second convolution's node update: `relu (relu ((x + agg) · W1 + b1) · W2 + b2)`, 64 features in and out. -/
def nodeUpdate64 (x agg : FVec Ideal S100000x64 .f32) (W1 : FVec Ideal S64x64 .f32) (b1 : FVec Ideal S1x64 .f32)
    (W2 : FVec Ideal S64x64 .f32) (b2 : FVec Ideal S1x64 .f32) : FVec Ideal S100000x64 .f32 :=
  maximumf (addf (Host.dotGeneral (F := Ideal) dot_S100000x64_S64x64_S100000x64_1_0_0_1_n_n none (maximumf (addf (Host.dotGeneral (F := Ideal) dot_S100000x64_S64x64_S100000x64_1_0_0_1_n_n none (addf x agg) W1) (broadcastInDim S100000x64 ![0, 1] bcast_S1x64_S100000x64_0_1 b1)) (broadcastInDim S100000x64 ![] bcast_S_S100000x64 (constant (F := Ideal) S_ .f32 0x00000000#32))) W2) (broadcastInDim S100000x64 ![0, 1] bcast_S1x64_S100000x64_0_1 b2)) (broadcastInDim S100000x64 ![] bcast_S_S100000x64 (constant (F := Ideal) S_ .f32 0x00000000#32))

/-- The edge projection of the second convolution: `e · W + b`, 32 features to 64. -/
def edgeLin (e : FVec Ideal S1600000x32 .f32) (W : FVec Ideal S32x64 .f32) (b : FVec Ideal S1x64 .f32) : FVec Ideal S1600000x64 .f32 :=
  addf (Host.dotGeneral (F := Ideal) dot_S1600000x32_S32x64_S1600000x64_1_0_0_1_n_n none e W) (broadcastInDim S1600000x64 ![0, 1] bcast_S1x64_S1600000x64_0_1 b)

end Cert.HostForms

end
-- ==== Proof.Ideal.RefTerms.lean ====
import proofs.«106349_j21990232555677_1_alg».proof.Proof.Ideal.HostForms

/-!
# The host program's result, stage by stage

The network's stages as functions of the argument arrays, in the host program's spelling: the names normalised and
clipped into a column, a bias as a row, the source and target index columns of the edge list (a negative source index
wrapped once by the node count before the gather), one graph's encoding (two convolutions and the mean pool) and the
regressor on the two encodings beside the depth column. The host program's composed result term is `output` of its
arguments.
-/

noncomputable section

namespace Cert.HostForms

open Idealize.ShloMosaic Idealize.ShloMosaic.TcCoe Cert.ReferenceIdeal Cert.ReferenceIdeal.Gen

/-- The node names as floats, `clip ((n + 2) / (2^48 - 1), 0, 1)`, as a `[100000, 1]` column. -/
def normCol (names : (⟨S100000, .i32⟩ : BufTy).Contents (Elt Ideal)) : FVec Ideal S100000x1 .f32 :=
  broadcastInDim S100000x1 ![0] bcast_S100000_S100000x1_0 (minimumf (broadcastInDim S100000 ![] bcast_S_S100000 (id (constant (F := Ideal) S_ .f32 0x3F800000#32))) (maximumf (broadcastInDim S100000 ![] bcast_S_S100000 (id (constant (F := Ideal) S_ .f32 0x00000000#32))) (Host.divf (F := Ideal) (addf (sitofp .f32 names) (broadcastInDim S100000 ![] bcast_S_S100000 (constant (F := Ideal) S_ .f32 0x40000000#32))) (broadcastInDim S100000 ![] bcast_S_S100000 (constant (F := Ideal) S_ .f32 0x57800000#32)))))

/-- A bias of 32 entries as a `[1, 32]` row. -/
def row32 (b : FVec Ideal S32 .f32) : FVec Ideal S1x32 .f32 := broadcastInDim S1x32 ![1] bcast_S32_S1x32_1 b
/-- A bias of 64 entries as a `[1, 64]` row. -/
def row64 (b : FVec Ideal S64 .f32) : FVec Ideal S1x64 .f32 := broadcastInDim S1x64 ![1] bcast_S64_S1x64_1 b
/-- A bias of one entry as a `[1, 1]` row. -/
def row1 (b : FVec Ideal S1 .f32) : FVec Ideal S1x1 .f32 := broadcastInDim S1x1 ![1] bcast_S1_S1x1_1 b

/-- Row 0 of the edge list, the source nodes. -/
def srcVec (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
/-- The source nodes as gather indices: a negative index wrapped once by the node count, as a column. -/
def srcIdx (ei : (⟨S2x1600000, .i32⟩ : BufTy).Contents (Elt Ideal)) : (⟨S1600000x1, .i32⟩ : BufTy).Contents (Elt Ideal) :=
  broadcastInDim S1600000x1 ![0] bcast_S1600000_S1600000x1_0 (select (cmpi .slt (srcVec ei) (broadcastInDim S1600000 ![] bcast_S_S1600000 (constantI S_ 32 0#32))) (addi (srcVec ei) (broadcastInDim S1600000 ![] bcast_S_S1600000 (constantI S_ 32 100000#32))) (srcVec ei))
/-- Row 1 of the edge list, the target nodes, as a column of scatter indices. -/
def dstIdx (ei : (⟨S2x1600000, .i32⟩ : BufTy).Contents (Elt Ideal)) : (⟨S1600000x1, .i32⟩ : BufTy).Contents (Elt Ideal) :=
  broadcastInDim S1600000x1 ![0] bcast_S1600000_S1600000x1_0 (shapeCast _ (extractStridedSlice S1x1600000 ![1, 0] ei slices_S2x1600000_S1x1600000_1_0) shapeCasts_S1x1600000_S1600000)

/-- Row 1 of the edge list, the target nodes. -/
def dstVec (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000
/-- A vector of node indices as a column of gather indices, a negative index wrapped once by the node count. -/
def wrapIdx (v : (⟨S1600000, .i32⟩ : BufTy).Contents (Elt Ideal)) : (⟨S1600000x1, .i32⟩ : BufTy).Contents (Elt Ideal) :=
  broadcastInDim S1600000x1 ![0] bcast_S1600000_S1600000x1_0 (select (cmpi .slt v (broadcastInDim S1600000 ![] bcast_S_S1600000 (constantI S_ 32 0#32))) (addi v (broadcastInDim S1600000 ![] bcast_S_S1600000 (constantI S_ 32 100000#32))) v)
/-- A vector of node indices as a column of scatter indices. -/
def idxCol (v : (⟨S1600000, .i32⟩ : BufTy).Contents (Elt Ideal)) : (⟨S1600000x1, .i32⟩ : BufTy).Contents (Elt Ideal) :=
  broadcastInDim S1600000x1 ![0] bcast_S1600000_S1600000x1_0 v
/-- The source index column is the wrapped source vector, and the target index column the target vector's column. -/
theorem srcIdx_eq (ei : (⟨S2x1600000, .i32⟩ : BufTy).Contents (Elt Ideal)) : srcIdx ei = wrapIdx (srcVec ei) := rfl
theorem dstIdx_eq (ei : (⟨S2x1600000, .i32⟩ : BufTy).Contents (Elt Ideal)) : dstIdx ei = idxCol (dstVec ei) := rfl

/-- The first convolution: messages `relu (x[src] + e)` summed into their targets, then the node update. -/
def conv1 (x : FVec Ideal S100000x32 .f32) (e : FVec Ideal S1600000x32 .f32) (ei : (⟨S2x1600000, .i32⟩ : BufTy).Contents (Elt Ideal))
    (W1 : FVec Ideal S32x64 .f32) (b1 : FVec Ideal S64 .f32) (W2 : FVec Ideal S64x64 .f32) (b2 : FVec Ideal S64 .f32) : FVec Ideal S100000x64 .f32 :=
  nodeUpdate32 x (Host.scatterAdd (F := Ideal) scatter_S100000x32_S1600000x1_S1600000x32_1_0_0_1 (broadcastInDim S100000x32 ![] bcast_S_S100000x32 (constant (F := Ideal) S_ .f32 0x00000000#32)) (dstIdx ei) (reluAdd32 (Host.gather gather_S100000x32_S1600000x1_S1600000x32_1_0_n_n_0_1_132 x (srcIdx ei)) e)) W1 (row64 b1) W2 (row64 b2)

/-- The second convolution, on 64 features, its edge features projected first. -/
def conv2 (x : FVec Ideal S100000x64 .f32) (e : FVec Ideal S1600000x32 .f32) (ei : (⟨S2x1600000, .i32⟩ : BufTy).Contents (Elt Ideal))
    (linW : FVec Ideal S32x64 .f32) (linb : FVec Ideal S64 .f32)
    (W1 : FVec Ideal S64x64 .f32) (b1 : FVec Ideal S64 .f32) (W2 : FVec Ideal S64x64 .f32) (b2 : FVec Ideal S64 .f32) : FVec Ideal S100000x64 .f32 :=
  nodeUpdate64 x (Host.scatterAdd (F := Ideal) scatter_S100000x64_S1600000x1_S1600000x64_1_0_0_1 (broadcastInDim S100000x64 ![] bcast_S_S100000x64 (constant (F := Ideal) S_ .f32 0x00000000#32)) (dstIdx ei) (reluAdd64 (Host.gather gather_S100000x64_S1600000x1_S1600000x64_1_0_n_n_0_1_164 x (srcIdx ei)) (edgeLin e linW (row64 linb)))) W1 (row64 b1) W2 (row64 b2)

/-- The mean pool: per graph, the sum of its nodes' features over `max (count, 1)`. -/
def meanPool (x : FVec Ideal S100000x64 .f32) (batch : (⟨S100000, .i32⟩ : BufTy).Contents (Elt Ideal)) : FVec Ideal S512x64 .f32 :=
  Host.divf (F := Ideal) (Host.scatterAdd (F := Ideal) scatter_S512x64_S100000x1_S100000x64_1_0_0_1 (broadcastInDim S512x64 ![] bcast_S_S512x64 (constant (F := Ideal) S_ .f32 0x00000000#32)) (broadcastInDim S100000x1 ![0] bcast_S100000_S100000x1_0 batch) x) (broadcastInDim S512x64 ![0, 1] bcast_S512x1_S512x64_0_1 (broadcastInDim S512x1 ![0] bcast_S512_S512x1_0 (maximumf (Host.scatterAdd (F := Ideal) scatter_S512_S100000x1_S100000_n_0_0_1 (broadcastInDim S512 ![] bcast_S_S512 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S512 ![] bcast_S_S512 (constant (F := Ideal) S_ .f32 0x3F800000#32)))))

/-- The node features after the name encoder. -/
def nodeEnc (names : (⟨S100000, .i32⟩ : BufTy).Contents (Elt Ideal)) (idW1 : FVec Ideal S1x32 .f32) (idb1 : FVec Ideal S32 .f32) (idW2 : FVec Ideal S32x32 .f32) (idb2 : FVec Ideal S32 .f32) : FVec Ideal S100000x32 .f32 :=
  mlp2Node (normCol names) idW1 (row32 idb1) idW2 (row32 idb2)
/-- The edge features after the attribute encoder. -/
def edgeEnc (ea : FVec Ideal S1600000x1 .f32) (edW1 : FVec Ideal S1x32 .f32) (edb1 : FVec Ideal S32 .f32) (edW2 : FVec Ideal S32x32 .f32) (edb2 : FVec Ideal S32 .f32) : FVec Ideal S1600000x32 .f32 :=
  mlp2Edge ea edW1 (row32 edb1) edW2 (row32 edb2)

/-- The regressor on the two encodings beside the depth column, as a vector of 512 entries. -/
def output (s g : FVec Ideal S512x64 .f32) (depth : FVec Ideal S512 .f32) (rW1 : FVec Ideal S129x64 .f32) (rb1 : FVec Ideal S64 .f32) (rW2 : FVec Ideal S64x1 .f32) (rb2 : FVec Ideal S1 .f32) : FVec Ideal S512 .f32 :=
  shapeCast _ (mlp2Head (concatenate S512x129 1 [⟨S512x64, s⟩, ⟨S512x64, g⟩, ⟨S512x1, broadcastInDim S512x1 ![0] bcast_S512_S512x1_0 depth⟩] concatenates_S512x64_S512x64_S512x1_S512x129_d1) rW1 (row64 rb1) rW2 (row1 rb2)) shapeCasts_S512x1_S512

end Cert.HostForms

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.LibResultsInside.lean ====
/-
  Reading a line of host operations back where the one-pass reader stops.

  The library's one-pass reader of a line of host operations (`after_results_simp`) rewrites every operation's result
  at its own buffer and at every other buffer — except where a value stands INSIDE a `concatenate`'s list of pieces, and
  it leaves the transports of an outlined function's typed references in place. Closing what is left by `rfl` makes the
  unifier evaluate: the chain of `HloOp.result`s under a `concatenate`, or, with a transport (a `cast`) at the head of
  one side, the other side down to the elementwise definitions of a gather or a scatter — which does not end.

  `results_inside` is the library's result lemmas applied by `rw`, repeated: `rw` abstracts occurrences wherever they
  stand, a `concatenate`'s pieces included. The recipe that read a 117-operation line against staged definitions:

    after_results_simp; results_inside          -- the composed term over the starting contents
    dsimp only [‹the stages this stretch computes›]; first | done | rfl

  with the line CUT at each outlined function (a stretch of `TRef.…` operations), each stretch read from an arbitrary
  contents `W` under hypotheses `W (devRef b) = ‹stage›` for the buffers it reads. In such a stretch: cancel
  written-then-read pairs (`TRef.ofBuf_toBuf`), remove each remaining transport by a lemma about that buffer stated over
  a VARIABLE value and proved by `rfl` — there `rfl` can only do the one reduction of the cast —

    theorem ofBuf_b (h1 : b.ty = (⟨S, e⟩ : BufTy)) (h2 : b.space ≠ .host) (h3 : b.isScoped = false)
        (v : b.ty.Contents Val) : (TRef.of (T := ⟨S, e⟩) b h1 h2 h3).ofBuf v = v := rfl

  used by `rw`, and only then rewrite the hypotheses and unfold the stages. (`simp` or `dsimp` with `cast_eq` over the
  whole term exhausts memory.)
-/
import Idealize.ShloMosaic.Lib.StableHlo.Run

namespace Idealize.ShloMosaic.StableHlo

/-- The library's result lemmas by `rw`, repeated: they also rewrite an operation's result where it stands inside a
    `concatenate`'s list of pieces, which the one-pass form leaves alone. Does nothing where nothing is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.Ideal.StretchA.lean ====
import proofs.«106349_j21990232555677_1_alg».proof.Proof.Ideal.RegionsP
import proofs.«106349_j21990232555677_1_alg».proof.Proof.Ideal.RefTerms
import proofs.«106349_j21990232555677_1_alg».proof.Proof.LibColRow
import proofs.«106349_j21990232555677_1_alg».proof.Proof.LibTypedRef
import proofs.«106349_j21990232555677_1_alg».proof.Proof.LibResultsInside
import proofs.«106349_j21990232555677_1_alg».proof.Proof.LibAfterAppend
import Idealize.ShloMosaic.Lib.StableHlo.Run

/-!
# The host stretches with an outlined call, the mean pool, the concatenation and the last reshape, read at a buffer

From an arbitrary valuation `W` of the buffers, what a stretch of host operations leaves in one buffer, as the host
program's own term of `W` at the buffers the stretch reads: the clipped and normalised names as a column, a bias as a
row, the mean pool, the three pieces joined, the column flattened. An outlined call reads and writes its caller's
buffers through typed references whose transports are the identity at these buffers; a bias reshaped to a row is the
same array as the bias broadcast in dimensions along axis 1.
-/

set_option maxRecDepth 16384

noncomputable section
namespace Cert.KernelIdeal.Hand
open Cert.KernelIdeal Cert.KernelIdeal.Gen Cert.KernelIdeal.GenP
open Idealize.ShloMosaic Idealize.ShloMosaic.TcCoe Idealize.SL.Sem Idealize.ShloMosaic.StableHlo

variable (W : Valuation τ sig (Elt Ideal))

/-- The outlined clip call's typed references at the buffers it shares with its caller are the identity on contents:
    each buffer's type is the value's by computation. -/
theorem ofBuf_main_cst_1 (h1 : main_cst_1.ty = (⟨S_, .f32⟩ : BufTy)) (h2 : main_cst_1.space ≠ .host) (h3 : main_cst_1.isScoped = false)
    (v : main_cst_1.ty.Contents (Elt Ideal)) : (StableHlo.TRef.of (T := ⟨S_, .f32⟩) main_cst_1 h1 h2 h3).ofBuf v = v := rfl
theorem ofBuf_main_cst_2 (h1 : main_cst_2.ty = (⟨S_, .f32⟩ : BufTy)) (h2 : main_cst_2.space ≠ .host) (h3 : main_cst_2.isScoped = false)
    (v : main_cst_2.ty.Contents (Elt Ideal)) : (StableHlo.TRef.of (T := ⟨S_, .f32⟩) main_cst_2 h1 h2 h3).ofBuf v = v := rfl
theorem ofBuf_main_v4 (h1 : main_v4.ty = (⟨S100000, .f32⟩ : BufTy)) (h2 : main_v4.space ≠ .host) (h3 : main_v4.isScoped = false)
    (v : main_v4.ty.Contents (Elt Ideal)) : (StableHlo.TRef.of (T := ⟨S100000, .f32⟩) main_v4 h1 h2 h3).ofBuf v = v := rfl
theorem toBuf_main_v5 (h1 : main_v5.ty = (⟨S100000, .f32⟩ : BufTy)) (h2 : main_v5.space ≠ .host) (h3 : main_v5.isScoped = false)
    (v : (⟨S100000, .f32⟩ : BufTy).Contents (Elt Ideal)) : (StableHlo.TRef.of (T := ⟨S100000, .f32⟩) main_v5 h1 h2 h3).toBuf v = v := rfl

/-- The outlined clip call's typed references at the buffers it shares with its caller are the identity on contents:
    each buffer's type is the value's by computation. -/
theorem ofBuf_main_cst_14 (h1 : main_cst_14.ty = (⟨S_, .f32⟩ : BufTy)) (h2 : main_cst_14.space ≠ .host) (h3 : main_cst_14.isScoped = false)
    (v : main_cst_14.ty.Contents (Elt Ideal)) : (StableHlo.TRef.of (T := ⟨S_, .f32⟩) main_cst_14 h1 h2 h3).ofBuf v = v := rfl
theorem ofBuf_main_cst_15 (h1 : main_cst_15.ty = (⟨S_, .f32⟩ : BufTy)) (h2 : main_cst_15.space ≠ .host) (h3 : main_cst_15.isScoped = false)
    (v : main_cst_15.ty.Contents (Elt Ideal)) : (StableHlo.TRef.of (T := ⟨S_, .f32⟩) main_cst_15 h1 h2 h3).ofBuf v = v := rfl
theorem ofBuf_main_v63 (h1 : main_v63.ty = (⟨S100000, .f32⟩ : BufTy)) (h2 : main_v63.space ≠ .host) (h3 : main_v63.isScoped = false)
    (v : main_v63.ty.Contents (Elt Ideal)) : (StableHlo.TRef.of (T := ⟨S100000, .f32⟩) main_v63 h1 h2 h3).ofBuf v = v := rfl
theorem toBuf_main_v64 (h1 : main_v64.ty = (⟨S100000, .f32⟩ : BufTy)) (h2 : main_v64.space ≠ .host) (h3 : main_v64.isScoped = false)
    (v : (⟨S100000, .f32⟩ : BufTy).Contents (Elt Ideal)) : (StableHlo.TRef.of (T := ⟨S100000, .f32⟩) main_v64 h1 h2 h3).toBuf v = v := rfl

/-! ## The stretch before region 0 -/

theorem s0_v6 : StableHlo.after hostOps0_2 (StableHlo.after hostOps0_1 (StableHlo.after hostOps0 W)) main_v6 = Cert.HostForms.normCol (W main_arg0) := by
  dsimp only [hostOps0_2, hostOps0_1, hostOps0]
  after_results_simp
  simp only [TRef.ofBuf_toBuf]
  rw [ofBuf_main_cst_1 rfl (by decide) rfl, ofBuf_main_cst_2 rfl (by decide) rfl, ofBuf_main_v4 rfl (by decide) rfl,
    toBuf_main_v5 rfl (by decide) rfl]
  unfold Cert.HostForms.normCol
  rfl

theorem s0_v7 : StableHlo.after hostOps0_2 (StableHlo.after hostOps0_1 (StableHlo.after hostOps0 W)) main_v7 = Cert.HostForms.row32 (W main_arg10) := by
  dsimp only [hostOps0_2, hostOps0_1, hostOps0]
  after_results_simp
  unfold Cert.HostForms.row32
  exact ValueIdx.shapeCast_row_eq_broadcastInDim _ _ _

theorem s0_v8 : StableHlo.after hostOps0_2 (StableHlo.after hostOps0_1 (StableHlo.after hostOps0 W)) main_v8 = Cert.HostForms.row32 (W main_arg12) := by
  dsimp only [hostOps0_2, hostOps0_1, hostOps0]
  after_results_simp
  unfold Cert.HostForms.row32
  exact ValueIdx.shapeCast_row_eq_broadcastInDim _ _ _

/-! ## The stretch before region 7 -/

theorem s7_v58 : StableHlo.after hostOps7_2 (StableHlo.after hostOps7_1 (StableHlo.after hostOps7 W)) main_v58 = Cert.HostForms.meanPool (W main_v46) (W main_arg3) := by
  dsimp only [hostOps7_2, hostOps7_1, hostOps7]
  after_results_simp
  unfold Cert.HostForms.meanPool
  rfl

theorem s7_v65 : StableHlo.after hostOps7_2 (StableHlo.after hostOps7_1 (StableHlo.after hostOps7 W)) main_v65 = Cert.HostForms.normCol (W main_arg4) := by
  dsimp only [hostOps7_2, hostOps7_1, hostOps7]
  after_results_simp
  simp only [TRef.ofBuf_toBuf]
  rw [ofBuf_main_cst_14 rfl (by decide) rfl, ofBuf_main_cst_15 rfl (by decide) rfl, ofBuf_main_v63 rfl (by decide) rfl,
    toBuf_main_v64 rfl (by decide) rfl]
  unfold Cert.HostForms.normCol
  rfl

theorem s7_v66 : StableHlo.after hostOps7_2 (StableHlo.after hostOps7_1 (StableHlo.after hostOps7 W)) main_v66 = Cert.HostForms.row32 (W main_arg10) := by
  dsimp only [hostOps7_2, hostOps7_1, hostOps7]
  after_results_simp
  unfold Cert.HostForms.row32
  exact ValueIdx.shapeCast_row_eq_broadcastInDim _ _ _

theorem s7_v67 : StableHlo.after hostOps7_2 (StableHlo.after hostOps7_1 (StableHlo.after hostOps7 W)) main_v67 = Cert.HostForms.row32 (W main_arg12) := by
  dsimp only [hostOps7_2, hostOps7_1, hostOps7]
  after_results_simp
  unfold Cert.HostForms.row32
  exact ValueIdx.shapeCast_row_eq_broadcastInDim _ _ _

/-! ## The stretch before region 14, and the last reshape -/

/-- Before the concatenation the stretch has left its first piece untouched, -/
theorem s14_pre_v58 : StableHlo.after (hostOps14.take 17) W main_v58 = W main_v58 := by
  dsimp only [hostOps14, List.take]
  after_results_simp

/-- the mean pool in its second -/
theorem s14_pre_v117 : StableHlo.after (hostOps14.take 17) W main_v117 = Cert.HostForms.meanPool (W main_v105) (W main_arg7) := by
  dsimp only [hostOps14, List.take]
  after_results_simp
  unfold Cert.HostForms.meanPool
  rfl

/-- and the depth as a column in its third. -/
theorem s14_pre_v118 : StableHlo.after (hostOps14.take 17) W main_v118 = broadcastInDim Cert.ReferenceIdeal.S512x1 ![0] Cert.ReferenceIdeal.Gen.bcast_S512_S512x1_0 (W main_arg8) := by
  dsimp only [hostOps14, List.take]
  after_results_simp

/-- The concatenation joins the three pieces as the seventeen operations before it left them. -/
theorem s14_v119 : StableHlo.after hostOps14 W main_v119 = concatenate Cert.ReferenceIdeal.S512x129 1 [⟨Cert.ReferenceIdeal.S512x64, W main_v58⟩, ⟨Cert.ReferenceIdeal.S512x64, Cert.HostForms.meanPool (W main_v105) (W main_arg7)⟩, ⟨Cert.ReferenceIdeal.S512x1, broadcastInDim Cert.ReferenceIdeal.S512x1 ![0] Cert.ReferenceIdeal.Gen.bcast_S512_S512x1_0 (W main_arg8)⟩] Cert.ReferenceIdeal.Gen.concatenates_S512x64_S512x64_S512x1_S512x129_d1 := by
  rw [show (hostOps14 : List (HloOp τ sig (Elt Ideal))) = hostOps14.take 17 ++ hostOps14.drop 17 from (List.take_append_drop 17 _).symm, after_append]
  rw [← s14_pre_v58 W, ← s14_pre_v117 W, ← s14_pre_v118 W]
  generalize StableHlo.after (hostOps14.take 17) W = V'
  dsimp only [hostOps14, List.drop]
  after_results_simp
  rfl
theorem s14_v120 : StableHlo.after hostOps14 W main_v120 = Cert.HostForms.row64 (W main_arg38) := by
  dsimp only [hostOps14]
  after_results_simp
  unfold Cert.HostForms.row64
  exact ValueIdx.shapeCast_row_eq_broadcastInDim _ _ _

theorem s14_v121 : StableHlo.after hostOps14 W main_v121 = Cert.HostForms.row1 (W main_arg40) := by
  dsimp only [hostOps14]
  after_results_simp
  unfold Cert.HostForms.row1
  exact ValueIdx.shapeCast_row_eq_broadcastInDim _ _ _

theorem s15_v123 : StableHlo.after hostOps15 W main_v123 = shapeCast _ (W main_v122) Cert.ReferenceIdeal.Gen.shapeCasts_S512x1_S512 := by
  dsimp only [hostOps15]
  after_results_simp
  rfl

end Cert.KernelIdeal.Hand
end
-- ==== Proof.Ideal.StretchB.lean ====
import proofs.«106349_j21990232555677_1_alg».proof.Proof.Gen.KernelIdeal.Launch
import proofs.«106349_j21990232555677_1_alg».proof.Proof.Ideal.RefTerms
import proofs.«106349_j21990232555677_1_alg».proof.Proof.LibColRow
import Idealize.ShloMosaic.Lib.StableHlo.Run

/-!
# The plain host stretches of the first graph's encoder, read at a buffer

Between two regions the program runs a short line of host operations. From any contents `W` of the buffers, what
a buffer holds after such a line is a function of `W` at the buffers the line reads: a bias reshaped to a row is
the host's row of it, the edge list's two rows and the source indices wrapped into a column are the host's, and a
gather or a segment sum is the host's at those indices.
-/

set_option maxRecDepth 16384

noncomputable section
namespace Cert.KernelIdeal.Hand
open Cert.KernelIdeal Cert.KernelIdeal.Gen
open Idealize.ShloMosaic Idealize.ShloMosaic.TcCoe Idealize.SL.Sem Idealize.ShloMosaic.StableHlo
open Idealize.ShloMosaic.ValueIdx

variable (W : Valuation τ sig (Elt Ideal))

theorem s1_v10 : StableHlo.after hostOps1 W main_v10 = Cert.HostForms.row32 (W main_arg14) := by
  dsimp only [hostOps1]; after_results
  exact shapeCast_row_eq_broadcastInDim _ _ _

theorem s1_v11 : StableHlo.after hostOps1 W main_v11 = Cert.HostForms.row32 (W main_arg16) := by
  dsimp only [hostOps1]; after_results
  exact shapeCast_row_eq_broadcastInDim _ _ _

theorem s2_v23 : StableHlo.after hostOps2 W main_v23 = Host.gather Cert.ReferenceIdeal.gather_S100000x32_S1600000x1_S1600000x32_1_0_n_n_0_1_132 (W main_v9) (Cert.HostForms.srcIdx (W main_arg1)) := by
  dsimp only [hostOps2]; after_results_simp
  rfl

theorem s2_v14 : StableHlo.after hostOps2 W main_v14 = Cert.HostForms.srcVec (W main_arg1) := by
  dsimp only [hostOps2]; after_results_simp
  rfl

theorem s2_v16 : StableHlo.after hostOps2 W main_v16 = Cert.HostForms.dstVec (W main_arg1) := by
  dsimp only [hostOps2]; after_results_simp
  rfl

theorem s3_v27 : StableHlo.after hostOps3 W main_v27 = Host.scatterAdd (F := Ideal) Cert.ReferenceIdeal.scatter_S100000x32_S1600000x1_S1600000x32_1_0_0_1 (broadcastInDim Cert.ReferenceIdeal.S100000x32 ![] Cert.ReferenceIdeal.Gen.bcast_S_S100000x32 (constant (F := Ideal) Cert.ReferenceIdeal.S_ .f32 0x00000000#32)) (Cert.HostForms.idxCol (W main_v16)) (W main_v24) := by
  dsimp only [hostOps3]; after_results_simp
  rfl

theorem s3_v28 : StableHlo.after hostOps3 W main_v28 = Cert.HostForms.row64 (W main_arg18) := by
  dsimp only [hostOps3]; after_results
  exact shapeCast_row_eq_broadcastInDim _ _ _

theorem s3_v29 : StableHlo.after hostOps3 W main_v29 = Cert.HostForms.row64 (W main_arg20) := by
  dsimp only [hostOps3]; after_results
  exact shapeCast_row_eq_broadcastInDim _ _ _

theorem s4_v31 : StableHlo.after hostOps4 W main_v31 = Cert.HostForms.row64 (W main_arg26) := by
  dsimp only [hostOps4]; after_results
  exact shapeCast_row_eq_broadcastInDim _ _ _

theorem s5_v39 : StableHlo.after hostOps5 W main_v39 = Host.gather Cert.ReferenceIdeal.gather_S100000x64_S1600000x1_S1600000x64_1_0_n_n_0_1_164 (W main_v30) (Cert.HostForms.wrapIdx (W main_v14)) := by
  dsimp only [hostOps5]; after_results_simp
  rfl

theorem s6_v43 : StableHlo.after hostOps6 W main_v43 = Host.scatterAdd (F := Ideal) Cert.ReferenceIdeal.scatter_S100000x64_S1600000x1_S1600000x64_1_0_0_1 (broadcastInDim Cert.ReferenceIdeal.S100000x64 ![] Cert.ReferenceIdeal.Gen.bcast_S_S100000x64 (constant (F := Ideal) Cert.ReferenceIdeal.S_ .f32 0x00000000#32)) (Cert.HostForms.idxCol (W main_v16)) (W main_v40) := by
  dsimp only [hostOps6]; after_results_simp
  rfl

theorem s6_v44 : StableHlo.after hostOps6 W main_v44 = Cert.HostForms.row64 (W main_arg22) := by
  dsimp only [hostOps6]; after_results
  exact shapeCast_row_eq_broadcastInDim _ _ _

theorem s6_v45 : StableHlo.after hostOps6 W main_v45 = Cert.HostForms.row64 (W main_arg24) := by
  dsimp only [hostOps6]; after_results
  exact shapeCast_row_eq_broadcastInDim _ _ _

end Cert.KernelIdeal.Hand

end
-- ==== Proof.Ideal.StretchB2.lean ====
import proofs.«106349_j21990232555677_1_alg».proof.Proof.Gen.KernelIdeal.Launch
import proofs.«106349_j21990232555677_1_alg».proof.Proof.Ideal.RefTerms
import proofs.«106349_j21990232555677_1_alg».proof.Proof.LibColRow
import Idealize.ShloMosaic.Lib.StableHlo.Run

/-!
# The host stretches of the second graph's encoder, read at the buffers the regions use

Between two regions the program runs a short straight line of host operations. From ANY contents `W` of the
buffers, what such a line leaves in a buffer a later region or stretch reads is a term of the host program's spelling
over `W` at the buffers the line reads: a bias vector as a one-row matrix, the two rows of the edge list, the gather of
node features at the (wrapped) source nodes, and the sum of the messages into their target nodes from a zero array.
Each operation's result is read at its own buffer and passes every other buffer through unchanged.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (W : Valuation τ sig (Elt Ideal))

/-- After the stretch, `main_v69` holds the bias `main_arg14` as a one-row matrix: the reshape of a vector to one row is its
    broadcast along axis 1. -/
theorem s8_v69 : StableHlo.after hostOps8 W main_v69 = Cert.HostForms.row32 (W main_arg14) := by
  dsimp only [hostOps8]
  after_results
  exact shapeCast_row_eq_broadcastInDim _ _ _

/-- After the stretch, `main_v70` holds the bias `main_arg16` as a one-row matrix: the reshape of a vector to one row is its
    broadcast along axis 1. -/
theorem s8_v70 : StableHlo.after hostOps8 W main_v70 = Cert.HostForms.row32 (W main_arg16) := by
  dsimp only [hostOps8]
  after_results
  exact shapeCast_row_eq_broadcastInDim _ _ _

/-- After the stretch, `main_v82` holds the rows of `main_v68` gathered at the edge list's source nodes, a negative index
    wrapped once by the node count. -/
theorem s9_v82 : StableHlo.after hostOps9 W main_v82 = Host.gather Cert.ReferenceIdeal.gather_S100000x32_S1600000x1_S1600000x32_1_0_n_n_0_1_132 (W main_v68) (Cert.HostForms.srcIdx (W main_arg5)) := by
  dsimp only [hostOps9]
  after_results
  rfl

/-- After the stretch, `main_v73` holds row 0 of the edge list, the source nodes. -/
theorem s9_v73 : StableHlo.after hostOps9 W main_v73 = Cert.HostForms.srcVec (W main_arg5) := by
  dsimp only [hostOps9]
  after_results
  rfl

/-- After the stretch, `main_v75` holds row 1 of the edge list, the target nodes. -/
theorem s9_v75 : StableHlo.after hostOps9 W main_v75 = Cert.HostForms.dstVec (W main_arg5) := by
  dsimp only [hostOps9]
  after_results
  rfl

/-- After the stretch, `main_v86` holds the messages `main_v83` summed into their target nodes, from a zero array. -/
theorem s10_v86 : StableHlo.after hostOps10 W main_v86 = Host.scatterAdd (F := Ideal) Cert.ReferenceIdeal.scatter_S100000x32_S1600000x1_S1600000x32_1_0_0_1 (broadcastInDim Cert.ReferenceIdeal.S100000x32 ![] Cert.ReferenceIdeal.Gen.bcast_S_S100000x32 (constant (F := Ideal) Cert.ReferenceIdeal.S_ .f32 0x00000000#32)) (Cert.HostForms.idxCol (W main_v75)) (W main_v83) := by
  dsimp only [hostOps10]
  after_results
  rfl

/-- After the stretch, `main_v87` holds the bias `main_arg28` as a one-row matrix: the reshape of a vector to one row is its
    broadcast along axis 1. -/
theorem s10_v87 : StableHlo.after hostOps10 W main_v87 = Cert.HostForms.row64 (W main_arg28) := by
  dsimp only [hostOps10]
  after_results
  exact shapeCast_row_eq_broadcastInDim _ _ _

/-- After the stretch, `main_v88` holds the bias `main_arg30` as a one-row matrix: the reshape of a vector to one row is its
    broadcast along axis 1. -/
theorem s10_v88 : StableHlo.after hostOps10 W main_v88 = Cert.HostForms.row64 (W main_arg30) := by
  dsimp only [hostOps10]
  after_results
  exact shapeCast_row_eq_broadcastInDim _ _ _

/-- After the stretch, `main_v90` holds the bias `main_arg36` as a one-row matrix: the reshape of a vector to one row is its
    broadcast along axis 1. -/
theorem s11_v90 : StableHlo.after hostOps11 W main_v90 = Cert.HostForms.row64 (W main_arg36) := by
  dsimp only [hostOps11]
  after_results
  exact shapeCast_row_eq_broadcastInDim _ _ _

/-- After the stretch, `main_v98` holds the rows of `main_v89` gathered at the source nodes `main_v73`, a negative index
    wrapped once by the node count. -/
theorem s12_v98 : StableHlo.after hostOps12 W main_v98 = Host.gather Cert.ReferenceIdeal.gather_S100000x64_S1600000x1_S1600000x64_1_0_n_n_0_1_164 (W main_v89) (Cert.HostForms.wrapIdx (W main_v73)) := by
  dsimp only [hostOps12]
  after_results
  rfl

/-- After the stretch, `main_v102` holds the messages `main_v99` summed into their target nodes, from a zero array. -/
theorem s13_v102 : StableHlo.after hostOps13 W main_v102 = Host.scatterAdd (F := Ideal) Cert.ReferenceIdeal.scatter_S100000x64_S1600000x1_S1600000x64_1_0_0_1 (broadcastInDim Cert.ReferenceIdeal.S100000x64 ![] Cert.ReferenceIdeal.Gen.bcast_S_S100000x64 (constant (F := Ideal) Cert.ReferenceIdeal.S_ .f32 0x00000000#32)) (Cert.HostForms.idxCol (W main_v75)) (W main_v99) := by
  dsimp only [hostOps13]
  after_results
  rfl

/-- After the stretch, `main_v103` holds the bias `main_arg32` as a one-row matrix: the reshape of a vector to one row is its
    broadcast along axis 1. -/
theorem s13_v103 : StableHlo.after hostOps13 W main_v103 = Cert.HostForms.row64 (W main_arg32) := by
  dsimp only [hostOps13]
  after_results
  exact shapeCast_row_eq_broadcastInDim _ _ _

/-- After the stretch, `main_v104` holds the bias `main_arg34` as a one-row matrix: the reshape of a vector to one row is its
    broadcast along axis 1. -/
theorem s13_v104 : StableHlo.after hostOps13 W main_v104 = Cert.HostForms.row64 (W main_arg34) := by
  dsimp only [hostOps13]
  after_results
  exact shapeCast_row_eq_broadcastInDim _ _ _

end Cert.KernelIdeal.Hand

end
-- ==== Proof.Ideal.MlpAt.lean ====
import Idealize.ShloMosaic.Lib.ValueIdx
import Idealize.ShloMosaic.Lib.Pipeline.Value
import Idealize.ShloMosaic.PureOps.Ideal.Laws

/-!
# A plain matrix product and a repeated row, read at a row and a column

Over the extended reals a contraction with no batch axis, rows times columns, read at `(p, q)` is the sum over the one
contracted axis of the left operand's entry in row `p` times the right operand's entry in column `q`; a `[1, b]` row
repeated down the rows reads the row's entry in the column; a repeated scalar reads the scalar. These are the three
facts every perceptron layer of the network needs once it is read at one entry, for the body's operations and for the
host program's alike.
-/

noncomputable section

open scoped BigOperators

namespace Cert.MlpAt

open Idealize.ShloMosaic Idealize.ShloMosaic.ValueIdx

/-- The zero offsets of a whole-block rectangle. -/
theorem hz2 : (![0, 0] : Fin 2 → Nat) = fun _ => 0 := funext fun a => by fin_cases a <;> rfl

section Dot2
variable {m k n : Nat} (D : DotDims ⟨2, ![m, k]⟩ ⟨2, ![k, n]⟩ ⟨2, ![m, n]⟩)

/-- With no batch axis and the left operand's rows first among the result's axes, the left operand is read on its row
    axis at the result's row. -/
theorem dot_lhs_row (hln : D.lhsNonContracting = [0]) (hlb : D.lhsBatch = [])
    (i : (⟨2, ![m, n]⟩ : Shape).Idx) (q : D.contr.Idx) : (D.lhsIdx i q 0).val = (i 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hln, hlb])

/-- … and the right operand on its column axis at the result's column. -/
theorem dot_rhs_col (hrn : D.rhsNonContracting = [1]) (hrb : D.rhsBatch = []) (hln : D.lhsNonContracting = [0]) (hlb : D.lhsBatch = [])
    (i : (⟨2, ![m, n]⟩ : Shape).Idx) (q : D.contr.Idx) : (D.rhsIdx i q 1).val = (i 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (i ⟨a, ha⟩).val = (i ⟨b, hb⟩).val :=
    fun a b ha hb h => by subst h; rfl
  exact key _ _ _ _ (by simp [hrn, hln, hlb])

/-- A plain rows-by-columns contraction read at row `p` and column `q`: the sum over the one contracted axis of the
    left operand's entry in row `p` times the right operand's entry in column `q`. -/
theorem dot_sum_at (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = k)
    (l : (⟨2, ![m, k]⟩ : Shape).Idx → EReal) (r : (⟨2, ![k, n]⟩ : Shape).Idx → EReal) (p : Fin m) (q : Fin n) :
    ∑ κ : D.contr.Idx, l (D.lhsIdx (ix2 p q) κ) * r (D.rhsIdx (ix2 p q) κ) = ∑ j : Fin k, l (ix2 p j) * r (ix2 j q) := by
  rw [← Equiv.sum_comp (contrEquiv1 D k hr hs).symm]
  refine Finset.sum_congr rfl fun j _ => ?_
  have hj := contrEquiv1_symm_val D k hr hs j
  have el : D.lhsIdx (ix2 p q) ((contrEquiv1 D k hr hs).symm j) = ix2 p j := funext fun a => Fin.ext (by
    match a with
    | ⟨0, _⟩ => exact dot_lhs_row D hln hlb _ _
    | ⟨1, _⟩ => exact (D.lhsIdx_val_of_single hlc _ _).trans hj)
  have er : D.rhsIdx (ix2 p q) ((contrEquiv1 D k hr hs).symm j) = ix2 j q := funext fun a => Fin.ext (by
    match a with
    | ⟨0, _⟩ => exact (D.rhsIdx_val_of_single hrc _ _).trans hj
    | ⟨1, _⟩ => exact dot_rhs_col D hrn hrb hln hlb _ _)
  rw [el, er]

end Dot2

/-- A `[1, b]` row repeated down `a` rows by `broadcast_in_dim` reads, at `(p, c)`, the row at `c`. -/
theorem bcastRow_at {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar repeated over a whole array by `broadcast_in_dim` reads the scalar everywhere. -/
theorem bcastScalar_at {α : Type} {s : Shape} (h : (⟨0, ![]⟩ : Shape).BroadcastsInDim s ![])
    (v : (⟨0, ![]⟩ : Shape).Idx → α) (i : s.Idx) : broadcastInDim s ![] h v i = v ix0 :=
  broadcastInDim_apply _ h v i ix0 fun a => a.elim0

end Cert.MlpAt

end
-- ==== Proof.Ideal.Mlp2Host.lean ====
import proofs.«106349_j21990232555677_1_alg».proof.Proof.Ideal.HostForms
import proofs.«106349_j21990232555677_1_alg».proof.Proof.Ideal.MlpAt
import Idealize.ShloMosaic.Lib.ValueIdx
import Idealize.ShloMosaic.Lib.Pipeline.Value
import Idealize.ShloMosaic.PureOps.Ideal.Laws

/-!
# The host program's two-layer perceptrons read at one entry

Each of the three perceptron layers `relu (x · W1 + b1) · W2 + b2` of the host program's spelling, read at a row and a
column, as one explicit double sum over the extended reals.
-/

set_option maxRecDepth 16384

noncomputable section

open scoped BigOperators

namespace Cert.MlpAt

open Idealize.ShloMosaic Idealize.ShloMosaic.TcCoe Idealize.ShloMosaic.ValueIdx

/-- `mlp2Node` read at row `r` and column `q`: the second layer's sum, over the hidden units, of the rectified first
    layer's entry times the second weight's, plus the second bias; the first layer's entry is the sum over the input
    features plus the first bias. -/
theorem mlp2Node_at (a0 : FVec Ideal Cert.ReferenceIdeal.S100000x1 .f32) (a1 : FVec Ideal Cert.ReferenceIdeal.S1x32 .f32) (a2 : FVec Ideal Cert.ReferenceIdeal.S1x32 .f32)
    (a3 : FVec Ideal Cert.ReferenceIdeal.S32x32 .f32) (a4 : FVec Ideal Cert.ReferenceIdeal.S1x32 .f32) (r : Fin 100000) (q : Fin 32) :
    Cert.HostForms.mlp2Node a0 a1 a2 a3 a4 (ix2 r q)
      = (∑ j : Fin 32, max ((∑ i : Fin 1, a0 (ix2 r i) * a1 (ix2 i j)) + a2 (ix2 (0 : Fin 1) j)) (Ideal.ofBits .f32 0x00000000#32) * a3 (ix2 j q))
        + a4 (ix2 (0 : Fin 1) q) := by
  unfold Cert.HostForms.mlp2Node
  rw [addf_apply, bcastRow_at]
  simp only [Host.dotGeneral]
  rw [Ideal.dotGeneral_apply, dot_sum_at _ rfl rfl rfl rfl rfl rfl rfl rfl]
  refine congrArg (· + _) (Finset.sum_congr rfl fun j _ => ?_)
  rw [maximumf_apply, addf_apply, bcastRow_at, bcastScalar_at, Ideal.dotGeneral_apply, dot_sum_at _ rfl rfl rfl rfl rfl rfl rfl rfl]
  rfl

/-- `mlp2Edge` read at row `r` and column `q`: the second layer's sum, over the hidden units, of the rectified first
    layer's entry times the second weight's, plus the second bias; the first layer's entry is the sum over the input
    features plus the first bias. -/
theorem mlp2Edge_at (a0 : FVec Ideal Cert.ReferenceIdeal.S1600000x1 .f32) (a1 : FVec Ideal Cert.ReferenceIdeal.S1x32 .f32) (a2 : FVec Ideal Cert.ReferenceIdeal.S1x32 .f32)
    (a3 : FVec Ideal Cert.ReferenceIdeal.S32x32 .f32) (a4 : FVec Ideal Cert.ReferenceIdeal.S1x32 .f32) (r : Fin 1600000) (q : Fin 32) :
    Cert.HostForms.mlp2Edge a0 a1 a2 a3 a4 (ix2 r q)
      = (∑ j : Fin 32, max ((∑ i : Fin 1, a0 (ix2 r i) * a1 (ix2 i j)) + a2 (ix2 (0 : Fin 1) j)) (Ideal.ofBits .f32 0x00000000#32) * a3 (ix2 j q))
        + a4 (ix2 (0 : Fin 1) q) := by
  unfold Cert.HostForms.mlp2Edge
  rw [addf_apply, bcastRow_at]
  simp only [Host.dotGeneral]
  rw [Ideal.dotGeneral_apply, dot_sum_at _ rfl rfl rfl rfl rfl rfl rfl rfl]
  refine congrArg (· + _) (Finset.sum_congr rfl fun j _ => ?_)
  rw [maximumf_apply, addf_apply, bcastRow_at, bcastScalar_at, Ideal.dotGeneral_apply, dot_sum_at _ rfl rfl rfl rfl rfl rfl rfl rfl]
  rfl

/-- `mlp2Head` read at row `r` and column `q`: the second layer's sum, over the hidden units, of the rectified first
    layer's entry times the second weight's, plus the second bias; the first layer's entry is the sum over the input
    features plus the first bias. -/
theorem mlp2Head_at (a0 : FVec Ideal Cert.ReferenceIdeal.S512x129 .f32) (a1 : FVec Ideal Cert.ReferenceIdeal.S129x64 .f32) (a2 : FVec Ideal Cert.ReferenceIdeal.S1x64 .f32)
    (a3 : FVec Ideal Cert.ReferenceIdeal.S64x1 .f32) (a4 : FVec Ideal Cert.ReferenceIdeal.S1x1 .f32) (r : Fin 512) (q : Fin 1) :
    Cert.HostForms.mlp2Head a0 a1 a2 a3 a4 (ix2 r q)
      = (∑ j : Fin 64, max ((∑ i : Fin 129, a0 (ix2 r i) * a1 (ix2 i j)) + a2 (ix2 (0 : Fin 1) j)) (Ideal.ofBits .f32 0x00000000#32) * a3 (ix2 j q))
        + a4 (ix2 (0 : Fin 1) q) := by
  unfold Cert.HostForms.mlp2Head
  rw [addf_apply, bcastRow_at]
  simp only [Host.dotGeneral]
  rw [Ideal.dotGeneral_apply, dot_sum_at _ rfl rfl rfl rfl rfl rfl rfl rfl]
  refine congrArg (· + _) (Finset.sum_congr rfl fun j _ => ?_)
  rw [maximumf_apply, addf_apply, bcastRow_at, bcastScalar_at, Ideal.dotGeneral_apply, dot_sum_at _ rfl rfl rfl rfl rfl rfl rfl rfl]
  rfl

end Cert.MlpAt

end
-- ==== Proof.Ideal.Final00.lean ====
import proofs.«106349_j21990232555677_1_alg».proof.Proof.Ideal.Region00
import proofs.«106349_j21990232555677_1_alg».proof.Proof.Ideal.HostForms
import proofs.«106349_j21990232555677_1_alg».proof.Proof.Ideal.MlpAt
import proofs.«106349_j21990232555677_1_alg».proof.Proof.Ideal.Mlp2Host
import Idealize.ShloMosaic.Lib.ValueIdx
import Idealize.ShloMosaic.Lib.Pipeline.Value
import Idealize.ShloMosaic.Lib.ValueLayout
import Idealize.ShloMosaic.PureOps.Ideal.Laws

/-!
# Region 0 over the extended reals: the output array is the host program's two-layer perceptron `mlp2Node`

The body's payload read at one entry is the double sum `relu (x · W1 + b1) · W2 + b2` of its loaded blocks; the host
program's spelling of the layer read at one entry is the same double sum of the arrays. Output block `t` is rows
`10000 t … 10000 t + 9999` of the array, the first input's block `t` the same rows of its array, and the weights' and
biases' blocks are their whole arrays at every point; so what point `t` writes back is block `t` of the host
program's layer, and the grid's 10 blocks tile the array.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MlpAt

/-- The body's payload at row `p` and column `q` of its block: the second layer's sum over the hidden units of the
    rectified first layer times the second weight, plus the second bias. The format changes are the identity on the
    extended reals and each product into a zero accumulator is the exact sum. -/
theorem pay0_at (x0 : Vec Ideal S10000x1 .f32) (x1 : Vec Ideal S1x32 .f32) (x2 : Vec Ideal S1x32 .f32) (x3 : Vec Ideal S32x32 .f32)
    (x4 : Vec Ideal S1x32 .f32) (p : Fin 10000) (q : Fin 32) :
    k0_pay1 x0 x1 x2 x3 x4 (ix2 p q)
      = (∑ j : Fin 32, max ((∑ i : Fin 1, x0 (ix2 p i) * x1 (ix2 i j)) + x2 (ix2 (0 : Fin 1) j)) (Ideal.ofBits .f32 0x00000000#32) * x3 (ix2 j q))
        + x4 (ix2 (0 : Fin 1) q) := by
  unfold k0_pay1
  simp only [shapeCast_self, Idealize.ShloMosaic.matmul]
  rw [addf_apply, broadcastTo_1b_ab_apply]
  rw [Ideal.matmul_constant_zero_apply, dot_sum_at _ rfl rfl rfl rfl rfl rfl rfl rfl]
  refine congrArg (· + _) (Finset.sum_congr rfl fun j _ => ?_)
  rw [truncf_apply, truncf_apply, maximumf_apply, addf_apply, broadcastTo_1b_ab_apply, Ideal.matmul_constant_zero_apply,
    dot_sum_at _ rfl rfl rfl rfl rfl rfl rfl rfl, broadcast_apply]
  simp only [truncf_apply]
  rfl

/-- One entry: when the first input's block holds, in row `p`, the array's row `r`, and the other blocks are their
    arrays, the payload at `(p, q)` is the host program's layer at `(r, q)`. -/
theorem point0 (x0 : Vec Ideal S10000x1 .f32) (x1 : Vec Ideal S1x32 .f32) (x2 : Vec Ideal S1x32 .f32) (x3 : Vec Ideal S32x32 .f32)
    (x4 : Vec Ideal S1x32 .f32)
    (a0 : FVec Ideal Cert.ReferenceIdeal.S100000x1 .f32) (a1 : FVec Ideal Cert.ReferenceIdeal.S1x32 .f32)
    (a2 : FVec Ideal Cert.ReferenceIdeal.S1x32 .f32) (a3 : FVec Ideal Cert.ReferenceIdeal.S32x32 .f32)
    (a4 : FVec Ideal Cert.ReferenceIdeal.S1x32 .f32) (p : Fin 10000) (q : Fin 32) (r : Fin 100000)
    (h0 : ∀ i : Fin 1, x0 (ix2 p i) = a0 (ix2 r i)) (h1 : ∀ y, x1 y = a1 y) (h2 : ∀ y, x2 y = a2 y) (h3 : ∀ y, x3 y = a3 y)
    (h4 : ∀ y, x4 y = a4 y) :
    k0_pay1 x0 x1 x2 x3 x4 (ix2 p q) = Cert.HostForms.mlp2Node a0 a1 a2 a3 a4 (ix2 r q) := by
  rw [pay0_at, mlp2Node_at]
  simp only [h0, h1, h2, h3, h4]

/-- The printed index maps, decided over the grid: the first input's and the output's block index is the point on the
    row axis and zero on the column axis; the weights' and biases' is zero on both. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Where the windows' blocks sit in their arrays: the first input's and the output's block `t` is rows
    `10000 t …`; the weights' and biases' block is the whole array at every point. -/
theorem emb0_0 (t : Fin cfg0.N) (ht : t.val < 10) (p : Fin 10000) (i : Fin 1) :
    ((cfg0.win 0).blk t).view.emb (ix2 p i) = ix2 (⟨t.val * 10000 + p.val, by have := p.isLt; omega⟩ : Fin 100000) i := by
  obtain ⟨e00, e01, e10, e11, e20, e21, e30, e31, e40, e41, e50, e51⟩ := idx0_facts t
  funext a; apply Fin.ext
  match a with
  | ⟨0, _⟩ => show win0_0.index t (0 : Fin 2) * 10000 + 1 * p.val = t.val * 10000 + p.val; rw [e00]; omega
  | ⟨1, _⟩ => show win0_0.index t (1 : Fin 2) * 1 + 1 * i.val = i.val; rw [e01]; omega
theorem emb0_1 (t : Fin cfg0.N) (y : S1x32.Idx) : ((cfg0.win 1).blk t).view.emb y = y := by
  obtain ⟨e00, e01, e10, e11, e20, e21, e30, e31, e40, e41, e50, e51⟩ := idx0_facts t
  funext a; apply Fin.ext
  match a with
  | ⟨0, _⟩ => show win0_1.index t (0 : Fin 2) * 1 + 1 * (y 0).val = (y 0).val; rw [e10]; omega
  | ⟨1, _⟩ => show win0_1.index t (1 : Fin 2) * 32 + 1 * (y 1).val = (y 1).val; rw [e11]; omega
theorem emb0_2 (t : Fin cfg0.N) (y : S1x32.Idx) : ((cfg0.win 2).blk t).view.emb y = y := by
  obtain ⟨e00, e01, e10, e11, e20, e21, e30, e31, e40, e41, e50, e51⟩ := idx0_facts t
  funext a; apply Fin.ext
  match a with
  | ⟨0, _⟩ => show win0_2.index t (0 : Fin 2) * 1 + 1 * (y 0).val = (y 0).val; rw [e20]; omega
  | ⟨1, _⟩ => show win0_2.index t (1 : Fin 2) * 32 + 1 * (y 1).val = (y 1).val; rw [e21]; omega
theorem emb0_3 (t : Fin cfg0.N) (y : S32x32.Idx) : ((cfg0.win 3).blk t).view.emb y = y := by
  obtain ⟨e00, e01, e10, e11, e20, e21, e30, e31, e40, e41, e50, e51⟩ := idx0_facts t
  funext a; apply Fin.ext
  match a with
  | ⟨0, _⟩ => show win0_3.index t (0 : Fin 2) * 32 + 1 * (y 0).val = (y 0).val; rw [e30]; omega
  | ⟨1, _⟩ => show win0_3.index t (1 : Fin 2) * 32 + 1 * (y 1).val = (y 1).val; rw [e31]; omega
theorem emb0_4 (t : Fin cfg0.N) (y : S1x32.Idx) : ((cfg0.win 4).blk t).view.emb y = y := by
  obtain ⟨e00, e01, e10, e11, e20, e21, e30, e31, e40, e41, e50, e51⟩ := idx0_facts t
  funext a; apply Fin.ext
  match a with
  | ⟨0, _⟩ => show win0_4.index t (0 : Fin 2) * 1 + 1 * (y 0).val = (y 0).val; rw [e40]; omega
  | ⟨1, _⟩ => show win0_4.index t (1 : Fin 2) * 32 + 1 * (y 1).val = (y 1).val; rw [e41]; omega
theorem emb0_5 (t : Fin cfg0.N) (ht : t.val < 10) (p : Fin 10000) (q : Fin 32) :
    ((cfg0.win 5).blk t).view.emb (ix2 p q) = ix2 (⟨t.val * 10000 + p.val, by have := p.isLt; omega⟩ : Fin 100000) q := by
  obtain ⟨e00, e01, e10, e11, e20, e21, e30, e31, e40, e41, e50, e51⟩ := idx0_facts t
  funext a; apply Fin.ext
  match a with
  | ⟨0, _⟩ => show win0_5.index t (0 : Fin 2) * 10000 + 1 * p.val = t.val * 10000 + p.val; rw [e50]; omega
  | ⟨1, _⟩ => show win0_5.index t (1 : Fin 2) * 32 + 1 * q.val = q.val; rw [e51]; omega

variable (V : (c : Dev nD) → (b : Ref sig .tc) → Buf (Elt Ideal) ((c : Thread nD τ).loc b))

set_option maxHeartbeats 1000000 in
/-- What point `t` writes back is block `t` of the host program's layer of the arrays the region is entered with. -/
theorem flushed0_eq (c : Dev nD) (t : Fin cfg0.N) :
    (dat0 (F := Ideal) V c).flushed 5 t = ((cfg0.win 5).blk t).view.read (Elt Ideal)
      (Cert.HostForms.mlp2Node (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 (F := Ideal) V c).after 5 t) = _
  rw [after0_5]
  unfold out0
  rw [View.canon_unit_zero hz2]
  simp only [View.ld_unit_zero (S := S10000x1) hz2, View.ld_unit_zero (S := S1x32) hz2, View.ld_unit_zero (S := S1x32) hz2,
    View.ld_unit_zero (S := S32x32) hz2, View.ld_unit_zero (S := S1x32) hz2]
  have hN : cfg0.N = 10 := N_0
  have ht : t.val < 10 := by have := t.isLt; omega
  refine funext fun (j : S10000x32.Idx) => ?_
  obtain ⟨p, q, rfl⟩ : ∃ (p : Fin 10000) (q : Fin 32), j = ix2 p q := ⟨j 0, j 1, eq_ix2 j⟩
  rw [View.read_apply, emb0_5 t ht p q]
  exact point0 _ _ _ _ _ _ _ _ _ _ p q _
    (fun i => congrArg (V c (Pipeline.arrRef spec0 0)) (emb0_0 t ht p i))
    (fun y => congrArg (V c (Pipeline.arrRef spec0 1)) (emb0_1 t y))
    (fun y => congrArg (V c (Pipeline.arrRef spec0 2)) (emb0_2 t y))
    (fun y => congrArg (V c (Pipeline.arrRef spec0 3)) (emb0_3 t y))
    (fun y => congrArg (V c (Pipeline.arrRef spec0 4)) (emb0_4 t y))

/-- An entry of the output array is in point `t`'s block iff each coordinate is in the block's range on its axis. -/
theorem mem_blk0 (t : Fin cfg0.N) (i : S100000x32.Idx) :
    i ∈ ((cfg0.win 5).blk t).view.set ↔ ∀ a : Fin 2, win0_5.index t a * S10000x32.size a ≤ (i a).val ∧ (i a).val < win0_5.index t a * S10000x32.size a + S10000x32.size a := by
  show i ∈ ((View.whole main_v9).slice (win0_5.rect t)).set ↔ _
  rw [View.set_slice_whole, Rect.mem_set_unit]
  exact Iff.rfl

/-- THE OUTPUT ARRAY after the last grid point is the host program's two-layer perceptron of the arrays the region is
    entered with: row `r` is in the block of point `r / 10000`. -/
theorem final0 (c : Dev nD) :
    (dat0 (F := Ideal) V c).arrAt 5 cfg0.N = Cert.HostForms.mlp2Node (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed0_eq V c t) fun i => by
    have hN : cfg0.N = 10 := N_0
    have hi0 : (i 0 : Nat) < 100000 := (i 0).isLt
    have hi1 : (i 1 : Nat) < 32 := (i 1).isLt
    obtain ⟨t, ht⟩ : ∃ t : Fin cfg0.N, t.val = (i 0 : Nat) / 10000 := ⟨⟨(i 0 : Nat) / 10000, by rw [hN]; omega⟩, rfl⟩
    obtain ⟨e00, e01, e10, e11, e20, e21, e30, e31, e40, e41, e50, e51⟩ := idx0_facts t
    refine ⟨t, flush0_5 t, ?_⟩
    rw [mem_blk0]
    intro a
    match a with
    | ⟨0, _⟩ => show win0_5.index t (0 : Fin 2) * 10000 ≤ (i 0 : Nat) ∧ (i 0 : Nat) < win0_5.index t (0 : Fin 2) * 10000 + 10000; rw [e50]; omega
    | ⟨1, _⟩ => show win0_5.index t (1 : Fin 2) * 32 ≤ (i 1 : Nat) ∧ (i 1 : Nat) < win0_5.index t (1 : Fin 2) * 32 + 32; rw [e51]; omega

end Cert.KernelIdeal.Hand

end
-- ==== Proof.Ideal.Final01.lean ====
import proofs.«106349_j21990232555677_1_alg».proof.Proof.Ideal.Region01
import proofs.«106349_j21990232555677_1_alg».proof.Proof.Ideal.HostForms
import proofs.«106349_j21990232555677_1_alg».proof.Proof.Ideal.MlpAt
import proofs.«106349_j21990232555677_1_alg».proof.Proof.Ideal.Mlp2Host
import Idealize.ShloMosaic.Lib.ValueIdx
import Idealize.ShloMosaic.Lib.Pipeline.Value
import Idealize.ShloMosaic.Lib.ValueLayout
import Idealize.ShloMosaic.PureOps.Ideal.Laws

/-!
# Region 1 over the extended reals: the output array is the host program's two-layer perceptron `mlp2Edge`

The body's payload read at one entry is the double sum `relu (x · W1 + b1) · W2 + b2` of its loaded blocks; the host
program's spelling of the layer read at one entry is the same double sum of the arrays. Output block `t` is rows
`8000 t … 8000 t + 7999` of the array, the first input's block `t` the same rows of its array, and the weights' and
biases' blocks are their whole arrays at every point; so what point `t` writes back is block `t` of the host
program's layer, and the grid's 200 blocks tile the array.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MlpAt

/-- The body's payload at row `p` and column `q` of its block: the second layer's sum over the hidden units of the
    rectified first layer times the second weight, plus the second bias. The format changes are the identity on the
    extended reals and each product into a zero accumulator is the exact sum. -/
theorem pay1_at (x0 : Vec Ideal S8000x1 .f32) (x1 : Vec Ideal S1x32 .f32) (x2 : Vec Ideal S1x32 .f32) (x3 : Vec Ideal S32x32 .f32)
    (x4 : Vec Ideal S1x32 .f32) (p : Fin 8000) (q : Fin 32) :
    k1_pay1 x0 x1 x2 x3 x4 (ix2 p q)
      = (∑ j : Fin 32, max ((∑ i : Fin 1, x0 (ix2 p i) * x1 (ix2 i j)) + x2 (ix2 (0 : Fin 1) j)) (Ideal.ofBits .f32 0x00000000#32) * x3 (ix2 j q))
        + x4 (ix2 (0 : Fin 1) q) := by
  unfold k1_pay1
  simp only [shapeCast_self, Idealize.ShloMosaic.matmul]
  rw [addf_apply, broadcastTo_1b_ab_apply]
  rw [Ideal.matmul_constant_zero_apply, dot_sum_at _ rfl rfl rfl rfl rfl rfl rfl rfl]
  refine congrArg (· + _) (Finset.sum_congr rfl fun j _ => ?_)
  rw [truncf_apply, truncf_apply, maximumf_apply, addf_apply, broadcastTo_1b_ab_apply, Ideal.matmul_constant_zero_apply,
    dot_sum_at _ rfl rfl rfl rfl rfl rfl rfl rfl, broadcast_apply]
  simp only [truncf_apply]
  rfl

/-- One entry: when the first input's block holds, in row `p`, the array's row `r`, and the other blocks are their
    arrays, the payload at `(p, q)` is the host program's layer at `(r, q)`. -/
theorem point1 (x0 : Vec Ideal S8000x1 .f32) (x1 : Vec Ideal S1x32 .f32) (x2 : Vec Ideal S1x32 .f32) (x3 : Vec Ideal S32x32 .f32)
    (x4 : Vec Ideal S1x32 .f32)
    (a0 : FVec Ideal Cert.ReferenceIdeal.S1600000x1 .f32) (a1 : FVec Ideal Cert.ReferenceIdeal.S1x32 .f32)
    (a2 : FVec Ideal Cert.ReferenceIdeal.S1x32 .f32) (a3 : FVec Ideal Cert.ReferenceIdeal.S32x32 .f32)
    (a4 : FVec Ideal Cert.ReferenceIdeal.S1x32 .f32) (p : Fin 8000) (q : Fin 32) (r : Fin 1600000)
    (h0 : ∀ i : Fin 1, x0 (ix2 p i) = a0 (ix2 r i)) (h1 : ∀ y, x1 y = a1 y) (h2 : ∀ y, x2 y = a2 y) (h3 : ∀ y, x3 y = a3 y)
    (h4 : ∀ y, x4 y = a4 y) :
    k1_pay1 x0 x1 x2 x3 x4 (ix2 p q) = Cert.HostForms.mlp2Edge a0 a1 a2 a3 a4 (ix2 r q) := by
  rw [pay1_at, mlp2Edge_at]
  simp only [h0, h1, h2, h3, h4]

/-- The printed index maps, decided over the grid: the first input's and the output's block index is the point on the
    row axis and zero on the column axis; the weights' and biases' is zero on both. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Where the windows' blocks sit in their arrays: the first input's and the output's block `t` is rows
    `8000 t …`; the weights' and biases' block is the whole array at every point. -/
theorem emb1_0 (t : Fin cfg1.N) (ht : t.val < 200) (p : Fin 8000) (i : Fin 1) :
    ((cfg1.win 0).blk t).view.emb (ix2 p i) = ix2 (⟨t.val * 8000 + p.val, by have := p.isLt; omega⟩ : Fin 1600000) i := by
  obtain ⟨e00, e01, e10, e11, e20, e21, e30, e31, e40, e41, e50, e51⟩ := idx1_facts t
  funext a; apply Fin.ext
  match a with
  | ⟨0, _⟩ => show win1_0.index t (0 : Fin 2) * 8000 + 1 * p.val = t.val * 8000 + p.val; rw [e00]; omega
  | ⟨1, _⟩ => show win1_0.index t (1 : Fin 2) * 1 + 1 * i.val = i.val; rw [e01]; omega
theorem emb1_1 (t : Fin cfg1.N) (y : S1x32.Idx) : ((cfg1.win 1).blk t).view.emb y = y := by
  obtain ⟨e00, e01, e10, e11, e20, e21, e30, e31, e40, e41, e50, e51⟩ := idx1_facts t
  funext a; apply Fin.ext
  match a with
  | ⟨0, _⟩ => show win1_1.index t (0 : Fin 2) * 1 + 1 * (y 0).val = (y 0).val; rw [e10]; omega
  | ⟨1, _⟩ => show win1_1.index t (1 : Fin 2) * 32 + 1 * (y 1).val = (y 1).val; rw [e11]; omega
theorem emb1_2 (t : Fin cfg1.N) (y : S1x32.Idx) : ((cfg1.win 2).blk t).view.emb y = y := by
  obtain ⟨e00, e01, e10, e11, e20, e21, e30, e31, e40, e41, e50, e51⟩ := idx1_facts t
  funext a; apply Fin.ext
  match a with
  | ⟨0, _⟩ => show win1_2.index t (0 : Fin 2) * 1 + 1 * (y 0).val = (y 0).val; rw [e20]; omega
  | ⟨1, _⟩ => show win1_2.index t (1 : Fin 2) * 32 + 1 * (y 1).val = (y 1).val; rw [e21]; omega
theorem emb1_3 (t : Fin cfg1.N) (y : S32x32.Idx) : ((cfg1.win 3).blk t).view.emb y = y := by
  obtain ⟨e00, e01, e10, e11, e20, e21, e30, e31, e40, e41, e50, e51⟩ := idx1_facts t
  funext a; apply Fin.ext
  match a with
  | ⟨0, _⟩ => show win1_3.index t (0 : Fin 2) * 32 + 1 * (y 0).val = (y 0).val; rw [e30]; omega
  | ⟨1, _⟩ => show win1_3.index t (1 : Fin 2) * 32 + 1 * (y 1).val = (y 1).val; rw [e31]; omega
theorem emb1_4 (t : Fin cfg1.N) (y : S1x32.Idx) : ((cfg1.win 4).blk t).view.emb y = y := by
  obtain ⟨e00, e01, e10, e11, e20, e21, e30, e31, e40, e41, e50, e51⟩ := idx1_facts t
  funext a; apply Fin.ext
  match a with
  | ⟨0, _⟩ => show win1_4.index t (0 : Fin 2) * 1 + 1 * (y 0).val = (y 0).val; rw [e40]; omega
  | ⟨1, _⟩ => show win1_4.index t (1 : Fin 2) * 32 + 1 * (y 1).val = (y 1).val; rw [e41]; omega
theorem emb1_5 (t : Fin cfg1.N) (ht : t.val < 200) (p : Fin 8000) (q : Fin 32) :
    ((cfg1.win 5).blk t).view.emb (ix2 p q) = ix2 (⟨t.val * 8000 + p.val, by have := p.isLt; omega⟩ : Fin 1600000) q := by
  obtain ⟨e00, e01, e10, e11, e20, e21, e30, e31, e40, e41, e50, e51⟩ := idx1_facts t
  funext a; apply Fin.ext
  match a with
  | ⟨0, _⟩ => show win1_5.index t (0 : Fin 2) * 8000 + 1 * p.val = t.val * 8000 + p.val; rw [e50]; omega
  | ⟨1, _⟩ => show win1_5.index t (1 : Fin 2) * 32 + 1 * q.val = q.val; rw [e51]; omega

variable (V : (c : Dev nD) → (b : Ref sig .tc) → Buf (Elt Ideal) ((c : Thread nD τ).loc b))

set_option maxHeartbeats 1000000 in
/-- What point `t` writes back is block `t` of the host program's layer of the arrays the region is entered with. -/
theorem flushed1_eq (c : Dev nD) (t : Fin cfg1.N) :
    (dat1 (F := Ideal) V c).flushed 5 t = ((cfg1.win 5).blk t).view.read (Elt Ideal)
      (Cert.HostForms.mlp2Edge (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  unfold out1
  rw [View.canon_unit_zero hz2]
  simp only [View.ld_unit_zero (S := S8000x1) hz2, View.ld_unit_zero (S := S1x32) hz2, View.ld_unit_zero (S := S1x32) hz2,
    View.ld_unit_zero (S := S32x32) hz2, View.ld_unit_zero (S := S1x32) hz2]
  have hN : cfg1.N = 200 := N_1
  have ht : t.val < 200 := by have := t.isLt; omega
  refine funext fun (j : S8000x32.Idx) => ?_
  obtain ⟨p, q, rfl⟩ : ∃ (p : Fin 8000) (q : Fin 32), j = ix2 p q := ⟨j 0, j 1, eq_ix2 j⟩
  rw [View.read_apply, emb1_5 t ht p q]
  exact point1 _ _ _ _ _ _ _ _ _ _ p q _
    (fun i => congrArg (V c (Pipeline.arrRef spec1 0)) (emb1_0 t ht p i))
    (fun y => congrArg (V c (Pipeline.arrRef spec1 1)) (emb1_1 t y))
    (fun y => congrArg (V c (Pipeline.arrRef spec1 2)) (emb1_2 t y))
    (fun y => congrArg (V c (Pipeline.arrRef spec1 3)) (emb1_3 t y))
    (fun y => congrArg (V c (Pipeline.arrRef spec1 4)) (emb1_4 t y))

/-- An entry of the output array is in point `t`'s block iff each coordinate is in the block's range on its axis. -/
theorem mem_blk1 (t : Fin cfg1.N) (i : S1600000x32.Idx) :
    i ∈ ((cfg1.win 5).blk t).view.set ↔ ∀ a : Fin 2, win1_5.index t a * S8000x32.size a ≤ (i a).val ∧ (i a).val < win1_5.index t a * S8000x32.size a + S8000x32.size a := by
  show i ∈ ((View.whole main_v12).slice (win1_5.rect t)).set ↔ _
  rw [View.set_slice_whole, Rect.mem_set_unit]
  exact Iff.rfl

/-- THE OUTPUT ARRAY after the last grid point is the host program's two-layer perceptron of the arrays the region is
    entered with: row `r` is in the block of point `r / 8000`. -/
theorem final1 (c : Dev nD) :
    (dat1 (F := Ideal) V c).arrAt 5 cfg1.N = Cert.HostForms.mlp2Edge (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1_eq V c t) fun i => by
    have hN : cfg1.N = 200 := N_1
    have hi0 : (i 0 : Nat) < 1600000 := (i 0).isLt
    have hi1 : (i 1 : Nat) < 32 := (i 1).isLt
    obtain ⟨t, ht⟩ : ∃ t : Fin cfg1.N, t.val = (i 0 : Nat) / 8000 := ⟨⟨(i 0 : Nat) / 8000, by rw [hN]; omega⟩, rfl⟩
    obtain ⟨e00, e01, e10, e11, e20, e21, e30, e31, e40, e41, e50, e51⟩ := idx1_facts t
    refine ⟨t, flush1_5 t, ?_⟩
    rw [mem_blk1]
    intro a
    match a with
    | ⟨0, _⟩ => show win1_5.index t (0 : Fin 2) * 8000 ≤ (i 0 : Nat) ∧ (i 0 : Nat) < win1_5.index t (0 : Fin 2) * 8000 + 8000; rw [e50]; omega
    | ⟨1, _⟩ => show win1_5.index t (1 : Fin 2) * 32 ≤ (i 1 : Nat) ∧ (i 1 : Nat) < win1_5.index t (1 : Fin 2) * 32 + 32; rw [e51]; omega

end Cert.KernelIdeal.Hand

end
-- ==== Proof.Ideal.Final02.lean ====
import proofs.«106349_j21990232555677_1_alg».proof.Proof.Ideal.Region02
import proofs.«106349_j21990232555677_1_alg».proof.Proof.Ideal.HostForms
import Idealize.ShloMosaic.Lib.ValueIdx
import Idealize.ShloMosaic.Lib.Pipeline.Value
import Idealize.ShloMosaic.PureOps.Ideal.Laws

/-!
# Region 2 as one function of its arrays: the message `relu (a + e)` on `[1600000, 32]`

Over the extended reals. The body's payload at an index of a block is the larger of zero and the sum of the two
input blocks' entries there; the host's message layer at an index of the array is the same expression of the two
arrays' entries. Block `t` of each of the three windows is rows `8000 t … 8000 t + 7999` of its array, all 32 columns,
so what point `t` writes back is block `t` of the host's layer applied to the arrays the region is entered with; the
200 blocks cover the rows, and the output array ends holding that layer.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The block's offsets inside its staging buffer are zero on both axes. -/
theorem zero_off2 : (![0, 0] : Fin 2 → Nat) = fun _ => 0 := funext fun a => by fin_cases a <;> rfl

/-- The body's payload at an index: the larger of the sum of the two blocks' entries and zero. -/
theorem pay2_apply (x0 x1 : Vec Ideal S8000x32 .f32) (j : S8000x32.Idx) :
    k2_pay1 x0 x1 j = max (x0 j + x1 j) (Ideal.ofBits .f32 0x00000000#32) := by
  unfold k2_pay1
  simp only [shapeCast_self]
  rfl

/-- The host's message layer at an index: the same expression of the two arrays' entries. -/
theorem host2_apply (a e : FVec Ideal S1600000x32 .f32) (i : S1600000x32.Idx) :
    Cert.HostForms.reluAdd32 a e i = max (a i + e i) (Ideal.ofBits .f32 0x00000000#32) := by
  unfold Cert.HostForms.reluAdd32
  rw [maximumf_apply, addf_apply]
  exact congrArg (max (a i + e i)) (broadcastInDim_apply _ _ _ i (fun a => a.elim0) (fun a => a.elim0))

/-- The three index maps over the grid: at point `t` each window is on block row `t`, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Input window 0's block at point `t` is rows `8000 t …` of its array. -/
theorem iblk2_0_apply (c : Dev nD) (t : Fin cfg2.N) (x : S8000x32.Idx) (k : S1600000x32.Idx)
    (hk0 : (k 0).val = t.val * 8000 + (x 0).val) (hk1 : (k 1).val = (x 1).val) :
    (iblk2 V c 0 t : Vec Ideal S8000x32 .f32) x = (V c (Pipeline.arrRef spec2 0) : S1600000x32.Idx → Elt Ideal .f32) k := by
  obtain ⟨e0, e1, -⟩ := idx_facts2 t
  show V c (Pipeline.arrRef spec2 0) (((cfg2.win 0).blk t).view.emb x) = V c (Pipeline.arrRef spec2 0) k
  refine congrArg _ (funext fun a => Fin.ext ?_)
  match a with
  | ⟨0, _⟩ => show win2_0.index t (0 : Fin 2) * 8000 + 1 * (x 0).val = (k 0).val; rw [e0, hk0]; omega
  | ⟨1, _⟩ => show win2_0.index t (1 : Fin 2) * 32 + 1 * (x 1).val = (k 1).val; rw [e1, hk1]; omega

/-- Input window 1's block at point `t` is rows `8000 t …` of its array. -/
theorem iblk2_1_apply (c : Dev nD) (t : Fin cfg2.N) (x : S8000x32.Idx) (k : S1600000x32.Idx)
    (hk0 : (k 0).val = t.val * 8000 + (x 0).val) (hk1 : (k 1).val = (x 1).val) :
    (iblk2 V c 1 t : Vec Ideal S8000x32 .f32) x = (V c (Pipeline.arrRef spec2 1) : S1600000x32.Idx → Elt Ideal .f32) k := by
  obtain ⟨-, -, e0, e1, -⟩ := idx_facts2 t
  show V c (Pipeline.arrRef spec2 1) (((cfg2.win 1).blk t).view.emb x) = V c (Pipeline.arrRef spec2 1) k
  refine congrArg _ (funext fun a => Fin.ext ?_)
  match a with
  | ⟨0, _⟩ => show win2_1.index t (0 : Fin 2) * 8000 + 1 * (x 0).val = (k 0).val; rw [e0, hk0]; omega
  | ⟨1, _⟩ => show win2_1.index t (1 : Fin 2) * 32 + 1 * (x 1).val = (k 1).val; rw [e1, hk1]; omega

/-- Where the output window's block at point `t` puts its element `x`: row `8000 t + x 0`, column `x 1`. -/
theorem oemb2_val (t : Fin cfg2.N) (x : S8000x32.Idx) :
    ((((cfg2.win 2).blk t).view.emb x : S1600000x32.Idx) 0).val = t.val * 8000 + (x 0).val
    ∧ ((((cfg2.win 2).blk t).view.emb x : S1600000x32.Idx) 1).val = (x 1).val := by
  obtain ⟨-, -, -, -, e0, e1⟩ := idx_facts2 t
  constructor
  · show win2_2.index t (0 : Fin 2) * 8000 + 1 * (x 0).val = _; rw [e0]; omega
  · show win2_2.index t (1 : Fin 2) * 32 + 1 * (x 1).val = _; rw [e1]; omega

/-- What point `t` writes back is block `t` of the host's message layer of the two arrays as the region finds them. -/
theorem flushed2_eq (c : Dev nD) (t : Fin cfg2.N) :
    (dat2 V c).flushed 2 t = ((cfg2.win 2).blk t).view.read (Elt Ideal)
      (Cert.HostForms.reluAdd32 (V c (Pipeline.arrRef spec2 0)) (V c (Pipeline.arrRef spec2 1))) := by
  show (cfg2.win 2).cut (grid2.coords t) ((dat2 V c).after 2 t) = _
  rw [after2_2]
  unfold out2
  rw [View.canon_unit_zero zero_off2]
  simp only [View.ld_unit_zero (S := S8000x32) zero_off2]
  funext j
  obtain ⟨h0, h1⟩ := oemb2_val t j
  show k2_pay1 (iblk2 V c 0 t) (iblk2 V c 1 t) j
    = Cert.HostForms.reluAdd32 (V c (Pipeline.arrRef spec2 0)) (V c (Pipeline.arrRef spec2 1)) (((cfg2.win 2).blk t).view.emb j)
  refine (pay2_apply _ _ j).trans (Eq.trans ?_ (host2_apply _ _ _).symm)
  rw [iblk2_0_apply V c t j _ h0 h1, iblk2_1_apply V c t j _ h0 h1]

/-- An index of the array is in point `t`'s block iff each coordinate is in the block's range on its axis. -/
theorem mem_blk2 (t : Fin cfg2.N) (i : S1600000x32.Idx) :
    i ∈ ((cfg2.win 2).blk t).view.set ↔ ∀ a : Fin 2, win2_2.index t a * S8000x32.size a ≤ (i a).val ∧ (i a).val < win2_2.index t a * S8000x32.size a + S8000x32.size a := by
  show i ∈ ((View.whole (Pipeline.arrRef spec2 2)).slice (win2_2.rect t)).set ↔ _
  rw [View.set_slice_whole, Rect.mem_set_unit]
  exact Iff.rfl

/-- Every index of the array is in some point's block: row `r` is in block `r / 8000`. -/
theorem cover_all2 (i : S1600000x32.Idx) :
    ∃ t : Fin cfg2.N, (cfg2.win 2).flush t = true ∧ i ∈ ((cfg2.win 2).blk t).view.set := by
  have hN : cfg2.N = 200 := N_2
  have hi0 : (i 0).val < 1600000 := (i 0).isLt
  have hi1 : (i 1).val < 32 := (i 1).isLt
  have ht : (i 0).val / 8000 < cfg2.N := by rw [hN]; omega
  obtain ⟨-, -, -, -, e0, e1⟩ := idx_facts2 ⟨(i 0).val / 8000, ht⟩
  refine ⟨⟨(i 0).val / 8000, ht⟩, flush2_2 _, ?_⟩
  rw [mem_blk2]
  intro a
  match a with
  | ⟨0, _⟩ =>
    show win2_2.index ⟨(i 0).val / 8000, ht⟩ (0 : Fin 2) * 8000 ≤ (i 0).val ∧ (i 0).val < win2_2.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win2_2.index ⟨(i 0).val / 8000, ht⟩ (1 : Fin 2) * 32 ≤ (i 1).val ∧ (i 1).val < win2_2.index ⟨(i 0).val / 8000, ht⟩ (1 : Fin 2) * 32 + 32
    rw [e1]; omega

/-- The output array after the last grid point is the host's message layer of the two arrays the region is entered with. -/
theorem final2 (V : (c : Dev nD) → (b : Ref sig .tc) → Buf (Elt Ideal) ((c : Thread nD τ).loc b)) (c : Dev nD) :
    (dat2 (F := Ideal) V c).arrAt 2 cfg2.N = Cert.HostForms.reluAdd32 (V c (Pipeline.arrRef spec2 0)) (V c (Pipeline.arrRef spec2 1)) :=
  (dat2 V c).arrAt_eq_of_cover 2 _ (fun t _ => flushed2_eq V c t) (cover_all2)

end Cert.KernelIdeal.Hand

end
-- ==== Proof.Ideal.Final03.lean ====
import proofs.«106349_j21990232555677_1_alg».proof.Proof.Ideal.Region03
import proofs.«106349_j21990232555677_1_alg».proof.Proof.Ideal.HostForms
import Idealize.ShloMosaic.Lib.ValueIdx
import Idealize.ShloMosaic.Lib.Pipeline.Value
import Idealize.ShloMosaic.Lib.ValueLayout
import Idealize.ShloMosaic.PureOps.Ideal.Laws

/-!
# Region 3: the node update's array after the last grid point

The body stores `relu (relu ((x + agg) · W1 + b1) · W2 + b2)` of the blocks it loads. Read at one row and one column,
over the extended reals, each matrix product is the sum over its contraction index, a bias row repeated down the rows
reads its column, and `relu` is the maximum with the zero word's value; the host's spelling of the layer read at the
same row and column is the same expression. Grid point `t` loads rows `10000 t … 10000 t + 9999` of `x` and `agg`
and the whole weights and bias rows, and writes back those rows of the result; the ten blocks tile the array, so the
array ends holding the host's function of the arrays the region is entered with.
-/

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem nu3_mm1_l0 (i : S10000x64.Idx) (q : dot_S10000x32_S32x64_S10000x64_1_0_0_1_n_n.contr.Idx) : (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem nu3_mm1_l1 (i : S10000x64.Idx) (q : dot_S10000x32_S32x64_S10000x64_1_0_0_1_n_n.contr.Idx) : (dot_S10000x32_S32x64_S10000x64_1_0_0_1_n_n.lhsIdx i q 1).val = (q ⟨0, by decide⟩).val :=
  dot_S10000x32_S32x64_S10000x64_1_0_0_1_n_n.lhsIdx_val_of_single rfl i q
theorem nu3_mm1_r0 (i : S10000x64.Idx) (q : dot_S10000x32_S32x64_S10000x64_1_0_0_1_n_n.contr.Idx) : (dot_S10000x32_S32x64_S10000x64_1_0_0_1_n_n.rhsIdx i q 0).val = (q ⟨0, by decide⟩).val :=
  dot_S10000x32_S32x64_S10000x64_1_0_0_1_n_n.rhsIdx_val_of_single rfl i q
theorem nu3_mm1_r1 (i : S10000x64.Idx) (q : dot_S10000x32_S32x64_S10000x64_1_0_0_1_n_n.contr.Idx) : (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The block's first product at row `p`, column `k`: the sum over the 32 input features. -/
theorem nu3_mm1 (L : FVec Ideal S10000x32 .bf16) (R : FVec Ideal S32x64 .bf16) (p : Fin 10000) (k : Fin 64) :
    matmul dot_S10000x32_S32x64_S10000x64_1_0_0_1_n_n none L R (constant (F := Ideal) S10000x64 .f32 0x00000000#32) (ix2 p k)
      = ∑ l : Fin 32, L (ix2 p l) * R (ix2 l k) := by
  refine (Ideal.matmul_constant_zero_apply dot_S10000x32_S32x64_S10000x64_1_0_0_1_n_n none L R (ix2 p k)).trans ?_
  rw [← Equiv.sum_comp (contrEquiv1 dot_S10000x32_S32x64_S10000x64_1_0_0_1_n_n 32 rfl rfl).symm]
  refine Finset.sum_congr rfl fun l _ => ?_
  have hl := contrEquiv1_symm_val dot_S10000x32_S32x64_S10000x64_1_0_0_1_n_n 32 rfl rfl l
  have el : dot_S10000x32_S32x64_S10000x64_1_0_0_1_n_n.lhsIdx (ix2 p k) ((contrEquiv1 dot_S10000x32_S32x64_S10000x64_1_0_0_1_n_n 32 rfl rfl).symm l) = ix2 p l := funext fun a => Fin.ext (by
    match a with
    | ⟨0, _⟩ => exact nu3_mm1_l0 _ _
    | ⟨1, _⟩ => exact (nu3_mm1_l1 _ _).trans hl)
  have er : dot_S10000x32_S32x64_S10000x64_1_0_0_1_n_n.rhsIdx (ix2 p k) ((contrEquiv1 dot_S10000x32_S32x64_S10000x64_1_0_0_1_n_n 32 rfl rfl).symm l) = ix2 l k := funext fun a => Fin.ext (by
    match a with
    | ⟨0, _⟩ => exact (nu3_mm1_r0 _ _).trans hl
    | ⟨1, _⟩ => exact nu3_mm1_r1 _ _)
  rw [el, er]

theorem nu3_mm2_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem nu3_mm2_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem nu3_mm2_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem nu3_mm2_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block's second product at row `p`, column `k`: the sum over the 64 hidden features. -/
theorem nu3_mm2 (L : FVec Ideal S10000x64 .bf16) (R : FVec Ideal S64x64 .bf16) (p : Fin 10000) (k : Fin 64) :
    matmul dot_S10000x64_S64x64_S10000x64_1_0_0_1_n_n none L R (constant (F := Ideal) S10000x64 .f32 0x00000000#32) (ix2 p k)
      = ∑ l : Fin 64, L (ix2 p l) * R (ix2 l k) := by
  refine (Ideal.matmul_constant_zero_apply dot_S10000x64_S64x64_S10000x64_1_0_0_1_n_n none L R (ix2 p k)).trans ?_
  rw [← Equiv.sum_comp (contrEquiv1 dot_S10000x64_S64x64_S10000x64_1_0_0_1_n_n 64 rfl rfl).symm]
  refine Finset.sum_congr rfl fun l _ => ?_
  have hl := contrEquiv1_symm_val dot_S10000x64_S64x64_S10000x64_1_0_0_1_n_n 64 rfl rfl l
  have el : dot_S10000x64_S64x64_S10000x64_1_0_0_1_n_n.lhsIdx (ix2 p k) ((contrEquiv1 dot_S10000x64_S64x64_S10000x64_1_0_0_1_n_n 64 rfl rfl).symm l) = ix2 p l := funext fun a => Fin.ext (by
    match a with
    | ⟨0, _⟩ => exact nu3_mm2_l0 _ _
    | ⟨1, _⟩ => exact (nu3_mm2_l1 _ _).trans hl)
  have er : dot_S10000x64_S64x64_S10000x64_1_0_0_1_n_n.rhsIdx (ix2 p k) ((contrEquiv1 dot_S10000x64_S64x64_S10000x64_1_0_0_1_n_n 64 rfl rfl).symm l) = ix2 l k := funext fun a => Fin.ext (by
    match a with
    | ⟨0, _⟩ => exact (nu3_mm2_r0 _ _).trans hl
    | ⟨1, _⟩ => exact nu3_mm2_r1 _ _)
  rw [el, er]

theorem nu3_hd1_l0 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x64_S100000x64_1_0_0_1_n_n.lhsBatch by decide), dif_pos (show (0 : Fin Cert.ReferenceIdeal.S100000x32.rank) ∈ Cert.ReferenceIdeal.dot_S100000x32_S32x64_S100000x64_1_0_0_1_n_n.lhsNonContracting by decide)]
  rfl
theorem nu3_hd1_l1 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.lhsIdx i q 1).val = (q ⟨0, by decide⟩).val :=
  Cert.ReferenceIdeal.dot_S100000x32_S32x64_S100000x64_1_0_0_1_n_n.lhsIdx_val_of_single rfl i q
theorem nu3_hd1_r0 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.rhsIdx i q 0).val = (q ⟨0, by decide⟩).val :=
  Cert.ReferenceIdeal.dot_S100000x32_S32x64_S100000x64_1_0_0_1_n_n.rhsIdx_val_of_single rfl i q
theorem nu3_hd1_r1 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.rhsIdx i q 1).val = (i 1).val := by
  unfold DotDims.rhsIdx
  rw [dif_neg (show ¬(1 : Fin Cert.ReferenceIdeal.S32x64.rank) ∈ Cert.ReferenceIdeal.dot_S100000x32_S32x64_S100000x64_1_0_0_1_n_n.rhsBatch by decide), dif_pos (show (1 : Fin Cert.ReferenceIdeal.S32x64.rank) ∈ Cert.ReferenceIdeal.dot_S100000x32_S32x64_S100000x64_1_0_0_1_n_n.rhsNonContracting by decide)]
  rfl

/-- The host's first product at row `p`, column `k`: the same sum over the 32 input features. -/
theorem nu3_hd1 (L : FVec Ideal Cert.ReferenceIdeal.S100000x32 .f32) (R : FVec Ideal Cert.ReferenceIdeal.S32x64 .f32) (p : Fin 100000) (k : Fin 64) :
    Host.dotGeneral (F := Ideal) Cert.ReferenceIdeal.dot_S100000x32_S32x64_S100000x64_1_0_0_1_n_n none L R (ix2 p k)
      = ∑ l : Fin 32, L (ix2 p l) * R (ix2 l k) := by
  simp only [Host.dotGeneral]
  rw [Ideal.dotGeneral_apply, ← Equiv.sum_comp (contrEquiv1 Cert.ReferenceIdeal.dot_S100000x32_S32x64_S100000x64_1_0_0_1_n_n 32 rfl rfl).symm]
  refine Finset.sum_congr rfl fun l _ => ?_
  have hl := contrEquiv1_symm_val Cert.ReferenceIdeal.dot_S100000x32_S32x64_S100000x64_1_0_0_1_n_n 32 rfl rfl l
  have el : Cert.ReferenceIdeal.dot_S100000x32_S32x64_S100000x64_1_0_0_1_n_n.lhsIdx (ix2 p k) ((contrEquiv1 Cert.ReferenceIdeal.dot_S100000x32_S32x64_S100000x64_1_0_0_1_n_n 32 rfl rfl).symm l) = ix2 p l := funext fun a => Fin.ext (by
    match a with
    | ⟨0, _⟩ => exact nu3_hd1_l0 _ _
    | ⟨1, _⟩ => exact (nu3_hd1_l1 _ _).trans hl)
  have er : Cert.ReferenceIdeal.dot_S100000x32_S32x64_S100000x64_1_0_0_1_n_n.rhsIdx (ix2 p k) ((contrEquiv1 Cert.ReferenceIdeal.dot_S100000x32_S32x64_S100000x64_1_0_0_1_n_n 32 rfl rfl).symm l) = ix2 l k := funext fun a => Fin.ext (by
    match a with
    | ⟨0, _⟩ => exact (nu3_hd1_r0 _ _).trans hl
    | ⟨1, _⟩ => exact nu3_hd1_r1 _ _)
  rw [el, er]

theorem nu3_hd2_l0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem nu3_hd2_l1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem nu3_hd2_r0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem nu3_hd2_r1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's second product at row `p`, column `k`: the same sum over the 64 hidden features. -/
theorem nu3_hd2 (L : FVec Ideal Cert.ReferenceIdeal.S100000x64 .f32) (R : FVec Ideal Cert.ReferenceIdeal.S64x64 .f32) (p : Fin 100000) (k : Fin 64) :
    Host.dotGeneral (F := Ideal) Cert.ReferenceIdeal.dot_S100000x64_S64x64_S100000x64_1_0_0_1_n_n none L R (ix2 p k)
      = ∑ l : Fin 64, L (ix2 p l) * R (ix2 l k) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun l _ => ?_
  have hl := contrEquiv1_symm_val Cert.ReferenceIdeal.dot_S100000x64_S64x64_S100000x64_1_0_0_1_n_n 64 rfl rfl l
  have el : Cert.ReferenceIdeal.dot_S100000x64_S64x64_S100000x64_1_0_0_1_n_n.lhsIdx (ix2 p k) ((contrEquiv1 Cert.ReferenceIdeal.dot_S100000x64_S64x64_S100000x64_1_0_0_1_n_n 64 rfl rfl).symm l) = ix2 p l := funext fun a => Fin.ext (by
    match a with
    | ⟨0, _⟩ => exact nu3_hd2_l0 _ _
    | ⟨1, _⟩ => exact (nu3_hd2_l1 _ _).trans hl)
  have er : Cert.ReferenceIdeal.dot_S100000x64_S64x64_S100000x64_1_0_0_1_n_n.rhsIdx (ix2 p k) ((contrEquiv1 Cert.ReferenceIdeal.dot_S100000x64_S64x64_S100000x64_1_0_0_1_n_n 64 rfl rfl).symm l) = ix2 l k := funext fun a => Fin.ext (by
    match a with
    | ⟨0, _⟩ => exact (nu3_hd2_r0 _ _).trans hl
    | ⟨1, _⟩ => exact nu3_hd2_r1 _ _)
  rw [el, er]

/-- A bias row `[1, 64]` repeated down the block's rows reads its column. -/
theorem nu3_brow (b : FVec Ideal S1x64 .f32) (hb : S1x64.Broadcasts S10000x64) (p : Fin 10000) (k : Fin 64) :
    broadcastTo S10000x64 b hb (ix2 p k) = b (ix2 0 k) := by
  refine broadcastTo_apply b hb (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's bias row repeated down the array's rows reads its column. -/
theorem nu3_hrow (b : FVec Ideal Cert.ReferenceIdeal.S1x64 .f32) (hb : Cert.ReferenceIdeal.S1x64.BroadcastsInDim Cert.ReferenceIdeal.S100000x64 (![0, 1] : Fin 2 → Fin Cert.ReferenceIdeal.S100000x64.rank)) (p : Fin 100000) (k : Fin 64) :
    broadcastInDim Cert.ReferenceIdeal.S100000x64 ![0, 1] hb b (ix2 p k) = b (ix2 0 k) := by
  refine broadcastInDim_apply _ hb b (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's zero, spread over the array, reads the zero word's value everywhere. -/
theorem nu3_hzero (dims : Fin Cert.ReferenceIdeal.S_.rank → Fin Cert.ReferenceIdeal.S100000x64.rank) (hb : Cert.ReferenceIdeal.S_.BroadcastsInDim Cert.ReferenceIdeal.S100000x64 dims) (i : Cert.ReferenceIdeal.S100000x64.Idx) :
    broadcastInDim Cert.ReferenceIdeal.S100000x64 dims hb (constant (F := Ideal) Cert.ReferenceIdeal.S_ .f32 0x00000000#32) i = Ideal.ofBits .f32 0x00000000#32 :=
  broadcastInDim_apply _ hb _ i (fun a => a.elim0) (fun a => a.elim0)

/-- The body's stored value at row `p`, column `q` of the block. -/
theorem nu3_pay_apply (v0 v2 : Vec Ideal S10000x32 .f32) (v6 : Vec Ideal S32x64 .f32) (v9 : Vec Ideal S1x64 .f32) (v15 : Vec Ideal S64x64 .f32) (v19 : Vec Ideal S1x64 .f32) (p : Fin 10000) (q : Fin 64) :
    k3_pay1 v0 v2 v6 v9 v15 v19 (ix2 p q)
      = max ((∑ k : Fin 64, max ((∑ l : Fin 32, (v0 (ix2 p l) + v2 (ix2 p l)) * v6 (ix2 l k)) + v9 (ix2 0 k)) (Ideal.ofBits .f32 0x00000000#32) * v15 (ix2 k q)) + v19 (ix2 0 q)) (Ideal.ofBits .f32 0x00000000#32) := by
  unfold k3_pay1
  simp only [maximumf_apply, addf_apply, broadcast_apply, nu3_brow, nu3_mm2, nu3_mm1, truncf_apply, shapeCast_self]
  rfl

/-- The host's node update at row `r`, column `q` of the array. -/
theorem nu3_host_apply (x agg : FVec Ideal Cert.ReferenceIdeal.S100000x32 .f32) (W1 : FVec Ideal Cert.ReferenceIdeal.S32x64 .f32) (b1 : FVec Ideal Cert.ReferenceIdeal.S1x64 .f32) (W2 : FVec Ideal Cert.ReferenceIdeal.S64x64 .f32) (b2 : FVec Ideal Cert.ReferenceIdeal.S1x64 .f32) (r : Fin 100000) (q : Fin 64) :
    Cert.HostForms.nodeUpdate32 x agg W1 b1 W2 b2 (ix2 r q)
      = max ((∑ k : Fin 64, max ((∑ l : Fin 32, (x (ix2 r l) + agg (ix2 r l)) * W1 (ix2 l k)) + b1 (ix2 0 k)) (Ideal.ofBits .f32 0x00000000#32) * W2 (ix2 k q)) + b2 (ix2 0 q)) (Ideal.ofBits .f32 0x00000000#32) := by
  unfold Cert.HostForms.nodeUpdate32
  simp only [maximumf_apply, addf_apply, nu3_hzero, nu3_hd2, nu3_hd1]
  rw [nu3_hrow]
  refine congrArg (fun s : EReal => max (s + b2 (ix2 0 q)) (Ideal.ofBits .f32 0x00000000#32)) (Finset.sum_congr rfl fun k _ => ?_)
  rw [nu3_hrow]

/-- One element of the block's stored value is the host's node update at the array's matching row, once each loaded
    block is known to hold the matching entries of its array. -/
theorem nu3_point (v0 v2 : Vec Ideal S10000x32 .f32) (v6 : Vec Ideal S32x64 .f32) (v9 : Vec Ideal S1x64 .f32) (v15 : Vec Ideal S64x64 .f32) (v19 : Vec Ideal S1x64 .f32)
    (x agg : FVec Ideal Cert.ReferenceIdeal.S100000x32 .f32) (W1 : FVec Ideal Cert.ReferenceIdeal.S32x64 .f32) (b1 : FVec Ideal Cert.ReferenceIdeal.S1x64 .f32) (W2 : FVec Ideal Cert.ReferenceIdeal.S64x64 .f32) (b2 : FVec Ideal Cert.ReferenceIdeal.S1x64 .f32)
    (p : Fin 10000) (q : Fin 64) (r : Fin 100000)
    (h0 : ∀ l : Fin 32, v0 (ix2 p l) = x (ix2 r l)) (h1 : ∀ l : Fin 32, v2 (ix2 p l) = agg (ix2 r l))
    (h2 : ∀ (l : Fin 32) (k : Fin 64), v6 (ix2 l k) = W1 (ix2 l k)) (h3 : ∀ k : Fin 64, v9 (ix2 0 k) = b1 (ix2 0 k))
    (h4 : ∀ (k k' : Fin 64), v15 (ix2 k k') = W2 (ix2 k k')) (h5 : ∀ k : Fin 64, v19 (ix2 0 k) = b2 (ix2 0 k)) :
    k3_pay1 v0 v2 v6 v9 v15 v19 (ix2 p q) = Cert.HostForms.nodeUpdate32 x agg W1 b1 W2 b2 (ix2 r q) := by
  rw [nu3_pay_apply, nu3_host_apply]
  simp only [h0, h1, h2, h3, h4, h5]

variable (V : (c : Dev nD) → (b : Ref sig .tc) → Buf (Elt Ideal) ((c : Thread nD τ).loc b))

theorem nu3_hz : (![0, 0] : Fin 2 → Nat) = fun _ => 0 := funext fun a => by fin_cases a <;> rfl

/-- The index maps over the grid: the row windows' block index is the grid point on the row axis, the weights' and
    the bias rows' is zero. -/
theorem nu3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1000000 in
/-- What grid point `t` writes back is block `t` of the host's node update of the arrays the region is entered with. -/
theorem nu3_flushed_eq (c : Dev nD) (t : Fin cfg3.N) :
    (dat3 (F := Ideal) V c).flushed 6 t = ((cfg3.win 6).blk t).view.read (Elt Ideal)
      (Cert.HostForms.nodeUpdate32 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3
  rw [View.canon_unit_zero nu3_hz]
  simp only [View.ld_unit_zero (S := S10000x32) nu3_hz, View.ld_unit_zero (S := S32x64) nu3_hz, View.ld_unit_zero (S := S1x64) nu3_hz, View.ld_unit_zero (S := S64x64) nu3_hz]
  obtain ⟨e00, e01, e10, e11, e20, e21, e30, e31, e40, e41, e50, e51, e60, e61⟩ := nu3_idx_facts t
  have ht : t.val < 10 := by have h := t.isLt; have hN : cfg3.N = 10 := N_3; omega
  funext j
  obtain ⟨p, q, rfl⟩ : ∃ (p : Fin 10000) (q : Fin 64), j = ix2 p q := ⟨j 0, j 1, eq_ix2 j⟩
  have hp : p.val < 10000 := p.isLt
  show k3_pay1 (iblk3 V c 0 t) (iblk3 V c 1 t) (iblk3 V c 2 t) (iblk3 V c 3 t) (iblk3 V c 4 t) (iblk3 V c 5 t) (ix2 p q)
      = Cert.HostForms.nodeUpdate32 _ _ _ _ _ _ (((cfg3.win 6).blk t).view.emb (ix2 p q))
  have hemb : ((cfg3.win 6).blk t).view.emb (ix2 p q) = ix2 (⟨t.val * 10000 + p.val, by omega⟩ : Fin 100000) q := by
    funext a; apply Fin.ext
    match a with
    | ⟨0, _⟩ => show win3_6.index t (0 : Fin 2) * 10000 + 1 * p.val = t.val * 10000 + p.val; rw [e60]; omega
    | ⟨1, _⟩ => show win3_6.index t (1 : Fin 2) * 64 + 1 * q.val = q.val; rw [e61]; omega
  rw [hemb]
  refine nu3_point _ _ _ _ _ _ _ _ _ _ _ _ p q _ ?_ ?_ ?_ ?_ ?_ ?_
  · intro l
    show V c (Pipeline.arrRef spec3 0) (((cfg3.win 0).blk t).view.emb (ix2 p l)) = V c (Pipeline.arrRef spec3 0) (ix2 _ l)
    refine congrArg _ (funext fun a => Fin.ext ?_)
    match a with
    | ⟨0, _⟩ => show win3_0.index t (0 : Fin 2) * 10000 + 1 * p.val = t.val * 10000 + p.val; rw [e00]; omega
    | ⟨1, _⟩ => show win3_0.index t (1 : Fin 2) * 32 + 1 * l.val = l.val; rw [e01]; omega
  · intro l
    show V c (Pipeline.arrRef spec3 1) (((cfg3.win 1).blk t).view.emb (ix2 p l)) = V c (Pipeline.arrRef spec3 1) (ix2 _ l)
    refine congrArg _ (funext fun a => Fin.ext ?_)
    match a with
    | ⟨0, _⟩ => show win3_1.index t (0 : Fin 2) * 10000 + 1 * p.val = t.val * 10000 + p.val; rw [e10]; omega
    | ⟨1, _⟩ => show win3_1.index t (1 : Fin 2) * 32 + 1 * l.val = l.val; rw [e11]; omega
  · intro l k
    show V c (Pipeline.arrRef spec3 2) (((cfg3.win 2).blk t).view.emb (ix2 l k)) = V c (Pipeline.arrRef spec3 2) (ix2 l k)
    refine congrArg _ (funext fun a => Fin.ext ?_)
    match a with
    | ⟨0, _⟩ => show win3_2.index t (0 : Fin 2) * 32 + 1 * l.val = l.val; rw [e20]; omega
    | ⟨1, _⟩ => show win3_2.index t (1 : Fin 2) * 64 + 1 * k.val = k.val; rw [e21]; omega
  · intro k
    show V c (Pipeline.arrRef spec3 3) (((cfg3.win 3).blk t).view.emb (ix2 0 k)) = V c (Pipeline.arrRef spec3 3) (ix2 0 k)
    refine congrArg _ (funext fun a => Fin.ext ?_)
    match a with
    | ⟨0, _⟩ => show win3_3.index t (0 : Fin 2) * 1 + 1 * 0 = 0; rw [e30]
    | ⟨1, _⟩ => show win3_3.index t (1 : Fin 2) * 64 + 1 * k.val = k.val; rw [e31]; omega
  · intro k k'
    show V c (Pipeline.arrRef spec3 4) (((cfg3.win 4).blk t).view.emb (ix2 k k')) = V c (Pipeline.arrRef spec3 4) (ix2 k k')
    refine congrArg _ (funext fun a => Fin.ext ?_)
    match a with
    | ⟨0, _⟩ => show win3_4.index t (0 : Fin 2) * 64 + 1 * k.val = k.val; rw [e40]; omega
    | ⟨1, _⟩ => show win3_4.index t (1 : Fin 2) * 64 + 1 * k'.val = k'.val; rw [e41]; omega
  · intro k
    show V c (Pipeline.arrRef spec3 5) (((cfg3.win 5).blk t).view.emb (ix2 0 k)) = V c (Pipeline.arrRef spec3 5) (ix2 0 k)
    refine congrArg _ (funext fun a => Fin.ext ?_)
    match a with
    | ⟨0, _⟩ => show win3_5.index t (0 : Fin 2) * 1 + 1 * 0 = 0; rw [e50]
    | ⟨1, _⟩ => show win3_5.index t (1 : Fin 2) * 64 + 1 * k.val = k.val; rw [e51]; omega

/-- An index of the result array is in point `t`'s block iff each coordinate is in the block's range on its axis. -/
theorem nu3_mem_blk (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v30).slice (win3_6.rect t)).set ↔ _
  rw [View.set_slice_whole, Rect.mem_set_unit]
  exact Iff.rfl

/-- Every row of the result array is in the block of the point `row / 10000`, which writes it back. -/
theorem nu3_covered (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 10 := N_3
  obtain ⟨T, hT⟩ : ∃ T : Fin cfg3.N, T.val = (i 0).val / 10000 := ⟨⟨(i 0).val / 10000, by rw [hN]; omega⟩, rfl⟩
  obtain ⟨-, -, -, -, -, -, -, -, -, -, -, -, e60, e61⟩ := nu3_idx_facts T
  refine ⟨T, flush3_6 T, ?_⟩
  rw [nu3_mem_blk]
  intro a
  match a with
  | ⟨0, _⟩ => show win3_6.index T (0 : Fin 2) * 10000 ≤ (i 0).val ∧ (i 0).val < win3_6.index T (0 : Fin 2) * 10000 + 10000; rw [e60, hT]; omega
  | ⟨1, _⟩ => show win3_6.index T (1 : Fin 2) * 64 ≤ (i 1).val ∧ (i 1).val < win3_6.index T (1 : Fin 2) * 64 + 64; rw [e61]; omega

/-- The result array after the last grid point is the host's node update of the arrays the region is entered with. -/
theorem final3 (V : (c : Dev nD) → (b : Ref sig .tc) → Buf (Elt Ideal) ((c : Thread nD τ).loc b)) (c : Dev nD) :
    (dat3 (F := Ideal) V c).arrAt 6 cfg3.N = Cert.HostForms.nodeUpdate32 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => nu3_flushed_eq V c t) nu3_covered

end Cert.KernelIdeal.Hand

end
-- ==== Proof.Ideal.Final04.lean ====
import proofs.«106349_j21990232555677_1_alg».proof.Proof.Ideal.Region04
import proofs.«106349_j21990232555677_1_alg».proof.Proof.Ideal.HostForms
import Idealize.ShloMosaic.Lib.ValueIdx
import Idealize.ShloMosaic.Lib.Pipeline.Value
import Idealize.ShloMosaic.Lib.KernelVsHost
import Idealize.ShloMosaic.PureOps.Ideal.Laws

/-!
# Region 4 as one function of its arrays: the edge projection `e · W + b` on `[1600000, 32] → [1600000, 64]`

Over the extended reals, where narrowing to half width is the identity and a product accumulated into a zero block is
the plain sum. The body's payload at row `p`, column `q` of a block is `∑ k, e (p, k) · W (k, q) + b (0, q)` over the 32
inner indices, of the block of `e`, the whole weight matrix and the whole bias row; the host's projection at row `r`,
column `q` of the array is the same sum, term by term in the same order. Block `t` of the edge window and of the output
window is rows `8000 t … 8000 t + 7999` of its array; the weight and bias windows are on their whole small arrays at every
point. So what point `t` writes back is block `t` of the host's projection of the arrays the region is entered with; the
200 blocks cover the rows, and the output array ends holding that projection.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- A block's offsets inside its staging buffer are zero on both axes. -/
theorem zero_off4 : (![0, 0] : Fin 2 → Nat) = fun _ => 0 := funext fun a => by fin_cases a <;> rfl

/-! ## The body's product at an index -/

/-- The left operand of the body's product is read at the output's row. -/
theorem klhs4_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl

/-- The right operand of the body's product is read at the output's column. -/
theorem krhs4_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- The body's product into a zero block, at row `p`, column `q`: the sum over the 32 inner indices. -/
theorem kmatmul4_apply (l : FVec Ideal S8000x32 .bf16) (r : FVec Ideal S32x64 .bf16) (p : Fin 8000) (q : Fin 64) :
    matmul dot_S8000x32_S32x64_S8000x64_1_0_0_1_n_n none l r (constant (F := Ideal) S8000x64 .f32 0x00000000#32) (ix2 p q)
      = ∑ k : Fin 32, l (ix2 p k) * r (ix2 k q) := by
  show FloatOps.matmul dot_S8000x32_S32x64_S8000x64_1_0_0_1_n_n none l r (constant (F := Ideal) S8000x64 .f32 0x00000000#32) (ix2 p q) = _
  rw [Ideal.matmul_constant_zero_apply, ← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 p q) ((contrEquiv1 dot_S8000x32_S32x64_S8000x64_1_0_0_1_n_n 32 rfl rfl).symm k) = ix2 p k := funext fun a => Fin.ext (by
    match a with
    | ⟨0, _⟩ => exact klhs4_0 _ _
    | ⟨1, _⟩ => exact (dot_S8000x32_S32x64_S8000x64_1_0_0_1_n_n.lhsIdx_val_of_single rfl (ix2 p q) _).trans hk)
  have er : dot_S8000x32_S32x64_S8000x64_1_0_0_1_n_n.rhsIdx (ix2 p q) ((contrEquiv1 dot_S8000x32_S32x64_S8000x64_1_0_0_1_n_n 32 rfl rfl).symm k) = ix2 k q := funext fun a => Fin.ext (by
    match a with
    | ⟨0, _⟩ => exact (dot_S8000x32_S32x64_S8000x64_1_0_0_1_n_n.rhsIdx_val_of_single rfl (ix2 p q) _).trans hk
    | ⟨1, _⟩ => exact krhs4_1 _ _)
  rw [el, er]

/-- The body's bias row repeated down the rows, at row `p`, column `q`: the row's entry in column `q`. -/
theorem kbias4_apply (b : FVec Ideal S1x64 .f32) (p : Fin 8000) (q : Fin 64) :
    broadcastTo S8000x64 b broadcasts_S1x64_S8000x64 (ix2 p q) = b (ix2 (0 : Fin 1) q) :=
  broadcastTo_apply b broadcasts_S1x64_S8000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else _; rw [if_neg (by decide)]; rfl)

/-- The body's payload at row `p`, column `q`. -/
theorem pay4_apply (x0 : FVec Ideal S8000x32 .f32) (x1 : FVec Ideal S32x64 .f32) (x2 : FVec Ideal S1x64 .f32) (p : Fin 8000) (q : Fin 64) :
    k4_pay1 x0 x1 x2 (ix2 p q) = (∑ k : Fin 32, x0 (ix2 p k) * x1 (ix2 k q)) + x2 (ix2 (0 : Fin 1) q) := by
  unfold k4_pay1
  simp only [shapeCast_self]
  rw [addf_apply]
  refine congrArg₂ (· + ·) ?_ (kbias4_apply x2 p q)
  exact kmatmul4_apply _ _ p q

/-! ## The host's projection at an index -/

/-- The left operand of the host's product is read at the output's row. -/
theorem hlhs4_0 (i : S1600000x64.Idx) (q : Cert.ReferenceIdeal.dot_S1600000x32_S32x64_S1600000x64_1_0_0_1_n_n.contr.Idx) :
    (Cert.ReferenceIdeal.dot_S1600000x32_S32x64_S1600000x64_1_0_0_1_n_n.lhsIdx i q 0).val = (i 0).val := by
  unfold DotDims.lhsIdx
  rw [dif_neg (show ¬(0 : Fin S1600000x32.rank) ∈ Cert.ReferenceIdeal.dot_S1600000x32_S32x64_S1600000x64_1_0_0_1_n_n.lhsBatch by decide), dif_pos (show (0 : Fin S1600000x32.rank) ∈ Cert.ReferenceIdeal.dot_S1600000x32_S32x64_S1600000x64_1_0_0_1_n_n.lhsNonContracting by decide)]
  rfl

/-- The right operand of the host's product is read at the output's column. -/
theorem hrhs4_1 (i : S1600000x64.Idx) (q : Cert.ReferenceIdeal.dot_S1600000x32_S32x64_S1600000x64_1_0_0_1_n_n.contr.Idx) :
    (Cert.ReferenceIdeal.dot_S1600000x32_S32x64_S1600000x64_1_0_0_1_n_n.rhsIdx i q 1).val = (i 1).val := by
  unfold DotDims.rhsIdx
  rw [dif_neg (show ¬(1 : Fin S32x64.rank) ∈ Cert.ReferenceIdeal.dot_S1600000x32_S32x64_S1600000x64_1_0_0_1_n_n.rhsBatch by decide), dif_pos (show (1 : Fin S32x64.rank) ∈ Cert.ReferenceIdeal.dot_S1600000x32_S32x64_S1600000x64_1_0_0_1_n_n.rhsNonContracting by decide)]
  rfl

/-- The host's projection at row `r`, column `q`: the same sum over the 32 inner indices, plus the bias row's entry. -/
theorem host4_apply (e : FVec Ideal S1600000x32 .f32) (W : FVec Ideal S32x64 .f32) (b : FVec Ideal S1x64 .f32) (r : Fin 1600000) (q : Fin 64) :
    Cert.HostForms.edgeLin e W b (ix2 r q) = (∑ k : Fin 32, e (ix2 r k) * W (ix2 k q)) + b (ix2 (0 : Fin 1) q) := by
  unfold Cert.HostForms.edgeLin
  rw [addf_apply]
  refine congrArg₂ (· + ·) ?_ (broadcastInDim_oneRow_apply _ b r q)
  simp only [Host.dotGeneral]
  rw [Ideal.dotGeneral_apply, ← Equiv.sum_comp (contrEquiv1 Cert.ReferenceIdeal.dot_S1600000x32_S32x64_S1600000x64_1_0_0_1_n_n 32 rfl rfl).symm]
  refine Finset.sum_congr rfl fun k _ => ?_
  have hk := contrEquiv1_symm_val Cert.ReferenceIdeal.dot_S1600000x32_S32x64_S1600000x64_1_0_0_1_n_n 32 rfl rfl k
  have el : Cert.ReferenceIdeal.dot_S1600000x32_S32x64_S1600000x64_1_0_0_1_n_n.lhsIdx (ix2 r q) ((contrEquiv1 Cert.ReferenceIdeal.dot_S1600000x32_S32x64_S1600000x64_1_0_0_1_n_n 32 rfl rfl).symm k) = ix2 r k := funext fun a => Fin.ext (by
    match a with
    | ⟨0, _⟩ => exact hlhs4_0 _ _
    | ⟨1, _⟩ => exact (Cert.ReferenceIdeal.dot_S1600000x32_S32x64_S1600000x64_1_0_0_1_n_n.lhsIdx_val_of_single rfl (ix2 r q) _).trans hk)
  have er : Cert.ReferenceIdeal.dot_S1600000x32_S32x64_S1600000x64_1_0_0_1_n_n.rhsIdx (ix2 r q) ((contrEquiv1 Cert.ReferenceIdeal.dot_S1600000x32_S32x64_S1600000x64_1_0_0_1_n_n 32 rfl rfl).symm k) = ix2 k q := funext fun a => Fin.ext (by
    match a with
    | ⟨0, _⟩ => exact (Cert.ReferenceIdeal.dot_S1600000x32_S32x64_S1600000x64_1_0_0_1_n_n.rhsIdx_val_of_single rfl (ix2 r q) _).trans hk
    | ⟨1, _⟩ => exact hrhs4_1 _ _)
  rw [el, er]

/-! ## The windows' blocks -/

/-- The four index maps over the grid: at point `t` the edge window and the output window are on block row `t`, the
    weight and bias windows on their one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The edge window's block at point `t` is rows `8000 t …` of its array. -/
theorem iblk4_0_apply (c : Dev nD) (t : Fin cfg4.N) (x : S8000x32.Idx) (k : S1600000x32.Idx)
    (hk0 : (k 0).val = t.val * 8000 + (x 0).val) (hk1 : (k 1).val = (x 1).val) :
    (iblk4 V c 0 t : FVec Ideal S8000x32 .f32) x = (V c (Pipeline.arrRef spec4 0) : S1600000x32.Idx → Elt Ideal .f32) k := by
  obtain ⟨e0, e1, -⟩ := idx_facts4 t
  show V c (Pipeline.arrRef spec4 0) (((cfg4.win 0).blk t).view.emb x) = V c (Pipeline.arrRef spec4 0) k
  refine congrArg _ (funext fun a => Fin.ext ?_)
  match a with
  | ⟨0, _⟩ => show win4_0.index t (0 : Fin 2) * 8000 + 1 * (x 0).val = (k 0).val; rw [e0, hk0]; omega
  | ⟨1, _⟩ => show win4_0.index t (1 : Fin 2) * 32 + 1 * (x 1).val = (k 1).val; rw [e1, hk1]; omega

/-- The weight window's block at every point is the whole weight matrix. -/
theorem iblk4_1_eq (c : Dev nD) (t : Fin cfg4.N) :
    (iblk4 V c 1 t : FVec Ideal S32x64 .f32) = (V c (Pipeline.arrRef spec4 1) : S32x64.Idx → Elt Ideal .f32) := by
  obtain ⟨-, -, e0, e1, -⟩ := idx_facts4 t
  funext x
  show V c (Pipeline.arrRef spec4 1) (((cfg4.win 1).blk t).view.emb x) = V c (Pipeline.arrRef spec4 1) x
  refine congrArg _ (funext fun a => Fin.ext ?_)
  match a with
  | ⟨0, _⟩ => show win4_1.index t (0 : Fin 2) * 32 + 1 * (x 0).val = (x 0).val; rw [e0]; omega
  | ⟨1, _⟩ => show win4_1.index t (1 : Fin 2) * 64 + 1 * (x 1).val = (x 1).val; rw [e1]; omega

/-- The bias window's block at every point is the whole bias row. -/
theorem iblk4_2_eq (c : Dev nD) (t : Fin cfg4.N) :
    (iblk4 V c 2 t : FVec Ideal S1x64 .f32) = (V c (Pipeline.arrRef spec4 2) : S1x64.Idx → Elt Ideal .f32) := by
  obtain ⟨-, -, -, -, e0, e1, -⟩ := idx_facts4 t
  funext x
  show V c (Pipeline.arrRef spec4 2) (((cfg4.win 2).blk t).view.emb x) = V c (Pipeline.arrRef spec4 2) x
  refine congrArg _ (funext fun a => Fin.ext ?_)
  match a with
  | ⟨0, _⟩ => show win4_2.index t (0 : Fin 2) * 1 + 1 * (x 0).val = (x 0).val; rw [e0]; omega
  | ⟨1, _⟩ => show win4_2.index t (1 : Fin 2) * 64 + 1 * (x 1).val = (x 1).val; rw [e1]; omega

/-- Where the output window's block at point `t` puts its element at row `p`, column `q`: row `8000 t + p`, column `q`. -/
theorem oemb4_eq (t : Fin cfg4.N) (p : Fin 8000) (q : Fin 64) (hr : t.val * 8000 + p.val < 1600000) :
    (((cfg4.win 3).blk t).view.emb (ix2 p q) : S1600000x64.Idx) = ix2 (⟨t.val * 8000 + p.val, hr⟩ : Fin 1600000) q := by
  obtain ⟨-, -, -, -, -, -, e0, e1⟩ := idx_facts4 t
  refine funext fun a => Fin.ext ?_
  match a with
  | ⟨0, _⟩ => show win4_3.index t (0 : Fin 2) * 8000 + 1 * p.val = t.val * 8000 + p.val; rw [e0]; omega
  | ⟨1, _⟩ => show win4_3.index t (1 : Fin 2) * 64 + 1 * q.val = q.val; rw [e1]; omega

/-- What point `t` writes back is block `t` of the host's projection of the three arrays as the region finds them. -/
theorem flushed4_eq (c : Dev nD) (t : Fin cfg4.N) :
    (dat4 V c).flushed 3 t = ((cfg4.win 3).blk t).view.read (Elt Ideal)
      (Cert.HostForms.edgeLin (V c (Pipeline.arrRef spec4 0)) (V c (Pipeline.arrRef spec4 1)) (V c (Pipeline.arrRef spec4 2))) := by
  show (cfg4.win 3).cut (grid4.coords t) ((dat4 V c).after 3 t) = _
  rw [after4_3]
  unfold out4
  rw [View.canon_unit_zero zero_off4]
  simp only [View.ld_unit_zero (S := S8000x32) zero_off4, View.ld_unit_zero (S := S32x64) zero_off4, View.ld_unit_zero (S := S1x64) zero_off4]
  funext j
  obtain ⟨p, q, rfl⟩ : ∃ (p : Fin 8000) (q : Fin 64), j = ix2 p q := ⟨j 0, j 1, eq_ix2 j⟩
  have hN : cfg4.N = 200 := N_4
  have hr : t.val * 8000 + p.val < 1600000 := by have := t.isLt; have := p.isLt; omega
  show k4_pay1 (iblk4 V c 0 t) (iblk4 V c 1 t) (iblk4 V c 2 t) (ix2 p q)
    = Cert.HostForms.edgeLin (V c (Pipeline.arrRef spec4 0)) (V c (Pipeline.arrRef spec4 1)) (V c (Pipeline.arrRef spec4 2)) (((cfg4.win 3).blk t).view.emb (ix2 p q))
  rw [oemb4_eq t p q hr]
  refine (pay4_apply _ _ _ p q).trans (Eq.trans ?_ (host4_apply _ _ _ _ q).symm)
  rw [iblk4_1_eq V c t, iblk4_2_eq V c t]
  refine congrArg₂ (· + ·) (Finset.sum_congr rfl fun k _ => ?_) rfl
  rw [iblk4_0_apply V c t (ix2 p k) (ix2 (⟨t.val * 8000 + p.val, hr⟩ : Fin 1600000) k) rfl rfl]

/-- An index of the array is in point `t`'s block iff each coordinate is in the block's range on its axis. -/
theorem mem_blk4 (t : Fin cfg4.N) (i : S1600000x64.Idx) :
    i ∈ ((cfg4.win 3).blk t).view.set ↔ ∀ a : Fin 2, win4_3.index t a * S8000x64.size a ≤ (i a).val ∧ (i a).val < win4_3.index t a * S8000x64.size a + S8000x64.size a := by
  show i ∈ ((View.whole (Pipeline.arrRef spec4 3)).slice (win4_3.rect t)).set ↔ _
  rw [View.set_slice_whole, Rect.mem_set_unit]
  exact Iff.rfl

/-- Every index of the array is in some point's block: row `r` is in block `r / 8000`. -/
theorem cover_all4 (i : S1600000x64.Idx) :
    ∃ t : Fin cfg4.N, (cfg4.win 3).flush t = true ∧ i ∈ ((cfg4.win 3).blk t).view.set := by
  have hN : cfg4.N = 200 := N_4
  have hi0 : (i 0).val < 1600000 := (i 0).isLt
  have hi1 : (i 1).val < 64 := (i 1).isLt
  have ht : (i 0).val / 8000 < cfg4.N := by rw [hN]; omega
  obtain ⟨-, -, -, -, -, -, e0, e1⟩ := idx_facts4 ⟨(i 0).val / 8000, ht⟩
  refine ⟨⟨(i 0).val / 8000, ht⟩, flush4_3 _, ?_⟩
  rw [mem_blk4]
  intro a
  match a with
  | ⟨0, _⟩ =>
    show win4_3.index ⟨(i 0).val / 8000, ht⟩ (0 : Fin 2) * 8000 ≤ (i 0).val ∧ (i 0).val < win4_3.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win4_3.index ⟨(i 0).val / 8000, ht⟩ (1 : Fin 2) * 64 ≤ (i 1).val ∧ (i 1).val < win4_3.index ⟨(i 0).val / 8000, ht⟩ (1 : Fin 2) * 64 + 64
    rw [e1]; omega

/-- The output array after the last grid point is the host's projection of the three arrays the region is entered with. -/
theorem final4 (V : (c : Dev nD) → (b : Ref sig .tc) → Buf (Elt Ideal) ((c : Thread nD τ).loc b)) (c : Dev nD) :
    (dat4 (F := Ideal) V c).arrAt 3 cfg4.N = Cert.HostForms.edgeLin (V c (Pipeline.arrRef spec4 0)) (V c (Pipeline.arrRef spec4 1)) (V c (Pipeline.arrRef spec4 2)) :=
  (dat4 V c).arrAt_eq_of_cover 3 _ (fun t _ => flushed4_eq V c t) (cover_all4)

end Cert.KernelIdeal.Hand

end
-- ==== Proof.Ideal.Final05.lean ====
import proofs.«106349_j21990232555677_1_alg».proof.Proof.Ideal.Region05
import proofs.«106349_j21990232555677_1_alg».proof.Proof.Ideal.HostForms
import Idealize.ShloMosaic.Lib.ValueIdx
import Idealize.ShloMosaic.Lib.Pipeline.Value
import Idealize.ShloMosaic.PureOps.Ideal.Laws

/-!
# Region 5 as one function of its arrays: the message `relu (a + e)` on `[1600000, 64]`

Over the extended reals. The body's payload at an index of a block is the larger of zero and the sum of the two
input blocks' entries there; the host's message layer at an index of the array is the same expression of the two
arrays' entries. Block `t` of each of the three windows is rows `8000 t … 8000 t + 7999` of its array, all 64 columns,
so what point `t` writes back is block `t` of the host's layer applied to the arrays the region is entered with; the
200 blocks cover the rows, and the output array ends holding that layer.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The block's offsets inside its staging buffer are zero on both axes. -/
theorem zero_off5 : (![0, 0] : Fin 2 → Nat) = fun _ => 0 := funext fun a => by fin_cases a <;> rfl

/-- The body's payload at an index: the larger of the sum of the two blocks' entries and zero. -/
theorem pay5_apply (x0 x1 : Vec Ideal S8000x64 .f32) (j : S8000x64.Idx) :
    k5_pay1 x0 x1 j = max (x0 j + x1 j) (Ideal.ofBits .f32 0x00000000#32) := by
  unfold k5_pay1
  simp only [shapeCast_self]
  rfl

/-- The host's message layer at an index: the same expression of the two arrays' entries. -/
theorem host5_apply (a e : FVec Ideal S1600000x64 .f32) (i : S1600000x64.Idx) :
    Cert.HostForms.reluAdd64 a e i = max (a i + e i) (Ideal.ofBits .f32 0x00000000#32) := by
  unfold Cert.HostForms.reluAdd64
  rw [maximumf_apply, addf_apply]
  exact congrArg (max (a i + e i)) (broadcastInDim_apply _ _ _ i (fun a => a.elim0) (fun a => a.elim0))

/-- The three index maps over the grid: at point `t` each window is on block row `t`, block column 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- Input window 0's block at point `t` is rows `8000 t …` of its array. -/
theorem iblk5_0_apply (c : Dev nD) (t : Fin cfg5.N) (x : S8000x64.Idx) (k : S1600000x64.Idx)
    (hk0 : (k 0).val = t.val * 8000 + (x 0).val) (hk1 : (k 1).val = (x 1).val) :
    (iblk5 V c 0 t : Vec Ideal S8000x64 .f32) x = (V c (Pipeline.arrRef spec5 0) : S1600000x64.Idx → Elt Ideal .f32) k := by
  obtain ⟨e0, e1, -⟩ := idx_facts5 t
  show V c (Pipeline.arrRef spec5 0) (((cfg5.win 0).blk t).view.emb x) = V c (Pipeline.arrRef spec5 0) k
  refine congrArg _ (funext fun a => Fin.ext ?_)
  match a with
  | ⟨0, _⟩ => show win5_0.index t (0 : Fin 2) * 8000 + 1 * (x 0).val = (k 0).val; rw [e0, hk0]; omega
  | ⟨1, _⟩ => show win5_0.index t (1 : Fin 2) * 64 + 1 * (x 1).val = (k 1).val; rw [e1, hk1]; omega

/-- Input window 1's block at point `t` is rows `8000 t …` of its array. -/
theorem iblk5_1_apply (c : Dev nD) (t : Fin cfg5.N) (x : S8000x64.Idx) (k : S1600000x64.Idx)
    (hk0 : (k 0).val = t.val * 8000 + (x 0).val) (hk1 : (k 1).val = (x 1).val) :
    (iblk5 V c 1 t : Vec Ideal S8000x64 .f32) x = (V c (Pipeline.arrRef spec5 1) : S1600000x64.Idx → Elt Ideal .f32) k := by
  obtain ⟨-, -, e0, e1, -⟩ := idx_facts5 t
  show V c (Pipeline.arrRef spec5 1) (((cfg5.win 1).blk t).view.emb x) = V c (Pipeline.arrRef spec5 1) k
  refine congrArg _ (funext fun a => Fin.ext ?_)
  match a with
  | ⟨0, _⟩ => show win5_1.index t (0 : Fin 2) * 8000 + 1 * (x 0).val = (k 0).val; rw [e0, hk0]; omega
  | ⟨1, _⟩ => show win5_1.index t (1 : Fin 2) * 64 + 1 * (x 1).val = (k 1).val; rw [e1, hk1]; omega

/-- Where the output window's block at point `t` puts its element `x`: row `8000 t + x 0`, column `x 1`. -/
theorem oemb5_val (t : Fin cfg5.N) (x : S8000x64.Idx) :
    ((((cfg5.win 2).blk t).view.emb x : S1600000x64.Idx) 0).val = t.val * 8000 + (x 0).val
    ∧ ((((cfg5.win 2).blk t).view.emb x : S1600000x64.Idx) 1).val = (x 1).val := by
  obtain ⟨-, -, -, -, e0, e1⟩ := idx_facts5 t
  constructor
  · show win5_2.index t (0 : Fin 2) * 8000 + 1 * (x 0).val = _; rw [e0]; omega
  · show win5_2.index t (1 : Fin 2) * 64 + 1 * (x 1).val = _; rw [e1]; omega

/-- What point `t` writes back is block `t` of the host's message layer of the two arrays as the region finds them. -/
theorem flushed5_eq (c : Dev nD) (t : Fin cfg5.N) :
    (dat5 V c).flushed 2 t = ((cfg5.win 2).blk t).view.read (Elt Ideal)
      (Cert.HostForms.reluAdd64 (V c (Pipeline.arrRef spec5 0)) (V c (Pipeline.arrRef spec5 1))) := by
  show (cfg5.win 2).cut (grid5.coords t) ((dat5 V c).after 2 t) = _
  rw [after5_2]
  unfold out5
  rw [View.canon_unit_zero zero_off5]
  simp only [View.ld_unit_zero (S := S8000x64) zero_off5]
  funext j
  obtain ⟨h0, h1⟩ := oemb5_val t j
  show k5_pay1 (iblk5 V c 0 t) (iblk5 V c 1 t) j
    = Cert.HostForms.reluAdd64 (V c (Pipeline.arrRef spec5 0)) (V c (Pipeline.arrRef spec5 1)) (((cfg5.win 2).blk t).view.emb j)
  refine (pay5_apply _ _ j).trans (Eq.trans ?_ (host5_apply _ _ _).symm)
  rw [iblk5_0_apply V c t j _ h0 h1, iblk5_1_apply V c t j _ h0 h1]

/-- An index of the array is in point `t`'s block iff each coordinate is in the block's range on its axis. -/
theorem mem_blk5 (t : Fin cfg5.N) (i : S1600000x64.Idx) :
    i ∈ ((cfg5.win 2).blk t).view.set ↔ ∀ a : Fin 2, win5_2.index t a * S8000x64.size a ≤ (i a).val ∧ (i a).val < win5_2.index t a * S8000x64.size a + S8000x64.size a := by
  show i ∈ ((View.whole (Pipeline.arrRef spec5 2)).slice (win5_2.rect t)).set ↔ _
  rw [View.set_slice_whole, Rect.mem_set_unit]
  exact Iff.rfl

/-- Every index of the array is in some point's block: row `r` is in block `r / 8000`. -/
theorem cover_all5 (i : S1600000x64.Idx) :
    ∃ t : Fin cfg5.N, (cfg5.win 2).flush t = true ∧ i ∈ ((cfg5.win 2).blk t).view.set := by
  have hN : cfg5.N = 200 := N_5
  have hi0 : (i 0).val < 1600000 := (i 0).isLt
  have hi1 : (i 1).val < 64 := (i 1).isLt
  have ht : (i 0).val / 8000 < cfg5.N := by rw [hN]; omega
  obtain ⟨-, -, -, -, e0, e1⟩ := idx_facts5 ⟨(i 0).val / 8000, ht⟩
  refine ⟨⟨(i 0).val / 8000, ht⟩, flush5_2 _, ?_⟩
  rw [mem_blk5]
  intro a
  match a with
  | ⟨0, _⟩ =>
    show win5_2.index ⟨(i 0).val / 8000, ht⟩ (0 : Fin 2) * 8000 ≤ (i 0).val ∧ (i 0).val < win5_2.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win5_2.index ⟨(i 0).val / 8000, ht⟩ (1 : Fin 2) * 64 ≤ (i 1).val ∧ (i 1).val < win5_2.index ⟨(i 0).val / 8000, ht⟩ (1 : Fin 2) * 64 + 64
    rw [e1]; omega

/-- The output array after the last grid point is the host's message layer of the two arrays the region is entered with. -/
theorem final5 (V : (c : Dev nD) → (b : Ref sig .tc) → Buf (Elt Ideal) ((c : Thread nD τ).loc b)) (c : Dev nD) :
    (dat5 (F := Ideal) V c).arrAt 2 cfg5.N = Cert.HostForms.reluAdd64 (V c (Pipeline.arrRef spec5 0)) (V c (Pipeline.arrRef spec5 1)) :=
  (dat5 V c).arrAt_eq_of_cover 2 _ (fun t _ => flushed5_eq V c t) (cover_all5)

end Cert.KernelIdeal.Hand

end
-- ==== Proof.Ideal.Final06.lean ====
import proofs.«106349_j21990232555677_1_alg».proof.Proof.Ideal.Region06
import proofs.«106349_j21990232555677_1_alg».proof.Proof.Ideal.HostForms
import Idealize.ShloMosaic.Lib.ValueIdx
import Idealize.ShloMosaic.Lib.Pipeline.Value
import Idealize.ShloMosaic.Lib.ValueLayout
import Idealize.ShloMosaic.PureOps.Ideal.Laws

/-!
# Region 6: the node update's array after the last grid point

The body stores `relu (relu ((x + agg) · W1 + b1) · W2 + b2)` of the blocks it loads. Read at one row and one column,
over the extended reals, each matrix product is the sum over its contraction index, a bias row repeated down the rows
reads its column, and `relu` is the maximum with the zero word's value; the host's spelling of the layer read at the
same row and column is the same expression. Grid point `t` loads rows `10000 t … 10000 t + 9999` of `x` and `agg`
and the whole weights and bias rows, and writes back those rows of the result; the ten blocks tile the array, so the
array ends holding the host's function of the arrays the region is entered with.
-/

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem nu6_mm_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem nu6_mm_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem nu6_mm_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem nu6_mm_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product of the block at row `p`, column `k`: the sum over the 64 features contracted. -/
theorem nu6_mm (L : FVec Ideal S10000x64 .bf16) (R : FVec Ideal S64x64 .bf16) (p : Fin 10000) (k : Fin 64) :
    matmul dot_S10000x64_S64x64_S10000x64_1_0_0_1_n_n none L R (constant (F := Ideal) S10000x64 .f32 0x00000000#32) (ix2 p k)
      = ∑ l : Fin 64, L (ix2 p l) * R (ix2 l k) := by
  refine (Ideal.matmul_constant_zero_apply dot_S10000x64_S64x64_S10000x64_1_0_0_1_n_n none L R (ix2 p k)).trans ?_
  rw [← Equiv.sum_comp (contrEquiv1 dot_S10000x64_S64x64_S10000x64_1_0_0_1_n_n 64 rfl rfl).symm]
  refine Finset.sum_congr rfl fun l _ => ?_
  have hl := contrEquiv1_symm_val dot_S10000x64_S64x64_S10000x64_1_0_0_1_n_n 64 rfl rfl l
  have el : dot_S10000x64_S64x64_S10000x64_1_0_0_1_n_n.lhsIdx (ix2 p k) ((contrEquiv1 dot_S10000x64_S64x64_S10000x64_1_0_0_1_n_n 64 rfl rfl).symm l) = ix2 p l := funext fun a => Fin.ext (by
    match a with
    | ⟨0, _⟩ => exact nu6_mm_l0 _ _
    | ⟨1, _⟩ => exact (nu6_mm_l1 _ _).trans hl)
  have er : dot_S10000x64_S64x64_S10000x64_1_0_0_1_n_n.rhsIdx (ix2 p k) ((contrEquiv1 dot_S10000x64_S64x64_S10000x64_1_0_0_1_n_n 64 rfl rfl).symm l) = ix2 l k := funext fun a => Fin.ext (by
    match a with
    | ⟨0, _⟩ => exact (nu6_mm_r0 _ _).trans hl
    | ⟨1, _⟩ => exact nu6_mm_r1 _ _)
  rw [el, er]

theorem nu6_hd_l0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem nu6_hd_l1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem nu6_hd_r0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem nu6_hd_r1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- A product of the host's at row `p`, column `k`: the same sum over the 64 features contracted. -/
theorem nu6_hd (L : FVec Ideal Cert.ReferenceIdeal.S100000x64 .f32) (R : FVec Ideal Cert.ReferenceIdeal.S64x64 .f32) (p : Fin 100000) (k : Fin 64) :
    Host.dotGeneral (F := Ideal) Cert.ReferenceIdeal.dot_S100000x64_S64x64_S100000x64_1_0_0_1_n_n none L R (ix2 p k)
      = ∑ l : Fin 64, L (ix2 p l) * R (ix2 l k) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun l _ => ?_
  have hl := contrEquiv1_symm_val Cert.ReferenceIdeal.dot_S100000x64_S64x64_S100000x64_1_0_0_1_n_n 64 rfl rfl l
  have el : Cert.ReferenceIdeal.dot_S100000x64_S64x64_S100000x64_1_0_0_1_n_n.lhsIdx (ix2 p k) ((contrEquiv1 Cert.ReferenceIdeal.dot_S100000x64_S64x64_S100000x64_1_0_0_1_n_n 64 rfl rfl).symm l) = ix2 p l := funext fun a => Fin.ext (by
    match a with
    | ⟨0, _⟩ => exact nu6_hd_l0 _ _
    | ⟨1, _⟩ => exact (nu6_hd_l1 _ _).trans hl)
  have er : Cert.ReferenceIdeal.dot_S100000x64_S64x64_S100000x64_1_0_0_1_n_n.rhsIdx (ix2 p k) ((contrEquiv1 Cert.ReferenceIdeal.dot_S100000x64_S64x64_S100000x64_1_0_0_1_n_n 64 rfl rfl).symm l) = ix2 l k := funext fun a => Fin.ext (by
    match a with
    | ⟨0, _⟩ => exact (nu6_hd_r0 _ _).trans hl
    | ⟨1, _⟩ => exact nu6_hd_r1 _ _)
  rw [el, er]

/-- A bias row `[1, 64]` repeated down the block's rows reads its column. -/
theorem nu6_brow (b : FVec Ideal S1x64 .f32) (hb : S1x64.Broadcasts S10000x64) (p : Fin 10000) (k : Fin 64) :
    broadcastTo S10000x64 b hb (ix2 p k) = b (ix2 0 k) := by
  refine broadcastTo_apply b hb (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's bias row repeated down the array's rows reads its column. -/
theorem nu6_hrow (b : FVec Ideal Cert.ReferenceIdeal.S1x64 .f32) (hb : Cert.ReferenceIdeal.S1x64.BroadcastsInDim Cert.ReferenceIdeal.S100000x64 (![0, 1] : Fin 2 → Fin Cert.ReferenceIdeal.S100000x64.rank)) (p : Fin 100000) (k : Fin 64) :
    broadcastInDim Cert.ReferenceIdeal.S100000x64 ![0, 1] hb b (ix2 p k) = b (ix2 0 k) := by
  refine broadcastInDim_apply _ hb b (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's zero, spread over the array, reads the zero word's value everywhere. -/
theorem nu6_hzero (dims : Fin Cert.ReferenceIdeal.S_.rank → Fin Cert.ReferenceIdeal.S100000x64.rank) (hb : Cert.ReferenceIdeal.S_.BroadcastsInDim Cert.ReferenceIdeal.S100000x64 dims) (i : Cert.ReferenceIdeal.S100000x64.Idx) :
    broadcastInDim Cert.ReferenceIdeal.S100000x64 dims hb (constant (F := Ideal) Cert.ReferenceIdeal.S_ .f32 0x00000000#32) i = Ideal.ofBits .f32 0x00000000#32 :=
  broadcastInDim_apply _ hb _ i (fun a => a.elim0) (fun a => a.elim0)

/-- The body's stored value at row `p`, column `q` of the block. -/
theorem nu6_pay_apply (v0 v2 : Vec Ideal S10000x64 .f32) (v6 : Vec Ideal S64x64 .f32) (v9 : Vec Ideal S1x64 .f32) (v15 : Vec Ideal S64x64 .f32) (v19 : Vec Ideal S1x64 .f32) (p : Fin 10000) (q : Fin 64) :
    k6_pay1 v0 v2 v6 v9 v15 v19 (ix2 p q)
      = max ((∑ k : Fin 64, max ((∑ l : Fin 64, (v0 (ix2 p l) + v2 (ix2 p l)) * v6 (ix2 l k)) + v9 (ix2 0 k)) (Ideal.ofBits .f32 0x00000000#32) * v15 (ix2 k q)) + v19 (ix2 0 q)) (Ideal.ofBits .f32 0x00000000#32) := by
  unfold k6_pay1
  simp only [maximumf_apply, addf_apply, broadcast_apply, nu6_brow, nu6_mm, truncf_apply, shapeCast_self]
  rfl

/-- The host's node update at row `r`, column `q` of the array. -/
theorem nu6_host_apply (x agg : FVec Ideal Cert.ReferenceIdeal.S100000x64 .f32) (W1 : FVec Ideal Cert.ReferenceIdeal.S64x64 .f32) (b1 : FVec Ideal Cert.ReferenceIdeal.S1x64 .f32) (W2 : FVec Ideal Cert.ReferenceIdeal.S64x64 .f32) (b2 : FVec Ideal Cert.ReferenceIdeal.S1x64 .f32) (r : Fin 100000) (q : Fin 64) :
    Cert.HostForms.nodeUpdate64 x agg W1 b1 W2 b2 (ix2 r q)
      = max ((∑ k : Fin 64, max ((∑ l : Fin 64, (x (ix2 r l) + agg (ix2 r l)) * W1 (ix2 l k)) + b1 (ix2 0 k)) (Ideal.ofBits .f32 0x00000000#32) * W2 (ix2 k q)) + b2 (ix2 0 q)) (Ideal.ofBits .f32 0x00000000#32) := by
  unfold Cert.HostForms.nodeUpdate64
  simp only [maximumf_apply, addf_apply, nu6_hzero, nu6_hd]
  rw [nu6_hrow]
  refine congrArg (fun s : EReal => max (s + b2 (ix2 0 q)) (Ideal.ofBits .f32 0x00000000#32)) (Finset.sum_congr rfl fun k _ => ?_)
  rw [nu6_hrow]

/-- One element of the block's stored value is the host's node update at the array's matching row, once each loaded
    block is known to hold the matching entries of its array. -/
theorem nu6_point (v0 v2 : Vec Ideal S10000x64 .f32) (v6 : Vec Ideal S64x64 .f32) (v9 : Vec Ideal S1x64 .f32) (v15 : Vec Ideal S64x64 .f32) (v19 : Vec Ideal S1x64 .f32)
    (x agg : FVec Ideal Cert.ReferenceIdeal.S100000x64 .f32) (W1 : FVec Ideal Cert.ReferenceIdeal.S64x64 .f32) (b1 : FVec Ideal Cert.ReferenceIdeal.S1x64 .f32) (W2 : FVec Ideal Cert.ReferenceIdeal.S64x64 .f32) (b2 : FVec Ideal Cert.ReferenceIdeal.S1x64 .f32)
    (p : Fin 10000) (q : Fin 64) (r : Fin 100000)
    (h0 : ∀ l : Fin 64, v0 (ix2 p l) = x (ix2 r l)) (h1 : ∀ l : Fin 64, v2 (ix2 p l) = agg (ix2 r l))
    (h2 : ∀ (l : Fin 64) (k : Fin 64), v6 (ix2 l k) = W1 (ix2 l k)) (h3 : ∀ k : Fin 64, v9 (ix2 0 k) = b1 (ix2 0 k))
    (h4 : ∀ (k k' : Fin 64), v15 (ix2 k k') = W2 (ix2 k k')) (h5 : ∀ k : Fin 64, v19 (ix2 0 k) = b2 (ix2 0 k)) :
    k6_pay1 v0 v2 v6 v9 v15 v19 (ix2 p q) = Cert.HostForms.nodeUpdate64 x agg W1 b1 W2 b2 (ix2 r q) := by
  rw [nu6_pay_apply, nu6_host_apply]
  simp only [h0, h1, h2, h3, h4, h5]

variable (V : (c : Dev nD) → (b : Ref sig .tc) → Buf (Elt Ideal) ((c : Thread nD τ).loc b))

theorem nu6_hz : (![0, 0] : Fin 2 → Nat) = fun _ => 0 := funext fun a => by fin_cases a <;> rfl

/-- The index maps over the grid: the row windows' block index is the grid point on the row axis, the weights' and
    the bias rows' is zero. -/
theorem nu6_idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

set_option maxHeartbeats 1000000 in
/-- What grid point `t` writes back is block `t` of the host's node update of the arrays the region is entered with. -/
theorem nu6_flushed_eq (c : Dev nD) (t : Fin cfg6.N) :
    (dat6 (F := Ideal) V c).flushed 6 t = ((cfg6.win 6).blk t).view.read (Elt Ideal)
      (Cert.HostForms.nodeUpdate64 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 V c).after 6 t) = _
  rw [after6_6]
  unfold out6
  rw [View.canon_unit_zero nu6_hz]
  simp only [View.ld_unit_zero (S := S10000x64) nu6_hz, View.ld_unit_zero (S := S64x64) nu6_hz, View.ld_unit_zero (S := S1x64) nu6_hz]
  obtain ⟨e00, e01, e10, e11, e20, e21, e30, e31, e40, e41, e50, e51, e60, e61⟩ := nu6_idx_facts t
  have ht : t.val < 10 := by have h := t.isLt; have hN : cfg6.N = 10 := N_6; omega
  funext j
  obtain ⟨p, q, rfl⟩ : ∃ (p : Fin 10000) (q : Fin 64), j = ix2 p q := ⟨j 0, j 1, eq_ix2 j⟩
  have hp : p.val < 10000 := p.isLt
  show k6_pay1 (iblk6 V c 0 t) (iblk6 V c 1 t) (iblk6 V c 2 t) (iblk6 V c 3 t) (iblk6 V c 4 t) (iblk6 V c 5 t) (ix2 p q)
      = Cert.HostForms.nodeUpdate64 _ _ _ _ _ _ (((cfg6.win 6).blk t).view.emb (ix2 p q))
  have hemb : ((cfg6.win 6).blk t).view.emb (ix2 p q) = ix2 (⟨t.val * 10000 + p.val, by omega⟩ : Fin 100000) q := by
    funext a; apply Fin.ext
    match a with
    | ⟨0, _⟩ => show win6_6.index t (0 : Fin 2) * 10000 + 1 * p.val = t.val * 10000 + p.val; rw [e60]; omega
    | ⟨1, _⟩ => show win6_6.index t (1 : Fin 2) * 64 + 1 * q.val = q.val; rw [e61]; omega
  rw [hemb]
  refine nu6_point _ _ _ _ _ _ _ _ _ _ _ _ p q _ ?_ ?_ ?_ ?_ ?_ ?_
  · intro l
    show V c (Pipeline.arrRef spec6 0) (((cfg6.win 0).blk t).view.emb (ix2 p l)) = V c (Pipeline.arrRef spec6 0) (ix2 _ l)
    refine congrArg _ (funext fun a => Fin.ext ?_)
    match a with
    | ⟨0, _⟩ => show win6_0.index t (0 : Fin 2) * 10000 + 1 * p.val = t.val * 10000 + p.val; rw [e00]; omega
    | ⟨1, _⟩ => show win6_0.index t (1 : Fin 2) * 64 + 1 * l.val = l.val; rw [e01]; omega
  · intro l
    show V c (Pipeline.arrRef spec6 1) (((cfg6.win 1).blk t).view.emb (ix2 p l)) = V c (Pipeline.arrRef spec6 1) (ix2 _ l)
    refine congrArg _ (funext fun a => Fin.ext ?_)
    match a with
    | ⟨0, _⟩ => show win6_1.index t (0 : Fin 2) * 10000 + 1 * p.val = t.val * 10000 + p.val; rw [e10]; omega
    | ⟨1, _⟩ => show win6_1.index t (1 : Fin 2) * 64 + 1 * l.val = l.val; rw [e11]; omega
  · intro l k
    show V c (Pipeline.arrRef spec6 2) (((cfg6.win 2).blk t).view.emb (ix2 l k)) = V c (Pipeline.arrRef spec6 2) (ix2 l k)
    refine congrArg _ (funext fun a => Fin.ext ?_)
    match a with
    | ⟨0, _⟩ => show win6_2.index t (0 : Fin 2) * 64 + 1 * l.val = l.val; rw [e20]; omega
    | ⟨1, _⟩ => show win6_2.index t (1 : Fin 2) * 64 + 1 * k.val = k.val; rw [e21]; omega
  · intro k
    show V c (Pipeline.arrRef spec6 3) (((cfg6.win 3).blk t).view.emb (ix2 0 k)) = V c (Pipeline.arrRef spec6 3) (ix2 0 k)
    refine congrArg _ (funext fun a => Fin.ext ?_)
    match a with
    | ⟨0, _⟩ => show win6_3.index t (0 : Fin 2) * 1 + 1 * 0 = 0; rw [e30]
    | ⟨1, _⟩ => show win6_3.index t (1 : Fin 2) * 64 + 1 * k.val = k.val; rw [e31]; omega
  · intro k k'
    show V c (Pipeline.arrRef spec6 4) (((cfg6.win 4).blk t).view.emb (ix2 k k')) = V c (Pipeline.arrRef spec6 4) (ix2 k k')
    refine congrArg _ (funext fun a => Fin.ext ?_)
    match a with
    | ⟨0, _⟩ => show win6_4.index t (0 : Fin 2) * 64 + 1 * k.val = k.val; rw [e40]; omega
    | ⟨1, _⟩ => show win6_4.index t (1 : Fin 2) * 64 + 1 * k'.val = k'.val; rw [e41]; omega
  · intro k
    show V c (Pipeline.arrRef spec6 5) (((cfg6.win 5).blk t).view.emb (ix2 0 k)) = V c (Pipeline.arrRef spec6 5) (ix2 0 k)
    refine congrArg _ (funext fun a => Fin.ext ?_)
    match a with
    | ⟨0, _⟩ => show win6_5.index t (0 : Fin 2) * 1 + 1 * 0 = 0; rw [e50]
    | ⟨1, _⟩ => show win6_5.index t (1 : Fin 2) * 64 + 1 * k.val = k.val; rw [e51]; omega

/-- An index of the result array is in point `t`'s block iff each coordinate is in the block's range on its axis. -/
theorem nu6_mem_blk (t : Fin cfg6.N) (i : S100000x64.Idx) :
    i ∈ ((cfg6.win 6).blk t).view.set ↔ ∀ a : Fin 2, win6_6.index t a * S10000x64.size a ≤ (i a).val ∧ (i a).val < win6_6.index t a * S10000x64.size a + S10000x64.size a := by
  show i ∈ ((View.whole main_v46).slice (win6_6.rect t)).set ↔ _
  rw [View.set_slice_whole, Rect.mem_set_unit]
  exact Iff.rfl

/-- Every row of the result array is in the block of the point `row / 10000`, which writes it back. -/
theorem nu6_covered (i : S100000x64.Idx) : ∃ t : Fin cfg6.N, (cfg6.win 6).flush t = true ∧ i ∈ ((cfg6.win 6).blk t).view.set := by
  have hi0 : (i 0).val < 100000 := (i 0).isLt
  have hi1 : (i 1).val < 64 := (i 1).isLt
  have hN : cfg6.N = 10 := N_6
  obtain ⟨T, hT⟩ : ∃ T : Fin cfg6.N, T.val = (i 0).val / 10000 := ⟨⟨(i 0).val / 10000, by rw [hN]; omega⟩, rfl⟩
  obtain ⟨-, -, -, -, -, -, -, -, -, -, -, -, e60, e61⟩ := nu6_idx_facts T
  refine ⟨T, flush6_6 T, ?_⟩
  rw [nu6_mem_blk]
  intro a
  match a with
  | ⟨0, _⟩ => show win6_6.index T (0 : Fin 2) * 10000 ≤ (i 0).val ∧ (i 0).val < win6_6.index T (0 : Fin 2) * 10000 + 10000; rw [e60, hT]; omega
  | ⟨1, _⟩ => show win6_6.index T (1 : Fin 2) * 64 ≤ (i 1).val ∧ (i 1).val < win6_6.index T (1 : Fin 2) * 64 + 64; rw [e61]; omega

/-- The result array after the last grid point is the host's node update of the arrays the region is entered with. -/
theorem final6 (V : (c : Dev nD) → (b : Ref sig .tc) → Buf (Elt Ideal) ((c : Thread nD τ).loc b)) (c : Dev nD) :
    (dat6 (F := Ideal) V c).arrAt 6 cfg6.N = Cert.HostForms.nodeUpdate64 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 (F := Ideal) V c).arrAt_eq_of_cover 6 _ (fun t _ => nu6_flushed_eq V c t) nu6_covered

end Cert.KernelIdeal.Hand

end
-- ==== Proof.Ideal.Final07.lean ====
import proofs.«106349_j21990232555677_1_alg».proof.Proof.Ideal.Region07
import proofs.«106349_j21990232555677_1_alg».proof.Proof.Ideal.HostForms
import proofs.«106349_j21990232555677_1_alg».proof.Proof.Ideal.MlpAt
import proofs.«106349_j21990232555677_1_alg».proof.Proof.Ideal.Mlp2Host
import Idealize.ShloMosaic.Lib.ValueIdx
import Idealize.ShloMosaic.Lib.Pipeline.Value
import Idealize.ShloMosaic.Lib.ValueLayout
import Idealize.ShloMosaic.PureOps.Ideal.Laws

/-!
# Region 7 over the extended reals: the output array is the host program's two-layer perceptron `mlp2Node`

The body's payload read at one entry is the double sum `relu (x · W1 + b1) · W2 + b2` of its loaded blocks; the host
program's spelling of the layer read at one entry is the same double sum of the arrays. Output block `t` is rows
`10000 t … 10000 t + 9999` of the array, the first input's block `t` the same rows of its array, and the weights' and
biases' blocks are their whole arrays at every point; so what point `t` writes back is block `t` of the host
program's layer, and the grid's 10 blocks tile the array.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MlpAt

/-- The body's payload at row `p` and column `q` of its block: the second layer's sum over the hidden units of the
    rectified first layer times the second weight, plus the second bias. The format changes are the identity on the
    extended reals and each product into a zero accumulator is the exact sum. -/
theorem pay7_at (x0 : Vec Ideal S10000x1 .f32) (x1 : Vec Ideal S1x32 .f32) (x2 : Vec Ideal S1x32 .f32) (x3 : Vec Ideal S32x32 .f32)
    (x4 : Vec Ideal S1x32 .f32) (p : Fin 10000) (q : Fin 32) :
    k7_pay1 x0 x1 x2 x3 x4 (ix2 p q)
      = (∑ j : Fin 32, max ((∑ i : Fin 1, x0 (ix2 p i) * x1 (ix2 i j)) + x2 (ix2 (0 : Fin 1) j)) (Ideal.ofBits .f32 0x00000000#32) * x3 (ix2 j q))
        + x4 (ix2 (0 : Fin 1) q) := by
  unfold k7_pay1
  simp only [shapeCast_self, Idealize.ShloMosaic.matmul]
  rw [addf_apply, broadcastTo_1b_ab_apply]
  rw [Ideal.matmul_constant_zero_apply, dot_sum_at _ rfl rfl rfl rfl rfl rfl rfl rfl]
  refine congrArg (· + _) (Finset.sum_congr rfl fun j _ => ?_)
  rw [truncf_apply, truncf_apply, maximumf_apply, addf_apply, broadcastTo_1b_ab_apply, Ideal.matmul_constant_zero_apply,
    dot_sum_at _ rfl rfl rfl rfl rfl rfl rfl rfl, broadcast_apply]
  simp only [truncf_apply]
  rfl

/-- One entry: when the first input's block holds, in row `p`, the array's row `r`, and the other blocks are their
    arrays, the payload at `(p, q)` is the host program's layer at `(r, q)`. -/
theorem point7 (x0 : Vec Ideal S10000x1 .f32) (x1 : Vec Ideal S1x32 .f32) (x2 : Vec Ideal S1x32 .f32) (x3 : Vec Ideal S32x32 .f32)
    (x4 : Vec Ideal S1x32 .f32)
    (a0 : FVec Ideal Cert.ReferenceIdeal.S100000x1 .f32) (a1 : FVec Ideal Cert.ReferenceIdeal.S1x32 .f32)
    (a2 : FVec Ideal Cert.ReferenceIdeal.S1x32 .f32) (a3 : FVec Ideal Cert.ReferenceIdeal.S32x32 .f32)
    (a4 : FVec Ideal Cert.ReferenceIdeal.S1x32 .f32) (p : Fin 10000) (q : Fin 32) (r : Fin 100000)
    (h0 : ∀ i : Fin 1, x0 (ix2 p i) = a0 (ix2 r i)) (h1 : ∀ y, x1 y = a1 y) (h2 : ∀ y, x2 y = a2 y) (h3 : ∀ y, x3 y = a3 y)
    (h4 : ∀ y, x4 y = a4 y) :
    k7_pay1 x0 x1 x2 x3 x4 (ix2 p q) = Cert.HostForms.mlp2Node a0 a1 a2 a3 a4 (ix2 r q) := by
  rw [pay7_at, mlp2Node_at]
  simp only [h0, h1, h2, h3, h4]

/-- The printed index maps, decided over the grid: the first input's and the output's block index is the point on the
    row axis and zero on the column axis; the weights' and biases' is zero on both. -/
theorem idx7_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Where the windows' blocks sit in their arrays: the first input's and the output's block `t` is rows
    `10000 t …`; the weights' and biases' block is the whole array at every point. -/
theorem emb7_0 (t : Fin cfg7.N) (ht : t.val < 10) (p : Fin 10000) (i : Fin 1) :
    ((cfg7.win 0).blk t).view.emb (ix2 p i) = ix2 (⟨t.val * 10000 + p.val, by have := p.isLt; omega⟩ : Fin 100000) i := by
  obtain ⟨e00, e01, e10, e11, e20, e21, e30, e31, e40, e41, e50, e51⟩ := idx7_facts t
  funext a; apply Fin.ext
  match a with
  | ⟨0, _⟩ => show win7_0.index t (0 : Fin 2) * 10000 + 1 * p.val = t.val * 10000 + p.val; rw [e00]; omega
  | ⟨1, _⟩ => show win7_0.index t (1 : Fin 2) * 1 + 1 * i.val = i.val; rw [e01]; omega
theorem emb7_1 (t : Fin cfg7.N) (y : S1x32.Idx) : ((cfg7.win 1).blk t).view.emb y = y := by
  obtain ⟨e00, e01, e10, e11, e20, e21, e30, e31, e40, e41, e50, e51⟩ := idx7_facts t
  funext a; apply Fin.ext
  match a with
  | ⟨0, _⟩ => show win7_1.index t (0 : Fin 2) * 1 + 1 * (y 0).val = (y 0).val; rw [e10]; omega
  | ⟨1, _⟩ => show win7_1.index t (1 : Fin 2) * 32 + 1 * (y 1).val = (y 1).val; rw [e11]; omega
theorem emb7_2 (t : Fin cfg7.N) (y : S1x32.Idx) : ((cfg7.win 2).blk t).view.emb y = y := by
  obtain ⟨e00, e01, e10, e11, e20, e21, e30, e31, e40, e41, e50, e51⟩ := idx7_facts t
  funext a; apply Fin.ext
  match a with
  | ⟨0, _⟩ => show win7_2.index t (0 : Fin 2) * 1 + 1 * (y 0).val = (y 0).val; rw [e20]; omega
  | ⟨1, _⟩ => show win7_2.index t (1 : Fin 2) * 32 + 1 * (y 1).val = (y 1).val; rw [e21]; omega
theorem emb7_3 (t : Fin cfg7.N) (y : S32x32.Idx) : ((cfg7.win 3).blk t).view.emb y = y := by
  obtain ⟨e00, e01, e10, e11, e20, e21, e30, e31, e40, e41, e50, e51⟩ := idx7_facts t
  funext a; apply Fin.ext
  match a with
  | ⟨0, _⟩ => show win7_3.index t (0 : Fin 2) * 32 + 1 * (y 0).val = (y 0).val; rw [e30]; omega
  | ⟨1, _⟩ => show win7_3.index t (1 : Fin 2) * 32 + 1 * (y 1).val = (y 1).val; rw [e31]; omega
theorem emb7_4 (t : Fin cfg7.N) (y : S1x32.Idx) : ((cfg7.win 4).blk t).view.emb y = y := by
  obtain ⟨e00, e01, e10, e11, e20, e21, e30, e31, e40, e41, e50, e51⟩ := idx7_facts t
  funext a; apply Fin.ext
  match a with
  | ⟨0, _⟩ => show win7_4.index t (0 : Fin 2) * 1 + 1 * (y 0).val = (y 0).val; rw [e40]; omega
  | ⟨1, _⟩ => show win7_4.index t (1 : Fin 2) * 32 + 1 * (y 1).val = (y 1).val; rw [e41]; omega
theorem emb7_5 (t : Fin cfg7.N) (ht : t.val < 10) (p : Fin 10000) (q : Fin 32) :
    ((cfg7.win 5).blk t).view.emb (ix2 p q) = ix2 (⟨t.val * 10000 + p.val, by have := p.isLt; omega⟩ : Fin 100000) q := by
  obtain ⟨e00, e01, e10, e11, e20, e21, e30, e31, e40, e41, e50, e51⟩ := idx7_facts t
  funext a; apply Fin.ext
  match a with
  | ⟨0, _⟩ => show win7_5.index t (0 : Fin 2) * 10000 + 1 * p.val = t.val * 10000 + p.val; rw [e50]; omega
  | ⟨1, _⟩ => show win7_5.index t (1 : Fin 2) * 32 + 1 * q.val = q.val; rw [e51]; omega

variable (V : (c : Dev nD) → (b : Ref sig .tc) → Buf (Elt Ideal) ((c : Thread nD τ).loc b))

set_option maxHeartbeats 1000000 in
/-- What point `t` writes back is block `t` of the host program's layer of the arrays the region is entered with. -/
theorem flushed7_eq (c : Dev nD) (t : Fin cfg7.N) :
    (dat7 (F := Ideal) V c).flushed 5 t = ((cfg7.win 5).blk t).view.read (Elt Ideal)
      (Cert.HostForms.mlp2Node (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 (F := Ideal) V c).after 5 t) = _
  rw [after7_5]
  unfold out7
  rw [View.canon_unit_zero hz2]
  simp only [View.ld_unit_zero (S := S10000x1) hz2, View.ld_unit_zero (S := S1x32) hz2, View.ld_unit_zero (S := S1x32) hz2,
    View.ld_unit_zero (S := S32x32) hz2, View.ld_unit_zero (S := S1x32) hz2]
  have hN : cfg7.N = 10 := N_7
  have ht : t.val < 10 := by have := t.isLt; omega
  refine funext fun (j : S10000x32.Idx) => ?_
  obtain ⟨p, q, rfl⟩ : ∃ (p : Fin 10000) (q : Fin 32), j = ix2 p q := ⟨j 0, j 1, eq_ix2 j⟩
  rw [View.read_apply, emb7_5 t ht p q]
  exact point7 _ _ _ _ _ _ _ _ _ _ p q _
    (fun i => congrArg (V c (Pipeline.arrRef spec7 0)) (emb7_0 t ht p i))
    (fun y => congrArg (V c (Pipeline.arrRef spec7 1)) (emb7_1 t y))
    (fun y => congrArg (V c (Pipeline.arrRef spec7 2)) (emb7_2 t y))
    (fun y => congrArg (V c (Pipeline.arrRef spec7 3)) (emb7_3 t y))
    (fun y => congrArg (V c (Pipeline.arrRef spec7 4)) (emb7_4 t y))

/-- An entry of the output array is in point `t`'s block iff each coordinate is in the block's range on its axis. -/
theorem mem_blk7 (t : Fin cfg7.N) (i : S100000x32.Idx) :
    i ∈ ((cfg7.win 5).blk t).view.set ↔ ∀ a : Fin 2, win7_5.index t a * S10000x32.size a ≤ (i a).val ∧ (i a).val < win7_5.index t a * S10000x32.size a + S10000x32.size a := by
  show i ∈ ((View.whole main_v68).slice (win7_5.rect t)).set ↔ _
  rw [View.set_slice_whole, Rect.mem_set_unit]
  exact Iff.rfl

/-- THE OUTPUT ARRAY after the last grid point is the host program's two-layer perceptron of the arrays the region is
    entered with: row `r` is in the block of point `r / 10000`. -/
theorem final7 (c : Dev nD) :
    (dat7 (F := Ideal) V c).arrAt 5 cfg7.N = Cert.HostForms.mlp2Node (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 5 _ (fun t _ => flushed7_eq V c t) fun i => by
    have hN : cfg7.N = 10 := N_7
    have hi0 : (i 0 : Nat) < 100000 := (i 0).isLt
    have hi1 : (i 1 : Nat) < 32 := (i 1).isLt
    obtain ⟨t, ht⟩ : ∃ t : Fin cfg7.N, t.val = (i 0 : Nat) / 10000 := ⟨⟨(i 0 : Nat) / 10000, by rw [hN]; omega⟩, rfl⟩
    obtain ⟨e00, e01, e10, e11, e20, e21, e30, e31, e40, e41, e50, e51⟩ := idx7_facts t
    refine ⟨t, flush7_5 t, ?_⟩
    rw [mem_blk7]
    intro a
    match a with
    | ⟨0, _⟩ => show win7_5.index t (0 : Fin 2) * 10000 ≤ (i 0 : Nat) ∧ (i 0 : Nat) < win7_5.index t (0 : Fin 2) * 10000 + 10000; rw [e50]; omega
    | ⟨1, _⟩ => show win7_5.index t (1 : Fin 2) * 32 ≤ (i 1 : Nat) ∧ (i 1 : Nat) < win7_5.index t (1 : Fin 2) * 32 + 32; rw [e51]; omega

end Cert.KernelIdeal.Hand

end
-- ==== Proof.Ideal.Final08.lean ====
import proofs.«106349_j21990232555677_1_alg».proof.Proof.Ideal.Region08
import proofs.«106349_j21990232555677_1_alg».proof.Proof.Ideal.HostForms
import proofs.«106349_j21990232555677_1_alg».proof.Proof.Ideal.MlpAt
import proofs.«106349_j21990232555677_1_alg».proof.Proof.Ideal.Mlp2Host
import Idealize.ShloMosaic.Lib.ValueIdx
import Idealize.ShloMosaic.Lib.Pipeline.Value
import Idealize.ShloMosaic.Lib.ValueLayout
import Idealize.ShloMosaic.PureOps.Ideal.Laws

/-!
# Region 8 over the extended reals: the output array is the host program's two-layer perceptron `mlp2Edge`

The body's payload read at one entry is the double sum `relu (x · W1 + b1) · W2 + b2` of its loaded blocks; the host
program's spelling of the layer read at one entry is the same double sum of the arrays. Output block `t` is rows
`8000 t … 8000 t + 7999` of the array, the first input's block `t` the same rows of its array, and the weights' and
biases' blocks are their whole arrays at every point; so what point `t` writes back is block `t` of the host
program's layer, and the grid's 200 blocks tile the array.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MlpAt

/-- The body's payload at row `p` and column `q` of its block: the second layer's sum over the hidden units of the
    rectified first layer times the second weight, plus the second bias. The format changes are the identity on the
    extended reals and each product into a zero accumulator is the exact sum. -/
theorem pay8_at (x0 : Vec Ideal S8000x1 .f32) (x1 : Vec Ideal S1x32 .f32) (x2 : Vec Ideal S1x32 .f32) (x3 : Vec Ideal S32x32 .f32)
    (x4 : Vec Ideal S1x32 .f32) (p : Fin 8000) (q : Fin 32) :
    k8_pay1 x0 x1 x2 x3 x4 (ix2 p q)
      = (∑ j : Fin 32, max ((∑ i : Fin 1, x0 (ix2 p i) * x1 (ix2 i j)) + x2 (ix2 (0 : Fin 1) j)) (Ideal.ofBits .f32 0x00000000#32) * x3 (ix2 j q))
        + x4 (ix2 (0 : Fin 1) q) := by
  unfold k8_pay1
  simp only [shapeCast_self, Idealize.ShloMosaic.matmul]
  rw [addf_apply, broadcastTo_1b_ab_apply]
  rw [Ideal.matmul_constant_zero_apply, dot_sum_at _ rfl rfl rfl rfl rfl rfl rfl rfl]
  refine congrArg (· + _) (Finset.sum_congr rfl fun j _ => ?_)
  rw [truncf_apply, truncf_apply, maximumf_apply, addf_apply, broadcastTo_1b_ab_apply, Ideal.matmul_constant_zero_apply,
    dot_sum_at _ rfl rfl rfl rfl rfl rfl rfl rfl, broadcast_apply]
  simp only [truncf_apply]
  rfl

/-- One entry: when the first input's block holds, in row `p`, the array's row `r`, and the other blocks are their
    arrays, the payload at `(p, q)` is the host program's layer at `(r, q)`. -/
theorem point8 (x0 : Vec Ideal S8000x1 .f32) (x1 : Vec Ideal S1x32 .f32) (x2 : Vec Ideal S1x32 .f32) (x3 : Vec Ideal S32x32 .f32)
    (x4 : Vec Ideal S1x32 .f32)
    (a0 : FVec Ideal Cert.ReferenceIdeal.S1600000x1 .f32) (a1 : FVec Ideal Cert.ReferenceIdeal.S1x32 .f32)
    (a2 : FVec Ideal Cert.ReferenceIdeal.S1x32 .f32) (a3 : FVec Ideal Cert.ReferenceIdeal.S32x32 .f32)
    (a4 : FVec Ideal Cert.ReferenceIdeal.S1x32 .f32) (p : Fin 8000) (q : Fin 32) (r : Fin 1600000)
    (h0 : ∀ i : Fin 1, x0 (ix2 p i) = a0 (ix2 r i)) (h1 : ∀ y, x1 y = a1 y) (h2 : ∀ y, x2 y = a2 y) (h3 : ∀ y, x3 y = a3 y)
    (h4 : ∀ y, x4 y = a4 y) :
    k8_pay1 x0 x1 x2 x3 x4 (ix2 p q) = Cert.HostForms.mlp2Edge a0 a1 a2 a3 a4 (ix2 r q) := by
  rw [pay8_at, mlp2Edge_at]
  simp only [h0, h1, h2, h3, h4]

/-- The printed index maps, decided over the grid: the first input's and the output's block index is the point on the
    row axis and zero on the column axis; the weights' and biases' is zero on both. -/
theorem idx8_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Where the windows' blocks sit in their arrays: the first input's and the output's block `t` is rows
    `8000 t …`; the weights' and biases' block is the whole array at every point. -/
theorem emb8_0 (t : Fin cfg8.N) (ht : t.val < 200) (p : Fin 8000) (i : Fin 1) :
    ((cfg8.win 0).blk t).view.emb (ix2 p i) = ix2 (⟨t.val * 8000 + p.val, by have := p.isLt; omega⟩ : Fin 1600000) i := by
  obtain ⟨e00, e01, e10, e11, e20, e21, e30, e31, e40, e41, e50, e51⟩ := idx8_facts t
  funext a; apply Fin.ext
  match a with
  | ⟨0, _⟩ => show win8_0.index t (0 : Fin 2) * 8000 + 1 * p.val = t.val * 8000 + p.val; rw [e00]; omega
  | ⟨1, _⟩ => show win8_0.index t (1 : Fin 2) * 1 + 1 * i.val = i.val; rw [e01]; omega
theorem emb8_1 (t : Fin cfg8.N) (y : S1x32.Idx) : ((cfg8.win 1).blk t).view.emb y = y := by
  obtain ⟨e00, e01, e10, e11, e20, e21, e30, e31, e40, e41, e50, e51⟩ := idx8_facts t
  funext a; apply Fin.ext
  match a with
  | ⟨0, _⟩ => show win8_1.index t (0 : Fin 2) * 1 + 1 * (y 0).val = (y 0).val; rw [e10]; omega
  | ⟨1, _⟩ => show win8_1.index t (1 : Fin 2) * 32 + 1 * (y 1).val = (y 1).val; rw [e11]; omega
theorem emb8_2 (t : Fin cfg8.N) (y : S1x32.Idx) : ((cfg8.win 2).blk t).view.emb y = y := by
  obtain ⟨e00, e01, e10, e11, e20, e21, e30, e31, e40, e41, e50, e51⟩ := idx8_facts t
  funext a; apply Fin.ext
  match a with
  | ⟨0, _⟩ => show win8_2.index t (0 : Fin 2) * 1 + 1 * (y 0).val = (y 0).val; rw [e20]; omega
  | ⟨1, _⟩ => show win8_2.index t (1 : Fin 2) * 32 + 1 * (y 1).val = (y 1).val; rw [e21]; omega
theorem emb8_3 (t : Fin cfg8.N) (y : S32x32.Idx) : ((cfg8.win 3).blk t).view.emb y = y := by
  obtain ⟨e00, e01, e10, e11, e20, e21, e30, e31, e40, e41, e50, e51⟩ := idx8_facts t
  funext a; apply Fin.ext
  match a with
  | ⟨0, _⟩ => show win8_3.index t (0 : Fin 2) * 32 + 1 * (y 0).val = (y 0).val; rw [e30]; omega
  | ⟨1, _⟩ => show win8_3.index t (1 : Fin 2) * 32 + 1 * (y 1).val = (y 1).val; rw [e31]; omega
theorem emb8_4 (t : Fin cfg8.N) (y : S1x32.Idx) : ((cfg8.win 4).blk t).view.emb y = y := by
  obtain ⟨e00, e01, e10, e11, e20, e21, e30, e31, e40, e41, e50, e51⟩ := idx8_facts t
  funext a; apply Fin.ext
  match a with
  | ⟨0, _⟩ => show win8_4.index t (0 : Fin 2) * 1 + 1 * (y 0).val = (y 0).val; rw [e40]; omega
  | ⟨1, _⟩ => show win8_4.index t (1 : Fin 2) * 32 + 1 * (y 1).val = (y 1).val; rw [e41]; omega
theorem emb8_5 (t : Fin cfg8.N) (ht : t.val < 200) (p : Fin 8000) (q : Fin 32) :
    ((cfg8.win 5).blk t).view.emb (ix2 p q) = ix2 (⟨t.val * 8000 + p.val, by have := p.isLt; omega⟩ : Fin 1600000) q := by
  obtain ⟨e00, e01, e10, e11, e20, e21, e30, e31, e40, e41, e50, e51⟩ := idx8_facts t
  funext a; apply Fin.ext
  match a with
  | ⟨0, _⟩ => show win8_5.index t (0 : Fin 2) * 8000 + 1 * p.val = t.val * 8000 + p.val; rw [e50]; omega
  | ⟨1, _⟩ => show win8_5.index t (1 : Fin 2) * 32 + 1 * q.val = q.val; rw [e51]; omega

variable (V : (c : Dev nD) → (b : Ref sig .tc) → Buf (Elt Ideal) ((c : Thread nD τ).loc b))

set_option maxHeartbeats 1000000 in
/-- What point `t` writes back is block `t` of the host program's layer of the arrays the region is entered with. -/
theorem flushed8_eq (c : Dev nD) (t : Fin cfg8.N) :
    (dat8 (F := Ideal) V c).flushed 5 t = ((cfg8.win 5).blk t).view.read (Elt Ideal)
      (Cert.HostForms.mlp2Edge (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 (F := Ideal) V c).after 5 t) = _
  rw [after8_5]
  unfold out8
  rw [View.canon_unit_zero hz2]
  simp only [View.ld_unit_zero (S := S8000x1) hz2, View.ld_unit_zero (S := S1x32) hz2, View.ld_unit_zero (S := S1x32) hz2,
    View.ld_unit_zero (S := S32x32) hz2, View.ld_unit_zero (S := S1x32) hz2]
  have hN : cfg8.N = 200 := N_8
  have ht : t.val < 200 := by have := t.isLt; omega
  refine funext fun (j : S8000x32.Idx) => ?_
  obtain ⟨p, q, rfl⟩ : ∃ (p : Fin 8000) (q : Fin 32), j = ix2 p q := ⟨j 0, j 1, eq_ix2 j⟩
  rw [View.read_apply, emb8_5 t ht p q]
  exact point8 _ _ _ _ _ _ _ _ _ _ p q _
    (fun i => congrArg (V c (Pipeline.arrRef spec8 0)) (emb8_0 t ht p i))
    (fun y => congrArg (V c (Pipeline.arrRef spec8 1)) (emb8_1 t y))
    (fun y => congrArg (V c (Pipeline.arrRef spec8 2)) (emb8_2 t y))
    (fun y => congrArg (V c (Pipeline.arrRef spec8 3)) (emb8_3 t y))
    (fun y => congrArg (V c (Pipeline.arrRef spec8 4)) (emb8_4 t y))

/-- An entry of the output array is in point `t`'s block iff each coordinate is in the block's range on its axis. -/
theorem mem_blk8 (t : Fin cfg8.N) (i : S1600000x32.Idx) :
    i ∈ ((cfg8.win 5).blk t).view.set ↔ ∀ a : Fin 2, win8_5.index t a * S8000x32.size a ≤ (i a).val ∧ (i a).val < win8_5.index t a * S8000x32.size a + S8000x32.size a := by
  show i ∈ ((View.whole main_v71).slice (win8_5.rect t)).set ↔ _
  rw [View.set_slice_whole, Rect.mem_set_unit]
  exact Iff.rfl

/-- THE OUTPUT ARRAY after the last grid point is the host program's two-layer perceptron of the arrays the region is
    entered with: row `r` is in the block of point `r / 8000`. -/
theorem final8 (c : Dev nD) :
    (dat8 (F := Ideal) V c).arrAt 5 cfg8.N = Cert.HostForms.mlp2Edge (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5 _ (fun t _ => flushed8_eq V c t) fun i => by
    have hN : cfg8.N = 200 := N_8
    have hi0 : (i 0 : Nat) < 1600000 := (i 0).isLt
    have hi1 : (i 1 : Nat) < 32 := (i 1).isLt
    obtain ⟨t, ht⟩ : ∃ t : Fin cfg8.N, t.val = (i 0 : Nat) / 8000 := ⟨⟨(i 0 : Nat) / 8000, by rw [hN]; omega⟩, rfl⟩
    obtain ⟨e00, e01, e10, e11, e20, e21, e30, e31, e40, e41, e50, e51⟩ := idx8_facts t
    refine ⟨t, flush8_5 t, ?_⟩
    rw [mem_blk8]
    intro a
    match a with
    | ⟨0, _⟩ => show win8_5.index t (0 : Fin 2) * 8000 ≤ (i 0 : Nat) ∧ (i 0 : Nat) < win8_5.index t (0 : Fin 2) * 8000 + 8000; rw [e50]; omega
    | ⟨1, _⟩ => show win8_5.index t (1 : Fin 2) * 32 ≤ (i 1 : Nat) ∧ (i 1 : Nat) < win8_5.index t (1 : Fin 2) * 32 + 32; rw [e51]; omega

end Cert.KernelIdeal.Hand

end
-- ==== Proof.Ideal.Final09.lean ====
import proofs.«106349_j21990232555677_1_alg».proof.Proof.Ideal.Region09
import proofs.«106349_j21990232555677_1_alg».proof.Proof.Ideal.HostForms
import Idealize.ShloMosaic.Lib.ValueIdx
import Idealize.ShloMosaic.Lib.Pipeline.Value
import Idealize.ShloMosaic.PureOps.Ideal.Laws

/-!
# Region 9 as one function of its arrays: the message `relu (a + e)` on `[1600000, 32]`

Over the extended reals. The body's payload at an index of a block is the larger of zero and the sum of the two
input blocks' entries there; the host's message layer at an index of the array is the same expression of the two
arrays' entries. Block `t` of each of the three windows is rows `8000 t … 8000 t + 7999` of its array, all 32 columns,
so what point `t` writes back is block `t` of the host's layer applied to the arrays the region is entered with; the
200 blocks cover the rows, and the output array ends holding that layer.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The block's offsets inside its staging buffer are zero on both axes. -/
theorem zero_off9 : (![0, 0] : Fin 2 → Nat) = fun _ => 0 := funext fun a => by fin_cases a <;> rfl

/-- The body's payload at an index: the larger of the sum of the two blocks' entries and zero. -/
theorem pay9_apply (x0 x1 : Vec Ideal S8000x32 .f32) (j : S8000x32.Idx) :
    k9_pay1 x0 x1 j = max (x0 j + x1 j) (Ideal.ofBits .f32 0x00000000#32) := by
  unfold k9_pay1
  simp only [shapeCast_self]
  rfl

/-- The host's message layer at an index: the same expression of the two arrays' entries. -/
theorem host9_apply (a e : FVec Ideal S1600000x32 .f32) (i : S1600000x32.Idx) :
    Cert.HostForms.reluAdd32 a e i = max (a i + e i) (Ideal.ofBits .f32 0x00000000#32) := by
  unfold Cert.HostForms.reluAdd32
  rw [maximumf_apply, addf_apply]
  exact congrArg (max (a i + e i)) (broadcastInDim_apply _ _ _ i (fun a => a.elim0) (fun a => a.elim0))

/-- The three index maps over the grid: at point `t` each window is on block row `t`, block column 0. -/
theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- Input window 0's block at point `t` is rows `8000 t …` of its array. -/
theorem iblk9_0_apply (c : Dev nD) (t : Fin cfg9.N) (x : S8000x32.Idx) (k : S1600000x32.Idx)
    (hk0 : (k 0).val = t.val * 8000 + (x 0).val) (hk1 : (k 1).val = (x 1).val) :
    (iblk9 V c 0 t : Vec Ideal S8000x32 .f32) x = (V c (Pipeline.arrRef spec9 0) : S1600000x32.Idx → Elt Ideal .f32) k := by
  obtain ⟨e0, e1, -⟩ := idx_facts9 t
  show V c (Pipeline.arrRef spec9 0) (((cfg9.win 0).blk t).view.emb x) = V c (Pipeline.arrRef spec9 0) k
  refine congrArg _ (funext fun a => Fin.ext ?_)
  match a with
  | ⟨0, _⟩ => show win9_0.index t (0 : Fin 2) * 8000 + 1 * (x 0).val = (k 0).val; rw [e0, hk0]; omega
  | ⟨1, _⟩ => show win9_0.index t (1 : Fin 2) * 32 + 1 * (x 1).val = (k 1).val; rw [e1, hk1]; omega

/-- Input window 1's block at point `t` is rows `8000 t …` of its array. -/
theorem iblk9_1_apply (c : Dev nD) (t : Fin cfg9.N) (x : S8000x32.Idx) (k : S1600000x32.Idx)
    (hk0 : (k 0).val = t.val * 8000 + (x 0).val) (hk1 : (k 1).val = (x 1).val) :
    (iblk9 V c 1 t : Vec Ideal S8000x32 .f32) x = (V c (Pipeline.arrRef spec9 1) : S1600000x32.Idx → Elt Ideal .f32) k := by
  obtain ⟨-, -, e0, e1, -⟩ := idx_facts9 t
  show V c (Pipeline.arrRef spec9 1) (((cfg9.win 1).blk t).view.emb x) = V c (Pipeline.arrRef spec9 1) k
  refine congrArg _ (funext fun a => Fin.ext ?_)
  match a with
  | ⟨0, _⟩ => show win9_1.index t (0 : Fin 2) * 8000 + 1 * (x 0).val = (k 0).val; rw [e0, hk0]; omega
  | ⟨1, _⟩ => show win9_1.index t (1 : Fin 2) * 32 + 1 * (x 1).val = (k 1).val; rw [e1, hk1]; omega

/-- Where the output window's block at point `t` puts its element `x`: row `8000 t + x 0`, column `x 1`. -/
theorem oemb9_val (t : Fin cfg9.N) (x : S8000x32.Idx) :
    ((((cfg9.win 2).blk t).view.emb x : S1600000x32.Idx) 0).val = t.val * 8000 + (x 0).val
    ∧ ((((cfg9.win 2).blk t).view.emb x : S1600000x32.Idx) 1).val = (x 1).val := by
  obtain ⟨-, -, -, -, e0, e1⟩ := idx_facts9 t
  constructor
  · show win9_2.index t (0 : Fin 2) * 8000 + 1 * (x 0).val = _; rw [e0]; omega
  · show win9_2.index t (1 : Fin 2) * 32 + 1 * (x 1).val = _; rw [e1]; omega

/-- What point `t` writes back is block `t` of the host's message layer of the two arrays as the region finds them. -/
theorem flushed9_eq (c : Dev nD) (t : Fin cfg9.N) :
    (dat9 V c).flushed 2 t = ((cfg9.win 2).blk t).view.read (Elt Ideal)
      (Cert.HostForms.reluAdd32 (V c (Pipeline.arrRef spec9 0)) (V c (Pipeline.arrRef spec9 1))) := by
  show (cfg9.win 2).cut (grid9.coords t) ((dat9 V c).after 2 t) = _
  rw [after9_2]
  unfold out9
  rw [View.canon_unit_zero zero_off9]
  simp only [View.ld_unit_zero (S := S8000x32) zero_off9]
  funext j
  obtain ⟨h0, h1⟩ := oemb9_val t j
  show k9_pay1 (iblk9 V c 0 t) (iblk9 V c 1 t) j
    = Cert.HostForms.reluAdd32 (V c (Pipeline.arrRef spec9 0)) (V c (Pipeline.arrRef spec9 1)) (((cfg9.win 2).blk t).view.emb j)
  refine (pay9_apply _ _ j).trans (Eq.trans ?_ (host9_apply _ _ _).symm)
  rw [iblk9_0_apply V c t j _ h0 h1, iblk9_1_apply V c t j _ h0 h1]

/-- An index of the array is in point `t`'s block iff each coordinate is in the block's range on its axis. -/
theorem mem_blk9 (t : Fin cfg9.N) (i : S1600000x32.Idx) :
    i ∈ ((cfg9.win 2).blk t).view.set ↔ ∀ a : Fin 2, win9_2.index t a * S8000x32.size a ≤ (i a).val ∧ (i a).val < win9_2.index t a * S8000x32.size a + S8000x32.size a := by
  show i ∈ ((View.whole (Pipeline.arrRef spec9 2)).slice (win9_2.rect t)).set ↔ _
  rw [View.set_slice_whole, Rect.mem_set_unit]
  exact Iff.rfl

/-- Every index of the array is in some point's block: row `r` is in block `r / 8000`. -/
theorem cover_all9 (i : S1600000x32.Idx) :
    ∃ t : Fin cfg9.N, (cfg9.win 2).flush t = true ∧ i ∈ ((cfg9.win 2).blk t).view.set := by
  have hN : cfg9.N = 200 := N_9
  have hi0 : (i 0).val < 1600000 := (i 0).isLt
  have hi1 : (i 1).val < 32 := (i 1).isLt
  have ht : (i 0).val / 8000 < cfg9.N := by rw [hN]; omega
  obtain ⟨-, -, -, -, e0, e1⟩ := idx_facts9 ⟨(i 0).val / 8000, ht⟩
  refine ⟨⟨(i 0).val / 8000, ht⟩, flush9_2 _, ?_⟩
  rw [mem_blk9]
  intro a
  match a with
  | ⟨0, _⟩ =>
    show win9_2.index ⟨(i 0).val / 8000, ht⟩ (0 : Fin 2) * 8000 ≤ (i 0).val ∧ (i 0).val < win9_2.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win9_2.index ⟨(i 0).val / 8000, ht⟩ (1 : Fin 2) * 32 ≤ (i 1).val ∧ (i 1).val < win9_2.index ⟨(i 0).val / 8000, ht⟩ (1 : Fin 2) * 32 + 32
    rw [e1]; omega

/-- The output array after the last grid point is the host's message layer of the two arrays the region is entered with. -/
theorem final9 (V : (c : Dev nD) → (b : Ref sig .tc) → Buf (Elt Ideal) ((c : Thread nD τ).loc b)) (c : Dev nD) :
    (dat9 (F := Ideal) V c).arrAt 2 cfg9.N = Cert.HostForms.reluAdd32 (V c (Pipeline.arrRef spec9 0)) (V c (Pipeline.arrRef spec9 1)) :=
  (dat9 V c).arrAt_eq_of_cover 2 _ (fun t _ => flushed9_eq V c t) (cover_all9)

end Cert.KernelIdeal.Hand

end
-- ==== Proof.Ideal.Final10.lean ====
import proofs.«106349_j21990232555677_1_alg».proof.Proof.Ideal.Region10
import proofs.«106349_j21990232555677_1_alg».proof.Proof.Ideal.HostForms
import Idealize.ShloMosaic.Lib.ValueIdx
import Idealize.ShloMosaic.Lib.Pipeline.Value
import Idealize.ShloMosaic.Lib.ValueLayout
import Idealize.ShloMosaic.PureOps.Ideal.Laws

/-!
# Region 10: the node update's array after the last grid point

The body stores `relu (relu ((x + agg) · W1 + b1) · W2 + b2)` of the blocks it loads. Read at one row and one column,
over the extended reals, each matrix product is the sum over its contraction index, a bias row repeated down the rows
reads its column, and `relu` is the maximum with the zero word's value; the host's spelling of the layer read at the
same row and column is the same expression. Grid point `t` loads rows `10000 t … 10000 t + 9999` of `x` and `agg`
and the whole weights and bias rows, and writes back those rows of the result; the ten blocks tile the array, so the
array ends holding the host's function of the arrays the region is entered with.
-/

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem nu10_mm1_l0 (i : S10000x64.Idx) (q : dot_S10000x32_S32x64_S10000x64_1_0_0_1_n_n.contr.Idx) : (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem nu10_mm1_l1 (i : S10000x64.Idx) (q : dot_S10000x32_S32x64_S10000x64_1_0_0_1_n_n.contr.Idx) : (dot_S10000x32_S32x64_S10000x64_1_0_0_1_n_n.lhsIdx i q 1).val = (q ⟨0, by decide⟩).val :=
  dot_S10000x32_S32x64_S10000x64_1_0_0_1_n_n.lhsIdx_val_of_single rfl i q
theorem nu10_mm1_r0 (i : S10000x64.Idx) (q : dot_S10000x32_S32x64_S10000x64_1_0_0_1_n_n.contr.Idx) : (dot_S10000x32_S32x64_S10000x64_1_0_0_1_n_n.rhsIdx i q 0).val = (q ⟨0, by decide⟩).val :=
  dot_S10000x32_S32x64_S10000x64_1_0_0_1_n_n.rhsIdx_val_of_single rfl i q
theorem nu10_mm1_r1 (i : S10000x64.Idx) (q : dot_S10000x32_S32x64_S10000x64_1_0_0_1_n_n.contr.Idx) : (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The block's first product at row `p`, column `k`: the sum over the 32 input features. -/
theorem nu10_mm1 (L : FVec Ideal S10000x32 .bf16) (R : FVec Ideal S32x64 .bf16) (p : Fin 10000) (k : Fin 64) :
    matmul dot_S10000x32_S32x64_S10000x64_1_0_0_1_n_n none L R (constant (F := Ideal) S10000x64 .f32 0x00000000#32) (ix2 p k)
      = ∑ l : Fin 32, L (ix2 p l) * R (ix2 l k) := by
  refine (Ideal.matmul_constant_zero_apply dot_S10000x32_S32x64_S10000x64_1_0_0_1_n_n none L R (ix2 p k)).trans ?_
  rw [← Equiv.sum_comp (contrEquiv1 dot_S10000x32_S32x64_S10000x64_1_0_0_1_n_n 32 rfl rfl).symm]
  refine Finset.sum_congr rfl fun l _ => ?_
  have hl := contrEquiv1_symm_val dot_S10000x32_S32x64_S10000x64_1_0_0_1_n_n 32 rfl rfl l
  have el : dot_S10000x32_S32x64_S10000x64_1_0_0_1_n_n.lhsIdx (ix2 p k) ((contrEquiv1 dot_S10000x32_S32x64_S10000x64_1_0_0_1_n_n 32 rfl rfl).symm l) = ix2 p l := funext fun a => Fin.ext (by
    match a with
    | ⟨0, _⟩ => exact nu10_mm1_l0 _ _
    | ⟨1, _⟩ => exact (nu10_mm1_l1 _ _).trans hl)
  have er : dot_S10000x32_S32x64_S10000x64_1_0_0_1_n_n.rhsIdx (ix2 p k) ((contrEquiv1 dot_S10000x32_S32x64_S10000x64_1_0_0_1_n_n 32 rfl rfl).symm l) = ix2 l k := funext fun a => Fin.ext (by
    match a with
    | ⟨0, _⟩ => exact (nu10_mm1_r0 _ _).trans hl
    | ⟨1, _⟩ => exact nu10_mm1_r1 _ _)
  rw [el, er]

theorem nu10_mm2_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem nu10_mm2_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem nu10_mm2_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem nu10_mm2_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block's second product at row `p`, column `k`: the sum over the 64 hidden features. -/
theorem nu10_mm2 (L : FVec Ideal S10000x64 .bf16) (R : FVec Ideal S64x64 .bf16) (p : Fin 10000) (k : Fin 64) :
    matmul dot_S10000x64_S64x64_S10000x64_1_0_0_1_n_n none L R (constant (F := Ideal) S10000x64 .f32 0x00000000#32) (ix2 p k)
      = ∑ l : Fin 64, L (ix2 p l) * R (ix2 l k) := by
  refine (Ideal.matmul_constant_zero_apply dot_S10000x64_S64x64_S10000x64_1_0_0_1_n_n none L R (ix2 p k)).trans ?_
  rw [← Equiv.sum_comp (contrEquiv1 dot_S10000x64_S64x64_S10000x64_1_0_0_1_n_n 64 rfl rfl).symm]
  refine Finset.sum_congr rfl fun l _ => ?_
  have hl := contrEquiv1_symm_val dot_S10000x64_S64x64_S10000x64_1_0_0_1_n_n 64 rfl rfl l
  have el : dot_S10000x64_S64x64_S10000x64_1_0_0_1_n_n.lhsIdx (ix2 p k) ((contrEquiv1 dot_S10000x64_S64x64_S10000x64_1_0_0_1_n_n 64 rfl rfl).symm l) = ix2 p l := funext fun a => Fin.ext (by
    match a with
    | ⟨0, _⟩ => exact nu10_mm2_l0 _ _
    | ⟨1, _⟩ => exact (nu10_mm2_l1 _ _).trans hl)
  have er : dot_S10000x64_S64x64_S10000x64_1_0_0_1_n_n.rhsIdx (ix2 p k) ((contrEquiv1 dot_S10000x64_S64x64_S10000x64_1_0_0_1_n_n 64 rfl rfl).symm l) = ix2 l k := funext fun a => Fin.ext (by
    match a with
    | ⟨0, _⟩ => exact (nu10_mm2_r0 _ _).trans hl
    | ⟨1, _⟩ => exact nu10_mm2_r1 _ _)
  rw [el, er]

theorem nu10_hd1_l0 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x64_S100000x64_1_0_0_1_n_n.lhsBatch by decide), dif_pos (show (0 : Fin Cert.ReferenceIdeal.S100000x32.rank) ∈ Cert.ReferenceIdeal.dot_S100000x32_S32x64_S100000x64_1_0_0_1_n_n.lhsNonContracting by decide)]
  rfl
theorem nu10_hd1_l1 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.lhsIdx i q 1).val = (q ⟨0, by decide⟩).val :=
  Cert.ReferenceIdeal.dot_S100000x32_S32x64_S100000x64_1_0_0_1_n_n.lhsIdx_val_of_single rfl i q
theorem nu10_hd1_r0 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.rhsIdx i q 0).val = (q ⟨0, by decide⟩).val :=
  Cert.ReferenceIdeal.dot_S100000x32_S32x64_S100000x64_1_0_0_1_n_n.rhsIdx_val_of_single rfl i q
theorem nu10_hd1_r1 (i : Cert.ReferenceIdeal.S100000x64.Idx) (q : Cert.ReferenceIdeal.dot_S100000x32_S32x64_S100000x64_1_0_0_1_n_n.contr.Idx) : (Cert.ReferenceIdeal.dot_S100000x32_S32x64_S100000x64_1_0_0_1_n_n.rhsIdx i q 1).val = (i 1).val := by
  unfold DotDims.rhsIdx
  rw [dif_neg (show ¬(1 : Fin Cert.ReferenceIdeal.S32x64.rank) ∈ Cert.ReferenceIdeal.dot_S100000x32_S32x64_S100000x64_1_0_0_1_n_n.rhsBatch by decide), dif_pos (show (1 : Fin Cert.ReferenceIdeal.S32x64.rank) ∈ Cert.ReferenceIdeal.dot_S100000x32_S32x64_S100000x64_1_0_0_1_n_n.rhsNonContracting by decide)]
  rfl

/-- The host's first product at row `p`, column `k`: the same sum over the 32 input features. -/
theorem nu10_hd1 (L : FVec Ideal Cert.ReferenceIdeal.S100000x32 .f32) (R : FVec Ideal Cert.ReferenceIdeal.S32x64 .f32) (p : Fin 100000) (k : Fin 64) :
    Host.dotGeneral (F := Ideal) Cert.ReferenceIdeal.dot_S100000x32_S32x64_S100000x64_1_0_0_1_n_n none L R (ix2 p k)
      = ∑ l : Fin 32, L (ix2 p l) * R (ix2 l k) := by
  simp only [Host.dotGeneral]
  rw [Ideal.dotGeneral_apply, ← Equiv.sum_comp (contrEquiv1 Cert.ReferenceIdeal.dot_S100000x32_S32x64_S100000x64_1_0_0_1_n_n 32 rfl rfl).symm]
  refine Finset.sum_congr rfl fun l _ => ?_
  have hl := contrEquiv1_symm_val Cert.ReferenceIdeal.dot_S100000x32_S32x64_S100000x64_1_0_0_1_n_n 32 rfl rfl l
  have el : Cert.ReferenceIdeal.dot_S100000x32_S32x64_S100000x64_1_0_0_1_n_n.lhsIdx (ix2 p k) ((contrEquiv1 Cert.ReferenceIdeal.dot_S100000x32_S32x64_S100000x64_1_0_0_1_n_n 32 rfl rfl).symm l) = ix2 p l := funext fun a => Fin.ext (by
    match a with
    | ⟨0, _⟩ => exact nu10_hd1_l0 _ _
    | ⟨1, _⟩ => exact (nu10_hd1_l1 _ _).trans hl)
  have er : Cert.ReferenceIdeal.dot_S100000x32_S32x64_S100000x64_1_0_0_1_n_n.rhsIdx (ix2 p k) ((contrEquiv1 Cert.ReferenceIdeal.dot_S100000x32_S32x64_S100000x64_1_0_0_1_n_n 32 rfl rfl).symm l) = ix2 l k := funext fun a => Fin.ext (by
    match a with
    | ⟨0, _⟩ => exact (nu10_hd1_r0 _ _).trans hl
    | ⟨1, _⟩ => exact nu10_hd1_r1 _ _)
  rw [el, er]

theorem nu10_hd2_l0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem nu10_hd2_l1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem nu10_hd2_r0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem nu10_hd2_r1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's second product at row `p`, column `k`: the same sum over the 64 hidden features. -/
theorem nu10_hd2 (L : FVec Ideal Cert.ReferenceIdeal.S100000x64 .f32) (R : FVec Ideal Cert.ReferenceIdeal.S64x64 .f32) (p : Fin 100000) (k : Fin 64) :
    Host.dotGeneral (F := Ideal) Cert.ReferenceIdeal.dot_S100000x64_S64x64_S100000x64_1_0_0_1_n_n none L R (ix2 p k)
      = ∑ l : Fin 64, L (ix2 p l) * R (ix2 l k) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun l _ => ?_
  have hl := contrEquiv1_symm_val Cert.ReferenceIdeal.dot_S100000x64_S64x64_S100000x64_1_0_0_1_n_n 64 rfl rfl l
  have el : Cert.ReferenceIdeal.dot_S100000x64_S64x64_S100000x64_1_0_0_1_n_n.lhsIdx (ix2 p k) ((contrEquiv1 Cert.ReferenceIdeal.dot_S100000x64_S64x64_S100000x64_1_0_0_1_n_n 64 rfl rfl).symm l) = ix2 p l := funext fun a => Fin.ext (by
    match a with
    | ⟨0, _⟩ => exact nu10_hd2_l0 _ _
    | ⟨1, _⟩ => exact (nu10_hd2_l1 _ _).trans hl)
  have er : Cert.ReferenceIdeal.dot_S100000x64_S64x64_S100000x64_1_0_0_1_n_n.rhsIdx (ix2 p k) ((contrEquiv1 Cert.ReferenceIdeal.dot_S100000x64_S64x64_S100000x64_1_0_0_1_n_n 64 rfl rfl).symm l) = ix2 l k := funext fun a => Fin.ext (by
    match a with
    | ⟨0, _⟩ => exact (nu10_hd2_r0 _ _).trans hl
    | ⟨1, _⟩ => exact nu10_hd2_r1 _ _)
  rw [el, er]

/-- A bias row `[1, 64]` repeated down the block's rows reads its column. -/
theorem nu10_brow (b : FVec Ideal S1x64 .f32) (hb : S1x64.Broadcasts S10000x64) (p : Fin 10000) (k : Fin 64) :
    broadcastTo S10000x64 b hb (ix2 p k) = b (ix2 0 k) := by
  refine broadcastTo_apply b hb (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's bias row repeated down the array's rows reads its column. -/
theorem nu10_hrow (b : FVec Ideal Cert.ReferenceIdeal.S1x64 .f32) (hb : Cert.ReferenceIdeal.S1x64.BroadcastsInDim Cert.ReferenceIdeal.S100000x64 (![0, 1] : Fin 2 → Fin Cert.ReferenceIdeal.S100000x64.rank)) (p : Fin 100000) (k : Fin 64) :
    broadcastInDim Cert.ReferenceIdeal.S100000x64 ![0, 1] hb b (ix2 p k) = b (ix2 0 k) := by
  refine broadcastInDim_apply _ hb b (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's zero, spread over the array, reads the zero word's value everywhere. -/
theorem nu10_hzero (dims : Fin Cert.ReferenceIdeal.S_.rank → Fin Cert.ReferenceIdeal.S100000x64.rank) (hb : Cert.ReferenceIdeal.S_.BroadcastsInDim Cert.ReferenceIdeal.S100000x64 dims) (i : Cert.ReferenceIdeal.S100000x64.Idx) :
    broadcastInDim Cert.ReferenceIdeal.S100000x64 dims hb (constant (F := Ideal) Cert.ReferenceIdeal.S_ .f32 0x00000000#32) i = Ideal.ofBits .f32 0x00000000#32 :=
  broadcastInDim_apply _ hb _ i (fun a => a.elim0) (fun a => a.elim0)

/-- The body's stored value at row `p`, column `q` of the block. -/
theorem nu10_pay_apply (v0 v2 : Vec Ideal S10000x32 .f32) (v6 : Vec Ideal S32x64 .f32) (v9 : Vec Ideal S1x64 .f32) (v15 : Vec Ideal S64x64 .f32) (v19 : Vec Ideal S1x64 .f32) (p : Fin 10000) (q : Fin 64) :
    k10_pay1 v0 v2 v6 v9 v15 v19 (ix2 p q)
      = max ((∑ k : Fin 64, max ((∑ l : Fin 32, (v0 (ix2 p l) + v2 (ix2 p l)) * v6 (ix2 l k)) + v9 (ix2 0 k)) (Ideal.ofBits .f32 0x00000000#32) * v15 (ix2 k q)) + v19 (ix2 0 q)) (Ideal.ofBits .f32 0x00000000#32) := by
  unfold k10_pay1
  simp only [maximumf_apply, addf_apply, broadcast_apply, nu10_brow, nu10_mm2, nu10_mm1, truncf_apply, shapeCast_self]
  rfl

/-- The host's node update at row `r`, column `q` of the array. -/
theorem nu10_host_apply (x agg : FVec Ideal Cert.ReferenceIdeal.S100000x32 .f32) (W1 : FVec Ideal Cert.ReferenceIdeal.S32x64 .f32) (b1 : FVec Ideal Cert.ReferenceIdeal.S1x64 .f32) (W2 : FVec Ideal Cert.ReferenceIdeal.S64x64 .f32) (b2 : FVec Ideal Cert.ReferenceIdeal.S1x64 .f32) (r : Fin 100000) (q : Fin 64) :
    Cert.HostForms.nodeUpdate32 x agg W1 b1 W2 b2 (ix2 r q)
      = max ((∑ k : Fin 64, max ((∑ l : Fin 32, (x (ix2 r l) + agg (ix2 r l)) * W1 (ix2 l k)) + b1 (ix2 0 k)) (Ideal.ofBits .f32 0x00000000#32) * W2 (ix2 k q)) + b2 (ix2 0 q)) (Ideal.ofBits .f32 0x00000000#32) := by
  unfold Cert.HostForms.nodeUpdate32
  simp only [maximumf_apply, addf_apply, nu10_hzero, nu10_hd2, nu10_hd1]
  rw [nu10_hrow]
  refine congrArg (fun s : EReal => max (s + b2 (ix2 0 q)) (Ideal.ofBits .f32 0x00000000#32)) (Finset.sum_congr rfl fun k _ => ?_)
  rw [nu10_hrow]

/-- One element of the block's stored value is the host's node update at the array's matching row, once each loaded
    block is known to hold the matching entries of its array. -/
theorem nu10_point (v0 v2 : Vec Ideal S10000x32 .f32) (v6 : Vec Ideal S32x64 .f32) (v9 : Vec Ideal S1x64 .f32) (v15 : Vec Ideal S64x64 .f32) (v19 : Vec Ideal S1x64 .f32)
    (x agg : FVec Ideal Cert.ReferenceIdeal.S100000x32 .f32) (W1 : FVec Ideal Cert.ReferenceIdeal.S32x64 .f32) (b1 : FVec Ideal Cert.ReferenceIdeal.S1x64 .f32) (W2 : FVec Ideal Cert.ReferenceIdeal.S64x64 .f32) (b2 : FVec Ideal Cert.ReferenceIdeal.S1x64 .f32)
    (p : Fin 10000) (q : Fin 64) (r : Fin 100000)
    (h0 : ∀ l : Fin 32, v0 (ix2 p l) = x (ix2 r l)) (h1 : ∀ l : Fin 32, v2 (ix2 p l) = agg (ix2 r l))
    (h2 : ∀ (l : Fin 32) (k : Fin 64), v6 (ix2 l k) = W1 (ix2 l k)) (h3 : ∀ k : Fin 64, v9 (ix2 0 k) = b1 (ix2 0 k))
    (h4 : ∀ (k k' : Fin 64), v15 (ix2 k k') = W2 (ix2 k k')) (h5 : ∀ k : Fin 64, v19 (ix2 0 k) = b2 (ix2 0 k)) :
    k10_pay1 v0 v2 v6 v9 v15 v19 (ix2 p q) = Cert.HostForms.nodeUpdate32 x agg W1 b1 W2 b2 (ix2 r q) := by
  rw [nu10_pay_apply, nu10_host_apply]
  simp only [h0, h1, h2, h3, h4, h5]

variable (V : (c : Dev nD) → (b : Ref sig .tc) → Buf (Elt Ideal) ((c : Thread nD τ).loc b))

theorem nu10_hz : (![0, 0] : Fin 2 → Nat) = fun _ => 0 := funext fun a => by fin_cases a <;> rfl

/-- The index maps over the grid: the row windows' block index is the grid point on the row axis, the weights' and
    the bias rows' is zero. -/
theorem nu10_idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = t.val ∧ win10_6.index t (1 : Fin 2) = 0 :=
  (by decide +kernel : ∀ t : Fin grid10.N, _)

set_option maxHeartbeats 1000000 in
/-- What grid point `t` writes back is block `t` of the host's node update of the arrays the region is entered with. -/
theorem nu10_flushed_eq (c : Dev nD) (t : Fin cfg10.N) :
    (dat10 (F := Ideal) V c).flushed 6 t = ((cfg10.win 6).blk t).view.read (Elt Ideal)
      (Cert.HostForms.nodeUpdate32 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5))) := by
  show (cfg10.win 6).cut (grid10.coords t) ((dat10 V c).after 6 t) = _
  rw [after10_6]
  unfold out10
  rw [View.canon_unit_zero nu10_hz]
  simp only [View.ld_unit_zero (S := S10000x32) nu10_hz, View.ld_unit_zero (S := S32x64) nu10_hz, View.ld_unit_zero (S := S1x64) nu10_hz, View.ld_unit_zero (S := S64x64) nu10_hz]
  obtain ⟨e00, e01, e10, e11, e20, e21, e30, e31, e40, e41, e50, e51, e60, e61⟩ := nu10_idx_facts t
  have ht : t.val < 10 := by have h := t.isLt; have hN : cfg10.N = 10 := N_10; omega
  funext j
  obtain ⟨p, q, rfl⟩ : ∃ (p : Fin 10000) (q : Fin 64), j = ix2 p q := ⟨j 0, j 1, eq_ix2 j⟩
  have hp : p.val < 10000 := p.isLt
  show k10_pay1 (iblk10 V c 0 t) (iblk10 V c 1 t) (iblk10 V c 2 t) (iblk10 V c 3 t) (iblk10 V c 4 t) (iblk10 V c 5 t) (ix2 p q)
      = Cert.HostForms.nodeUpdate32 _ _ _ _ _ _ (((cfg10.win 6).blk t).view.emb (ix2 p q))
  have hemb : ((cfg10.win 6).blk t).view.emb (ix2 p q) = ix2 (⟨t.val * 10000 + p.val, by omega⟩ : Fin 100000) q := by
    funext a; apply Fin.ext
    match a with
    | ⟨0, _⟩ => show win10_6.index t (0 : Fin 2) * 10000 + 1 * p.val = t.val * 10000 + p.val; rw [e60]; omega
    | ⟨1, _⟩ => show win10_6.index t (1 : Fin 2) * 64 + 1 * q.val = q.val; rw [e61]; omega
  rw [hemb]
  refine nu10_point _ _ _ _ _ _ _ _ _ _ _ _ p q _ ?_ ?_ ?_ ?_ ?_ ?_
  · intro l
    show V c (Pipeline.arrRef spec10 0) (((cfg10.win 0).blk t).view.emb (ix2 p l)) = V c (Pipeline.arrRef spec10 0) (ix2 _ l)
    refine congrArg _ (funext fun a => Fin.ext ?_)
    match a with
    | ⟨0, _⟩ => show win10_0.index t (0 : Fin 2) * 10000 + 1 * p.val = t.val * 10000 + p.val; rw [e00]; omega
    | ⟨1, _⟩ => show win10_0.index t (1 : Fin 2) * 32 + 1 * l.val = l.val; rw [e01]; omega
  · intro l
    show V c (Pipeline.arrRef spec10 1) (((cfg10.win 1).blk t).view.emb (ix2 p l)) = V c (Pipeline.arrRef spec10 1) (ix2 _ l)
    refine congrArg _ (funext fun a => Fin.ext ?_)
    match a with
    | ⟨0, _⟩ => show win10_1.index t (0 : Fin 2) * 10000 + 1 * p.val = t.val * 10000 + p.val; rw [e10]; omega
    | ⟨1, _⟩ => show win10_1.index t (1 : Fin 2) * 32 + 1 * l.val = l.val; rw [e11]; omega
  · intro l k
    show V c (Pipeline.arrRef spec10 2) (((cfg10.win 2).blk t).view.emb (ix2 l k)) = V c (Pipeline.arrRef spec10 2) (ix2 l k)
    refine congrArg _ (funext fun a => Fin.ext ?_)
    match a with
    | ⟨0, _⟩ => show win10_2.index t (0 : Fin 2) * 32 + 1 * l.val = l.val; rw [e20]; omega
    | ⟨1, _⟩ => show win10_2.index t (1 : Fin 2) * 64 + 1 * k.val = k.val; rw [e21]; omega
  · intro k
    show V c (Pipeline.arrRef spec10 3) (((cfg10.win 3).blk t).view.emb (ix2 0 k)) = V c (Pipeline.arrRef spec10 3) (ix2 0 k)
    refine congrArg _ (funext fun a => Fin.ext ?_)
    match a with
    | ⟨0, _⟩ => show win10_3.index t (0 : Fin 2) * 1 + 1 * 0 = 0; rw [e30]
    | ⟨1, _⟩ => show win10_3.index t (1 : Fin 2) * 64 + 1 * k.val = k.val; rw [e31]; omega
  · intro k k'
    show V c (Pipeline.arrRef spec10 4) (((cfg10.win 4).blk t).view.emb (ix2 k k')) = V c (Pipeline.arrRef spec10 4) (ix2 k k')
    refine congrArg _ (funext fun a => Fin.ext ?_)
    match a with
    | ⟨0, _⟩ => show win10_4.index t (0 : Fin 2) * 64 + 1 * k.val = k.val; rw [e40]; omega
    | ⟨1, _⟩ => show win10_4.index t (1 : Fin 2) * 64 + 1 * k'.val = k'.val; rw [e41]; omega
  · intro k
    show V c (Pipeline.arrRef spec10 5) (((cfg10.win 5).blk t).view.emb (ix2 0 k)) = V c (Pipeline.arrRef spec10 5) (ix2 0 k)
    refine congrArg _ (funext fun a => Fin.ext ?_)
    match a with
    | ⟨0, _⟩ => show win10_5.index t (0 : Fin 2) * 1 + 1 * 0 = 0; rw [e50]
    | ⟨1, _⟩ => show win10_5.index t (1 : Fin 2) * 64 + 1 * k.val = k.val; rw [e51]; omega

/-- An index of the result array is in point `t`'s block iff each coordinate is in the block's range on its axis. -/
theorem nu10_mem_blk (t : Fin cfg10.N) (i : S100000x64.Idx) :
    i ∈ ((cfg10.win 6).blk t).view.set ↔ ∀ a : Fin 2, win10_6.index t a * S10000x64.size a ≤ (i a).val ∧ (i a).val < win10_6.index t a * S10000x64.size a + S10000x64.size a := by
  show i ∈ ((View.whole main_v89).slice (win10_6.rect t)).set ↔ _
  rw [View.set_slice_whole, Rect.mem_set_unit]
  exact Iff.rfl

/-- Every row of the result array is in the block of the point `row / 10000`, which writes it back. -/
theorem nu10_covered (i : S100000x64.Idx) : ∃ t : Fin cfg10.N, (cfg10.win 6).flush t = true ∧ i ∈ ((cfg10.win 6).blk t).view.set := by
  have hi0 : (i 0).val < 100000 := (i 0).isLt
  have hi1 : (i 1).val < 64 := (i 1).isLt
  have hN : cfg10.N = 10 := N_10
  obtain ⟨T, hT⟩ : ∃ T : Fin cfg10.N, T.val = (i 0).val / 10000 := ⟨⟨(i 0).val / 10000, by rw [hN]; omega⟩, rfl⟩
  obtain ⟨-, -, -, -, -, -, -, -, -, -, -, -, e60, e61⟩ := nu10_idx_facts T
  refine ⟨T, flush10_6 T, ?_⟩
  rw [nu10_mem_blk]
  intro a
  match a with
  | ⟨0, _⟩ => show win10_6.index T (0 : Fin 2) * 10000 ≤ (i 0).val ∧ (i 0).val < win10_6.index T (0 : Fin 2) * 10000 + 10000; rw [e60, hT]; omega
  | ⟨1, _⟩ => show win10_6.index T (1 : Fin 2) * 64 ≤ (i 1).val ∧ (i 1).val < win10_6.index T (1 : Fin 2) * 64 + 64; rw [e61]; omega

/-- The result array after the last grid point is the host's node update of the arrays the region is entered with. -/
theorem final10 (V : (c : Dev nD) → (b : Ref sig .tc) → Buf (Elt Ideal) ((c : Thread nD τ).loc b)) (c : Dev nD) :
    (dat10 (F := Ideal) V c).arrAt 6 cfg10.N = Cert.HostForms.nodeUpdate32 (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) :=
  (dat10 (F := Ideal) V c).arrAt_eq_of_cover 6 _ (fun t _ => nu10_flushed_eq V c t) nu10_covered

end Cert.KernelIdeal.Hand

end
-- ==== Proof.Ideal.Final11.lean ====
import proofs.«106349_j21990232555677_1_alg».proof.Proof.Ideal.Region11
import proofs.«106349_j21990232555677_1_alg».proof.Proof.Ideal.HostForms
import Idealize.ShloMosaic.Lib.ValueIdx
import Idealize.ShloMosaic.Lib.Pipeline.Value
import Idealize.ShloMosaic.Lib.KernelVsHost
import Idealize.ShloMosaic.PureOps.Ideal.Laws

/-!
# Region 11 as one function of its arrays: the edge projection `e · W + b` on `[1600000, 32] → [1600000, 64]`

Over the extended reals, where narrowing to half width is the identity and a product accumulated into a zero block is
the plain sum. The body's payload at row `p`, column `q` of a block is `∑ k, e (p, k) · W (k, q) + b (0, q)` over the 32
inner indices, of the block of `e`, the whole weight matrix and the whole bias row; the host's projection at row `r`,
column `q` of the array is the same sum, term by term in the same order. Block `t` of the edge window and of the output
window is rows `8000 t … 8000 t + 7999` of its array; the weight and bias windows are on their whole small arrays at every
point. So what point `t` writes back is block `t` of the host's projection of the arrays the region is entered with; the
200 blocks cover the rows, and the output array ends holding that projection.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- A block's offsets inside its staging buffer are zero on both axes. -/
theorem zero_off11 : (![0, 0] : Fin 2 → Nat) = fun _ => 0 := funext fun a => by fin_cases a <;> rfl

/-! ## The body's product at an index -/

/-- The left operand of the body's product is read at the output's row. -/
theorem klhs11_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl

/-- The right operand of the body's product is read at the output's column. -/
theorem krhs11_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- The body's product into a zero block, at row `p`, column `q`: the sum over the 32 inner indices. -/
theorem kmatmul11_apply (l : FVec Ideal S8000x32 .bf16) (r : FVec Ideal S32x64 .bf16) (p : Fin 8000) (q : Fin 64) :
    matmul dot_S8000x32_S32x64_S8000x64_1_0_0_1_n_n none l r (constant (F := Ideal) S8000x64 .f32 0x00000000#32) (ix2 p q)
      = ∑ k : Fin 32, l (ix2 p k) * r (ix2 k q) := by
  show FloatOps.matmul dot_S8000x32_S32x64_S8000x64_1_0_0_1_n_n none l r (constant (F := Ideal) S8000x64 .f32 0x00000000#32) (ix2 p q) = _
  rw [Ideal.matmul_constant_zero_apply, ← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 p q) ((contrEquiv1 dot_S8000x32_S32x64_S8000x64_1_0_0_1_n_n 32 rfl rfl).symm k) = ix2 p k := funext fun a => Fin.ext (by
    match a with
    | ⟨0, _⟩ => exact klhs11_0 _ _
    | ⟨1, _⟩ => exact (dot_S8000x32_S32x64_S8000x64_1_0_0_1_n_n.lhsIdx_val_of_single rfl (ix2 p q) _).trans hk)
  have er : dot_S8000x32_S32x64_S8000x64_1_0_0_1_n_n.rhsIdx (ix2 p q) ((contrEquiv1 dot_S8000x32_S32x64_S8000x64_1_0_0_1_n_n 32 rfl rfl).symm k) = ix2 k q := funext fun a => Fin.ext (by
    match a with
    | ⟨0, _⟩ => exact (dot_S8000x32_S32x64_S8000x64_1_0_0_1_n_n.rhsIdx_val_of_single rfl (ix2 p q) _).trans hk
    | ⟨1, _⟩ => exact krhs11_1 _ _)
  rw [el, er]

/-- The body's bias row repeated down the rows, at row `p`, column `q`: the row's entry in column `q`. -/
theorem kbias11_apply (b : FVec Ideal S1x64 .f32) (p : Fin 8000) (q : Fin 64) :
    broadcastTo S8000x64 b broadcasts_S1x64_S8000x64 (ix2 p q) = b (ix2 (0 : Fin 1) q) :=
  broadcastTo_apply b broadcasts_S1x64_S8000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else _; rw [if_neg (by decide)]; rfl)

/-- The body's payload at row `p`, column `q`. -/
theorem pay11_apply (x0 : FVec Ideal S8000x32 .f32) (x1 : FVec Ideal S32x64 .f32) (x2 : FVec Ideal S1x64 .f32) (p : Fin 8000) (q : Fin 64) :
    k11_pay1 x0 x1 x2 (ix2 p q) = (∑ k : Fin 32, x0 (ix2 p k) * x1 (ix2 k q)) + x2 (ix2 (0 : Fin 1) q) := by
  unfold k11_pay1
  simp only [shapeCast_self]
  rw [addf_apply]
  refine congrArg₂ (· + ·) ?_ (kbias11_apply x2 p q)
  exact kmatmul11_apply _ _ p q

/-! ## The host's projection at an index -/

/-- The left operand of the host's product is read at the output's row. -/
theorem hlhs11_0 (i : S1600000x64.Idx) (q : Cert.ReferenceIdeal.dot_S1600000x32_S32x64_S1600000x64_1_0_0_1_n_n.contr.Idx) :
    (Cert.ReferenceIdeal.dot_S1600000x32_S32x64_S1600000x64_1_0_0_1_n_n.lhsIdx i q 0).val = (i 0).val := by
  unfold DotDims.lhsIdx
  rw [dif_neg (show ¬(0 : Fin S1600000x32.rank) ∈ Cert.ReferenceIdeal.dot_S1600000x32_S32x64_S1600000x64_1_0_0_1_n_n.lhsBatch by decide), dif_pos (show (0 : Fin S1600000x32.rank) ∈ Cert.ReferenceIdeal.dot_S1600000x32_S32x64_S1600000x64_1_0_0_1_n_n.lhsNonContracting by decide)]
  rfl

/-- The right operand of the host's product is read at the output's column. -/
theorem hrhs11_1 (i : S1600000x64.Idx) (q : Cert.ReferenceIdeal.dot_S1600000x32_S32x64_S1600000x64_1_0_0_1_n_n.contr.Idx) :
    (Cert.ReferenceIdeal.dot_S1600000x32_S32x64_S1600000x64_1_0_0_1_n_n.rhsIdx i q 1).val = (i 1).val := by
  unfold DotDims.rhsIdx
  rw [dif_neg (show ¬(1 : Fin S32x64.rank) ∈ Cert.ReferenceIdeal.dot_S1600000x32_S32x64_S1600000x64_1_0_0_1_n_n.rhsBatch by decide), dif_pos (show (1 : Fin S32x64.rank) ∈ Cert.ReferenceIdeal.dot_S1600000x32_S32x64_S1600000x64_1_0_0_1_n_n.rhsNonContracting by decide)]
  rfl

/-- The host's projection at row `r`, column `q`: the same sum over the 32 inner indices, plus the bias row's entry. -/
theorem host11_apply (e : FVec Ideal S1600000x32 .f32) (W : FVec Ideal S32x64 .f32) (b : FVec Ideal S1x64 .f32) (r : Fin 1600000) (q : Fin 64) :
    Cert.HostForms.edgeLin e W b (ix2 r q) = (∑ k : Fin 32, e (ix2 r k) * W (ix2 k q)) + b (ix2 (0 : Fin 1) q) := by
  unfold Cert.HostForms.edgeLin
  rw [addf_apply]
  refine congrArg₂ (· + ·) ?_ (broadcastInDim_oneRow_apply _ b r q)
  simp only [Host.dotGeneral]
  rw [Ideal.dotGeneral_apply, ← Equiv.sum_comp (contrEquiv1 Cert.ReferenceIdeal.dot_S1600000x32_S32x64_S1600000x64_1_0_0_1_n_n 32 rfl rfl).symm]
  refine Finset.sum_congr rfl fun k _ => ?_
  have hk := contrEquiv1_symm_val Cert.ReferenceIdeal.dot_S1600000x32_S32x64_S1600000x64_1_0_0_1_n_n 32 rfl rfl k
  have el : Cert.ReferenceIdeal.dot_S1600000x32_S32x64_S1600000x64_1_0_0_1_n_n.lhsIdx (ix2 r q) ((contrEquiv1 Cert.ReferenceIdeal.dot_S1600000x32_S32x64_S1600000x64_1_0_0_1_n_n 32 rfl rfl).symm k) = ix2 r k := funext fun a => Fin.ext (by
    match a with
    | ⟨0, _⟩ => exact hlhs11_0 _ _
    | ⟨1, _⟩ => exact (Cert.ReferenceIdeal.dot_S1600000x32_S32x64_S1600000x64_1_0_0_1_n_n.lhsIdx_val_of_single rfl (ix2 r q) _).trans hk)
  have er : Cert.ReferenceIdeal.dot_S1600000x32_S32x64_S1600000x64_1_0_0_1_n_n.rhsIdx (ix2 r q) ((contrEquiv1 Cert.ReferenceIdeal.dot_S1600000x32_S32x64_S1600000x64_1_0_0_1_n_n 32 rfl rfl).symm k) = ix2 k q := funext fun a => Fin.ext (by
    match a with
    | ⟨0, _⟩ => exact (Cert.ReferenceIdeal.dot_S1600000x32_S32x64_S1600000x64_1_0_0_1_n_n.rhsIdx_val_of_single rfl (ix2 r q) _).trans hk
    | ⟨1, _⟩ => exact hrhs11_1 _ _)
  rw [el, er]

/-! ## The windows' blocks -/

/-- The four index maps over the grid: at point `t` the edge window and the output window are on block row `t`, the
    weight and bias windows on their one block. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- The edge window's block at point `t` is rows `8000 t …` of its array. -/
theorem iblk11_0_apply (c : Dev nD) (t : Fin cfg11.N) (x : S8000x32.Idx) (k : S1600000x32.Idx)
    (hk0 : (k 0).val = t.val * 8000 + (x 0).val) (hk1 : (k 1).val = (x 1).val) :
    (iblk11 V c 0 t : FVec Ideal S8000x32 .f32) x = (V c (Pipeline.arrRef spec11 0) : S1600000x32.Idx → Elt Ideal .f32) k := by
  obtain ⟨e0, e1, -⟩ := idx_facts11 t
  show V c (Pipeline.arrRef spec11 0) (((cfg11.win 0).blk t).view.emb x) = V c (Pipeline.arrRef spec11 0) k
  refine congrArg _ (funext fun a => Fin.ext ?_)
  match a with
  | ⟨0, _⟩ => show win11_0.index t (0 : Fin 2) * 8000 + 1 * (x 0).val = (k 0).val; rw [e0, hk0]; omega
  | ⟨1, _⟩ => show win11_0.index t (1 : Fin 2) * 32 + 1 * (x 1).val = (k 1).val; rw [e1, hk1]; omega

/-- The weight window's block at every point is the whole weight matrix. -/
theorem iblk11_1_eq (c : Dev nD) (t : Fin cfg11.N) :
    (iblk11 V c 1 t : FVec Ideal S32x64 .f32) = (V c (Pipeline.arrRef spec11 1) : S32x64.Idx → Elt Ideal .f32) := by
  obtain ⟨-, -, e0, e1, -⟩ := idx_facts11 t
  funext x
  show V c (Pipeline.arrRef spec11 1) (((cfg11.win 1).blk t).view.emb x) = V c (Pipeline.arrRef spec11 1) x
  refine congrArg _ (funext fun a => Fin.ext ?_)
  match a with
  | ⟨0, _⟩ => show win11_1.index t (0 : Fin 2) * 32 + 1 * (x 0).val = (x 0).val; rw [e0]; omega
  | ⟨1, _⟩ => show win11_1.index t (1 : Fin 2) * 64 + 1 * (x 1).val = (x 1).val; rw [e1]; omega

/-- The bias window's block at every point is the whole bias row. -/
theorem iblk11_2_eq (c : Dev nD) (t : Fin cfg11.N) :
    (iblk11 V c 2 t : FVec Ideal S1x64 .f32) = (V c (Pipeline.arrRef spec11 2) : S1x64.Idx → Elt Ideal .f32) := by
  obtain ⟨-, -, -, -, e0, e1, -⟩ := idx_facts11 t
  funext x
  show V c (Pipeline.arrRef spec11 2) (((cfg11.win 2).blk t).view.emb x) = V c (Pipeline.arrRef spec11 2) x
  refine congrArg _ (funext fun a => Fin.ext ?_)
  match a with
  | ⟨0, _⟩ => show win11_2.index t (0 : Fin 2) * 1 + 1 * (x 0).val = (x 0).val; rw [e0]; omega
  | ⟨1, _⟩ => show win11_2.index t (1 : Fin 2) * 64 + 1 * (x 1).val = (x 1).val; rw [e1]; omega

/-- Where the output window's block at point `t` puts its element at row `p`, column `q`: row `8000 t + p`, column `q`. -/
theorem oemb11_eq (t : Fin cfg11.N) (p : Fin 8000) (q : Fin 64) (hr : t.val * 8000 + p.val < 1600000) :
    (((cfg11.win 3).blk t).view.emb (ix2 p q) : S1600000x64.Idx) = ix2 (⟨t.val * 8000 + p.val, hr⟩ : Fin 1600000) q := by
  obtain ⟨-, -, -, -, -, -, e0, e1⟩ := idx_facts11 t
  refine funext fun a => Fin.ext ?_
  match a with
  | ⟨0, _⟩ => show win11_3.index t (0 : Fin 2) * 8000 + 1 * p.val = t.val * 8000 + p.val; rw [e0]; omega
  | ⟨1, _⟩ => show win11_3.index t (1 : Fin 2) * 64 + 1 * q.val = q.val; rw [e1]; omega

/-- What point `t` writes back is block `t` of the host's projection of the three arrays as the region finds them. -/
theorem flushed11_eq (c : Dev nD) (t : Fin cfg11.N) :
    (dat11 V c).flushed 3 t = ((cfg11.win 3).blk t).view.read (Elt Ideal)
      (Cert.HostForms.edgeLin (V c (Pipeline.arrRef spec11 0)) (V c (Pipeline.arrRef spec11 1)) (V c (Pipeline.arrRef spec11 2))) := by
  show (cfg11.win 3).cut (grid11.coords t) ((dat11 V c).after 3 t) = _
  rw [after11_3]
  unfold out11
  rw [View.canon_unit_zero zero_off11]
  simp only [View.ld_unit_zero (S := S8000x32) zero_off11, View.ld_unit_zero (S := S32x64) zero_off11, View.ld_unit_zero (S := S1x64) zero_off11]
  funext j
  obtain ⟨p, q, rfl⟩ : ∃ (p : Fin 8000) (q : Fin 64), j = ix2 p q := ⟨j 0, j 1, eq_ix2 j⟩
  have hN : cfg11.N = 200 := N_11
  have hr : t.val * 8000 + p.val < 1600000 := by have := t.isLt; have := p.isLt; omega
  show k11_pay1 (iblk11 V c 0 t) (iblk11 V c 1 t) (iblk11 V c 2 t) (ix2 p q)
    = Cert.HostForms.edgeLin (V c (Pipeline.arrRef spec11 0)) (V c (Pipeline.arrRef spec11 1)) (V c (Pipeline.arrRef spec11 2)) (((cfg11.win 3).blk t).view.emb (ix2 p q))
  rw [oemb11_eq t p q hr]
  refine (pay11_apply _ _ _ p q).trans (Eq.trans ?_ (host11_apply _ _ _ _ q).symm)
  rw [iblk11_1_eq V c t, iblk11_2_eq V c t]
  refine congrArg₂ (· + ·) (Finset.sum_congr rfl fun k _ => ?_) rfl
  rw [iblk11_0_apply V c t (ix2 p k) (ix2 (⟨t.val * 8000 + p.val, hr⟩ : Fin 1600000) k) rfl rfl]

/-- An index of the array is in point `t`'s block iff each coordinate is in the block's range on its axis. -/
theorem mem_blk11 (t : Fin cfg11.N) (i : S1600000x64.Idx) :
    i ∈ ((cfg11.win 3).blk t).view.set ↔ ∀ a : Fin 2, win11_3.index t a * S8000x64.size a ≤ (i a).val ∧ (i a).val < win11_3.index t a * S8000x64.size a + S8000x64.size a := by
  show i ∈ ((View.whole (Pipeline.arrRef spec11 3)).slice (win11_3.rect t)).set ↔ _
  rw [View.set_slice_whole, Rect.mem_set_unit]
  exact Iff.rfl

/-- Every index of the array is in some point's block: row `r` is in block `r / 8000`. -/
theorem cover_all11 (i : S1600000x64.Idx) :
    ∃ t : Fin cfg11.N, (cfg11.win 3).flush t = true ∧ i ∈ ((cfg11.win 3).blk t).view.set := by
  have hN : cfg11.N = 200 := N_11
  have hi0 : (i 0).val < 1600000 := (i 0).isLt
  have hi1 : (i 1).val < 64 := (i 1).isLt
  have ht : (i 0).val / 8000 < cfg11.N := by rw [hN]; omega
  obtain ⟨-, -, -, -, -, -, e0, e1⟩ := idx_facts11 ⟨(i 0).val / 8000, ht⟩
  refine ⟨⟨(i 0).val / 8000, ht⟩, flush11_3 _, ?_⟩
  rw [mem_blk11]
  intro a
  match a with
  | ⟨0, _⟩ =>
    show win11_3.index ⟨(i 0).val / 8000, ht⟩ (0 : Fin 2) * 8000 ≤ (i 0).val ∧ (i 0).val < win11_3.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win11_3.index ⟨(i 0).val / 8000, ht⟩ (1 : Fin 2) * 64 ≤ (i 1).val ∧ (i 1).val < win11_3.index ⟨(i 0).val / 8000, ht⟩ (1 : Fin 2) * 64 + 64
    rw [e1]; omega

/-- The output array after the last grid point is the host's projection of the three arrays the region is entered with. -/
theorem final11 (V : (c : Dev nD) → (b : Ref sig .tc) → Buf (Elt Ideal) ((c : Thread nD τ).loc b)) (c : Dev nD) :
    (dat11 (F := Ideal) V c).arrAt 3 cfg11.N = Cert.HostForms.edgeLin (V c (Pipeline.arrRef spec11 0)) (V c (Pipeline.arrRef spec11 1)) (V c (Pipeline.arrRef spec11 2)) :=
  (dat11 V c).arrAt_eq_of_cover 3 _ (fun t _ => flushed11_eq V c t) (cover_all11)

end Cert.KernelIdeal.Hand

end
-- ==== Proof.Ideal.Final12.lean ====
import proofs.«106349_j21990232555677_1_alg».proof.Proof.Ideal.Region12
import proofs.«106349_j21990232555677_1_alg».proof.Proof.Ideal.HostForms
import Idealize.ShloMosaic.Lib.ValueIdx
import Idealize.ShloMosaic.Lib.Pipeline.Value
import Idealize.ShloMosaic.PureOps.Ideal.Laws

/-!
# Region 12 as one function of its arrays: the message `relu (a + e)` on `[1600000, 64]`

Over the extended reals. The body's payload at an index of a block is the larger of zero and the sum of the two
input blocks' entries there; the host's message layer at an index of the array is the same expression of the two
arrays' entries. Block `t` of each of the three windows is rows `8000 t … 8000 t + 7999` of its array, all 64 columns,
so what point `t` writes back is block `t` of the host's layer applied to the arrays the region is entered with; the
200 blocks cover the rows, and the output array ends holding that layer.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The block's offsets inside its staging buffer are zero on both axes. -/
theorem zero_off12 : (![0, 0] : Fin 2 → Nat) = fun _ => 0 := funext fun a => by fin_cases a <;> rfl

/-- The body's payload at an index: the larger of the sum of the two blocks' entries and zero. -/
theorem pay12_apply (x0 x1 : Vec Ideal S8000x64 .f32) (j : S8000x64.Idx) :
    k12_pay1 x0 x1 j = max (x0 j + x1 j) (Ideal.ofBits .f32 0x00000000#32) := by
  unfold k12_pay1
  simp only [shapeCast_self]
  rfl

/-- The host's message layer at an index: the same expression of the two arrays' entries. -/
theorem host12_apply (a e : FVec Ideal S1600000x64 .f32) (i : S1600000x64.Idx) :
    Cert.HostForms.reluAdd64 a e i = max (a i + e i) (Ideal.ofBits .f32 0x00000000#32) := by
  unfold Cert.HostForms.reluAdd64
  rw [maximumf_apply, addf_apply]
  exact congrArg (max (a i + e i)) (broadcastInDim_apply _ _ _ i (fun a => a.elim0) (fun a => a.elim0))

/-- The three index maps over the grid: at point `t` each window is on block row `t`, block column 0. -/
theorem idx_facts12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

/-- Input window 0's block at point `t` is rows `8000 t …` of its array. -/
theorem iblk12_0_apply (c : Dev nD) (t : Fin cfg12.N) (x : S8000x64.Idx) (k : S1600000x64.Idx)
    (hk0 : (k 0).val = t.val * 8000 + (x 0).val) (hk1 : (k 1).val = (x 1).val) :
    (iblk12 V c 0 t : Vec Ideal S8000x64 .f32) x = (V c (Pipeline.arrRef spec12 0) : S1600000x64.Idx → Elt Ideal .f32) k := by
  obtain ⟨e0, e1, -⟩ := idx_facts12 t
  show V c (Pipeline.arrRef spec12 0) (((cfg12.win 0).blk t).view.emb x) = V c (Pipeline.arrRef spec12 0) k
  refine congrArg _ (funext fun a => Fin.ext ?_)
  match a with
  | ⟨0, _⟩ => show win12_0.index t (0 : Fin 2) * 8000 + 1 * (x 0).val = (k 0).val; rw [e0, hk0]; omega
  | ⟨1, _⟩ => show win12_0.index t (1 : Fin 2) * 64 + 1 * (x 1).val = (k 1).val; rw [e1, hk1]; omega

/-- Input window 1's block at point `t` is rows `8000 t …` of its array. -/
theorem iblk12_1_apply (c : Dev nD) (t : Fin cfg12.N) (x : S8000x64.Idx) (k : S1600000x64.Idx)
    (hk0 : (k 0).val = t.val * 8000 + (x 0).val) (hk1 : (k 1).val = (x 1).val) :
    (iblk12 V c 1 t : Vec Ideal S8000x64 .f32) x = (V c (Pipeline.arrRef spec12 1) : S1600000x64.Idx → Elt Ideal .f32) k := by
  obtain ⟨-, -, e0, e1, -⟩ := idx_facts12 t
  show V c (Pipeline.arrRef spec12 1) (((cfg12.win 1).blk t).view.emb x) = V c (Pipeline.arrRef spec12 1) k
  refine congrArg _ (funext fun a => Fin.ext ?_)
  match a with
  | ⟨0, _⟩ => show win12_1.index t (0 : Fin 2) * 8000 + 1 * (x 0).val = (k 0).val; rw [e0, hk0]; omega
  | ⟨1, _⟩ => show win12_1.index t (1 : Fin 2) * 64 + 1 * (x 1).val = (k 1).val; rw [e1, hk1]; omega

/-- Where the output window's block at point `t` puts its element `x`: row `8000 t + x 0`, column `x 1`. -/
theorem oemb12_val (t : Fin cfg12.N) (x : S8000x64.Idx) :
    ((((cfg12.win 2).blk t).view.emb x : S1600000x64.Idx) 0).val = t.val * 8000 + (x 0).val
    ∧ ((((cfg12.win 2).blk t).view.emb x : S1600000x64.Idx) 1).val = (x 1).val := by
  obtain ⟨-, -, -, -, e0, e1⟩ := idx_facts12 t
  constructor
  · show win12_2.index t (0 : Fin 2) * 8000 + 1 * (x 0).val = _; rw [e0]; omega
  · show win12_2.index t (1 : Fin 2) * 64 + 1 * (x 1).val = _; rw [e1]; omega

/-- What point `t` writes back is block `t` of the host's message layer of the two arrays as the region finds them. -/
theorem flushed12_eq (c : Dev nD) (t : Fin cfg12.N) :
    (dat12 V c).flushed 2 t = ((cfg12.win 2).blk t).view.read (Elt Ideal)
      (Cert.HostForms.reluAdd64 (V c (Pipeline.arrRef spec12 0)) (V c (Pipeline.arrRef spec12 1))) := by
  show (cfg12.win 2).cut (grid12.coords t) ((dat12 V c).after 2 t) = _
  rw [after12_2]
  unfold out12
  rw [View.canon_unit_zero zero_off12]
  simp only [View.ld_unit_zero (S := S8000x64) zero_off12]
  funext j
  obtain ⟨h0, h1⟩ := oemb12_val t j
  show k12_pay1 (iblk12 V c 0 t) (iblk12 V c 1 t) j
    = Cert.HostForms.reluAdd64 (V c (Pipeline.arrRef spec12 0)) (V c (Pipeline.arrRef spec12 1)) (((cfg12.win 2).blk t).view.emb j)
  refine (pay12_apply _ _ j).trans (Eq.trans ?_ (host12_apply _ _ _).symm)
  rw [iblk12_0_apply V c t j _ h0 h1, iblk12_1_apply V c t j _ h0 h1]

/-- An index of the array is in point `t`'s block iff each coordinate is in the block's range on its axis. -/
theorem mem_blk12 (t : Fin cfg12.N) (i : S1600000x64.Idx) :
    i ∈ ((cfg12.win 2).blk t).view.set ↔ ∀ a : Fin 2, win12_2.index t a * S8000x64.size a ≤ (i a).val ∧ (i a).val < win12_2.index t a * S8000x64.size a + S8000x64.size a := by
  show i ∈ ((View.whole (Pipeline.arrRef spec12 2)).slice (win12_2.rect t)).set ↔ _
  rw [View.set_slice_whole, Rect.mem_set_unit]
  exact Iff.rfl

/-- Every index of the array is in some point's block: row `r` is in block `r / 8000`. -/
theorem cover_all12 (i : S1600000x64.Idx) :
    ∃ t : Fin cfg12.N, (cfg12.win 2).flush t = true ∧ i ∈ ((cfg12.win 2).blk t).view.set := by
  have hN : cfg12.N = 200 := N_12
  have hi0 : (i 0).val < 1600000 := (i 0).isLt
  have hi1 : (i 1).val < 64 := (i 1).isLt
  have ht : (i 0).val / 8000 < cfg12.N := by rw [hN]; omega
  obtain ⟨-, -, -, -, e0, e1⟩ := idx_facts12 ⟨(i 0).val / 8000, ht⟩
  refine ⟨⟨(i 0).val / 8000, ht⟩, flush12_2 _, ?_⟩
  rw [mem_blk12]
  intro a
  match a with
  | ⟨0, _⟩ =>
    show win12_2.index ⟨(i 0).val / 8000, ht⟩ (0 : Fin 2) * 8000 ≤ (i 0).val ∧ (i 0).val < win12_2.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win12_2.index ⟨(i 0).val / 8000, ht⟩ (1 : Fin 2) * 64 ≤ (i 1).val ∧ (i 1).val < win12_2.index ⟨(i 0).val / 8000, ht⟩ (1 : Fin 2) * 64 + 64
    rw [e1]; omega

/-- The output array after the last grid point is the host's message layer of the two arrays the region is entered with. -/
theorem final12 (V : (c : Dev nD) → (b : Ref sig .tc) → Buf (Elt Ideal) ((c : Thread nD τ).loc b)) (c : Dev nD) :
    (dat12 (F := Ideal) V c).arrAt 2 cfg12.N = Cert.HostForms.reluAdd64 (V c (Pipeline.arrRef spec12 0)) (V c (Pipeline.arrRef spec12 1)) :=
  (dat12 V c).arrAt_eq_of_cover 2 _ (fun t _ => flushed12_eq V c t) (cover_all12)

end Cert.KernelIdeal.Hand

end
-- ==== Proof.Ideal.Final13.lean ====
import proofs.«106349_j21990232555677_1_alg».proof.Proof.Ideal.Region13
import proofs.«106349_j21990232555677_1_alg».proof.Proof.Ideal.HostForms
import Idealize.ShloMosaic.Lib.ValueIdx
import Idealize.ShloMosaic.Lib.Pipeline.Value
import Idealize.ShloMosaic.Lib.ValueLayout
import Idealize.ShloMosaic.PureOps.Ideal.Laws

/-!
# Region 13: the node update's array after the last grid point

The body stores `relu (relu ((x + agg) · W1 + b1) · W2 + b2)` of the blocks it loads. Read at one row and one column,
over the extended reals, each matrix product is the sum over its contraction index, a bias row repeated down the rows
reads its column, and `relu` is the maximum with the zero word's value; the host's spelling of the layer read at the
same row and column is the same expression. Grid point `t` loads rows `10000 t … 10000 t + 9999` of `x` and `agg`
and the whole weights and bias rows, and writes back those rows of the result; the ten blocks tile the array, so the
array ends holding the host's function of the arrays the region is entered with.
-/

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem nu13_mm_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem nu13_mm_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem nu13_mm_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem nu13_mm_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product of the block at row `p`, column `k`: the sum over the 64 features contracted. -/
theorem nu13_mm (L : FVec Ideal S10000x64 .bf16) (R : FVec Ideal S64x64 .bf16) (p : Fin 10000) (k : Fin 64) :
    matmul dot_S10000x64_S64x64_S10000x64_1_0_0_1_n_n none L R (constant (F := Ideal) S10000x64 .f32 0x00000000#32) (ix2 p k)
      = ∑ l : Fin 64, L (ix2 p l) * R (ix2 l k) := by
  refine (Ideal.matmul_constant_zero_apply dot_S10000x64_S64x64_S10000x64_1_0_0_1_n_n none L R (ix2 p k)).trans ?_
  rw [← Equiv.sum_comp (contrEquiv1 dot_S10000x64_S64x64_S10000x64_1_0_0_1_n_n 64 rfl rfl).symm]
  refine Finset.sum_congr rfl fun l _ => ?_
  have hl := contrEquiv1_symm_val dot_S10000x64_S64x64_S10000x64_1_0_0_1_n_n 64 rfl rfl l
  have el : dot_S10000x64_S64x64_S10000x64_1_0_0_1_n_n.lhsIdx (ix2 p k) ((contrEquiv1 dot_S10000x64_S64x64_S10000x64_1_0_0_1_n_n 64 rfl rfl).symm l) = ix2 p l := funext fun a => Fin.ext (by
    match a with
    | ⟨0, _⟩ => exact nu13_mm_l0 _ _
    | ⟨1, _⟩ => exact (nu13_mm_l1 _ _).trans hl)
  have er : dot_S10000x64_S64x64_S10000x64_1_0_0_1_n_n.rhsIdx (ix2 p k) ((contrEquiv1 dot_S10000x64_S64x64_S10000x64_1_0_0_1_n_n 64 rfl rfl).symm l) = ix2 l k := funext fun a => Fin.ext (by
    match a with
    | ⟨0, _⟩ => exact (nu13_mm_r0 _ _).trans hl
    | ⟨1, _⟩ => exact nu13_mm_r1 _ _)
  rw [el, er]

theorem nu13_hd_l0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem nu13_hd_l1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem nu13_hd_r0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem nu13_hd_r1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- A product of the host's at row `p`, column `k`: the same sum over the 64 features contracted. -/
theorem nu13_hd (L : FVec Ideal Cert.ReferenceIdeal.S100000x64 .f32) (R : FVec Ideal Cert.ReferenceIdeal.S64x64 .f32) (p : Fin 100000) (k : Fin 64) :
    Host.dotGeneral (F := Ideal) Cert.ReferenceIdeal.dot_S100000x64_S64x64_S100000x64_1_0_0_1_n_n none L R (ix2 p k)
      = ∑ l : Fin 64, L (ix2 p l) * R (ix2 l k) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun l _ => ?_
  have hl := contrEquiv1_symm_val Cert.ReferenceIdeal.dot_S100000x64_S64x64_S100000x64_1_0_0_1_n_n 64 rfl rfl l
  have el : Cert.ReferenceIdeal.dot_S100000x64_S64x64_S100000x64_1_0_0_1_n_n.lhsIdx (ix2 p k) ((contrEquiv1 Cert.ReferenceIdeal.dot_S100000x64_S64x64_S100000x64_1_0_0_1_n_n 64 rfl rfl).symm l) = ix2 p l := funext fun a => Fin.ext (by
    match a with
    | ⟨0, _⟩ => exact nu13_hd_l0 _ _
    | ⟨1, _⟩ => exact (nu13_hd_l1 _ _).trans hl)
  have er : Cert.ReferenceIdeal.dot_S100000x64_S64x64_S100000x64_1_0_0_1_n_n.rhsIdx (ix2 p k) ((contrEquiv1 Cert.ReferenceIdeal.dot_S100000x64_S64x64_S100000x64_1_0_0_1_n_n 64 rfl rfl).symm l) = ix2 l k := funext fun a => Fin.ext (by
    match a with
    | ⟨0, _⟩ => exact (nu13_hd_r0 _ _).trans hl
    | ⟨1, _⟩ => exact nu13_hd_r1 _ _)
  rw [el, er]

/-- A bias row `[1, 64]` repeated down the block's rows reads its column. -/
theorem nu13_brow (b : FVec Ideal S1x64 .f32) (hb : S1x64.Broadcasts S10000x64) (p : Fin 10000) (k : Fin 64) :
    broadcastTo S10000x64 b hb (ix2 p k) = b (ix2 0 k) := by
  refine broadcastTo_apply b hb (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's bias row repeated down the array's rows reads its column. -/
theorem nu13_hrow (b : FVec Ideal Cert.ReferenceIdeal.S1x64 .f32) (hb : Cert.ReferenceIdeal.S1x64.BroadcastsInDim Cert.ReferenceIdeal.S100000x64 (![0, 1] : Fin 2 → Fin Cert.ReferenceIdeal.S100000x64.rank)) (p : Fin 100000) (k : Fin 64) :
    broadcastInDim Cert.ReferenceIdeal.S100000x64 ![0, 1] hb b (ix2 p k) = b (ix2 0 k) := by
  refine broadcastInDim_apply _ hb b (ix2 p k) (ix2 0 k) fun a => ?_
  match a with
  | ⟨0, _⟩ => show (0 : Nat) = if (1 : Nat) = 1 then 0 else p.val; rw [if_pos rfl]
  | ⟨1, _⟩ => show k.val = if (64 : Nat) = 1 then 0 else k.val; rw [if_neg (by decide)]

/-- The host's zero, spread over the array, reads the zero word's value everywhere. -/
theorem nu13_hzero (dims : Fin Cert.ReferenceIdeal.S_.rank → Fin Cert.ReferenceIdeal.S100000x64.rank) (hb : Cert.ReferenceIdeal.S_.BroadcastsInDim Cert.ReferenceIdeal.S100000x64 dims) (i : Cert.ReferenceIdeal.S100000x64.Idx) :
    broadcastInDim Cert.ReferenceIdeal.S100000x64 dims hb (constant (F := Ideal) Cert.ReferenceIdeal.S_ .f32 0x00000000#32) i = Ideal.ofBits .f32 0x00000000#32 :=
  broadcastInDim_apply _ hb _ i (fun a => a.elim0) (fun a => a.elim0)

/-- The body's stored value at row `p`, column `q` of the block. -/
theorem nu13_pay_apply (v0 v2 : Vec Ideal S10000x64 .f32) (v6 : Vec Ideal S64x64 .f32) (v9 : Vec Ideal S1x64 .f32) (v15 : Vec Ideal S64x64 .f32) (v19 : Vec Ideal S1x64 .f32) (p : Fin 10000) (q : Fin 64) :
    k13_pay1 v0 v2 v6 v9 v15 v19 (ix2 p q)
      = max ((∑ k : Fin 64, max ((∑ l : Fin 64, (v0 (ix2 p l) + v2 (ix2 p l)) * v6 (ix2 l k)) + v9 (ix2 0 k)) (Ideal.ofBits .f32 0x00000000#32) * v15 (ix2 k q)) + v19 (ix2 0 q)) (Ideal.ofBits .f32 0x00000000#32) := by
  unfold k13_pay1
  simp only [maximumf_apply, addf_apply, broadcast_apply, nu13_brow, nu13_mm, truncf_apply, shapeCast_self]
  rfl

/-- The host's node update at row `r`, column `q` of the array. -/
theorem nu13_host_apply (x agg : FVec Ideal Cert.ReferenceIdeal.S100000x64 .f32) (W1 : FVec Ideal Cert.ReferenceIdeal.S64x64 .f32) (b1 : FVec Ideal Cert.ReferenceIdeal.S1x64 .f32) (W2 : FVec Ideal Cert.ReferenceIdeal.S64x64 .f32) (b2 : FVec Ideal Cert.ReferenceIdeal.S1x64 .f32) (r : Fin 100000) (q : Fin 64) :
    Cert.HostForms.nodeUpdate64 x agg W1 b1 W2 b2 (ix2 r q)
      = max ((∑ k : Fin 64, max ((∑ l : Fin 64, (x (ix2 r l) + agg (ix2 r l)) * W1 (ix2 l k)) + b1 (ix2 0 k)) (Ideal.ofBits .f32 0x00000000#32) * W2 (ix2 k q)) + b2 (ix2 0 q)) (Ideal.ofBits .f32 0x00000000#32) := by
  unfold Cert.HostForms.nodeUpdate64
  simp only [maximumf_apply, addf_apply, nu13_hzero, nu13_hd]
  rw [nu13_hrow]
  refine congrArg (fun s : EReal => max (s + b2 (ix2 0 q)) (Ideal.ofBits .f32 0x00000000#32)) (Finset.sum_congr rfl fun k _ => ?_)
  rw [nu13_hrow]

/-- One element of the block's stored value is the host's node update at the array's matching row, once each loaded
    block is known to hold the matching entries of its array. -/
theorem nu13_point (v0 v2 : Vec Ideal S10000x64 .f32) (v6 : Vec Ideal S64x64 .f32) (v9 : Vec Ideal S1x64 .f32) (v15 : Vec Ideal S64x64 .f32) (v19 : Vec Ideal S1x64 .f32)
    (x agg : FVec Ideal Cert.ReferenceIdeal.S100000x64 .f32) (W1 : FVec Ideal Cert.ReferenceIdeal.S64x64 .f32) (b1 : FVec Ideal Cert.ReferenceIdeal.S1x64 .f32) (W2 : FVec Ideal Cert.ReferenceIdeal.S64x64 .f32) (b2 : FVec Ideal Cert.ReferenceIdeal.S1x64 .f32)
    (p : Fin 10000) (q : Fin 64) (r : Fin 100000)
    (h0 : ∀ l : Fin 64, v0 (ix2 p l) = x (ix2 r l)) (h1 : ∀ l : Fin 64, v2 (ix2 p l) = agg (ix2 r l))
    (h2 : ∀ (l : Fin 64) (k : Fin 64), v6 (ix2 l k) = W1 (ix2 l k)) (h3 : ∀ k : Fin 64, v9 (ix2 0 k) = b1 (ix2 0 k))
    (h4 : ∀ (k k' : Fin 64), v15 (ix2 k k') = W2 (ix2 k k')) (h5 : ∀ k : Fin 64, v19 (ix2 0 k) = b2 (ix2 0 k)) :
    k13_pay1 v0 v2 v6 v9 v15 v19 (ix2 p q) = Cert.HostForms.nodeUpdate64 x agg W1 b1 W2 b2 (ix2 r q) := by
  rw [nu13_pay_apply, nu13_host_apply]
  simp only [h0, h1, h2, h3, h4, h5]

variable (V : (c : Dev nD) → (b : Ref sig .tc) → Buf (Elt Ideal) ((c : Thread nD τ).loc b))

theorem nu13_hz : (![0, 0] : Fin 2 → Nat) = fun _ => 0 := funext fun a => by fin_cases a <;> rfl

/-- The index maps over the grid: the row windows' block index is the grid point on the row axis, the weights' and
    the bias rows' is zero. -/
theorem nu13_idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

set_option maxHeartbeats 1000000 in
/-- What grid point `t` writes back is block `t` of the host's node update of the arrays the region is entered with. -/
theorem nu13_flushed_eq (c : Dev nD) (t : Fin cfg13.N) :
    (dat13 (F := Ideal) V c).flushed 6 t = ((cfg13.win 6).blk t).view.read (Elt Ideal)
      (Cert.HostForms.nodeUpdate64 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5))) := by
  show (cfg13.win 6).cut (grid13.coords t) ((dat13 V c).after 6 t) = _
  rw [after13_6]
  unfold out13
  rw [View.canon_unit_zero nu13_hz]
  simp only [View.ld_unit_zero (S := S10000x64) nu13_hz, View.ld_unit_zero (S := S64x64) nu13_hz, View.ld_unit_zero (S := S1x64) nu13_hz]
  obtain ⟨e00, e01, e10, e11, e20, e21, e30, e31, e40, e41, e50, e51, e60, e61⟩ := nu13_idx_facts t
  have ht : t.val < 10 := by have h := t.isLt; have hN : cfg13.N = 10 := N_13; omega
  funext j
  obtain ⟨p, q, rfl⟩ : ∃ (p : Fin 10000) (q : Fin 64), j = ix2 p q := ⟨j 0, j 1, eq_ix2 j⟩
  have hp : p.val < 10000 := p.isLt
  show k13_pay1 (iblk13 V c 0 t) (iblk13 V c 1 t) (iblk13 V c 2 t) (iblk13 V c 3 t) (iblk13 V c 4 t) (iblk13 V c 5 t) (ix2 p q)
      = Cert.HostForms.nodeUpdate64 _ _ _ _ _ _ (((cfg13.win 6).blk t).view.emb (ix2 p q))
  have hemb : ((cfg13.win 6).blk t).view.emb (ix2 p q) = ix2 (⟨t.val * 10000 + p.val, by omega⟩ : Fin 100000) q := by
    funext a; apply Fin.ext
    match a with
    | ⟨0, _⟩ => show win13_6.index t (0 : Fin 2) * 10000 + 1 * p.val = t.val * 10000 + p.val; rw [e60]; omega
    | ⟨1, _⟩ => show win13_6.index t (1 : Fin 2) * 64 + 1 * q.val = q.val; rw [e61]; omega
  rw [hemb]
  refine nu13_point _ _ _ _ _ _ _ _ _ _ _ _ p q _ ?_ ?_ ?_ ?_ ?_ ?_
  · intro l
    show V c (Pipeline.arrRef spec13 0) (((cfg13.win 0).blk t).view.emb (ix2 p l)) = V c (Pipeline.arrRef spec13 0) (ix2 _ l)
    refine congrArg _ (funext fun a => Fin.ext ?_)
    match a with
    | ⟨0, _⟩ => show win13_0.index t (0 : Fin 2) * 10000 + 1 * p.val = t.val * 10000 + p.val; rw [e00]; omega
    | ⟨1, _⟩ => show win13_0.index t (1 : Fin 2) * 64 + 1 * l.val = l.val; rw [e01]; omega
  · intro l
    show V c (Pipeline.arrRef spec13 1) (((cfg13.win 1).blk t).view.emb (ix2 p l)) = V c (Pipeline.arrRef spec13 1) (ix2 _ l)
    refine congrArg _ (funext fun a => Fin.ext ?_)
    match a with
    | ⟨0, _⟩ => show win13_1.index t (0 : Fin 2) * 10000 + 1 * p.val = t.val * 10000 + p.val; rw [e10]; omega
    | ⟨1, _⟩ => show win13_1.index t (1 : Fin 2) * 64 + 1 * l.val = l.val; rw [e11]; omega
  · intro l k
    show V c (Pipeline.arrRef spec13 2) (((cfg13.win 2).blk t).view.emb (ix2 l k)) = V c (Pipeline.arrRef spec13 2) (ix2 l k)
    refine congrArg _ (funext fun a => Fin.ext ?_)
    match a with
    | ⟨0, _⟩ => show win13_2.index t (0 : Fin 2) * 64 + 1 * l.val = l.val; rw [e20]; omega
    | ⟨1, _⟩ => show win13_2.index t (1 : Fin 2) * 64 + 1 * k.val = k.val; rw [e21]; omega
  · intro k
    show V c (Pipeline.arrRef spec13 3) (((cfg13.win 3).blk t).view.emb (ix2 0 k)) = V c (Pipeline.arrRef spec13 3) (ix2 0 k)
    refine congrArg _ (funext fun a => Fin.ext ?_)
    match a with
    | ⟨0, _⟩ => show win13_3.index t (0 : Fin 2) * 1 + 1 * 0 = 0; rw [e30]
    | ⟨1, _⟩ => show win13_3.index t (1 : Fin 2) * 64 + 1 * k.val = k.val; rw [e31]; omega
  · intro k k'
    show V c (Pipeline.arrRef spec13 4) (((cfg13.win 4).blk t).view.emb (ix2 k k')) = V c (Pipeline.arrRef spec13 4) (ix2 k k')
    refine congrArg _ (funext fun a => Fin.ext ?_)
    match a with
    | ⟨0, _⟩ => show win13_4.index t (0 : Fin 2) * 64 + 1 * k.val = k.val; rw [e40]; omega
    | ⟨1, _⟩ => show win13_4.index t (1 : Fin 2) * 64 + 1 * k'.val = k'.val; rw [e41]; omega
  · intro k
    show V c (Pipeline.arrRef spec13 5) (((cfg13.win 5).blk t).view.emb (ix2 0 k)) = V c (Pipeline.arrRef spec13 5) (ix2 0 k)
    refine congrArg _ (funext fun a => Fin.ext ?_)
    match a with
    | ⟨0, _⟩ => show win13_5.index t (0 : Fin 2) * 1 + 1 * 0 = 0; rw [e50]
    | ⟨1, _⟩ => show win13_5.index t (1 : Fin 2) * 64 + 1 * k.val = k.val; rw [e51]; omega

/-- An index of the result array is in point `t`'s block iff each coordinate is in the block's range on its axis. -/
theorem nu13_mem_blk (t : Fin cfg13.N) (i : S100000x64.Idx) :
    i ∈ ((cfg13.win 6).blk t).view.set ↔ ∀ a : Fin 2, win13_6.index t a * S10000x64.size a ≤ (i a).val ∧ (i a).val < win13_6.index t a * S10000x64.size a + S10000x64.size a := by
  show i ∈ ((View.whole main_v105).slice (win13_6.rect t)).set ↔ _
  rw [View.set_slice_whole, Rect.mem_set_unit]
  exact Iff.rfl

/-- Every row of the result array is in the block of the point `row / 10000`, which writes it back. -/
theorem nu13_covered (i : S100000x64.Idx) : ∃ t : Fin cfg13.N, (cfg13.win 6).flush t = true ∧ i ∈ ((cfg13.win 6).blk t).view.set := by
  have hi0 : (i 0).val < 100000 := (i 0).isLt
  have hi1 : (i 1).val < 64 := (i 1).isLt
  have hN : cfg13.N = 10 := N_13
  obtain ⟨T, hT⟩ : ∃ T : Fin cfg13.N, T.val = (i 0).val / 10000 := ⟨⟨(i 0).val / 10000, by rw [hN]; omega⟩, rfl⟩
  obtain ⟨-, -, -, -, -, -, -, -, -, -, -, -, e60, e61⟩ := nu13_idx_facts T
  refine ⟨T, flush13_6 T, ?_⟩
  rw [nu13_mem_blk]
  intro a
  match a with
  | ⟨0, _⟩ => show win13_6.index T (0 : Fin 2) * 10000 ≤ (i 0).val ∧ (i 0).val < win13_6.index T (0 : Fin 2) * 10000 + 10000; rw [e60, hT]; omega
  | ⟨1, _⟩ => show win13_6.index T (1 : Fin 2) * 64 ≤ (i 1).val ∧ (i 1).val < win13_6.index T (1 : Fin 2) * 64 + 64; rw [e61]; omega

/-- The result array after the last grid point is the host's node update of the arrays the region is entered with. -/
theorem final13 (V : (c : Dev nD) → (b : Ref sig .tc) → Buf (Elt Ideal) ((c : Thread nD τ).loc b)) (c : Dev nD) :
    (dat13 (F := Ideal) V c).arrAt 6 cfg13.N = Cert.HostForms.nodeUpdate64 (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) :=
  (dat13 (F := Ideal) V c).arrAt_eq_of_cover 6 _ (fun t _ => nu13_flushed_eq V c t) nu13_covered

end Cert.KernelIdeal.Hand

end
-- ==== Proof.Ideal.Final14.lean ====
import proofs.«106349_j21990232555677_1_alg».proof.Proof.Ideal.Region14
import proofs.«106349_j21990232555677_1_alg».proof.Proof.Ideal.HostForms
import proofs.«106349_j21990232555677_1_alg».proof.Proof.Ideal.MlpAt
import proofs.«106349_j21990232555677_1_alg».proof.Proof.Ideal.Mlp2Host
import Idealize.ShloMosaic.Lib.ValueIdx
import Idealize.ShloMosaic.Lib.Pipeline.Value
import Idealize.ShloMosaic.Lib.ValueLayout
import Idealize.ShloMosaic.PureOps.Ideal.Laws

/-!
# Region 14 over the extended reals: the output array is the host program's two-layer perceptron `mlp2Head`

The body's payload read at one entry is the double sum `relu (x · W1 + b1) · W2 + b2` of its loaded blocks; the host
program's spelling of the layer read at one entry is the same double sum of the arrays. Output block `t` is rows
`512 t … 512 t + 511` of the array, the first input's block `t` the same rows of its array, and the weights' and
biases' blocks are their whole arrays at every point; so what point `t` writes back is block `t` of the host
program's layer, and the grid's 1 blocks tile the array.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.MlpAt

/-- The body's payload at row `p` and column `q` of its block: the second layer's sum over the hidden units of the
    rectified first layer times the second weight, plus the second bias. The format changes are the identity on the
    extended reals and each product into a zero accumulator is the exact sum. -/
theorem pay14_at (x0 : Vec Ideal S512x129 .f32) (x1 : Vec Ideal S129x64 .f32) (x2 : Vec Ideal S1x64 .f32) (x3 : Vec Ideal S64x1 .f32)
    (x4 : Vec Ideal S1x1 .f32) (p : Fin 512) (q : Fin 1) :
    k14_pay1 x0 x1 x2 x3 x4 (ix2 p q)
      = (∑ j : Fin 64, max ((∑ i : Fin 129, x0 (ix2 p i) * x1 (ix2 i j)) + x2 (ix2 (0 : Fin 1) j)) (Ideal.ofBits .f32 0x00000000#32) * x3 (ix2 j q))
        + x4 (ix2 (0 : Fin 1) q) := by
  unfold k14_pay1
  simp only [shapeCast_self, Idealize.ShloMosaic.matmul]
  rw [addf_apply, broadcastTo_1b_ab_apply]
  rw [Ideal.matmul_constant_zero_apply, dot_sum_at _ rfl rfl rfl rfl rfl rfl rfl rfl]
  refine congrArg (· + _) (Finset.sum_congr rfl fun j _ => ?_)
  rw [truncf_apply, truncf_apply, maximumf_apply, addf_apply, broadcastTo_1b_ab_apply, Ideal.matmul_constant_zero_apply,
    dot_sum_at _ rfl rfl rfl rfl rfl rfl rfl rfl, broadcast_apply]
  simp only [truncf_apply]
  rfl

/-- One entry: when the first input's block holds, in row `p`, the array's row `r`, and the other blocks are their
    arrays, the payload at `(p, q)` is the host program's layer at `(r, q)`. -/
theorem point14 (x0 : Vec Ideal S512x129 .f32) (x1 : Vec Ideal S129x64 .f32) (x2 : Vec Ideal S1x64 .f32) (x3 : Vec Ideal S64x1 .f32)
    (x4 : Vec Ideal S1x1 .f32)
    (a0 : FVec Ideal Cert.ReferenceIdeal.S512x129 .f32) (a1 : FVec Ideal Cert.ReferenceIdeal.S129x64 .f32)
    (a2 : FVec Ideal Cert.ReferenceIdeal.S1x64 .f32) (a3 : FVec Ideal Cert.ReferenceIdeal.S64x1 .f32)
    (a4 : FVec Ideal Cert.ReferenceIdeal.S1x1 .f32) (p : Fin 512) (q : Fin 1) (r : Fin 512)
    (h0 : ∀ i : Fin 129, x0 (ix2 p i) = a0 (ix2 r i)) (h1 : ∀ y, x1 y = a1 y) (h2 : ∀ y, x2 y = a2 y) (h3 : ∀ y, x3 y = a3 y)
    (h4 : ∀ y, x4 y = a4 y) :
    k14_pay1 x0 x1 x2 x3 x4 (ix2 p q) = Cert.HostForms.mlp2Head a0 a1 a2 a3 a4 (ix2 r q) := by
  rw [pay14_at, mlp2Head_at]
  simp only [h0, h1, h2, h3, h4]

/-- The printed index maps, decided over the grid: the first input's and the output's block index is the point on the
    row axis and zero on the column axis; the weights' and biases' is zero on both. -/
theorem idx14_facts : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Where the windows' blocks sit in their arrays: the first input's and the output's block `t` is rows
    `512 t …`; the weights' and biases' block is the whole array at every point. -/
theorem emb14_0 (t : Fin cfg14.N) (ht : t.val < 1) (p : Fin 512) (i : Fin 129) :
    ((cfg14.win 0).blk t).view.emb (ix2 p i) = ix2 (⟨t.val * 512 + p.val, by have := p.isLt; omega⟩ : Fin 512) i := by
  obtain ⟨e00, e01, e10, e11, e20, e21, e30, e31, e40, e41, e50, e51⟩ := idx14_facts t
  funext a; apply Fin.ext
  match a with
  | ⟨0, _⟩ => show win14_0.index t (0 : Fin 2) * 512 + 1 * p.val = t.val * 512 + p.val; rw [e00]; omega
  | ⟨1, _⟩ => show win14_0.index t (1 : Fin 2) * 129 + 1 * i.val = i.val; rw [e01]; omega
theorem emb14_1 (t : Fin cfg14.N) (y : S129x64.Idx) : ((cfg14.win 1).blk t).view.emb y = y := by
  obtain ⟨e00, e01, e10, e11, e20, e21, e30, e31, e40, e41, e50, e51⟩ := idx14_facts t
  funext a; apply Fin.ext
  match a with
  | ⟨0, _⟩ => show win14_1.index t (0 : Fin 2) * 129 + 1 * (y 0).val = (y 0).val; rw [e10]; omega
  | ⟨1, _⟩ => show win14_1.index t (1 : Fin 2) * 64 + 1 * (y 1).val = (y 1).val; rw [e11]; omega
theorem emb14_2 (t : Fin cfg14.N) (y : S1x64.Idx) : ((cfg14.win 2).blk t).view.emb y = y := by
  obtain ⟨e00, e01, e10, e11, e20, e21, e30, e31, e40, e41, e50, e51⟩ := idx14_facts t
  funext a; apply Fin.ext
  match a with
  | ⟨0, _⟩ => show win14_2.index t (0 : Fin 2) * 1 + 1 * (y 0).val = (y 0).val; rw [e20]; omega
  | ⟨1, _⟩ => show win14_2.index t (1 : Fin 2) * 64 + 1 * (y 1).val = (y 1).val; rw [e21]; omega
theorem emb14_3 (t : Fin cfg14.N) (y : S64x1.Idx) : ((cfg14.win 3).blk t).view.emb y = y := by
  obtain ⟨e00, e01, e10, e11, e20, e21, e30, e31, e40, e41, e50, e51⟩ := idx14_facts t
  funext a; apply Fin.ext
  match a with
  | ⟨0, _⟩ => show win14_3.index t (0 : Fin 2) * 64 + 1 * (y 0).val = (y 0).val; rw [e30]; omega
  | ⟨1, _⟩ => show win14_3.index t (1 : Fin 2) * 1 + 1 * (y 1).val = (y 1).val; rw [e31]; omega
theorem emb14_4 (t : Fin cfg14.N) (y : S1x1.Idx) : ((cfg14.win 4).blk t).view.emb y = y := by
  obtain ⟨e00, e01, e10, e11, e20, e21, e30, e31, e40, e41, e50, e51⟩ := idx14_facts t
  funext a; apply Fin.ext
  match a with
  | ⟨0, _⟩ => show win14_4.index t (0 : Fin 2) * 1 + 1 * (y 0).val = (y 0).val; rw [e40]; omega
  | ⟨1, _⟩ => show win14_4.index t (1 : Fin 2) * 1 + 1 * (y 1).val = (y 1).val; rw [e41]; omega
theorem emb14_5 (t : Fin cfg14.N) (ht : t.val < 1) (p : Fin 512) (q : Fin 1) :
    ((cfg14.win 5).blk t).view.emb (ix2 p q) = ix2 (⟨t.val * 512 + p.val, by have := p.isLt; omega⟩ : Fin 512) q := by
  obtain ⟨e00, e01, e10, e11, e20, e21, e30, e31, e40, e41, e50, e51⟩ := idx14_facts t
  funext a; apply Fin.ext
  match a with
  | ⟨0, _⟩ => show win14_5.index t (0 : Fin 2) * 512 + 1 * p.val = t.val * 512 + p.val; rw [e50]; omega
  | ⟨1, _⟩ => show win14_5.index t (1 : Fin 2) * 1 + 1 * q.val = q.val; rw [e51]; omega

variable (V : (c : Dev nD) → (b : Ref sig .tc) → Buf (Elt Ideal) ((c : Thread nD τ).loc b))

set_option maxHeartbeats 1000000 in
/-- What point `t` writes back is block `t` of the host program's layer of the arrays the region is entered with. -/
theorem flushed14_eq (c : Dev nD) (t : Fin cfg14.N) :
    (dat14 (F := Ideal) V c).flushed 5 t = ((cfg14.win 5).blk t).view.read (Elt Ideal)
      (Cert.HostForms.mlp2Head (V c (Pipeline.arrRef spec14 0)) (V c (Pipeline.arrRef spec14 1)) (V c (Pipeline.arrRef spec14 2)) (V c (Pipeline.arrRef spec14 3)) (V c (Pipeline.arrRef spec14 4))) := by
  show (cfg14.win 5).cut (grid14.coords t) ((dat14 (F := Ideal) V c).after 5 t) = _
  rw [after14_5]
  unfold out14
  rw [View.canon_unit_zero hz2]
  simp only [View.ld_unit_zero (S := S512x129) hz2, View.ld_unit_zero (S := S129x64) hz2, View.ld_unit_zero (S := S1x64) hz2,
    View.ld_unit_zero (S := S64x1) hz2, View.ld_unit_zero (S := S1x1) hz2]
  have hN : cfg14.N = 1 := N_14
  have ht : t.val < 1 := by have := t.isLt; omega
  refine funext fun (j : S512x1.Idx) => ?_
  obtain ⟨p, q, rfl⟩ : ∃ (p : Fin 512) (q : Fin 1), j = ix2 p q := ⟨j 0, j 1, eq_ix2 j⟩
  rw [View.read_apply, emb14_5 t ht p q]
  exact point14 _ _ _ _ _ _ _ _ _ _ p q _
    (fun i => congrArg (V c (Pipeline.arrRef spec14 0)) (emb14_0 t ht p i))
    (fun y => congrArg (V c (Pipeline.arrRef spec14 1)) (emb14_1 t y))
    (fun y => congrArg (V c (Pipeline.arrRef spec14 2)) (emb14_2 t y))
    (fun y => congrArg (V c (Pipeline.arrRef spec14 3)) (emb14_3 t y))
    (fun y => congrArg (V c (Pipeline.arrRef spec14 4)) (emb14_4 t y))

/-- An entry of the output array is in point `t`'s block iff each coordinate is in the block's range on its axis. -/
theorem mem_blk14 (t : Fin cfg14.N) (i : S512x1.Idx) :
    i ∈ ((cfg14.win 5).blk t).view.set ↔ ∀ a : Fin 2, win14_5.index t a * S512x1.size a ≤ (i a).val ∧ (i a).val < win14_5.index t a * S512x1.size a + S512x1.size a := by
  show i ∈ ((View.whole main_v122).slice (win14_5.rect t)).set ↔ _
  rw [View.set_slice_whole, Rect.mem_set_unit]
  exact Iff.rfl

/-- THE OUTPUT ARRAY after the last grid point is the host program's two-layer perceptron of the arrays the region is
    entered with: row `r` is in the block of point `r / 512`. -/
theorem final14 (c : Dev nD) :
    (dat14 (F := Ideal) V c).arrAt 5 cfg14.N = Cert.HostForms.mlp2Head (V c (Pipeline.arrRef spec14 0)) (V c (Pipeline.arrRef spec14 1)) (V c (Pipeline.arrRef spec14 2)) (V c (Pipeline.arrRef spec14 3)) (V c (Pipeline.arrRef spec14 4)) :=
  (dat14 (F := Ideal) V c).arrAt_eq_of_cover 5 _ (fun t _ => flushed14_eq V c t) fun i => by
    have hN : cfg14.N = 1 := N_14
    have hi0 : (i 0 : Nat) < 512 := (i 0).isLt
    have hi1 : (i 1 : Nat) < 1 := (i 1).isLt
    obtain ⟨t, ht⟩ : ∃ t : Fin cfg14.N, t.val = (i 0 : Nat) / 512 := ⟨⟨(i 0 : Nat) / 512, by rw [hN]; omega⟩, rfl⟩
    obtain ⟨e00, e01, e10, e11, e20, e21, e30, e31, e40, e41, e50, e51⟩ := idx14_facts t
    refine ⟨t, flush14_5 t, ?_⟩
    rw [mem_blk14]
    intro a
    match a with
    | ⟨0, _⟩ => show win14_5.index t (0 : Fin 2) * 512 ≤ (i 0 : Nat) ∧ (i 0 : Nat) < win14_5.index t (0 : Fin 2) * 512 + 512; rw [e50]; omega
    | ⟨1, _⟩ => show win14_5.index t (1 : Fin 2) * 1 ≤ (i 1 : Nat) ∧ (i 1 : Nat) < win14_5.index t (1 : Fin 2) * 1 + 1; rw [e51]; omega

end Cert.KernelIdeal.Hand

end
-- ==== Proof.Ideal.Chain.lean ====
import proofs.«106349_j21990232555677_1_alg».proof.Proof.Ideal.Run
import proofs.«106349_j21990232555677_1_alg».proof.Proof.Ideal.RefTerms
import proofs.«106349_j21990232555677_1_alg».proof.Proof.Ideal.StretchA
import proofs.«106349_j21990232555677_1_alg».proof.Proof.Ideal.StretchB
import proofs.«106349_j21990232555677_1_alg».proof.Proof.Ideal.StretchB2
import proofs.«106349_j21990232555677_1_alg».proof.Proof.Ideal.Final00
import proofs.«106349_j21990232555677_1_alg».proof.Proof.Ideal.Final01
import proofs.«106349_j21990232555677_1_alg».proof.Proof.Ideal.Final02
import proofs.«106349_j21990232555677_1_alg».proof.Proof.Ideal.Final03
import proofs.«106349_j21990232555677_1_alg».proof.Proof.Ideal.Final04
import proofs.«106349_j21990232555677_1_alg».proof.Proof.Ideal.Final05
import proofs.«106349_j21990232555677_1_alg».proof.Proof.Ideal.Final06
import proofs.«106349_j21990232555677_1_alg».proof.Proof.Ideal.Final07
import proofs.«106349_j21990232555677_1_alg».proof.Proof.Ideal.Final08
import proofs.«106349_j21990232555677_1_alg».proof.Proof.Ideal.Final09
import proofs.«106349_j21990232555677_1_alg».proof.Proof.Ideal.Final10
import proofs.«106349_j21990232555677_1_alg».proof.Proof.Ideal.Final11
import proofs.«106349_j21990232555677_1_alg».proof.Proof.Ideal.Final12
import proofs.«106349_j21990232555677_1_alg».proof.Proof.Ideal.Final13
import proofs.«106349_j21990232555677_1_alg».proof.Proof.Ideal.Final14

/-!
# What every buffer holds at every boundary, over the extended reals

At the instance of exact extended reals the contents of the unscoped buffers at the regions' boundaries are named
stage by stage: a buffer no item has written since holds what it held; a stretch of host operations leaves its
operations' term of what it read; a region leaves the host program's spelling of its layer applied to the arrays it
was entered with. Followed from the launch to the return, the result buffer holds the host program's composed term of
the argument arrays.
-/

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (c : Dev nD)

/-! ## A buffer an item does not write keeps its contents across it -/
theorem cx0 (r : Ref sig .tc) (h : r ∉ ([main_v9] : List (Ref sig .tc))) : Xx0 m c r = Xe0 m c r := by
  rw [← Vx0_eq, ← Ve0_eq]; exact V4_of m (outs m) c r h

theorem ce1 (r : Ref sig .tc) (h0 : r ∉ hostOps1_W) : Xe1 m c r = Xx0 m c r := by
  rw [← Ve1_eq, ← Vx0_eq]; exact (V5_of m (outs m) c r h0)
theorem cx1 (r : Ref sig .tc) (h : r ∉ ([main_v12] : List (Ref sig .tc))) : Xx1 m c r = Xe1 m c r := by
  rw [← Vx1_eq, ← Ve1_eq]; exact V6_of m (outs m) c r h

theorem ce2 (r : Ref sig .tc) (h0 : r ∉ hostOps2_W) : Xe2 m c r = Xx1 m c r := by
  rw [← Ve2_eq, ← Vx1_eq]; exact (V7_of m (outs m) c r h0)
theorem cx2 (r : Ref sig .tc) (h : r ∉ ([main_v24] : List (Ref sig .tc))) : Xx2 m c r = Xe2 m c r := by
  rw [← Vx2_eq, ← Ve2_eq]; exact V8_of m (outs m) c r h

theorem ce3 (r : Ref sig .tc) (h0 : r ∉ hostOps3_W) : Xe3 m c r = Xx2 m c r := by
  rw [← Ve3_eq, ← Vx2_eq]; exact (V9_of m (outs m) c r h0)
theorem cx3 (r : Ref sig .tc) (h : r ∉ ([main_v30] : List (Ref sig .tc))) : Xx3 m c r = Xe3 m c r := by
  rw [← Vx3_eq, ← Ve3_eq]; exact V10_of m (outs m) c r h

theorem ce4 (r : Ref sig .tc) (h0 : r ∉ hostOps4_W) : Xe4 m c r = Xx3 m c r := by
  rw [← Ve4_eq, ← Vx3_eq]; exact (V11_of m (outs m) c r h0)
theorem cx4 (r : Ref sig .tc) (h : r ∉ ([main_v32] : List (Ref sig .tc))) : Xx4 m c r = Xe4 m c r := by
  rw [← Vx4_eq, ← Ve4_eq]; exact V12_of m (outs m) c r h

theorem ce5 (r : Ref sig .tc) (h0 : r ∉ hostOps5_W) : Xe5 m c r = Xx4 m c r := by
  rw [← Ve5_eq, ← Vx4_eq]; exact (V13_of m (outs m) c r h0)
theorem cx5 (r : Ref sig .tc) (h : r ∉ ([main_v40] : List (Ref sig .tc))) : Xx5 m c r = Xe5 m c r := by
  rw [← Vx5_eq, ← Ve5_eq]; exact V14_of m (outs m) c r h

theorem ce6 (r : Ref sig .tc) (h0 : r ∉ hostOps6_W) : Xe6 m c r = Xx5 m c r := by
  rw [← Ve6_eq, ← Vx5_eq]; exact (V15_of m (outs m) c r h0)
theorem cx6 (r : Ref sig .tc) (h : r ∉ ([main_v46] : List (Ref sig .tc))) : Xx6 m c r = Xe6 m c r := by
  rw [← Vx6_eq, ← Ve6_eq]; exact V16_of m (outs m) c r h

theorem ce7 (r : Ref sig .tc) (h0 : r ∉ hostOps7_W) (h1 : r ∉ hostOps7_1_W) (h2 : r ∉ hostOps7_2_W) : Xe7 m c r = Xx6 m c r := by
  rw [← Ve7_eq, ← Vx6_eq]; exact (V19_of m (outs m) c r h2).trans ((V18_of m (outs m) c r h1).trans ((V17_of m (outs m) c r h0)))
theorem cx7 (r : Ref sig .tc) (h : r ∉ ([main_v68] : List (Ref sig .tc))) : Xx7 m c r = Xe7 m c r := by
  rw [← Vx7_eq, ← Ve7_eq]; exact V20_of m (outs m) c r h

theorem ce8 (r : Ref sig .tc) (h0 : r ∉ hostOps8_W) : Xe8 m c r = Xx7 m c r := by
  rw [← Ve8_eq, ← Vx7_eq]; exact (V21_of m (outs m) c r h0)
theorem cx8 (r : Ref sig .tc) (h : r ∉ ([main_v71] : List (Ref sig .tc))) : Xx8 m c r = Xe8 m c r := by
  rw [← Vx8_eq, ← Ve8_eq]; exact V22_of m (outs m) c r h

theorem ce9 (r : Ref sig .tc) (h0 : r ∉ hostOps9_W) : Xe9 m c r = Xx8 m c r := by
  rw [← Ve9_eq, ← Vx8_eq]; exact (V23_of m (outs m) c r h0)
theorem cx9 (r : Ref sig .tc) (h : r ∉ ([main_v83] : List (Ref sig .tc))) : Xx9 m c r = Xe9 m c r := by
  rw [← Vx9_eq, ← Ve9_eq]; exact V24_of m (outs m) c r h

theorem ce10 (r : Ref sig .tc) (h0 : r ∉ hostOps10_W) : Xe10 m c r = Xx9 m c r := by
  rw [← Ve10_eq, ← Vx9_eq]; exact (V25_of m (outs m) c r h0)
theorem cx10 (r : Ref sig .tc) (h : r ∉ ([main_v89] : List (Ref sig .tc))) : Xx10 m c r = Xe10 m c r := by
  rw [← Vx10_eq, ← Ve10_eq]; exact V26_of m (outs m) c r h

theorem ce11 (r : Ref sig .tc) (h0 : r ∉ hostOps11_W) : Xe11 m c r = Xx10 m c r := by
  rw [← Ve11_eq, ← Vx10_eq]; exact (V27_of m (outs m) c r h0)
theorem cx11 (r : Ref sig .tc) (h : r ∉ ([main_v91] : List (Ref sig .tc))) : Xx11 m c r = Xe11 m c r := by
  rw [← Vx11_eq, ← Ve11_eq]; exact V28_of m (outs m) c r h

theorem ce12 (r : Ref sig .tc) (h0 : r ∉ hostOps12_W) : Xe12 m c r = Xx11 m c r := by
  rw [← Ve12_eq, ← Vx11_eq]; exact (V29_of m (outs m) c r h0)
theorem cx12 (r : Ref sig .tc) (h : r ∉ ([main_v99] : List (Ref sig .tc))) : Xx12 m c r = Xe12 m c r := by
  rw [← Vx12_eq, ← Ve12_eq]; exact V30_of m (outs m) c r h

theorem ce13 (r : Ref sig .tc) (h0 : r ∉ hostOps13_W) : Xe13 m c r = Xx12 m c r := by
  rw [← Ve13_eq, ← Vx12_eq]; exact (V31_of m (outs m) c r h0)
theorem cx13 (r : Ref sig .tc) (h : r ∉ ([main_v105] : List (Ref sig .tc))) : Xx13 m c r = Xe13 m c r := by
  rw [← Vx13_eq, ← Ve13_eq]; exact V32_of m (outs m) c r h

theorem ce14 (r : Ref sig .tc) (h0 : r ∉ hostOps14_W) : Xe14 m c r = Xx13 m c r := by
  rw [← Ve14_eq, ← Vx13_eq]; exact (V33_of m (outs m) c r h0)
theorem cx14 (r : Ref sig .tc) (h : r ∉ ([main_v122] : List (Ref sig .tc))) : Xx14 m c r = Xe14 m c r := by
  rw [← Vx14_eq, ← Ve14_eq]; exact V34_of m (outs m) c r h

/-! ## The stages -/

theorem val_e0_v6 : Xe0 m c main_v6 = (Cert.HostForms.normCol (m ((c : Thread nD τ).loc main_arg0))) := by
  refine (s0_v6 (V0 m c)).trans ?_
  rfl

theorem val_e0_arg9 : Xe0 m c main_arg9 = (m ((c : Thread nD τ).loc main_arg9)) := (V3_of m c main_arg9 (by decide)).trans ((V2_of m c main_arg9 (by decide)).trans (V1_of m c main_arg9 (by decide)))

theorem val_e0_v7 : Xe0 m c main_v7 = (Cert.HostForms.row32 (m ((c : Thread nD τ).loc main_arg10))) := by
  refine (s0_v7 (V0 m c)).trans ?_
  rfl

theorem val_e0_arg11 : Xe0 m c main_arg11 = (m ((c : Thread nD τ).loc main_arg11)) := (V3_of m c main_arg11 (by decide)).trans ((V2_of m c main_arg11 (by decide)).trans (V1_of m c main_arg11 (by decide)))

theorem val_e0_v8 : Xe0 m c main_v8 = (Cert.HostForms.row32 (m ((c : Thread nD τ).loc main_arg12))) := by
  refine (s0_v8 (V0 m c)).trans ?_
  rfl

/-- What region 0 leaves in main_v9. -/
def t_v9 (m : (ℓ : Loc nD τ sig) → Buf (Elt Ideal) ℓ) (c : Dev nD) := Cert.HostForms.mlp2Node (Cert.HostForms.normCol (m ((c : Thread nD τ).loc main_arg0))) (m ((c : Thread nD τ).loc main_arg9)) (Cert.HostForms.row32 (m ((c : Thread nD τ).loc main_arg10))) (m ((c : Thread nD τ).loc main_arg11)) (Cert.HostForms.row32 (m ((c : Thread nD τ).loc main_arg12)))

theorem val_x0_v9 : Xx0 m c main_v9 = (t_v9 m c) := by
  unfold Xx0
  rw [Function.update_self, final0]
  show Cert.HostForms.mlp2Node (Xe0 m c main_v6) (Xe0 m c main_arg9) (Xe0 m c main_v7) (Xe0 m c main_arg11) (Xe0 m c main_v8) = _
  rw [val_e0_v6 m c, val_e0_arg9 m c, val_e0_v7 m c, val_e0_arg11 m c, val_e0_v8 m c]
  rfl

theorem val_e1_v9 : Xe1 m c main_v9 = (t_v9 m c) := (ce1 m c main_v9 (by decide)).trans (val_x0_v9 m c)

theorem val_x1_v9 : Xx1 m c main_v9 = (t_v9 m c) := (cx1 m c main_v9 (by decide)).trans (val_e1_v9 m c)

theorem val_e2_v9 : Xe2 m c main_v9 = (t_v9 m c) := (ce2 m c main_v9 (by decide)).trans (val_x1_v9 m c)

theorem val_x2_v9 : Xx2 m c main_v9 = (t_v9 m c) := (cx2 m c main_v9 (by decide)).trans (val_e2_v9 m c)

theorem val_e3_v9 : Xe3 m c main_v9 = (t_v9 m c) := (ce3 m c main_v9 (by decide)).trans (val_x2_v9 m c)

theorem val_e0_arg1 : Xe0 m c main_arg1 = (m ((c : Thread nD τ).loc main_arg1)) := (V3_of m c main_arg1 (by decide)).trans ((V2_of m c main_arg1 (by decide)).trans (V1_of m c main_arg1 (by decide)))

theorem val_x0_arg1 : Xx0 m c main_arg1 = (m ((c : Thread nD τ).loc main_arg1)) := (cx0 m c main_arg1 (by decide)).trans (val_e0_arg1 m c)

theorem val_e1_arg1 : Xe1 m c main_arg1 = (m ((c : Thread nD τ).loc main_arg1)) := (ce1 m c main_arg1 (by decide)).trans (val_x0_arg1 m c)

theorem val_x1_arg1 : Xx1 m c main_arg1 = (m ((c : Thread nD τ).loc main_arg1)) := (cx1 m c main_arg1 (by decide)).trans (val_e1_arg1 m c)

theorem val_e2_v16 : Xe2 m c main_v16 = (Cert.HostForms.dstVec (m ((c : Thread nD τ).loc main_arg1))) := by
  refine (s2_v16 (Xx1 m c)).trans ?_
  rw [val_x1_arg1 m c]

theorem val_x2_v16 : Xx2 m c main_v16 = (Cert.HostForms.dstVec (m ((c : Thread nD τ).loc main_arg1))) := (cx2 m c main_v16 (by decide)).trans (val_e2_v16 m c)

theorem val_e2_v23 : Xe2 m c main_v23 = (Host.gather Cert.ReferenceIdeal.gather_S100000x32_S1600000x1_S1600000x32_1_0_n_n_0_1_132 (t_v9 m c) (Cert.HostForms.srcIdx (m ((c : Thread nD τ).loc main_arg1)))) := by
  refine (s2_v23 (Xx1 m c)).trans ?_
  rw [val_x1_v9 m c, val_x1_arg1 m c]

theorem val_e0_arg2 : Xe0 m c main_arg2 = (m ((c : Thread nD τ).loc main_arg2)) := (V3_of m c main_arg2 (by decide)).trans ((V2_of m c main_arg2 (by decide)).trans (V1_of m c main_arg2 (by decide)))

theorem val_x0_arg2 : Xx0 m c main_arg2 = (m ((c : Thread nD τ).loc main_arg2)) := (cx0 m c main_arg2 (by decide)).trans (val_e0_arg2 m c)

theorem val_e1_arg2 : Xe1 m c main_arg2 = (m ((c : Thread nD τ).loc main_arg2)) := (ce1 m c main_arg2 (by decide)).trans (val_x0_arg2 m c)

theorem val_e0_arg13 : Xe0 m c main_arg13 = (m ((c : Thread nD τ).loc main_arg13)) := (V3_of m c main_arg13 (by decide)).trans ((V2_of m c main_arg13 (by decide)).trans (V1_of m c main_arg13 (by decide)))

theorem val_x0_arg13 : Xx0 m c main_arg13 = (m ((c : Thread nD τ).loc main_arg13)) := (cx0 m c main_arg13 (by decide)).trans (val_e0_arg13 m c)

theorem val_e1_arg13 : Xe1 m c main_arg13 = (m ((c : Thread nD τ).loc main_arg13)) := (ce1 m c main_arg13 (by decide)).trans (val_x0_arg13 m c)

theorem val_e0_arg14 : Xe0 m c main_arg14 = (m ((c : Thread nD τ).loc main_arg14)) := (V3_of m c main_arg14 (by decide)).trans ((V2_of m c main_arg14 (by decide)).trans (V1_of m c main_arg14 (by decide)))

theorem val_x0_arg14 : Xx0 m c main_arg14 = (m ((c : Thread nD τ).loc main_arg14)) := (cx0 m c main_arg14 (by decide)).trans (val_e0_arg14 m c)

theorem val_e1_v10 : Xe1 m c main_v10 = (Cert.HostForms.row32 (m ((c : Thread nD τ).loc main_arg14))) := by
  refine (s1_v10 (Xx0 m c)).trans ?_
  rw [val_x0_arg14 m c]

theorem val_e0_arg15 : Xe0 m c main_arg15 = (m ((c : Thread nD τ).loc main_arg15)) := (V3_of m c main_arg15 (by decide)).trans ((V2_of m c main_arg15 (by decide)).trans (V1_of m c main_arg15 (by decide)))

theorem val_x0_arg15 : Xx0 m c main_arg15 = (m ((c : Thread nD τ).loc main_arg15)) := (cx0 m c main_arg15 (by decide)).trans (val_e0_arg15 m c)

theorem val_e1_arg15 : Xe1 m c main_arg15 = (m ((c : Thread nD τ).loc main_arg15)) := (ce1 m c main_arg15 (by decide)).trans (val_x0_arg15 m c)

theorem val_e0_arg16 : Xe0 m c main_arg16 = (m ((c : Thread nD τ).loc main_arg16)) := (V3_of m c main_arg16 (by decide)).trans ((V2_of m c main_arg16 (by decide)).trans (V1_of m c main_arg16 (by decide)))

theorem val_x0_arg16 : Xx0 m c main_arg16 = (m ((c : Thread nD τ).loc main_arg16)) := (cx0 m c main_arg16 (by decide)).trans (val_e0_arg16 m c)

theorem val_e1_v11 : Xe1 m c main_v11 = (Cert.HostForms.row32 (m ((c : Thread nD τ).loc main_arg16))) := by
  refine (s1_v11 (Xx0 m c)).trans ?_
  rw [val_x0_arg16 m c]

/-- What region 1 leaves in main_v12. -/
def t_v12 (m : (ℓ : Loc nD τ sig) → Buf (Elt Ideal) ℓ) (c : Dev nD) := Cert.HostForms.mlp2Edge (m ((c : Thread nD τ).loc main_arg2)) (m ((c : Thread nD τ).loc main_arg13)) (Cert.HostForms.row32 (m ((c : Thread nD τ).loc main_arg14))) (m ((c : Thread nD τ).loc main_arg15)) (Cert.HostForms.row32 (m ((c : Thread nD τ).loc main_arg16)))

theorem val_x1_v12 : Xx1 m c main_v12 = (t_v12 m c) := by
  unfold Xx1
  rw [Function.update_self, final1]
  show Cert.HostForms.mlp2Edge (Xe1 m c main_arg2) (Xe1 m c main_arg13) (Xe1 m c main_v10) (Xe1 m c main_arg15) (Xe1 m c main_v11) = _
  rw [val_e1_arg2 m c, val_e1_arg13 m c, val_e1_v10 m c, val_e1_arg15 m c, val_e1_v11 m c]
  rfl

theorem val_e2_v12 : Xe2 m c main_v12 = (t_v12 m c) := (ce2 m c main_v12 (by decide)).trans (val_x1_v12 m c)

/-- What region 2 leaves in main_v24. -/
def t_v24 (m : (ℓ : Loc nD τ sig) → Buf (Elt Ideal) ℓ) (c : Dev nD) := Cert.HostForms.reluAdd32 (Host.gather Cert.ReferenceIdeal.gather_S100000x32_S1600000x1_S1600000x32_1_0_n_n_0_1_132 (t_v9 m c) (Cert.HostForms.srcIdx (m ((c : Thread nD τ).loc main_arg1)))) (t_v12 m c)

theorem val_x2_v24 : Xx2 m c main_v24 = (t_v24 m c) := by
  unfold Xx2
  rw [Function.update_self, final2]
  show Cert.HostForms.reluAdd32 (Xe2 m c main_v23) (Xe2 m c main_v12) = _
  rw [val_e2_v23 m c, val_e2_v12 m c]
  rfl

theorem val_e3_v27 : Xe3 m c main_v27 = (Host.scatterAdd (F := Ideal) Cert.ReferenceIdeal.scatter_S100000x32_S1600000x1_S1600000x32_1_0_0_1 (broadcastInDim Cert.ReferenceIdeal.S100000x32 ![] Cert.ReferenceIdeal.Gen.bcast_S_S100000x32 (constant (F := Ideal) Cert.ReferenceIdeal.S_ .f32 0x00000000#32)) (Cert.HostForms.idxCol (Cert.HostForms.dstVec (m ((c : Thread nD τ).loc main_arg1)))) (t_v24 m c)) := by
  refine (s3_v27 (Xx2 m c)).trans ?_
  rw [val_x2_v16 m c, val_x2_v24 m c]

theorem val_e0_arg17 : Xe0 m c main_arg17 = (m ((c : Thread nD τ).loc main_arg17)) := (V3_of m c main_arg17 (by decide)).trans ((V2_of m c main_arg17 (by decide)).trans (V1_of m c main_arg17 (by decide)))

theorem val_x0_arg17 : Xx0 m c main_arg17 = (m ((c : Thread nD τ).loc main_arg17)) := (cx0 m c main_arg17 (by decide)).trans (val_e0_arg17 m c)

theorem val_e1_arg17 : Xe1 m c main_arg17 = (m ((c : Thread nD τ).loc main_arg17)) := (ce1 m c main_arg17 (by decide)).trans (val_x0_arg17 m c)

theorem val_x1_arg17 : Xx1 m c main_arg17 = (m ((c : Thread nD τ).loc main_arg17)) := (cx1 m c main_arg17 (by decide)).trans (val_e1_arg17 m c)

theorem val_e2_arg17 : Xe2 m c main_arg17 = (m ((c : Thread nD τ).loc main_arg17)) := (ce2 m c main_arg17 (by decide)).trans (val_x1_arg17 m c)

theorem val_x2_arg17 : Xx2 m c main_arg17 = (m ((c : Thread nD τ).loc main_arg17)) := (cx2 m c main_arg17 (by decide)).trans (val_e2_arg17 m c)

theorem val_e3_arg17 : Xe3 m c main_arg17 = (m ((c : Thread nD τ).loc main_arg17)) := (ce3 m c main_arg17 (by decide)).trans (val_x2_arg17 m c)

theorem val_e0_arg18 : Xe0 m c main_arg18 = (m ((c : Thread nD τ).loc main_arg18)) := (V3_of m c main_arg18 (by decide)).trans ((V2_of m c main_arg18 (by decide)).trans (V1_of m c main_arg18 (by decide)))

theorem val_x0_arg18 : Xx0 m c main_arg18 = (m ((c : Thread nD τ).loc main_arg18)) := (cx0 m c main_arg18 (by decide)).trans (val_e0_arg18 m c)

theorem val_e1_arg18 : Xe1 m c main_arg18 = (m ((c : Thread nD τ).loc main_arg18)) := (ce1 m c main_arg18 (by decide)).trans (val_x0_arg18 m c)

theorem val_x1_arg18 : Xx1 m c main_arg18 = (m ((c : Thread nD τ).loc main_arg18)) := (cx1 m c main_arg18 (by decide)).trans (val_e1_arg18 m c)

theorem val_e2_arg18 : Xe2 m c main_arg18 = (m ((c : Thread nD τ).loc main_arg18)) := (ce2 m c main_arg18 (by decide)).trans (val_x1_arg18 m c)

theorem val_x2_arg18 : Xx2 m c main_arg18 = (m ((c : Thread nD τ).loc main_arg18)) := (cx2 m c main_arg18 (by decide)).trans (val_e2_arg18 m c)

theorem val_e3_v28 : Xe3 m c main_v28 = (Cert.HostForms.row64 (m ((c : Thread nD τ).loc main_arg18))) := by
  refine (s3_v28 (Xx2 m c)).trans ?_
  rw [val_x2_arg18 m c]

theorem val_e0_arg19 : Xe0 m c main_arg19 = (m ((c : Thread nD τ).loc main_arg19)) := (V3_of m c main_arg19 (by decide)).trans ((V2_of m c main_arg19 (by decide)).trans (V1_of m c main_arg19 (by decide)))

theorem val_x0_arg19 : Xx0 m c main_arg19 = (m ((c : Thread nD τ).loc main_arg19)) := (cx0 m c main_arg19 (by decide)).trans (val_e0_arg19 m c)

theorem val_e1_arg19 : Xe1 m c main_arg19 = (m ((c : Thread nD τ).loc main_arg19)) := (ce1 m c main_arg19 (by decide)).trans (val_x0_arg19 m c)

theorem val_x1_arg19 : Xx1 m c main_arg19 = (m ((c : Thread nD τ).loc main_arg19)) := (cx1 m c main_arg19 (by decide)).trans (val_e1_arg19 m c)

theorem val_e2_arg19 : Xe2 m c main_arg19 = (m ((c : Thread nD τ).loc main_arg19)) := (ce2 m c main_arg19 (by decide)).trans (val_x1_arg19 m c)

theorem val_x2_arg19 : Xx2 m c main_arg19 = (m ((c : Thread nD τ).loc main_arg19)) := (cx2 m c main_arg19 (by decide)).trans (val_e2_arg19 m c)

theorem val_e3_arg19 : Xe3 m c main_arg19 = (m ((c : Thread nD τ).loc main_arg19)) := (ce3 m c main_arg19 (by decide)).trans (val_x2_arg19 m c)

theorem val_e0_arg20 : Xe0 m c main_arg20 = (m ((c : Thread nD τ).loc main_arg20)) := (V3_of m c main_arg20 (by decide)).trans ((V2_of m c main_arg20 (by decide)).trans (V1_of m c main_arg20 (by decide)))

theorem val_x0_arg20 : Xx0 m c main_arg20 = (m ((c : Thread nD τ).loc main_arg20)) := (cx0 m c main_arg20 (by decide)).trans (val_e0_arg20 m c)

theorem val_e1_arg20 : Xe1 m c main_arg20 = (m ((c : Thread nD τ).loc main_arg20)) := (ce1 m c main_arg20 (by decide)).trans (val_x0_arg20 m c)

theorem val_x1_arg20 : Xx1 m c main_arg20 = (m ((c : Thread nD τ).loc main_arg20)) := (cx1 m c main_arg20 (by decide)).trans (val_e1_arg20 m c)

theorem val_e2_arg20 : Xe2 m c main_arg20 = (m ((c : Thread nD τ).loc main_arg20)) := (ce2 m c main_arg20 (by decide)).trans (val_x1_arg20 m c)

theorem val_x2_arg20 : Xx2 m c main_arg20 = (m ((c : Thread nD τ).loc main_arg20)) := (cx2 m c main_arg20 (by decide)).trans (val_e2_arg20 m c)

theorem val_e3_v29 : Xe3 m c main_v29 = (Cert.HostForms.row64 (m ((c : Thread nD τ).loc main_arg20))) := by
  refine (s3_v29 (Xx2 m c)).trans ?_
  rw [val_x2_arg20 m c]

/-- What region 3 leaves in main_v30. -/
def t_v30 (m : (ℓ : Loc nD τ sig) → Buf (Elt Ideal) ℓ) (c : Dev nD) := Cert.HostForms.nodeUpdate32 (t_v9 m c) (Host.scatterAdd (F := Ideal) Cert.ReferenceIdeal.scatter_S100000x32_S1600000x1_S1600000x32_1_0_0_1 (broadcastInDim Cert.ReferenceIdeal.S100000x32 ![] Cert.ReferenceIdeal.Gen.bcast_S_S100000x32 (constant (F := Ideal) Cert.ReferenceIdeal.S_ .f32 0x00000000#32)) (Cert.HostForms.idxCol (Cert.HostForms.dstVec (m ((c : Thread nD τ).loc main_arg1)))) (t_v24 m c)) (m ((c : Thread nD τ).loc main_arg17)) (Cert.HostForms.row64 (m ((c : Thread nD τ).loc main_arg18))) (m ((c : Thread nD τ).loc main_arg19)) (Cert.HostForms.row64 (m ((c : Thread nD τ).loc main_arg20)))

theorem val_x3_v30 : Xx3 m c main_v30 = (t_v30 m c) := by
  unfold Xx3
  rw [Function.update_self, final3]
  show Cert.HostForms.nodeUpdate32 (Xe3 m c main_v9) (Xe3 m c main_v27) (Xe3 m c main_arg17) (Xe3 m c main_v28) (Xe3 m c main_arg19) (Xe3 m c main_v29) = _
  rw [val_e3_v9 m c, val_e3_v27 m c, val_e3_arg17 m c, val_e3_v28 m c, val_e3_arg19 m c, val_e3_v29 m c]
  rfl

theorem val_e4_v30 : Xe4 m c main_v30 = (t_v30 m c) := (ce4 m c main_v30 (by decide)).trans (val_x3_v30 m c)

theorem val_x4_v30 : Xx4 m c main_v30 = (t_v30 m c) := (cx4 m c main_v30 (by decide)).trans (val_e4_v30 m c)

theorem val_e5_v30 : Xe5 m c main_v30 = (t_v30 m c) := (ce5 m c main_v30 (by decide)).trans (val_x4_v30 m c)

theorem val_x5_v30 : Xx5 m c main_v30 = (t_v30 m c) := (cx5 m c main_v30 (by decide)).trans (val_e5_v30 m c)

theorem val_e6_v30 : Xe6 m c main_v30 = (t_v30 m c) := (ce6 m c main_v30 (by decide)).trans (val_x5_v30 m c)

theorem val_e3_v16 : Xe3 m c main_v16 = (Cert.HostForms.dstVec (m ((c : Thread nD τ).loc main_arg1))) := (ce3 m c main_v16 (by decide)).trans (val_x2_v16 m c)

theorem val_x3_v16 : Xx3 m c main_v16 = (Cert.HostForms.dstVec (m ((c : Thread nD τ).loc main_arg1))) := (cx3 m c main_v16 (by decide)).trans (val_e3_v16 m c)

theorem val_e4_v16 : Xe4 m c main_v16 = (Cert.HostForms.dstVec (m ((c : Thread nD τ).loc main_arg1))) := (ce4 m c main_v16 (by decide)).trans (val_x3_v16 m c)

theorem val_x4_v16 : Xx4 m c main_v16 = (Cert.HostForms.dstVec (m ((c : Thread nD τ).loc main_arg1))) := (cx4 m c main_v16 (by decide)).trans (val_e4_v16 m c)

theorem val_e5_v16 : Xe5 m c main_v16 = (Cert.HostForms.dstVec (m ((c : Thread nD τ).loc main_arg1))) := (ce5 m c main_v16 (by decide)).trans (val_x4_v16 m c)

theorem val_x5_v16 : Xx5 m c main_v16 = (Cert.HostForms.dstVec (m ((c : Thread nD τ).loc main_arg1))) := (cx5 m c main_v16 (by decide)).trans (val_e5_v16 m c)

theorem val_e2_v14 : Xe2 m c main_v14 = (Cert.HostForms.srcVec (m ((c : Thread nD τ).loc main_arg1))) := by
  refine (s2_v14 (Xx1 m c)).trans ?_
  rw [val_x1_arg1 m c]

theorem val_x2_v14 : Xx2 m c main_v14 = (Cert.HostForms.srcVec (m ((c : Thread nD τ).loc main_arg1))) := (cx2 m c main_v14 (by decide)).trans (val_e2_v14 m c)

theorem val_e3_v14 : Xe3 m c main_v14 = (Cert.HostForms.srcVec (m ((c : Thread nD τ).loc main_arg1))) := (ce3 m c main_v14 (by decide)).trans (val_x2_v14 m c)

theorem val_x3_v14 : Xx3 m c main_v14 = (Cert.HostForms.srcVec (m ((c : Thread nD τ).loc main_arg1))) := (cx3 m c main_v14 (by decide)).trans (val_e3_v14 m c)

theorem val_e4_v14 : Xe4 m c main_v14 = (Cert.HostForms.srcVec (m ((c : Thread nD τ).loc main_arg1))) := (ce4 m c main_v14 (by decide)).trans (val_x3_v14 m c)

theorem val_x4_v14 : Xx4 m c main_v14 = (Cert.HostForms.srcVec (m ((c : Thread nD τ).loc main_arg1))) := (cx4 m c main_v14 (by decide)).trans (val_e4_v14 m c)

theorem val_e5_v39 : Xe5 m c main_v39 = (Host.gather Cert.ReferenceIdeal.gather_S100000x64_S1600000x1_S1600000x64_1_0_n_n_0_1_164 (t_v30 m c) (Cert.HostForms.wrapIdx (Cert.HostForms.srcVec (m ((c : Thread nD τ).loc main_arg1))))) := by
  refine (s5_v39 (Xx4 m c)).trans ?_
  rw [val_x4_v30 m c, val_x4_v14 m c]

theorem val_x2_v12 : Xx2 m c main_v12 = (t_v12 m c) := (cx2 m c main_v12 (by decide)).trans (val_e2_v12 m c)

theorem val_e3_v12 : Xe3 m c main_v12 = (t_v12 m c) := (ce3 m c main_v12 (by decide)).trans (val_x2_v12 m c)

theorem val_x3_v12 : Xx3 m c main_v12 = (t_v12 m c) := (cx3 m c main_v12 (by decide)).trans (val_e3_v12 m c)

theorem val_e4_v12 : Xe4 m c main_v12 = (t_v12 m c) := (ce4 m c main_v12 (by decide)).trans (val_x3_v12 m c)

theorem val_e0_arg25 : Xe0 m c main_arg25 = (m ((c : Thread nD τ).loc main_arg25)) := (V3_of m c main_arg25 (by decide)).trans ((V2_of m c main_arg25 (by decide)).trans (V1_of m c main_arg25 (by decide)))

theorem val_x0_arg25 : Xx0 m c main_arg25 = (m ((c : Thread nD τ).loc main_arg25)) := (cx0 m c main_arg25 (by decide)).trans (val_e0_arg25 m c)

theorem val_e1_arg25 : Xe1 m c main_arg25 = (m ((c : Thread nD τ).loc main_arg25)) := (ce1 m c main_arg25 (by decide)).trans (val_x0_arg25 m c)

theorem val_x1_arg25 : Xx1 m c main_arg25 = (m ((c : Thread nD τ).loc main_arg25)) := (cx1 m c main_arg25 (by decide)).trans (val_e1_arg25 m c)

theorem val_e2_arg25 : Xe2 m c main_arg25 = (m ((c : Thread nD τ).loc main_arg25)) := (ce2 m c main_arg25 (by decide)).trans (val_x1_arg25 m c)

theorem val_x2_arg25 : Xx2 m c main_arg25 = (m ((c : Thread nD τ).loc main_arg25)) := (cx2 m c main_arg25 (by decide)).trans (val_e2_arg25 m c)

theorem val_e3_arg25 : Xe3 m c main_arg25 = (m ((c : Thread nD τ).loc main_arg25)) := (ce3 m c main_arg25 (by decide)).trans (val_x2_arg25 m c)

theorem val_x3_arg25 : Xx3 m c main_arg25 = (m ((c : Thread nD τ).loc main_arg25)) := (cx3 m c main_arg25 (by decide)).trans (val_e3_arg25 m c)

theorem val_e4_arg25 : Xe4 m c main_arg25 = (m ((c : Thread nD τ).loc main_arg25)) := (ce4 m c main_arg25 (by decide)).trans (val_x3_arg25 m c)

theorem val_e0_arg26 : Xe0 m c main_arg26 = (m ((c : Thread nD τ).loc main_arg26)) := (V3_of m c main_arg26 (by decide)).trans ((V2_of m c main_arg26 (by decide)).trans (V1_of m c main_arg26 (by decide)))

theorem val_x0_arg26 : Xx0 m c main_arg26 = (m ((c : Thread nD τ).loc main_arg26)) := (cx0 m c main_arg26 (by decide)).trans (val_e0_arg26 m c)

theorem val_e1_arg26 : Xe1 m c main_arg26 = (m ((c : Thread nD τ).loc main_arg26)) := (ce1 m c main_arg26 (by decide)).trans (val_x0_arg26 m c)

theorem val_x1_arg26 : Xx1 m c main_arg26 = (m ((c : Thread nD τ).loc main_arg26)) := (cx1 m c main_arg26 (by decide)).trans (val_e1_arg26 m c)

theorem val_e2_arg26 : Xe2 m c main_arg26 = (m ((c : Thread nD τ).loc main_arg26)) := (ce2 m c main_arg26 (by decide)).trans (val_x1_arg26 m c)

theorem val_x2_arg26 : Xx2 m c main_arg26 = (m ((c : Thread nD τ).loc main_arg26)) := (cx2 m c main_arg26 (by decide)).trans (val_e2_arg26 m c)

theorem val_e3_arg26 : Xe3 m c main_arg26 = (m ((c : Thread nD τ).loc main_arg26)) := (ce3 m c main_arg26 (by decide)).trans (val_x2_arg26 m c)

theorem val_x3_arg26 : Xx3 m c main_arg26 = (m ((c : Thread nD τ).loc main_arg26)) := (cx3 m c main_arg26 (by decide)).trans (val_e3_arg26 m c)

theorem val_e4_v31 : Xe4 m c main_v31 = (Cert.HostForms.row64 (m ((c : Thread nD τ).loc main_arg26))) := by
  refine (s4_v31 (Xx3 m c)).trans ?_
  rw [val_x3_arg26 m c]

/-- What region 4 leaves in main_v32. -/
def t_v32 (m : (ℓ : Loc nD τ sig) → Buf (Elt Ideal) ℓ) (c : Dev nD) := Cert.HostForms.edgeLin (t_v12 m c) (m ((c : Thread nD τ).loc main_arg25)) (Cert.HostForms.row64 (m ((c : Thread nD τ).loc main_arg26)))

theorem val_x4_v32 : Xx4 m c main_v32 = (t_v32 m c) := by
  unfold Xx4
  rw [Function.update_self, final4]
  show Cert.HostForms.edgeLin (Xe4 m c main_v12) (Xe4 m c main_arg25) (Xe4 m c main_v31) = _
  rw [val_e4_v12 m c, val_e4_arg25 m c, val_e4_v31 m c]
  rfl

theorem val_e5_v32 : Xe5 m c main_v32 = (t_v32 m c) := (ce5 m c main_v32 (by decide)).trans (val_x4_v32 m c)

/-- What region 5 leaves in main_v40. -/
def t_v40 (m : (ℓ : Loc nD τ sig) → Buf (Elt Ideal) ℓ) (c : Dev nD) := Cert.HostForms.reluAdd64 (Host.gather Cert.ReferenceIdeal.gather_S100000x64_S1600000x1_S1600000x64_1_0_n_n_0_1_164 (t_v30 m c) (Cert.HostForms.wrapIdx (Cert.HostForms.srcVec (m ((c : Thread nD τ).loc main_arg1))))) (t_v32 m c)

theorem val_x5_v40 : Xx5 m c main_v40 = (t_v40 m c) := by
  unfold Xx5
  rw [Function.update_self, final5]
  show Cert.HostForms.reluAdd64 (Xe5 m c main_v39) (Xe5 m c main_v32) = _
  rw [val_e5_v39 m c, val_e5_v32 m c]
  rfl

theorem val_e6_v43 : Xe6 m c main_v43 = (Host.scatterAdd (F := Ideal) Cert.ReferenceIdeal.scatter_S100000x64_S1600000x1_S1600000x64_1_0_0_1 (broadcastInDim Cert.ReferenceIdeal.S100000x64 ![] Cert.ReferenceIdeal.Gen.bcast_S_S100000x64 (constant (F := Ideal) Cert.ReferenceIdeal.S_ .f32 0x00000000#32)) (Cert.HostForms.idxCol (Cert.HostForms.dstVec (m ((c : Thread nD τ).loc main_arg1)))) (t_v40 m c)) := by
  refine (s6_v43 (Xx5 m c)).trans ?_
  rw [val_x5_v16 m c, val_x5_v40 m c]

theorem val_e0_arg21 : Xe0 m c main_arg21 = (m ((c : Thread nD τ).loc main_arg21)) := (V3_of m c main_arg21 (by decide)).trans ((V2_of m c main_arg21 (by decide)).trans (V1_of m c main_arg21 (by decide)))

theorem val_x0_arg21 : Xx0 m c main_arg21 = (m ((c : Thread nD τ).loc main_arg21)) := (cx0 m c main_arg21 (by decide)).trans (val_e0_arg21 m c)

theorem val_e1_arg21 : Xe1 m c main_arg21 = (m ((c : Thread nD τ).loc main_arg21)) := (ce1 m c main_arg21 (by decide)).trans (val_x0_arg21 m c)

theorem val_x1_arg21 : Xx1 m c main_arg21 = (m ((c : Thread nD τ).loc main_arg21)) := (cx1 m c main_arg21 (by decide)).trans (val_e1_arg21 m c)

theorem val_e2_arg21 : Xe2 m c main_arg21 = (m ((c : Thread nD τ).loc main_arg21)) := (ce2 m c main_arg21 (by decide)).trans (val_x1_arg21 m c)

theorem val_x2_arg21 : Xx2 m c main_arg21 = (m ((c : Thread nD τ).loc main_arg21)) := (cx2 m c main_arg21 (by decide)).trans (val_e2_arg21 m c)

theorem val_e3_arg21 : Xe3 m c main_arg21 = (m ((c : Thread nD τ).loc main_arg21)) := (ce3 m c main_arg21 (by decide)).trans (val_x2_arg21 m c)

theorem val_x3_arg21 : Xx3 m c main_arg21 = (m ((c : Thread nD τ).loc main_arg21)) := (cx3 m c main_arg21 (by decide)).trans (val_e3_arg21 m c)

theorem val_e4_arg21 : Xe4 m c main_arg21 = (m ((c : Thread nD τ).loc main_arg21)) := (ce4 m c main_arg21 (by decide)).trans (val_x3_arg21 m c)

theorem val_x4_arg21 : Xx4 m c main_arg21 = (m ((c : Thread nD τ).loc main_arg21)) := (cx4 m c main_arg21 (by decide)).trans (val_e4_arg21 m c)

theorem val_e5_arg21 : Xe5 m c main_arg21 = (m ((c : Thread nD τ).loc main_arg21)) := (ce5 m c main_arg21 (by decide)).trans (val_x4_arg21 m c)

theorem val_x5_arg21 : Xx5 m c main_arg21 = (m ((c : Thread nD τ).loc main_arg21)) := (cx5 m c main_arg21 (by decide)).trans (val_e5_arg21 m c)

theorem val_e6_arg21 : Xe6 m c main_arg21 = (m ((c : Thread nD τ).loc main_arg21)) := (ce6 m c main_arg21 (by decide)).trans (val_x5_arg21 m c)

theorem val_e0_arg22 : Xe0 m c main_arg22 = (m ((c : Thread nD τ).loc main_arg22)) := (V3_of m c main_arg22 (by decide)).trans ((V2_of m c main_arg22 (by decide)).trans (V1_of m c main_arg22 (by decide)))

theorem val_x0_arg22 : Xx0 m c main_arg22 = (m ((c : Thread nD τ).loc main_arg22)) := (cx0 m c main_arg22 (by decide)).trans (val_e0_arg22 m c)

theorem val_e1_arg22 : Xe1 m c main_arg22 = (m ((c : Thread nD τ).loc main_arg22)) := (ce1 m c main_arg22 (by decide)).trans (val_x0_arg22 m c)

theorem val_x1_arg22 : Xx1 m c main_arg22 = (m ((c : Thread nD τ).loc main_arg22)) := (cx1 m c main_arg22 (by decide)).trans (val_e1_arg22 m c)

theorem val_e2_arg22 : Xe2 m c main_arg22 = (m ((c : Thread nD τ).loc main_arg22)) := (ce2 m c main_arg22 (by decide)).trans (val_x1_arg22 m c)

theorem val_x2_arg22 : Xx2 m c main_arg22 = (m ((c : Thread nD τ).loc main_arg22)) := (cx2 m c main_arg22 (by decide)).trans (val_e2_arg22 m c)

theorem val_e3_arg22 : Xe3 m c main_arg22 = (m ((c : Thread nD τ).loc main_arg22)) := (ce3 m c main_arg22 (by decide)).trans (val_x2_arg22 m c)

theorem val_x3_arg22 : Xx3 m c main_arg22 = (m ((c : Thread nD τ).loc main_arg22)) := (cx3 m c main_arg22 (by decide)).trans (val_e3_arg22 m c)

theorem val_e4_arg22 : Xe4 m c main_arg22 = (m ((c : Thread nD τ).loc main_arg22)) := (ce4 m c main_arg22 (by decide)).trans (val_x3_arg22 m c)

theorem val_x4_arg22 : Xx4 m c main_arg22 = (m ((c : Thread nD τ).loc main_arg22)) := (cx4 m c main_arg22 (by decide)).trans (val_e4_arg22 m c)

theorem val_e5_arg22 : Xe5 m c main_arg22 = (m ((c : Thread nD τ).loc main_arg22)) := (ce5 m c main_arg22 (by decide)).trans (val_x4_arg22 m c)

theorem val_x5_arg22 : Xx5 m c main_arg22 = (m ((c : Thread nD τ).loc main_arg22)) := (cx5 m c main_arg22 (by decide)).trans (val_e5_arg22 m c)

theorem val_e6_v44 : Xe6 m c main_v44 = (Cert.HostForms.row64 (m ((c : Thread nD τ).loc main_arg22))) := by
  refine (s6_v44 (Xx5 m c)).trans ?_
  rw [val_x5_arg22 m c]

theorem val_e0_arg23 : Xe0 m c main_arg23 = (m ((c : Thread nD τ).loc main_arg23)) := (V3_of m c main_arg23 (by decide)).trans ((V2_of m c main_arg23 (by decide)).trans (V1_of m c main_arg23 (by decide)))

theorem val_x0_arg23 : Xx0 m c main_arg23 = (m ((c : Thread nD τ).loc main_arg23)) := (cx0 m c main_arg23 (by decide)).trans (val_e0_arg23 m c)

theorem val_e1_arg23 : Xe1 m c main_arg23 = (m ((c : Thread nD τ).loc main_arg23)) := (ce1 m c main_arg23 (by decide)).trans (val_x0_arg23 m c)

theorem val_x1_arg23 : Xx1 m c main_arg23 = (m ((c : Thread nD τ).loc main_arg23)) := (cx1 m c main_arg23 (by decide)).trans (val_e1_arg23 m c)

theorem val_e2_arg23 : Xe2 m c main_arg23 = (m ((c : Thread nD τ).loc main_arg23)) := (ce2 m c main_arg23 (by decide)).trans (val_x1_arg23 m c)

theorem val_x2_arg23 : Xx2 m c main_arg23 = (m ((c : Thread nD τ).loc main_arg23)) := (cx2 m c main_arg23 (by decide)).trans (val_e2_arg23 m c)

theorem val_e3_arg23 : Xe3 m c main_arg23 = (m ((c : Thread nD τ).loc main_arg23)) := (ce3 m c main_arg23 (by decide)).trans (val_x2_arg23 m c)

theorem val_x3_arg23 : Xx3 m c main_arg23 = (m ((c : Thread nD τ).loc main_arg23)) := (cx3 m c main_arg23 (by decide)).trans (val_e3_arg23 m c)

theorem val_e4_arg23 : Xe4 m c main_arg23 = (m ((c : Thread nD τ).loc main_arg23)) := (ce4 m c main_arg23 (by decide)).trans (val_x3_arg23 m c)

theorem val_x4_arg23 : Xx4 m c main_arg23 = (m ((c : Thread nD τ).loc main_arg23)) := (cx4 m c main_arg23 (by decide)).trans (val_e4_arg23 m c)

theorem val_e5_arg23 : Xe5 m c main_arg23 = (m ((c : Thread nD τ).loc main_arg23)) := (ce5 m c main_arg23 (by decide)).trans (val_x4_arg23 m c)

theorem val_x5_arg23 : Xx5 m c main_arg23 = (m ((c : Thread nD τ).loc main_arg23)) := (cx5 m c main_arg23 (by decide)).trans (val_e5_arg23 m c)

theorem val_e6_arg23 : Xe6 m c main_arg23 = (m ((c : Thread nD τ).loc main_arg23)) := (ce6 m c main_arg23 (by decide)).trans (val_x5_arg23 m c)

theorem val_e0_arg24 : Xe0 m c main_arg24 = (m ((c : Thread nD τ).loc main_arg24)) := (V3_of m c main_arg24 (by decide)).trans ((V2_of m c main_arg24 (by decide)).trans (V1_of m c main_arg24 (by decide)))

theorem val_x0_arg24 : Xx0 m c main_arg24 = (m ((c : Thread nD τ).loc main_arg24)) := (cx0 m c main_arg24 (by decide)).trans (val_e0_arg24 m c)

theorem val_e1_arg24 : Xe1 m c main_arg24 = (m ((c : Thread nD τ).loc main_arg24)) := (ce1 m c main_arg24 (by decide)).trans (val_x0_arg24 m c)

theorem val_x1_arg24 : Xx1 m c main_arg24 = (m ((c : Thread nD τ).loc main_arg24)) := (cx1 m c main_arg24 (by decide)).trans (val_e1_arg24 m c)

theorem val_e2_arg24 : Xe2 m c main_arg24 = (m ((c : Thread nD τ).loc main_arg24)) := (ce2 m c main_arg24 (by decide)).trans (val_x1_arg24 m c)

theorem val_x2_arg24 : Xx2 m c main_arg24 = (m ((c : Thread nD τ).loc main_arg24)) := (cx2 m c main_arg24 (by decide)).trans (val_e2_arg24 m c)

theorem val_e3_arg24 : Xe3 m c main_arg24 = (m ((c : Thread nD τ).loc main_arg24)) := (ce3 m c main_arg24 (by decide)).trans (val_x2_arg24 m c)

theorem val_x3_arg24 : Xx3 m c main_arg24 = (m ((c : Thread nD τ).loc main_arg24)) := (cx3 m c main_arg24 (by decide)).trans (val_e3_arg24 m c)

theorem val_e4_arg24 : Xe4 m c main_arg24 = (m ((c : Thread nD τ).loc main_arg24)) := (ce4 m c main_arg24 (by decide)).trans (val_x3_arg24 m c)

theorem val_x4_arg24 : Xx4 m c main_arg24 = (m ((c : Thread nD τ).loc main_arg24)) := (cx4 m c main_arg24 (by decide)).trans (val_e4_arg24 m c)

theorem val_e5_arg24 : Xe5 m c main_arg24 = (m ((c : Thread nD τ).loc main_arg24)) := (ce5 m c main_arg24 (by decide)).trans (val_x4_arg24 m c)

theorem val_x5_arg24 : Xx5 m c main_arg24 = (m ((c : Thread nD τ).loc main_arg24)) := (cx5 m c main_arg24 (by decide)).trans (val_e5_arg24 m c)

theorem val_e6_v45 : Xe6 m c main_v45 = (Cert.HostForms.row64 (m ((c : Thread nD τ).loc main_arg24))) := by
  refine (s6_v45 (Xx5 m c)).trans ?_
  rw [val_x5_arg24 m c]

/-- What region 6 leaves in main_v46. -/
def t_v46 (m : (ℓ : Loc nD τ sig) → Buf (Elt Ideal) ℓ) (c : Dev nD) := Cert.HostForms.nodeUpdate64 (t_v30 m c) (Host.scatterAdd (F := Ideal) Cert.ReferenceIdeal.scatter_S100000x64_S1600000x1_S1600000x64_1_0_0_1 (broadcastInDim Cert.ReferenceIdeal.S100000x64 ![] Cert.ReferenceIdeal.Gen.bcast_S_S100000x64 (constant (F := Ideal) Cert.ReferenceIdeal.S_ .f32 0x00000000#32)) (Cert.HostForms.idxCol (Cert.HostForms.dstVec (m ((c : Thread nD τ).loc main_arg1)))) (t_v40 m c)) (m ((c : Thread nD τ).loc main_arg21)) (Cert.HostForms.row64 (m ((c : Thread nD τ).loc main_arg22))) (m ((c : Thread nD τ).loc main_arg23)) (Cert.HostForms.row64 (m ((c : Thread nD τ).loc main_arg24)))

theorem val_x6_v46 : Xx6 m c main_v46 = (t_v46 m c) := by
  unfold Xx6
  rw [Function.update_self, final6]
  show Cert.HostForms.nodeUpdate64 (Xe6 m c main_v30) (Xe6 m c main_v43) (Xe6 m c main_arg21) (Xe6 m c main_v44) (Xe6 m c main_arg23) (Xe6 m c main_v45) = _
  rw [val_e6_v30 m c, val_e6_v43 m c, val_e6_arg21 m c, val_e6_v44 m c, val_e6_arg23 m c, val_e6_v45 m c]
  rfl

theorem val_e0_arg3 : Xe0 m c main_arg3 = (m ((c : Thread nD τ).loc main_arg3)) := (V3_of m c main_arg3 (by decide)).trans ((V2_of m c main_arg3 (by decide)).trans (V1_of m c main_arg3 (by decide)))

theorem val_x0_arg3 : Xx0 m c main_arg3 = (m ((c : Thread nD τ).loc main_arg3)) := (cx0 m c main_arg3 (by decide)).trans (val_e0_arg3 m c)

theorem val_e1_arg3 : Xe1 m c main_arg3 = (m ((c : Thread nD τ).loc main_arg3)) := (ce1 m c main_arg3 (by decide)).trans (val_x0_arg3 m c)

theorem val_x1_arg3 : Xx1 m c main_arg3 = (m ((c : Thread nD τ).loc main_arg3)) := (cx1 m c main_arg3 (by decide)).trans (val_e1_arg3 m c)

theorem val_e2_arg3 : Xe2 m c main_arg3 = (m ((c : Thread nD τ).loc main_arg3)) := (ce2 m c main_arg3 (by decide)).trans (val_x1_arg3 m c)

theorem val_x2_arg3 : Xx2 m c main_arg3 = (m ((c : Thread nD τ).loc main_arg3)) := (cx2 m c main_arg3 (by decide)).trans (val_e2_arg3 m c)

theorem val_e3_arg3 : Xe3 m c main_arg3 = (m ((c : Thread nD τ).loc main_arg3)) := (ce3 m c main_arg3 (by decide)).trans (val_x2_arg3 m c)

theorem val_x3_arg3 : Xx3 m c main_arg3 = (m ((c : Thread nD τ).loc main_arg3)) := (cx3 m c main_arg3 (by decide)).trans (val_e3_arg3 m c)

theorem val_e4_arg3 : Xe4 m c main_arg3 = (m ((c : Thread nD τ).loc main_arg3)) := (ce4 m c main_arg3 (by decide)).trans (val_x3_arg3 m c)

theorem val_x4_arg3 : Xx4 m c main_arg3 = (m ((c : Thread nD τ).loc main_arg3)) := (cx4 m c main_arg3 (by decide)).trans (val_e4_arg3 m c)

theorem val_e5_arg3 : Xe5 m c main_arg3 = (m ((c : Thread nD τ).loc main_arg3)) := (ce5 m c main_arg3 (by decide)).trans (val_x4_arg3 m c)

theorem val_x5_arg3 : Xx5 m c main_arg3 = (m ((c : Thread nD τ).loc main_arg3)) := (cx5 m c main_arg3 (by decide)).trans (val_e5_arg3 m c)

theorem val_e6_arg3 : Xe6 m c main_arg3 = (m ((c : Thread nD τ).loc main_arg3)) := (ce6 m c main_arg3 (by decide)).trans (val_x5_arg3 m c)

theorem val_x6_arg3 : Xx6 m c main_arg3 = (m ((c : Thread nD τ).loc main_arg3)) := (cx6 m c main_arg3 (by decide)).trans (val_e6_arg3 m c)

theorem val_e7_v58 : Xe7 m c main_v58 = (Cert.HostForms.meanPool (t_v46 m c) (m ((c : Thread nD τ).loc main_arg3))) := by
  refine (s7_v58 (Xx6 m c)).trans ?_
  rw [val_x6_v46 m c, val_x6_arg3 m c]

theorem val_x7_v58 : Xx7 m c main_v58 = (Cert.HostForms.meanPool (t_v46 m c) (m ((c : Thread nD τ).loc main_arg3))) := (cx7 m c main_v58 (by decide)).trans (val_e7_v58 m c)

theorem val_e8_v58 : Xe8 m c main_v58 = (Cert.HostForms.meanPool (t_v46 m c) (m ((c : Thread nD τ).loc main_arg3))) := (ce8 m c main_v58 (by decide)).trans (val_x7_v58 m c)

theorem val_x8_v58 : Xx8 m c main_v58 = (Cert.HostForms.meanPool (t_v46 m c) (m ((c : Thread nD τ).loc main_arg3))) := (cx8 m c main_v58 (by decide)).trans (val_e8_v58 m c)

theorem val_e9_v58 : Xe9 m c main_v58 = (Cert.HostForms.meanPool (t_v46 m c) (m ((c : Thread nD τ).loc main_arg3))) := (ce9 m c main_v58 (by decide)).trans (val_x8_v58 m c)

theorem val_x9_v58 : Xx9 m c main_v58 = (Cert.HostForms.meanPool (t_v46 m c) (m ((c : Thread nD τ).loc main_arg3))) := (cx9 m c main_v58 (by decide)).trans (val_e9_v58 m c)

theorem val_e10_v58 : Xe10 m c main_v58 = (Cert.HostForms.meanPool (t_v46 m c) (m ((c : Thread nD τ).loc main_arg3))) := (ce10 m c main_v58 (by decide)).trans (val_x9_v58 m c)

theorem val_x10_v58 : Xx10 m c main_v58 = (Cert.HostForms.meanPool (t_v46 m c) (m ((c : Thread nD τ).loc main_arg3))) := (cx10 m c main_v58 (by decide)).trans (val_e10_v58 m c)

theorem val_e11_v58 : Xe11 m c main_v58 = (Cert.HostForms.meanPool (t_v46 m c) (m ((c : Thread nD τ).loc main_arg3))) := (ce11 m c main_v58 (by decide)).trans (val_x10_v58 m c)

theorem val_x11_v58 : Xx11 m c main_v58 = (Cert.HostForms.meanPool (t_v46 m c) (m ((c : Thread nD τ).loc main_arg3))) := (cx11 m c main_v58 (by decide)).trans (val_e11_v58 m c)

theorem val_e12_v58 : Xe12 m c main_v58 = (Cert.HostForms.meanPool (t_v46 m c) (m ((c : Thread nD τ).loc main_arg3))) := (ce12 m c main_v58 (by decide)).trans (val_x11_v58 m c)

theorem val_x12_v58 : Xx12 m c main_v58 = (Cert.HostForms.meanPool (t_v46 m c) (m ((c : Thread nD τ).loc main_arg3))) := (cx12 m c main_v58 (by decide)).trans (val_e12_v58 m c)

theorem val_e13_v58 : Xe13 m c main_v58 = (Cert.HostForms.meanPool (t_v46 m c) (m ((c : Thread nD τ).loc main_arg3))) := (ce13 m c main_v58 (by decide)).trans (val_x12_v58 m c)

theorem val_x13_v58 : Xx13 m c main_v58 = (Cert.HostForms.meanPool (t_v46 m c) (m ((c : Thread nD τ).loc main_arg3))) := (cx13 m c main_v58 (by decide)).trans (val_e13_v58 m c)

theorem val_e0_arg4 : Xe0 m c main_arg4 = (m ((c : Thread nD τ).loc main_arg4)) := (V3_of m c main_arg4 (by decide)).trans ((V2_of m c main_arg4 (by decide)).trans (V1_of m c main_arg4 (by decide)))

theorem val_x0_arg4 : Xx0 m c main_arg4 = (m ((c : Thread nD τ).loc main_arg4)) := (cx0 m c main_arg4 (by decide)).trans (val_e0_arg4 m c)

theorem val_e1_arg4 : Xe1 m c main_arg4 = (m ((c : Thread nD τ).loc main_arg4)) := (ce1 m c main_arg4 (by decide)).trans (val_x0_arg4 m c)

theorem val_x1_arg4 : Xx1 m c main_arg4 = (m ((c : Thread nD τ).loc main_arg4)) := (cx1 m c main_arg4 (by decide)).trans (val_e1_arg4 m c)

theorem val_e2_arg4 : Xe2 m c main_arg4 = (m ((c : Thread nD τ).loc main_arg4)) := (ce2 m c main_arg4 (by decide)).trans (val_x1_arg4 m c)

theorem val_x2_arg4 : Xx2 m c main_arg4 = (m ((c : Thread nD τ).loc main_arg4)) := (cx2 m c main_arg4 (by decide)).trans (val_e2_arg4 m c)

theorem val_e3_arg4 : Xe3 m c main_arg4 = (m ((c : Thread nD τ).loc main_arg4)) := (ce3 m c main_arg4 (by decide)).trans (val_x2_arg4 m c)

theorem val_x3_arg4 : Xx3 m c main_arg4 = (m ((c : Thread nD τ).loc main_arg4)) := (cx3 m c main_arg4 (by decide)).trans (val_e3_arg4 m c)

theorem val_e4_arg4 : Xe4 m c main_arg4 = (m ((c : Thread nD τ).loc main_arg4)) := (ce4 m c main_arg4 (by decide)).trans (val_x3_arg4 m c)

theorem val_x4_arg4 : Xx4 m c main_arg4 = (m ((c : Thread nD τ).loc main_arg4)) := (cx4 m c main_arg4 (by decide)).trans (val_e4_arg4 m c)

theorem val_e5_arg4 : Xe5 m c main_arg4 = (m ((c : Thread nD τ).loc main_arg4)) := (ce5 m c main_arg4 (by decide)).trans (val_x4_arg4 m c)

theorem val_x5_arg4 : Xx5 m c main_arg4 = (m ((c : Thread nD τ).loc main_arg4)) := (cx5 m c main_arg4 (by decide)).trans (val_e5_arg4 m c)

theorem val_e6_arg4 : Xe6 m c main_arg4 = (m ((c : Thread nD τ).loc main_arg4)) := (ce6 m c main_arg4 (by decide)).trans (val_x5_arg4 m c)

theorem val_x6_arg4 : Xx6 m c main_arg4 = (m ((c : Thread nD τ).loc main_arg4)) := (cx6 m c main_arg4 (by decide)).trans (val_e6_arg4 m c)

theorem val_e7_v65 : Xe7 m c main_v65 = (Cert.HostForms.normCol (m ((c : Thread nD τ).loc main_arg4))) := by
  refine (s7_v65 (Xx6 m c)).trans ?_
  rw [val_x6_arg4 m c]

theorem val_x0_arg9 : Xx0 m c main_arg9 = (m ((c : Thread nD τ).loc main_arg9)) := (cx0 m c main_arg9 (by decide)).trans (val_e0_arg9 m c)

theorem val_e1_arg9 : Xe1 m c main_arg9 = (m ((c : Thread nD τ).loc main_arg9)) := (ce1 m c main_arg9 (by decide)).trans (val_x0_arg9 m c)

theorem val_x1_arg9 : Xx1 m c main_arg9 = (m ((c : Thread nD τ).loc main_arg9)) := (cx1 m c main_arg9 (by decide)).trans (val_e1_arg9 m c)

theorem val_e2_arg9 : Xe2 m c main_arg9 = (m ((c : Thread nD τ).loc main_arg9)) := (ce2 m c main_arg9 (by decide)).trans (val_x1_arg9 m c)

theorem val_x2_arg9 : Xx2 m c main_arg9 = (m ((c : Thread nD τ).loc main_arg9)) := (cx2 m c main_arg9 (by decide)).trans (val_e2_arg9 m c)

theorem val_e3_arg9 : Xe3 m c main_arg9 = (m ((c : Thread nD τ).loc main_arg9)) := (ce3 m c main_arg9 (by decide)).trans (val_x2_arg9 m c)

theorem val_x3_arg9 : Xx3 m c main_arg9 = (m ((c : Thread nD τ).loc main_arg9)) := (cx3 m c main_arg9 (by decide)).trans (val_e3_arg9 m c)

theorem val_e4_arg9 : Xe4 m c main_arg9 = (m ((c : Thread nD τ).loc main_arg9)) := (ce4 m c main_arg9 (by decide)).trans (val_x3_arg9 m c)

theorem val_x4_arg9 : Xx4 m c main_arg9 = (m ((c : Thread nD τ).loc main_arg9)) := (cx4 m c main_arg9 (by decide)).trans (val_e4_arg9 m c)

theorem val_e5_arg9 : Xe5 m c main_arg9 = (m ((c : Thread nD τ).loc main_arg9)) := (ce5 m c main_arg9 (by decide)).trans (val_x4_arg9 m c)

theorem val_x5_arg9 : Xx5 m c main_arg9 = (m ((c : Thread nD τ).loc main_arg9)) := (cx5 m c main_arg9 (by decide)).trans (val_e5_arg9 m c)

theorem val_e6_arg9 : Xe6 m c main_arg9 = (m ((c : Thread nD τ).loc main_arg9)) := (ce6 m c main_arg9 (by decide)).trans (val_x5_arg9 m c)

theorem val_x6_arg9 : Xx6 m c main_arg9 = (m ((c : Thread nD τ).loc main_arg9)) := (cx6 m c main_arg9 (by decide)).trans (val_e6_arg9 m c)

theorem val_e7_arg9 : Xe7 m c main_arg9 = (m ((c : Thread nD τ).loc main_arg9)) := (ce7 m c main_arg9 (by decide) (by decide) (by decide)).trans (val_x6_arg9 m c)

theorem val_e0_arg10 : Xe0 m c main_arg10 = (m ((c : Thread nD τ).loc main_arg10)) := (V3_of m c main_arg10 (by decide)).trans ((V2_of m c main_arg10 (by decide)).trans (V1_of m c main_arg10 (by decide)))

theorem val_x0_arg10 : Xx0 m c main_arg10 = (m ((c : Thread nD τ).loc main_arg10)) := (cx0 m c main_arg10 (by decide)).trans (val_e0_arg10 m c)

theorem val_e1_arg10 : Xe1 m c main_arg10 = (m ((c : Thread nD τ).loc main_arg10)) := (ce1 m c main_arg10 (by decide)).trans (val_x0_arg10 m c)

theorem val_x1_arg10 : Xx1 m c main_arg10 = (m ((c : Thread nD τ).loc main_arg10)) := (cx1 m c main_arg10 (by decide)).trans (val_e1_arg10 m c)

theorem val_e2_arg10 : Xe2 m c main_arg10 = (m ((c : Thread nD τ).loc main_arg10)) := (ce2 m c main_arg10 (by decide)).trans (val_x1_arg10 m c)

theorem val_x2_arg10 : Xx2 m c main_arg10 = (m ((c : Thread nD τ).loc main_arg10)) := (cx2 m c main_arg10 (by decide)).trans (val_e2_arg10 m c)

theorem val_e3_arg10 : Xe3 m c main_arg10 = (m ((c : Thread nD τ).loc main_arg10)) := (ce3 m c main_arg10 (by decide)).trans (val_x2_arg10 m c)

theorem val_x3_arg10 : Xx3 m c main_arg10 = (m ((c : Thread nD τ).loc main_arg10)) := (cx3 m c main_arg10 (by decide)).trans (val_e3_arg10 m c)

theorem val_e4_arg10 : Xe4 m c main_arg10 = (m ((c : Thread nD τ).loc main_arg10)) := (ce4 m c main_arg10 (by decide)).trans (val_x3_arg10 m c)

theorem val_x4_arg10 : Xx4 m c main_arg10 = (m ((c : Thread nD τ).loc main_arg10)) := (cx4 m c main_arg10 (by decide)).trans (val_e4_arg10 m c)

theorem val_e5_arg10 : Xe5 m c main_arg10 = (m ((c : Thread nD τ).loc main_arg10)) := (ce5 m c main_arg10 (by decide)).trans (val_x4_arg10 m c)

theorem val_x5_arg10 : Xx5 m c main_arg10 = (m ((c : Thread nD τ).loc main_arg10)) := (cx5 m c main_arg10 (by decide)).trans (val_e5_arg10 m c)

theorem val_e6_arg10 : Xe6 m c main_arg10 = (m ((c : Thread nD τ).loc main_arg10)) := (ce6 m c main_arg10 (by decide)).trans (val_x5_arg10 m c)

theorem val_x6_arg10 : Xx6 m c main_arg10 = (m ((c : Thread nD τ).loc main_arg10)) := (cx6 m c main_arg10 (by decide)).trans (val_e6_arg10 m c)

theorem val_e7_v66 : Xe7 m c main_v66 = (Cert.HostForms.row32 (m ((c : Thread nD τ).loc main_arg10))) := by
  refine (s7_v66 (Xx6 m c)).trans ?_
  rw [val_x6_arg10 m c]

theorem val_x0_arg11 : Xx0 m c main_arg11 = (m ((c : Thread nD τ).loc main_arg11)) := (cx0 m c main_arg11 (by decide)).trans (val_e0_arg11 m c)

theorem val_e1_arg11 : Xe1 m c main_arg11 = (m ((c : Thread nD τ).loc main_arg11)) := (ce1 m c main_arg11 (by decide)).trans (val_x0_arg11 m c)

theorem val_x1_arg11 : Xx1 m c main_arg11 = (m ((c : Thread nD τ).loc main_arg11)) := (cx1 m c main_arg11 (by decide)).trans (val_e1_arg11 m c)

theorem val_e2_arg11 : Xe2 m c main_arg11 = (m ((c : Thread nD τ).loc main_arg11)) := (ce2 m c main_arg11 (by decide)).trans (val_x1_arg11 m c)

theorem val_x2_arg11 : Xx2 m c main_arg11 = (m ((c : Thread nD τ).loc main_arg11)) := (cx2 m c main_arg11 (by decide)).trans (val_e2_arg11 m c)

theorem val_e3_arg11 : Xe3 m c main_arg11 = (m ((c : Thread nD τ).loc main_arg11)) := (ce3 m c main_arg11 (by decide)).trans (val_x2_arg11 m c)

theorem val_x3_arg11 : Xx3 m c main_arg11 = (m ((c : Thread nD τ).loc main_arg11)) := (cx3 m c main_arg11 (by decide)).trans (val_e3_arg11 m c)

theorem val_e4_arg11 : Xe4 m c main_arg11 = (m ((c : Thread nD τ).loc main_arg11)) := (ce4 m c main_arg11 (by decide)).trans (val_x3_arg11 m c)

theorem val_x4_arg11 : Xx4 m c main_arg11 = (m ((c : Thread nD τ).loc main_arg11)) := (cx4 m c main_arg11 (by decide)).trans (val_e4_arg11 m c)

theorem val_e5_arg11 : Xe5 m c main_arg11 = (m ((c : Thread nD τ).loc main_arg11)) := (ce5 m c main_arg11 (by decide)).trans (val_x4_arg11 m c)

theorem val_x5_arg11 : Xx5 m c main_arg11 = (m ((c : Thread nD τ).loc main_arg11)) := (cx5 m c main_arg11 (by decide)).trans (val_e5_arg11 m c)

theorem val_e6_arg11 : Xe6 m c main_arg11 = (m ((c : Thread nD τ).loc main_arg11)) := (ce6 m c main_arg11 (by decide)).trans (val_x5_arg11 m c)

theorem val_x6_arg11 : Xx6 m c main_arg11 = (m ((c : Thread nD τ).loc main_arg11)) := (cx6 m c main_arg11 (by decide)).trans (val_e6_arg11 m c)

theorem val_e7_arg11 : Xe7 m c main_arg11 = (m ((c : Thread nD τ).loc main_arg11)) := (ce7 m c main_arg11 (by decide) (by decide) (by decide)).trans (val_x6_arg11 m c)

theorem val_e0_arg12 : Xe0 m c main_arg12 = (m ((c : Thread nD τ).loc main_arg12)) := (V3_of m c main_arg12 (by decide)).trans ((V2_of m c main_arg12 (by decide)).trans (V1_of m c main_arg12 (by decide)))

theorem val_x0_arg12 : Xx0 m c main_arg12 = (m ((c : Thread nD τ).loc main_arg12)) := (cx0 m c main_arg12 (by decide)).trans (val_e0_arg12 m c)

theorem val_e1_arg12 : Xe1 m c main_arg12 = (m ((c : Thread nD τ).loc main_arg12)) := (ce1 m c main_arg12 (by decide)).trans (val_x0_arg12 m c)

theorem val_x1_arg12 : Xx1 m c main_arg12 = (m ((c : Thread nD τ).loc main_arg12)) := (cx1 m c main_arg12 (by decide)).trans (val_e1_arg12 m c)

theorem val_e2_arg12 : Xe2 m c main_arg12 = (m ((c : Thread nD τ).loc main_arg12)) := (ce2 m c main_arg12 (by decide)).trans (val_x1_arg12 m c)

theorem val_x2_arg12 : Xx2 m c main_arg12 = (m ((c : Thread nD τ).loc main_arg12)) := (cx2 m c main_arg12 (by decide)).trans (val_e2_arg12 m c)

theorem val_e3_arg12 : Xe3 m c main_arg12 = (m ((c : Thread nD τ).loc main_arg12)) := (ce3 m c main_arg12 (by decide)).trans (val_x2_arg12 m c)

theorem val_x3_arg12 : Xx3 m c main_arg12 = (m ((c : Thread nD τ).loc main_arg12)) := (cx3 m c main_arg12 (by decide)).trans (val_e3_arg12 m c)

theorem val_e4_arg12 : Xe4 m c main_arg12 = (m ((c : Thread nD τ).loc main_arg12)) := (ce4 m c main_arg12 (by decide)).trans (val_x3_arg12 m c)

theorem val_x4_arg12 : Xx4 m c main_arg12 = (m ((c : Thread nD τ).loc main_arg12)) := (cx4 m c main_arg12 (by decide)).trans (val_e4_arg12 m c)

theorem val_e5_arg12 : Xe5 m c main_arg12 = (m ((c : Thread nD τ).loc main_arg12)) := (ce5 m c main_arg12 (by decide)).trans (val_x4_arg12 m c)

theorem val_x5_arg12 : Xx5 m c main_arg12 = (m ((c : Thread nD τ).loc main_arg12)) := (cx5 m c main_arg12 (by decide)).trans (val_e5_arg12 m c)

theorem val_e6_arg12 : Xe6 m c main_arg12 = (m ((c : Thread nD τ).loc main_arg12)) := (ce6 m c main_arg12 (by decide)).trans (val_x5_arg12 m c)

theorem val_x6_arg12 : Xx6 m c main_arg12 = (m ((c : Thread nD τ).loc main_arg12)) := (cx6 m c main_arg12 (by decide)).trans (val_e6_arg12 m c)

theorem val_e7_v67 : Xe7 m c main_v67 = (Cert.HostForms.row32 (m ((c : Thread nD τ).loc main_arg12))) := by
  refine (s7_v67 (Xx6 m c)).trans ?_
  rw [val_x6_arg12 m c]

/-- What region 7 leaves in main_v68. -/
def t_v68 (m : (ℓ : Loc nD τ sig) → Buf (Elt Ideal) ℓ) (c : Dev nD) := Cert.HostForms.mlp2Node (Cert.HostForms.normCol (m ((c : Thread nD τ).loc main_arg4))) (m ((c : Thread nD τ).loc main_arg9)) (Cert.HostForms.row32 (m ((c : Thread nD τ).loc main_arg10))) (m ((c : Thread nD τ).loc main_arg11)) (Cert.HostForms.row32 (m ((c : Thread nD τ).loc main_arg12)))

theorem val_x7_v68 : Xx7 m c main_v68 = (t_v68 m c) := by
  unfold Xx7
  rw [Function.update_self, final7]
  show Cert.HostForms.mlp2Node (Xe7 m c main_v65) (Xe7 m c main_arg9) (Xe7 m c main_v66) (Xe7 m c main_arg11) (Xe7 m c main_v67) = _
  rw [val_e7_v65 m c, val_e7_arg9 m c, val_e7_v66 m c, val_e7_arg11 m c, val_e7_v67 m c]
  rfl

theorem val_e8_v68 : Xe8 m c main_v68 = (t_v68 m c) := (ce8 m c main_v68 (by decide)).trans (val_x7_v68 m c)

theorem val_x8_v68 : Xx8 m c main_v68 = (t_v68 m c) := (cx8 m c main_v68 (by decide)).trans (val_e8_v68 m c)

theorem val_e9_v68 : Xe9 m c main_v68 = (t_v68 m c) := (ce9 m c main_v68 (by decide)).trans (val_x8_v68 m c)

theorem val_x9_v68 : Xx9 m c main_v68 = (t_v68 m c) := (cx9 m c main_v68 (by decide)).trans (val_e9_v68 m c)

theorem val_e10_v68 : Xe10 m c main_v68 = (t_v68 m c) := (ce10 m c main_v68 (by decide)).trans (val_x9_v68 m c)

theorem val_e0_arg5 : Xe0 m c main_arg5 = (m ((c : Thread nD τ).loc main_arg5)) := (V3_of m c main_arg5 (by decide)).trans ((V2_of m c main_arg5 (by decide)).trans (V1_of m c main_arg5 (by decide)))

theorem val_x0_arg5 : Xx0 m c main_arg5 = (m ((c : Thread nD τ).loc main_arg5)) := (cx0 m c main_arg5 (by decide)).trans (val_e0_arg5 m c)

theorem val_e1_arg5 : Xe1 m c main_arg5 = (m ((c : Thread nD τ).loc main_arg5)) := (ce1 m c main_arg5 (by decide)).trans (val_x0_arg5 m c)

theorem val_x1_arg5 : Xx1 m c main_arg5 = (m ((c : Thread nD τ).loc main_arg5)) := (cx1 m c main_arg5 (by decide)).trans (val_e1_arg5 m c)

theorem val_e2_arg5 : Xe2 m c main_arg5 = (m ((c : Thread nD τ).loc main_arg5)) := (ce2 m c main_arg5 (by decide)).trans (val_x1_arg5 m c)

theorem val_x2_arg5 : Xx2 m c main_arg5 = (m ((c : Thread nD τ).loc main_arg5)) := (cx2 m c main_arg5 (by decide)).trans (val_e2_arg5 m c)

theorem val_e3_arg5 : Xe3 m c main_arg5 = (m ((c : Thread nD τ).loc main_arg5)) := (ce3 m c main_arg5 (by decide)).trans (val_x2_arg5 m c)

theorem val_x3_arg5 : Xx3 m c main_arg5 = (m ((c : Thread nD τ).loc main_arg5)) := (cx3 m c main_arg5 (by decide)).trans (val_e3_arg5 m c)

theorem val_e4_arg5 : Xe4 m c main_arg5 = (m ((c : Thread nD τ).loc main_arg5)) := (ce4 m c main_arg5 (by decide)).trans (val_x3_arg5 m c)

theorem val_x4_arg5 : Xx4 m c main_arg5 = (m ((c : Thread nD τ).loc main_arg5)) := (cx4 m c main_arg5 (by decide)).trans (val_e4_arg5 m c)

theorem val_e5_arg5 : Xe5 m c main_arg5 = (m ((c : Thread nD τ).loc main_arg5)) := (ce5 m c main_arg5 (by decide)).trans (val_x4_arg5 m c)

theorem val_x5_arg5 : Xx5 m c main_arg5 = (m ((c : Thread nD τ).loc main_arg5)) := (cx5 m c main_arg5 (by decide)).trans (val_e5_arg5 m c)

theorem val_e6_arg5 : Xe6 m c main_arg5 = (m ((c : Thread nD τ).loc main_arg5)) := (ce6 m c main_arg5 (by decide)).trans (val_x5_arg5 m c)

theorem val_x6_arg5 : Xx6 m c main_arg5 = (m ((c : Thread nD τ).loc main_arg5)) := (cx6 m c main_arg5 (by decide)).trans (val_e6_arg5 m c)

theorem val_e7_arg5 : Xe7 m c main_arg5 = (m ((c : Thread nD τ).loc main_arg5)) := (ce7 m c main_arg5 (by decide) (by decide) (by decide)).trans (val_x6_arg5 m c)

theorem val_x7_arg5 : Xx7 m c main_arg5 = (m ((c : Thread nD τ).loc main_arg5)) := (cx7 m c main_arg5 (by decide)).trans (val_e7_arg5 m c)

theorem val_e8_arg5 : Xe8 m c main_arg5 = (m ((c : Thread nD τ).loc main_arg5)) := (ce8 m c main_arg5 (by decide)).trans (val_x7_arg5 m c)

theorem val_x8_arg5 : Xx8 m c main_arg5 = (m ((c : Thread nD τ).loc main_arg5)) := (cx8 m c main_arg5 (by decide)).trans (val_e8_arg5 m c)

theorem val_e9_v75 : Xe9 m c main_v75 = (Cert.HostForms.dstVec (m ((c : Thread nD τ).loc main_arg5))) := by
  refine (s9_v75 (Xx8 m c)).trans ?_
  rw [val_x8_arg5 m c]

theorem val_x9_v75 : Xx9 m c main_v75 = (Cert.HostForms.dstVec (m ((c : Thread nD τ).loc main_arg5))) := (cx9 m c main_v75 (by decide)).trans (val_e9_v75 m c)

theorem val_e9_v82 : Xe9 m c main_v82 = (Host.gather Cert.ReferenceIdeal.gather_S100000x32_S1600000x1_S1600000x32_1_0_n_n_0_1_132 (t_v68 m c) (Cert.HostForms.srcIdx (m ((c : Thread nD τ).loc main_arg5)))) := by
  refine (s9_v82 (Xx8 m c)).trans ?_
  rw [val_x8_v68 m c, val_x8_arg5 m c]

theorem val_e0_arg6 : Xe0 m c main_arg6 = (m ((c : Thread nD τ).loc main_arg6)) := (V3_of m c main_arg6 (by decide)).trans ((V2_of m c main_arg6 (by decide)).trans (V1_of m c main_arg6 (by decide)))

theorem val_x0_arg6 : Xx0 m c main_arg6 = (m ((c : Thread nD τ).loc main_arg6)) := (cx0 m c main_arg6 (by decide)).trans (val_e0_arg6 m c)

theorem val_e1_arg6 : Xe1 m c main_arg6 = (m ((c : Thread nD τ).loc main_arg6)) := (ce1 m c main_arg6 (by decide)).trans (val_x0_arg6 m c)

theorem val_x1_arg6 : Xx1 m c main_arg6 = (m ((c : Thread nD τ).loc main_arg6)) := (cx1 m c main_arg6 (by decide)).trans (val_e1_arg6 m c)

theorem val_e2_arg6 : Xe2 m c main_arg6 = (m ((c : Thread nD τ).loc main_arg6)) := (ce2 m c main_arg6 (by decide)).trans (val_x1_arg6 m c)

theorem val_x2_arg6 : Xx2 m c main_arg6 = (m ((c : Thread nD τ).loc main_arg6)) := (cx2 m c main_arg6 (by decide)).trans (val_e2_arg6 m c)

theorem val_e3_arg6 : Xe3 m c main_arg6 = (m ((c : Thread nD τ).loc main_arg6)) := (ce3 m c main_arg6 (by decide)).trans (val_x2_arg6 m c)

theorem val_x3_arg6 : Xx3 m c main_arg6 = (m ((c : Thread nD τ).loc main_arg6)) := (cx3 m c main_arg6 (by decide)).trans (val_e3_arg6 m c)

theorem val_e4_arg6 : Xe4 m c main_arg6 = (m ((c : Thread nD τ).loc main_arg6)) := (ce4 m c main_arg6 (by decide)).trans (val_x3_arg6 m c)

theorem val_x4_arg6 : Xx4 m c main_arg6 = (m ((c : Thread nD τ).loc main_arg6)) := (cx4 m c main_arg6 (by decide)).trans (val_e4_arg6 m c)

theorem val_e5_arg6 : Xe5 m c main_arg6 = (m ((c : Thread nD τ).loc main_arg6)) := (ce5 m c main_arg6 (by decide)).trans (val_x4_arg6 m c)

theorem val_x5_arg6 : Xx5 m c main_arg6 = (m ((c : Thread nD τ).loc main_arg6)) := (cx5 m c main_arg6 (by decide)).trans (val_e5_arg6 m c)

theorem val_e6_arg6 : Xe6 m c main_arg6 = (m ((c : Thread nD τ).loc main_arg6)) := (ce6 m c main_arg6 (by decide)).trans (val_x5_arg6 m c)

theorem val_x6_arg6 : Xx6 m c main_arg6 = (m ((c : Thread nD τ).loc main_arg6)) := (cx6 m c main_arg6 (by decide)).trans (val_e6_arg6 m c)

theorem val_e7_arg6 : Xe7 m c main_arg6 = (m ((c : Thread nD τ).loc main_arg6)) := (ce7 m c main_arg6 (by decide) (by decide) (by decide)).trans (val_x6_arg6 m c)

theorem val_x7_arg6 : Xx7 m c main_arg6 = (m ((c : Thread nD τ).loc main_arg6)) := (cx7 m c main_arg6 (by decide)).trans (val_e7_arg6 m c)

theorem val_e8_arg6 : Xe8 m c main_arg6 = (m ((c : Thread nD τ).loc main_arg6)) := (ce8 m c main_arg6 (by decide)).trans (val_x7_arg6 m c)

theorem val_x1_arg13 : Xx1 m c main_arg13 = (m ((c : Thread nD τ).loc main_arg13)) := (cx1 m c main_arg13 (by decide)).trans (val_e1_arg13 m c)

theorem val_e2_arg13 : Xe2 m c main_arg13 = (m ((c : Thread nD τ).loc main_arg13)) := (ce2 m c main_arg13 (by decide)).trans (val_x1_arg13 m c)

theorem val_x2_arg13 : Xx2 m c main_arg13 = (m ((c : Thread nD τ).loc main_arg13)) := (cx2 m c main_arg13 (by decide)).trans (val_e2_arg13 m c)

theorem val_e3_arg13 : Xe3 m c main_arg13 = (m ((c : Thread nD τ).loc main_arg13)) := (ce3 m c main_arg13 (by decide)).trans (val_x2_arg13 m c)

theorem val_x3_arg13 : Xx3 m c main_arg13 = (m ((c : Thread nD τ).loc main_arg13)) := (cx3 m c main_arg13 (by decide)).trans (val_e3_arg13 m c)

theorem val_e4_arg13 : Xe4 m c main_arg13 = (m ((c : Thread nD τ).loc main_arg13)) := (ce4 m c main_arg13 (by decide)).trans (val_x3_arg13 m c)

theorem val_x4_arg13 : Xx4 m c main_arg13 = (m ((c : Thread nD τ).loc main_arg13)) := (cx4 m c main_arg13 (by decide)).trans (val_e4_arg13 m c)

theorem val_e5_arg13 : Xe5 m c main_arg13 = (m ((c : Thread nD τ).loc main_arg13)) := (ce5 m c main_arg13 (by decide)).trans (val_x4_arg13 m c)

theorem val_x5_arg13 : Xx5 m c main_arg13 = (m ((c : Thread nD τ).loc main_arg13)) := (cx5 m c main_arg13 (by decide)).trans (val_e5_arg13 m c)

theorem val_e6_arg13 : Xe6 m c main_arg13 = (m ((c : Thread nD τ).loc main_arg13)) := (ce6 m c main_arg13 (by decide)).trans (val_x5_arg13 m c)

theorem val_x6_arg13 : Xx6 m c main_arg13 = (m ((c : Thread nD τ).loc main_arg13)) := (cx6 m c main_arg13 (by decide)).trans (val_e6_arg13 m c)

theorem val_e7_arg13 : Xe7 m c main_arg13 = (m ((c : Thread nD τ).loc main_arg13)) := (ce7 m c main_arg13 (by decide) (by decide) (by decide)).trans (val_x6_arg13 m c)

theorem val_x7_arg13 : Xx7 m c main_arg13 = (m ((c : Thread nD τ).loc main_arg13)) := (cx7 m c main_arg13 (by decide)).trans (val_e7_arg13 m c)

theorem val_e8_arg13 : Xe8 m c main_arg13 = (m ((c : Thread nD τ).loc main_arg13)) := (ce8 m c main_arg13 (by decide)).trans (val_x7_arg13 m c)

theorem val_e1_arg14 : Xe1 m c main_arg14 = (m ((c : Thread nD τ).loc main_arg14)) := (ce1 m c main_arg14 (by decide)).trans (val_x0_arg14 m c)

theorem val_x1_arg14 : Xx1 m c main_arg14 = (m ((c : Thread nD τ).loc main_arg14)) := (cx1 m c main_arg14 (by decide)).trans (val_e1_arg14 m c)

theorem val_e2_arg14 : Xe2 m c main_arg14 = (m ((c : Thread nD τ).loc main_arg14)) := (ce2 m c main_arg14 (by decide)).trans (val_x1_arg14 m c)

theorem val_x2_arg14 : Xx2 m c main_arg14 = (m ((c : Thread nD τ).loc main_arg14)) := (cx2 m c main_arg14 (by decide)).trans (val_e2_arg14 m c)

theorem val_e3_arg14 : Xe3 m c main_arg14 = (m ((c : Thread nD τ).loc main_arg14)) := (ce3 m c main_arg14 (by decide)).trans (val_x2_arg14 m c)

theorem val_x3_arg14 : Xx3 m c main_arg14 = (m ((c : Thread nD τ).loc main_arg14)) := (cx3 m c main_arg14 (by decide)).trans (val_e3_arg14 m c)

theorem val_e4_arg14 : Xe4 m c main_arg14 = (m ((c : Thread nD τ).loc main_arg14)) := (ce4 m c main_arg14 (by decide)).trans (val_x3_arg14 m c)

theorem val_x4_arg14 : Xx4 m c main_arg14 = (m ((c : Thread nD τ).loc main_arg14)) := (cx4 m c main_arg14 (by decide)).trans (val_e4_arg14 m c)

theorem val_e5_arg14 : Xe5 m c main_arg14 = (m ((c : Thread nD τ).loc main_arg14)) := (ce5 m c main_arg14 (by decide)).trans (val_x4_arg14 m c)

theorem val_x5_arg14 : Xx5 m c main_arg14 = (m ((c : Thread nD τ).loc main_arg14)) := (cx5 m c main_arg14 (by decide)).trans (val_e5_arg14 m c)

theorem val_e6_arg14 : Xe6 m c main_arg14 = (m ((c : Thread nD τ).loc main_arg14)) := (ce6 m c main_arg14 (by decide)).trans (val_x5_arg14 m c)

theorem val_x6_arg14 : Xx6 m c main_arg14 = (m ((c : Thread nD τ).loc main_arg14)) := (cx6 m c main_arg14 (by decide)).trans (val_e6_arg14 m c)

theorem val_e7_arg14 : Xe7 m c main_arg14 = (m ((c : Thread nD τ).loc main_arg14)) := (ce7 m c main_arg14 (by decide) (by decide) (by decide)).trans (val_x6_arg14 m c)

theorem val_x7_arg14 : Xx7 m c main_arg14 = (m ((c : Thread nD τ).loc main_arg14)) := (cx7 m c main_arg14 (by decide)).trans (val_e7_arg14 m c)

theorem val_e8_v69 : Xe8 m c main_v69 = (Cert.HostForms.row32 (m ((c : Thread nD τ).loc main_arg14))) := by
  refine (s8_v69 (Xx7 m c)).trans ?_
  rw [val_x7_arg14 m c]

theorem val_x1_arg15 : Xx1 m c main_arg15 = (m ((c : Thread nD τ).loc main_arg15)) := (cx1 m c main_arg15 (by decide)).trans (val_e1_arg15 m c)

theorem val_e2_arg15 : Xe2 m c main_arg15 = (m ((c : Thread nD τ).loc main_arg15)) := (ce2 m c main_arg15 (by decide)).trans (val_x1_arg15 m c)

theorem val_x2_arg15 : Xx2 m c main_arg15 = (m ((c : Thread nD τ).loc main_arg15)) := (cx2 m c main_arg15 (by decide)).trans (val_e2_arg15 m c)

theorem val_e3_arg15 : Xe3 m c main_arg15 = (m ((c : Thread nD τ).loc main_arg15)) := (ce3 m c main_arg15 (by decide)).trans (val_x2_arg15 m c)

theorem val_x3_arg15 : Xx3 m c main_arg15 = (m ((c : Thread nD τ).loc main_arg15)) := (cx3 m c main_arg15 (by decide)).trans (val_e3_arg15 m c)

theorem val_e4_arg15 : Xe4 m c main_arg15 = (m ((c : Thread nD τ).loc main_arg15)) := (ce4 m c main_arg15 (by decide)).trans (val_x3_arg15 m c)

theorem val_x4_arg15 : Xx4 m c main_arg15 = (m ((c : Thread nD τ).loc main_arg15)) := (cx4 m c main_arg15 (by decide)).trans (val_e4_arg15 m c)

theorem val_e5_arg15 : Xe5 m c main_arg15 = (m ((c : Thread nD τ).loc main_arg15)) := (ce5 m c main_arg15 (by decide)).trans (val_x4_arg15 m c)

theorem val_x5_arg15 : Xx5 m c main_arg15 = (m ((c : Thread nD τ).loc main_arg15)) := (cx5 m c main_arg15 (by decide)).trans (val_e5_arg15 m c)

theorem val_e6_arg15 : Xe6 m c main_arg15 = (m ((c : Thread nD τ).loc main_arg15)) := (ce6 m c main_arg15 (by decide)).trans (val_x5_arg15 m c)

theorem val_x6_arg15 : Xx6 m c main_arg15 = (m ((c : Thread nD τ).loc main_arg15)) := (cx6 m c main_arg15 (by decide)).trans (val_e6_arg15 m c)

theorem val_e7_arg15 : Xe7 m c main_arg15 = (m ((c : Thread nD τ).loc main_arg15)) := (ce7 m c main_arg15 (by decide) (by decide) (by decide)).trans (val_x6_arg15 m c)

theorem val_x7_arg15 : Xx7 m c main_arg15 = (m ((c : Thread nD τ).loc main_arg15)) := (cx7 m c main_arg15 (by decide)).trans (val_e7_arg15 m c)

theorem val_e8_arg15 : Xe8 m c main_arg15 = (m ((c : Thread nD τ).loc main_arg15)) := (ce8 m c main_arg15 (by decide)).trans (val_x7_arg15 m c)

theorem val_e1_arg16 : Xe1 m c main_arg16 = (m ((c : Thread nD τ).loc main_arg16)) := (ce1 m c main_arg16 (by decide)).trans (val_x0_arg16 m c)

theorem val_x1_arg16 : Xx1 m c main_arg16 = (m ((c : Thread nD τ).loc main_arg16)) := (cx1 m c main_arg16 (by decide)).trans (val_e1_arg16 m c)

theorem val_e2_arg16 : Xe2 m c main_arg16 = (m ((c : Thread nD τ).loc main_arg16)) := (ce2 m c main_arg16 (by decide)).trans (val_x1_arg16 m c)

theorem val_x2_arg16 : Xx2 m c main_arg16 = (m ((c : Thread nD τ).loc main_arg16)) := (cx2 m c main_arg16 (by decide)).trans (val_e2_arg16 m c)

theorem val_e3_arg16 : Xe3 m c main_arg16 = (m ((c : Thread nD τ).loc main_arg16)) := (ce3 m c main_arg16 (by decide)).trans (val_x2_arg16 m c)

theorem val_x3_arg16 : Xx3 m c main_arg16 = (m ((c : Thread nD τ).loc main_arg16)) := (cx3 m c main_arg16 (by decide)).trans (val_e3_arg16 m c)

theorem val_e4_arg16 : Xe4 m c main_arg16 = (m ((c : Thread nD τ).loc main_arg16)) := (ce4 m c main_arg16 (by decide)).trans (val_x3_arg16 m c)

theorem val_x4_arg16 : Xx4 m c main_arg16 = (m ((c : Thread nD τ).loc main_arg16)) := (cx4 m c main_arg16 (by decide)).trans (val_e4_arg16 m c)

theorem val_e5_arg16 : Xe5 m c main_arg16 = (m ((c : Thread nD τ).loc main_arg16)) := (ce5 m c main_arg16 (by decide)).trans (val_x4_arg16 m c)

theorem val_x5_arg16 : Xx5 m c main_arg16 = (m ((c : Thread nD τ).loc main_arg16)) := (cx5 m c main_arg16 (by decide)).trans (val_e5_arg16 m c)

theorem val_e6_arg16 : Xe6 m c main_arg16 = (m ((c : Thread nD τ).loc main_arg16)) := (ce6 m c main_arg16 (by decide)).trans (val_x5_arg16 m c)

theorem val_x6_arg16 : Xx6 m c main_arg16 = (m ((c : Thread nD τ).loc main_arg16)) := (cx6 m c main_arg16 (by decide)).trans (val_e6_arg16 m c)

theorem val_e7_arg16 : Xe7 m c main_arg16 = (m ((c : Thread nD τ).loc main_arg16)) := (ce7 m c main_arg16 (by decide) (by decide) (by decide)).trans (val_x6_arg16 m c)

theorem val_x7_arg16 : Xx7 m c main_arg16 = (m ((c : Thread nD τ).loc main_arg16)) := (cx7 m c main_arg16 (by decide)).trans (val_e7_arg16 m c)

theorem val_e8_v70 : Xe8 m c main_v70 = (Cert.HostForms.row32 (m ((c : Thread nD τ).loc main_arg16))) := by
  refine (s8_v70 (Xx7 m c)).trans ?_
  rw [val_x7_arg16 m c]

/-- What region 8 leaves in main_v71. -/
def t_v71 (m : (ℓ : Loc nD τ sig) → Buf (Elt Ideal) ℓ) (c : Dev nD) := Cert.HostForms.mlp2Edge (m ((c : Thread nD τ).loc main_arg6)) (m ((c : Thread nD τ).loc main_arg13)) (Cert.HostForms.row32 (m ((c : Thread nD τ).loc main_arg14))) (m ((c : Thread nD τ).loc main_arg15)) (Cert.HostForms.row32 (m ((c : Thread nD τ).loc main_arg16)))

theorem val_x8_v71 : Xx8 m c main_v71 = (t_v71 m c) := by
  unfold Xx8
  rw [Function.update_self, final8]
  show Cert.HostForms.mlp2Edge (Xe8 m c main_arg6) (Xe8 m c main_arg13) (Xe8 m c main_v69) (Xe8 m c main_arg15) (Xe8 m c main_v70) = _
  rw [val_e8_arg6 m c, val_e8_arg13 m c, val_e8_v69 m c, val_e8_arg15 m c, val_e8_v70 m c]
  rfl

theorem val_e9_v71 : Xe9 m c main_v71 = (t_v71 m c) := (ce9 m c main_v71 (by decide)).trans (val_x8_v71 m c)

/-- What region 9 leaves in main_v83. -/
def t_v83 (m : (ℓ : Loc nD τ sig) → Buf (Elt Ideal) ℓ) (c : Dev nD) := Cert.HostForms.reluAdd32 (Host.gather Cert.ReferenceIdeal.gather_S100000x32_S1600000x1_S1600000x32_1_0_n_n_0_1_132 (t_v68 m c) (Cert.HostForms.srcIdx (m ((c : Thread nD τ).loc main_arg5)))) (t_v71 m c)

theorem val_x9_v83 : Xx9 m c main_v83 = (t_v83 m c) := by
  unfold Xx9
  rw [Function.update_self, final9]
  show Cert.HostForms.reluAdd32 (Xe9 m c main_v82) (Xe9 m c main_v71) = _
  rw [val_e9_v82 m c, val_e9_v71 m c]
  rfl

theorem val_e10_v86 : Xe10 m c main_v86 = (Host.scatterAdd (F := Ideal) Cert.ReferenceIdeal.scatter_S100000x32_S1600000x1_S1600000x32_1_0_0_1 (broadcastInDim Cert.ReferenceIdeal.S100000x32 ![] Cert.ReferenceIdeal.Gen.bcast_S_S100000x32 (constant (F := Ideal) Cert.ReferenceIdeal.S_ .f32 0x00000000#32)) (Cert.HostForms.idxCol (Cert.HostForms.dstVec (m ((c : Thread nD τ).loc main_arg5)))) (t_v83 m c)) := by
  refine (s10_v86 (Xx9 m c)).trans ?_
  rw [val_x9_v75 m c, val_x9_v83 m c]

theorem val_e0_arg27 : Xe0 m c main_arg27 = (m ((c : Thread nD τ).loc main_arg27)) := (V3_of m c main_arg27 (by decide)).trans ((V2_of m c main_arg27 (by decide)).trans (V1_of m c main_arg27 (by decide)))

theorem val_x0_arg27 : Xx0 m c main_arg27 = (m ((c : Thread nD τ).loc main_arg27)) := (cx0 m c main_arg27 (by decide)).trans (val_e0_arg27 m c)

theorem val_e1_arg27 : Xe1 m c main_arg27 = (m ((c : Thread nD τ).loc main_arg27)) := (ce1 m c main_arg27 (by decide)).trans (val_x0_arg27 m c)

theorem val_x1_arg27 : Xx1 m c main_arg27 = (m ((c : Thread nD τ).loc main_arg27)) := (cx1 m c main_arg27 (by decide)).trans (val_e1_arg27 m c)

theorem val_e2_arg27 : Xe2 m c main_arg27 = (m ((c : Thread nD τ).loc main_arg27)) := (ce2 m c main_arg27 (by decide)).trans (val_x1_arg27 m c)

theorem val_x2_arg27 : Xx2 m c main_arg27 = (m ((c : Thread nD τ).loc main_arg27)) := (cx2 m c main_arg27 (by decide)).trans (val_e2_arg27 m c)

theorem val_e3_arg27 : Xe3 m c main_arg27 = (m ((c : Thread nD τ).loc main_arg27)) := (ce3 m c main_arg27 (by decide)).trans (val_x2_arg27 m c)

theorem val_x3_arg27 : Xx3 m c main_arg27 = (m ((c : Thread nD τ).loc main_arg27)) := (cx3 m c main_arg27 (by decide)).trans (val_e3_arg27 m c)

theorem val_e4_arg27 : Xe4 m c main_arg27 = (m ((c : Thread nD τ).loc main_arg27)) := (ce4 m c main_arg27 (by decide)).trans (val_x3_arg27 m c)

theorem val_x4_arg27 : Xx4 m c main_arg27 = (m ((c : Thread nD τ).loc main_arg27)) := (cx4 m c main_arg27 (by decide)).trans (val_e4_arg27 m c)

theorem val_e5_arg27 : Xe5 m c main_arg27 = (m ((c : Thread nD τ).loc main_arg27)) := (ce5 m c main_arg27 (by decide)).trans (val_x4_arg27 m c)

theorem val_x5_arg27 : Xx5 m c main_arg27 = (m ((c : Thread nD τ).loc main_arg27)) := (cx5 m c main_arg27 (by decide)).trans (val_e5_arg27 m c)

theorem val_e6_arg27 : Xe6 m c main_arg27 = (m ((c : Thread nD τ).loc main_arg27)) := (ce6 m c main_arg27 (by decide)).trans (val_x5_arg27 m c)

theorem val_x6_arg27 : Xx6 m c main_arg27 = (m ((c : Thread nD τ).loc main_arg27)) := (cx6 m c main_arg27 (by decide)).trans (val_e6_arg27 m c)

theorem val_e7_arg27 : Xe7 m c main_arg27 = (m ((c : Thread nD τ).loc main_arg27)) := (ce7 m c main_arg27 (by decide) (by decide) (by decide)).trans (val_x6_arg27 m c)

theorem val_x7_arg27 : Xx7 m c main_arg27 = (m ((c : Thread nD τ).loc main_arg27)) := (cx7 m c main_arg27 (by decide)).trans (val_e7_arg27 m c)

theorem val_e8_arg27 : Xe8 m c main_arg27 = (m ((c : Thread nD τ).loc main_arg27)) := (ce8 m c main_arg27 (by decide)).trans (val_x7_arg27 m c)

theorem val_x8_arg27 : Xx8 m c main_arg27 = (m ((c : Thread nD τ).loc main_arg27)) := (cx8 m c main_arg27 (by decide)).trans (val_e8_arg27 m c)

theorem val_e9_arg27 : Xe9 m c main_arg27 = (m ((c : Thread nD τ).loc main_arg27)) := (ce9 m c main_arg27 (by decide)).trans (val_x8_arg27 m c)

theorem val_x9_arg27 : Xx9 m c main_arg27 = (m ((c : Thread nD τ).loc main_arg27)) := (cx9 m c main_arg27 (by decide)).trans (val_e9_arg27 m c)

theorem val_e10_arg27 : Xe10 m c main_arg27 = (m ((c : Thread nD τ).loc main_arg27)) := (ce10 m c main_arg27 (by decide)).trans (val_x9_arg27 m c)

theorem val_e0_arg28 : Xe0 m c main_arg28 = (m ((c : Thread nD τ).loc main_arg28)) := (V3_of m c main_arg28 (by decide)).trans ((V2_of m c main_arg28 (by decide)).trans (V1_of m c main_arg28 (by decide)))

theorem val_x0_arg28 : Xx0 m c main_arg28 = (m ((c : Thread nD τ).loc main_arg28)) := (cx0 m c main_arg28 (by decide)).trans (val_e0_arg28 m c)

theorem val_e1_arg28 : Xe1 m c main_arg28 = (m ((c : Thread nD τ).loc main_arg28)) := (ce1 m c main_arg28 (by decide)).trans (val_x0_arg28 m c)

theorem val_x1_arg28 : Xx1 m c main_arg28 = (m ((c : Thread nD τ).loc main_arg28)) := (cx1 m c main_arg28 (by decide)).trans (val_e1_arg28 m c)

theorem val_e2_arg28 : Xe2 m c main_arg28 = (m ((c : Thread nD τ).loc main_arg28)) := (ce2 m c main_arg28 (by decide)).trans (val_x1_arg28 m c)

theorem val_x2_arg28 : Xx2 m c main_arg28 = (m ((c : Thread nD τ).loc main_arg28)) := (cx2 m c main_arg28 (by decide)).trans (val_e2_arg28 m c)

theorem val_e3_arg28 : Xe3 m c main_arg28 = (m ((c : Thread nD τ).loc main_arg28)) := (ce3 m c main_arg28 (by decide)).trans (val_x2_arg28 m c)

theorem val_x3_arg28 : Xx3 m c main_arg28 = (m ((c : Thread nD τ).loc main_arg28)) := (cx3 m c main_arg28 (by decide)).trans (val_e3_arg28 m c)

theorem val_e4_arg28 : Xe4 m c main_arg28 = (m ((c : Thread nD τ).loc main_arg28)) := (ce4 m c main_arg28 (by decide)).trans (val_x3_arg28 m c)

theorem val_x4_arg28 : Xx4 m c main_arg28 = (m ((c : Thread nD τ).loc main_arg28)) := (cx4 m c main_arg28 (by decide)).trans (val_e4_arg28 m c)

theorem val_e5_arg28 : Xe5 m c main_arg28 = (m ((c : Thread nD τ).loc main_arg28)) := (ce5 m c main_arg28 (by decide)).trans (val_x4_arg28 m c)

theorem val_x5_arg28 : Xx5 m c main_arg28 = (m ((c : Thread nD τ).loc main_arg28)) := (cx5 m c main_arg28 (by decide)).trans (val_e5_arg28 m c)

theorem val_e6_arg28 : Xe6 m c main_arg28 = (m ((c : Thread nD τ).loc main_arg28)) := (ce6 m c main_arg28 (by decide)).trans (val_x5_arg28 m c)

theorem val_x6_arg28 : Xx6 m c main_arg28 = (m ((c : Thread nD τ).loc main_arg28)) := (cx6 m c main_arg28 (by decide)).trans (val_e6_arg28 m c)

theorem val_e7_arg28 : Xe7 m c main_arg28 = (m ((c : Thread nD τ).loc main_arg28)) := (ce7 m c main_arg28 (by decide) (by decide) (by decide)).trans (val_x6_arg28 m c)

theorem val_x7_arg28 : Xx7 m c main_arg28 = (m ((c : Thread nD τ).loc main_arg28)) := (cx7 m c main_arg28 (by decide)).trans (val_e7_arg28 m c)

theorem val_e8_arg28 : Xe8 m c main_arg28 = (m ((c : Thread nD τ).loc main_arg28)) := (ce8 m c main_arg28 (by decide)).trans (val_x7_arg28 m c)

theorem val_x8_arg28 : Xx8 m c main_arg28 = (m ((c : Thread nD τ).loc main_arg28)) := (cx8 m c main_arg28 (by decide)).trans (val_e8_arg28 m c)

theorem val_e9_arg28 : Xe9 m c main_arg28 = (m ((c : Thread nD τ).loc main_arg28)) := (ce9 m c main_arg28 (by decide)).trans (val_x8_arg28 m c)

theorem val_x9_arg28 : Xx9 m c main_arg28 = (m ((c : Thread nD τ).loc main_arg28)) := (cx9 m c main_arg28 (by decide)).trans (val_e9_arg28 m c)

theorem val_e10_v87 : Xe10 m c main_v87 = (Cert.HostForms.row64 (m ((c : Thread nD τ).loc main_arg28))) := by
  refine (s10_v87 (Xx9 m c)).trans ?_
  rw [val_x9_arg28 m c]

theorem val_e0_arg29 : Xe0 m c main_arg29 = (m ((c : Thread nD τ).loc main_arg29)) := (V3_of m c main_arg29 (by decide)).trans ((V2_of m c main_arg29 (by decide)).trans (V1_of m c main_arg29 (by decide)))

theorem val_x0_arg29 : Xx0 m c main_arg29 = (m ((c : Thread nD τ).loc main_arg29)) := (cx0 m c main_arg29 (by decide)).trans (val_e0_arg29 m c)

theorem val_e1_arg29 : Xe1 m c main_arg29 = (m ((c : Thread nD τ).loc main_arg29)) := (ce1 m c main_arg29 (by decide)).trans (val_x0_arg29 m c)

theorem val_x1_arg29 : Xx1 m c main_arg29 = (m ((c : Thread nD τ).loc main_arg29)) := (cx1 m c main_arg29 (by decide)).trans (val_e1_arg29 m c)

theorem val_e2_arg29 : Xe2 m c main_arg29 = (m ((c : Thread nD τ).loc main_arg29)) := (ce2 m c main_arg29 (by decide)).trans (val_x1_arg29 m c)

theorem val_x2_arg29 : Xx2 m c main_arg29 = (m ((c : Thread nD τ).loc main_arg29)) := (cx2 m c main_arg29 (by decide)).trans (val_e2_arg29 m c)

theorem val_e3_arg29 : Xe3 m c main_arg29 = (m ((c : Thread nD τ).loc main_arg29)) := (ce3 m c main_arg29 (by decide)).trans (val_x2_arg29 m c)

theorem val_x3_arg29 : Xx3 m c main_arg29 = (m ((c : Thread nD τ).loc main_arg29)) := (cx3 m c main_arg29 (by decide)).trans (val_e3_arg29 m c)

theorem val_e4_arg29 : Xe4 m c main_arg29 = (m ((c : Thread nD τ).loc main_arg29)) := (ce4 m c main_arg29 (by decide)).trans (val_x3_arg29 m c)

theorem val_x4_arg29 : Xx4 m c main_arg29 = (m ((c : Thread nD τ).loc main_arg29)) := (cx4 m c main_arg29 (by decide)).trans (val_e4_arg29 m c)

theorem val_e5_arg29 : Xe5 m c main_arg29 = (m ((c : Thread nD τ).loc main_arg29)) := (ce5 m c main_arg29 (by decide)).trans (val_x4_arg29 m c)

theorem val_x5_arg29 : Xx5 m c main_arg29 = (m ((c : Thread nD τ).loc main_arg29)) := (cx5 m c main_arg29 (by decide)).trans (val_e5_arg29 m c)

theorem val_e6_arg29 : Xe6 m c main_arg29 = (m ((c : Thread nD τ).loc main_arg29)) := (ce6 m c main_arg29 (by decide)).trans (val_x5_arg29 m c)

theorem val_x6_arg29 : Xx6 m c main_arg29 = (m ((c : Thread nD τ).loc main_arg29)) := (cx6 m c main_arg29 (by decide)).trans (val_e6_arg29 m c)

theorem val_e7_arg29 : Xe7 m c main_arg29 = (m ((c : Thread nD τ).loc main_arg29)) := (ce7 m c main_arg29 (by decide) (by decide) (by decide)).trans (val_x6_arg29 m c)

theorem val_x7_arg29 : Xx7 m c main_arg29 = (m ((c : Thread nD τ).loc main_arg29)) := (cx7 m c main_arg29 (by decide)).trans (val_e7_arg29 m c)

theorem val_e8_arg29 : Xe8 m c main_arg29 = (m ((c : Thread nD τ).loc main_arg29)) := (ce8 m c main_arg29 (by decide)).trans (val_x7_arg29 m c)

theorem val_x8_arg29 : Xx8 m c main_arg29 = (m ((c : Thread nD τ).loc main_arg29)) := (cx8 m c main_arg29 (by decide)).trans (val_e8_arg29 m c)

theorem val_e9_arg29 : Xe9 m c main_arg29 = (m ((c : Thread nD τ).loc main_arg29)) := (ce9 m c main_arg29 (by decide)).trans (val_x8_arg29 m c)

theorem val_x9_arg29 : Xx9 m c main_arg29 = (m ((c : Thread nD τ).loc main_arg29)) := (cx9 m c main_arg29 (by decide)).trans (val_e9_arg29 m c)

theorem val_e10_arg29 : Xe10 m c main_arg29 = (m ((c : Thread nD τ).loc main_arg29)) := (ce10 m c main_arg29 (by decide)).trans (val_x9_arg29 m c)

theorem val_e0_arg30 : Xe0 m c main_arg30 = (m ((c : Thread nD τ).loc main_arg30)) := (V3_of m c main_arg30 (by decide)).trans ((V2_of m c main_arg30 (by decide)).trans (V1_of m c main_arg30 (by decide)))

theorem val_x0_arg30 : Xx0 m c main_arg30 = (m ((c : Thread nD τ).loc main_arg30)) := (cx0 m c main_arg30 (by decide)).trans (val_e0_arg30 m c)

theorem val_e1_arg30 : Xe1 m c main_arg30 = (m ((c : Thread nD τ).loc main_arg30)) := (ce1 m c main_arg30 (by decide)).trans (val_x0_arg30 m c)

theorem val_x1_arg30 : Xx1 m c main_arg30 = (m ((c : Thread nD τ).loc main_arg30)) := (cx1 m c main_arg30 (by decide)).trans (val_e1_arg30 m c)

theorem val_e2_arg30 : Xe2 m c main_arg30 = (m ((c : Thread nD τ).loc main_arg30)) := (ce2 m c main_arg30 (by decide)).trans (val_x1_arg30 m c)

theorem val_x2_arg30 : Xx2 m c main_arg30 = (m ((c : Thread nD τ).loc main_arg30)) := (cx2 m c main_arg30 (by decide)).trans (val_e2_arg30 m c)

theorem val_e3_arg30 : Xe3 m c main_arg30 = (m ((c : Thread nD τ).loc main_arg30)) := (ce3 m c main_arg30 (by decide)).trans (val_x2_arg30 m c)

theorem val_x3_arg30 : Xx3 m c main_arg30 = (m ((c : Thread nD τ).loc main_arg30)) := (cx3 m c main_arg30 (by decide)).trans (val_e3_arg30 m c)

theorem val_e4_arg30 : Xe4 m c main_arg30 = (m ((c : Thread nD τ).loc main_arg30)) := (ce4 m c main_arg30 (by decide)).trans (val_x3_arg30 m c)

theorem val_x4_arg30 : Xx4 m c main_arg30 = (m ((c : Thread nD τ).loc main_arg30)) := (cx4 m c main_arg30 (by decide)).trans (val_e4_arg30 m c)

theorem val_e5_arg30 : Xe5 m c main_arg30 = (m ((c : Thread nD τ).loc main_arg30)) := (ce5 m c main_arg30 (by decide)).trans (val_x4_arg30 m c)

theorem val_x5_arg30 : Xx5 m c main_arg30 = (m ((c : Thread nD τ).loc main_arg30)) := (cx5 m c main_arg30 (by decide)).trans (val_e5_arg30 m c)

theorem val_e6_arg30 : Xe6 m c main_arg30 = (m ((c : Thread nD τ).loc main_arg30)) := (ce6 m c main_arg30 (by decide)).trans (val_x5_arg30 m c)

theorem val_x6_arg30 : Xx6 m c main_arg30 = (m ((c : Thread nD τ).loc main_arg30)) := (cx6 m c main_arg30 (by decide)).trans (val_e6_arg30 m c)

theorem val_e7_arg30 : Xe7 m c main_arg30 = (m ((c : Thread nD τ).loc main_arg30)) := (ce7 m c main_arg30 (by decide) (by decide) (by decide)).trans (val_x6_arg30 m c)

theorem val_x7_arg30 : Xx7 m c main_arg30 = (m ((c : Thread nD τ).loc main_arg30)) := (cx7 m c main_arg30 (by decide)).trans (val_e7_arg30 m c)

theorem val_e8_arg30 : Xe8 m c main_arg30 = (m ((c : Thread nD τ).loc main_arg30)) := (ce8 m c main_arg30 (by decide)).trans (val_x7_arg30 m c)

theorem val_x8_arg30 : Xx8 m c main_arg30 = (m ((c : Thread nD τ).loc main_arg30)) := (cx8 m c main_arg30 (by decide)).trans (val_e8_arg30 m c)

theorem val_e9_arg30 : Xe9 m c main_arg30 = (m ((c : Thread nD τ).loc main_arg30)) := (ce9 m c main_arg30 (by decide)).trans (val_x8_arg30 m c)

theorem val_x9_arg30 : Xx9 m c main_arg30 = (m ((c : Thread nD τ).loc main_arg30)) := (cx9 m c main_arg30 (by decide)).trans (val_e9_arg30 m c)

theorem val_e10_v88 : Xe10 m c main_v88 = (Cert.HostForms.row64 (m ((c : Thread nD τ).loc main_arg30))) := by
  refine (s10_v88 (Xx9 m c)).trans ?_
  rw [val_x9_arg30 m c]

/-- What region 10 leaves in main_v89. -/
def t_v89 (m : (ℓ : Loc nD τ sig) → Buf (Elt Ideal) ℓ) (c : Dev nD) := Cert.HostForms.nodeUpdate32 (t_v68 m c) (Host.scatterAdd (F := Ideal) Cert.ReferenceIdeal.scatter_S100000x32_S1600000x1_S1600000x32_1_0_0_1 (broadcastInDim Cert.ReferenceIdeal.S100000x32 ![] Cert.ReferenceIdeal.Gen.bcast_S_S100000x32 (constant (F := Ideal) Cert.ReferenceIdeal.S_ .f32 0x00000000#32)) (Cert.HostForms.idxCol (Cert.HostForms.dstVec (m ((c : Thread nD τ).loc main_arg5)))) (t_v83 m c)) (m ((c : Thread nD τ).loc main_arg27)) (Cert.HostForms.row64 (m ((c : Thread nD τ).loc main_arg28))) (m ((c : Thread nD τ).loc main_arg29)) (Cert.HostForms.row64 (m ((c : Thread nD τ).loc main_arg30)))

theorem val_x10_v89 : Xx10 m c main_v89 = (t_v89 m c) := by
  unfold Xx10
  rw [Function.update_self, final10]
  show Cert.HostForms.nodeUpdate32 (Xe10 m c main_v68) (Xe10 m c main_v86) (Xe10 m c main_arg27) (Xe10 m c main_v87) (Xe10 m c main_arg29) (Xe10 m c main_v88) = _
  rw [val_e10_v68 m c, val_e10_v86 m c, val_e10_arg27 m c, val_e10_v87 m c, val_e10_arg29 m c, val_e10_v88 m c]
  rfl

theorem val_e11_v89 : Xe11 m c main_v89 = (t_v89 m c) := (ce11 m c main_v89 (by decide)).trans (val_x10_v89 m c)

theorem val_x11_v89 : Xx11 m c main_v89 = (t_v89 m c) := (cx11 m c main_v89 (by decide)).trans (val_e11_v89 m c)

theorem val_e12_v89 : Xe12 m c main_v89 = (t_v89 m c) := (ce12 m c main_v89 (by decide)).trans (val_x11_v89 m c)

theorem val_x12_v89 : Xx12 m c main_v89 = (t_v89 m c) := (cx12 m c main_v89 (by decide)).trans (val_e12_v89 m c)

theorem val_e13_v89 : Xe13 m c main_v89 = (t_v89 m c) := (ce13 m c main_v89 (by decide)).trans (val_x12_v89 m c)

theorem val_e10_v75 : Xe10 m c main_v75 = (Cert.HostForms.dstVec (m ((c : Thread nD τ).loc main_arg5))) := (ce10 m c main_v75 (by decide)).trans (val_x9_v75 m c)

theorem val_x10_v75 : Xx10 m c main_v75 = (Cert.HostForms.dstVec (m ((c : Thread nD τ).loc main_arg5))) := (cx10 m c main_v75 (by decide)).trans (val_e10_v75 m c)

theorem val_e11_v75 : Xe11 m c main_v75 = (Cert.HostForms.dstVec (m ((c : Thread nD τ).loc main_arg5))) := (ce11 m c main_v75 (by decide)).trans (val_x10_v75 m c)

theorem val_x11_v75 : Xx11 m c main_v75 = (Cert.HostForms.dstVec (m ((c : Thread nD τ).loc main_arg5))) := (cx11 m c main_v75 (by decide)).trans (val_e11_v75 m c)

theorem val_e12_v75 : Xe12 m c main_v75 = (Cert.HostForms.dstVec (m ((c : Thread nD τ).loc main_arg5))) := (ce12 m c main_v75 (by decide)).trans (val_x11_v75 m c)

theorem val_x12_v75 : Xx12 m c main_v75 = (Cert.HostForms.dstVec (m ((c : Thread nD τ).loc main_arg5))) := (cx12 m c main_v75 (by decide)).trans (val_e12_v75 m c)

theorem val_e9_v73 : Xe9 m c main_v73 = (Cert.HostForms.srcVec (m ((c : Thread nD τ).loc main_arg5))) := by
  refine (s9_v73 (Xx8 m c)).trans ?_
  rw [val_x8_arg5 m c]

theorem val_x9_v73 : Xx9 m c main_v73 = (Cert.HostForms.srcVec (m ((c : Thread nD τ).loc main_arg5))) := (cx9 m c main_v73 (by decide)).trans (val_e9_v73 m c)

theorem val_e10_v73 : Xe10 m c main_v73 = (Cert.HostForms.srcVec (m ((c : Thread nD τ).loc main_arg5))) := (ce10 m c main_v73 (by decide)).trans (val_x9_v73 m c)

theorem val_x10_v73 : Xx10 m c main_v73 = (Cert.HostForms.srcVec (m ((c : Thread nD τ).loc main_arg5))) := (cx10 m c main_v73 (by decide)).trans (val_e10_v73 m c)

theorem val_e11_v73 : Xe11 m c main_v73 = (Cert.HostForms.srcVec (m ((c : Thread nD τ).loc main_arg5))) := (ce11 m c main_v73 (by decide)).trans (val_x10_v73 m c)

theorem val_x11_v73 : Xx11 m c main_v73 = (Cert.HostForms.srcVec (m ((c : Thread nD τ).loc main_arg5))) := (cx11 m c main_v73 (by decide)).trans (val_e11_v73 m c)

theorem val_e12_v98 : Xe12 m c main_v98 = (Host.gather Cert.ReferenceIdeal.gather_S100000x64_S1600000x1_S1600000x64_1_0_n_n_0_1_164 (t_v89 m c) (Cert.HostForms.wrapIdx (Cert.HostForms.srcVec (m ((c : Thread nD τ).loc main_arg5))))) := by
  refine (s12_v98 (Xx11 m c)).trans ?_
  rw [val_x11_v89 m c, val_x11_v73 m c]

theorem val_x9_v71 : Xx9 m c main_v71 = (t_v71 m c) := (cx9 m c main_v71 (by decide)).trans (val_e9_v71 m c)

theorem val_e10_v71 : Xe10 m c main_v71 = (t_v71 m c) := (ce10 m c main_v71 (by decide)).trans (val_x9_v71 m c)

theorem val_x10_v71 : Xx10 m c main_v71 = (t_v71 m c) := (cx10 m c main_v71 (by decide)).trans (val_e10_v71 m c)

theorem val_e11_v71 : Xe11 m c main_v71 = (t_v71 m c) := (ce11 m c main_v71 (by decide)).trans (val_x10_v71 m c)

theorem val_e0_arg35 : Xe0 m c main_arg35 = (m ((c : Thread nD τ).loc main_arg35)) := (V3_of m c main_arg35 (by decide)).trans ((V2_of m c main_arg35 (by decide)).trans (V1_of m c main_arg35 (by decide)))

theorem val_x0_arg35 : Xx0 m c main_arg35 = (m ((c : Thread nD τ).loc main_arg35)) := (cx0 m c main_arg35 (by decide)).trans (val_e0_arg35 m c)

theorem val_e1_arg35 : Xe1 m c main_arg35 = (m ((c : Thread nD τ).loc main_arg35)) := (ce1 m c main_arg35 (by decide)).trans (val_x0_arg35 m c)

theorem val_x1_arg35 : Xx1 m c main_arg35 = (m ((c : Thread nD τ).loc main_arg35)) := (cx1 m c main_arg35 (by decide)).trans (val_e1_arg35 m c)

theorem val_e2_arg35 : Xe2 m c main_arg35 = (m ((c : Thread nD τ).loc main_arg35)) := (ce2 m c main_arg35 (by decide)).trans (val_x1_arg35 m c)

theorem val_x2_arg35 : Xx2 m c main_arg35 = (m ((c : Thread nD τ).loc main_arg35)) := (cx2 m c main_arg35 (by decide)).trans (val_e2_arg35 m c)

theorem val_e3_arg35 : Xe3 m c main_arg35 = (m ((c : Thread nD τ).loc main_arg35)) := (ce3 m c main_arg35 (by decide)).trans (val_x2_arg35 m c)

theorem val_x3_arg35 : Xx3 m c main_arg35 = (m ((c : Thread nD τ).loc main_arg35)) := (cx3 m c main_arg35 (by decide)).trans (val_e3_arg35 m c)

theorem val_e4_arg35 : Xe4 m c main_arg35 = (m ((c : Thread nD τ).loc main_arg35)) := (ce4 m c main_arg35 (by decide)).trans (val_x3_arg35 m c)

theorem val_x4_arg35 : Xx4 m c main_arg35 = (m ((c : Thread nD τ).loc main_arg35)) := (cx4 m c main_arg35 (by decide)).trans (val_e4_arg35 m c)

theorem val_e5_arg35 : Xe5 m c main_arg35 = (m ((c : Thread nD τ).loc main_arg35)) := (ce5 m c main_arg35 (by decide)).trans (val_x4_arg35 m c)

theorem val_x5_arg35 : Xx5 m c main_arg35 = (m ((c : Thread nD τ).loc main_arg35)) := (cx5 m c main_arg35 (by decide)).trans (val_e5_arg35 m c)

theorem val_e6_arg35 : Xe6 m c main_arg35 = (m ((c : Thread nD τ).loc main_arg35)) := (ce6 m c main_arg35 (by decide)).trans (val_x5_arg35 m c)

theorem val_x6_arg35 : Xx6 m c main_arg35 = (m ((c : Thread nD τ).loc main_arg35)) := (cx6 m c main_arg35 (by decide)).trans (val_e6_arg35 m c)

theorem val_e7_arg35 : Xe7 m c main_arg35 = (m ((c : Thread nD τ).loc main_arg35)) := (ce7 m c main_arg35 (by decide) (by decide) (by decide)).trans (val_x6_arg35 m c)

theorem val_x7_arg35 : Xx7 m c main_arg35 = (m ((c : Thread nD τ).loc main_arg35)) := (cx7 m c main_arg35 (by decide)).trans (val_e7_arg35 m c)

theorem val_e8_arg35 : Xe8 m c main_arg35 = (m ((c : Thread nD τ).loc main_arg35)) := (ce8 m c main_arg35 (by decide)).trans (val_x7_arg35 m c)

theorem val_x8_arg35 : Xx8 m c main_arg35 = (m ((c : Thread nD τ).loc main_arg35)) := (cx8 m c main_arg35 (by decide)).trans (val_e8_arg35 m c)

theorem val_e9_arg35 : Xe9 m c main_arg35 = (m ((c : Thread nD τ).loc main_arg35)) := (ce9 m c main_arg35 (by decide)).trans (val_x8_arg35 m c)

theorem val_x9_arg35 : Xx9 m c main_arg35 = (m ((c : Thread nD τ).loc main_arg35)) := (cx9 m c main_arg35 (by decide)).trans (val_e9_arg35 m c)

theorem val_e10_arg35 : Xe10 m c main_arg35 = (m ((c : Thread nD τ).loc main_arg35)) := (ce10 m c main_arg35 (by decide)).trans (val_x9_arg35 m c)

theorem val_x10_arg35 : Xx10 m c main_arg35 = (m ((c : Thread nD τ).loc main_arg35)) := (cx10 m c main_arg35 (by decide)).trans (val_e10_arg35 m c)

theorem val_e11_arg35 : Xe11 m c main_arg35 = (m ((c : Thread nD τ).loc main_arg35)) := (ce11 m c main_arg35 (by decide)).trans (val_x10_arg35 m c)

theorem val_e0_arg36 : Xe0 m c main_arg36 = (m ((c : Thread nD τ).loc main_arg36)) := (V3_of m c main_arg36 (by decide)).trans ((V2_of m c main_arg36 (by decide)).trans (V1_of m c main_arg36 (by decide)))

theorem val_x0_arg36 : Xx0 m c main_arg36 = (m ((c : Thread nD τ).loc main_arg36)) := (cx0 m c main_arg36 (by decide)).trans (val_e0_arg36 m c)

theorem val_e1_arg36 : Xe1 m c main_arg36 = (m ((c : Thread nD τ).loc main_arg36)) := (ce1 m c main_arg36 (by decide)).trans (val_x0_arg36 m c)

theorem val_x1_arg36 : Xx1 m c main_arg36 = (m ((c : Thread nD τ).loc main_arg36)) := (cx1 m c main_arg36 (by decide)).trans (val_e1_arg36 m c)

theorem val_e2_arg36 : Xe2 m c main_arg36 = (m ((c : Thread nD τ).loc main_arg36)) := (ce2 m c main_arg36 (by decide)).trans (val_x1_arg36 m c)

theorem val_x2_arg36 : Xx2 m c main_arg36 = (m ((c : Thread nD τ).loc main_arg36)) := (cx2 m c main_arg36 (by decide)).trans (val_e2_arg36 m c)

theorem val_e3_arg36 : Xe3 m c main_arg36 = (m ((c : Thread nD τ).loc main_arg36)) := (ce3 m c main_arg36 (by decide)).trans (val_x2_arg36 m c)

theorem val_x3_arg36 : Xx3 m c main_arg36 = (m ((c : Thread nD τ).loc main_arg36)) := (cx3 m c main_arg36 (by decide)).trans (val_e3_arg36 m c)

theorem val_e4_arg36 : Xe4 m c main_arg36 = (m ((c : Thread nD τ).loc main_arg36)) := (ce4 m c main_arg36 (by decide)).trans (val_x3_arg36 m c)

theorem val_x4_arg36 : Xx4 m c main_arg36 = (m ((c : Thread nD τ).loc main_arg36)) := (cx4 m c main_arg36 (by decide)).trans (val_e4_arg36 m c)

theorem val_e5_arg36 : Xe5 m c main_arg36 = (m ((c : Thread nD τ).loc main_arg36)) := (ce5 m c main_arg36 (by decide)).trans (val_x4_arg36 m c)

theorem val_x5_arg36 : Xx5 m c main_arg36 = (m ((c : Thread nD τ).loc main_arg36)) := (cx5 m c main_arg36 (by decide)).trans (val_e5_arg36 m c)

theorem val_e6_arg36 : Xe6 m c main_arg36 = (m ((c : Thread nD τ).loc main_arg36)) := (ce6 m c main_arg36 (by decide)).trans (val_x5_arg36 m c)

theorem val_x6_arg36 : Xx6 m c main_arg36 = (m ((c : Thread nD τ).loc main_arg36)) := (cx6 m c main_arg36 (by decide)).trans (val_e6_arg36 m c)

theorem val_e7_arg36 : Xe7 m c main_arg36 = (m ((c : Thread nD τ).loc main_arg36)) := (ce7 m c main_arg36 (by decide) (by decide) (by decide)).trans (val_x6_arg36 m c)

theorem val_x7_arg36 : Xx7 m c main_arg36 = (m ((c : Thread nD τ).loc main_arg36)) := (cx7 m c main_arg36 (by decide)).trans (val_e7_arg36 m c)

theorem val_e8_arg36 : Xe8 m c main_arg36 = (m ((c : Thread nD τ).loc main_arg36)) := (ce8 m c main_arg36 (by decide)).trans (val_x7_arg36 m c)

theorem val_x8_arg36 : Xx8 m c main_arg36 = (m ((c : Thread nD τ).loc main_arg36)) := (cx8 m c main_arg36 (by decide)).trans (val_e8_arg36 m c)

theorem val_e9_arg36 : Xe9 m c main_arg36 = (m ((c : Thread nD τ).loc main_arg36)) := (ce9 m c main_arg36 (by decide)).trans (val_x8_arg36 m c)

theorem val_x9_arg36 : Xx9 m c main_arg36 = (m ((c : Thread nD τ).loc main_arg36)) := (cx9 m c main_arg36 (by decide)).trans (val_e9_arg36 m c)

theorem val_e10_arg36 : Xe10 m c main_arg36 = (m ((c : Thread nD τ).loc main_arg36)) := (ce10 m c main_arg36 (by decide)).trans (val_x9_arg36 m c)

theorem val_x10_arg36 : Xx10 m c main_arg36 = (m ((c : Thread nD τ).loc main_arg36)) := (cx10 m c main_arg36 (by decide)).trans (val_e10_arg36 m c)

theorem val_e11_v90 : Xe11 m c main_v90 = (Cert.HostForms.row64 (m ((c : Thread nD τ).loc main_arg36))) := by
  refine (s11_v90 (Xx10 m c)).trans ?_
  rw [val_x10_arg36 m c]

/-- What region 11 leaves in main_v91. -/
def t_v91 (m : (ℓ : Loc nD τ sig) → Buf (Elt Ideal) ℓ) (c : Dev nD) := Cert.HostForms.edgeLin (t_v71 m c) (m ((c : Thread nD τ).loc main_arg35)) (Cert.HostForms.row64 (m ((c : Thread nD τ).loc main_arg36)))

theorem val_x11_v91 : Xx11 m c main_v91 = (t_v91 m c) := by
  unfold Xx11
  rw [Function.update_self, final11]
  show Cert.HostForms.edgeLin (Xe11 m c main_v71) (Xe11 m c main_arg35) (Xe11 m c main_v90) = _
  rw [val_e11_v71 m c, val_e11_arg35 m c, val_e11_v90 m c]
  rfl

theorem val_e12_v91 : Xe12 m c main_v91 = (t_v91 m c) := (ce12 m c main_v91 (by decide)).trans (val_x11_v91 m c)

/-- What region 12 leaves in main_v99. -/
def t_v99 (m : (ℓ : Loc nD τ sig) → Buf (Elt Ideal) ℓ) (c : Dev nD) := Cert.HostForms.reluAdd64 (Host.gather Cert.ReferenceIdeal.gather_S100000x64_S1600000x1_S1600000x64_1_0_n_n_0_1_164 (t_v89 m c) (Cert.HostForms.wrapIdx (Cert.HostForms.srcVec (m ((c : Thread nD τ).loc main_arg5))))) (t_v91 m c)

theorem val_x12_v99 : Xx12 m c main_v99 = (t_v99 m c) := by
  unfold Xx12
  rw [Function.update_self, final12]
  show Cert.HostForms.reluAdd64 (Xe12 m c main_v98) (Xe12 m c main_v91) = _
  rw [val_e12_v98 m c, val_e12_v91 m c]
  rfl

theorem val_e13_v102 : Xe13 m c main_v102 = (Host.scatterAdd (F := Ideal) Cert.ReferenceIdeal.scatter_S100000x64_S1600000x1_S1600000x64_1_0_0_1 (broadcastInDim Cert.ReferenceIdeal.S100000x64 ![] Cert.ReferenceIdeal.Gen.bcast_S_S100000x64 (constant (F := Ideal) Cert.ReferenceIdeal.S_ .f32 0x00000000#32)) (Cert.HostForms.idxCol (Cert.HostForms.dstVec (m ((c : Thread nD τ).loc main_arg5)))) (t_v99 m c)) := by
  refine (s13_v102 (Xx12 m c)).trans ?_
  rw [val_x12_v75 m c, val_x12_v99 m c]

theorem val_e0_arg31 : Xe0 m c main_arg31 = (m ((c : Thread nD τ).loc main_arg31)) := (V3_of m c main_arg31 (by decide)).trans ((V2_of m c main_arg31 (by decide)).trans (V1_of m c main_arg31 (by decide)))

theorem val_x0_arg31 : Xx0 m c main_arg31 = (m ((c : Thread nD τ).loc main_arg31)) := (cx0 m c main_arg31 (by decide)).trans (val_e0_arg31 m c)

theorem val_e1_arg31 : Xe1 m c main_arg31 = (m ((c : Thread nD τ).loc main_arg31)) := (ce1 m c main_arg31 (by decide)).trans (val_x0_arg31 m c)

theorem val_x1_arg31 : Xx1 m c main_arg31 = (m ((c : Thread nD τ).loc main_arg31)) := (cx1 m c main_arg31 (by decide)).trans (val_e1_arg31 m c)

theorem val_e2_arg31 : Xe2 m c main_arg31 = (m ((c : Thread nD τ).loc main_arg31)) := (ce2 m c main_arg31 (by decide)).trans (val_x1_arg31 m c)

theorem val_x2_arg31 : Xx2 m c main_arg31 = (m ((c : Thread nD τ).loc main_arg31)) := (cx2 m c main_arg31 (by decide)).trans (val_e2_arg31 m c)

theorem val_e3_arg31 : Xe3 m c main_arg31 = (m ((c : Thread nD τ).loc main_arg31)) := (ce3 m c main_arg31 (by decide)).trans (val_x2_arg31 m c)

theorem val_x3_arg31 : Xx3 m c main_arg31 = (m ((c : Thread nD τ).loc main_arg31)) := (cx3 m c main_arg31 (by decide)).trans (val_e3_arg31 m c)

theorem val_e4_arg31 : Xe4 m c main_arg31 = (m ((c : Thread nD τ).loc main_arg31)) := (ce4 m c main_arg31 (by decide)).trans (val_x3_arg31 m c)

theorem val_x4_arg31 : Xx4 m c main_arg31 = (m ((c : Thread nD τ).loc main_arg31)) := (cx4 m c main_arg31 (by decide)).trans (val_e4_arg31 m c)

theorem val_e5_arg31 : Xe5 m c main_arg31 = (m ((c : Thread nD τ).loc main_arg31)) := (ce5 m c main_arg31 (by decide)).trans (val_x4_arg31 m c)

theorem val_x5_arg31 : Xx5 m c main_arg31 = (m ((c : Thread nD τ).loc main_arg31)) := (cx5 m c main_arg31 (by decide)).trans (val_e5_arg31 m c)

theorem val_e6_arg31 : Xe6 m c main_arg31 = (m ((c : Thread nD τ).loc main_arg31)) := (ce6 m c main_arg31 (by decide)).trans (val_x5_arg31 m c)

theorem val_x6_arg31 : Xx6 m c main_arg31 = (m ((c : Thread nD τ).loc main_arg31)) := (cx6 m c main_arg31 (by decide)).trans (val_e6_arg31 m c)

theorem val_e7_arg31 : Xe7 m c main_arg31 = (m ((c : Thread nD τ).loc main_arg31)) := (ce7 m c main_arg31 (by decide) (by decide) (by decide)).trans (val_x6_arg31 m c)

theorem val_x7_arg31 : Xx7 m c main_arg31 = (m ((c : Thread nD τ).loc main_arg31)) := (cx7 m c main_arg31 (by decide)).trans (val_e7_arg31 m c)

theorem val_e8_arg31 : Xe8 m c main_arg31 = (m ((c : Thread nD τ).loc main_arg31)) := (ce8 m c main_arg31 (by decide)).trans (val_x7_arg31 m c)

theorem val_x8_arg31 : Xx8 m c main_arg31 = (m ((c : Thread nD τ).loc main_arg31)) := (cx8 m c main_arg31 (by decide)).trans (val_e8_arg31 m c)

theorem val_e9_arg31 : Xe9 m c main_arg31 = (m ((c : Thread nD τ).loc main_arg31)) := (ce9 m c main_arg31 (by decide)).trans (val_x8_arg31 m c)

theorem val_x9_arg31 : Xx9 m c main_arg31 = (m ((c : Thread nD τ).loc main_arg31)) := (cx9 m c main_arg31 (by decide)).trans (val_e9_arg31 m c)

theorem val_e10_arg31 : Xe10 m c main_arg31 = (m ((c : Thread nD τ).loc main_arg31)) := (ce10 m c main_arg31 (by decide)).trans (val_x9_arg31 m c)

theorem val_x10_arg31 : Xx10 m c main_arg31 = (m ((c : Thread nD τ).loc main_arg31)) := (cx10 m c main_arg31 (by decide)).trans (val_e10_arg31 m c)

theorem val_e11_arg31 : Xe11 m c main_arg31 = (m ((c : Thread nD τ).loc main_arg31)) := (ce11 m c main_arg31 (by decide)).trans (val_x10_arg31 m c)

theorem val_x11_arg31 : Xx11 m c main_arg31 = (m ((c : Thread nD τ).loc main_arg31)) := (cx11 m c main_arg31 (by decide)).trans (val_e11_arg31 m c)

theorem val_e12_arg31 : Xe12 m c main_arg31 = (m ((c : Thread nD τ).loc main_arg31)) := (ce12 m c main_arg31 (by decide)).trans (val_x11_arg31 m c)

theorem val_x12_arg31 : Xx12 m c main_arg31 = (m ((c : Thread nD τ).loc main_arg31)) := (cx12 m c main_arg31 (by decide)).trans (val_e12_arg31 m c)

theorem val_e13_arg31 : Xe13 m c main_arg31 = (m ((c : Thread nD τ).loc main_arg31)) := (ce13 m c main_arg31 (by decide)).trans (val_x12_arg31 m c)

theorem val_e0_arg32 : Xe0 m c main_arg32 = (m ((c : Thread nD τ).loc main_arg32)) := (V3_of m c main_arg32 (by decide)).trans ((V2_of m c main_arg32 (by decide)).trans (V1_of m c main_arg32 (by decide)))

theorem val_x0_arg32 : Xx0 m c main_arg32 = (m ((c : Thread nD τ).loc main_arg32)) := (cx0 m c main_arg32 (by decide)).trans (val_e0_arg32 m c)

theorem val_e1_arg32 : Xe1 m c main_arg32 = (m ((c : Thread nD τ).loc main_arg32)) := (ce1 m c main_arg32 (by decide)).trans (val_x0_arg32 m c)

theorem val_x1_arg32 : Xx1 m c main_arg32 = (m ((c : Thread nD τ).loc main_arg32)) := (cx1 m c main_arg32 (by decide)).trans (val_e1_arg32 m c)

theorem val_e2_arg32 : Xe2 m c main_arg32 = (m ((c : Thread nD τ).loc main_arg32)) := (ce2 m c main_arg32 (by decide)).trans (val_x1_arg32 m c)

theorem val_x2_arg32 : Xx2 m c main_arg32 = (m ((c : Thread nD τ).loc main_arg32)) := (cx2 m c main_arg32 (by decide)).trans (val_e2_arg32 m c)

theorem val_e3_arg32 : Xe3 m c main_arg32 = (m ((c : Thread nD τ).loc main_arg32)) := (ce3 m c main_arg32 (by decide)).trans (val_x2_arg32 m c)

theorem val_x3_arg32 : Xx3 m c main_arg32 = (m ((c : Thread nD τ).loc main_arg32)) := (cx3 m c main_arg32 (by decide)).trans (val_e3_arg32 m c)

theorem val_e4_arg32 : Xe4 m c main_arg32 = (m ((c : Thread nD τ).loc main_arg32)) := (ce4 m c main_arg32 (by decide)).trans (val_x3_arg32 m c)

theorem val_x4_arg32 : Xx4 m c main_arg32 = (m ((c : Thread nD τ).loc main_arg32)) := (cx4 m c main_arg32 (by decide)).trans (val_e4_arg32 m c)

theorem val_e5_arg32 : Xe5 m c main_arg32 = (m ((c : Thread nD τ).loc main_arg32)) := (ce5 m c main_arg32 (by decide)).trans (val_x4_arg32 m c)

theorem val_x5_arg32 : Xx5 m c main_arg32 = (m ((c : Thread nD τ).loc main_arg32)) := (cx5 m c main_arg32 (by decide)).trans (val_e5_arg32 m c)

theorem val_e6_arg32 : Xe6 m c main_arg32 = (m ((c : Thread nD τ).loc main_arg32)) := (ce6 m c main_arg32 (by decide)).trans (val_x5_arg32 m c)

theorem val_x6_arg32 : Xx6 m c main_arg32 = (m ((c : Thread nD τ).loc main_arg32)) := (cx6 m c main_arg32 (by decide)).trans (val_e6_arg32 m c)

theorem val_e7_arg32 : Xe7 m c main_arg32 = (m ((c : Thread nD τ).loc main_arg32)) := (ce7 m c main_arg32 (by decide) (by decide) (by decide)).trans (val_x6_arg32 m c)

theorem val_x7_arg32 : Xx7 m c main_arg32 = (m ((c : Thread nD τ).loc main_arg32)) := (cx7 m c main_arg32 (by decide)).trans (val_e7_arg32 m c)

theorem val_e8_arg32 : Xe8 m c main_arg32 = (m ((c : Thread nD τ).loc main_arg32)) := (ce8 m c main_arg32 (by decide)).trans (val_x7_arg32 m c)

theorem val_x8_arg32 : Xx8 m c main_arg32 = (m ((c : Thread nD τ).loc main_arg32)) := (cx8 m c main_arg32 (by decide)).trans (val_e8_arg32 m c)

theorem val_e9_arg32 : Xe9 m c main_arg32 = (m ((c : Thread nD τ).loc main_arg32)) := (ce9 m c main_arg32 (by decide)).trans (val_x8_arg32 m c)

theorem val_x9_arg32 : Xx9 m c main_arg32 = (m ((c : Thread nD τ).loc main_arg32)) := (cx9 m c main_arg32 (by decide)).trans (val_e9_arg32 m c)

theorem val_e10_arg32 : Xe10 m c main_arg32 = (m ((c : Thread nD τ).loc main_arg32)) := (ce10 m c main_arg32 (by decide)).trans (val_x9_arg32 m c)

theorem val_x10_arg32 : Xx10 m c main_arg32 = (m ((c : Thread nD τ).loc main_arg32)) := (cx10 m c main_arg32 (by decide)).trans (val_e10_arg32 m c)

theorem val_e11_arg32 : Xe11 m c main_arg32 = (m ((c : Thread nD τ).loc main_arg32)) := (ce11 m c main_arg32 (by decide)).trans (val_x10_arg32 m c)

theorem val_x11_arg32 : Xx11 m c main_arg32 = (m ((c : Thread nD τ).loc main_arg32)) := (cx11 m c main_arg32 (by decide)).trans (val_e11_arg32 m c)

theorem val_e12_arg32 : Xe12 m c main_arg32 = (m ((c : Thread nD τ).loc main_arg32)) := (ce12 m c main_arg32 (by decide)).trans (val_x11_arg32 m c)

theorem val_x12_arg32 : Xx12 m c main_arg32 = (m ((c : Thread nD τ).loc main_arg32)) := (cx12 m c main_arg32 (by decide)).trans (val_e12_arg32 m c)

theorem val_e13_v103 : Xe13 m c main_v103 = (Cert.HostForms.row64 (m ((c : Thread nD τ).loc main_arg32))) := by
  refine (s13_v103 (Xx12 m c)).trans ?_
  rw [val_x12_arg32 m c]

theorem val_e0_arg33 : Xe0 m c main_arg33 = (m ((c : Thread nD τ).loc main_arg33)) := (V3_of m c main_arg33 (by decide)).trans ((V2_of m c main_arg33 (by decide)).trans (V1_of m c main_arg33 (by decide)))

theorem val_x0_arg33 : Xx0 m c main_arg33 = (m ((c : Thread nD τ).loc main_arg33)) := (cx0 m c main_arg33 (by decide)).trans (val_e0_arg33 m c)

theorem val_e1_arg33 : Xe1 m c main_arg33 = (m ((c : Thread nD τ).loc main_arg33)) := (ce1 m c main_arg33 (by decide)).trans (val_x0_arg33 m c)

theorem val_x1_arg33 : Xx1 m c main_arg33 = (m ((c : Thread nD τ).loc main_arg33)) := (cx1 m c main_arg33 (by decide)).trans (val_e1_arg33 m c)

theorem val_e2_arg33 : Xe2 m c main_arg33 = (m ((c : Thread nD τ).loc main_arg33)) := (ce2 m c main_arg33 (by decide)).trans (val_x1_arg33 m c)

theorem val_x2_arg33 : Xx2 m c main_arg33 = (m ((c : Thread nD τ).loc main_arg33)) := (cx2 m c main_arg33 (by decide)).trans (val_e2_arg33 m c)

theorem val_e3_arg33 : Xe3 m c main_arg33 = (m ((c : Thread nD τ).loc main_arg33)) := (ce3 m c main_arg33 (by decide)).trans (val_x2_arg33 m c)

theorem val_x3_arg33 : Xx3 m c main_arg33 = (m ((c : Thread nD τ).loc main_arg33)) := (cx3 m c main_arg33 (by decide)).trans (val_e3_arg33 m c)

theorem val_e4_arg33 : Xe4 m c main_arg33 = (m ((c : Thread nD τ).loc main_arg33)) := (ce4 m c main_arg33 (by decide)).trans (val_x3_arg33 m c)

theorem val_x4_arg33 : Xx4 m c main_arg33 = (m ((c : Thread nD τ).loc main_arg33)) := (cx4 m c main_arg33 (by decide)).trans (val_e4_arg33 m c)

theorem val_e5_arg33 : Xe5 m c main_arg33 = (m ((c : Thread nD τ).loc main_arg33)) := (ce5 m c main_arg33 (by decide)).trans (val_x4_arg33 m c)

theorem val_x5_arg33 : Xx5 m c main_arg33 = (m ((c : Thread nD τ).loc main_arg33)) := (cx5 m c main_arg33 (by decide)).trans (val_e5_arg33 m c)

theorem val_e6_arg33 : Xe6 m c main_arg33 = (m ((c : Thread nD τ).loc main_arg33)) := (ce6 m c main_arg33 (by decide)).trans (val_x5_arg33 m c)

theorem val_x6_arg33 : Xx6 m c main_arg33 = (m ((c : Thread nD τ).loc main_arg33)) := (cx6 m c main_arg33 (by decide)).trans (val_e6_arg33 m c)

theorem val_e7_arg33 : Xe7 m c main_arg33 = (m ((c : Thread nD τ).loc main_arg33)) := (ce7 m c main_arg33 (by decide) (by decide) (by decide)).trans (val_x6_arg33 m c)

theorem val_x7_arg33 : Xx7 m c main_arg33 = (m ((c : Thread nD τ).loc main_arg33)) := (cx7 m c main_arg33 (by decide)).trans (val_e7_arg33 m c)

theorem val_e8_arg33 : Xe8 m c main_arg33 = (m ((c : Thread nD τ).loc main_arg33)) := (ce8 m c main_arg33 (by decide)).trans (val_x7_arg33 m c)

theorem val_x8_arg33 : Xx8 m c main_arg33 = (m ((c : Thread nD τ).loc main_arg33)) := (cx8 m c main_arg33 (by decide)).trans (val_e8_arg33 m c)

theorem val_e9_arg33 : Xe9 m c main_arg33 = (m ((c : Thread nD τ).loc main_arg33)) := (ce9 m c main_arg33 (by decide)).trans (val_x8_arg33 m c)

theorem val_x9_arg33 : Xx9 m c main_arg33 = (m ((c : Thread nD τ).loc main_arg33)) := (cx9 m c main_arg33 (by decide)).trans (val_e9_arg33 m c)

theorem val_e10_arg33 : Xe10 m c main_arg33 = (m ((c : Thread nD τ).loc main_arg33)) := (ce10 m c main_arg33 (by decide)).trans (val_x9_arg33 m c)

theorem val_x10_arg33 : Xx10 m c main_arg33 = (m ((c : Thread nD τ).loc main_arg33)) := (cx10 m c main_arg33 (by decide)).trans (val_e10_arg33 m c)

theorem val_e11_arg33 : Xe11 m c main_arg33 = (m ((c : Thread nD τ).loc main_arg33)) := (ce11 m c main_arg33 (by decide)).trans (val_x10_arg33 m c)

theorem val_x11_arg33 : Xx11 m c main_arg33 = (m ((c : Thread nD τ).loc main_arg33)) := (cx11 m c main_arg33 (by decide)).trans (val_e11_arg33 m c)

theorem val_e12_arg33 : Xe12 m c main_arg33 = (m ((c : Thread nD τ).loc main_arg33)) := (ce12 m c main_arg33 (by decide)).trans (val_x11_arg33 m c)

theorem val_x12_arg33 : Xx12 m c main_arg33 = (m ((c : Thread nD τ).loc main_arg33)) := (cx12 m c main_arg33 (by decide)).trans (val_e12_arg33 m c)

theorem val_e13_arg33 : Xe13 m c main_arg33 = (m ((c : Thread nD τ).loc main_arg33)) := (ce13 m c main_arg33 (by decide)).trans (val_x12_arg33 m c)

theorem val_e0_arg34 : Xe0 m c main_arg34 = (m ((c : Thread nD τ).loc main_arg34)) := (V3_of m c main_arg34 (by decide)).trans ((V2_of m c main_arg34 (by decide)).trans (V1_of m c main_arg34 (by decide)))

theorem val_x0_arg34 : Xx0 m c main_arg34 = (m ((c : Thread nD τ).loc main_arg34)) := (cx0 m c main_arg34 (by decide)).trans (val_e0_arg34 m c)

theorem val_e1_arg34 : Xe1 m c main_arg34 = (m ((c : Thread nD τ).loc main_arg34)) := (ce1 m c main_arg34 (by decide)).trans (val_x0_arg34 m c)

theorem val_x1_arg34 : Xx1 m c main_arg34 = (m ((c : Thread nD τ).loc main_arg34)) := (cx1 m c main_arg34 (by decide)).trans (val_e1_arg34 m c)

theorem val_e2_arg34 : Xe2 m c main_arg34 = (m ((c : Thread nD τ).loc main_arg34)) := (ce2 m c main_arg34 (by decide)).trans (val_x1_arg34 m c)

theorem val_x2_arg34 : Xx2 m c main_arg34 = (m ((c : Thread nD τ).loc main_arg34)) := (cx2 m c main_arg34 (by decide)).trans (val_e2_arg34 m c)

theorem val_e3_arg34 : Xe3 m c main_arg34 = (m ((c : Thread nD τ).loc main_arg34)) := (ce3 m c main_arg34 (by decide)).trans (val_x2_arg34 m c)

theorem val_x3_arg34 : Xx3 m c main_arg34 = (m ((c : Thread nD τ).loc main_arg34)) := (cx3 m c main_arg34 (by decide)).trans (val_e3_arg34 m c)

theorem val_e4_arg34 : Xe4 m c main_arg34 = (m ((c : Thread nD τ).loc main_arg34)) := (ce4 m c main_arg34 (by decide)).trans (val_x3_arg34 m c)

theorem val_x4_arg34 : Xx4 m c main_arg34 = (m ((c : Thread nD τ).loc main_arg34)) := (cx4 m c main_arg34 (by decide)).trans (val_e4_arg34 m c)

theorem val_e5_arg34 : Xe5 m c main_arg34 = (m ((c : Thread nD τ).loc main_arg34)) := (ce5 m c main_arg34 (by decide)).trans (val_x4_arg34 m c)

theorem val_x5_arg34 : Xx5 m c main_arg34 = (m ((c : Thread nD τ).loc main_arg34)) := (cx5 m c main_arg34 (by decide)).trans (val_e5_arg34 m c)

theorem val_e6_arg34 : Xe6 m c main_arg34 = (m ((c : Thread nD τ).loc main_arg34)) := (ce6 m c main_arg34 (by decide)).trans (val_x5_arg34 m c)

theorem val_x6_arg34 : Xx6 m c main_arg34 = (m ((c : Thread nD τ).loc main_arg34)) := (cx6 m c main_arg34 (by decide)).trans (val_e6_arg34 m c)

theorem val_e7_arg34 : Xe7 m c main_arg34 = (m ((c : Thread nD τ).loc main_arg34)) := (ce7 m c main_arg34 (by decide) (by decide) (by decide)).trans (val_x6_arg34 m c)

theorem val_x7_arg34 : Xx7 m c main_arg34 = (m ((c : Thread nD τ).loc main_arg34)) := (cx7 m c main_arg34 (by decide)).trans (val_e7_arg34 m c)

theorem val_e8_arg34 : Xe8 m c main_arg34 = (m ((c : Thread nD τ).loc main_arg34)) := (ce8 m c main_arg34 (by decide)).trans (val_x7_arg34 m c)

theorem val_x8_arg34 : Xx8 m c main_arg34 = (m ((c : Thread nD τ).loc main_arg34)) := (cx8 m c main_arg34 (by decide)).trans (val_e8_arg34 m c)

theorem val_e9_arg34 : Xe9 m c main_arg34 = (m ((c : Thread nD τ).loc main_arg34)) := (ce9 m c main_arg34 (by decide)).trans (val_x8_arg34 m c)

theorem val_x9_arg34 : Xx9 m c main_arg34 = (m ((c : Thread nD τ).loc main_arg34)) := (cx9 m c main_arg34 (by decide)).trans (val_e9_arg34 m c)

theorem val_e10_arg34 : Xe10 m c main_arg34 = (m ((c : Thread nD τ).loc main_arg34)) := (ce10 m c main_arg34 (by decide)).trans (val_x9_arg34 m c)

theorem val_x10_arg34 : Xx10 m c main_arg34 = (m ((c : Thread nD τ).loc main_arg34)) := (cx10 m c main_arg34 (by decide)).trans (val_e10_arg34 m c)

theorem val_e11_arg34 : Xe11 m c main_arg34 = (m ((c : Thread nD τ).loc main_arg34)) := (ce11 m c main_arg34 (by decide)).trans (val_x10_arg34 m c)

theorem val_x11_arg34 : Xx11 m c main_arg34 = (m ((c : Thread nD τ).loc main_arg34)) := (cx11 m c main_arg34 (by decide)).trans (val_e11_arg34 m c)

theorem val_e12_arg34 : Xe12 m c main_arg34 = (m ((c : Thread nD τ).loc main_arg34)) := (ce12 m c main_arg34 (by decide)).trans (val_x11_arg34 m c)

theorem val_x12_arg34 : Xx12 m c main_arg34 = (m ((c : Thread nD τ).loc main_arg34)) := (cx12 m c main_arg34 (by decide)).trans (val_e12_arg34 m c)

theorem val_e13_v104 : Xe13 m c main_v104 = (Cert.HostForms.row64 (m ((c : Thread nD τ).loc main_arg34))) := by
  refine (s13_v104 (Xx12 m c)).trans ?_
  rw [val_x12_arg34 m c]

/-- What region 13 leaves in main_v105. -/
def t_v105 (m : (ℓ : Loc nD τ sig) → Buf (Elt Ideal) ℓ) (c : Dev nD) := Cert.HostForms.nodeUpdate64 (t_v89 m c) (Host.scatterAdd (F := Ideal) Cert.ReferenceIdeal.scatter_S100000x64_S1600000x1_S1600000x64_1_0_0_1 (broadcastInDim Cert.ReferenceIdeal.S100000x64 ![] Cert.ReferenceIdeal.Gen.bcast_S_S100000x64 (constant (F := Ideal) Cert.ReferenceIdeal.S_ .f32 0x00000000#32)) (Cert.HostForms.idxCol (Cert.HostForms.dstVec (m ((c : Thread nD τ).loc main_arg5)))) (t_v99 m c)) (m ((c : Thread nD τ).loc main_arg31)) (Cert.HostForms.row64 (m ((c : Thread nD τ).loc main_arg32))) (m ((c : Thread nD τ).loc main_arg33)) (Cert.HostForms.row64 (m ((c : Thread nD τ).loc main_arg34)))

theorem val_x13_v105 : Xx13 m c main_v105 = (t_v105 m c) := by
  unfold Xx13
  rw [Function.update_self, final13]
  show Cert.HostForms.nodeUpdate64 (Xe13 m c main_v89) (Xe13 m c main_v102) (Xe13 m c main_arg31) (Xe13 m c main_v103) (Xe13 m c main_arg33) (Xe13 m c main_v104) = _
  rw [val_e13_v89 m c, val_e13_v102 m c, val_e13_arg31 m c, val_e13_v103 m c, val_e13_arg33 m c, val_e13_v104 m c]
  rfl

theorem val_e0_arg7 : Xe0 m c main_arg7 = (m ((c : Thread nD τ).loc main_arg7)) := (V3_of m c main_arg7 (by decide)).trans ((V2_of m c main_arg7 (by decide)).trans (V1_of m c main_arg7 (by decide)))

theorem val_x0_arg7 : Xx0 m c main_arg7 = (m ((c : Thread nD τ).loc main_arg7)) := (cx0 m c main_arg7 (by decide)).trans (val_e0_arg7 m c)

theorem val_e1_arg7 : Xe1 m c main_arg7 = (m ((c : Thread nD τ).loc main_arg7)) := (ce1 m c main_arg7 (by decide)).trans (val_x0_arg7 m c)

theorem val_x1_arg7 : Xx1 m c main_arg7 = (m ((c : Thread nD τ).loc main_arg7)) := (cx1 m c main_arg7 (by decide)).trans (val_e1_arg7 m c)

theorem val_e2_arg7 : Xe2 m c main_arg7 = (m ((c : Thread nD τ).loc main_arg7)) := (ce2 m c main_arg7 (by decide)).trans (val_x1_arg7 m c)

theorem val_x2_arg7 : Xx2 m c main_arg7 = (m ((c : Thread nD τ).loc main_arg7)) := (cx2 m c main_arg7 (by decide)).trans (val_e2_arg7 m c)

theorem val_e3_arg7 : Xe3 m c main_arg7 = (m ((c : Thread nD τ).loc main_arg7)) := (ce3 m c main_arg7 (by decide)).trans (val_x2_arg7 m c)

theorem val_x3_arg7 : Xx3 m c main_arg7 = (m ((c : Thread nD τ).loc main_arg7)) := (cx3 m c main_arg7 (by decide)).trans (val_e3_arg7 m c)

theorem val_e4_arg7 : Xe4 m c main_arg7 = (m ((c : Thread nD τ).loc main_arg7)) := (ce4 m c main_arg7 (by decide)).trans (val_x3_arg7 m c)

theorem val_x4_arg7 : Xx4 m c main_arg7 = (m ((c : Thread nD τ).loc main_arg7)) := (cx4 m c main_arg7 (by decide)).trans (val_e4_arg7 m c)

theorem val_e5_arg7 : Xe5 m c main_arg7 = (m ((c : Thread nD τ).loc main_arg7)) := (ce5 m c main_arg7 (by decide)).trans (val_x4_arg7 m c)

theorem val_x5_arg7 : Xx5 m c main_arg7 = (m ((c : Thread nD τ).loc main_arg7)) := (cx5 m c main_arg7 (by decide)).trans (val_e5_arg7 m c)

theorem val_e6_arg7 : Xe6 m c main_arg7 = (m ((c : Thread nD τ).loc main_arg7)) := (ce6 m c main_arg7 (by decide)).trans (val_x5_arg7 m c)

theorem val_x6_arg7 : Xx6 m c main_arg7 = (m ((c : Thread nD τ).loc main_arg7)) := (cx6 m c main_arg7 (by decide)).trans (val_e6_arg7 m c)

theorem val_e7_arg7 : Xe7 m c main_arg7 = (m ((c : Thread nD τ).loc main_arg7)) := (ce7 m c main_arg7 (by decide) (by decide) (by decide)).trans (val_x6_arg7 m c)

theorem val_x7_arg7 : Xx7 m c main_arg7 = (m ((c : Thread nD τ).loc main_arg7)) := (cx7 m c main_arg7 (by decide)).trans (val_e7_arg7 m c)

theorem val_e8_arg7 : Xe8 m c main_arg7 = (m ((c : Thread nD τ).loc main_arg7)) := (ce8 m c main_arg7 (by decide)).trans (val_x7_arg7 m c)

theorem val_x8_arg7 : Xx8 m c main_arg7 = (m ((c : Thread nD τ).loc main_arg7)) := (cx8 m c main_arg7 (by decide)).trans (val_e8_arg7 m c)

theorem val_e9_arg7 : Xe9 m c main_arg7 = (m ((c : Thread nD τ).loc main_arg7)) := (ce9 m c main_arg7 (by decide)).trans (val_x8_arg7 m c)

theorem val_x9_arg7 : Xx9 m c main_arg7 = (m ((c : Thread nD τ).loc main_arg7)) := (cx9 m c main_arg7 (by decide)).trans (val_e9_arg7 m c)

theorem val_e10_arg7 : Xe10 m c main_arg7 = (m ((c : Thread nD τ).loc main_arg7)) := (ce10 m c main_arg7 (by decide)).trans (val_x9_arg7 m c)

theorem val_x10_arg7 : Xx10 m c main_arg7 = (m ((c : Thread nD τ).loc main_arg7)) := (cx10 m c main_arg7 (by decide)).trans (val_e10_arg7 m c)

theorem val_e11_arg7 : Xe11 m c main_arg7 = (m ((c : Thread nD τ).loc main_arg7)) := (ce11 m c main_arg7 (by decide)).trans (val_x10_arg7 m c)

theorem val_x11_arg7 : Xx11 m c main_arg7 = (m ((c : Thread nD τ).loc main_arg7)) := (cx11 m c main_arg7 (by decide)).trans (val_e11_arg7 m c)

theorem val_e12_arg7 : Xe12 m c main_arg7 = (m ((c : Thread nD τ).loc main_arg7)) := (ce12 m c main_arg7 (by decide)).trans (val_x11_arg7 m c)

theorem val_x12_arg7 : Xx12 m c main_arg7 = (m ((c : Thread nD τ).loc main_arg7)) := (cx12 m c main_arg7 (by decide)).trans (val_e12_arg7 m c)

theorem val_e13_arg7 : Xe13 m c main_arg7 = (m ((c : Thread nD τ).loc main_arg7)) := (ce13 m c main_arg7 (by decide)).trans (val_x12_arg7 m c)

theorem val_x13_arg7 : Xx13 m c main_arg7 = (m ((c : Thread nD τ).loc main_arg7)) := (cx13 m c main_arg7 (by decide)).trans (val_e13_arg7 m c)

theorem val_e0_arg8 : Xe0 m c main_arg8 = (m ((c : Thread nD τ).loc main_arg8)) := (V3_of m c main_arg8 (by decide)).trans ((V2_of m c main_arg8 (by decide)).trans (V1_of m c main_arg8 (by decide)))

theorem val_x0_arg8 : Xx0 m c main_arg8 = (m ((c : Thread nD τ).loc main_arg8)) := (cx0 m c main_arg8 (by decide)).trans (val_e0_arg8 m c)

theorem val_e1_arg8 : Xe1 m c main_arg8 = (m ((c : Thread nD τ).loc main_arg8)) := (ce1 m c main_arg8 (by decide)).trans (val_x0_arg8 m c)

theorem val_x1_arg8 : Xx1 m c main_arg8 = (m ((c : Thread nD τ).loc main_arg8)) := (cx1 m c main_arg8 (by decide)).trans (val_e1_arg8 m c)

theorem val_e2_arg8 : Xe2 m c main_arg8 = (m ((c : Thread nD τ).loc main_arg8)) := (ce2 m c main_arg8 (by decide)).trans (val_x1_arg8 m c)

theorem val_x2_arg8 : Xx2 m c main_arg8 = (m ((c : Thread nD τ).loc main_arg8)) := (cx2 m c main_arg8 (by decide)).trans (val_e2_arg8 m c)

theorem val_e3_arg8 : Xe3 m c main_arg8 = (m ((c : Thread nD τ).loc main_arg8)) := (ce3 m c main_arg8 (by decide)).trans (val_x2_arg8 m c)

theorem val_x3_arg8 : Xx3 m c main_arg8 = (m ((c : Thread nD τ).loc main_arg8)) := (cx3 m c main_arg8 (by decide)).trans (val_e3_arg8 m c)

theorem val_e4_arg8 : Xe4 m c main_arg8 = (m ((c : Thread nD τ).loc main_arg8)) := (ce4 m c main_arg8 (by decide)).trans (val_x3_arg8 m c)

theorem val_x4_arg8 : Xx4 m c main_arg8 = (m ((c : Thread nD τ).loc main_arg8)) := (cx4 m c main_arg8 (by decide)).trans (val_e4_arg8 m c)

theorem val_e5_arg8 : Xe5 m c main_arg8 = (m ((c : Thread nD τ).loc main_arg8)) := (ce5 m c main_arg8 (by decide)).trans (val_x4_arg8 m c)

theorem val_x5_arg8 : Xx5 m c main_arg8 = (m ((c : Thread nD τ).loc main_arg8)) := (cx5 m c main_arg8 (by decide)).trans (val_e5_arg8 m c)

theorem val_e6_arg8 : Xe6 m c main_arg8 = (m ((c : Thread nD τ).loc main_arg8)) := (ce6 m c main_arg8 (by decide)).trans (val_x5_arg8 m c)

theorem val_x6_arg8 : Xx6 m c main_arg8 = (m ((c : Thread nD τ).loc main_arg8)) := (cx6 m c main_arg8 (by decide)).trans (val_e6_arg8 m c)

theorem val_e7_arg8 : Xe7 m c main_arg8 = (m ((c : Thread nD τ).loc main_arg8)) := (ce7 m c main_arg8 (by decide) (by decide) (by decide)).trans (val_x6_arg8 m c)

theorem val_x7_arg8 : Xx7 m c main_arg8 = (m ((c : Thread nD τ).loc main_arg8)) := (cx7 m c main_arg8 (by decide)).trans (val_e7_arg8 m c)

theorem val_e8_arg8 : Xe8 m c main_arg8 = (m ((c : Thread nD τ).loc main_arg8)) := (ce8 m c main_arg8 (by decide)).trans (val_x7_arg8 m c)

theorem val_x8_arg8 : Xx8 m c main_arg8 = (m ((c : Thread nD τ).loc main_arg8)) := (cx8 m c main_arg8 (by decide)).trans (val_e8_arg8 m c)

theorem val_e9_arg8 : Xe9 m c main_arg8 = (m ((c : Thread nD τ).loc main_arg8)) := (ce9 m c main_arg8 (by decide)).trans (val_x8_arg8 m c)

theorem val_x9_arg8 : Xx9 m c main_arg8 = (m ((c : Thread nD τ).loc main_arg8)) := (cx9 m c main_arg8 (by decide)).trans (val_e9_arg8 m c)

theorem val_e10_arg8 : Xe10 m c main_arg8 = (m ((c : Thread nD τ).loc main_arg8)) := (ce10 m c main_arg8 (by decide)).trans (val_x9_arg8 m c)

theorem val_x10_arg8 : Xx10 m c main_arg8 = (m ((c : Thread nD τ).loc main_arg8)) := (cx10 m c main_arg8 (by decide)).trans (val_e10_arg8 m c)

theorem val_e11_arg8 : Xe11 m c main_arg8 = (m ((c : Thread nD τ).loc main_arg8)) := (ce11 m c main_arg8 (by decide)).trans (val_x10_arg8 m c)

theorem val_x11_arg8 : Xx11 m c main_arg8 = (m ((c : Thread nD τ).loc main_arg8)) := (cx11 m c main_arg8 (by decide)).trans (val_e11_arg8 m c)

theorem val_e12_arg8 : Xe12 m c main_arg8 = (m ((c : Thread nD τ).loc main_arg8)) := (ce12 m c main_arg8 (by decide)).trans (val_x11_arg8 m c)

theorem val_x12_arg8 : Xx12 m c main_arg8 = (m ((c : Thread nD τ).loc main_arg8)) := (cx12 m c main_arg8 (by decide)).trans (val_e12_arg8 m c)

theorem val_e13_arg8 : Xe13 m c main_arg8 = (m ((c : Thread nD τ).loc main_arg8)) := (ce13 m c main_arg8 (by decide)).trans (val_x12_arg8 m c)

theorem val_x13_arg8 : Xx13 m c main_arg8 = (m ((c : Thread nD τ).loc main_arg8)) := (cx13 m c main_arg8 (by decide)).trans (val_e13_arg8 m c)

theorem val_e14_v119 : Xe14 m c main_v119 = (concatenate Cert.ReferenceIdeal.S512x129 1 [⟨Cert.ReferenceIdeal.S512x64, (Cert.HostForms.meanPool (t_v46 m c) (m ((c : Thread nD τ).loc main_arg3)))⟩, ⟨Cert.ReferenceIdeal.S512x64, Cert.HostForms.meanPool (t_v105 m c) (m ((c : Thread nD τ).loc main_arg7))⟩, ⟨Cert.ReferenceIdeal.S512x1, broadcastInDim Cert.ReferenceIdeal.S512x1 ![0] Cert.ReferenceIdeal.Gen.bcast_S512_S512x1_0 (m ((c : Thread nD τ).loc main_arg8))⟩] Cert.ReferenceIdeal.Gen.concatenates_S512x64_S512x64_S512x1_S512x129_d1) := by
  refine (s14_v119 (Xx13 m c)).trans ?_
  rw [val_x13_v58 m c, val_x13_v105 m c, val_x13_arg7 m c, val_x13_arg8 m c]

theorem val_e0_arg37 : Xe0 m c main_arg37 = (m ((c : Thread nD τ).loc main_arg37)) := (V3_of m c main_arg37 (by decide)).trans ((V2_of m c main_arg37 (by decide)).trans (V1_of m c main_arg37 (by decide)))

theorem val_x0_arg37 : Xx0 m c main_arg37 = (m ((c : Thread nD τ).loc main_arg37)) := (cx0 m c main_arg37 (by decide)).trans (val_e0_arg37 m c)

theorem val_e1_arg37 : Xe1 m c main_arg37 = (m ((c : Thread nD τ).loc main_arg37)) := (ce1 m c main_arg37 (by decide)).trans (val_x0_arg37 m c)

theorem val_x1_arg37 : Xx1 m c main_arg37 = (m ((c : Thread nD τ).loc main_arg37)) := (cx1 m c main_arg37 (by decide)).trans (val_e1_arg37 m c)

theorem val_e2_arg37 : Xe2 m c main_arg37 = (m ((c : Thread nD τ).loc main_arg37)) := (ce2 m c main_arg37 (by decide)).trans (val_x1_arg37 m c)

theorem val_x2_arg37 : Xx2 m c main_arg37 = (m ((c : Thread nD τ).loc main_arg37)) := (cx2 m c main_arg37 (by decide)).trans (val_e2_arg37 m c)

theorem val_e3_arg37 : Xe3 m c main_arg37 = (m ((c : Thread nD τ).loc main_arg37)) := (ce3 m c main_arg37 (by decide)).trans (val_x2_arg37 m c)

theorem val_x3_arg37 : Xx3 m c main_arg37 = (m ((c : Thread nD τ).loc main_arg37)) := (cx3 m c main_arg37 (by decide)).trans (val_e3_arg37 m c)

theorem val_e4_arg37 : Xe4 m c main_arg37 = (m ((c : Thread nD τ).loc main_arg37)) := (ce4 m c main_arg37 (by decide)).trans (val_x3_arg37 m c)

theorem val_x4_arg37 : Xx4 m c main_arg37 = (m ((c : Thread nD τ).loc main_arg37)) := (cx4 m c main_arg37 (by decide)).trans (val_e4_arg37 m c)

theorem val_e5_arg37 : Xe5 m c main_arg37 = (m ((c : Thread nD τ).loc main_arg37)) := (ce5 m c main_arg37 (by decide)).trans (val_x4_arg37 m c)

theorem val_x5_arg37 : Xx5 m c main_arg37 = (m ((c : Thread nD τ).loc main_arg37)) := (cx5 m c main_arg37 (by decide)).trans (val_e5_arg37 m c)

theorem val_e6_arg37 : Xe6 m c main_arg37 = (m ((c : Thread nD τ).loc main_arg37)) := (ce6 m c main_arg37 (by decide)).trans (val_x5_arg37 m c)

theorem val_x6_arg37 : Xx6 m c main_arg37 = (m ((c : Thread nD τ).loc main_arg37)) := (cx6 m c main_arg37 (by decide)).trans (val_e6_arg37 m c)

theorem val_e7_arg37 : Xe7 m c main_arg37 = (m ((c : Thread nD τ).loc main_arg37)) := (ce7 m c main_arg37 (by decide) (by decide) (by decide)).trans (val_x6_arg37 m c)

theorem val_x7_arg37 : Xx7 m c main_arg37 = (m ((c : Thread nD τ).loc main_arg37)) := (cx7 m c main_arg37 (by decide)).trans (val_e7_arg37 m c)

theorem val_e8_arg37 : Xe8 m c main_arg37 = (m ((c : Thread nD τ).loc main_arg37)) := (ce8 m c main_arg37 (by decide)).trans (val_x7_arg37 m c)

theorem val_x8_arg37 : Xx8 m c main_arg37 = (m ((c : Thread nD τ).loc main_arg37)) := (cx8 m c main_arg37 (by decide)).trans (val_e8_arg37 m c)

theorem val_e9_arg37 : Xe9 m c main_arg37 = (m ((c : Thread nD τ).loc main_arg37)) := (ce9 m c main_arg37 (by decide)).trans (val_x8_arg37 m c)

theorem val_x9_arg37 : Xx9 m c main_arg37 = (m ((c : Thread nD τ).loc main_arg37)) := (cx9 m c main_arg37 (by decide)).trans (val_e9_arg37 m c)

theorem val_e10_arg37 : Xe10 m c main_arg37 = (m ((c : Thread nD τ).loc main_arg37)) := (ce10 m c main_arg37 (by decide)).trans (val_x9_arg37 m c)

theorem val_x10_arg37 : Xx10 m c main_arg37 = (m ((c : Thread nD τ).loc main_arg37)) := (cx10 m c main_arg37 (by decide)).trans (val_e10_arg37 m c)

theorem val_e11_arg37 : Xe11 m c main_arg37 = (m ((c : Thread nD τ).loc main_arg37)) := (ce11 m c main_arg37 (by decide)).trans (val_x10_arg37 m c)

theorem val_x11_arg37 : Xx11 m c main_arg37 = (m ((c : Thread nD τ).loc main_arg37)) := (cx11 m c main_arg37 (by decide)).trans (val_e11_arg37 m c)

theorem val_e12_arg37 : Xe12 m c main_arg37 = (m ((c : Thread nD τ).loc main_arg37)) := (ce12 m c main_arg37 (by decide)).trans (val_x11_arg37 m c)

theorem val_x12_arg37 : Xx12 m c main_arg37 = (m ((c : Thread nD τ).loc main_arg37)) := (cx12 m c main_arg37 (by decide)).trans (val_e12_arg37 m c)

theorem val_e13_arg37 : Xe13 m c main_arg37 = (m ((c : Thread nD τ).loc main_arg37)) := (ce13 m c main_arg37 (by decide)).trans (val_x12_arg37 m c)

theorem val_x13_arg37 : Xx13 m c main_arg37 = (m ((c : Thread nD τ).loc main_arg37)) := (cx13 m c main_arg37 (by decide)).trans (val_e13_arg37 m c)

theorem val_e14_arg37 : Xe14 m c main_arg37 = (m ((c : Thread nD τ).loc main_arg37)) := (ce14 m c main_arg37 (by decide)).trans (val_x13_arg37 m c)

theorem val_e0_arg38 : Xe0 m c main_arg38 = (m ((c : Thread nD τ).loc main_arg38)) := (V3_of m c main_arg38 (by decide)).trans ((V2_of m c main_arg38 (by decide)).trans (V1_of m c main_arg38 (by decide)))

theorem val_x0_arg38 : Xx0 m c main_arg38 = (m ((c : Thread nD τ).loc main_arg38)) := (cx0 m c main_arg38 (by decide)).trans (val_e0_arg38 m c)

theorem val_e1_arg38 : Xe1 m c main_arg38 = (m ((c : Thread nD τ).loc main_arg38)) := (ce1 m c main_arg38 (by decide)).trans (val_x0_arg38 m c)

theorem val_x1_arg38 : Xx1 m c main_arg38 = (m ((c : Thread nD τ).loc main_arg38)) := (cx1 m c main_arg38 (by decide)).trans (val_e1_arg38 m c)

theorem val_e2_arg38 : Xe2 m c main_arg38 = (m ((c : Thread nD τ).loc main_arg38)) := (ce2 m c main_arg38 (by decide)).trans (val_x1_arg38 m c)

theorem val_x2_arg38 : Xx2 m c main_arg38 = (m ((c : Thread nD τ).loc main_arg38)) := (cx2 m c main_arg38 (by decide)).trans (val_e2_arg38 m c)

theorem val_e3_arg38 : Xe3 m c main_arg38 = (m ((c : Thread nD τ).loc main_arg38)) := (ce3 m c main_arg38 (by decide)).trans (val_x2_arg38 m c)

theorem val_x3_arg38 : Xx3 m c main_arg38 = (m ((c : Thread nD τ).loc main_arg38)) := (cx3 m c main_arg38 (by decide)).trans (val_e3_arg38 m c)

theorem val_e4_arg38 : Xe4 m c main_arg38 = (m ((c : Thread nD τ).loc main_arg38)) := (ce4 m c main_arg38 (by decide)).trans (val_x3_arg38 m c)

theorem val_x4_arg38 : Xx4 m c main_arg38 = (m ((c : Thread nD τ).loc main_arg38)) := (cx4 m c main_arg38 (by decide)).trans (val_e4_arg38 m c)

theorem val_e5_arg38 : Xe5 m c main_arg38 = (m ((c : Thread nD τ).loc main_arg38)) := (ce5 m c main_arg38 (by decide)).trans (val_x4_arg38 m c)

theorem val_x5_arg38 : Xx5 m c main_arg38 = (m ((c : Thread nD τ).loc main_arg38)) := (cx5 m c main_arg38 (by decide)).trans (val_e5_arg38 m c)

theorem val_e6_arg38 : Xe6 m c main_arg38 = (m ((c : Thread nD τ).loc main_arg38)) := (ce6 m c main_arg38 (by decide)).trans (val_x5_arg38 m c)

theorem val_x6_arg38 : Xx6 m c main_arg38 = (m ((c : Thread nD τ).loc main_arg38)) := (cx6 m c main_arg38 (by decide)).trans (val_e6_arg38 m c)

theorem val_e7_arg38 : Xe7 m c main_arg38 = (m ((c : Thread nD τ).loc main_arg38)) := (ce7 m c main_arg38 (by decide) (by decide) (by decide)).trans (val_x6_arg38 m c)

theorem val_x7_arg38 : Xx7 m c main_arg38 = (m ((c : Thread nD τ).loc main_arg38)) := (cx7 m c main_arg38 (by decide)).trans (val_e7_arg38 m c)

theorem val_e8_arg38 : Xe8 m c main_arg38 = (m ((c : Thread nD τ).loc main_arg38)) := (ce8 m c main_arg38 (by decide)).trans (val_x7_arg38 m c)

theorem val_x8_arg38 : Xx8 m c main_arg38 = (m ((c : Thread nD τ).loc main_arg38)) := (cx8 m c main_arg38 (by decide)).trans (val_e8_arg38 m c)

theorem val_e9_arg38 : Xe9 m c main_arg38 = (m ((c : Thread nD τ).loc main_arg38)) := (ce9 m c main_arg38 (by decide)).trans (val_x8_arg38 m c)

theorem val_x9_arg38 : Xx9 m c main_arg38 = (m ((c : Thread nD τ).loc main_arg38)) := (cx9 m c main_arg38 (by decide)).trans (val_e9_arg38 m c)

theorem val_e10_arg38 : Xe10 m c main_arg38 = (m ((c : Thread nD τ).loc main_arg38)) := (ce10 m c main_arg38 (by decide)).trans (val_x9_arg38 m c)

theorem val_x10_arg38 : Xx10 m c main_arg38 = (m ((c : Thread nD τ).loc main_arg38)) := (cx10 m c main_arg38 (by decide)).trans (val_e10_arg38 m c)

theorem val_e11_arg38 : Xe11 m c main_arg38 = (m ((c : Thread nD τ).loc main_arg38)) := (ce11 m c main_arg38 (by decide)).trans (val_x10_arg38 m c)

theorem val_x11_arg38 : Xx11 m c main_arg38 = (m ((c : Thread nD τ).loc main_arg38)) := (cx11 m c main_arg38 (by decide)).trans (val_e11_arg38 m c)

theorem val_e12_arg38 : Xe12 m c main_arg38 = (m ((c : Thread nD τ).loc main_arg38)) := (ce12 m c main_arg38 (by decide)).trans (val_x11_arg38 m c)

theorem val_x12_arg38 : Xx12 m c main_arg38 = (m ((c : Thread nD τ).loc main_arg38)) := (cx12 m c main_arg38 (by decide)).trans (val_e12_arg38 m c)

theorem val_e13_arg38 : Xe13 m c main_arg38 = (m ((c : Thread nD τ).loc main_arg38)) := (ce13 m c main_arg38 (by decide)).trans (val_x12_arg38 m c)

theorem val_x13_arg38 : Xx13 m c main_arg38 = (m ((c : Thread nD τ).loc main_arg38)) := (cx13 m c main_arg38 (by decide)).trans (val_e13_arg38 m c)

theorem val_e14_v120 : Xe14 m c main_v120 = (Cert.HostForms.row64 (m ((c : Thread nD τ).loc main_arg38))) := by
  refine (s14_v120 (Xx13 m c)).trans ?_
  rw [val_x13_arg38 m c]

theorem val_e0_arg39 : Xe0 m c main_arg39 = (m ((c : Thread nD τ).loc main_arg39)) := (V3_of m c main_arg39 (by decide)).trans ((V2_of m c main_arg39 (by decide)).trans (V1_of m c main_arg39 (by decide)))

theorem val_x0_arg39 : Xx0 m c main_arg39 = (m ((c : Thread nD τ).loc main_arg39)) := (cx0 m c main_arg39 (by decide)).trans (val_e0_arg39 m c)

theorem val_e1_arg39 : Xe1 m c main_arg39 = (m ((c : Thread nD τ).loc main_arg39)) := (ce1 m c main_arg39 (by decide)).trans (val_x0_arg39 m c)

theorem val_x1_arg39 : Xx1 m c main_arg39 = (m ((c : Thread nD τ).loc main_arg39)) := (cx1 m c main_arg39 (by decide)).trans (val_e1_arg39 m c)

theorem val_e2_arg39 : Xe2 m c main_arg39 = (m ((c : Thread nD τ).loc main_arg39)) := (ce2 m c main_arg39 (by decide)).trans (val_x1_arg39 m c)

theorem val_x2_arg39 : Xx2 m c main_arg39 = (m ((c : Thread nD τ).loc main_arg39)) := (cx2 m c main_arg39 (by decide)).trans (val_e2_arg39 m c)

theorem val_e3_arg39 : Xe3 m c main_arg39 = (m ((c : Thread nD τ).loc main_arg39)) := (ce3 m c main_arg39 (by decide)).trans (val_x2_arg39 m c)

theorem val_x3_arg39 : Xx3 m c main_arg39 = (m ((c : Thread nD τ).loc main_arg39)) := (cx3 m c main_arg39 (by decide)).trans (val_e3_arg39 m c)

theorem val_e4_arg39 : Xe4 m c main_arg39 = (m ((c : Thread nD τ).loc main_arg39)) := (ce4 m c main_arg39 (by decide)).trans (val_x3_arg39 m c)

theorem val_x4_arg39 : Xx4 m c main_arg39 = (m ((c : Thread nD τ).loc main_arg39)) := (cx4 m c main_arg39 (by decide)).trans (val_e4_arg39 m c)

theorem val_e5_arg39 : Xe5 m c main_arg39 = (m ((c : Thread nD τ).loc main_arg39)) := (ce5 m c main_arg39 (by decide)).trans (val_x4_arg39 m c)

theorem val_x5_arg39 : Xx5 m c main_arg39 = (m ((c : Thread nD τ).loc main_arg39)) := (cx5 m c main_arg39 (by decide)).trans (val_e5_arg39 m c)

theorem val_e6_arg39 : Xe6 m c main_arg39 = (m ((c : Thread nD τ).loc main_arg39)) := (ce6 m c main_arg39 (by decide)).trans (val_x5_arg39 m c)

theorem val_x6_arg39 : Xx6 m c main_arg39 = (m ((c : Thread nD τ).loc main_arg39)) := (cx6 m c main_arg39 (by decide)).trans (val_e6_arg39 m c)

theorem val_e7_arg39 : Xe7 m c main_arg39 = (m ((c : Thread nD τ).loc main_arg39)) := (ce7 m c main_arg39 (by decide) (by decide) (by decide)).trans (val_x6_arg39 m c)

theorem val_x7_arg39 : Xx7 m c main_arg39 = (m ((c : Thread nD τ).loc main_arg39)) := (cx7 m c main_arg39 (by decide)).trans (val_e7_arg39 m c)

theorem val_e8_arg39 : Xe8 m c main_arg39 = (m ((c : Thread nD τ).loc main_arg39)) := (ce8 m c main_arg39 (by decide)).trans (val_x7_arg39 m c)

theorem val_x8_arg39 : Xx8 m c main_arg39 = (m ((c : Thread nD τ).loc main_arg39)) := (cx8 m c main_arg39 (by decide)).trans (val_e8_arg39 m c)

theorem val_e9_arg39 : Xe9 m c main_arg39 = (m ((c : Thread nD τ).loc main_arg39)) := (ce9 m c main_arg39 (by decide)).trans (val_x8_arg39 m c)

theorem val_x9_arg39 : Xx9 m c main_arg39 = (m ((c : Thread nD τ).loc main_arg39)) := (cx9 m c main_arg39 (by decide)).trans (val_e9_arg39 m c)

theorem val_e10_arg39 : Xe10 m c main_arg39 = (m ((c : Thread nD τ).loc main_arg39)) := (ce10 m c main_arg39 (by decide)).trans (val_x9_arg39 m c)

theorem val_x10_arg39 : Xx10 m c main_arg39 = (m ((c : Thread nD τ).loc main_arg39)) := (cx10 m c main_arg39 (by decide)).trans (val_e10_arg39 m c)

theorem val_e11_arg39 : Xe11 m c main_arg39 = (m ((c : Thread nD τ).loc main_arg39)) := (ce11 m c main_arg39 (by decide)).trans (val_x10_arg39 m c)

theorem val_x11_arg39 : Xx11 m c main_arg39 = (m ((c : Thread nD τ).loc main_arg39)) := (cx11 m c main_arg39 (by decide)).trans (val_e11_arg39 m c)

theorem val_e12_arg39 : Xe12 m c main_arg39 = (m ((c : Thread nD τ).loc main_arg39)) := (ce12 m c main_arg39 (by decide)).trans (val_x11_arg39 m c)

theorem val_x12_arg39 : Xx12 m c main_arg39 = (m ((c : Thread nD τ).loc main_arg39)) := (cx12 m c main_arg39 (by decide)).trans (val_e12_arg39 m c)

theorem val_e13_arg39 : Xe13 m c main_arg39 = (m ((c : Thread nD τ).loc main_arg39)) := (ce13 m c main_arg39 (by decide)).trans (val_x12_arg39 m c)

theorem val_x13_arg39 : Xx13 m c main_arg39 = (m ((c : Thread nD τ).loc main_arg39)) := (cx13 m c main_arg39 (by decide)).trans (val_e13_arg39 m c)

theorem val_e14_arg39 : Xe14 m c main_arg39 = (m ((c : Thread nD τ).loc main_arg39)) := (ce14 m c main_arg39 (by decide)).trans (val_x13_arg39 m c)

theorem val_e0_arg40 : Xe0 m c main_arg40 = (m ((c : Thread nD τ).loc main_arg40)) := (V3_of m c main_arg40 (by decide)).trans ((V2_of m c main_arg40 (by decide)).trans (V1_of m c main_arg40 (by decide)))

theorem val_x0_arg40 : Xx0 m c main_arg40 = (m ((c : Thread nD τ).loc main_arg40)) := (cx0 m c main_arg40 (by decide)).trans (val_e0_arg40 m c)

theorem val_e1_arg40 : Xe1 m c main_arg40 = (m ((c : Thread nD τ).loc main_arg40)) := (ce1 m c main_arg40 (by decide)).trans (val_x0_arg40 m c)

theorem val_x1_arg40 : Xx1 m c main_arg40 = (m ((c : Thread nD τ).loc main_arg40)) := (cx1 m c main_arg40 (by decide)).trans (val_e1_arg40 m c)

theorem val_e2_arg40 : Xe2 m c main_arg40 = (m ((c : Thread nD τ).loc main_arg40)) := (ce2 m c main_arg40 (by decide)).trans (val_x1_arg40 m c)

theorem val_x2_arg40 : Xx2 m c main_arg40 = (m ((c : Thread nD τ).loc main_arg40)) := (cx2 m c main_arg40 (by decide)).trans (val_e2_arg40 m c)

theorem val_e3_arg40 : Xe3 m c main_arg40 = (m ((c : Thread nD τ).loc main_arg40)) := (ce3 m c main_arg40 (by decide)).trans (val_x2_arg40 m c)

theorem val_x3_arg40 : Xx3 m c main_arg40 = (m ((c : Thread nD τ).loc main_arg40)) := (cx3 m c main_arg40 (by decide)).trans (val_e3_arg40 m c)

theorem val_e4_arg40 : Xe4 m c main_arg40 = (m ((c : Thread nD τ).loc main_arg40)) := (ce4 m c main_arg40 (by decide)).trans (val_x3_arg40 m c)

theorem val_x4_arg40 : Xx4 m c main_arg40 = (m ((c : Thread nD τ).loc main_arg40)) := (cx4 m c main_arg40 (by decide)).trans (val_e4_arg40 m c)

theorem val_e5_arg40 : Xe5 m c main_arg40 = (m ((c : Thread nD τ).loc main_arg40)) := (ce5 m c main_arg40 (by decide)).trans (val_x4_arg40 m c)

theorem val_x5_arg40 : Xx5 m c main_arg40 = (m ((c : Thread nD τ).loc main_arg40)) := (cx5 m c main_arg40 (by decide)).trans (val_e5_arg40 m c)

theorem val_e6_arg40 : Xe6 m c main_arg40 = (m ((c : Thread nD τ).loc main_arg40)) := (ce6 m c main_arg40 (by decide)).trans (val_x5_arg40 m c)

theorem val_x6_arg40 : Xx6 m c main_arg40 = (m ((c : Thread nD τ).loc main_arg40)) := (cx6 m c main_arg40 (by decide)).trans (val_e6_arg40 m c)

theorem val_e7_arg40 : Xe7 m c main_arg40 = (m ((c : Thread nD τ).loc main_arg40)) := (ce7 m c main_arg40 (by decide) (by decide) (by decide)).trans (val_x6_arg40 m c)

theorem val_x7_arg40 : Xx7 m c main_arg40 = (m ((c : Thread nD τ).loc main_arg40)) := (cx7 m c main_arg40 (by decide)).trans (val_e7_arg40 m c)

theorem val_e8_arg40 : Xe8 m c main_arg40 = (m ((c : Thread nD τ).loc main_arg40)) := (ce8 m c main_arg40 (by decide)).trans (val_x7_arg40 m c)

theorem val_x8_arg40 : Xx8 m c main_arg40 = (m ((c : Thread nD τ).loc main_arg40)) := (cx8 m c main_arg40 (by decide)).trans (val_e8_arg40 m c)

theorem val_e9_arg40 : Xe9 m c main_arg40 = (m ((c : Thread nD τ).loc main_arg40)) := (ce9 m c main_arg40 (by decide)).trans (val_x8_arg40 m c)

theorem val_x9_arg40 : Xx9 m c main_arg40 = (m ((c : Thread nD τ).loc main_arg40)) := (cx9 m c main_arg40 (by decide)).trans (val_e9_arg40 m c)

theorem val_e10_arg40 : Xe10 m c main_arg40 = (m ((c : Thread nD τ).loc main_arg40)) := (ce10 m c main_arg40 (by decide)).trans (val_x9_arg40 m c)

theorem val_x10_arg40 : Xx10 m c main_arg40 = (m ((c : Thread nD τ).loc main_arg40)) := (cx10 m c main_arg40 (by decide)).trans (val_e10_arg40 m c)

theorem val_e11_arg40 : Xe11 m c main_arg40 = (m ((c : Thread nD τ).loc main_arg40)) := (ce11 m c main_arg40 (by decide)).trans (val_x10_arg40 m c)

theorem val_x11_arg40 : Xx11 m c main_arg40 = (m ((c : Thread nD τ).loc main_arg40)) := (cx11 m c main_arg40 (by decide)).trans (val_e11_arg40 m c)

theorem val_e12_arg40 : Xe12 m c main_arg40 = (m ((c : Thread nD τ).loc main_arg40)) := (ce12 m c main_arg40 (by decide)).trans (val_x11_arg40 m c)

theorem val_x12_arg40 : Xx12 m c main_arg40 = (m ((c : Thread nD τ).loc main_arg40)) := (cx12 m c main_arg40 (by decide)).trans (val_e12_arg40 m c)

theorem val_e13_arg40 : Xe13 m c main_arg40 = (m ((c : Thread nD τ).loc main_arg40)) := (ce13 m c main_arg40 (by decide)).trans (val_x12_arg40 m c)

theorem val_x13_arg40 : Xx13 m c main_arg40 = (m ((c : Thread nD τ).loc main_arg40)) := (cx13 m c main_arg40 (by decide)).trans (val_e13_arg40 m c)

theorem val_e14_v121 : Xe14 m c main_v121 = (Cert.HostForms.row1 (m ((c : Thread nD τ).loc main_arg40))) := by
  refine (s14_v121 (Xx13 m c)).trans ?_
  rw [val_x13_arg40 m c]

/-- What region 14 leaves in main_v122. -/
def t_v122 (m : (ℓ : Loc nD τ sig) → Buf (Elt Ideal) ℓ) (c : Dev nD) := Cert.HostForms.mlp2Head (concatenate Cert.ReferenceIdeal.S512x129 1 [⟨Cert.ReferenceIdeal.S512x64, (Cert.HostForms.meanPool (t_v46 m c) (m ((c : Thread nD τ).loc main_arg3)))⟩, ⟨Cert.ReferenceIdeal.S512x64, Cert.HostForms.meanPool (t_v105 m c) (m ((c : Thread nD τ).loc main_arg7))⟩, ⟨Cert.ReferenceIdeal.S512x1, broadcastInDim Cert.ReferenceIdeal.S512x1 ![0] Cert.ReferenceIdeal.Gen.bcast_S512_S512x1_0 (m ((c : Thread nD τ).loc main_arg8))⟩] Cert.ReferenceIdeal.Gen.concatenates_S512x64_S512x64_S512x1_S512x129_d1) (m ((c : Thread nD τ).loc main_arg37)) (Cert.HostForms.row64 (m ((c : Thread nD τ).loc main_arg38))) (m ((c : Thread nD τ).loc main_arg39)) (Cert.HostForms.row1 (m ((c : Thread nD τ).loc main_arg40)))

theorem val_x14_v122 : Xx14 m c main_v122 = (t_v122 m c) := by
  unfold Xx14
  rw [Function.update_self, final14]
  show Cert.HostForms.mlp2Head (Xe14 m c main_v119) (Xe14 m c main_arg37) (Xe14 m c main_v120) (Xe14 m c main_arg39) (Xe14 m c main_v121) = _
  rw [val_e14_v119 m c, val_e14_arg37 m c, val_e14_v120 m c, val_e14_arg39 m c, val_e14_v121 m c]
  rfl

/-- The result buffer after the last item: the regressor's column as a vector of 512 entries. -/
theorem result_val : V35 m (outs m) c main_v123 = shapeCast _ (t_v122 m c) Cert.ReferenceIdeal.Gen.shapeCasts_S512x1_S512 := by
  show StableHlo.after hostOps15 (V34 m (outs m) c) main_v123 = _
  rw [Vx14_eq]
  refine (s15_v123 (Xx14 m c)).trans ?_
  rw [val_x14_v122 m c]

end Cert.KernelIdeal.Hand

end
-- ==== Proof.Ideal.Bridge.lean ====
import proofs.«106349_j21990232555677_1_alg».proof.Proof.Ideal.Chain
import proofs.«106349_j21990232555677_1_alg».proof.Proof.Ideal.Frame

/-!
# The kernel program's result is `output` of its arguments

Every weakly fair execution of the kernel program's @main ends with the result buffer at what the last region leaves,
recast to a vector; and that, unfolded through the stages, is the regressor on the two graphs' encodings beside the
depth column — the same function of the argument arrays as the host program's result.
-/

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem
open Cert.HostForms (meanPool conv1 conv2 nodeEnc edgeEnc)

variable (m : (ℓ : Loc nD τ sig) → Buf (Elt Ideal) ℓ)

/-- The result as one function of the argument arrays. -/
def result (c : Dev nD) : Buf (Elt Ideal) ((c.tc : Thread nD τ).loc main_v123) :=
  shapeCast _ (t_v122 m c) Cert.ReferenceIdeal.Gen.shapeCasts_S512x1_S512

set_option maxHeartbeats 4000000 in
/-- The run with the result named and the arguments unchanged. -/
theorem value_run (ρ : Dev nD → PrngReg) :
    θ_run defs (onTc (τ := τ) (main (F := Ideal))) ⟨m, fun _ => 0, ρ⟩ (fun r => ∀ c : Dev nD,
      r.2.mem ((c.tc : Thread nD τ).loc main_v123) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)) :=
  (θ_run defs _ _).mono (fun r h c => ⟨(h c (Proc.devRef .tc main_v123) (mem_uc main_v123 (by decide))).trans (result_val m c),
    (h c (Proc.devRef .tc main_arg0) (mem_uc main_arg0 (by decide))).trans (V35_main_arg0 m (outs m) c),
    (h c (Proc.devRef .tc main_arg1) (mem_uc main_arg1 (by decide))).trans (V35_main_arg1 m (outs m) c),
    (h c (Proc.devRef .tc main_arg2) (mem_uc main_arg2 (by decide))).trans (V35_main_arg2 m (outs m) c),
    (h c (Proc.devRef .tc main_arg3) (mem_uc main_arg3 (by decide))).trans (V35_main_arg3 m (outs m) c),
    (h c (Proc.devRef .tc main_arg4) (mem_uc main_arg4 (by decide))).trans (V35_main_arg4 m (outs m) c),
    (h c (Proc.devRef .tc main_arg5) (mem_uc main_arg5 (by decide))).trans (V35_main_arg5 m (outs m) c),
    (h c (Proc.devRef .tc main_arg6) (mem_uc main_arg6 (by decide))).trans (V35_main_arg6 m (outs m) c),
    (h c (Proc.devRef .tc main_arg7) (mem_uc main_arg7 (by decide))).trans (V35_main_arg7 m (outs m) c),
    (h c (Proc.devRef .tc main_arg8) (mem_uc main_arg8 (by decide))).trans (V35_main_arg8 m (outs m) c),
    (h c (Proc.devRef .tc main_arg9) (mem_uc main_arg9 (by decide))).trans (V35_main_arg9 m (outs m) c),
    (h c (Proc.devRef .tc main_arg10) (mem_uc main_arg10 (by decide))).trans (V35_main_arg10 m (outs m) c),
    (h c (Proc.devRef .tc main_arg11) (mem_uc main_arg11 (by decide))).trans (V35_main_arg11 m (outs m) c),
    (h c (Proc.devRef .tc main_arg12) (mem_uc main_arg12 (by decide))).trans (V35_main_arg12 m (outs m) c),
    (h c (Proc.devRef .tc main_arg13) (mem_uc main_arg13 (by decide))).trans (V35_main_arg13 m (outs m) c),
    (h c (Proc.devRef .tc main_arg14) (mem_uc main_arg14 (by decide))).trans (V35_main_arg14 m (outs m) c),
    (h c (Proc.devRef .tc main_arg15) (mem_uc main_arg15 (by decide))).trans (V35_main_arg15 m (outs m) c),
    (h c (Proc.devRef .tc main_arg16) (mem_uc main_arg16 (by decide))).trans (V35_main_arg16 m (outs m) c),
    (h c (Proc.devRef .tc main_arg17) (mem_uc main_arg17 (by decide))).trans (V35_main_arg17 m (outs m) c),
    (h c (Proc.devRef .tc main_arg18) (mem_uc main_arg18 (by decide))).trans (V35_main_arg18 m (outs m) c),
    (h c (Proc.devRef .tc main_arg19) (mem_uc main_arg19 (by decide))).trans (V35_main_arg19 m (outs m) c),
    (h c (Proc.devRef .tc main_arg20) (mem_uc main_arg20 (by decide))).trans (V35_main_arg20 m (outs m) c),
    (h c (Proc.devRef .tc main_arg21) (mem_uc main_arg21 (by decide))).trans (V35_main_arg21 m (outs m) c),
    (h c (Proc.devRef .tc main_arg22) (mem_uc main_arg22 (by decide))).trans (V35_main_arg22 m (outs m) c),
    (h c (Proc.devRef .tc main_arg23) (mem_uc main_arg23 (by decide))).trans (V35_main_arg23 m (outs m) c),
    (h c (Proc.devRef .tc main_arg24) (mem_uc main_arg24 (by decide))).trans (V35_main_arg24 m (outs m) c),
    (h c (Proc.devRef .tc main_arg25) (mem_uc main_arg25 (by decide))).trans (V35_main_arg25 m (outs m) c),
    (h c (Proc.devRef .tc main_arg26) (mem_uc main_arg26 (by decide))).trans (V35_main_arg26 m (outs m) c),
    (h c (Proc.devRef .tc main_arg27) (mem_uc main_arg27 (by decide))).trans (V35_main_arg27 m (outs m) c),
    (h c (Proc.devRef .tc main_arg28) (mem_uc main_arg28 (by decide))).trans (V35_main_arg28 m (outs m) c),
    (h c (Proc.devRef .tc main_arg29) (mem_uc main_arg29 (by decide))).trans (V35_main_arg29 m (outs m) c),
    (h c (Proc.devRef .tc main_arg30) (mem_uc main_arg30 (by decide))).trans (V35_main_arg30 m (outs m) c),
    (h c (Proc.devRef .tc main_arg31) (mem_uc main_arg31 (by decide))).trans (V35_main_arg31 m (outs m) c),
    (h c (Proc.devRef .tc main_arg32) (mem_uc main_arg32 (by decide))).trans (V35_main_arg32 m (outs m) c),
    (h c (Proc.devRef .tc main_arg33) (mem_uc main_arg33 (by decide))).trans (V35_main_arg33 m (outs m) c),
    (h c (Proc.devRef .tc main_arg34) (mem_uc main_arg34 (by decide))).trans (V35_main_arg34 m (outs m) c),
    (h c (Proc.devRef .tc main_arg35) (mem_uc main_arg35 (by decide))).trans (V35_main_arg35 m (outs m) c),
    (h c (Proc.devRef .tc main_arg36) (mem_uc main_arg36 (by decide))).trans (V35_main_arg36 m (outs m) c),
    (h c (Proc.devRef .tc main_arg37) (mem_uc main_arg37 (by decide))).trans (V35_main_arg37 m (outs m) c),
    (h c (Proc.devRef .tc main_arg38) (mem_uc main_arg38 (by decide))).trans (V35_main_arg38 m (outs m) c),
    (h c (Proc.devRef .tc main_arg39) (mem_uc main_arg39 (by decide))).trans (V35_main_arg39 m (outs m) c),
    (h c (Proc.devRef .tc main_arg40) (mem_uc main_arg40 (by decide))).trans (V35_main_arg40 m (outs m) c)⟩) (run_all m ρ)

set_option maxHeartbeats 4000000 in
/-- The stages composed are the host program's `output` of the argument arrays. -/
theorem result_eq (c : Dev nD) :
    result m c = Cert.HostForms.output (meanPool (conv2 (conv1 (nodeEnc (m ((c : Thread nD τ).loc main_arg0)) (m ((c : Thread nD τ).loc main_arg9)) (m ((c : Thread nD τ).loc main_arg10)) (m ((c : Thread nD τ).loc main_arg11)) (m ((c : Thread nD τ).loc main_arg12))) (edgeEnc (m ((c : Thread nD τ).loc main_arg2)) (m ((c : Thread nD τ).loc main_arg13)) (m ((c : Thread nD τ).loc main_arg14)) (m ((c : Thread nD τ).loc main_arg15)) (m ((c : Thread nD τ).loc main_arg16))) (m ((c : Thread nD τ).loc main_arg1)) (m ((c : Thread nD τ).loc main_arg17)) (m ((c : Thread nD τ).loc main_arg18)) (m ((c : Thread nD τ).loc main_arg19)) (m ((c : Thread nD τ).loc main_arg20))) (edgeEnc (m ((c : Thread nD τ).loc main_arg2)) (m ((c : Thread nD τ).loc main_arg13)) (m ((c : Thread nD τ).loc main_arg14)) (m ((c : Thread nD τ).loc main_arg15)) (m ((c : Thread nD τ).loc main_arg16))) (m ((c : Thread nD τ).loc main_arg1)) (m ((c : Thread nD τ).loc main_arg25)) (m ((c : Thread nD τ).loc main_arg26)) (m ((c : Thread nD τ).loc main_arg21)) (m ((c : Thread nD τ).loc main_arg22)) (m ((c : Thread nD τ).loc main_arg23)) (m ((c : Thread nD τ).loc main_arg24))) (m ((c : Thread nD τ).loc main_arg3))) (meanPool (conv2 (conv1 (nodeEnc (m ((c : Thread nD τ).loc main_arg4)) (m ((c : Thread nD τ).loc main_arg9)) (m ((c : Thread nD τ).loc main_arg10)) (m ((c : Thread nD τ).loc main_arg11)) (m ((c : Thread nD τ).loc main_arg12))) (edgeEnc (m ((c : Thread nD τ).loc main_arg6)) (m ((c : Thread nD τ).loc main_arg13)) (m ((c : Thread nD τ).loc main_arg14)) (m ((c : Thread nD τ).loc main_arg15)) (m ((c : Thread nD τ).loc main_arg16))) (m ((c : Thread nD τ).loc main_arg5)) (m ((c : Thread nD τ).loc main_arg27)) (m ((c : Thread nD τ).loc main_arg28)) (m ((c : Thread nD τ).loc main_arg29)) (m ((c : Thread nD τ).loc main_arg30))) (edgeEnc (m ((c : Thread nD τ).loc main_arg6)) (m ((c : Thread nD τ).loc main_arg13)) (m ((c : Thread nD τ).loc main_arg14)) (m ((c : Thread nD τ).loc main_arg15)) (m ((c : Thread nD τ).loc main_arg16))) (m ((c : Thread nD τ).loc main_arg5)) (m ((c : Thread nD τ).loc main_arg35)) (m ((c : Thread nD τ).loc main_arg36)) (m ((c : Thread nD τ).loc main_arg31)) (m ((c : Thread nD τ).loc main_arg32)) (m ((c : Thread nD τ).loc main_arg33)) (m ((c : Thread nD τ).loc main_arg34))) (m ((c : Thread nD τ).loc main_arg7))) (m ((c : Thread nD τ).loc main_arg8)) (m ((c : Thread nD τ).loc main_arg37)) (m ((c : Thread nD τ).loc main_arg38)) (m ((c : Thread nD τ).loc main_arg39)) (m ((c : Thread nD τ).loc main_arg40)) := by
  unfold result t_v122 t_v105 t_v99 t_v91 t_v89 t_v83 t_v71 t_v68 t_v46 t_v40 t_v32 t_v30 t_v24 t_v12 t_v9
  rfl

end Cert.KernelIdeal.Hand

end
-- ==== Proof.Ideal.RefResult.lean ====
import proofs.«106349_j21990232555677_1_alg».proof.Proof.Gen.ReferenceIdeal.Run
import proofs.«106349_j21990232555677_1_alg».proof.Proof.Ideal.RefTerms

/-!
# The host program's result is `output` of its arguments

The host program's run ends with its result buffer at one composed term of the argument arrays. Unfolded, that term is
the regressor on the two graphs' encodings beside the depth column, each encoding the mean pool of two convolutions over
the encoded names and edge attributes: the stages of RefTerms, composed.
-/

set_option maxRecDepth 16384

noncomputable section

namespace Cert.HostForms

open Idealize.ShloMosaic Idealize.ShloMosaic.TcCoe Idealize.SL.Sem Cert.ReferenceIdeal Cert.ReferenceIdeal.Gen Cert.ReferenceIdeal.Value

set_option maxHeartbeats 4000000 in
theorem res_eq (m' : (ℓ : Loc nD τ sig) → Buf (Elt Ideal) ℓ) (c : Dev nD) :
    res_main_v193 (F := Ideal) m' c = output (meanPool (conv2 (conv1 (nodeEnc (m' ((c.tc : Thread nD τ).loc main_arg0)) (m' ((c.tc : Thread nD τ).loc main_arg9)) (m' ((c.tc : Thread nD τ).loc main_arg10)) (m' ((c.tc : Thread nD τ).loc main_arg11)) (m' ((c.tc : Thread nD τ).loc main_arg12))) (edgeEnc (m' ((c.tc : Thread nD τ).loc main_arg2)) (m' ((c.tc : Thread nD τ).loc main_arg13)) (m' ((c.tc : Thread nD τ).loc main_arg14)) (m' ((c.tc : Thread nD τ).loc main_arg15)) (m' ((c.tc : Thread nD τ).loc main_arg16))) (m' ((c.tc : Thread nD τ).loc main_arg1)) (m' ((c.tc : Thread nD τ).loc main_arg17)) (m' ((c.tc : Thread nD τ).loc main_arg18)) (m' ((c.tc : Thread nD τ).loc main_arg19)) (m' ((c.tc : Thread nD τ).loc main_arg20))) (edgeEnc (m' ((c.tc : Thread nD τ).loc main_arg2)) (m' ((c.tc : Thread nD τ).loc main_arg13)) (m' ((c.tc : Thread nD τ).loc main_arg14)) (m' ((c.tc : Thread nD τ).loc main_arg15)) (m' ((c.tc : Thread nD τ).loc main_arg16))) (m' ((c.tc : Thread nD τ).loc main_arg1)) (m' ((c.tc : Thread nD τ).loc main_arg25)) (m' ((c.tc : Thread nD τ).loc main_arg26)) (m' ((c.tc : Thread nD τ).loc main_arg21)) (m' ((c.tc : Thread nD τ).loc main_arg22)) (m' ((c.tc : Thread nD τ).loc main_arg23)) (m' ((c.tc : Thread nD τ).loc main_arg24))) (m' ((c.tc : Thread nD τ).loc main_arg3))) (meanPool (conv2 (conv1 (nodeEnc (m' ((c.tc : Thread nD τ).loc main_arg4)) (m' ((c.tc : Thread nD τ).loc main_arg9)) (m' ((c.tc : Thread nD τ).loc main_arg10)) (m' ((c.tc : Thread nD τ).loc main_arg11)) (m' ((c.tc : Thread nD τ).loc main_arg12))) (edgeEnc (m' ((c.tc : Thread nD τ).loc main_arg6)) (m' ((c.tc : Thread nD τ).loc main_arg13)) (m' ((c.tc : Thread nD τ).loc main_arg14)) (m' ((c.tc : Thread nD τ).loc main_arg15)) (m' ((c.tc : Thread nD τ).loc main_arg16))) (m' ((c.tc : Thread nD τ).loc main_arg5)) (m' ((c.tc : Thread nD τ).loc main_arg27)) (m' ((c.tc : Thread nD τ).loc main_arg28)) (m' ((c.tc : Thread nD τ).loc main_arg29)) (m' ((c.tc : Thread nD τ).loc main_arg30))) (edgeEnc (m' ((c.tc : Thread nD τ).loc main_arg6)) (m' ((c.tc : Thread nD τ).loc main_arg13)) (m' ((c.tc : Thread nD τ).loc main_arg14)) (m' ((c.tc : Thread nD τ).loc main_arg15)) (m' ((c.tc : Thread nD τ).loc main_arg16))) (m' ((c.tc : Thread nD τ).loc main_arg5)) (m' ((c.tc : Thread nD τ).loc main_arg35)) (m' ((c.tc : Thread nD τ).loc main_arg36)) (m' ((c.tc : Thread nD τ).loc main_arg31)) (m' ((c.tc : Thread nD τ).loc main_arg32)) (m' ((c.tc : Thread nD τ).loc main_arg33)) (m' ((c.tc : Thread nD τ).loc main_arg34))) (m' ((c.tc : Thread nD τ).loc main_arg7))) (m' ((c.tc : Thread nD τ).loc main_arg8)) (m' ((c.tc : Thread nD τ).loc main_arg37)) (m' ((c.tc : Thread nD τ).loc main_arg38)) (m' ((c.tc : Thread nD τ).loc main_arg39)) (m' ((c.tc : Thread nD τ).loc main_arg40)) := by
  unfold res_main_v193 output meanPool conv2 conv1 nodeEnc edgeEnc nodeUpdate64 nodeUpdate32 reluAdd64 reluAdd32 edgeLin mlp2Head mlp2Node mlp2Edge normCol row32 row64 row1 srcIdx dstIdx srcVec
  rfl

end Cert.HostForms

end
-- ==== Proof.lean ====
/-
  The kernel is a graph network in fifteen pallas_calls — the name and edge-attribute encoders, and per convolution the
  message `relu (x[src] + e)`, the node update `relu (mlp (x + agg))` and an edge projection, for two graphs, then a
  regressor — around plain gathers, segment sums and a mean pool; the reference is the same network in jnp. Over the
  extended reals a change of float format is the identity and a matrix product into a zero accumulator is the exact sum, so
  each pallas_call's output array is the host program's spelling of its layer applied to the arrays the call is entered
  with (the FinalKK modules, block by block and then the whole array), the host operations between the calls are the
  reference's own (the Stretch modules), and the result buffer ends at the reference's composed term of the argument
  arrays (Chain, Bridge, RefResult). No law beyond the term-by-term equality of the sums is needed, so the finiteness
  precondition is never opened.

  The frames: @main is run as a list of segments, a segment per stretch of host operations and one per region, each
  region entered from every unscoped buffer at the boundary's contents and left with its output array at what its
  write-backs fold to (Run); every argument array ends as launched (Frame). The word-level program's frame is the same
  text at the word-level instance. The ideal pass rewrote nothing, so `preserves` is trivial; the reference's frame is its
  generated run with the result dropped.
-/
import proofs.«106349_j21990232555677_1_alg».proof.Defs
import proofs.«106349_j21990232555677_1_alg».proof.Proof.Gen.Kernel
import proofs.«106349_j21990232555677_1_alg».proof.Proof.Gen.Kernel.Skeleton
import proofs.«106349_j21990232555677_1_alg».proof.Proof.Gen.Kernel.Launch
import proofs.«106349_j21990232555677_1_alg».proof.Proof.Gen.Kernel.Points
import proofs.«106349_j21990232555677_1_alg».proof.Proof.Gen.KernelIdeal
import proofs.«106349_j21990232555677_1_alg».proof.Proof.Gen.KernelIdeal.Skeleton
import proofs.«106349_j21990232555677_1_alg».proof.Proof.Gen.KernelIdeal.Launch
import proofs.«106349_j21990232555677_1_alg».proof.Proof.Gen.KernelIdeal.Points
import proofs.«106349_j21990232555677_1_alg».proof.Proof.Gen.ReferenceIdeal
import proofs.«106349_j21990232555677_1_alg».proof.Proof.Gen.ReferenceIdeal.Run
import proofs.«106349_j21990232555677_1_alg».proof.Proof.Gen.Pre_finite_inputs
import proofs.«106349_j21990232555677_1_alg».proof.Proof.Bits.Frame
import proofs.«106349_j21990232555677_1_alg».proof.Proof.Ideal.Frame
import proofs.«106349_j21990232555677_1_alg».proof.Proof.Ideal.Bridge
import proofs.«106349_j21990232555677_1_alg».proof.Proof.Ideal.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass's ledger is empty. -/
theorem preserves : Cert.preserves_Kernel_KernelIdeal := trivial

set_option maxHeartbeats 4000000 in
/-- Both programs end with the result at `output` of the argument arrays, which agree. -/
theorem algebraic : Cert.algebraic_KernelIdeal_ReferenceIdeal := by
  intro m g m' g' _ hagree
  refine ⟨Cert.KernelIdeal.Hand.result m, Cert.KernelIdeal.Hand.value_run m g, ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40⟩ := hagree c
  rw [Cert.HostForms.res_eq, Cert.KernelIdeal.Hand.result_eq]
  simp only [h0, h1, h2, h3, h4, h5, h6, h7, h8, h9, h10, h11, h12, h13, h14, h15, h16, h17, h18, h19, h20, h21, h22, h23, h24, h25, h26, h27, h28, h29, h30, h31, h32, h33, h34, h35, h36, h37, h38, h39, h40]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
